-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S4x64 .f32) (main_arg7 : FVec F S4x64 .f32) (main_arg8 : FVec F S4x64 .f32) (main_arg9 : FVec F S64x32 .f32) (main_arg10 : FVec F S32 .f32) (main_arg11 : FVec F S32x1 .f32) (main_arg12 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x32 .f32) (main_arg1 : IVec S2x1600000 32) (main_arg2 : IVec S100000 32) (main_arg3 : FVec F S32x64 .f32) (main_arg4 : FVec F S64 .f32) (main_arg5 : FVec F S4x64x64 .f32) (main_arg6 : FVec F S4x64 .f32) (main_arg7 : FVec F S4x64 .f32) (main_arg8 : FVec F S4x64 .f32) (main_arg9 : FVec F S64x32 .f32) (main_arg10 : FVec F S32 .f32) (main_arg11 : FVec F S32x1 .f32) (main_arg12 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_arg9 main_arg10 main_arg11 main_arg12 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1700000 : Shape := ⟨1, ![1700000]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1x64x64 : Shape := ⟨3, ![1, 64, 64]⟩
abbrev S64x64 : Shape := ⟨2, ![64, 64]⟩
abbrev S1700000x1 : Shape := ⟨2, ![1700000, 1]⟩
abbrev S1700000x64 : Shape := ⟨2, ![1700000, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x32 : Shape := ⟨2, ![1, 32]⟩
abbrev S1x1 : Shape := ⟨2, ![1, 1]⟩
abbrev S256x32 : Shape := ⟨2, ![256, 32]⟩

abbrev nBuf : Space → Nat
  | .hbm => 232
  | .vmem => 100
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S4x64x64, .f32⟩
  | 6 => ⟨S4x64, .f32⟩
  | 7 => ⟨S4x64, .f32⟩
  | 8 => ⟨S4x64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000, .f32⟩
  | 28 => ⟨S100000, .i32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1700000, .i32⟩
  | 49 => ⟨S1700000, .i32⟩
  | 50 => ⟨S1700000, .f32⟩
  | 51 => ⟨S1x64, .f32⟩
  | 52 => ⟨S100000x64, .f32⟩
  | 53 => ⟨S1x64x64, .f32⟩
  | 54 => ⟨S64x64, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S64, .f32⟩
  | 88 => ⟨S1x64, .f32⟩
  | 89 => ⟨S1x64, .f32⟩
  | 90 => ⟨S64, .f32⟩
  | 91 => ⟨S1x64, .f32⟩
  | 92 => ⟨S100000x64, .f32⟩
  | 93 => ⟨S1x64x64, .f32⟩
  | 94 => ⟨S64x64, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S1x64, .f32⟩
  | 127 => ⟨S64, .f32⟩
  | _ => ⟨S100000x32, .f32⟩

abbrev hbmTy0_1 (i : Nat) : BufTy := match i % 128 with
  | 0 => ⟨S1x64, .f32⟩
  | 1 => ⟨S1x64, .f32⟩
  | 2 => ⟨S64, .f32⟩
  | 3 => ⟨S1x64, .f32⟩
  | 4 => ⟨S100000x64, .f32⟩
  | 5 => ⟨S1x64x64, .f32⟩
  | 6 => ⟨S64x64, .f32⟩
  | 7 => ⟨S100000x64, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S1x64, .f32⟩
  | 38 => ⟨S1x64, .f32⟩
  | 39 => ⟨S64, .f32⟩
  | 40 => ⟨S1x64, .f32⟩
  | 41 => ⟨S1x64, .f32⟩
  | 42 => ⟨S64, .f32⟩
  | 43 => ⟨S1x64, .f32⟩
  | 44 => ⟨S100000x64, .f32⟩
  | 45 => ⟨S1x64x64, .f32⟩
  | 46 => ⟨S64x64, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S1x64, .f32⟩
  | 69 => ⟨S1x64, .f32⟩
  | 70 => ⟨S_, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S1x64, .f32⟩
  | 79 => ⟨S64, .f32⟩
  | 80 => ⟨S1x64, .f32⟩
  | 81 => ⟨S1x64, .f32⟩
  | 82 => ⟨S64, .f32⟩
  | 83 => ⟨S1x64, .f32⟩
  | 84 => ⟨S100000x64, .f32⟩
  | 85 => ⟨S_, .f32⟩
  | 86 => ⟨S256x64, .f32⟩
  | 87 => ⟨S100000x1, .i32⟩
  | 88 => ⟨S256x64, .f32⟩
  | 89 => ⟨S_, .f32⟩
  | 90 => ⟨S100000, .f32⟩
  | 91 => ⟨S_, .f32⟩
  | 92 => ⟨S256, .f32⟩
  | 93 => ⟨S100000x1, .i32⟩
  | 94 => ⟨S256, .f32⟩
  | 95 => ⟨S_, .f32⟩
  | 96 => ⟨S256, .f32⟩
  | 97 => ⟨S256, .f32⟩
  | 98 => ⟨S256x1, .f32⟩
  | 99 => ⟨S256x64, .f32⟩
  | 100 => ⟨S256x64, .f32⟩
  | 101 => ⟨S1x32, .f32⟩
  | 102 => ⟨S1x1, .f32⟩
  | 103 => ⟨S256x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S5000x64, .f32⟩
  | .local _ .vmem, ⟨63, _⟩ => ⟨S5000x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S1x64, .f32⟩
  | .local _ .vmem, ⟨80, _⟩ => ⟨S5000x64, .f32⟩
  | .local _ .vmem, ⟨81, _⟩ => ⟨S5000x64, .f32⟩
  | .local _ .vmem, ⟨82, _⟩ => ⟨S1x64, .f32⟩
  | .local _ .vmem, ⟨83, _⟩ => ⟨S1x64, .f32⟩
  | .local _ .vmem, ⟨84, _⟩ => ⟨S5000x64, .f32⟩
  | .local _ .vmem, ⟨85, _⟩ => ⟨S5000x64, .f32⟩
  | .local _ .vmem, ⟨86, _⟩ => ⟨S1x64, .f32⟩
  | .local _ .vmem, ⟨87, _⟩ => ⟨S1x64, .f32⟩
  | .local _ .vmem, ⟨88, _⟩ => ⟨S1x64, .f32⟩
  | .local _ .vmem, ⟨89, _⟩ => ⟨S1x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S256x64, .f32⟩
  | .local _ .vmem, ⟨95, _⟩ => ⟨S64x32, .f32⟩
  | .local _ .vmem, ⟨96, _⟩ => ⟨S1x32, .f32⟩
  | .local _ .vmem, ⟨97, _⟩ => ⟨S32x1, .f32⟩
  | .local _ .vmem, ⟨98, _⟩ => ⟨S1x1, .f32⟩
  | .local _ .vmem, ⟨99, _⟩ => ⟨S256x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_10 : Ref sig .tc := ⟨.hbm, 96, rfl⟩
abbrev main_v69 : Ref sig .tc := ⟨.hbm, 97, rfl⟩
abbrev main_v70 : Ref sig .tc := ⟨.hbm, 98, rfl⟩
abbrev main_c_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85_0 : Ref sig .tc := ⟨.hbm, 115, rfl⟩
abbrev main_v85_1 : Ref sig .tc := ⟨.hbm, 116, rfl⟩
abbrev main_v85_2 : Ref sig .tc := ⟨.hbm, 117, rfl⟩
abbrev main_cst_13 : Ref sig .tc := ⟨.hbm, 118, rfl⟩
abbrev main_v86 : Ref sig .tc := ⟨.hbm, 119, rfl⟩
abbrev main_v87 : Ref sig .tc := ⟨.hbm, 120, rfl⟩
abbrev main_cst_14 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_15 : Ref sig .tc := ⟨.hbm, 136, rfl⟩
abbrev main_v102 : Ref sig .tc := ⟨.hbm, 137, rfl⟩
abbrev main_v103 : Ref sig .tc := ⟨.hbm, 138, rfl⟩
abbrev main_c_16 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_17 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118_0 : Ref sig .tc := ⟨.hbm, 155, rfl⟩
abbrev main_v118_1 : Ref sig .tc := ⟨.hbm, 156, rfl⟩
abbrev main_v118_2 : Ref sig .tc := ⟨.hbm, 157, rfl⟩
abbrev main_cst_18 : Ref sig .tc := ⟨.hbm, 158, rfl⟩
abbrev main_v119 : Ref sig .tc := ⟨.hbm, 159, rfl⟩
abbrev main_v120 : Ref sig .tc := ⟨.hbm, 160, rfl⟩
abbrev main_cst_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_c_20 : Ref sig .tc := ⟨.hbm, 176, rfl⟩
abbrev main_v135 : Ref sig .tc := ⟨.hbm, 177, rfl⟩
abbrev main_v136 : Ref sig .tc := ⟨.hbm, 178, rfl⟩
abbrev main_c_21 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_22 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151_0 : Ref sig .tc := ⟨.hbm, 195, rfl⟩
abbrev main_v151_1 : Ref sig .tc := ⟨.hbm, 196, rfl⟩
abbrev main_v151_2 : Ref sig .tc := ⟨.hbm, 197, rfl⟩
abbrev main_cst_23 : Ref sig .tc := ⟨.hbm, 198, rfl⟩
abbrev main_v152 : Ref sig .tc := ⟨.hbm, 199, rfl⟩
abbrev main_v153 : Ref sig .tc := ⟨.hbm, 200, rfl⟩
abbrev main_cst_24 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_25 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_26 : Ref sig .tc := ⟨.hbm, 217, rfl⟩
abbrev main_v168 : Ref sig .tc := ⟨.hbm, 218, rfl⟩
abbrev main_cst_27 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_28 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg4_0 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg4_0 : Ref sig .tc := ⟨.vmem, 67, rfl⟩
abbrev cc9_stg5_0 : Ref sig .tc := ⟨.vmem, 68, rfl⟩
abbrev cc9_stg5_1 : Ref sig .tc := ⟨.vmem, 69, rfl⟩
abbrev cc9_stg6_0 : Ref sig .tc := ⟨.vmem, 70, rfl⟩
abbrev cc9_stg6_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg2_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg2_0 : Ref sig .tc := ⟨.vmem, 80, rfl⟩
abbrev cc11_stg2_1 : Ref sig .tc := ⟨.vmem, 81, rfl⟩
abbrev cc11_stg3_0 : Ref sig .tc := ⟨.vmem, 82, rfl⟩
abbrev cc11_stg4_0 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg4_0 : Ref sig .tc := ⟨.vmem, 89, rfl⟩
abbrev cc12_stg5_0 : Ref sig .tc := ⟨.vmem, 90, rfl⟩
abbrev cc12_stg5_1 : Ref sig .tc := ⟨.vmem, 91, rfl⟩
abbrev cc12_stg6_0 : Ref sig .tc := ⟨.vmem, 92, rfl⟩
abbrev cc12_stg6_1 : Ref sig .tc := ⟨.vmem, 93, rfl⟩
abbrev cc13_stg0_0 : Ref sig .tc := ⟨.vmem, 94, rfl⟩
abbrev cc13_stg1_0 : Ref sig .tc := ⟨.vmem, 95, rfl⟩
abbrev cc13_stg2_0 : Ref sig .tc := ⟨.vmem, 96, rfl⟩
abbrev cc13_stg3_0 : Ref sig .tc := ⟨.vmem, 97, rfl⟩
abbrev cc13_stg4_0 : Ref sig .tc := ⟨.vmem, 98, rfl⟩
abbrev cc13_stg5_0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc6_sem6_0 : DmaSem sig := 48
abbrev cc6_sem6_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem2_0 : DmaSem sig := 58
abbrev cc8_sem2_1 : DmaSem sig := 59
abbrev cc8_sem3_0 : DmaSem sig := 60
abbrev cc8_sem4_0 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem4_0 : DmaSem sig := 67
abbrev cc9_sem5_0 : DmaSem sig := 68
abbrev cc9_sem5_1 : DmaSem sig := 69
abbrev cc9_sem6_0 : DmaSem sig := 70
abbrev cc9_sem6_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem2_1 : DmaSem sig := 76
abbrev cc11_sem0_0 : DmaSem sig := 77
abbrev cc11_sem0_1 : DmaSem sig := 78
abbrev cc11_sem1_0 : DmaSem sig := 79
abbrev cc11_sem2_0 : DmaSem sig := 80
abbrev cc11_sem2_1 : DmaSem sig := 81
abbrev cc11_sem3_0 : DmaSem sig := 82
abbrev cc11_sem4_0 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem4_0 : DmaSem sig := 89
abbrev cc12_sem5_0 : DmaSem sig := 90
abbrev cc12_sem5_1 : DmaSem sig := 91
abbrev cc12_sem6_0 : DmaSem sig := 92
abbrev cc12_sem6_1 : DmaSem sig := 93
abbrev cc13_sem0_0 : DmaSem sig := 94
abbrev cc13_sem1_0 : DmaSem sig := 95
abbrev cc13_sem2_0 : DmaSem sig := 96
abbrev cc13_sem3_0 : DmaSem sig := 97
abbrev cc13_sem4_0 : DmaSem sig := 98
abbrev cc13_sem5_0 : DmaSem sig := 99

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S5000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S256x64 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S64x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S32x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x1 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S256x1 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S4x64x64_S1x64x64_0_0_0 : S4x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  reduces_S5000x64_S64 : S5000x64.Reduces [0] S64
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S32_S1x32 : S32.ShapeCasts S1x32
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S100000x64.size a
  hwx9_5 : ∀ i : grid9.Coords, EltTy.bits .f32 = 32 ∨ (Rect.block (s := S100000x64) S5000x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S100000x64.size a
  hwx12_5 : ∀ i : grid12.Coords, EltTy.bits .f32 = 32 ∨ (Rect.block (s := S100000x64) S5000x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x64.size a ≤ S100000x64.size a
  hwx12_6 : ∀ i : grid12.Coords, EltTy.bits .f32 = 32 ∨ (Rect.block (s := S100000x64) S5000x64.size (cc12_transform_6 i) (hinb12_6 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S256x64.size a ≤ S256x64.size a
  hwx13_0 : ∀ i : grid13.Coords, EltTy.bits .f32 = 32 ∨ (Rect.block (s := S256x64) S256x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x32.size a ≤ S64x32.size a
  hwx13_1 : ∀ i : grid13.Coords, EltTy.bits .f32 = 32 ∨ (Rect.block (s := S64x32) S64x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x32.size a ≤ S1x32.size a
  hwx13_2 : ∀ i : grid13.Coords, EltTy.bits .f32 = 32 ∨ (Rect.block (s := S1x32) S1x32.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S32x1.size a ≤ S32x1.size a
  hwx13_3 : ∀ i : grid13.Coords, EltTy.bits .f32 = 32 ∨ (Rect.block (s := S32x1) S32x1.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x1.size a ≤ S1x1.size a
  hwx13_4 : ∀ i : grid13.Coords, EltTy.bits .f32 = 32 ∨ (Rect.block (s := S1x1) S1x1.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S256x1.size a ≤ S256x1.size a
  hwx13_5 : ∀ i : grid13.Coords, EltTy.bits .f32 = 32 ∨ (Rect.block (s := S256x1) S256x1.size (cc13_transform_5 i) (hinb13_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S5000x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52_1) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_2) S1x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v65) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85_0) S5000x64.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v85_1) S1x64.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85_2) S1x64.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v65) S5000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v98) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v98) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v114) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118_0) S5000x64.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v118_1) S1x64.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118_2) S1x64.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v118_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v120) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v124) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v127) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v130) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v98) S5000x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v131) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v131) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v133) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v134) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v147) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v150) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v151_0) S5000x64.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v151_1) S1x64.size cc11_transform_3 reads11_3 true true 1 stage11_3 sem11_3
    hrank11 hreads11_3 hinb11_3 nbuf11_3 (Memref.isWhole_whole _) hwx11_3 hstage11_3

abbrev win11_4 : Pipeline.Window sig grid11 :=
  Pipeline.Window.ofSpec (Memref.whole main_v151_2) S1x64.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v151_0) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v153) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v157) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v160) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v163) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v131) S5000x64.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v164) S5000x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v176) S256x64.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg9) S64x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v177) S1x32.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg11) S32x1.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v178) S1x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v179) S256x1.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S4x64x64 : Shape := ⟨3, ![4, 64, 64]⟩
abbrev S4x64 : Shape := ⟨2, ![4, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S256x64 : Shape := ⟨2, ![256, 64]⟩
abbrev S256 : Shape := ⟨1, ![256]⟩
abbrev S256x1 : Shape := ⟨2, ![256, 1]⟩
abbrev S256x32 : Shape := ⟨2, ![256, 32]⟩
abbrev S1x32 : Shape := ⟨2, ![1, 32]⟩
abbrev S1x1 : Shape := ⟨2, ![1, 1]⟩

abbrev nBuf : Space → Nat
  | .hbm => 488
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S32x64, .f32⟩
  | 4 => ⟨S64, .f32⟩
  | 5 => ⟨S4x64x64, .f32⟩
  | 6 => ⟨S4x64, .f32⟩
  | 7 => ⟨S4x64, .f32⟩
  | 8 => ⟨S4x64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S1x64, .f32⟩
  | 19 => ⟨S100000x64, .f32⟩
  | 20 => ⟨S100000x64, .f32⟩
  | 21 => ⟨S1x64x64, .f32⟩
  | 22 => ⟨S64x64, .f32⟩
  | 23 => ⟨S1x64, .f32⟩
  | 24 => ⟨S64, .f32⟩
  | 25 => ⟨S100000x64, .f32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S1600000, .f32⟩
  | 64 => ⟨S1600000x1, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S64, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x32, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64x64, .f32⟩
  | 4 => ⟨S64x64, .f32⟩
  | 5 => ⟨S1x64, .f32⟩
  | 6 => ⟨S64, .f32⟩
  | 7 => ⟨S100000x64, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1600000x1, .f32⟩
  | 47 => ⟨S1600000x64, .f32⟩
  | 48 => ⟨S1600000x64, .f32⟩
  | 49 => ⟨S_, .f32⟩
  | 50 => ⟨S100000x64, .f32⟩
  | 51 => ⟨S1600000x1, .i32⟩
  | 52 => ⟨S100000x64, .f32⟩
  | 53 => ⟨S100000, .f32⟩
  | 54 => ⟨S100000x1, .f32⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S1x64, .f32⟩
  | 62 => ⟨S64, .f32⟩
  | 63 => ⟨S1x64, .f32⟩
  | 64 => ⟨S64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S64, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S1x64x64, .f32⟩
  | 114 => ⟨S64x64, .f32⟩
  | 115 => ⟨S1x64, .f32⟩
  | 116 => ⟨S64, .f32⟩
  | 117 => ⟨S100000x64, .f32⟩
  | 118 => ⟨S_, .f32⟩
  | 119 => ⟨S1600000, .f32⟩
  | 120 => ⟨S_, .f32⟩
  | 121 => ⟨S100000, .f32⟩
  | 122 => ⟨S1600000x1, .i32⟩
  | 123 => ⟨S100000, .f32⟩
  | 124 => ⟨S_, .f32⟩
  | 125 => ⟨S100000, .f32⟩
  | 126 => ⟨S100000, .f32⟩
  | 127 => ⟨S100000, .f32⟩
  | _ => ⟨S100000x32, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S1600000, .f32⟩
  | 28 => ⟨S1600000x1, .f32⟩
  | 29 => ⟨S1600000x64, .f32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S100000, .f32⟩
  | 36 => ⟨S100000x1, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S1x64, .f32⟩
  | 44 => ⟨S64, .f32⟩
  | 45 => ⟨S1x64, .f32⟩
  | 46 => ⟨S64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S1x64x64, .f32⟩
  | 96 => ⟨S64x64, .f32⟩
  | 97 => ⟨S1x64, .f32⟩
  | 98 => ⟨S64, .f32⟩
  | 99 => ⟨S100000x64, .f32⟩
  | 100 => ⟨S_, .f32⟩
  | 101 => ⟨S1600000, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S100000x32, .f32⟩

abbrev hbmTy0_3 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S1600000x1, .f32⟩
  | 11 => ⟨S1600000x64, .f32⟩
  | 12 => ⟨S1600000x64, .f32⟩
  | 13 => ⟨S_, .f32⟩
  | 14 => ⟨S100000x64, .f32⟩
  | 15 => ⟨S1600000x1, .i32⟩
  | 16 => ⟨S100000x64, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S64, .f32⟩
  | 27 => ⟨S1x64, .f32⟩
  | 28 => ⟨S64, .f32⟩
  | 29 => ⟨S_, .f32⟩
  | 30 => ⟨S64, .f32⟩
  | 31 => ⟨S_, .f32⟩
  | 32 => ⟨S64, .f32⟩
  | 33 => ⟨S64, .f32⟩
  | 34 => ⟨S_, .i32⟩
  | 35 => ⟨S_, .f32⟩
  | 36 => ⟨S64, .f32⟩
  | 37 => ⟨S1x64, .f32⟩
  | 38 => ⟨S_, .f32⟩
  | 39 => ⟨S1x64, .f32⟩
  | 40 => ⟨S1x64, .f32⟩
  | 41 => ⟨S100000x64, .f32⟩
  | 42 => ⟨S100000x64, .f32⟩
  | 43 => ⟨S100000x64, .f32⟩
  | 44 => ⟨S_, .f32⟩
  | 45 => ⟨S_, .f32⟩
  | 46 => ⟨S_, .f32⟩
  | 47 => ⟨S_, .f32⟩
  | 48 => ⟨S64, .f32⟩
  | 49 => ⟨S64, .f32⟩
  | 50 => ⟨S64, .f32⟩
  | 51 => ⟨S_, .f32⟩
  | 52 => ⟨S_, .i1⟩
  | 53 => ⟨S_, .f32⟩
  | 54 => ⟨S_, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .f32⟩
  | 78 => ⟨S256x64, .f32⟩
  | 79 => ⟨S100000x1, .i32⟩
  | 80 => ⟨S256x64, .f32⟩
  | 81 => ⟨S_, .f32⟩
  | 82 => ⟨S100000, .f32⟩
  | 83 => ⟨S_, .f32⟩
  | 84 => ⟨S256, .f32⟩
  | 85 => ⟨S100000x1, .i32⟩
  | 86 => ⟨S256, .f32⟩
  | 87 => ⟨S_, .f32⟩
  | 88 => ⟨S256, .f32⟩
  | 89 => ⟨S256, .f32⟩
  | 90 => ⟨S256x1, .f32⟩
  | 91 => ⟨S256x64, .f32⟩
  | 92 => ⟨S256x64, .f32⟩
  | 93 => ⟨S256x32, .f32⟩
  | 94 => ⟨S1x32, .f32⟩
  | 95 => ⟨S256x32, .f32⟩
  | 96 => ⟨S256x32, .f32⟩
  | 97 => ⟨S_, .f32⟩
  | 98 => ⟨S256x32, .f32⟩
  | 99 => ⟨S256x32, .f32⟩
  | 100 => ⟨S256x1, .f32⟩
  | 101 => ⟨S1x1, .f32⟩
  | 102 => ⟨S256x1, .f32⟩
  | 103 => ⟨S256x1, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_8 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_cst_3 : Ref sig .tc := ⟨.hbm, 105, rfl⟩
abbrev main_call0_v12 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_11 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call1_cst : Ref sig .tc := ⟨.hbm, 127, rfl⟩
abbrev main_call1_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_12 : Ref sig .tc := ⟨.hbm, 136, rfl⟩
abbrev main_v86 : Ref sig .tc := ⟨.hbm, 137, rfl⟩
abbrev main_cst_13 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_14 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_15 : Ref sig .tc := ⟨.hbm, 146, rfl⟩
abbrev main_v93 : Ref sig .tc := ⟨.hbm, 147, rfl⟩
abbrev main_v94 : Ref sig .tc := ⟨.hbm, 148, rfl⟩
abbrev main_c_16 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_c_17 : Ref sig .tc := ⟨.hbm, 155, rfl⟩
abbrev main_v100 : Ref sig .tc := ⟨.hbm, 156, rfl⟩
abbrev main_v101 : Ref sig .tc := ⟨.hbm, 157, rfl⟩
abbrev main_c_18 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_19 : Ref sig .tc := ⟨.hbm, 164, rfl⟩
abbrev main_v107 : Ref sig .tc := ⟨.hbm, 165, rfl⟩
abbrev main_v108 : Ref sig .tc := ⟨.hbm, 166, rfl⟩
abbrev main_c_20 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_21 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_22 : Ref sig .tc := ⟨.hbm, 193, rfl⟩
abbrev main_v133 : Ref sig .tc := ⟨.hbm, 194, rfl⟩
abbrev main_cst_23 : Ref sig .tc := ⟨.hbm, 195, rfl⟩
abbrev main_v134 : Ref sig .tc := ⟨.hbm, 196, rfl⟩
abbrev main_v135 : Ref sig .tc := ⟨.hbm, 197, rfl⟩
abbrev main_c_24 : Ref sig .tc := ⟨.hbm, 198, rfl⟩
abbrev main_call2_cst : Ref sig .tc := ⟨.hbm, 199, rfl⟩
abbrev main_call2_v0 : Ref sig .tc := ⟨.hbm, 200, rfl⟩
abbrev main_call2_v1 : Ref sig .tc := ⟨.hbm, 201, rfl⟩
abbrev main_call2_cst_0 : Ref sig .tc := ⟨.hbm, 202, rfl⟩
abbrev main_call2_v2 : Ref sig .tc := ⟨.hbm, 203, rfl⟩
abbrev main_call2_v3 : Ref sig .tc := ⟨.hbm, 204, rfl⟩
abbrev main_call2_v4 : Ref sig .tc := ⟨.hbm, 205, rfl⟩
abbrev main_call2_v5 : Ref sig .tc := ⟨.hbm, 206, rfl⟩
abbrev main_call2_v6 : Ref sig .tc := ⟨.hbm, 207, rfl⟩
abbrev main_call2_v7 : Ref sig .tc := ⟨.hbm, 208, rfl⟩
abbrev main_call2_cst_1 : Ref sig .tc := ⟨.hbm, 209, rfl⟩
abbrev main_call2_v8 : Ref sig .tc := ⟨.hbm, 210, rfl⟩
abbrev main_call2_cst_2 : Ref sig .tc := ⟨.hbm, 211, rfl⟩
abbrev main_call2_v9 : Ref sig .tc := ⟨.hbm, 212, rfl⟩
abbrev main_call2_v10 : Ref sig .tc := ⟨.hbm, 213, rfl⟩
abbrev main_call2_v11 : Ref sig .tc := ⟨.hbm, 214, rfl⟩
abbrev main_call2_cst_3 : Ref sig .tc := ⟨.hbm, 215, rfl⟩
abbrev main_call2_v12 : Ref sig .tc := ⟨.hbm, 216, rfl⟩
abbrev main_call2_cst_4 : Ref sig .tc := ⟨.hbm, 217, rfl⟩
abbrev main_call2_call0_v0 : Ref sig .tc := ⟨.hbm, 218, rfl⟩
abbrev main_call2_call0_v1 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_25 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_call3_cst : Ref sig .tc := ⟨.hbm, 237, rfl⟩
abbrev main_call3_v0 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_cst_26 : Ref sig .tc := ⟨.hbm, 246, rfl⟩
abbrev main_v159 : Ref sig .tc := ⟨.hbm, 247, rfl⟩
abbrev main_cst_27 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_28 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_c_29 : Ref sig .tc := ⟨.hbm, 256, rfl⟩
abbrev main_v166 : Ref sig .tc := ⟨.hbm, 257, rfl⟩
abbrev main_v167 : Ref sig .tc := ⟨.hbm, 258, rfl⟩
abbrev main_c_30 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_c_31 : Ref sig .tc := ⟨.hbm, 265, rfl⟩
abbrev main_v173 : Ref sig .tc := ⟨.hbm, 266, rfl⟩
abbrev main_v174 : Ref sig .tc := ⟨.hbm, 267, rfl⟩
abbrev main_c_32 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_c_33 : Ref sig .tc := ⟨.hbm, 274, rfl⟩
abbrev main_v180 : Ref sig .tc := ⟨.hbm, 275, rfl⟩
abbrev main_v181 : Ref sig .tc := ⟨.hbm, 276, rfl⟩
abbrev main_c_34 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_cst_35 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_cst_36 : Ref sig .tc := ⟨.hbm, 303, rfl⟩
abbrev main_v206 : Ref sig .tc := ⟨.hbm, 304, rfl⟩
abbrev main_cst_37 : Ref sig .tc := ⟨.hbm, 305, rfl⟩
abbrev main_v207 : Ref sig .tc := ⟨.hbm, 306, rfl⟩
abbrev main_v208 : Ref sig .tc := ⟨.hbm, 307, rfl⟩
abbrev main_c_38 : Ref sig .tc := ⟨.hbm, 308, rfl⟩
abbrev main_call4_cst : Ref sig .tc := ⟨.hbm, 309, rfl⟩
abbrev main_call4_v0 : Ref sig .tc := ⟨.hbm, 310, rfl⟩
abbrev main_call4_v1 : Ref sig .tc := ⟨.hbm, 311, rfl⟩
abbrev main_call4_cst_0 : Ref sig .tc := ⟨.hbm, 312, rfl⟩
abbrev main_call4_v2 : Ref sig .tc := ⟨.hbm, 313, rfl⟩
abbrev main_call4_v3 : Ref sig .tc := ⟨.hbm, 314, rfl⟩
abbrev main_call4_v4 : Ref sig .tc := ⟨.hbm, 315, rfl⟩
abbrev main_call4_v5 : Ref sig .tc := ⟨.hbm, 316, rfl⟩
abbrev main_call4_v6 : Ref sig .tc := ⟨.hbm, 317, rfl⟩
abbrev main_call4_v7 : Ref sig .tc := ⟨.hbm, 318, rfl⟩
abbrev main_call4_cst_1 : Ref sig .tc := ⟨.hbm, 319, rfl⟩
abbrev main_call4_v8 : Ref sig .tc := ⟨.hbm, 320, rfl⟩
abbrev main_call4_cst_2 : Ref sig .tc := ⟨.hbm, 321, rfl⟩
abbrev main_call4_v9 : Ref sig .tc := ⟨.hbm, 322, rfl⟩
abbrev main_call4_v10 : Ref sig .tc := ⟨.hbm, 323, rfl⟩
abbrev main_call4_v11 : Ref sig .tc := ⟨.hbm, 324, rfl⟩
abbrev main_call4_cst_3 : Ref sig .tc := ⟨.hbm, 325, rfl⟩
abbrev main_call4_v12 : Ref sig .tc := ⟨.hbm, 326, rfl⟩
abbrev main_call4_cst_4 : Ref sig .tc := ⟨.hbm, 327, rfl⟩
abbrev main_call4_call0_v0 : Ref sig .tc := ⟨.hbm, 328, rfl⟩
abbrev main_call4_call0_v1 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_cst_39 : Ref sig .tc := ⟨.hbm, 334, rfl⟩
abbrev main_v213 : Ref sig .tc := ⟨.hbm, 335, rfl⟩
abbrev main_v214 : Ref sig .tc := ⟨.hbm, 336, rfl⟩
abbrev main_v215 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_v223 : Ref sig .tc := ⟨.hbm, 345, rfl⟩
abbrev main_v224 : Ref sig .tc := ⟨.hbm, 346, rfl⟩
abbrev main_call5_cst : Ref sig .tc := ⟨.hbm, 347, rfl⟩
abbrev main_call5_v0 : Ref sig .tc := ⟨.hbm, 348, rfl⟩
abbrev main_v225 : Ref sig .tc := ⟨.hbm, 349, rfl⟩
abbrev main_v226 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_v231 : Ref sig .tc := ⟨.hbm, 355, rfl⟩
abbrev main_cst_40 : Ref sig .tc := ⟨.hbm, 356, rfl⟩
abbrev main_v232 : Ref sig .tc := ⟨.hbm, 357, rfl⟩
abbrev main_cst_41 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_cst_42 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_c_43 : Ref sig .tc := ⟨.hbm, 366, rfl⟩
abbrev main_v239 : Ref sig .tc := ⟨.hbm, 367, rfl⟩
abbrev main_v240 : Ref sig .tc := ⟨.hbm, 368, rfl⟩
abbrev main_c_44 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_c_45 : Ref sig .tc := ⟨.hbm, 375, rfl⟩
abbrev main_v246 : Ref sig .tc := ⟨.hbm, 376, rfl⟩
abbrev main_v247 : Ref sig .tc := ⟨.hbm, 377, rfl⟩
abbrev main_c_46 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_c_47 : Ref sig .tc := ⟨.hbm, 384, rfl⟩
abbrev main_v253 : Ref sig .tc := ⟨.hbm, 385, rfl⟩
abbrev main_v254 : Ref sig .tc := ⟨.hbm, 386, rfl⟩
abbrev main_c_48 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_v263 : Ref sig .tc := ⟨.hbm, 396, rfl⟩
abbrev main_cst_49 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_v267 : Ref sig .tc := ⟨.hbm, 401, rfl⟩
abbrev main_v268 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_v272 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_cst_50 : Ref sig .tc := ⟨.hbm, 413, rfl⟩
abbrev main_v279 : Ref sig .tc := ⟨.hbm, 414, rfl⟩
abbrev main_cst_51 : Ref sig .tc := ⟨.hbm, 415, rfl⟩
abbrev main_v280 : Ref sig .tc := ⟨.hbm, 416, rfl⟩
abbrev main_v281 : Ref sig .tc := ⟨.hbm, 417, rfl⟩
abbrev main_c_52 : Ref sig .tc := ⟨.hbm, 418, rfl⟩
abbrev main_call6_cst : Ref sig .tc := ⟨.hbm, 419, rfl⟩
abbrev main_call6_v0 : Ref sig .tc := ⟨.hbm, 420, rfl⟩
abbrev main_call6_v1 : Ref sig .tc := ⟨.hbm, 421, rfl⟩
abbrev main_call6_cst_0 : Ref sig .tc := ⟨.hbm, 422, rfl⟩
abbrev main_call6_v2 : Ref sig .tc := ⟨.hbm, 423, rfl⟩
abbrev main_call6_v3 : Ref sig .tc := ⟨.hbm, 424, rfl⟩
abbrev main_call6_v4 : Ref sig .tc := ⟨.hbm, 425, rfl⟩
abbrev main_call6_v5 : Ref sig .tc := ⟨.hbm, 426, rfl⟩
abbrev main_call6_v6 : Ref sig .tc := ⟨.hbm, 427, rfl⟩
abbrev main_call6_v7 : Ref sig .tc := ⟨.hbm, 428, rfl⟩
abbrev main_call6_cst_1 : Ref sig .tc := ⟨.hbm, 429, rfl⟩
abbrev main_call6_v8 : Ref sig .tc := ⟨.hbm, 430, rfl⟩
abbrev main_call6_cst_2 : Ref sig .tc := ⟨.hbm, 431, rfl⟩
abbrev main_call6_v9 : Ref sig .tc := ⟨.hbm, 432, rfl⟩
abbrev main_call6_v10 : Ref sig .tc := ⟨.hbm, 433, rfl⟩
abbrev main_call6_v11 : Ref sig .tc := ⟨.hbm, 434, rfl⟩
abbrev main_call6_cst_3 : Ref sig .tc := ⟨.hbm, 435, rfl⟩
abbrev main_call6_v12 : Ref sig .tc := ⟨.hbm, 436, rfl⟩
abbrev main_call6_cst_4 : Ref sig .tc := ⟨.hbm, 437, rfl⟩
abbrev main_call6_call0_v0 : Ref sig .tc := ⟨.hbm, 438, rfl⟩
abbrev main_call6_call0_v1 : Ref sig .tc := ⟨.hbm, 439, rfl⟩
abbrev main_v282 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_cst_53 : Ref sig .tc := ⟨.hbm, 444, rfl⟩
abbrev main_v286 : Ref sig .tc := ⟨.hbm, 445, rfl⟩
abbrev main_v287 : Ref sig .tc := ⟨.hbm, 446, rfl⟩
abbrev main_v288 : Ref sig .tc := ⟨.hbm, 447, rfl⟩
abbrev main_v289 : Ref sig .tc := ⟨.hbm, 448, rfl⟩
abbrev main_v290 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_v297 : Ref sig .tc := ⟨.hbm, 456, rfl⟩
abbrev main_call7_cst : Ref sig .tc := ⟨.hbm, 457, rfl⟩
abbrev main_call7_v0 : Ref sig .tc := ⟨.hbm, 458, rfl⟩
abbrev main_v298 : Ref sig .tc := ⟨.hbm, 459, rfl⟩
abbrev main_v299 : Ref sig .tc := ⟨.hbm, 460, rfl⟩
abbrev main_cst_54 : Ref sig .tc := ⟨.hbm, 461, rfl⟩
abbrev main_v300 : Ref sig .tc := ⟨.hbm, 462, rfl⟩
abbrev main_v301 : Ref sig .tc := ⟨.hbm, 463, rfl⟩
abbrev main_v302 : Ref sig .tc := ⟨.hbm, 464, rfl⟩
abbrev main_cst_55 : Ref sig .tc := ⟨.hbm, 465, rfl⟩
abbrev main_v303 : Ref sig .tc := ⟨.hbm, 466, rfl⟩
abbrev main_cst_56 : Ref sig .tc := ⟨.hbm, 467, rfl⟩
abbrev main_v304 : Ref sig .tc := ⟨.hbm, 468, rfl⟩
abbrev main_v305 : Ref sig .tc := ⟨.hbm, 469, rfl⟩
abbrev main_v306 : Ref sig .tc := ⟨.hbm, 470, rfl⟩
abbrev main_cst_57 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_v310 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_v314 : Ref sig .tc := ⟨.hbm, 479, rfl⟩
abbrev main_v315 : Ref sig .tc := ⟨.hbm, 480, rfl⟩
abbrev main_call8_cst : Ref sig .tc := ⟨.hbm, 481, rfl⟩
abbrev main_call8_v0 : Ref sig .tc := ⟨.hbm, 482, rfl⟩
abbrev main_v316 : Ref sig .tc := ⟨.hbm, 483, rfl⟩
abbrev main_v317 : Ref sig .tc := ⟨.hbm, 484, rfl⟩
abbrev main_v318 : Ref sig .tc := ⟨.hbm, 485, rfl⟩
abbrev main_v319 : Ref sig .tc := ⟨.hbm, 486, rfl⟩
abbrev main_v320 : Ref sig .tc := ⟨.hbm, 487, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.KRun.lean ====
/-
  The run of the idealized kernel program with its result named: every weakly fair execution of @main terminates,
  nothing faulting, the thirteen argument arrays end as launched, and the result buffer ends at the contents the
  fold of the program's segments gives it (the last boundary's contents, read at the result buffer). The argument
  is the frame's: the launch over the 28 segments, the last thread state read against the final state; one more
  buffer is read off that state.
-/
import proofs.«109724_j81406810128840_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer's final contents named. -/
theorem run : θ_run defs (onTc (τ := τ) (main (F := F))) ⟨m, fun _ => 0, ρ⟩ (fun r => ∀ c : Dev nD,
      r.2.mem ((c.tc : Thread nD τ).loc main_v179) = W28 m ρ c (Proc.devRef .tc main_v179)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v179 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c),
       (h c _ (mem_uc main_arg4 (by decide))).trans (W28_main_arg4 m ρ c),
       (h c _ (mem_uc main_arg5 (by decide))).trans (W28_main_arg5 m ρ c),
       (h c _ (mem_uc main_arg6 (by decide))).trans (W28_main_arg6 m ρ c),
       (h c _ (mem_uc main_arg7 (by decide))).trans (W28_main_arg7 m ρ c),
       (h c _ (mem_uc main_arg8 (by decide))).trans (W28_main_arg8 m ρ c),
       (h c _ (mem_uc main_arg9 (by decide))).trans (W28_main_arg9 m ρ c),
       (h c _ (mem_uc main_arg10 (by decide))).trans (W28_main_arg10 m ρ c),
       (h c _ (mem_uc main_arg11 (by decide))).trans (W28_main_arg11 m ρ c),
       (h c _ (mem_uc main_arg12 (by decide))).trans (W28_main_arg12 m ρ c)⟩)

end Cert.KernelIdeal.KRun

end
-- ==== Proof.KChainDefs.lean ====
/-
  The host lines of the idealized kernel program between its regions, as pure functions: for each buffer a later
  region or stretch consumes, the composition of the host operations that lead to it within its stretch, applied to
  what the stretch reads, spelt with exactly the operations of the program's text.
-/
import proofs.«109724_j81406810128840_1_alg».proof.Proof.Gen.KernelIdeal

noncomputable section

namespace Cert.KernelIdeal.KChain

open Idealize.ShloMosaic Idealize.ShloMosaic.TcCoe
open Cert.KernelIdeal Cert.KernelIdeal.Facts₀ Cert.KernelIdeal.Facts

variable {F : FTy → Type} [FloatOps F]

/-! ## The compositions -/

/-- What buffer v1 holds, from the buffers arg1 its line reads. -/
def kf_v1 (x0_ : (⟨S2x1600000, .i32⟩ : BufTy).Contents (Elt F)) : (⟨S1600000, .i32⟩ : BufTy).Contents (Elt F) :=
  ((shapeCast S1600000 (((extractStridedSlice S1x1600000 ![0, 0] · slices_S2x1600000_S1x1600000_0_0) : (⟨S2x1600000, .i32⟩ : BufTy).Contents (Elt F) → (⟨S1x1600000, .i32⟩ : BufTy).Contents (Elt F)) x0_) shapeCasts_S1x1600000_S1600000) : (⟨S1600000, .i32⟩ : BufTy).Contents (Elt F))

/-- What buffer v3 holds, from the buffers arg1 its line reads. -/
def kf_v3 (x0_ : (⟨S2x1600000, .i32⟩ : BufTy).Contents (Elt F)) : (⟨S1600000, .i32⟩ : BufTy).Contents (Elt F) :=
  ((shapeCast S1600000 (((extractStridedSlice S1x1600000 ![1, 0] · slices_S2x1600000_S1x1600000_1_0) : (⟨S2x1600000, .i32⟩ : BufTy).Contents (Elt F) → (⟨S1x1600000, .i32⟩ : BufTy).Contents (Elt F)) x0_) shapeCasts_S1x1600000_S1600000) : (⟨S1600000, .i32⟩ : BufTy).Contents (Elt F))

/-- What buffer v10 holds, from the buffers v3 its line reads. -/
def kf_v10 (x0_ : (⟨S1600000, .i32⟩ : BufTy).Contents (Elt F)) : (⟨S100000, .f32⟩ : BufTy).Contents (Elt F) :=
  ((Host.rsqrt : (⟨S100000, .f32⟩ : BufTy).Contents (Elt F) → (⟨S100000, .f32⟩ : BufTy).Contents (Elt F)) ((addf : (⟨S100000, .f32⟩ : BufTy).Contents (Elt F) → (⟨S100000, .f32⟩ : BufTy).Contents (Elt F) → (⟨S100000, .f32⟩ : BufTy).Contents (Elt F)) (((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F))) ((broadcastInDim S1600000x1 ![0] bcast_S1600000_S1600000x1_0 : (⟨S1600000, .i32⟩ : BufTy).Contents (Elt F) → (⟨S1600000x1, .i32⟩ : BufTy).Contents (Elt F)) x0_) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)))) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))))

/-- What buffer v11 holds, from the buffers v10 its line reads. -/
def kf_v11 (x0_ : (⟨S100000, .f32⟩ : BufTy).Contents (Elt F)) : (⟨S100000, .f32⟩ : BufTy).Contents (Elt F) :=
  ((mulf : (⟨S100000, .f32⟩ : BufTy).Contents (Elt F) → (⟨S100000, .f32⟩ : BufTy).Contents (Elt F) → (⟨S100000, .f32⟩ : BufTy).Contents (Elt F)) x0_ x0_)

/-- What buffer v27 holds, from the buffers v10, v1, v3 its line reads. -/
def kf_v27 (x0_ : (⟨S100000, .f32⟩ : BufTy).Contents (Elt F)) (x1_ : (⟨S1600000, .i32⟩ : BufTy).Contents (Elt F)) (x2_ : (⟨S1600000, .i32⟩ : BufTy).Contents (Elt F)) : (⟨S1600000, .f32⟩ : BufTy).Contents (Elt F) :=
  ((mulf : (⟨S1600000, .f32⟩ : BufTy).Contents (Elt F) → (⟨S1600000, .f32⟩ : BufTy).Contents (Elt F) → (⟨S1600000, .f32⟩ : BufTy).Contents (Elt F)) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x0_ ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x1_ ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x1_ ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x1_))) (((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) x0_ ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) x2_ ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)))) ((addi : (⟨S1600000, .i32⟩ : BufTy).Contents (Elt F) → (⟨S1600000, .i32⟩ : BufTy).Contents (Elt F) → (⟨S1600000, .i32⟩ : BufTy).Contents (Elt F)) x2_ ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)))) x2_))))

/-- What buffer v28 holds, from the buffers v1 its line reads. -/
def kf_v28 (x0_ : (⟨S1600000, .i32⟩ : BufTy).Contents (Elt F)) : (⟨S1700000, .i32⟩ : BufTy).Contents (Elt F) :=
  (((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) x0_ (iotaInDim S100000 32 0 : (⟨S100000, .i32⟩ : BufTy).Contents (Elt F)))

/-- What buffer v30 holds, from the buffers v27, v11 its line reads. -/
def kf_v30 (x0_ : (⟨S1600000, .f32⟩ : BufTy).Contents (Elt F)) (x1_ : (⟨S100000, .f32⟩ : BufTy).Contents (Elt F)) : (⟨S1700000, .f32⟩ : BufTy).Contents (Elt F) :=
  (((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) x0_ x1_)

/-- What buffer v31 holds, from the buffers arg4 its line reads. -/
def kf_v31 (x0_ : (⟨S64, .f32⟩ : BufTy).Contents (Elt F)) : (⟨S1x64, .f32⟩ : BufTy).Contents (Elt F) :=
  ((shapeCast S1x64 x0_ shapeCasts_S64_S1x64) : (⟨S1x64, .f32⟩ : BufTy).Contents (Elt F))

/-- What buffer v34 holds, from the buffers arg5 its line reads. -/
def kf_v34 (x0_ : (⟨S4x64x64, .f32⟩ : BufTy).Contents (Elt F)) : (⟨S64x64, .f32⟩ : BufTy).Contents (Elt F) :=
  ((shapeCast S64x64 (((extractStridedSlice S1x64x64 ![0, 0, 0] · slices_S4x64x64_S1x64x64_0_0_0) : (⟨S4x64x64, .f32⟩ : BufTy).Contents (Elt F) → (⟨S1x64x64, .f32⟩ : BufTy).Contents (Elt F)) x0_) shapeCasts_S1x64x64_S64x64) : (⟨S64x64, .f32⟩ : BufTy).Contents (Elt F))

/-- What buffer v48 holds, from the buffers v29, v35, v28, v30 its line reads. -/
def kf_v48 (x0_ : (⟨S1700000, .i32⟩ : BufTy).Contents (Elt F)) (x1_ : (⟨S100000x64, .f32⟩ : BufTy).Contents (Elt F)) (x2_ : (⟨S1700000, .i32⟩ : BufTy).Contents (Elt F)) (x3_ : (⟨S1700000, .f32⟩ : BufTy).Contents (Elt F)) : (⟨S100000x64, .f32⟩ : BufTy).Contents (Elt F) :=
  (((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F))) ((broadcastInDim S1700000x1 ![0] bcast_S1700000_S1700000x1_0 : (⟨S1700000, .i32⟩ : BufTy).Contents (Elt F) → (⟨S1700000x1, .i32⟩ : BufTy).Contents (Elt F)) x0_) ((mulf : (⟨S1700000x64, .f32⟩ : BufTy).Contents (Elt F) → (⟨S1700000x64, .f32⟩ : BufTy).Contents (Elt F) → (⟨S1700000x64, .f32⟩ : BufTy).Contents (Elt F)) (((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) x1_ ((broadcastInDim S1700000x1 ![0] bcast_S1700000_S1700000x1_0 : (⟨S1700000, .i32⟩ : BufTy).Contents (Elt F) → (⟨S1700000x1, .i32⟩ : BufTy).Contents (Elt F)) ((select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ((cmpi .slt : (⟨S1700000, .i32⟩ : BufTy).Contents (Elt F) → (⟨S1700000, .i32⟩ : BufTy).Contents (Elt F) → (⟨S1700000, .i1⟩ : BufTy).Contents (Elt F)) x2_ ((broadcastInDim S1700000 ![] bcast_S_S1700000 : (⟨S_, .i32⟩ : BufTy).Contents (Elt F) → (⟨S1700000, .i32⟩ : BufTy).Contents (Elt F)) (constantI S_ 32 0#32 : (⟨S_, .i32⟩ : BufTy).Contents (Elt F)))) ((addi : (⟨S1700000, .i32⟩ : BufTy).Contents (Elt F) → (⟨S1700000, .i32⟩ : BufTy).Contents (Elt F) → (⟨S1700000, .i32⟩ : BufTy).Contents (Elt F)) x2_ ((broadcastInDim S1700000 ![] bcast_S_S1700000 : (⟨S_, .i32⟩ : BufTy).Contents (Elt F) → (⟨S1700000, .i32⟩ : BufTy).Contents (Elt F)) (constantI S_ 32 100000#32 : (⟨S_, .i32⟩ : BufTy).Contents (Elt F)))) x2_))) ((broadcastInDim S1700000x64 ![0, 1] bcast_S1700000x1_S1700000x64_0_1 : (⟨S1700000x1, .f32⟩ : BufTy).Contents (Elt F) → (⟨S1700000x64, .f32⟩ : BufTy).Contents (Elt F)) ((broadcastInDim S1700000x1 ![0] bcast_S1700000_S1700000x1_0 : (⟨S1700000, .f32⟩ : BufTy).Contents (Elt F) → (⟨S1700000x1, .f32⟩ : BufTy).Contents (Elt F)) x3_))))

/-- What buffer v51 holds, from the buffers arg6 its line reads. -/
def kf_v51 (x0_ : (⟨S4x64, .f32⟩ : BufTy).Contents (Elt F)) : (⟨S1x64, .f32⟩ : BufTy).Contents (Elt F) :=
  ((shapeCast S1x64 ((shapeCast S64 (((extractStridedSlice S1x64 ![0, 0] · slices_S4x64_S1x64_0_0) : (⟨S4x64, .f32⟩ : BufTy).Contents (Elt F) → (⟨S1x64, .f32⟩ : BufTy).Contents (Elt F)) x0_) shapeCasts_S1x64_S64) : (⟨S64, .f32⟩ : BufTy).Contents (Elt F)) shapeCasts_S64_S1x64) : (⟨S1x64, .f32⟩ : BufTy).Contents (Elt F))

/-- What buffer v54 holds, from the buffers v52_1 its line reads. -/
def kf_v54 (x0_ : (⟨S1x64, .f32⟩ : BufTy).Contents (Elt F)) : (⟨S1x64, .f32⟩ : BufTy).Contents (Elt F) :=
  ((Host.divf : (⟨S1x64, .f32⟩ : BufTy).Contents (Elt F) → (⟨S1x64, .f32⟩ : BufTy).Contents (Elt F) → (⟨S1x64, .f32⟩ : BufTy).Contents (Elt F)) x0_ ((broadcastInDim S1x64 ![] bcast_S_S1x64 : (⟨S_, .f32⟩ : BufTy).Contents (Elt F) → (⟨S1x64, .f32⟩ : BufTy).Contents (Elt F)) (constant S_ .f32 0x47C35000#32 : (⟨S_, .f32⟩ : BufTy).Contents (Elt F))))

/-- What buffer v58 holds, from the buffers v52_2, v54 its line reads. -/
def kf_v58 (x0_ : (⟨S1x64, .f32⟩ : BufTy).Contents (Elt F)) (x1_ : (⟨S1x64, .f32⟩ : BufTy).Contents (Elt F)) : (⟨S1x64, .f32⟩ : BufTy).Contents (Elt F) :=
  ((subf : (⟨S1x64, .f32⟩ : BufTy).Contents (Elt F) → (⟨S1x64, .f32⟩ : BufTy).Contents (Elt F) → (⟨S1x64, .f32⟩ : BufTy).Contents (Elt F)) ((Host.divf : (⟨S1x64, .f32⟩ : BufTy).Contents (Elt F) → (⟨S1x64, .f32⟩ : BufTy).Contents (Elt F) → (⟨S1x64, .f32⟩ : BufTy).Contents (Elt F)) x0_ ((broadcastInDim S1x64 ![] bcast_S_S1x64 : (⟨S_, .f32⟩ : BufTy).Contents (Elt F) → (⟨S1x64, .f32⟩ : BufTy).Contents (Elt F)) (constant S_ .f32 0x47C35000#32 : (⟨S_, .f32⟩ : BufTy).Contents (Elt F)))) ((mulf : (⟨S1x64, .f32⟩ : BufTy).Contents (Elt F) → (⟨S1x64, .f32⟩ : BufTy).Contents (Elt F) → (⟨S1x64, .f32⟩ : BufTy).Contents (Elt F)) x1_ x1_))

/-- What buffer v67 holds, from the buffers arg5 its line reads. -/
def kf_v67 (x0_ : (⟨S4x64x64, .f32⟩ : BufTy).Contents (Elt F)) : (⟨S64x64, .f32⟩ : BufTy).Contents (Elt F) :=
  ((shapeCast S64x64 (((extractStridedSlice S1x64x64 ![1, 0, 0] · slices_S4x64x64_S1x64x64_1_0_0) : (⟨S4x64x64, .f32⟩ : BufTy).Contents (Elt F) → (⟨S1x64x64, .f32⟩ : BufTy).Contents (Elt F)) x0_) shapeCasts_S1x64x64_S64x64) : (⟨S64x64, .f32⟩ : BufTy).Contents (Elt F))

/-- What buffer v84 holds, from the buffers arg6 its line reads. -/
def kf_v84 (x0_ : (⟨S4x64, .f32⟩ : BufTy).Contents (Elt F)) : (⟨S1x64, .f32⟩ : BufTy).Contents (Elt F) :=
  ((shapeCast S1x64 ((shapeCast S64 (((extractStridedSlice S1x64 ![1, 0] · slices_S4x64_S1x64_1_0) : (⟨S4x64, .f32⟩ : BufTy).Contents (Elt F) → (⟨S1x64, .f32⟩ : BufTy).Contents (Elt F)) x0_) shapeCasts_S1x64_S64) : (⟨S64, .f32⟩ : BufTy).Contents (Elt F)) shapeCasts_S64_S1x64) : (⟨S1x64, .f32⟩ : BufTy).Contents (Elt F))

/-- What buffer v100 holds, from the buffers arg5 its line reads. -/
def kf_v100 (x0_ : (⟨S4x64x64, .f32⟩ : BufTy).Contents (Elt F)) : (⟨S64x64, .f32⟩ : BufTy).Contents (Elt F) :=
  ((shapeCast S64x64 (((extractStridedSlice S1x64x64 ![2, 0, 0] · slices_S4x64x64_S1x64x64_2_0_0) : (⟨S4x64x64, .f32⟩ : BufTy).Contents (Elt F) → (⟨S1x64x64, .f32⟩ : BufTy).Contents (Elt F)) x0_) shapeCasts_S1x64x64_S64x64) : (⟨S64x64, .f32⟩ : BufTy).Contents (Elt F))

/-- What buffer v117 holds, from the buffers arg6 its line reads. -/
def kf_v117 (x0_ : (⟨S4x64, .f32⟩ : BufTy).Contents (Elt F)) : (⟨S1x64, .f32⟩ : BufTy).Contents (Elt F) :=
  ((shapeCast S1x64 ((shapeCast S64 (((extractStridedSlice S1x64 ![2, 0] · slices_S4x64_S1x64_2_0) : (⟨S4x64, .f32⟩ : BufTy).Contents (Elt F) → (⟨S1x64, .f32⟩ : BufTy).Contents (Elt F)) x0_) shapeCasts_S1x64_S64) : (⟨S64, .f32⟩ : BufTy).Contents (Elt F)) shapeCasts_S64_S1x64) : (⟨S1x64, .f32⟩ : BufTy).Contents (Elt F))

/-- What buffer v133 holds, from the buffers arg5 its line reads. -/
def kf_v133 (x0_ : (⟨S4x64x64, .f32⟩ : BufTy).Contents (Elt F)) : (⟨S64x64, .f32⟩ : BufTy).Contents (Elt F) :=
  ((shapeCast S64x64 (((extractStridedSlice S1x64x64 ![3, 0, 0] · slices_S4x64x64_S1x64x64_3_0_0) : (⟨S4x64x64, .f32⟩ : BufTy).Contents (Elt F) → (⟨S1x64x64, .f32⟩ : BufTy).Contents (Elt F)) x0_) shapeCasts_S1x64x64_S64x64) : (⟨S64x64, .f32⟩ : BufTy).Contents (Elt F))

/-- What buffer v150 holds, from the buffers arg6 its line reads. -/
def kf_v150 (x0_ : (⟨S4x64, .f32⟩ : BufTy).Contents (Elt F)) : (⟨S1x64, .f32⟩ : BufTy).Contents (Elt F) :=
  ((shapeCast S1x64 ((shapeCast S64 (((extractStridedSlice S1x64 ![3, 0] · slices_S4x64_S1x64_3_0) : (⟨S4x64, .f32⟩ : BufTy).Contents (Elt F) → (⟨S1x64, .f32⟩ : BufTy).Contents (Elt F)) x0_) shapeCasts_S1x64_S64) : (⟨S64, .f32⟩ : BufTy).Contents (Elt F)) shapeCasts_S64_S1x64) : (⟨S1x64, .f32⟩ : BufTy).Contents (Elt F))

/-- What buffer v176 holds, from the buffers arg2, v164 its line reads. -/
def kf_v176 (x0_ : (⟨S100000, .i32⟩ : BufTy).Contents (Elt F)) (x1_ : (⟨S100000x64, .f32⟩ : BufTy).Contents (Elt F)) : (⟨S256x64, .f32⟩ : BufTy).Contents (Elt F) :=
  ((Host.divf : (⟨S256x64, .f32⟩ : BufTy).Contents (Elt F) → (⟨S256x64, .f32⟩ : BufTy).Contents (Elt F) → (⟨S256x64, .f32⟩ : BufTy).Contents (Elt F)) (((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)) ((broadcastInDim S256x64 ![] bcast_S_S256x64 : (⟨S_, .f32⟩ : BufTy).Contents (Elt F) → (⟨S256x64, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x0_) x1_) ((broadcastInDim S256x64 ![0, 1] bcast_S256x1_S256x64_0_1 : (⟨S256x1, .f32⟩ : BufTy).Contents (Elt F) → (⟨S256x64, .f32⟩ : BufTy).Contents (Elt F)) ((broadcastInDim S256x1 ![0] bcast_S256_S256x1_0 : (⟨S256, .f32⟩ : BufTy).Contents (Elt F) → (⟨S256x1, .f32⟩ : BufTy).Contents (Elt F)) ((maximumf : (⟨S256, .f32⟩ : BufTy).Contents (Elt F) → (⟨S256, .f32⟩ : BufTy).Contents (Elt F) → (⟨S256, .f32⟩ : BufTy).Contents (Elt F)) (((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)) ((broadcastInDim S256 ![] bcast_S_S256 : (⟨S_, .f32⟩ : BufTy).Contents (Elt F) → (⟨S256, .f32⟩ : BufTy).Contents (Elt F)) (constant S_ .f32 0x00000000#32 : (⟨S_, .f32⟩ : BufTy).Contents (Elt F))) ((broadcastInDim S100000x1 ![0] bcast_S100000_S100000x1_0 : (⟨S100000, .i32⟩ : BufTy).Contents (Elt F) → (⟨S100000x1, .i32⟩ : BufTy).Contents (Elt F)) x0_) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)))) ((broadcastInDim S256 ![] bcast_S_S256 : (⟨S_, .f32⟩ : BufTy).Contents (Elt F) → (⟨S256, .f32⟩ : BufTy).Contents (Elt F)) (constant S_ .f32 0x3F800000#32 : (⟨S_, .f32⟩ : BufTy).Contents (Elt F)))))))

/-- What buffer v177 holds, from the buffers arg10 its line reads. -/
def kf_v177 (x0_ : (⟨S32, .f32⟩ : BufTy).Contents (Elt F)) : (⟨S1x32, .f32⟩ : BufTy).Contents (Elt F) :=
  ((shapeCast S1x32 x0_ shapeCasts_S32_S1x32) : (⟨S1x32, .f32⟩ : BufTy).Contents (Elt F))

/-- What buffer v178 holds, from the buffers arg12 its line reads. -/
def kf_v178 (x0_ : (⟨S1, .f32⟩ : BufTy).Contents (Elt F)) : (⟨S1x1, .f32⟩ : BufTy).Contents (Elt F) :=
  ((shapeCast S1x1 x0_ shapeCasts_S1_S1x1) : (⟨S1x1, .f32⟩ : BufTy).Contents (Elt F))

end Cert.KernelIdeal.KChain

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.LibDenseHost.lean ====
/-
  The host's matrix product, entry by entry.

  At the exact instance a host dot product of an [M, K] by a [K, N] operand, contracting the first operand's columns
  against the second's rows, has at (a, b) the textbook entry  ∑ k, l (a, k) · r (k, b)  — the same sum as the matrix
  unit's product into a zero accumulator. Stated for any dimension record with the four operand-position facts.
-/
import Idealize.ShloMosaic.Lib.ValueIdx
import Idealize.ShloMosaic.PureOps.Ideal.Laws
import proofs.«109724_j81406810128840_1_alg».proof.Proof.LibDense

noncomputable section

namespace Cert.LibDenseHost

open Idealize.ShloMosaic Idealize.ShloMosaic.ValueIdx Cert.LibDense

/-- The host's dot product of a plain [M, K] by [K, N] pair, read at (a, b): the textbook entry. -/
theorem dotGeneral_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    Host.dotGeneral d prec l r (ix2 a b) = dense (fun k => l (ix2 a k)) r b := by
  simp only [Host.dotGeneral]
  rw [Ideal.dotGeneral_apply]
  exact sum_contr_plain d hr hs (ix2 a b) (hl0 _) (hl1 _) (hr0 _) (hr1 _) l r

end Cert.LibDenseHost

end
-- ==== Proof.LibPlainDense.lean ====
/-
  The dense stages of a graph-convolution network, as functions of whole arrays over the extended reals.

  Every stage of the network other than the edge aggregation is one of: a matrix product  x · W  of an
  [M, K] array with a [K, N] weight; the addition of a bias row to every row of an [M, N] array; a
  rectifier  max(·, 0)  or a hyperbolic tangent applied entry by entry. This file states them once, over
  any extents, and reads the two printed forms of each — a matrix unit's product of bf16-cast operands
  into a zero accumulator and a host dot product; a bias kept as a [1, N] row that the body broadcasts
  and a bias vector the host broadcasts twice — as the same function. At the exact instance a change of
  float format is the identity, so the casts disappear.
-/
import Idealize.ShloMosaic.Lib.ValueIdx
import Idealize.ShloMosaic.Lib.ValueLayout
import Idealize.ShloMosaic.Lib.Pipeline.Value
import Idealize.ShloMosaic.PureOps.Ideal.Laws
import proofs.«109724_j81406810128840_1_alg».proof.Proof.LibDense
import proofs.«109724_j81406810128840_1_alg».proof.Proof.LibDenseHost

noncomputable section

namespace Cert.Gcn

open Idealize.ShloMosaic Idealize.ShloMosaic.ValueIdx Idealize.ShloMosaic.Pipeline Cert.LibDense

/-- The matrix product, entry by entry: (x · w)(r, c) = ∑ₖ x(r, k) · w(k, c). -/
def mm {M K N : ℕ} (x : (⟨2, ![M, K]⟩ : Shape).Idx → EReal) (w : (⟨2, ![K, N]⟩ : Shape).Idx → EReal) :
    (⟨2, ![M, N]⟩ : Shape).Idx → EReal :=
  fun i => dense (fun k => x (ix2 (i 0) k)) w (i 1)

/-- A bias row added to every row. -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (i 1))

/-- The rectifier, entry by entry; its zero is the f32 zero word's value. -/
def relu {s : Shape} (a : s.Idx → EReal) : s.Idx → EReal :=
  fun i => max (a i) (Ideal.ofBits .f32 0x00000000#32)

/-- The hyperbolic tangent, entry by entry. -/
def tanhV {s : Shape} (a : s.Idx → EReal) : s.Idx → EReal :=
  fun i => Ideal.tanh (a i)

/-! ## The plain [M, K] × [K, N] contraction: where its operands sit -/

theorem plain_rank (M K N : ℕ) : (DotDims.plain M K N).contr.rank = 1 := rfl
theorem plain_size (M K N : ℕ) : (DotDims.plain M K N).contr.size ⟨0, Nat.one_pos⟩ = K := rfl

theorem plain_l0 {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

theorem plain_l1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem plain_r0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem plain_r1 {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-! ## The two printed forms of the product -/

/-- The matrix unit's product of bf16-cast operands into a zero accumulator is the product. -/
theorem matmul_eq_mm {M K N : ℕ} (x0 : FVec Ideal (⟨2, ![M, K]⟩ : Shape) .f32) (x1 : FVec Ideal (⟨2, ![K, N]⟩ : Shape) .f32)
    (h0 : FTy.bf16.bits < FTy.f32.bits) (h1 : FTy.bf16.bits < FTy.f32.bits) :
    matmul (DotDims.plain M K N) none (truncf .bf16 x0 h0) (truncf .bf16 x1 h1) (constant (⟨2, ![M, N]⟩ : Shape) .f32 0x00000000#32)
      = mm x0 x1 := by
  funext j
  obtain ⟨a, b, rfl⟩ : ∃ (a : Fin M) (b : Fin N), j = ix2 a b := ⟨j 0, j 1, eq_ix2 j⟩
  exact matmul_zero_plain (DotDims.plain M K N) none (plain_rank M K N) (plain_size M K N)
    plain_l0 plain_l1 plain_r0 plain_r1 (truncf .bf16 x0 h0) (truncf .bf16 x1 h1) a b

/-- The host's dot product is the product. -/
theorem dotGeneral_eq_mm {M K N : ℕ} (x0 : FVec Ideal (⟨2, ![M, K]⟩ : Shape) .f32) (x1 : FVec Ideal (⟨2, ![K, N]⟩ : Shape) .f32) :
    Host.dotGeneral (DotDims.plain M K N) none x0 x1 = mm x0 x1 := by
  funext j
  obtain ⟨a, b, rfl⟩ : ∃ (a : Fin M) (b : Fin N), j = ix2 a b := ⟨j 0, j 1, eq_ix2 j⟩
  exact Cert.LibDenseHost.dotGeneral_plain (DotDims.plain M K N) none (plain_rank M K N) (plain_size M K N)
    plain_l0 plain_l1 plain_r0 plain_r1 x0 x1 a b

/-! ## The two printed forms of the bias -/

/-- A bias row the body broadcasts over the rows. -/
theorem broadcastTo_row {M N : ℕ} (v : (⟨2, ![1, N]⟩ : Shape).Idx → EReal) (h : (⟨2, ![1, N]⟩ : Shape).Broadcasts ⟨2, ![M, N]⟩)
    (a : (⟨2, ![M, N]⟩ : Shape).Idx → EReal) :
    (fun i => a i + broadcastTo (⟨2, ![M, N]⟩ : Shape) v h i) = addRow a v := by
  funext j
  obtain ⟨p, c, rfl⟩ : ∃ (p : Fin M) (c : Fin N), j = ix2 p c := ⟨j 0, j 1, eq_ix2 j⟩
  show a (ix2 p c) + _ = a (ix2 p c) + _
  rw [broadcastTo_1b_ab_apply]
  rfl

/-- A bias vector laid out as a [1, N] row. -/
theorem shapeCast_row_apply {N : ℕ} (b : (⟨1, ![N]⟩ : Shape).Idx → EReal) (h : (⟨1, ![N]⟩ : Shape).ShapeCasts ⟨2, ![1, N]⟩) (c : Fin N) :
    shapeCast (⟨2, ![1, N]⟩ : Shape) b h (ix2 (0 : Fin 1) c) = b (ix1 c) :=
  shapeCast_a_1a_apply b h 0 c

/-- The host's two broadcasts of a bias vector, [N] to [1, N] to [M, N], added: the same as adding the row. -/
theorem host_bias {M N : ℕ} (b : (⟨1, ![N]⟩ : Shape).Idx → EReal)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : (⟨2, ![M, N]⟩ : Shape).Idx → EReal) :
    (fun i => a i + broadcastInDim (⟨2, ![M, N]⟩ : Shape) d2 h2 (broadcastInDim (⟨2, ![1, N]⟩ : Shape) d1 h1 b) i)
      = addRow a (shapeCast (⟨2, ![1, N]⟩ : Shape) b hc) := by
  funext j
  obtain ⟨p, c, rfl⟩ : ∃ (p : Fin M) (c : Fin N), j = ix2 p c := ⟨j 0, j 1, eq_ix2 j⟩
  show a (ix2 p c) + _ = a (ix2 p c) + shapeCast (⟨2, ![1, N]⟩ : Shape) b hc (ix2 (0 : Fin 1) c)
  rw [shapeCast_row_apply]
  congr 1
  by_cases hN : N = 1
  · subst hN
    have hc0 : c = 0 := Subsingleton.elim _ _
    subst hc0
    rw [broadcastInDim_apply d2 h2 _ (ix2 p 0) (ix2 (0 : Fin 1) 0) (fun ax => by
        match ax with
        | ⟨0, _⟩ => rfl
        | ⟨1, _⟩ => rfl)]
    rw [broadcastInDim_apply d1 h1 b (ix2 (0 : Fin 1) 0) (ix1 0) (fun ax => by
        match ax with
        | ⟨0, _⟩ => rfl)]
  · rw [broadcastInDim_apply d2 h2 _ (ix2 p c) (ix2 (0 : Fin 1) c) (fun ax => by
        match ax with
        | ⟨0, _⟩ => rfl
        | ⟨1, _⟩ =>
          show c.val = if N = 1 then 0 else ((ix2 p c) (d2 1)).val
          rw [if_neg hN, hd2 1])]
    rw [broadcastInDim_apply d1 h1 b (ix2 (0 : Fin 1) c) (ix1 c) (fun ax => by
        match ax with
        | ⟨0, _⟩ =>
          show c.val = if N = 1 then 0 else ((ix2 (0 : Fin 1) c) (d1 0)).val
          rw [if_neg hN, hd1])]

/-! ## The host's forms of a biased array under each activation -/

/-- The host's rectified biased array: the bias vector broadcast twice and added, then the maximum with a broadcast zero. -/
theorem host_relu {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (d0 : Fin 0 → Fin 2) (h0 : (⟨0, ![]⟩ : Shape).BroadcastsInDim ⟨2, ![M, N]⟩ d0)
    (a : FVec Ideal (⟨2, ![M, N]⟩ : Shape) .f32) :
    maximumf (addf a (broadcastInDim (⟨2, ![M, N]⟩ : Shape) d2 h2 (broadcastInDim (⟨2, ![1, N]⟩ : Shape) d1 h1 b)))
        (broadcastInDim (⟨2, ![M, N]⟩ : Shape) d0 h0 (constant (F := Ideal) (⟨0, ![]⟩ : Shape) .f32 0x00000000#32))
      = relu (addRow a (shapeCast (⟨2, ![1, N]⟩ : Shape) b hc)) := by
  rw [← host_bias b d1 hd1 h1 d2 hd2 h2 hc a]
  rfl

/-- The host's biased array under the hyperbolic tangent. -/
theorem host_tanh {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    Host.tanh (addf a (broadcastInDim (⟨2, ![M, N]⟩ : Shape) d2 h2 (broadcastInDim (⟨2, ![1, N]⟩ : Shape) d1 h1 b)))
      = tanhV (addRow a (shapeCast (⟨2, ![1, N]⟩ : Shape) b hc)) := by
  rw [← host_bias b d1 hd1 h1 d2 hd2 h2 hc a]
  rfl

/-- The host's biased array with no activation. -/
theorem host_plain {M N : ℕ} (b : FVec Ideal (⟨1, ![N]⟩ : Shape) .f32)
    (d1 : Fin 1 → Fin 2) (hd1 : d1 0 = 1) (h1 : (⟨1, ![N]⟩ : Shape).BroadcastsInDim ⟨2, ![1, N]⟩ d1)
    (d2 : Fin 2 → Fin 2) (hd2 : ∀ a, d2 a = a) (h2 : (⟨2, ![1, N]⟩ : Shape).BroadcastsInDim ⟨2, ![M, N]⟩ d2)
    (hc : (⟨1, ![N]⟩ : Shape).ShapeCasts ⟨2, ![1, N]⟩)
    (a : FVec Ideal (⟨2, ![M, N]⟩ : Shape) .f32) :
    addf a (broadcastInDim (⟨2, ![M, N]⟩ : Shape) d2 h2 (broadcastInDim (⟨2, ![1, N]⟩ : Shape) d1 h1 b))
      = addRow a (shapeCast (⟨2, ![1, N]⟩ : Shape) b hc) :=
  host_bias b d1 hd1 h1 d2 hd2 h2 hc a

end Cert.Gcn

end
-- ==== Proof.RegASpec.lean ====
/-
  The normalisation stage of a graph-convolution layer, entry by entry over the extended reals.

  A layer's pre-normalisation rows A [M, N] are centred by a mean row, scaled by the reciprocal square root of a
  variance row offset by a small constant, scaled and shifted by two learnt rows, rectified, and added to the
  residual rows R [M, N]:

      out(r, k) = max( ((A(r, k) - mean(k)) · rsqrt(var(k) + ε)) · γ(k) + β(k), 0 ) + R(r, k).

  The four rows are kept as [1, N] arrays, as the stage receives them. The offset ε and the rectifier's zero are
  the values of the two f32 words the stage carries (0x3727C5AC, about 1e-5, and the zero word); they are kept as
  words, never evaluated: both sides of a comparison carry the same words. The operations are the extended reals'
  own subtraction, product, sum and maximum, and the exact reciprocal square root.
-/
import Idealize.ShloMosaic.Lib.ValueIdx
import Idealize.ShloMosaic.PureOps.Ideal.Laws

noncomputable section

namespace Cert.RegSpec

open Idealize.ShloMosaic Idealize.ShloMosaic.ValueIdx

/-- The normalised, rectified rows plus the residual, entry by entry. -/
def bnNorm {M N : ℕ} (A : (⟨2, ![M, N]⟩ : Shape).Idx → EReal)
    (mean var gamma beta : (⟨2, ![1, N]⟩ : Shape).Idx → EReal)
    (R : (⟨2, ![M, N]⟩ : Shape).Idx → EReal) : (⟨2, ![M, N]⟩ : Shape).Idx → EReal :=
  fun i =>
    max (((A i - mean (ix2 (0 : Fin 1) (i 1)))
            * Ideal.rsqrt (var (ix2 (0 : Fin 1) (i 1)) + Ideal.ofBits .f32 0x3727C5AC#32))
          * gamma (ix2 (0 : Fin 1) (i 1)) + beta (ix2 (0 : Fin 1) (i 1)))
        (Ideal.ofBits .f32 0x00000000#32)
      + R i

/-- The same, at the entry (r, k). -/
theorem bnNorm_apply {M N : ℕ} (A : (⟨2, ![M, N]⟩ : Shape).Idx → EReal)
    (mean var gamma beta : (⟨2, ![1, N]⟩ : Shape).Idx → EReal)
    (R : (⟨2, ![M, N]⟩ : Shape).Idx → EReal) (r : Fin M) (k : Fin N) :
    bnNorm A mean var gamma beta R (ix2 r k)
      = max (((A (ix2 r k) - mean (ix2 (0 : Fin 1) k))
              * Ideal.rsqrt (var (ix2 (0 : Fin 1) k) + Ideal.ofBits .f32 0x3727C5AC#32))
            * gamma (ix2 (0 : Fin 1) k) + beta (ix2 (0 : Fin 1) k))
          (Ideal.ofBits .f32 0x00000000#32)
        + R (ix2 r k) := rfl

end Cert.RegSpec

end
-- ==== Proof.LibTiles.lean ====
/-
  Sums over a range cut into equal tiles.

  The numbers below A · T are the pairs (t, r) with t below A and r below T, through n = t · T + r. So a sum over all
  of them is the sum over the tiles t of the sums inside each tile. Stated for any extents, then at 65536 = 8 · 8192,
  alone and under an outer sum over four batches.
-/
import Mathlib.Algebra.BigOperators.Fin
import Mathlib.Logic.Equiv.Fin.Basic
import Mathlib.Tactic.Ring

open scoped BigOperators

namespace Cert.LibTiles

/-- Position r of tile t lies below A · T. -/
theorem tile_lt {A T : Nat} (t : Fin A) (r : Fin T) : t.val * T + r.val < A * T := by
  have ht := t.isLt
  have hr := r.isLt
  calc t.val * T + r.val < t.val * T + T := by omega
    _ = (t.val + 1) * T := by ring
    _ ≤ A * T := Nat.mul_le_mul_right T (by omega)

/-- A sum over the numbers below A · T is the sum over the A tiles of the T positions of each. -/
theorem sum_tiles {M : Type*} [AddCommMonoid M] (A T : Nat) (f : Fin (A * T) → M) :
    ∑ t : Fin A, ∑ r : Fin T, f ⟨t.val * T + r.val, tile_lt t r⟩ = ∑ n, f n := by
  calc ∑ t : Fin A, ∑ r : Fin T, f ⟨t.val * T + r.val, tile_lt t r⟩
      = ∑ p : Fin A × Fin T, f (finProdFinEquiv p) := by
        rw [Fintype.sum_prod_type]
        refine Finset.sum_congr rfl fun t _ => Finset.sum_congr rfl fun r _ => congrArg f (Fin.ext ?_)
        show t.val * T + r.val = r.val + T * t.val
        ring
    _ = ∑ n, f n := Equiv.sum_comp finProdFinEquiv f

/-- 65536 numbers are 8 tiles of 8192. -/
theorem sum_tiles_8_8192 {M : Type*} [AddCommMonoid M] (f : Fin 65536 → M) :
    ∑ t : Fin 8, ∑ r : Fin 8192, f ⟨t.val * 8192 + r.val, by omega⟩ = ∑ n, f n :=
  sum_tiles 8 8192 f

/-- The same under an outer sum over four batches. -/
theorem sum_batch_tiles_8_8192 {M : Type*} [AddCommMonoid M] (f : Fin 4 → Fin 65536 → M) :
    ∑ b : Fin 4, ∑ t : Fin 8, ∑ r : Fin 8192, f b ⟨t.val * 8192 + r.val, by omega⟩ = ∑ b : Fin 4, ∑ n, f b n :=
  Finset.sum_congr rfl fun b _ => sum_tiles_8_8192 (f b)

end Cert.LibTiles
-- ==== Proof.RegRCore.lean ====
/-
  Column statistics of a 100000-row array gathered tile by tile.

  The 100000 rows are 20 tiles of 5000 rows: row r of tile t is row 5000 · t + r. An accumulator that starts from zero at
  the first tile and adds, tile after tile, the sum of a column over that tile's rows holds after tile n the sum over the
  rows of tiles 0 to n; after the last tile that is the sum over all 100000 rows. Only commutativity and associativity
  of addition on the extended reals are used.
-/
import Idealize.ShloMosaic.Lib.ValueIdx
import Idealize.ShloMosaic.PureOps.Ideal.Laws
import proofs.«109724_j81406810128840_1_alg».proof.Proof.LibTiles

noncomputable section

namespace Cert.KernelIdeal.RegVal

open Idealize.ShloMosaic Idealize.ShloMosaic.ValueIdx
open scoped BigOperators

/-- The zero offsets of a rank-2 rectangle, however spelt. -/
theorem hz : (![0, 0] : Fin 2 → Nat) = fun _ => 0 := funext fun a => by fin_cases a <;> rfl

/-- Row r of one of the first n ≤ 20 tiles lies among the 100000 rows. -/
theorem tileRow_lt (n : ℕ) (hn : n ≤ 20) (t : Fin n) (r : Fin 5000) : t.val * 5000 + r.val < 100000 := by
  have := t.isLt
  have := r.isLt
  omega

/-- The sum of g over the rows of the first n tiles. -/
def partialSum (g : Fin 100000 → EReal) (n : ℕ) (hn : n ≤ 20) : EReal :=
  ∑ t : Fin n, ∑ r : Fin 5000, g ⟨t.val * 5000 + r.val, tileRow_lt n hn t r⟩

/-- The number of tiles may be renamed. -/
theorem partialSum_congr (g : Fin 100000 → EReal) {n n' : ℕ} (e : n = n') (hn : n ≤ 20) (hn' : n' ≤ 20) :
    partialSum g n hn = partialSum g n' hn' := by
  subst e
  rfl

/-- Over no tile the sum is zero. -/
theorem partialSum_zero (g : Fin 100000 → EReal) (hn : 0 ≤ 20) : partialSum g 0 hn = 0 := by
  unfold partialSum
  exact Fin.sum_univ_zero _

/-- One more tile adds that tile's rows. -/
theorem partialSum_succ (g : Fin 100000 → EReal) (n : ℕ) (hn : n + 1 ≤ 20) :
    partialSum g (n + 1) hn
      = partialSum g n (Nat.le_of_succ_le hn) + ∑ r : Fin 5000, g ⟨n * 5000 + r.val, tileRow_lt (n + 1) hn (Fin.last n) r⟩ := by
  unfold partialSum
  rw [Fin.sum_univ_castSucc]
  rfl

/-- Over all 20 tiles: the sum over all rows. -/
theorem partialSum_all (g : Fin 100000 → EReal) (hn : 20 ≤ 20) : partialSum g 20 hn = ∑ i : Fin 100000, g i :=
  Cert.LibTiles.sum_tiles 20 5000 g

/-- The column sums of a [100000, 64] array, as a [1, 64] row. -/
def colSums (Y : (⟨2, ![100000, 64]⟩ : Shape).Idx → EReal) : (⟨2, ![1, 64]⟩ : Shape).Idx → EReal :=
  fun i => ∑ r : Fin 100000, Y (ix2 r (i 1))

/-- The column sums of squares of a [100000, 64] array, as a [1, 64] row. -/
def colSumSqs (Y : (⟨2, ![100000, 64]⟩ : Shape).Idx → EReal) : (⟨2, ![1, 64]⟩ : Shape).Idx → EReal :=
  fun i => ∑ r : Fin 100000, Y (ix2 r (i 1)) * Y (ix2 r (i 1))

theorem colSums_apply (Y : (⟨2, ![100000, 64]⟩ : Shape).Idx → EReal) (u : Fin 1) (c : Fin 64) :
    colSums Y (ix2 u c) = ∑ r : Fin 100000, Y (ix2 r c) := rfl

theorem colSumSqs_apply (Y : (⟨2, ![100000, 64]⟩ : Shape).Idx → EReal) (u : Fin 1) (c : Fin 64) :
    colSumSqs Y (ix2 u c) = ∑ r : Fin 100000, Y (ix2 r c) * Y (ix2 r c) := rfl

/-- The zero an accumulator is reset to: the value of the zero word. -/
theorem zero_add_eq (x : EReal) : Ideal.ofBits .f32 0x00000000#32 + x = x := by
  rw [Ideal.ofBits_zero_f32, zero_add]

end Cert.KernelIdeal.RegVal

end
-- ==== Proof.KValDefs.lean ====
/-
  The idealized kernel program's buffers as functions of its thirteen argument arrays: each buffer is produced once,
  by a host line (a composition of host operations on earlier buffers) or by a region (a whole-array function of the
  arrays its input windows read: a dense layer, the bias add with the column sums and sums of squares, the
  normalisation with rectifier and residual, the two-layer head). Following the buffers in order of definition gives
  each one as a function of the arguments; the last is the program's result.
-/
import proofs.«109724_j81406810128840_1_alg».proof.Proof.KChainDefs
import proofs.«109724_j81406810128840_1_alg».proof.Proof.LibPlainDense
import proofs.«109724_j81406810128840_1_alg».proof.Proof.RegASpec
import proofs.«109724_j81406810128840_1_alg».proof.Proof.RegRCore

noncomputable section

namespace Cert.KernelIdeal.KVal

open Idealize.ShloMosaic Idealize.ShloMosaic.TcCoe
open Cert.KernelIdeal Cert.KernelIdeal.KChain Cert.KernelIdeal.RegVal Cert.Gcn Cert.RegSpec

/-- The thirteen argument arrays. -/
structure Args where
  a0 : (⟨S100000x32, .f32⟩ : BufTy).Contents (Elt Ideal)
  a1 : (⟨S2x1600000, .i32⟩ : BufTy).Contents (Elt Ideal)
  a2 : (⟨S100000, .i32⟩ : BufTy).Contents (Elt Ideal)
  a3 : (⟨S32x64, .f32⟩ : BufTy).Contents (Elt Ideal)
  a4 : (⟨S64, .f32⟩ : BufTy).Contents (Elt Ideal)
  a5 : (⟨S4x64x64, .f32⟩ : BufTy).Contents (Elt Ideal)
  a6 : (⟨S4x64, .f32⟩ : BufTy).Contents (Elt Ideal)
  a7 : (⟨S4x64, .f32⟩ : BufTy).Contents (Elt Ideal)
  a8 : (⟨S4x64, .f32⟩ : BufTy).Contents (Elt Ideal)
  a9 : (⟨S64x32, .f32⟩ : BufTy).Contents (Elt Ideal)
  a10 : (⟨S32, .f32⟩ : BufTy).Contents (Elt Ideal)
  a11 : (⟨S32x1, .f32⟩ : BufTy).Contents (Elt Ideal)
  a12 : (⟨S1, .f32⟩ : BufTy).Contents (Elt Ideal)

variable (A : Args)

/-! ## Each buffer as a function of the arguments -/

def k_v1 : (⟨S1600000, .i32⟩ : BufTy).Contents (Elt Ideal) := kf_v1 (F := Ideal) (A.a1)
def k_v3 : (⟨S1600000, .i32⟩ : BufTy).Contents (Elt Ideal) := kf_v3 (F := Ideal) (A.a1)
def k_v10 : (⟨S100000, .f32⟩ : BufTy).Contents (Elt Ideal) := kf_v10 (F := Ideal) (k_v3 A)
def k_v11 : (⟨S100000, .f32⟩ : BufTy).Contents (Elt Ideal) := kf_v11 (F := Ideal) (k_v10 A)
def k_v27 : (⟨S1600000, .f32⟩ : BufTy).Contents (Elt Ideal) := kf_v27 (F := Ideal) (k_v10 A) (k_v1 A) (k_v3 A)
def k_v28 : (⟨S1700000, .i32⟩ : BufTy).Contents (Elt Ideal) := kf_v28 (F := Ideal) (k_v1 A)
def k_v29 : (⟨S1700000, .i32⟩ : BufTy).Contents (Elt Ideal) := kf_v28 (F := Ideal) (k_v3 A)
def k_v30 : (⟨S1700000, .f32⟩ : BufTy).Contents (Elt Ideal) := kf_v30 (F := Ideal) (k_v27 A) (k_v11 A)
def k_v31 : (⟨S1x64, .f32⟩ : BufTy).Contents (Elt Ideal) := kf_v31 (F := Ideal) (A.a4)
def k_v32 : (⟨S100000x64, .f32⟩ : BufTy).Contents (Elt Ideal) := addRow (M := 100000) (N := 64) (mm (M := 100000) (K := 32) (N := 64) (A.a0) (A.a3)) (k_v31 A)
def k_v34 : (⟨S64x64, .f32⟩ : BufTy).Contents (Elt Ideal) := kf_v34 (F := Ideal) (A.a5)
def k_v35 : (⟨S100000x64, .f32⟩ : BufTy).Contents (Elt Ideal) := mm (M := 100000) (K := 64) (N := 64) (k_v32 A) (k_v34 A)
def k_v48 : (⟨S100000x64, .f32⟩ : BufTy).Contents (Elt Ideal) := kf_v48 (F := Ideal) (k_v29 A) (k_v35 A) (k_v28 A) (k_v30 A)
def k_v51 : (⟨S1x64, .f32⟩ : BufTy).Contents (Elt Ideal) := kf_v51 (F := Ideal) (A.a6)
def k_v52_0 : (⟨S100000x64, .f32⟩ : BufTy).Contents (Elt Ideal) := addRow (M := 100000) (N := 64) (k_v48 A) (k_v51 A)
def k_v52_1 : (⟨S1x64, .f32⟩ : BufTy).Contents (Elt Ideal) := colSums (addRow (M := 100000) (N := 64) (k_v48 A) (k_v51 A))
def k_v52_2 : (⟨S1x64, .f32⟩ : BufTy).Contents (Elt Ideal) := colSumSqs (addRow (M := 100000) (N := 64) (k_v48 A) (k_v51 A))
def k_v54 : (⟨S1x64, .f32⟩ : BufTy).Contents (Elt Ideal) := kf_v54 (F := Ideal) (k_v52_1 A)
def k_v58 : (⟨S1x64, .f32⟩ : BufTy).Contents (Elt Ideal) := kf_v58 (F := Ideal) (k_v52_2 A) (k_v54 A)
def k_v61 : (⟨S1x64, .f32⟩ : BufTy).Contents (Elt Ideal) := kf_v51 (F := Ideal) (A.a7)
def k_v64 : (⟨S1x64, .f32⟩ : BufTy).Contents (Elt Ideal) := kf_v51 (F := Ideal) (A.a8)
def k_v65 : (⟨S100000x64, .f32⟩ : BufTy).Contents (Elt Ideal) := bnNorm (M := 100000) (N := 64) (k_v52_0 A) (k_v54 A) (k_v58 A) (k_v61 A) (k_v64 A) (k_v32 A)
def k_v67 : (⟨S64x64, .f32⟩ : BufTy).Contents (Elt Ideal) := kf_v67 (F := Ideal) (A.a5)
def k_v68 : (⟨S100000x64, .f32⟩ : BufTy).Contents (Elt Ideal) := mm (M := 100000) (K := 64) (N := 64) (k_v65 A) (k_v67 A)
def k_v81 : (⟨S100000x64, .f32⟩ : BufTy).Contents (Elt Ideal) := kf_v48 (F := Ideal) (k_v29 A) (k_v68 A) (k_v28 A) (k_v30 A)
def k_v84 : (⟨S1x64, .f32⟩ : BufTy).Contents (Elt Ideal) := kf_v84 (F := Ideal) (A.a6)
def k_v85_0 : (⟨S100000x64, .f32⟩ : BufTy).Contents (Elt Ideal) := addRow (M := 100000) (N := 64) (k_v81 A) (k_v84 A)
def k_v85_1 : (⟨S1x64, .f32⟩ : BufTy).Contents (Elt Ideal) := colSums (addRow (M := 100000) (N := 64) (k_v81 A) (k_v84 A))
def k_v85_2 : (⟨S1x64, .f32⟩ : BufTy).Contents (Elt Ideal) := colSumSqs (addRow (M := 100000) (N := 64) (k_v81 A) (k_v84 A))
def k_v87 : (⟨S1x64, .f32⟩ : BufTy).Contents (Elt Ideal) := kf_v54 (F := Ideal) (k_v85_1 A)
def k_v91 : (⟨S1x64, .f32⟩ : BufTy).Contents (Elt Ideal) := kf_v58 (F := Ideal) (k_v85_2 A) (k_v87 A)
def k_v94 : (⟨S1x64, .f32⟩ : BufTy).Contents (Elt Ideal) := kf_v84 (F := Ideal) (A.a7)
def k_v97 : (⟨S1x64, .f32⟩ : BufTy).Contents (Elt Ideal) := kf_v84 (F := Ideal) (A.a8)
def k_v98 : (⟨S100000x64, .f32⟩ : BufTy).Contents (Elt Ideal) := bnNorm (M := 100000) (N := 64) (k_v85_0 A) (k_v87 A) (k_v91 A) (k_v94 A) (k_v97 A) (k_v65 A)
def k_v100 : (⟨S64x64, .f32⟩ : BufTy).Contents (Elt Ideal) := kf_v100 (F := Ideal) (A.a5)
def k_v101 : (⟨S100000x64, .f32⟩ : BufTy).Contents (Elt Ideal) := mm (M := 100000) (K := 64) (N := 64) (k_v98 A) (k_v100 A)
def k_v114 : (⟨S100000x64, .f32⟩ : BufTy).Contents (Elt Ideal) := kf_v48 (F := Ideal) (k_v29 A) (k_v101 A) (k_v28 A) (k_v30 A)
def k_v117 : (⟨S1x64, .f32⟩ : BufTy).Contents (Elt Ideal) := kf_v117 (F := Ideal) (A.a6)
def k_v118_0 : (⟨S100000x64, .f32⟩ : BufTy).Contents (Elt Ideal) := addRow (M := 100000) (N := 64) (k_v114 A) (k_v117 A)
def k_v118_1 : (⟨S1x64, .f32⟩ : BufTy).Contents (Elt Ideal) := colSums (addRow (M := 100000) (N := 64) (k_v114 A) (k_v117 A))
def k_v118_2 : (⟨S1x64, .f32⟩ : BufTy).Contents (Elt Ideal) := colSumSqs (addRow (M := 100000) (N := 64) (k_v114 A) (k_v117 A))
def k_v120 : (⟨S1x64, .f32⟩ : BufTy).Contents (Elt Ideal) := kf_v54 (F := Ideal) (k_v118_1 A)
def k_v124 : (⟨S1x64, .f32⟩ : BufTy).Contents (Elt Ideal) := kf_v58 (F := Ideal) (k_v118_2 A) (k_v120 A)
def k_v127 : (⟨S1x64, .f32⟩ : BufTy).Contents (Elt Ideal) := kf_v117 (F := Ideal) (A.a7)
def k_v130 : (⟨S1x64, .f32⟩ : BufTy).Contents (Elt Ideal) := kf_v117 (F := Ideal) (A.a8)
def k_v131 : (⟨S100000x64, .f32⟩ : BufTy).Contents (Elt Ideal) := bnNorm (M := 100000) (N := 64) (k_v118_0 A) (k_v120 A) (k_v124 A) (k_v127 A) (k_v130 A) (k_v98 A)
def k_v133 : (⟨S64x64, .f32⟩ : BufTy).Contents (Elt Ideal) := kf_v133 (F := Ideal) (A.a5)
def k_v134 : (⟨S100000x64, .f32⟩ : BufTy).Contents (Elt Ideal) := mm (M := 100000) (K := 64) (N := 64) (k_v131 A) (k_v133 A)
def k_v147 : (⟨S100000x64, .f32⟩ : BufTy).Contents (Elt Ideal) := kf_v48 (F := Ideal) (k_v29 A) (k_v134 A) (k_v28 A) (k_v30 A)
def k_v150 : (⟨S1x64, .f32⟩ : BufTy).Contents (Elt Ideal) := kf_v150 (F := Ideal) (A.a6)
def k_v151_0 : (⟨S100000x64, .f32⟩ : BufTy).Contents (Elt Ideal) := addRow (M := 100000) (N := 64) (k_v147 A) (k_v150 A)
def k_v151_1 : (⟨S1x64, .f32⟩ : BufTy).Contents (Elt Ideal) := colSums (addRow (M := 100000) (N := 64) (k_v147 A) (k_v150 A))
def k_v151_2 : (⟨S1x64, .f32⟩ : BufTy).Contents (Elt Ideal) := colSumSqs (addRow (M := 100000) (N := 64) (k_v147 A) (k_v150 A))
def k_v153 : (⟨S1x64, .f32⟩ : BufTy).Contents (Elt Ideal) := kf_v54 (F := Ideal) (k_v151_1 A)
def k_v157 : (⟨S1x64, .f32⟩ : BufTy).Contents (Elt Ideal) := kf_v58 (F := Ideal) (k_v151_2 A) (k_v153 A)
def k_v160 : (⟨S1x64, .f32⟩ : BufTy).Contents (Elt Ideal) := kf_v150 (F := Ideal) (A.a7)
def k_v163 : (⟨S1x64, .f32⟩ : BufTy).Contents (Elt Ideal) := kf_v150 (F := Ideal) (A.a8)
def k_v164 : (⟨S100000x64, .f32⟩ : BufTy).Contents (Elt Ideal) := bnNorm (M := 100000) (N := 64) (k_v151_0 A) (k_v153 A) (k_v157 A) (k_v160 A) (k_v163 A) (k_v131 A)
def k_v176 : (⟨S256x64, .f32⟩ : BufTy).Contents (Elt Ideal) := kf_v176 (F := Ideal) (A.a2) (k_v164 A)
def k_v177 : (⟨S1x32, .f32⟩ : BufTy).Contents (Elt Ideal) := kf_v177 (F := Ideal) (A.a10)
def k_v178 : (⟨S1x1, .f32⟩ : BufTy).Contents (Elt Ideal) := kf_v178 (F := Ideal) (A.a12)
def k_v179 : (⟨S256x1, .f32⟩ : BufTy).Contents (Elt Ideal) := addRow (M := 256) (N := 1) (mm (M := 256) (K := 32) (N := 1) (relu (addRow (M := 256) (N := 32) (mm (M := 256) (K := 64) (N := 32) (k_v176 A) (A.a9)) (k_v177 A))) (A.a11)) (k_v178 A)

end Cert.KernelIdeal.KVal

end
-- ==== Proof.RefOps.lean ====
/-
The reference program's @main as a literal list of its 475 host operations, in order, and that @main is that straight line.

The program calls four small functions (a column variance, which itself calls a select-against-a-constant, and two clamps at
zero); each call is listed here as the callee's operations over that call's own buffers, in place. The list is cut into
fifteen consecutive pieces at the places where either the printed program is cut (its seven windows) or the mathematics is
(the embedding; per layer the convolution and the normalisation; the pooling and head), so that each of the two is a
concatenation of whole pieces. Beside each piece: the buffers it writes, and that it touches TensorCore buffers only.
-/
import proofs.«109724_j81406810128840_1_alg».proof.ReferenceIdeal
import Idealize.ShloMosaic.Lib.StableHlo.Run
import Idealize.ShloMosaic.Lib.Pipeline.Frame

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- Operations 1 … 8 of 475 (part of the embedding and the edge table's rows; in the program's window 0). -/
abbrev opsP0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)) ]

/-- The buffers piece 0 writes. -/
abbrev wP0 : List (Ref sig .tc) := [main_v0, main_v1, main_v2, main_v3, main_v4, main_v5, main_v6, main_v7]

/-- Operations 9 … 60 of 475 (part of layer 0's convolution; in the program's window 0). -/
abbrev opsP1 : List (HloOp τ sig (Elt F)) :=
  [ unary main_arg5 main_v8 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v8 main_v9 rfl shapeCasts_S1x64x64_S64x64,
    unary main_arg6 main_v10 ((extractStridedSlice S1x64 ![0, 0] · slices_S4x64_S1x64_0_0) : (⟨S4x64, .f32⟩ : BufTy).Contents (Elt F) → (⟨S1x64, .f32⟩ : BufTy).Contents (Elt F)),
    reshape main_v10 main_v11 rfl shapeCasts_S1x64_S64,
    binary main_v7 main_v9 main_v12 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst (constant S_ .f32 0x3F800000#32),
    unary main_cst main_v13 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v14 (broadcastInDim S100000 ![] bcast_S_S100000 : (⟨S_, .f32⟩ : BufTy).Contents (Elt F) → (⟨S100000, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v17 (broadcastInDim S100000 ![] bcast_S_S100000 : (⟨S_, .f32⟩ : BufTy).Contents (Elt F) → (⟨S100000, .f32⟩ : BufTy).Contents (Elt F)),
    binary main_v16 main_v17 main_v18 (addf : (⟨S100000, .f32⟩ : BufTy).Contents (Elt F) → (⟨S100000, .f32⟩ : BufTy).Contents (Elt F) → (⟨S100000, .f32⟩ : BufTy).Contents (Elt F)),
    unary main_v18 main_v19 (Host.rsqrt : (⟨S100000, .f32⟩ : BufTy).Contents (Elt F) → (⟨S100000, .f32⟩ : BufTy).Contents (Elt F)),
    nullary main_c (constantI S_ 32 0#32),
    unary main_c main_v20 (broadcastInDim S1600000 ![] bcast_S_S1600000 : (⟨S_, .i32⟩ : BufTy).Contents (Elt F) → (⟨S1600000, .i32⟩ : BufTy).Contents (Elt F)),
    binary main_v1 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_v1 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_v1 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v12 main_v25 main_v26 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_3 (constantI S_ 32 0#32),
    unary main_c_3 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v19 main_v32 main_v33 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v34 (broadcastInDim S1600000 ![] bcast_S_S1600000 : (⟨S_, .i32⟩ : BufTy).Contents (Elt F) → (⟨S1600000, .i32⟩ : BufTy).Contents (Elt F)),
    binary main_v3 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v36 (broadcastInDim S1600000 ![] bcast_S_S1600000 : (⟨S_, .i32⟩ : BufTy).Contents (Elt F) → (⟨S1600000, .i32⟩ : BufTy).Contents (Elt F)),
    binary main_v3 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v3 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_v19 main_v39 main_v40 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v33 main_v40 main_v41 (mulf : (⟨S1600000, .f32⟩ : BufTy).Contents (Elt F) → (⟨S1600000, .f32⟩ : BufTy).Contents (Elt F) → (⟨S1600000, .f32⟩ : BufTy).Contents (Elt F)),
    unary main_v41 main_v42 (broadcastInDim S1600000x1 ![0] bcast_S1600000_S1600000x1_0 : (⟨S1600000, .f32⟩ : BufTy).Contents (Elt F) → (⟨S1600000x1, .f32⟩ : BufTy).Contents (Elt F)),
    unary main_v42 main_v43 (broadcastInDim S1600000x64 ![0, 1] bcast_S1600000x1_S1600000x64_0_1 : (⟨S1600000x1, .f32⟩ : BufTy).Contents (Elt F) → (⟨S1600000x64, .f32⟩ : BufTy).Contents (Elt F)),
    binary main_v26 main_v43 main_v44 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v45 (broadcastInDim S100000x64 ![] bcast_S_S100000x64 : (⟨S_, .f32⟩ : BufTy).Contents (Elt F) → (⟨S100000x64, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v19 main_v19 main_v48 (mulf : (⟨S100000, .f32⟩ : BufTy).Contents (Elt F) → (⟨S100000, .f32⟩ : BufTy).Contents (Elt F) → (⟨S100000, .f32⟩ : BufTy).Contents (Elt F)),
    unary main_v48 main_v49 (broadcastInDim S100000x1 ![0] bcast_S100000_S100000x1_0 : (⟨S100000, .f32⟩ : BufTy).Contents (Elt F) → (⟨S100000x1, .f32⟩ : BufTy).Contents (Elt F)) ]

/-- The buffers piece 1 writes. -/
abbrev wP1 : List (Ref sig .tc) := [main_v8, main_v9, main_v10, main_v11, main_v12, main_cst, main_v13, main_cst_0, main_v14, main_v15, main_v16, main_cst_1, main_v17, main_v18, main_v19, main_c, main_v20, main_v21, main_c_2, main_v22, main_v23, main_v24, main_v25, main_v26, main_c_3, main_v27, main_v28, main_c_4, main_v29, main_v30, main_v31, main_v32, main_v33, main_c_5, main_v34, main_v35, main_c_6, main_v36, main_v37, main_v38, main_v39, main_v40, main_v41, main_v42, main_v43, main_v44, main_cst_7, main_v45, main_v46, main_v47, main_v48, main_v49]

/-- Operations 61 … 66 of 475 (part of layer 0's convolution; in the program's window 1). -/
abbrev opsP2 : List (HloOp τ sig (Elt F)) :=
  [ unary main_v49 main_v50 (broadcastInDim S100000x64 ![0, 1] bcast_S100000x1_S100000x64_0_1 : (⟨S100000x1, .f32⟩ : BufTy).Contents (Elt F) → (⟨S100000x64, .f32⟩ : BufTy).Contents (Elt F)),
    binary main_v12 main_v50 main_v51 (mulf : (⟨S100000x64, .f32⟩ : BufTy).Contents (Elt F) → (⟨S100000x64, .f32⟩ : BufTy).Contents (Elt F) → (⟨S100000x64, .f32⟩ : BufTy).Contents (Elt F)),
    binary main_v47 main_v51 main_v52 (addf : (⟨S100000x64, .f32⟩ : BufTy).Contents (Elt F) → (⟨S100000x64, .f32⟩ : BufTy).Contents (Elt F) → (⟨S100000x64, .f32⟩ : BufTy).Contents (Elt F)),
    unary main_v11 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v52 main_v54 main_v55 (addf : (⟨S100000x64, .f32⟩ : BufTy).Contents (Elt F) → (⟨S100000x64, .f32⟩ : BufTy).Contents (Elt F) → (⟨S100000x64, .f32⟩ : BufTy).Contents (Elt F)) ]

/-- The buffers piece 2 writes. -/
abbrev wP2 : List (Ref sig .tc) := [main_v50, main_v51, main_v52, main_v53, main_v54, main_v55]

/-- Operations 67 … 118 of 475 (part of layer 0's normalisation; in the program's window 1). -/
abbrev opsP3 : List (HloOp τ sig (Elt F)) :=
  [ unary main_arg7 main_v56 ((extractStridedSlice S1x64 ![0, 0] · slices_S4x64_S1x64_0_0) : (⟨S4x64, .f32⟩ : BufTy).Contents (Elt F) → (⟨S1x64, .f32⟩ : BufTy).Contents (Elt F)),
    reshape main_v56 main_v57 rfl shapeCasts_S1x64_S64,
    unary main_arg8 main_v58 ((extractStridedSlice S1x64 ![0, 0] · slices_S4x64_S1x64_0_0) : (⟨S4x64, .f32⟩ : BufTy).Contents (Elt F) → (⟨S1x64, .f32⟩ : BufTy).Contents (Elt F)),
    reshape main_v58 main_v59 rfl shapeCasts_S1x64_S64,
    nullary main_cst_8 (constant S_ .f32 0x00000000#32),
    binary main_v55 main_cst_8 main_v60 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v61 (broadcastInDim S64 ![] bcast_S_S64 : (⟨S_, .f32⟩ : BufTy).Contents (Elt F) → (⟨S64, .f32⟩ : BufTy).Contents (Elt F)),
    binary main_v60 main_v61 main_v62 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (.of main_v55 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v55 : TRef sig ⟨S100000x64, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v62 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v55 main_v65 main_v66 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v67 (broadcastInDim S64 ![] bcast_S_S64 : (⟨S_, .f32⟩ : BufTy).Contents (Elt F) → (⟨S64, .f32⟩ : BufTy).Contents (Elt F)),
    binary main_v63 main_v67 main_v68 (addf : (⟨S64, .f32⟩ : BufTy).Contents (Elt F) → (⟨S64, .f32⟩ : BufTy).Contents (Elt F) → (⟨S64, .f32⟩ : BufTy).Contents (Elt F)),
    unary main_v68 main_v69 (Host.rsqrt : (⟨S64, .f32⟩ : BufTy).Contents (Elt F) → (⟨S64, .f32⟩ : BufTy).Contents (Elt F)),
    unary main_v69 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v66 main_v71 main_v72 (mulf : (⟨S100000x64, .f32⟩ : BufTy).Contents (Elt F) → (⟨S100000x64, .f32⟩ : BufTy).Contents (Elt F) → (⟨S100000x64, .f32⟩ : BufTy).Contents (Elt F)),
    unary main_v57 main_v73 (broadcastInDim S1x64 ![1] bcast_S64_S1x64_1 : (⟨S64, .f32⟩ : BufTy).Contents (Elt F) → (⟨S1x64, .f32⟩ : BufTy).Contents (Elt F)),
    unary main_v73 main_v74 (broadcastInDim S100000x64 ![0, 1] bcast_S1x64_S100000x64_0_1 : (⟨S1x64, .f32⟩ : BufTy).Contents (Elt F) → (⟨S100000x64, .f32⟩ : BufTy).Contents (Elt F)),
    binary main_v72 main_v74 main_v75 (mulf : (⟨S100000x64, .f32⟩ : BufTy).Contents (Elt F) → (⟨S100000x64, .f32⟩ : BufTy).Contents (Elt F) → (⟨S100000x64, .f32⟩ : BufTy).Contents (Elt F)),
    unary main_v59 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v78 : TRef sig ⟨S100000x64, .f32⟩) main_call1.v0 main_call1.v1 maximumf,
    binary main_v79 main_v7 main_v80 (addf : (⟨S100000x64, .f32⟩ : BufTy).Contents (Elt F) → (⟨S100000x64, .f32⟩ : BufTy).Contents (Elt F) → (⟨S100000x64, .f32⟩ : BufTy).Contents (Elt F)) ]

/-- The buffers piece 3 writes. -/
abbrev wP3 : List (Ref sig .tc) := [main_v56, main_v57, main_v58, main_v59, main_cst_8, main_v60, main_cst_9, main_v61, main_v62, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v63, main_v64, main_v65, main_v66, main_cst_11, main_v67, main_v68, main_v69, main_v70, main_v71, main_v72, main_v73, main_v74, main_v75, main_v76, main_v77, main_v78, main_call1_cst, main_call1_v0, main_v79, main_v80]

/-- Operations 119 … 143 of 475 (part of layer 1's convolution; in the program's window 1). -/
abbrev opsP4 : List (HloOp τ sig (Elt F)) :=
  [ unary main_arg5 main_v81 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v81 main_v82 rfl shapeCasts_S1x64x64_S64x64,
    unary main_arg6 main_v83 ((extractStridedSlice S1x64 ![1, 0] · slices_S4x64_S1x64_1_0) : (⟨S4x64, .f32⟩ : BufTy).Contents (Elt F) → (⟨S1x64, .f32⟩ : BufTy).Contents (Elt F)),
    reshape main_v83 main_v84 rfl shapeCasts_S1x64_S64,
    binary main_v80 main_v82 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_12 (constant S_ .f32 0x3F800000#32),
    unary main_cst_12 main_v86 (broadcastInDim S1600000 ![] bcast_S_S1600000 : (⟨S_, .f32⟩ : BufTy).Contents (Elt F) → (⟨S1600000, .f32⟩ : BufTy).Contents (Elt F)),
    nullary main_cst_13 (constant S_ .f32 0x00000000#32),
    unary main_cst_13 main_v87 (broadcastInDim S100000 ![] bcast_S_S100000 : (⟨S_, .f32⟩ : BufTy).Contents (Elt F) → (⟨S100000, .f32⟩ : BufTy).Contents (Elt F)),
    unary main_v3 main_v88 (broadcastInDim S1600000x1 ![0] bcast_S1600000_S1600000x1_0 : (⟨S1600000, .i32⟩ : BufTy).Contents (Elt F) → (⟨S1600000x1, .i32⟩ : BufTy).Contents (Elt F)),
    ternary main_v87 main_v88 main_v86 main_v89 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_14 (constant S_ .f32 0x3F800000#32),
    unary main_cst_14 main_v90 (broadcastInDim S100000 ![] bcast_S_S100000 : (⟨S_, .f32⟩ : BufTy).Contents (Elt F) → (⟨S100000, .f32⟩ : BufTy).Contents (Elt F)),
    binary main_v89 main_v90 main_v91 (addf : (⟨S100000, .f32⟩ : BufTy).Contents (Elt F) → (⟨S100000, .f32⟩ : BufTy).Contents (Elt F) → (⟨S100000, .f32⟩ : BufTy).Contents (Elt F)),
    unary main_v91 main_v92 (Host.rsqrt : (⟨S100000, .f32⟩ : BufTy).Contents (Elt F) → (⟨S100000, .f32⟩ : BufTy).Contents (Elt F)),
    nullary main_c_15 (constantI S_ 32 0#32),
    unary main_c_15 main_v93 (broadcastInDim S1600000 ![] bcast_S_S1600000 : (⟨S_, .i32⟩ : BufTy).Contents (Elt F) → (⟨S1600000, .i32⟩ : BufTy).Contents (Elt F)),
    binary main_v1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v95 (broadcastInDim S1600000 ![] bcast_S_S1600000 : (⟨S_, .i32⟩ : BufTy).Contents (Elt F) → (⟨S1600000, .i32⟩ : BufTy).Contents (Elt F)),
    binary main_v1 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v85 main_v98 main_v99 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_17 (constantI S_ 32 0#32) ]

/-- The buffers piece 4 writes. -/
abbrev wP4 : List (Ref sig .tc) := [main_v81, main_v82, main_v83, main_v84, main_v85, main_cst_12, main_v86, main_cst_13, main_v87, main_v88, main_v89, main_cst_14, main_v90, main_v91, main_v92, main_c_15, main_v93, main_v94, main_c_16, main_v95, main_v96, main_v97, main_v98, main_v99, main_c_17]

/-- Operations 144 … 176 of 475 (part of layer 1's convolution; in the program's window 2). -/
abbrev opsP5 : List (HloOp τ sig (Elt F)) :=
  [ unary main_c_17 main_v100 (broadcastInDim S1600000 ![] bcast_S_S1600000 : (⟨S_, .i32⟩ : BufTy).Contents (Elt F) → (⟨S1600000, .i32⟩ : BufTy).Contents (Elt F)),
    binary main_v1 main_v100 main_v101 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v102 (broadcastInDim S1600000 ![] bcast_S_S1600000 : (⟨S_, .i32⟩ : BufTy).Contents (Elt F) → (⟨S1600000, .i32⟩ : BufTy).Contents (Elt F)),
    binary main_v1 main_v102 main_v103 (addi : (⟨S1600000, .i32⟩ : BufTy).Contents (Elt F) → (⟨S1600000, .i32⟩ : BufTy).Contents (Elt F) → (⟨S1600000, .i32⟩ : BufTy).Contents (Elt F)),
    ternary main_v101 main_v103 main_v1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v104 main_v105 (broadcastInDim S1600000x1 ![0] bcast_S1600000_S1600000x1_0 : (⟨S1600000, .i32⟩ : BufTy).Contents (Elt F) → (⟨S1600000x1, .i32⟩ : BufTy).Contents (Elt F)),
    binary main_v92 main_v105 main_v106 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_19 (constantI S_ 32 0#32),
    unary main_c_19 main_v107 (broadcastInDim S1600000 ![] bcast_S_S1600000 : (⟨S_, .i32⟩ : BufTy).Contents (Elt F) → (⟨S1600000, .i32⟩ : BufTy).Contents (Elt F)),
    binary main_v3 main_v107 main_v108 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v109 (broadcastInDim S1600000 ![] bcast_S_S1600000 : (⟨S_, .i32⟩ : BufTy).Contents (Elt F) → (⟨S1600000, .i32⟩ : BufTy).Contents (Elt F)),
    binary main_v3 main_v109 main_v110 (addi : (⟨S1600000, .i32⟩ : BufTy).Contents (Elt F) → (⟨S1600000, .i32⟩ : BufTy).Contents (Elt F) → (⟨S1600000, .i32⟩ : BufTy).Contents (Elt F)),
    ternary main_v108 main_v110 main_v3 main_v111 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v111 main_v112 (broadcastInDim S1600000x1 ![0] bcast_S1600000_S1600000x1_0 : (⟨S1600000, .i32⟩ : BufTy).Contents (Elt F) → (⟨S1600000x1, .i32⟩ : BufTy).Contents (Elt F)),
    binary main_v92 main_v112 main_v113 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v106 main_v113 main_v114 (mulf : (⟨S1600000, .f32⟩ : BufTy).Contents (Elt F) → (⟨S1600000, .f32⟩ : BufTy).Contents (Elt F) → (⟨S1600000, .f32⟩ : BufTy).Contents (Elt F)),
    unary main_v114 main_v115 (broadcastInDim S1600000x1 ![0] bcast_S1600000_S1600000x1_0 : (⟨S1600000, .f32⟩ : BufTy).Contents (Elt F) → (⟨S1600000x1, .f32⟩ : BufTy).Contents (Elt F)),
    unary main_v115 main_v116 (broadcastInDim S1600000x64 ![0, 1] bcast_S1600000x1_S1600000x64_0_1 : (⟨S1600000x1, .f32⟩ : BufTy).Contents (Elt F) → (⟨S1600000x64, .f32⟩ : BufTy).Contents (Elt F)),
    binary main_v99 main_v116 main_v117 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v118 (broadcastInDim S100000x64 ![] bcast_S_S100000x64 : (⟨S_, .f32⟩ : BufTy).Contents (Elt F) → (⟨S100000x64, .f32⟩ : BufTy).Contents (Elt F)),
    unary main_v3 main_v119 (broadcastInDim S1600000x1 ![0] bcast_S1600000_S1600000x1_0 : (⟨S1600000, .i32⟩ : BufTy).Contents (Elt F) → (⟨S1600000x1, .i32⟩ : BufTy).Contents (Elt F)),
    ternary main_v118 main_v119 main_v117 main_v120 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v92 main_v92 main_v121 (mulf : (⟨S100000, .f32⟩ : BufTy).Contents (Elt F) → (⟨S100000, .f32⟩ : BufTy).Contents (Elt F) → (⟨S100000, .f32⟩ : BufTy).Contents (Elt F)),
    unary main_v121 main_v122 (broadcastInDim S100000x1 ![0] bcast_S100000_S100000x1_0 : (⟨S100000, .f32⟩ : BufTy).Contents (Elt F) → (⟨S100000x1, .f32⟩ : BufTy).Contents (Elt F)),
    unary main_v122 main_v123 (broadcastInDim S100000x64 ![0, 1] bcast_S100000x1_S100000x64_0_1 : (⟨S100000x1, .f32⟩ : BufTy).Contents (Elt F) → (⟨S100000x64, .f32⟩ : BufTy).Contents (Elt F)),
    binary main_v85 main_v123 main_v124 (mulf : (⟨S100000x64, .f32⟩ : BufTy).Contents (Elt F) → (⟨S100000x64, .f32⟩ : BufTy).Contents (Elt F) → (⟨S100000x64, .f32⟩ : BufTy).Contents (Elt F)),
    binary main_v120 main_v124 main_v125 (addf : (⟨S100000x64, .f32⟩ : BufTy).Contents (Elt F) → (⟨S100000x64, .f32⟩ : BufTy).Contents (Elt F) → (⟨S100000x64, .f32⟩ : BufTy).Contents (Elt F)),
    unary main_v84 main_v126 (broadcastInDim S1x64 ![1] bcast_S64_S1x64_1 : (⟨S64, .f32⟩ : BufTy).Contents (Elt F) → (⟨S1x64, .f32⟩ : BufTy).Contents (Elt F)),
    unary main_v126 main_v127 (broadcastInDim S100000x64 ![0, 1] bcast_S1x64_S100000x64_0_1 : (⟨S1x64, .f32⟩ : BufTy).Contents (Elt F) → (⟨S100000x64, .f32⟩ : BufTy).Contents (Elt F)),
    binary main_v125 main_v127 main_v128 (addf : (⟨S100000x64, .f32⟩ : BufTy).Contents (Elt F) → (⟨S100000x64, .f32⟩ : BufTy).Contents (Elt F) → (⟨S100000x64, .f32⟩ : BufTy).Contents (Elt F)) ]

/-- The buffers piece 5 writes. -/
abbrev wP5 : List (Ref sig .tc) := [main_v100, main_v101, main_c_18, main_v102, main_v103, main_v104, main_v105, main_v106, main_c_19, main_v107, main_v108, main_c_20, main_v109, main_v110, main_v111, main_v112, main_v113, main_v114, main_v115, main_v116, main_v117, main_cst_21, main_v118, main_v119, main_v120, main_v121, main_v122, main_v123, main_v124, main_v125, main_v126, main_v127, main_v128]

/-- Operations 177 … 224 of 475 (part of layer 1's normalisation; in the program's window 2). -/
abbrev opsP6 : List (HloOp τ sig (Elt F)) :=
  [ unary main_arg7 main_v129 ((extractStridedSlice S1x64 ![1, 0] · slices_S4x64_S1x64_1_0) : (⟨S4x64, .f32⟩ : BufTy).Contents (Elt F) → (⟨S1x64, .f32⟩ : BufTy).Contents (Elt F)),
    reshape main_v129 main_v130 rfl shapeCasts_S1x64_S64,
    unary main_arg8 main_v131 ((extractStridedSlice S1x64 ![1, 0] · slices_S4x64_S1x64_1_0) : (⟨S4x64, .f32⟩ : BufTy).Contents (Elt F) → (⟨S1x64, .f32⟩ : BufTy).Contents (Elt F)),
    reshape main_v131 main_v132 rfl shapeCasts_S1x64_S64,
    nullary main_cst_22 (constant S_ .f32 0x00000000#32),
    binary main_v128 main_cst_22 main_v133 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary main_call2.cst (constant S_ .f32 0x00000000#32),
    TRef.binary (.of main_v128 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v128 : TRef sig ⟨S100000x64, .f32⟩) main_call2.v4 main_call2.v5 subf,
    TRef.binary main_call2.v5 main_call2.v5 main_call2.v6 mulf,
    TRef.unary (.of main_c_24 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v135 main_v137 (broadcastInDim S1x64 ![1] bcast_S64_S1x64_1 : (⟨S64, .f32⟩ : BufTy).Contents (Elt F) → (⟨S1x64, .f32⟩ : BufTy).Contents (Elt F)),
    unary main_v137 main_v138 (broadcastInDim S100000x64 ![0, 1] bcast_S1x64_S100000x64_0_1 : (⟨S1x64, .f32⟩ : BufTy).Contents (Elt F) → (⟨S100000x64, .f32⟩ : BufTy).Contents (Elt F)),
    binary main_v128 main_v138 main_v139 (subf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v140 (broadcastInDim S64 ![] bcast_S_S64 : (⟨S_, .f32⟩ : BufTy).Contents (Elt F) → (⟨S64, .f32⟩ : BufTy).Contents (Elt F)),
    binary main_v136 main_v140 main_v141 (addf : (⟨S64, .f32⟩ : BufTy).Contents (Elt F) → (⟨S64, .f32⟩ : BufTy).Contents (Elt F) → (⟨S64, .f32⟩ : BufTy).Contents (Elt F)),
    unary main_v141 main_v142 (Host.rsqrt : (⟨S64, .f32⟩ : BufTy).Contents (Elt F) → (⟨S64, .f32⟩ : BufTy).Contents (Elt F)),
    unary main_v142 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v139 main_v144 main_v145 (mulf : (⟨S100000x64, .f32⟩ : BufTy).Contents (Elt F) → (⟨S100000x64, .f32⟩ : BufTy).Contents (Elt F) → (⟨S100000x64, .f32⟩ : BufTy).Contents (Elt F)),
    unary main_v130 main_v146 (broadcastInDim S1x64 ![1] bcast_S64_S1x64_1 : (⟨S64, .f32⟩ : BufTy).Contents (Elt F) → (⟨S1x64, .f32⟩ : BufTy).Contents (Elt F)),
    unary main_v146 main_v147 (broadcastInDim S100000x64 ![0, 1] bcast_S1x64_S100000x64_0_1 : (⟨S1x64, .f32⟩ : BufTy).Contents (Elt F) → (⟨S100000x64, .f32⟩ : BufTy).Contents (Elt F)),
    binary main_v145 main_v147 main_v148 (mulf : (⟨S100000x64, .f32⟩ : BufTy).Contents (Elt F) → (⟨S100000x64, .f32⟩ : BufTy).Contents (Elt F) → (⟨S100000x64, .f32⟩ : BufTy).Contents (Elt F)),
    unary main_v132 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v148 main_v150 main_v151 (addf : (⟨S100000x64, .f32⟩ : BufTy).Contents (Elt F) → (⟨S100000x64, .f32⟩ : BufTy).Contents (Elt F) → (⟨S100000x64, .f32⟩ : BufTy).Contents (Elt F)) ]

/-- The buffers piece 6 writes. -/
abbrev wP6 : List (Ref sig .tc) := [main_v129, main_v130, main_v131, main_v132, main_cst_22, main_v133, main_cst_23, main_v134, main_v135, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v136, main_v137, main_v138, main_v139, main_cst_25, main_v140, main_v141, main_v142, main_v143, main_v144, main_v145, main_v146, main_v147, main_v148, main_v149, main_v150, main_v151]

/-- Operations 225 … 228 of 475 (part of layer 1's normalisation; in the program's window 3). -/
abbrev opsP7 : List (HloOp τ sig (Elt F)) :=
  [ TRef.nullary main_call3.cst (constant S_ .f32 0x00000000#32),
    TRef.unary main_call3.cst main_call3.v0 (broadcastInDim S100000x64 ![] bcast_S_S100000x64),
    TRef.binary (.of main_v151 : TRef sig ⟨S100000x64, .f32⟩) main_call3.v0 main_call3.v1 maximumf,
    binary main_v152 main_v80 main_v153 (addf : (⟨S100000x64, .f32⟩ : BufTy).Contents (Elt F) → (⟨S100000x64, .f32⟩ : BufTy).Contents (Elt F) → (⟨S100000x64, .f32⟩ : BufTy).Contents (Elt F)) ]

/-- The buffers piece 7 writes. -/
abbrev wP7 : List (Ref sig .tc) := [main_call3_cst, main_call3_v0, main_v152, main_v153]

/-- Operations 229 … 286 of 475 (part of layer 2's convolution; in the program's window 3). -/
abbrev opsP8 : List (HloOp τ sig (Elt F)) :=
  [ unary main_arg5 main_v154 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v154 main_v155 rfl shapeCasts_S1x64x64_S64x64,
    unary main_arg6 main_v156 ((extractStridedSlice S1x64 ![2, 0] · slices_S4x64_S1x64_2_0) : (⟨S4x64, .f32⟩ : BufTy).Contents (Elt F) → (⟨S1x64, .f32⟩ : BufTy).Contents (Elt F)),
    reshape main_v156 main_v157 rfl shapeCasts_S1x64_S64,
    binary main_v153 main_v155 main_v158 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_26 (constant S_ .f32 0x3F800000#32),
    unary main_cst_26 main_v159 (broadcastInDim S1600000 ![] bcast_S_S1600000 : (⟨S_, .f32⟩ : BufTy).Contents (Elt F) → (⟨S1600000, .f32⟩ : BufTy).Contents (Elt F)),
    nullary main_cst_27 (constant S_ .f32 0x00000000#32),
    unary main_cst_27 main_v160 (broadcastInDim S100000 ![] bcast_S_S100000 : (⟨S_, .f32⟩ : BufTy).Contents (Elt F) → (⟨S100000, .f32⟩ : BufTy).Contents (Elt F)),
    unary main_v3 main_v161 (broadcastInDim S1600000x1 ![0] bcast_S1600000_S1600000x1_0 : (⟨S1600000, .i32⟩ : BufTy).Contents (Elt F) → (⟨S1600000x1, .i32⟩ : BufTy).Contents (Elt F)),
    ternary main_v160 main_v161 main_v159 main_v162 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_28 (constant S_ .f32 0x3F800000#32),
    unary main_cst_28 main_v163 (broadcastInDim S100000 ![] bcast_S_S100000 : (⟨S_, .f32⟩ : BufTy).Contents (Elt F) → (⟨S100000, .f32⟩ : BufTy).Contents (Elt F)),
    binary main_v162 main_v163 main_v164 (addf : (⟨S100000, .f32⟩ : BufTy).Contents (Elt F) → (⟨S100000, .f32⟩ : BufTy).Contents (Elt F) → (⟨S100000, .f32⟩ : BufTy).Contents (Elt F)),
    unary main_v164 main_v165 (Host.rsqrt : (⟨S100000, .f32⟩ : BufTy).Contents (Elt F) → (⟨S100000, .f32⟩ : BufTy).Contents (Elt F)),
    nullary main_c_29 (constantI S_ 32 0#32),
    unary main_c_29 main_v166 (broadcastInDim S1600000 ![] bcast_S_S1600000 : (⟨S_, .i32⟩ : BufTy).Contents (Elt F) → (⟨S1600000, .i32⟩ : BufTy).Contents (Elt F)),
    binary main_v1 main_v166 main_v167 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v168 (broadcastInDim S1600000 ![] bcast_S_S1600000 : (⟨S_, .i32⟩ : BufTy).Contents (Elt F) → (⟨S1600000, .i32⟩ : BufTy).Contents (Elt F)),
    binary main_v1 main_v168 main_v169 (addi : (⟨S1600000, .i32⟩ : BufTy).Contents (Elt F) → (⟨S1600000, .i32⟩ : BufTy).Contents (Elt F) → (⟨S1600000, .i32⟩ : BufTy).Contents (Elt F)),
    ternary main_v167 main_v169 main_v1 main_v170 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v170 main_v171 (broadcastInDim S1600000x1 ![0] bcast_S1600000_S1600000x1_0 : (⟨S1600000, .i32⟩ : BufTy).Contents (Elt F) → (⟨S1600000x1, .i32⟩ : BufTy).Contents (Elt F)),
    binary main_v158 main_v171 main_v172 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_31 (constantI S_ 32 0#32),
    unary main_c_31 main_v173 (broadcastInDim S1600000 ![] bcast_S_S1600000 : (⟨S_, .i32⟩ : BufTy).Contents (Elt F) → (⟨S1600000, .i32⟩ : BufTy).Contents (Elt F)),
    binary main_v1 main_v173 main_v174 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v175 (broadcastInDim S1600000 ![] bcast_S_S1600000 : (⟨S_, .i32⟩ : BufTy).Contents (Elt F) → (⟨S1600000, .i32⟩ : BufTy).Contents (Elt F)),
    binary main_v1 main_v175 main_v176 (addi : (⟨S1600000, .i32⟩ : BufTy).Contents (Elt F) → (⟨S1600000, .i32⟩ : BufTy).Contents (Elt F) → (⟨S1600000, .i32⟩ : BufTy).Contents (Elt F)),
    ternary main_v174 main_v176 main_v1 main_v177 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v177 main_v178 (broadcastInDim S1600000x1 ![0] bcast_S1600000_S1600000x1_0 : (⟨S1600000, .i32⟩ : BufTy).Contents (Elt F) → (⟨S1600000x1, .i32⟩ : BufTy).Contents (Elt F)),
    binary main_v165 main_v178 main_v179 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_33 (constantI S_ 32 0#32),
    unary main_c_33 main_v180 (broadcastInDim S1600000 ![] bcast_S_S1600000 : (⟨S_, .i32⟩ : BufTy).Contents (Elt F) → (⟨S1600000, .i32⟩ : BufTy).Contents (Elt F)),
    binary main_v3 main_v180 main_v181 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 100000#32),
    unary main_c_34 main_v182 (broadcastInDim S1600000 ![] bcast_S_S1600000 : (⟨S_, .i32⟩ : BufTy).Contents (Elt F) → (⟨S1600000, .i32⟩ : BufTy).Contents (Elt F)),
    binary main_v3 main_v182 main_v183 (addi : (⟨S1600000, .i32⟩ : BufTy).Contents (Elt F) → (⟨S1600000, .i32⟩ : BufTy).Contents (Elt F) → (⟨S1600000, .i32⟩ : BufTy).Contents (Elt F)),
    ternary main_v181 main_v183 main_v3 main_v184 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v184 main_v185 (broadcastInDim S1600000x1 ![0] bcast_S1600000_S1600000x1_0 : (⟨S1600000, .i32⟩ : BufTy).Contents (Elt F) → (⟨S1600000x1, .i32⟩ : BufTy).Contents (Elt F)),
    binary main_v165 main_v185 main_v186 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v179 main_v186 main_v187 (mulf : (⟨S1600000, .f32⟩ : BufTy).Contents (Elt F) → (⟨S1600000, .f32⟩ : BufTy).Contents (Elt F) → (⟨S1600000, .f32⟩ : BufTy).Contents (Elt F)),
    unary main_v187 main_v188 (broadcastInDim S1600000x1 ![0] bcast_S1600000_S1600000x1_0 : (⟨S1600000, .f32⟩ : BufTy).Contents (Elt F) → (⟨S1600000x1, .f32⟩ : BufTy).Contents (Elt F)),
    unary main_v188 main_v189 (broadcastInDim S1600000x64 ![0, 1] bcast_S1600000x1_S1600000x64_0_1 : (⟨S1600000x1, .f32⟩ : BufTy).Contents (Elt F) → (⟨S1600000x64, .f32⟩ : BufTy).Contents (Elt F)),
    binary main_v172 main_v189 main_v190 (mulf : (⟨S1600000x64, .f32⟩ : BufTy).Contents (Elt F) → (⟨S1600000x64, .f32⟩ : BufTy).Contents (Elt F) → (⟨S1600000x64, .f32⟩ : BufTy).Contents (Elt F)),
    nullary main_cst_35 (constant S_ .f32 0x00000000#32),
    unary main_cst_35 main_v191 (broadcastInDim S100000x64 ![] bcast_S_S100000x64 : (⟨S_, .f32⟩ : BufTy).Contents (Elt F) → (⟨S100000x64, .f32⟩ : BufTy).Contents (Elt F)),
    unary main_v3 main_v192 (broadcastInDim S1600000x1 ![0] bcast_S1600000_S1600000x1_0 : (⟨S1600000, .i32⟩ : BufTy).Contents (Elt F) → (⟨S1600000x1, .i32⟩ : BufTy).Contents (Elt F)),
    ternary main_v191 main_v192 main_v190 main_v193 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v165 main_v165 main_v194 (mulf : (⟨S100000, .f32⟩ : BufTy).Contents (Elt F) → (⟨S100000, .f32⟩ : BufTy).Contents (Elt F) → (⟨S100000, .f32⟩ : BufTy).Contents (Elt F)),
    unary main_v194 main_v195 (broadcastInDim S100000x1 ![0] bcast_S100000_S100000x1_0 : (⟨S100000, .f32⟩ : BufTy).Contents (Elt F) → (⟨S100000x1, .f32⟩ : BufTy).Contents (Elt F)),
    unary main_v195 main_v196 (broadcastInDim S100000x64 ![0, 1] bcast_S100000x1_S100000x64_0_1 : (⟨S100000x1, .f32⟩ : BufTy).Contents (Elt F) → (⟨S100000x64, .f32⟩ : BufTy).Contents (Elt F)),
    binary main_v158 main_v196 main_v197 (mulf : (⟨S100000x64, .f32⟩ : BufTy).Contents (Elt F) → (⟨S100000x64, .f32⟩ : BufTy).Contents (Elt F) → (⟨S100000x64, .f32⟩ : BufTy).Contents (Elt F)),
    binary main_v193 main_v197 main_v198 (addf : (⟨S100000x64, .f32⟩ : BufTy).Contents (Elt F) → (⟨S100000x64, .f32⟩ : BufTy).Contents (Elt F) → (⟨S100000x64, .f32⟩ : BufTy).Contents (Elt F)),
    unary main_v157 main_v199 (broadcastInDim S1x64 ![1] bcast_S64_S1x64_1 : (⟨S64, .f32⟩ : BufTy).Contents (Elt F) → (⟨S1x64, .f32⟩ : BufTy).Contents (Elt F)),
    unary main_v199 main_v200 (broadcastInDim S100000x64 ![0, 1] bcast_S1x64_S100000x64_0_1 : (⟨S1x64, .f32⟩ : BufTy).Contents (Elt F) → (⟨S100000x64, .f32⟩ : BufTy).Contents (Elt F)),
    binary main_v198 main_v200 main_v201 (addf : (⟨S100000x64, .f32⟩ : BufTy).Contents (Elt F) → (⟨S100000x64, .f32⟩ : BufTy).Contents (Elt F) → (⟨S100000x64, .f32⟩ : BufTy).Contents (Elt F)) ]

/-- The buffers piece 8 writes. -/
abbrev wP8 : List (Ref sig .tc) := [main_v154, main_v155, main_v156, main_v157, main_v158, main_cst_26, main_v159, main_cst_27, main_v160, main_v161, main_v162, main_cst_28, main_v163, main_v164, main_v165, main_c_29, main_v166, main_v167, main_c_30, main_v168, main_v169, main_v170, main_v171, main_v172, main_c_31, main_v173, main_v174, main_c_32, main_v175, main_v176, main_v177, main_v178, main_v179, main_c_33, main_v180, main_v181, main_c_34, main_v182, main_v183, main_v184, main_v185, main_v186, main_v187, main_v188, main_v189, main_v190, main_cst_35, main_v191, main_v192, main_v193, main_v194, main_v195, main_v196, main_v197, main_v198, main_v199, main_v200, main_v201]

/-- Operations 287 … 338 of 475 (part of layer 2's normalisation; in the program's window 4). -/
abbrev opsP9 : List (HloOp τ sig (Elt F)) :=
  [ unary main_arg7 main_v202 ((extractStridedSlice S1x64 ![2, 0] · slices_S4x64_S1x64_2_0) : (⟨S4x64, .f32⟩ : BufTy).Contents (Elt F) → (⟨S1x64, .f32⟩ : BufTy).Contents (Elt F)),
    reshape main_v202 main_v203 rfl shapeCasts_S1x64_S64,
    unary main_arg8 main_v204 ((extractStridedSlice S1x64 ![2, 0] · slices_S4x64_S1x64_2_0) : (⟨S4x64, .f32⟩ : BufTy).Contents (Elt F) → (⟨S1x64, .f32⟩ : BufTy).Contents (Elt F)),
    reshape main_v204 main_v205 rfl shapeCasts_S1x64_S64,
    nullary main_cst_36 (constant S_ .f32 0x00000000#32),
    binary main_v201 main_cst_36 main_v206 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_37 (constant S_ .f32 0x47C35000#32),
    unary main_cst_37 main_v207 (broadcastInDim S64 ![] bcast_S_S64 : (⟨S_, .f32⟩ : BufTy).Contents (Elt F) → (⟨S64, .f32⟩ : BufTy).Contents (Elt F)),
    binary main_v206 main_v207 main_v208 (Host.divf : (⟨S64, .f32⟩ : BufTy).Contents (Elt F) → (⟨S64, .f32⟩ : BufTy).Contents (Elt F) → (⟨S64, .f32⟩ : BufTy).Contents (Elt F)),
    nullary main_c_38 (constantI S_ 32 0#32),
    TRef.nullary main_call4.cst (constant S_ .f32 0x00000000#32),
    TRef.binary (.of main_v201 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v201 : TRef sig ⟨S100000x64, .f32⟩) main_call4.v4 main_call4.v5 subf,
    TRef.binary main_call4.v5 main_call4.v5 main_call4.v6 mulf,
    TRef.unary (.of main_c_38 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v208 main_v210 (broadcastInDim S1x64 ![1] bcast_S64_S1x64_1 : (⟨S64, .f32⟩ : BufTy).Contents (Elt F) → (⟨S1x64, .f32⟩ : BufTy).Contents (Elt F)),
    unary main_v210 main_v211 (broadcastInDim S100000x64 ![0, 1] bcast_S1x64_S100000x64_0_1 : (⟨S1x64, .f32⟩ : BufTy).Contents (Elt F) → (⟨S100000x64, .f32⟩ : BufTy).Contents (Elt F)),
    binary main_v201 main_v211 main_v212 (subf : (⟨S100000x64, .f32⟩ : BufTy).Contents (Elt F) → (⟨S100000x64, .f32⟩ : BufTy).Contents (Elt F) → (⟨S100000x64, .f32⟩ : BufTy).Contents (Elt F)),
    nullary main_cst_39 (constant S_ .f32 0x3727C5AC#32),
    unary main_cst_39 main_v213 (broadcastInDim S64 ![] bcast_S_S64 : (⟨S_, .f32⟩ : BufTy).Contents (Elt F) → (⟨S64, .f32⟩ : BufTy).Contents (Elt F)),
    binary main_v209 main_v213 main_v214 (addf : (⟨S64, .f32⟩ : BufTy).Contents (Elt F) → (⟨S64, .f32⟩ : BufTy).Contents (Elt F) → (⟨S64, .f32⟩ : BufTy).Contents (Elt F)),
    unary main_v214 main_v215 (Host.rsqrt : (⟨S64, .f32⟩ : BufTy).Contents (Elt F) → (⟨S64, .f32⟩ : BufTy).Contents (Elt F)),
    unary main_v215 main_v216 (broadcastInDim S1x64 ![1] bcast_S64_S1x64_1 : (⟨S64, .f32⟩ : BufTy).Contents (Elt F) → (⟨S1x64, .f32⟩ : BufTy).Contents (Elt F)),
    unary main_v216 main_v217 (broadcastInDim S100000x64 ![0, 1] bcast_S1x64_S100000x64_0_1 : (⟨S1x64, .f32⟩ : BufTy).Contents (Elt F) → (⟨S100000x64, .f32⟩ : BufTy).Contents (Elt F)),
    binary main_v212 main_v217 main_v218 (mulf : (⟨S100000x64, .f32⟩ : BufTy).Contents (Elt F) → (⟨S100000x64, .f32⟩ : BufTy).Contents (Elt F) → (⟨S100000x64, .f32⟩ : BufTy).Contents (Elt F)),
    unary main_v203 main_v219 (broadcastInDim S1x64 ![1] bcast_S64_S1x64_1 : (⟨S64, .f32⟩ : BufTy).Contents (Elt F) → (⟨S1x64, .f32⟩ : BufTy).Contents (Elt F)),
    unary main_v219 main_v220 (broadcastInDim S100000x64 ![0, 1] bcast_S1x64_S100000x64_0_1 : (⟨S1x64, .f32⟩ : BufTy).Contents (Elt F) → (⟨S100000x64, .f32⟩ : BufTy).Contents (Elt F)),
    binary main_v218 main_v220 main_v221 (mulf : (⟨S100000x64, .f32⟩ : BufTy).Contents (Elt F) → (⟨S100000x64, .f32⟩ : BufTy).Contents (Elt F) → (⟨S100000x64, .f32⟩ : BufTy).Contents (Elt F)),
    unary main_v205 main_v222 (broadcastInDim S1x64 ![1] bcast_S64_S1x64_1 : (⟨S64, .f32⟩ : BufTy).Contents (Elt F) → (⟨S1x64, .f32⟩ : BufTy).Contents (Elt F)),
    unary main_v222 main_v223 (broadcastInDim S100000x64 ![0, 1] bcast_S1x64_S100000x64_0_1 : (⟨S1x64, .f32⟩ : BufTy).Contents (Elt F) → (⟨S100000x64, .f32⟩ : BufTy).Contents (Elt F)),
    binary main_v221 main_v223 main_v224 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v224 : TRef sig ⟨S100000x64, .f32⟩) main_call5.v0 main_call5.v1 maximumf,
    binary main_v225 main_v153 main_v226 (addf : (⟨S100000x64, .f32⟩ : BufTy).Contents (Elt F) → (⟨S100000x64, .f32⟩ : BufTy).Contents (Elt F) → (⟨S100000x64, .f32⟩ : BufTy).Contents (Elt F)) ]

/-- The buffers piece 9 writes. -/
abbrev wP9 : List (Ref sig .tc) := [main_v202, main_v203, main_v204, main_v205, main_cst_36, main_v206, main_cst_37, main_v207, main_v208, main_c_38, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v209, main_v210, main_v211, main_v212, main_cst_39, main_v213, main_v214, main_v215, main_v216, main_v217, main_v218, main_v219, main_v220, main_v221, main_v222, main_v223, main_v224, main_call5_cst, main_call5_v0, main_v225, main_v226]

/-- Operations 339 … 369 of 475 (part of layer 3's convolution; in the program's window 4). -/
abbrev opsP10 : List (HloOp τ sig (Elt F)) :=
  [ unary main_arg5 main_v227 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v227 main_v228 rfl shapeCasts_S1x64x64_S64x64,
    unary main_arg6 main_v229 ((extractStridedSlice S1x64 ![3, 0] · slices_S4x64_S1x64_3_0) : (⟨S4x64, .f32⟩ : BufTy).Contents (Elt F) → (⟨S1x64, .f32⟩ : BufTy).Contents (Elt F)),
    reshape main_v229 main_v230 rfl shapeCasts_S1x64_S64,
    binary main_v226 main_v228 main_v231 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_40 (constant S_ .f32 0x3F800000#32),
    unary main_cst_40 main_v232 (broadcastInDim S1600000 ![] bcast_S_S1600000 : (⟨S_, .f32⟩ : BufTy).Contents (Elt F) → (⟨S1600000, .f32⟩ : BufTy).Contents (Elt F)),
    nullary main_cst_41 (constant S_ .f32 0x00000000#32),
    unary main_cst_41 main_v233 (broadcastInDim S100000 ![] bcast_S_S100000 : (⟨S_, .f32⟩ : BufTy).Contents (Elt F) → (⟨S100000, .f32⟩ : BufTy).Contents (Elt F)),
    unary main_v3 main_v234 (broadcastInDim S1600000x1 ![0] bcast_S1600000_S1600000x1_0 : (⟨S1600000, .i32⟩ : BufTy).Contents (Elt F) → (⟨S1600000x1, .i32⟩ : BufTy).Contents (Elt F)),
    ternary main_v233 main_v234 main_v232 main_v235 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_42 (constant S_ .f32 0x3F800000#32),
    unary main_cst_42 main_v236 (broadcastInDim S100000 ![] bcast_S_S100000 : (⟨S_, .f32⟩ : BufTy).Contents (Elt F) → (⟨S100000, .f32⟩ : BufTy).Contents (Elt F)),
    binary main_v235 main_v236 main_v237 (addf : (⟨S100000, .f32⟩ : BufTy).Contents (Elt F) → (⟨S100000, .f32⟩ : BufTy).Contents (Elt F) → (⟨S100000, .f32⟩ : BufTy).Contents (Elt F)),
    unary main_v237 main_v238 (Host.rsqrt : (⟨S100000, .f32⟩ : BufTy).Contents (Elt F) → (⟨S100000, .f32⟩ : BufTy).Contents (Elt F)),
    nullary main_c_43 (constantI S_ 32 0#32),
    unary main_c_43 main_v239 (broadcastInDim S1600000 ![] bcast_S_S1600000 : (⟨S_, .i32⟩ : BufTy).Contents (Elt F) → (⟨S1600000, .i32⟩ : BufTy).Contents (Elt F)),
    binary main_v1 main_v239 main_v240 (cmpi .slt : (⟨S1600000, .i32⟩ : BufTy).Contents (Elt F) → (⟨S1600000, .i32⟩ : BufTy).Contents (Elt F) → (⟨S1600000, .i1⟩ : BufTy).Contents (Elt F)),
    nullary main_c_44 (constantI S_ 32 100000#32),
    unary main_c_44 main_v241 (broadcastInDim S1600000 ![] bcast_S_S1600000 : (⟨S_, .i32⟩ : BufTy).Contents (Elt F) → (⟨S1600000, .i32⟩ : BufTy).Contents (Elt F)),
    binary main_v1 main_v241 main_v242 (addi : (⟨S1600000, .i32⟩ : BufTy).Contents (Elt F) → (⟨S1600000, .i32⟩ : BufTy).Contents (Elt F) → (⟨S1600000, .i32⟩ : BufTy).Contents (Elt F)),
    ternary main_v240 main_v242 main_v1 main_v243 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v243 main_v244 (broadcastInDim S1600000x1 ![0] bcast_S1600000_S1600000x1_0 : (⟨S1600000, .i32⟩ : BufTy).Contents (Elt F) → (⟨S1600000x1, .i32⟩ : BufTy).Contents (Elt F)),
    binary main_v231 main_v244 main_v245 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_c_45 (constantI S_ 32 0#32),
    unary main_c_45 main_v246 (broadcastInDim S1600000 ![] bcast_S_S1600000 : (⟨S_, .i32⟩ : BufTy).Contents (Elt F) → (⟨S1600000, .i32⟩ : BufTy).Contents (Elt F)),
    binary main_v1 main_v246 main_v247 (cmpi .slt : (⟨S1600000, .i32⟩ : BufTy).Contents (Elt F) → (⟨S1600000, .i32⟩ : BufTy).Contents (Elt F) → (⟨S1600000, .i1⟩ : BufTy).Contents (Elt F)),
    nullary main_c_46 (constantI S_ 32 100000#32),
    unary main_c_46 main_v248 (broadcastInDim S1600000 ![] bcast_S_S1600000 : (⟨S_, .i32⟩ : BufTy).Contents (Elt F) → (⟨S1600000, .i32⟩ : BufTy).Contents (Elt F)),
    binary main_v1 main_v248 main_v249 (addi : (⟨S1600000, .i32⟩ : BufTy).Contents (Elt F) → (⟨S1600000, .i32⟩ : BufTy).Contents (Elt F) → (⟨S1600000, .i32⟩ : BufTy).Contents (Elt F)),
    ternary main_v247 main_v249 main_v1 main_v250 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ]

/-- The buffers piece 10 writes. -/
abbrev wP10 : List (Ref sig .tc) := [main_v227, main_v228, main_v229, main_v230, main_v231, main_cst_40, main_v232, main_cst_41, main_v233, main_v234, main_v235, main_cst_42, main_v236, main_v237, main_v238, main_c_43, main_v239, main_v240, main_c_44, main_v241, main_v242, main_v243, main_v244, main_v245, main_c_45, main_v246, main_v247, main_c_46, main_v248, main_v249, main_v250]

/-- Operations 370 … 396 of 475 (part of layer 3's convolution; in the program's window 5). -/
abbrev opsP11 : List (HloOp τ sig (Elt F)) :=
  [ unary main_v250 main_v251 (broadcastInDim S1600000x1 ![0] bcast_S1600000_S1600000x1_0 : (⟨S1600000, .i32⟩ : BufTy).Contents (Elt F) → (⟨S1600000x1, .i32⟩ : BufTy).Contents (Elt F)),
    binary main_v238 main_v251 main_v252 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_47 (constantI S_ 32 0#32),
    unary main_c_47 main_v253 (broadcastInDim S1600000 ![] bcast_S_S1600000 : (⟨S_, .i32⟩ : BufTy).Contents (Elt F) → (⟨S1600000, .i32⟩ : BufTy).Contents (Elt F)),
    binary main_v3 main_v253 main_v254 (cmpi .slt : (⟨S1600000, .i32⟩ : BufTy).Contents (Elt F) → (⟨S1600000, .i32⟩ : BufTy).Contents (Elt F) → (⟨S1600000, .i1⟩ : BufTy).Contents (Elt F)),
    nullary main_c_48 (constantI S_ 32 100000#32),
    unary main_c_48 main_v255 (broadcastInDim S1600000 ![] bcast_S_S1600000 : (⟨S_, .i32⟩ : BufTy).Contents (Elt F) → (⟨S1600000, .i32⟩ : BufTy).Contents (Elt F)),
    binary main_v3 main_v255 main_v256 (addi : (⟨S1600000, .i32⟩ : BufTy).Contents (Elt F) → (⟨S1600000, .i32⟩ : BufTy).Contents (Elt F) → (⟨S1600000, .i32⟩ : BufTy).Contents (Elt F)),
    ternary main_v254 main_v256 main_v3 main_v257 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v257 main_v258 (broadcastInDim S1600000x1 ![0] bcast_S1600000_S1600000x1_0 : (⟨S1600000, .i32⟩ : BufTy).Contents (Elt F) → (⟨S1600000x1, .i32⟩ : BufTy).Contents (Elt F)),
    binary main_v238 main_v258 main_v259 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v252 main_v259 main_v260 (mulf : (⟨S1600000, .f32⟩ : BufTy).Contents (Elt F) → (⟨S1600000, .f32⟩ : BufTy).Contents (Elt F) → (⟨S1600000, .f32⟩ : BufTy).Contents (Elt F)),
    unary main_v260 main_v261 (broadcastInDim S1600000x1 ![0] bcast_S1600000_S1600000x1_0 : (⟨S1600000, .f32⟩ : BufTy).Contents (Elt F) → (⟨S1600000x1, .f32⟩ : BufTy).Contents (Elt F)),
    unary main_v261 main_v262 (broadcastInDim S1600000x64 ![0, 1] bcast_S1600000x1_S1600000x64_0_1 : (⟨S1600000x1, .f32⟩ : BufTy).Contents (Elt F) → (⟨S1600000x64, .f32⟩ : BufTy).Contents (Elt F)),
    binary main_v245 main_v262 main_v263 (mulf : (⟨S1600000x64, .f32⟩ : BufTy).Contents (Elt F) → (⟨S1600000x64, .f32⟩ : BufTy).Contents (Elt F) → (⟨S1600000x64, .f32⟩ : BufTy).Contents (Elt F)),
    nullary main_cst_49 (constant S_ .f32 0x00000000#32),
    unary main_cst_49 main_v264 (broadcastInDim S100000x64 ![] bcast_S_S100000x64 : (⟨S_, .f32⟩ : BufTy).Contents (Elt F) → (⟨S100000x64, .f32⟩ : BufTy).Contents (Elt F)),
    unary main_v3 main_v265 (broadcastInDim S1600000x1 ![0] bcast_S1600000_S1600000x1_0 : (⟨S1600000, .i32⟩ : BufTy).Contents (Elt F) → (⟨S1600000x1, .i32⟩ : BufTy).Contents (Elt F)),
    ternary main_v264 main_v265 main_v263 main_v266 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v238 main_v238 main_v267 (mulf : (⟨S100000, .f32⟩ : BufTy).Contents (Elt F) → (⟨S100000, .f32⟩ : BufTy).Contents (Elt F) → (⟨S100000, .f32⟩ : BufTy).Contents (Elt F)),
    unary main_v267 main_v268 (broadcastInDim S100000x1 ![0] bcast_S100000_S100000x1_0 : (⟨S100000, .f32⟩ : BufTy).Contents (Elt F) → (⟨S100000x1, .f32⟩ : BufTy).Contents (Elt F)),
    unary main_v268 main_v269 (broadcastInDim S100000x64 ![0, 1] bcast_S100000x1_S100000x64_0_1 : (⟨S100000x1, .f32⟩ : BufTy).Contents (Elt F) → (⟨S100000x64, .f32⟩ : BufTy).Contents (Elt F)),
    binary main_v231 main_v269 main_v270 (mulf : (⟨S100000x64, .f32⟩ : BufTy).Contents (Elt F) → (⟨S100000x64, .f32⟩ : BufTy).Contents (Elt F) → (⟨S100000x64, .f32⟩ : BufTy).Contents (Elt F)),
    binary main_v266 main_v270 main_v271 (addf : (⟨S100000x64, .f32⟩ : BufTy).Contents (Elt F) → (⟨S100000x64, .f32⟩ : BufTy).Contents (Elt F) → (⟨S100000x64, .f32⟩ : BufTy).Contents (Elt F)),
    unary main_v230 main_v272 (broadcastInDim S1x64 ![1] bcast_S64_S1x64_1 : (⟨S64, .f32⟩ : BufTy).Contents (Elt F) → (⟨S1x64, .f32⟩ : BufTy).Contents (Elt F)),
    unary main_v272 main_v273 (broadcastInDim S100000x64 ![0, 1] bcast_S1x64_S100000x64_0_1 : (⟨S1x64, .f32⟩ : BufTy).Contents (Elt F) → (⟨S100000x64, .f32⟩ : BufTy).Contents (Elt F)),
    binary main_v271 main_v273 main_v274 (addf : (⟨S100000x64, .f32⟩ : BufTy).Contents (Elt F) → (⟨S100000x64, .f32⟩ : BufTy).Contents (Elt F) → (⟨S100000x64, .f32⟩ : BufTy).Contents (Elt F)) ]

/-- The buffers piece 11 writes. -/
abbrev wP11 : List (Ref sig .tc) := [main_v251, main_v252, main_c_47, main_v253, main_v254, main_c_48, main_v255, main_v256, main_v257, main_v258, main_v259, main_v260, main_v261, main_v262, main_v263, main_cst_49, main_v264, main_v265, main_v266, main_v267, main_v268, main_v269, main_v270, main_v271, main_v272, main_v273, main_v274]

/-- Operations 397 … 448 of 475 (part of layer 3's normalisation; in the program's window 5). -/
abbrev opsP12 : List (HloOp τ sig (Elt F)) :=
  [ unary main_arg7 main_v275 ((extractStridedSlice S1x64 ![3, 0] · slices_S4x64_S1x64_3_0) : (⟨S4x64, .f32⟩ : BufTy).Contents (Elt F) → (⟨S1x64, .f32⟩ : BufTy).Contents (Elt F)),
    reshape main_v275 main_v276 rfl shapeCasts_S1x64_S64,
    unary main_arg8 main_v277 ((extractStridedSlice S1x64 ![3, 0] · slices_S4x64_S1x64_3_0) : (⟨S4x64, .f32⟩ : BufTy).Contents (Elt F) → (⟨S1x64, .f32⟩ : BufTy).Contents (Elt F)),
    reshape main_v277 main_v278 rfl shapeCasts_S1x64_S64,
    nullary main_cst_50 (constant S_ .f32 0x00000000#32),
    binary main_v274 main_cst_50 main_v279 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_51 (constant S_ .f32 0x47C35000#32),
    unary main_cst_51 main_v280 (broadcastInDim S64 ![] bcast_S_S64 : (⟨S_, .f32⟩ : BufTy).Contents (Elt F) → (⟨S64, .f32⟩ : BufTy).Contents (Elt F)),
    binary main_v279 main_v280 main_v281 (Host.divf : (⟨S64, .f32⟩ : BufTy).Contents (Elt F) → (⟨S64, .f32⟩ : BufTy).Contents (Elt F) → (⟨S64, .f32⟩ : BufTy).Contents (Elt F)),
    nullary main_c_52 (constantI S_ 32 0#32),
    TRef.nullary main_call6.cst (constant S_ .f32 0x00000000#32),
    TRef.binary (.of main_v274 : TRef sig ⟨S100000x64, .f32⟩) main_call6.cst main_call6.v0 (fun x v => Host.reduceAdd x v reducesTo_S100000x64_S64_d0 h_S_),
    TRef.unary main_call6.v0 main_call6.v1 (broadcastInDim S1x64 ![1] bcast_S64_S1x64_1),
    TRef.nullary main_call6.cst_0 (constant S_ .f32 0x47C35000#32),
    TRef.unary main_call6.cst_0 main_call6.v2 (broadcastInDim S1x64 ![] bcast_S_S1x64),
    TRef.binary main_call6.v1 main_call6.v2 main_call6.v3 Host.divf,
    TRef.unary main_call6.v3 main_call6.v4 (broadcastInDim S100000x64 ![0, 1] bcast_S1x64_S100000x64_0_1),
    TRef.binary (.of main_v274 : TRef sig ⟨S100000x64, .f32⟩) main_call6.v4 main_call6.v5 subf,
    TRef.binary main_call6.v5 main_call6.v5 main_call6.v6 mulf,
    TRef.unary (.of main_c_52 : TRef sig ⟨S_, .i32⟩) main_call6.v7 (sitofp .f32),
    TRef.nullary main_call6.cst_1 (constant S_ .f32 0x47C35000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S100000x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v281 main_v283 (broadcastInDim S1x64 ![1] bcast_S64_S1x64_1 : (⟨S64, .f32⟩ : BufTy).Contents (Elt F) → (⟨S1x64, .f32⟩ : BufTy).Contents (Elt F)),
    unary main_v283 main_v284 (broadcastInDim S100000x64 ![0, 1] bcast_S1x64_S100000x64_0_1 : (⟨S1x64, .f32⟩ : BufTy).Contents (Elt F) → (⟨S100000x64, .f32⟩ : BufTy).Contents (Elt F)),
    binary main_v274 main_v284 main_v285 (subf : (⟨S100000x64, .f32⟩ : BufTy).Contents (Elt F) → (⟨S100000x64, .f32⟩ : BufTy).Contents (Elt F) → (⟨S100000x64, .f32⟩ : BufTy).Contents (Elt F)),
    nullary main_cst_53 (constant S_ .f32 0x3727C5AC#32),
    unary main_cst_53 main_v286 (broadcastInDim S64 ![] bcast_S_S64 : (⟨S_, .f32⟩ : BufTy).Contents (Elt F) → (⟨S64, .f32⟩ : BufTy).Contents (Elt F)),
    binary main_v282 main_v286 main_v287 (addf : (⟨S64, .f32⟩ : BufTy).Contents (Elt F) → (⟨S64, .f32⟩ : BufTy).Contents (Elt F) → (⟨S64, .f32⟩ : BufTy).Contents (Elt F)),
    unary main_v287 main_v288 (Host.rsqrt : (⟨S64, .f32⟩ : BufTy).Contents (Elt F) → (⟨S64, .f32⟩ : BufTy).Contents (Elt F)),
    unary main_v288 main_v289 (broadcastInDim S1x64 ![1] bcast_S64_S1x64_1 : (⟨S64, .f32⟩ : BufTy).Contents (Elt F) → (⟨S1x64, .f32⟩ : BufTy).Contents (Elt F)),
    unary main_v289 main_v290 (broadcastInDim S100000x64 ![0, 1] bcast_S1x64_S100000x64_0_1 : (⟨S1x64, .f32⟩ : BufTy).Contents (Elt F) → (⟨S100000x64, .f32⟩ : BufTy).Contents (Elt F)),
    binary main_v285 main_v290 main_v291 (mulf : (⟨S100000x64, .f32⟩ : BufTy).Contents (Elt F) → (⟨S100000x64, .f32⟩ : BufTy).Contents (Elt F) → (⟨S100000x64, .f32⟩ : BufTy).Contents (Elt F)),
    unary main_v276 main_v292 (broadcastInDim S1x64 ![1] bcast_S64_S1x64_1 : (⟨S64, .f32⟩ : BufTy).Contents (Elt F) → (⟨S1x64, .f32⟩ : BufTy).Contents (Elt F)),
    unary main_v292 main_v293 (broadcastInDim S100000x64 ![0, 1] bcast_S1x64_S100000x64_0_1 : (⟨S1x64, .f32⟩ : BufTy).Contents (Elt F) → (⟨S100000x64, .f32⟩ : BufTy).Contents (Elt F)),
    binary main_v291 main_v293 main_v294 (mulf : (⟨S100000x64, .f32⟩ : BufTy).Contents (Elt F) → (⟨S100000x64, .f32⟩ : BufTy).Contents (Elt F) → (⟨S100000x64, .f32⟩ : BufTy).Contents (Elt F)),
    unary main_v278 main_v295 (broadcastInDim S1x64 ![1] bcast_S64_S1x64_1 : (⟨S64, .f32⟩ : BufTy).Contents (Elt F) → (⟨S1x64, .f32⟩ : BufTy).Contents (Elt F)),
    unary main_v295 main_v296 (broadcastInDim S100000x64 ![0, 1] bcast_S1x64_S100000x64_0_1 : (⟨S1x64, .f32⟩ : BufTy).Contents (Elt F) → (⟨S100000x64, .f32⟩ : BufTy).Contents (Elt F)),
    binary main_v294 main_v296 main_v297 (addf : (⟨S100000x64, .f32⟩ : BufTy).Contents (Elt F) → (⟨S100000x64, .f32⟩ : BufTy).Contents (Elt F) → (⟨S100000x64, .f32⟩ : BufTy).Contents (Elt F)),
    TRef.nullary main_call7.cst (constant S_ .f32 0x00000000#32),
    TRef.unary main_call7.cst main_call7.v0 (broadcastInDim S100000x64 ![] bcast_S_S100000x64),
    TRef.binary (.of main_v297 : TRef sig ⟨S100000x64, .f32⟩) main_call7.v0 main_call7.v1 maximumf,
    binary main_v298 main_v226 main_v299 (addf : (⟨S100000x64, .f32⟩ : BufTy).Contents (Elt F) → (⟨S100000x64, .f32⟩ : BufTy).Contents (Elt F) → (⟨S100000x64, .f32⟩ : BufTy).Contents (Elt F)) ]

/-- The buffers piece 12 writes. -/
abbrev wP12 : List (Ref sig .tc) := [main_v275, main_v276, main_v277, main_v278, main_cst_50, main_v279, main_cst_51, main_v280, main_v281, main_c_52, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v282, main_v283, main_v284, main_v285, main_cst_53, main_v286, main_v287, main_v288, main_v289, main_v290, main_v291, main_v292, main_v293, main_v294, main_v295, main_v296, main_v297, main_call7_cst, main_call7_v0, main_v298, main_v299]

/-- Operations 449 … 452 of 475 (part of the pooling and the head; in the program's window 5). -/
abbrev opsP13 : List (HloOp τ sig (Elt F)) :=
  [ nullary main_cst_54 (constant S_ .f32 0x00000000#32),
    unary main_cst_54 main_v300 (broadcastInDim S256x64 ![] bcast_S_S256x64 : (⟨S_, .f32⟩ : BufTy).Contents (Elt F) → (⟨S256x64, .f32⟩ : BufTy).Contents (Elt F)),
    unary main_arg2 main_v301 (broadcastInDim S100000x1 ![0] bcast_S100000_S100000x1_0 : (⟨S100000, .i32⟩ : BufTy).Contents (Elt F) → (⟨S100000x1, .i32⟩ : BufTy).Contents (Elt F)),
    ternary main_v300 main_v301 main_v299 main_v302 ((fun x i u => Host.scatterAdd scatter_S256x64_S100000x1_S100000x64_1_0_0_1 x i u) : (⟨S256x64, .f32⟩ : BufTy).Contents (Elt F) → (⟨S100000x1, .i32⟩ : BufTy).Contents (Elt F) → (⟨S100000x64, .f32⟩ : BufTy).Contents (Elt F) → (⟨S256x64, .f32⟩ : BufTy).Contents (Elt F)) ]

/-- The buffers piece 13 writes. -/
abbrev wP13 : List (Ref sig .tc) := [main_cst_54, main_v300, main_v301, main_v302]

/-- Operations 453 … 475 of 475 (part of the pooling and the head; in the program's window 6). -/
abbrev opsP14 : List (HloOp τ sig (Elt F)) :=
  [ nullary main_cst_55 (constant S_ .f32 0x3F800000#32),
    unary main_cst_55 main_v303 (broadcastInDim S100000 ![] bcast_S_S100000 : (⟨S_, .f32⟩ : BufTy).Contents (Elt F) → (⟨S100000, .f32⟩ : BufTy).Contents (Elt F)),
    nullary main_cst_56 (constant S_ .f32 0x00000000#32),
    unary main_cst_56 main_v304 (broadcastInDim S256 ![] bcast_S_S256 : (⟨S_, .f32⟩ : BufTy).Contents (Elt F) → (⟨S256, .f32⟩ : BufTy).Contents (Elt F)),
    unary main_arg2 main_v305 (broadcastInDim S100000x1 ![0] bcast_S100000_S100000x1_0 : (⟨S100000, .i32⟩ : BufTy).Contents (Elt F) → (⟨S100000x1, .i32⟩ : BufTy).Contents (Elt F)),
    ternary main_v304 main_v305 main_v303 main_v306 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_57 (constant S_ .f32 0x3F800000#32),
    unary main_cst_57 main_v307 (broadcastInDim S256 ![] bcast_S_S256 : (⟨S_, .f32⟩ : BufTy).Contents (Elt F) → (⟨S256, .f32⟩ : BufTy).Contents (Elt F)),
    binary main_v306 main_v307 main_v308 (maximumf : (⟨S256, .f32⟩ : BufTy).Contents (Elt F) → (⟨S256, .f32⟩ : BufTy).Contents (Elt F) → (⟨S256, .f32⟩ : BufTy).Contents (Elt F)),
    unary main_v308 main_v309 (broadcastInDim S256x1 ![0] bcast_S256_S256x1_0 : (⟨S256, .f32⟩ : BufTy).Contents (Elt F) → (⟨S256x1, .f32⟩ : BufTy).Contents (Elt F)),
    unary main_v309 main_v310 (broadcastInDim S256x64 ![0, 1] bcast_S256x1_S256x64_0_1 : (⟨S256x1, .f32⟩ : BufTy).Contents (Elt F) → (⟨S256x64, .f32⟩ : BufTy).Contents (Elt F)),
    binary main_v302 main_v310 main_v311 (Host.divf : (⟨S256x64, .f32⟩ : BufTy).Contents (Elt F) → (⟨S256x64, .f32⟩ : BufTy).Contents (Elt F) → (⟨S256x64, .f32⟩ : BufTy).Contents (Elt F)),
    binary main_v311 main_arg9 main_v312 ((fun l r => Host.dotGeneral dot_S256x64_S64x32_S256x32_1_0_0_1_n_n none l r) : (⟨S256x64, .f32⟩ : BufTy).Contents (Elt F) → (⟨S64x32, .f32⟩ : BufTy).Contents (Elt F) → (⟨S256x32, .f32⟩ : BufTy).Contents (Elt F)),
    unary main_arg10 main_v313 (broadcastInDim S1x32 ![1] bcast_S32_S1x32_1 : (⟨S32, .f32⟩ : BufTy).Contents (Elt F) → (⟨S1x32, .f32⟩ : BufTy).Contents (Elt F)),
    unary main_v313 main_v314 (broadcastInDim S256x32 ![0, 1] bcast_S1x32_S256x32_0_1 : (⟨S1x32, .f32⟩ : BufTy).Contents (Elt F) → (⟨S256x32, .f32⟩ : BufTy).Contents (Elt F)),
    binary main_v312 main_v314 main_v315 (addf : (⟨S256x32, .f32⟩ : BufTy).Contents (Elt F) → (⟨S256x32, .f32⟩ : BufTy).Contents (Elt F) → (⟨S256x32, .f32⟩ : BufTy).Contents (Elt F)),
    TRef.nullary main_call8.cst (constant S_ .f32 0x00000000#32),
    TRef.unary main_call8.cst main_call8.v0 (broadcastInDim S256x32 ![] bcast_S_S256x32),
    TRef.binary (.of main_v315 : TRef sig ⟨S256x32, .f32⟩) main_call8.v0 main_call8.v1 maximumf,
    binary main_v316 main_arg11 main_v317 ((fun l r => Host.dotGeneral dot_S256x32_S32x1_S256x1_1_0_0_1_n_n none l r) : (⟨S256x32, .f32⟩ : BufTy).Contents (Elt F) → (⟨S32x1, .f32⟩ : BufTy).Contents (Elt F) → (⟨S256x1, .f32⟩ : BufTy).Contents (Elt F)),
    unary main_arg12 main_v318 (broadcastInDim S1x1 ![1] bcast_S1_S1x1_1 : (⟨S1, .f32⟩ : BufTy).Contents (Elt F) → (⟨S1x1, .f32⟩ : BufTy).Contents (Elt F)),
    unary main_v318 main_v319 (broadcastInDim S256x1 ![0, 1] bcast_S1x1_S256x1_0_1 : (⟨S1x1, .f32⟩ : BufTy).Contents (Elt F) → (⟨S256x1, .f32⟩ : BufTy).Contents (Elt F)),
    binary main_v317 main_v319 main_v320 (addf : (⟨S256x1, .f32⟩ : BufTy).Contents (Elt F) → (⟨S256x1, .f32⟩ : BufTy).Contents (Elt F) → (⟨S256x1, .f32⟩ : BufTy).Contents (Elt F)) ]

/-- The buffers piece 14 writes. -/
abbrev wP14 : List (Ref sig .tc) := [main_cst_55, main_v303, main_cst_56, main_v304, main_v305, main_v306, main_cst_57, main_v307, main_v308, main_v309, main_v310, main_v311, main_v312, main_v313, main_v314, main_v315, main_call8_cst, main_call8_v0, main_v316, main_v317, main_v318, main_v319, main_v320]

/-- @main's 475 operations, in order. -/
abbrev ops : List (HloOp τ sig (Elt F)) :=
  opsP0 ++ (opsP1 ++ (opsP2 ++ (opsP3 ++ (opsP4 ++ (opsP5 ++ (opsP6 ++ (opsP7 ++ (opsP8 ++ (opsP9 ++ (opsP10 ++ (opsP11 ++ (opsP12 ++ (opsP13 ++ (opsP14))))))))))))))

set_option maxRecDepth 8192 in
theorem main_part0_eq (c : Dev nD) : main_part0 (F := F) c = seq (opsP0 ++ (opsP1)) := rfl
set_option maxRecDepth 8192 in
theorem main_part1_eq (c : Dev nD) : main_part1 (F := F) c = seq (opsP2 ++ (opsP3 ++ (opsP4))) := rfl
set_option maxRecDepth 8192 in
theorem main_part2_eq (c : Dev nD) : main_part2 (F := F) c = seq (opsP5 ++ (opsP6)) := rfl
set_option maxRecDepth 8192 in
theorem main_part3_eq (c : Dev nD) : main_part3 (F := F) c = seq (opsP7 ++ (opsP8)) := rfl
set_option maxRecDepth 8192 in
theorem main_part4_eq (c : Dev nD) : main_part4 (F := F) c = seq (opsP9 ++ (opsP10)) := rfl
set_option maxRecDepth 8192 in
theorem main_part5_eq (c : Dev nD) : main_part5 (F := F) c = seq (opsP11 ++ (opsP12 ++ (opsP13))) := rfl
set_option maxRecDepth 8192 in
theorem main_part6_eq (c : Dev nD) : main_part6 (F := F) c = seq (opsP14) := rfl

set_option maxRecDepth 8192 in
/-- @main is the straight line of its operations: its seven windows are the pieces' lines, run in order. -/
theorem main_eq (c : Dev nD) : main (F := F) c = seq ops := by
  show (main_part0 c >>= fun _ => main_part1 c >>= fun _ => main_part2 c >>= fun _ => main_part3 c >>= fun _ => main_part4 c >>= fun _ => main_part5 c >>= fun _ => main_part6 c) = _
  rw [main_part0_eq, main_part1_eq, main_part2_eq, main_part3_eq, main_part4_eq, main_part5_eq, main_part6_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP0_sub : (opsP0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩
set_option maxRecDepth 8192 in
theorem opsP1_sub : (opsP1 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub ..⟩
set_option maxRecDepth 8192 in
theorem opsP2_sub : (opsP2 : List (HloOp τ sig (Elt F))).Forall fun op => op.bufs ⊆ tcRefs τ sig :=
  ⟨unary_bufs_sub .., binary_bufs_sub .., binary_bufs_sub .., unary_bufs_sub .., unary_bufs_sub .., binary_bufs_sub ..⟩
set_option maxRecDepth 8192 in
theorem opsP3_sub : (opsP3 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem opsP4_sub : (opsP4 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
set_option maxRecDepth 8192 in
theorem opsP5_sub : (opsP5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem opsP6_sub : (opsP6 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem opsP7_sub : (opsP7 : List (HloOp τ sig (Elt F))).Forall fun op => op.bufs ⊆ tcRefs τ sig :=
  ⟨nullary_bufs_sub .., unary_bufs_sub .., binary_bufs_sub .., binary_bufs_sub ..⟩
set_option maxRecDepth 8192 in
theorem opsP8_sub : (opsP8 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem opsP9_sub : (opsP9 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem opsP10_sub : (opsP10 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem opsP11_sub : (opsP11 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩
set_option maxRecDepth 8192 in
theorem opsP12_sub : (opsP12 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩
set_option maxRecDepth 8192 in
theorem opsP13_sub : (opsP13 : List (HloOp τ sig (Elt F))).Forall fun op => op.bufs ⊆ tcRefs τ sig :=
  ⟨nullary_bufs_sub .., unary_bufs_sub .., unary_bufs_sub .., ternary_bufs_sub ..⟩
set_option maxRecDepth 8192 in
theorem opsP14_sub : (opsP14 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h
    exacts [List.forall_iff_forall_mem.mp opsP0_sub op h, List.forall_iff_forall_mem.mp opsP1_sub op h, List.forall_iff_forall_mem.mp opsP2_sub op h, List.forall_iff_forall_mem.mp opsP3_sub op h, List.forall_iff_forall_mem.mp opsP4_sub op h, List.forall_iff_forall_mem.mp opsP5_sub op h, List.forall_iff_forall_mem.mp opsP6_sub op h, List.forall_iff_forall_mem.mp opsP7_sub op h, List.forall_iff_forall_mem.mp opsP8_sub op h, List.forall_iff_forall_mem.mp opsP9_sub op h, List.forall_iff_forall_mem.mp opsP10_sub op h, List.forall_iff_forall_mem.mp opsP11_sub op h, List.forall_iff_forall_mem.mp opsP12_sub op h, List.forall_iff_forall_mem.mp opsP13_sub op h, List.forall_iff_forall_mem.mp opsP14_sub op h]

end Cert.ReferenceIdeal.RefRun

end
-- ==== Proof.RefKeep.lean ====
/-
Which buffers each piece of the reference's operation list writes, and hence that a buffer outside a piece's list keeps
its contents through the piece. The later stages use this for the argument arrays, for the two rows of the edge table
and for the previous layer's nodes, which every layer reads again.
-/
import proofs.«109724_j81406810128840_1_alg».proof.Proof.RefOps

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 8192 in
theorem opsP0_writes : (opsP0 : List (HloOp τ sig (Elt F))).Forall fun op => op.writes ⊆ ((wP0).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 0 does not write keeps its contents through it. -/
theorem keepP0 (V : Valuation τ sig (Elt F)) (r : Ref sig .tc) (h : r ∉ wP0) :
    after opsP0 V (Proc.devRef .tc r) = V (Proc.devRef .tc r) :=
  after_of_writes_sub opsP0 V opsP0_writes h

set_option maxRecDepth 8192 in
theorem opsP1_writes : (opsP1 : List (HloOp τ sig (Elt F))).Forall fun op => op.writes ⊆ ((wP1).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 1 does not write keeps its contents through it. -/
theorem keepP1 (V : Valuation τ sig (Elt F)) (r : Ref sig .tc) (h : r ∉ wP1) :
    after opsP1 V (Proc.devRef .tc r) = V (Proc.devRef .tc r) :=
  after_of_writes_sub opsP1 V opsP1_writes h

set_option maxRecDepth 8192 in
theorem opsP2_writes : (opsP2 : List (HloOp τ sig (Elt F))).Forall fun op => op.writes ⊆ ((wP2).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 2 does not write keeps its contents through it. -/
theorem keepP2 (V : Valuation τ sig (Elt F)) (r : Ref sig .tc) (h : r ∉ wP2) :
    after opsP2 V (Proc.devRef .tc r) = V (Proc.devRef .tc r) :=
  after_of_writes_sub opsP2 V opsP2_writes h

set_option maxRecDepth 8192 in
theorem opsP3_writes : (opsP3 : List (HloOp τ sig (Elt F))).Forall fun op => op.writes ⊆ ((wP3).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 3 does not write keeps its contents through it. -/
theorem keepP3 (V : Valuation τ sig (Elt F)) (r : Ref sig .tc) (h : r ∉ wP3) :
    after opsP3 V (Proc.devRef .tc r) = V (Proc.devRef .tc r) :=
  after_of_writes_sub opsP3 V opsP3_writes h

set_option maxRecDepth 8192 in
theorem opsP4_writes : (opsP4 : List (HloOp τ sig (Elt F))).Forall fun op => op.writes ⊆ ((wP4).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 4 does not write keeps its contents through it. -/
theorem keepP4 (V : Valuation τ sig (Elt F)) (r : Ref sig .tc) (h : r ∉ wP4) :
    after opsP4 V (Proc.devRef .tc r) = V (Proc.devRef .tc r) :=
  after_of_writes_sub opsP4 V opsP4_writes h

set_option maxRecDepth 8192 in
theorem opsP5_writes : (opsP5 : List (HloOp τ sig (Elt F))).Forall fun op => op.writes ⊆ ((wP5).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 5 does not write keeps its contents through it. -/
theorem keepP5 (V : Valuation τ sig (Elt F)) (r : Ref sig .tc) (h : r ∉ wP5) :
    after opsP5 V (Proc.devRef .tc r) = V (Proc.devRef .tc r) :=
  after_of_writes_sub opsP5 V opsP5_writes h

set_option maxRecDepth 8192 in
theorem opsP6_writes : (opsP6 : List (HloOp τ sig (Elt F))).Forall fun op => op.writes ⊆ ((wP6).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 6 does not write keeps its contents through it. -/
theorem keepP6 (V : Valuation τ sig (Elt F)) (r : Ref sig .tc) (h : r ∉ wP6) :
    after opsP6 V (Proc.devRef .tc r) = V (Proc.devRef .tc r) :=
  after_of_writes_sub opsP6 V opsP6_writes h

set_option maxRecDepth 8192 in
theorem opsP7_writes : (opsP7 : List (HloOp τ sig (Elt F))).Forall fun op => op.writes ⊆ ((wP7).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 7 does not write keeps its contents through it. -/
theorem keepP7 (V : Valuation τ sig (Elt F)) (r : Ref sig .tc) (h : r ∉ wP7) :
    after opsP7 V (Proc.devRef .tc r) = V (Proc.devRef .tc r) :=
  after_of_writes_sub opsP7 V opsP7_writes h

set_option maxRecDepth 8192 in
theorem opsP8_writes : (opsP8 : List (HloOp τ sig (Elt F))).Forall fun op => op.writes ⊆ ((wP8).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 8 does not write keeps its contents through it. -/
theorem keepP8 (V : Valuation τ sig (Elt F)) (r : Ref sig .tc) (h : r ∉ wP8) :
    after opsP8 V (Proc.devRef .tc r) = V (Proc.devRef .tc r) :=
  after_of_writes_sub opsP8 V opsP8_writes h

set_option maxRecDepth 8192 in
theorem opsP9_writes : (opsP9 : List (HloOp τ sig (Elt F))).Forall fun op => op.writes ⊆ ((wP9).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 9 does not write keeps its contents through it. -/
theorem keepP9 (V : Valuation τ sig (Elt F)) (r : Ref sig .tc) (h : r ∉ wP9) :
    after opsP9 V (Proc.devRef .tc r) = V (Proc.devRef .tc r) :=
  after_of_writes_sub opsP9 V opsP9_writes h

set_option maxRecDepth 8192 in
theorem opsP10_writes : (opsP10 : List (HloOp τ sig (Elt F))).Forall fun op => op.writes ⊆ ((wP10).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 10 does not write keeps its contents through it. -/
theorem keepP10 (V : Valuation τ sig (Elt F)) (r : Ref sig .tc) (h : r ∉ wP10) :
    after opsP10 V (Proc.devRef .tc r) = V (Proc.devRef .tc r) :=
  after_of_writes_sub opsP10 V opsP10_writes h

set_option maxRecDepth 8192 in
theorem opsP11_writes : (opsP11 : List (HloOp τ sig (Elt F))).Forall fun op => op.writes ⊆ ((wP11).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 11 does not write keeps its contents through it. -/
theorem keepP11 (V : Valuation τ sig (Elt F)) (r : Ref sig .tc) (h : r ∉ wP11) :
    after opsP11 V (Proc.devRef .tc r) = V (Proc.devRef .tc r) :=
  after_of_writes_sub opsP11 V opsP11_writes h

set_option maxRecDepth 8192 in
theorem opsP12_writes : (opsP12 : List (HloOp τ sig (Elt F))).Forall fun op => op.writes ⊆ ((wP12).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 12 does not write keeps its contents through it. -/
theorem keepP12 (V : Valuation τ sig (Elt F)) (r : Ref sig .tc) (h : r ∉ wP12) :
    after opsP12 V (Proc.devRef .tc r) = V (Proc.devRef .tc r) :=
  after_of_writes_sub opsP12 V opsP12_writes h

set_option maxRecDepth 8192 in
theorem opsP13_writes : (opsP13 : List (HloOp τ sig (Elt F))).Forall fun op => op.writes ⊆ ((wP13).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 13 does not write keeps its contents through it. -/
theorem keepP13 (V : Valuation τ sig (Elt F)) (r : Ref sig .tc) (h : r ∉ wP13) :
    after opsP13 V (Proc.devRef .tc r) = V (Proc.devRef .tc r) :=
  after_of_writes_sub opsP13 V opsP13_writes h

set_option maxRecDepth 8192 in
theorem opsP14_writes : (opsP14 : List (HloOp τ sig (Elt F))).Forall fun op => op.writes ⊆ ((wP14).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer piece 14 does not write keeps its contents through it. -/
theorem keepP14 (V : Valuation τ sig (Elt F)) (r : Ref sig .tc) (h : r ∉ wP14) :
    after opsP14 V (Proc.devRef .tc r) = V (Proc.devRef .tc r) :=
  after_of_writes_sub opsP14 V opsP14_writes h

set_option maxRecDepth 8192 in
theorem opsP0_fresh : ∀ op ∈ (opsP0 : List (HloOp τ sig (Elt F))), op.fresh = ∅ := by
  intro _ h; (repeat (cases h with | head => rfl | tail _ h => ?_)); exact nomatch h

set_option maxRecDepth 8192 in
theorem opsP1_fresh : ∀ op ∈ (opsP1 : List (HloOp τ sig (Elt F))), op.fresh = ∅ := by
  intro _ h; (repeat (cases h with | head => rfl | tail _ h => ?_)); exact nomatch h

set_option maxRecDepth 8192 in
theorem opsP2_fresh : ∀ op ∈ (opsP2 : List (HloOp τ sig (Elt F))), op.fresh = ∅ := by
  intro _ h; (repeat (cases h with | head => rfl | tail _ h => ?_)); exact nomatch h

set_option maxRecDepth 8192 in
theorem opsP3_fresh : ∀ op ∈ (opsP3 : List (HloOp τ sig (Elt F))), op.fresh = ∅ := by
  intro _ h; (repeat (cases h with | head => rfl | tail _ h => ?_)); exact nomatch h

set_option maxRecDepth 8192 in
theorem opsP4_fresh : ∀ op ∈ (opsP4 : List (HloOp τ sig (Elt F))), op.fresh = ∅ := by
  intro _ h; (repeat (cases h with | head => rfl | tail _ h => ?_)); exact nomatch h

set_option maxRecDepth 8192 in
theorem opsP5_fresh : ∀ op ∈ (opsP5 : List (HloOp τ sig (Elt F))), op.fresh = ∅ := by
  intro _ h; (repeat (cases h with | head => rfl | tail _ h => ?_)); exact nomatch h

set_option maxRecDepth 8192 in
theorem opsP6_fresh : ∀ op ∈ (opsP6 : List (HloOp τ sig (Elt F))), op.fresh = ∅ := by
  intro _ h; (repeat (cases h with | head => rfl | tail _ h => ?_)); exact nomatch h

set_option maxRecDepth 8192 in
theorem opsP7_fresh : ∀ op ∈ (opsP7 : List (HloOp τ sig (Elt F))), op.fresh = ∅ := by
  intro _ h; (repeat (cases h with | head => rfl | tail _ h => ?_)); exact nomatch h

set_option maxRecDepth 8192 in
theorem opsP8_fresh : ∀ op ∈ (opsP8 : List (HloOp τ sig (Elt F))), op.fresh = ∅ := by
  intro _ h; (repeat (cases h with | head => rfl | tail _ h => ?_)); exact nomatch h

set_option maxRecDepth 8192 in
theorem opsP9_fresh : ∀ op ∈ (opsP9 : List (HloOp τ sig (Elt F))), op.fresh = ∅ := by
  intro _ h; (repeat (cases h with | head => rfl | tail _ h => ?_)); exact nomatch h

set_option maxRecDepth 8192 in
theorem opsP10_fresh : ∀ op ∈ (opsP10 : List (HloOp τ sig (Elt F))), op.fresh = ∅ := by
  intro _ h; (repeat (cases h with | head => rfl | tail _ h => ?_)); exact nomatch h

set_option maxRecDepth 8192 in
theorem opsP11_fresh : ∀ op ∈ (opsP11 : List (HloOp τ sig (Elt F))), op.fresh = ∅ := by
  intro _ h; (repeat (cases h with | head => rfl | tail _ h => ?_)); exact nomatch h

set_option maxRecDepth 8192 in
theorem opsP12_fresh : ∀ op ∈ (opsP12 : List (HloOp τ sig (Elt F))), op.fresh = ∅ := by
  intro _ h; (repeat (cases h with | head => rfl | tail _ h => ?_)); exact nomatch h

set_option maxRecDepth 8192 in
theorem opsP13_fresh : ∀ op ∈ (opsP13 : List (HloOp τ sig (Elt F))), op.fresh = ∅ := by
  intro _ h; (repeat (cases h with | head => rfl | tail _ h => ?_)); exact nomatch h

set_option maxRecDepth 8192 in
theorem opsP14_fresh : ∀ op ∈ (opsP14 : List (HloOp τ sig (Elt F))), op.fresh = ∅ := by
  intro _ h; (repeat (cases h with | head => rfl | tail _ h => ?_)); exact nomatch h

/-- Every operation of the list determines its results: none allocates. -/
theorem ops_fresh : ∀ op ∈ (ops : List (HloOp τ sig (Elt F))), op.fresh = ∅ := by
  intro op h
  simp only [ops, List.mem_append] at h
  rcases h with h | h | h | h | h | h | h | h | h | h | h | h | h | h | h
  exacts [opsP0_fresh op h, opsP1_fresh op h, opsP2_fresh op h, opsP3_fresh op h, opsP4_fresh op h, opsP5_fresh op h, opsP6_fresh op h, opsP7_fresh op h, opsP8_fresh op h, opsP9_fresh op h, opsP10_fresh op h, opsP11_fresh op h, opsP12_fresh op h, opsP13_fresh op h, opsP14_fresh op h]

end Cert.ReferenceIdeal.RefRun

end
-- ==== Proof.RefDefs.lean ====
/-
The reference program's value, written as a tower of named terms of its thirteen argument arrays.

The reference is a four-layer graph convolution network over 100000 nodes and 1600000 directed edges
(sources in row 0 of the edge table, targets in row 1):
  h0      = x · w_embed + b_embed                                   (node embedding)
  per layer i:  hw = h · W_i ;  agg = the sum into each target node of  hw[source] · dinv[source] · dinv[target] ;
                conv = agg + hw · dinv² + bias_i ;  mean, var = the column mean and (biased) column variance of conv ;
                h' = max ((conv − mean) · rsqrt (var + eps) · gamma_i + beta_i, 0) + h
  pooled  = the per-graph sums of h4 divided by max (per-graph node count, 1);  out = max (pooled · w1 + b1, 0) · w2 + b2.
Here dinv = rsqrt (1 + in-degree), the in-degree being a scatter-add of ones at the edge targets, and an index read by a
gather is first wrapped (a negative index has 100000 added), as the reference program itself does.

Every definition below is the literal term of host operations that the program's operations compose, over the previous
named terms; nothing is simplified.  The per-layer terms are stated once (`lay_*`) and instantiated four times.
-/
import proofs.«109724_j81406810128840_1_alg».proof.ReferenceIdeal

noncomputable section

namespace Cert.ReferenceIdeal.RefRun

open Cert.ReferenceIdeal Cert.ReferenceIdeal.Facts₀ Cert.ReferenceIdeal.Facts Idealize.ShloMosaic

variable {F : FTy → Type} [FloatOps F] [Facts]

/-! ## The edge table: sources, targets, wrapped gather indices, degree normalisation -/

/-- Row 0 of the edge table: the source node of each edge. -/
def res_src (a1 : IVec S2x1600000 32) : IVec S1600000 32 :=
  shapeCast S1600000 (extractStridedSlice S1x1600000 ![0, 0] a1 slices_S2x1600000_S1x1600000_0_0) shapeCasts_S1x1600000_S1600000

/-- Row 1 of the edge table: the target node of each edge. -/
def res_dst (a1 : IVec S2x1600000 32) : IVec S1600000 32 :=
  shapeCast S1600000 (extractStridedSlice S1x1600000 ![1, 0] a1 slices_S2x1600000_S1x1600000_1_0) shapeCasts_S1x1600000_S1600000

/-- The targets as a column of scatter indices (not wrapped: a scatter drops an index out of range). -/
def res_dstCol (a1 : IVec S2x1600000 32) : IVec S1600000x1 32 :=
  broadcastInDim S1600000x1 ![0] bcast_S1600000_S1600000x1_0 (res_dst a1)

/-- The sources as a column of gather indices, a negative one wrapped by adding 100000. -/
def res_srcIdx (a1 : IVec S2x1600000 32) : IVec S1600000x1 32 :=
  broadcastInDim S1600000x1 ![0] bcast_S1600000_S1600000x1_0 (select (cmpi .slt (res_src a1) (broadcastInDim S1600000 ![] bcast_S_S1600000 (constantI S_ 32 0#32))) (addi (res_src a1) (broadcastInDim S1600000 ![] bcast_S_S1600000 (constantI S_ 32 100000#32))) (res_src a1))

/-- The targets as a column of gather indices, a negative one wrapped by adding 100000. -/
def res_dstIdx (a1 : IVec S2x1600000 32) : IVec S1600000x1 32 :=
  broadcastInDim S1600000x1 ![0] bcast_S1600000_S1600000x1_0 (select (cmpi .slt (res_dst a1) (broadcastInDim S1600000 ![] bcast_S_S1600000 (constantI S_ 32 0#32))) (addi (res_dst a1) (broadcastInDim S1600000 ![] bcast_S_S1600000 (constantI S_ 32 100000#32))) (res_dst a1))

/-- rsqrt (in-degree + 1) per node: the in-degree is the scatter-add of a one per edge at its target. -/
def res_dinv (a1 : IVec S2x1600000 32) : FVec F S100000 .f32 :=
  Host.rsqrt (addf (Host.scatterAdd scatter_S100000_S1600000x1_S1600000_n_0_0_1 (broadcastInDim S100000 ![] bcast_S_S100000 (constant S_ .f32 0x00000000#32)) (res_dstCol a1) (broadcastInDim S1600000 ![] bcast_S_S1600000 (constant S_ .f32 0x3F800000#32))) (broadcastInDim S100000 ![] bcast_S_S100000 (constant S_ .f32 0x3F800000#32)))

/-- Per edge, dinv[source] · dinv[target], stretched over the 64 columns. -/
def res_coef (a1 : IVec S2x1600000 32) : FVec F S1600000x64 .f32 :=
  broadcastInDim S1600000x64 ![0, 1] bcast_S1600000x1_S1600000x64_0_1 (broadcastInDim S1600000x1 ![0] bcast_S1600000_S1600000x1_0 (mulf (Host.gather gather_S100000_S1600000x1_S1600000_n_0_n_n_0_1_1 (res_dinv a1) (res_srcIdx a1)) (Host.gather gather_S100000_S1600000x1_S1600000_n_0_n_n_0_1_1 (res_dinv a1) (res_dstIdx a1))))

/-- Per node, dinv², stretched over the 64 columns (the self-loop weight). -/
def res_self (a1 : IVec S2x1600000 32) : FVec F S100000x64 .f32 :=
  broadcastInDim S100000x64 ![0, 1] bcast_S100000x1_S100000x64_0_1 (broadcastInDim S100000x1 ![0] bcast_S100000_S100000x1_0 (mulf (res_dinv a1) (res_dinv a1)))

/-! ## The per-layer slices of the stacked parameters -/

/-- Layer 0's 64×64 weight matrix out of the stack. -/
def res_W_0 (a5 : FVec F S4x64x64 .f32) : FVec F S64x64 .f32 :=
  shapeCast S64x64 (extractStridedSlice S1x64x64 ![0, 0, 0] a5 slices_S4x64x64_S1x64x64_0_0_0) shapeCasts_S1x64x64_S64x64

/-- Row 0 of a 4×64 parameter stack (the layer's bias, scale or shift). -/
def res_row_0 (a : FVec F S4x64 .f32) : FVec F S64 .f32 :=
  shapeCast S64 (extractStridedSlice S1x64 ![0, 0] a slices_S4x64_S1x64_0_0) shapeCasts_S1x64_S64

/-- Layer 1's 64×64 weight matrix out of the stack. -/
def res_W_1 (a5 : FVec F S4x64x64 .f32) : FVec F S64x64 .f32 :=
  shapeCast S64x64 (extractStridedSlice S1x64x64 ![1, 0, 0] a5 slices_S4x64x64_S1x64x64_1_0_0) shapeCasts_S1x64x64_S64x64

/-- Row 1 of a 4×64 parameter stack (the layer's bias, scale or shift). -/
def res_row_1 (a : FVec F S4x64 .f32) : FVec F S64 .f32 :=
  shapeCast S64 (extractStridedSlice S1x64 ![1, 0] a slices_S4x64_S1x64_1_0) shapeCasts_S1x64_S64

/-- Layer 2's 64×64 weight matrix out of the stack. -/
def res_W_2 (a5 : FVec F S4x64x64 .f32) : FVec F S64x64 .f32 :=
  shapeCast S64x64 (extractStridedSlice S1x64x64 ![2, 0, 0] a5 slices_S4x64x64_S1x64x64_2_0_0) shapeCasts_S1x64x64_S64x64

/-- Row 2 of a 4×64 parameter stack (the layer's bias, scale or shift). -/
def res_row_2 (a : FVec F S4x64 .f32) : FVec F S64 .f32 :=
  shapeCast S64 (extractStridedSlice S1x64 ![2, 0] a slices_S4x64_S1x64_2_0) shapeCasts_S1x64_S64

/-- Layer 3's 64×64 weight matrix out of the stack. -/
def res_W_3 (a5 : FVec F S4x64x64 .f32) : FVec F S64x64 .f32 :=
  shapeCast S64x64 (extractStridedSlice S1x64x64 ![3, 0, 0] a5 slices_S4x64x64_S1x64x64_3_0_0) shapeCasts_S1x64x64_S64x64

/-- Row 3 of a 4×64 parameter stack (the layer's bias, scale or shift). -/
def res_row_3 (a : FVec F S4x64 .f32) : FVec F S64 .f32 :=
  shapeCast S64 (extractStridedSlice S1x64 ![3, 0] a slices_S4x64_S1x64_3_0) shapeCasts_S1x64_S64

/-! ## One layer, over the previous layer's nodes `h` -/

/-- The nodes times the layer's weights. -/
def lay_hw (h : FVec F S100000x64 .f32) (W : FVec F S64x64 .f32) : FVec F S100000x64 .f32 :=
  Host.dotGeneral dot_S100000x64_S64x64_S100000x64_1_0_0_1_n_n none h W

/-- The aggregation: into each target node, the sum over its incoming edges of the source's row of `hw` times the edge's coefficient. -/
def lay_agg (a1 : IVec S2x1600000 32) (hw : FVec F S100000x64 .f32) : FVec F S100000x64 .f32 :=
  Host.scatterAdd scatter_S100000x64_S1600000x1_S1600000x64_1_0_0_1 (broadcastInDim S100000x64 ![] bcast_S_S100000x64 (constant S_ .f32 0x00000000#32)) (res_dstCol a1) (mulf (Host.gather gather_S100000x64_S1600000x1_S1600000x64_1_0_n_n_0_1_164 hw (res_srcIdx a1)) (res_coef a1))

/-- The convolution's result: aggregation, plus the self-loop term, plus the layer's bias on every row. -/
def lay_conv (a1 : IVec S2x1600000 32) (hw agg : FVec F S100000x64 .f32) (cb : FVec F S64 .f32) : FVec F S100000x64 .f32 :=
  addf (addf agg (mulf hw (res_self a1))) (broadcastInDim S100000x64 ![0, 1] bcast_S1x64_S100000x64_0_1 (broadcastInDim S1x64 ![1] bcast_S64_S1x64_1 cb))

/-- The column means over the 100000 rows. -/
def lay_mean (x : FVec F S100000x64 .f32) : FVec F S64 .f32 :=
  Host.divf (Host.reduceAdd x (constant S_ .f32 0x00000000#32) reducesTo_S100000x64_S64_d0 h_S_) (broadcastInDim S64 ![] bcast_S_S64 (constant S_ .f32 0x47C35000#32))

/-- The deviations from the column means, as the variance computes them (its own spelling of the mean). -/
def lay_dev (x : FVec F S100000x64 .f32) : FVec F S100000x64 .f32 :=
  subf x (broadcastInDim S100000x64 ![0, 1] bcast_S1x64_S100000x64_0_1 (Host.divf (broadcastInDim S1x64 ![1] bcast_S64_S1x64_1 (Host.reduceAdd x (constant S_ .f32 0x00000000#32) reducesTo_S100000x64_S64_d0 h_S_)) (broadcastInDim S1x64 ![] bcast_S_S1x64 (constant S_ .f32 0x47C35000#32))))

/-- The column variances as the program computes them: the sum of squared deviations over (100000 − 0), selected against a
    not-a-number word by the test 100000 − 0 > 0. -/
def lay_var (x : FVec F S100000x64 .f32) : FVec F S64 .f32 :=
  select (broadcastInDim S64 ![] bcast_S_S64 (cmpf .ogt (subf (constant (F := F) S_ .f32 0x47C35000#32) (sitofp .f32 (constantI S_ 32 0#32))) (constant (F := F) S_ .f32 0x00000000#32))) (Host.divf (Host.reduceAdd (mulf (lay_dev x) (lay_dev x)) (constant S_ .f32 0x00000000#32) reducesTo_S100000x64_S64_d0 h_S_) (broadcastInDim S64 ![] bcast_S_S64 (subf (constant S_ .f32 0x47C35000#32) (sitofp .f32 (constantI S_ 32 0#32))))) (broadcastInDim S64 ![] bcast_S_S64 (constant S_ .f32 0x7FC00000#32))

/-- The layer's output: normalise, scale, shift, clamp at zero, add the layer's input back. -/
def lay_next (x : FVec F S100000x64 .f32) (mean var g b : FVec F S64 .f32) (h : FVec F S100000x64 .f32) : FVec F S100000x64 .f32 :=
  addf (maximumf (addf (mulf (mulf (subf x (broadcastInDim S100000x64 ![0, 1] bcast_S1x64_S100000x64_0_1 (broadcastInDim S1x64 ![1] bcast_S64_S1x64_1 mean))) (broadcastInDim S100000x64 ![0, 1] bcast_S1x64_S100000x64_0_1 (broadcastInDim S1x64 ![1] bcast_S64_S1x64_1 (Host.rsqrt (addf var (broadcastInDim S64 ![] bcast_S_S64 (constant S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 b))) (broadcastInDim S100000x64 ![] bcast_S_S100000x64 (constant S_ .f32 0x00000000#32))) h

/-! ## The named intermediates, as terms of the argument arrays -/

/-- The node embedding. -/
def res_h0 (a0 : FVec F S100000x32 .f32) (a3 : FVec F S32x64 .f32) (a4 : FVec F S64 .f32) : FVec F S100000x64 .f32 :=
  addf (Host.dotGeneral dot_S100000x32_S32x64_S100000x64_1_0_0_1_n_n none a0 a3) (broadcastInDim S100000x64 ![0, 1] bcast_S1x64_S100000x64_0_1 (broadcastInDim S1x64 ![1] bcast_S64_S1x64_1 a4))

/-- Layer 0: nodes times weights. -/
def res_hw_0 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_hw (res_h0 a0 a3 a4) (res_W_0 a5)
/-- Layer 0: the aggregation over incoming edges. -/
def res_agg_0 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_agg a1 (res_hw_0 a0 a1 a3 a4 a5 a6 a7 a8)
/-- Layer 0: the convolution's result. -/
def res_conv_0 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_conv a1 (res_hw_0 a0 a1 a3 a4 a5 a6 a7 a8) (res_agg_0 a0 a1 a3 a4 a5 a6 a7 a8) (res_row_0 a6)
/-- Layer 0: the column means of the convolution's result. -/
def res_mean_0 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_mean (res_conv_0 a0 a1 a3 a4 a5 a6 a7 a8)
/-- Layer 0: the column variances of the convolution's result. -/
def res_var_0 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_var (res_conv_0 a0 a1 a3 a4 a5 a6 a7 a8)
/-- The nodes after layer 0. -/
def res_h_1 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_next (res_conv_0 a0 a1 a3 a4 a5 a6 a7 a8) (res_mean_0 a0 a1 a3 a4 a5 a6 a7 a8) (res_var_0 a0 a1 a3 a4 a5 a6 a7 a8) (res_row_0 a7) (res_row_0 a8) (res_h0 a0 a3 a4)

/-- Layer 1: nodes times weights. -/
def res_hw_1 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_hw (res_h_1 a0 a1 a3 a4 a5 a6 a7 a8) (res_W_1 a5)
/-- Layer 1: the aggregation over incoming edges. -/
def res_agg_1 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_agg a1 (res_hw_1 a0 a1 a3 a4 a5 a6 a7 a8)
/-- Layer 1: the convolution's result. -/
def res_conv_1 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_conv a1 (res_hw_1 a0 a1 a3 a4 a5 a6 a7 a8) (res_agg_1 a0 a1 a3 a4 a5 a6 a7 a8) (res_row_1 a6)
/-- Layer 1: the column means of the convolution's result. -/
def res_mean_1 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_mean (res_conv_1 a0 a1 a3 a4 a5 a6 a7 a8)
/-- Layer 1: the column variances of the convolution's result. -/
def res_var_1 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_var (res_conv_1 a0 a1 a3 a4 a5 a6 a7 a8)
/-- The nodes after layer 1. -/
def res_h_2 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_next (res_conv_1 a0 a1 a3 a4 a5 a6 a7 a8) (res_mean_1 a0 a1 a3 a4 a5 a6 a7 a8) (res_var_1 a0 a1 a3 a4 a5 a6 a7 a8) (res_row_1 a7) (res_row_1 a8) (res_h_1 a0 a1 a3 a4 a5 a6 a7 a8)

/-- Layer 2: nodes times weights. -/
def res_hw_2 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_hw (res_h_2 a0 a1 a3 a4 a5 a6 a7 a8) (res_W_2 a5)
/-- Layer 2: the aggregation over incoming edges. -/
def res_agg_2 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_agg a1 (res_hw_2 a0 a1 a3 a4 a5 a6 a7 a8)
/-- Layer 2: the convolution's result. -/
def res_conv_2 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_conv a1 (res_hw_2 a0 a1 a3 a4 a5 a6 a7 a8) (res_agg_2 a0 a1 a3 a4 a5 a6 a7 a8) (res_row_2 a6)
/-- Layer 2: the column means of the convolution's result. -/
def res_mean_2 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_mean (res_conv_2 a0 a1 a3 a4 a5 a6 a7 a8)
/-- Layer 2: the column variances of the convolution's result. -/
def res_var_2 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_var (res_conv_2 a0 a1 a3 a4 a5 a6 a7 a8)
/-- The nodes after layer 2. -/
def res_h_3 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_next (res_conv_2 a0 a1 a3 a4 a5 a6 a7 a8) (res_mean_2 a0 a1 a3 a4 a5 a6 a7 a8) (res_var_2 a0 a1 a3 a4 a5 a6 a7 a8) (res_row_2 a7) (res_row_2 a8) (res_h_2 a0 a1 a3 a4 a5 a6 a7 a8)

/-- Layer 3: nodes times weights. -/
def res_hw_3 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_hw (res_h_3 a0 a1 a3 a4 a5 a6 a7 a8) (res_W_3 a5)
/-- Layer 3: the aggregation over incoming edges. -/
def res_agg_3 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_agg a1 (res_hw_3 a0 a1 a3 a4 a5 a6 a7 a8)
/-- Layer 3: the convolution's result. -/
def res_conv_3 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_conv a1 (res_hw_3 a0 a1 a3 a4 a5 a6 a7 a8) (res_agg_3 a0 a1 a3 a4 a5 a6 a7 a8) (res_row_3 a6)
/-- Layer 3: the column means of the convolution's result. -/
def res_mean_3 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_mean (res_conv_3 a0 a1 a3 a4 a5 a6 a7 a8)
/-- Layer 3: the column variances of the convolution's result. -/
def res_var_3 (a0 : FVec F S100000x32 .f32) (a1 : IVec S2x1600000 32) (a3 : FVec F S32x64 .f32) (a4 : FVec F S64 .f32) (a5 : FVec F S4x64x64 .f32) (a6 a7 a8 : FVec F S4x64 .f32) : FVec F S64 .f32 :=
  lay_var (res_conv_3 a0 a1 a3 a4 a5 a6 a7 a8)
/-- The nodes after layer 3. -/
def res_h_4 (a0 : FVec F S100000x32 .f32) (a1 : IVec S2x1600000 32) (a3 : FVec F S32x64 .f32) (a4 : FVec F S64 .f32) (a5 : FVec F S4x64x64 .f32) (a6 a7 a8 : FVec F S4x64 .f32) : FVec F S100000x64 .f32 :=
  lay_next (res_conv_3 a0 a1 a3 a4 a5 a6 a7 a8) (res_mean_3 a0 a1 a3 a4 a5 a6 a7 a8) (res_var_3 a0 a1 a3 a4 a5 a6 a7 a8) (res_row_3 a7) (res_row_3 a8) (res_h_3 a0 a1 a3 a4 a5 a6 a7 a8)

/-! ## The pooling and the head -/

/-- Per graph, the sum of its nodes' rows over max (its node count, 1). -/
def lay_pool (a2 : IVec S100000 32) (h : FVec F S100000x64 .f32) : FVec F S256x64 .f32 :=
  Host.divf (Host.scatterAdd scatter_S256x64_S100000x1_S100000x64_1_0_0_1 (broadcastInDim S256x64 ![] bcast_S_S256x64 (constant S_ .f32 0x00000000#32)) (broadcastInDim S100000x1 ![0] bcast_S100000_S100000x1_0 a2) h) (broadcastInDim S256x64 ![0, 1] bcast_S256x1_S256x64_0_1 (broadcastInDim S256x1 ![0] bcast_S256_S256x1_0 (maximumf (Host.scatterAdd scatter_S256_S100000x1_S100000_n_0_0_1 (broadcastInDim S256 ![] bcast_S_S256 (constant S_ .f32 0x00000000#32)) (broadcastInDim S100000x1 ![0] bcast_S100000_S100000x1_0 a2) (broadcastInDim S100000 ![] bcast_S_S100000 (constant S_ .f32 0x3F800000#32))) (broadcastInDim S256 ![] bcast_S_S256 (constant S_ .f32 0x3F800000#32)))))

/-- The two dense layers of the head over the pooled rows. -/
def lay_head (p : FVec F S256x64 .f32) (a9 : FVec F S64x32 .f32) (a10 : FVec F S32 .f32) (a11 : FVec F S32x1 .f32) (a12 : FVec F S1 .f32) : FVec F S256x1 .f32 :=
  addf (Host.dotGeneral dot_S256x32_S32x1_S256x1_1_0_0_1_n_n none (maximumf (addf (Host.dotGeneral dot_S256x64_S64x32_S256x32_1_0_0_1_n_n none p a9) (broadcastInDim S256x32 ![0, 1] bcast_S1x32_S256x32_0_1 (broadcastInDim S1x32 ![1] bcast_S32_S1x32_1 a10))) (broadcastInDim S256x32 ![] bcast_S_S256x32 (constant S_ .f32 0x00000000#32))) a11) (broadcastInDim S256x1 ![0, 1] bcast_S1x1_S256x1_0_1 (broadcastInDim S1x1 ![1] bcast_S1_S1x1_1 a12))

/-- The pooled rows. -/
def res_pooled (a0 : FVec F S100000x32 .f32) (a1 : IVec S2x1600000 32) (a3 : FVec F S32x64 .f32) (a4 : FVec F S64 .f32) (a5 : FVec F S4x64x64 .f32) (a6 a7 a8 : FVec F S4x64 .f32) (a2 : IVec S100000 32) : FVec F S256x64 .f32 :=
  lay_pool a2 (res_h_4 a0 a1 a3 a4 a5 a6 a7 a8)

/-- The reference's result, as a term of its thirteen arguments in their order. -/
def out (a0 : FVec F S100000x32 .f32) (a1 : IVec S2x1600000 32) (a2 : IVec S100000 32) (a3 : FVec F S32x64 .f32) (a4 : FVec F S64 .f32)
    (a5 : FVec F S4x64x64 .f32) (a6 a7 a8 : FVec F S4x64 .f32) (a9 : FVec F S64x32 .f32) (a10 : FVec F S32 .f32)
    (a11 : FVec F S32x1 .f32) (a12 : FVec F S1 .f32) : FVec F S256x1 .f32 :=
  lay_head (res_pooled a0 a1 a3 a4 a5 a6 a7 a8 a2) a9 a10 a11 a12

end Cert.ReferenceIdeal.RefRun

end
-- ==== Proof.RefRunPre.lean ====
/-
The first eight operations: the two rows of the edge table read out as vectors, and the node embedding.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 8192 in
/-- The source row. -/
theorem pre_src (V : Valuation τ sig (Elt F)) :
    after opsP0 V (Proc.devRef .tc main_v1 : DevRef τ sig) = res_src (V (Proc.devRef .tc main_arg1 : DevRef τ sig)) := by
  simp only [opsP0]
  after_results_simp
  rfl

set_option maxRecDepth 8192 in
/-- The target row. -/
theorem pre_dst (V : Valuation τ sig (Elt F)) :
    after opsP0 V (Proc.devRef .tc main_v3 : DevRef τ sig) = res_dst (V (Proc.devRef .tc main_arg1 : DevRef τ sig)) := by
  simp only [opsP0]
  after_results_simp
  rfl

set_option maxRecDepth 8192 in
/-- The node embedding. -/
theorem pre_h0 (V : Valuation τ sig (Elt F)) :
    after opsP0 V (Proc.devRef .tc main_v7 : DevRef τ sig) = res_h0 (V (Proc.devRef .tc main_arg0 : DevRef τ sig)) (V (Proc.devRef .tc main_arg3 : DevRef τ sig)) (V (Proc.devRef .tc main_arg4 : DevRef τ sig)) := by
  simp only [opsP0]
  after_results_simp
  rfl

end Cert.ReferenceIdeal.RefRun

end
-- ==== Proof.RefRunA0.lean ====
/-
Layer 0's convolution: from the previous nodes, the edge table's rows and the layer's weights and bias to the
convolution's result, as the named term. The operations between are the product with the weights, the degree
normalisation (recomputed by the program in every layer), the wrapped gathers, the per-edge scaling, the scatter-add into
the targets, the self-loop term and the bias.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem A0_conv (V : Valuation τ sig (Elt F)) (a1 : IVec S2x1600000 32)
    (hs : V (Proc.devRef .tc main_v1 : DevRef τ sig) = res_src a1) (hd : V (Proc.devRef .tc main_v3 : DevRef τ sig) = res_dst a1) :
    after opsP2 (after opsP1 (V)) (Proc.devRef .tc main_v55 : DevRef τ sig)
      = lay_conv a1 (lay_hw (V (Proc.devRef .tc main_v7 : DevRef τ sig)) (res_W_0 (V (Proc.devRef .tc main_arg5 : DevRef τ sig)))) (lay_agg a1 (lay_hw (V (Proc.devRef .tc main_v7 : DevRef τ sig)) (res_W_0 (V (Proc.devRef .tc main_arg5 : DevRef τ sig))))) (res_row_0 (V (Proc.devRef .tc main_arg6 : DevRef τ sig))) := by
  rw [← after_append]
  simp only [opsP1, opsP2, List.cons_append, List.nil_append]
  after_results_simp
  rw [hs, hd]
  rfl

end Cert.ReferenceIdeal.RefRun

end
-- ==== Proof.RefRunA1.lean ====
/-
Layer 1's convolution: from the previous nodes, the edge table's rows and the layer's weights and bias to the
convolution's result, as the named term. The operations between are the product with the weights, the degree
normalisation (recomputed by the program in every layer), the wrapped gathers, the per-edge scaling, the scatter-add into
the targets, the self-loop term and the bias.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem A1_conv (V : Valuation τ sig (Elt F)) (a1 : IVec S2x1600000 32)
    (hs : V (Proc.devRef .tc main_v1 : DevRef τ sig) = res_src a1) (hd : V (Proc.devRef .tc main_v3 : DevRef τ sig) = res_dst a1) :
    after opsP5 (after opsP4 (V)) (Proc.devRef .tc main_v128 : DevRef τ sig)
      = lay_conv a1 (lay_hw (V (Proc.devRef .tc main_v80 : DevRef τ sig)) (res_W_1 (V (Proc.devRef .tc main_arg5 : DevRef τ sig)))) (lay_agg a1 (lay_hw (V (Proc.devRef .tc main_v80 : DevRef τ sig)) (res_W_1 (V (Proc.devRef .tc main_arg5 : DevRef τ sig))))) (res_row_1 (V (Proc.devRef .tc main_arg6 : DevRef τ sig))) := by
  rw [← after_append]
  simp only [opsP4, opsP5, List.cons_append, List.nil_append]
  after_results_simp
  rw [hs, hd]
  rfl

end Cert.ReferenceIdeal.RefRun

end
-- ==== Proof.RefRunA2.lean ====
/-
Layer 2's convolution: from the previous nodes, the edge table's rows and the layer's weights and bias to the
convolution's result, as the named term. The operations between are the product with the weights, the degree
normalisation (recomputed by the program in every layer), the wrapped gathers, the per-edge scaling, the scatter-add into
the targets, the self-loop term and the bias.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem A2_conv (V : Valuation τ sig (Elt F)) (a1 : IVec S2x1600000 32)
    (hs : V (Proc.devRef .tc main_v1 : DevRef τ sig) = res_src a1) (hd : V (Proc.devRef .tc main_v3 : DevRef τ sig) = res_dst a1) :
    after opsP8 (V) (Proc.devRef .tc main_v201 : DevRef τ sig)
      = lay_conv a1 (lay_hw (V (Proc.devRef .tc main_v153 : DevRef τ sig)) (res_W_2 (V (Proc.devRef .tc main_arg5 : DevRef τ sig)))) (lay_agg a1 (lay_hw (V (Proc.devRef .tc main_v153 : DevRef τ sig)) (res_W_2 (V (Proc.devRef .tc main_arg5 : DevRef τ sig))))) (res_row_2 (V (Proc.devRef .tc main_arg6 : DevRef τ sig))) := by
  simp only [opsP8]
  after_results_simp
  rw [hs, hd]
  rfl

end Cert.ReferenceIdeal.RefRun

end
-- ==== Proof.RefRunA3.lean ====
/-
Layer 3's convolution: from the previous nodes, the edge table's rows and the layer's weights and bias to the
convolution's result, as the named term. The operations between are the product with the weights, the degree
normalisation (recomputed by the program in every layer), the wrapped gathers, the per-edge scaling, the scatter-add into
the targets, the self-loop term and the bias.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem A3_conv (V : Valuation τ sig (Elt F)) (a1 : IVec S2x1600000 32)
    (hs : V (Proc.devRef .tc main_v1 : DevRef τ sig) = res_src a1) (hd : V (Proc.devRef .tc main_v3 : DevRef τ sig) = res_dst a1) :
    after opsP11 (after opsP10 (V)) (Proc.devRef .tc main_v274 : DevRef τ sig)
      = lay_conv a1 (lay_hw (V (Proc.devRef .tc main_v226 : DevRef τ sig)) (res_W_3 (V (Proc.devRef .tc main_arg5 : DevRef τ sig)))) (lay_agg a1 (lay_hw (V (Proc.devRef .tc main_v226 : DevRef τ sig)) (res_W_3 (V (Proc.devRef .tc main_arg5 : DevRef τ sig))))) (res_row_3 (V (Proc.devRef .tc main_arg6 : DevRef τ sig))) := by
  rw [← after_append]
  simp only [opsP10, opsP11, List.cons_append, List.nil_append]
  after_results_simp
  rw [hs, hd]
  rfl

end Cert.ReferenceIdeal.RefRun

end
-- ==== Proof.RefRunB0.lean ====
/-
Layer 0's normalisation: from the convolution's result, the layer's scale and shift rows and the previous nodes to the
next nodes, as the named term. The operations between are the column means, the column variances (the called function's
operations, listed in place), the normalisation by rsqrt (variance + eps), the scale and shift, the clamp at zero (a called
function again) and the residual sum.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem B0_next (V : Valuation τ sig (Elt F)) :
    after opsP3 (V) (Proc.devRef .tc main_v80 : DevRef τ sig)
      = lay_next (V (Proc.devRef .tc main_v55 : DevRef τ sig)) (lay_mean (V (Proc.devRef .tc main_v55 : DevRef τ sig))) (lay_var (V (Proc.devRef .tc main_v55 : DevRef τ sig))) (res_row_0 (V (Proc.devRef .tc main_arg7 : DevRef τ sig))) (res_row_0 (V (Proc.devRef .tc main_arg8 : DevRef τ sig))) (V (Proc.devRef .tc main_v7 : DevRef τ sig)) := by
  simp only [opsP3]
  after_results_simp
  rfl

end Cert.ReferenceIdeal.RefRun

end
-- ==== Proof.RefRunB1.lean ====
/-
Layer 1's normalisation: from the convolution's result, the layer's scale and shift rows and the previous nodes to the
next nodes, as the named term. The operations between are the column means, the column variances (the called function's
operations, listed in place), the normalisation by rsqrt (variance + eps), the scale and shift, the clamp at zero (a called
function again) and the residual sum.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem B1_next (V : Valuation τ sig (Elt F)) :
    after opsP7 (after opsP6 (V)) (Proc.devRef .tc main_v153 : DevRef τ sig)
      = lay_next (V (Proc.devRef .tc main_v128 : DevRef τ sig)) (lay_mean (V (Proc.devRef .tc main_v128 : DevRef τ sig))) (lay_var (V (Proc.devRef .tc main_v128 : DevRef τ sig))) (res_row_1 (V (Proc.devRef .tc main_arg7 : DevRef τ sig))) (res_row_1 (V (Proc.devRef .tc main_arg8 : DevRef τ sig))) (V (Proc.devRef .tc main_v80 : DevRef τ sig)) := by
  rw [← after_append]
  simp only [opsP6, opsP7, List.cons_append, List.nil_append]
  after_results_simp
  rfl

end Cert.ReferenceIdeal.RefRun

end
-- ==== Proof.RefRunB2.lean ====
/-
Layer 2's normalisation: from the convolution's result, the layer's scale and shift rows and the previous nodes to the
next nodes, as the named term. The operations between are the column means, the column variances (the called function's
operations, listed in place), the normalisation by rsqrt (variance + eps), the scale and shift, the clamp at zero (a called
function again) and the residual sum.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem B2_next (V : Valuation τ sig (Elt F)) :
    after opsP9 (V) (Proc.devRef .tc main_v226 : DevRef τ sig)
      = lay_next (V (Proc.devRef .tc main_v201 : DevRef τ sig)) (lay_mean (V (Proc.devRef .tc main_v201 : DevRef τ sig))) (lay_var (V (Proc.devRef .tc main_v201 : DevRef τ sig))) (res_row_2 (V (Proc.devRef .tc main_arg7 : DevRef τ sig))) (res_row_2 (V (Proc.devRef .tc main_arg8 : DevRef τ sig))) (V (Proc.devRef .tc main_v153 : DevRef τ sig)) := by
  simp only [opsP9]
  after_results_simp
  rfl

end Cert.ReferenceIdeal.RefRun

end
-- ==== Proof.RefRunB3.lean ====
/-
Layer 3's normalisation: from the convolution's result, the layer's scale and shift rows and the previous nodes to the
next nodes, as the named term. The operations between are the column means, the column variances (the called function's
operations, listed in place), the normalisation by rsqrt (variance + eps), the scale and shift, the clamp at zero (a called
function again) and the residual sum.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem B3_next (V : Valuation τ sig (Elt F)) :
    after opsP12 (V) (Proc.devRef .tc main_v299 : DevRef τ sig)
      = lay_next (V (Proc.devRef .tc main_v274 : DevRef τ sig)) (lay_mean (V (Proc.devRef .tc main_v274 : DevRef τ sig))) (lay_var (V (Proc.devRef .tc main_v274 : DevRef τ sig))) (res_row_3 (V (Proc.devRef .tc main_arg7 : DevRef τ sig))) (res_row_3 (V (Proc.devRef .tc main_arg8 : DevRef τ sig))) (V (Proc.devRef .tc main_v226 : DevRef τ sig)) := by
  simp only [opsP12]
  after_results_simp
  rfl

end Cert.ReferenceIdeal.RefRun

end
-- ==== Proof.RefRunTail.lean ====
/-
The pooling and the head: from the last layer's nodes and the graph index of each node to the result, as the named
term: per-graph sums and counts by scatter-add, the quotient by max (count, 1), and the two dense layers with a clamp at zero
between them.
-/
import proofs.«109724_j81406810128840_1_alg».proof.Proof.RefOps
import proofs.«109724_j81406810128840_1_alg».proof.Proof.RefDefs

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

set_option maxRecDepth 16384 in
set_option maxHeartbeats 4000000 in
theorem tail_out (V : Valuation τ sig (Elt F)) :
    after opsP14 (after opsP13 V) (Proc.devRef .tc main_v320 : DevRef τ sig)
      = lay_head (lay_pool (V (Proc.devRef .tc main_arg2 : DevRef τ sig)) (V (Proc.devRef .tc main_v299 : DevRef τ sig))) (V (Proc.devRef .tc main_arg9 : DevRef τ sig)) (V (Proc.devRef .tc main_arg10 : DevRef τ sig)) (V (Proc.devRef .tc main_arg11 : DevRef τ sig)) (V (Proc.devRef .tc main_arg12 : DevRef τ sig)) := by
  rw [← after_append]
  simp only [opsP13, opsP14, List.cons_append, List.nil_append]
  after_results_simp
  rfl

end Cert.ReferenceIdeal.RefRun

end
-- ==== Proof.RefRun.lean ====
/-
The reference program's run, assembled.

The operation list is run stage by stage — the embedding, then per layer the convolution and the normalisation, then the
pooling and head — and after each stage the buffers that matter hold the named terms of RefDefs: the arguments are as at
launch, the two rows of the edge table are the slices of the edge argument, the current nodes and (after a convolution
stage) the convolution's result are their `res_*` terms. Each stage's value is the stage's own lemma (RefRunPre, RefRunA*,
RefRunB*, RefRunTail) with the previous stage's facts substituted; what a stage does not write it keeps (RefKeep). The run
theorem is the library's run of a straight line of host operations, read at the result and at the argument buffers.
-/
import proofs.«109724_j81406810128840_1_alg».proof.Defs
import proofs.«109724_j81406810128840_1_alg».proof.Proof.Gen.ReferenceIdeal
import proofs.«109724_j81406810128840_1_alg».proof.Proof.Gen.Pre_finite_inputs
import proofs.«109724_j81406810128840_1_alg».proof.Proof.RefKeep
import proofs.«109724_j81406810128840_1_alg».proof.Proof.RefRunPre
import proofs.«109724_j81406810128840_1_alg».proof.Proof.RefRunA0
import proofs.«109724_j81406810128840_1_alg».proof.Proof.RefRunA1
import proofs.«109724_j81406810128840_1_alg».proof.Proof.RefRunA2
import proofs.«109724_j81406810128840_1_alg».proof.Proof.RefRunA3
import proofs.«109724_j81406810128840_1_alg».proof.Proof.RefRunB0
import proofs.«109724_j81406810128840_1_alg».proof.Proof.RefRunB1
import proofs.«109724_j81406810128840_1_alg».proof.Proof.RefRunB2
import proofs.«109724_j81406810128840_1_alg».proof.Proof.RefRunB3
import proofs.«109724_j81406810128840_1_alg».proof.Proof.RefRunTail

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Facts]

/-- The buffers every stage after the first leaves alone: the thirteen arguments and the edge table's two rows. -/
abbrev keptRefs : List (Ref sig .tc) := [main_arg0, main_arg1, main_arg2, main_arg3, main_arg4, main_arg5, main_arg6, main_arg7, main_arg8, main_arg9, main_arg10, main_arg11, main_arg12, main_v1, main_v3]

/-- What holds of the buffers `V` after any stage, over the launch contents `V0`: the arguments are unchanged and the edge
    table's rows are the two slices of the edge argument. -/
structure Kept (V0 V : Valuation τ sig (Elt F)) : Prop where
  a0 : V (Proc.devRef .tc main_arg0 : DevRef τ sig) = V0 (Proc.devRef .tc main_arg0 : DevRef τ sig)
  a1 : V (Proc.devRef .tc main_arg1 : DevRef τ sig) = V0 (Proc.devRef .tc main_arg1 : DevRef τ sig)
  a2 : V (Proc.devRef .tc main_arg2 : DevRef τ sig) = V0 (Proc.devRef .tc main_arg2 : DevRef τ sig)
  a3 : V (Proc.devRef .tc main_arg3 : DevRef τ sig) = V0 (Proc.devRef .tc main_arg3 : DevRef τ sig)
  a4 : V (Proc.devRef .tc main_arg4 : DevRef τ sig) = V0 (Proc.devRef .tc main_arg4 : DevRef τ sig)
  a5 : V (Proc.devRef .tc main_arg5 : DevRef τ sig) = V0 (Proc.devRef .tc main_arg5 : DevRef τ sig)
  a6 : V (Proc.devRef .tc main_arg6 : DevRef τ sig) = V0 (Proc.devRef .tc main_arg6 : DevRef τ sig)
  a7 : V (Proc.devRef .tc main_arg7 : DevRef τ sig) = V0 (Proc.devRef .tc main_arg7 : DevRef τ sig)
  a8 : V (Proc.devRef .tc main_arg8 : DevRef τ sig) = V0 (Proc.devRef .tc main_arg8 : DevRef τ sig)
  a9 : V (Proc.devRef .tc main_arg9 : DevRef τ sig) = V0 (Proc.devRef .tc main_arg9 : DevRef τ sig)
  a10 : V (Proc.devRef .tc main_arg10 : DevRef τ sig) = V0 (Proc.devRef .tc main_arg10 : DevRef τ sig)
  a11 : V (Proc.devRef .tc main_arg11 : DevRef τ sig) = V0 (Proc.devRef .tc main_arg11 : DevRef τ sig)
  a12 : V (Proc.devRef .tc main_arg12 : DevRef τ sig) = V0 (Proc.devRef .tc main_arg12 : DevRef τ sig)
  src : V (Proc.devRef .tc main_v1 : DevRef τ sig) = res_src (V0 (Proc.devRef .tc main_arg1 : DevRef τ sig))
  dst : V (Proc.devRef .tc main_v3 : DevRef τ sig) = res_dst (V0 (Proc.devRef .tc main_arg1 : DevRef τ sig))

/-- A stage that leaves those buffers alone keeps the facts. -/
theorem Kept.step {V0 V V' : Valuation τ sig (Elt F)} (h : Kept V0 V)
    (hk : ∀ r ∈ keptRefs, V' (Proc.devRef .tc r : DevRef τ sig) = V (Proc.devRef .tc r : DevRef τ sig)) : Kept V0 V' :=
  ⟨(hk main_arg0 (by decide)).trans h.a0,
   (hk main_arg1 (by decide)).trans h.a1,
   (hk main_arg2 (by decide)).trans h.a2,
   (hk main_arg3 (by decide)).trans h.a3,
   (hk main_arg4 (by decide)).trans h.a4,
   (hk main_arg5 (by decide)).trans h.a5,
   (hk main_arg6 (by decide)).trans h.a6,
   (hk main_arg7 (by decide)).trans h.a7,
   (hk main_arg8 (by decide)).trans h.a8,
   (hk main_arg9 (by decide)).trans h.a9,
   (hk main_arg10 (by decide)).trans h.a10,
   (hk main_arg11 (by decide)).trans h.a11,
   (hk main_arg12 (by decide)).trans h.a12,
   (hk main_v1 (by decide)).trans h.src, (hk main_v3 (by decide)).trans h.dst⟩

theorem keptP1 : ∀ r ∈ keptRefs, r ∉ wP1 := by decide
theorem keptP2 : ∀ r ∈ keptRefs, r ∉ wP2 := by decide
theorem keptP3 : ∀ r ∈ keptRefs, r ∉ wP3 := by decide
theorem keptP4 : ∀ r ∈ keptRefs, r ∉ wP4 := by decide
theorem keptP5 : ∀ r ∈ keptRefs, r ∉ wP5 := by decide
theorem keptP6 : ∀ r ∈ keptRefs, r ∉ wP6 := by decide
theorem keptP7 : ∀ r ∈ keptRefs, r ∉ wP7 := by decide
theorem keptP8 : ∀ r ∈ keptRefs, r ∉ wP8 := by decide
theorem keptP9 : ∀ r ∈ keptRefs, r ∉ wP9 := by decide
theorem keptP10 : ∀ r ∈ keptRefs, r ∉ wP10 := by decide
theorem keptP11 : ∀ r ∈ keptRefs, r ∉ wP11 := by decide
theorem keptP12 : ∀ r ∈ keptRefs, r ∉ wP12 := by decide
theorem keptP13 : ∀ r ∈ keptRefs, r ∉ wP13 := by decide
theorem keptP14 : ∀ r ∈ keptRefs, r ∉ wP14 := by decide

/-! ## The stages -/

/-- The buffers after stage 1. -/
def st1 (V0 : Valuation τ sig (Elt F)) : Valuation τ sig (Elt F) := after opsP0 (V0)

theorem st1_kept (V0 : Valuation τ sig (Elt F)) : Kept V0 (st1 V0) :=
  ⟨keepP0 V0 main_arg0 (by decide), keepP0 V0 main_arg1 (by decide), keepP0 V0 main_arg2 (by decide), keepP0 V0 main_arg3 (by decide), keepP0 V0 main_arg4 (by decide), keepP0 V0 main_arg5 (by decide), keepP0 V0 main_arg6 (by decide), keepP0 V0 main_arg7 (by decide), keepP0 V0 main_arg8 (by decide), keepP0 V0 main_arg9 (by decide), keepP0 V0 main_arg10 (by decide), keepP0 V0 main_arg11 (by decide), keepP0 V0 main_arg12 (by decide),
   pre_src V0, pre_dst V0⟩

theorem st1_h (V0 : Valuation τ sig (Elt F)) : st1 V0 (Proc.devRef .tc main_v7 : DevRef τ sig) = res_h0 (V0 (Proc.devRef .tc main_arg0 : DevRef τ sig)) (V0 (Proc.devRef .tc main_arg3 : DevRef τ sig)) (V0 (Proc.devRef .tc main_arg4 : DevRef τ sig)) := pre_h0 V0

/-- The buffers after stage 2. -/
def st2 (V0 : Valuation τ sig (Elt F)) : Valuation τ sig (Elt F) := after opsP2 (after opsP1 ((st1 V0)))

theorem st2_kept (V0 : Valuation τ sig (Elt F)) : Kept V0 (st2 V0) :=
  (st1_kept V0).step fun r hr => ((keepP2 (after opsP1 ((st1 V0))) r (keptP2 r hr)).trans (keepP1 (st1 V0) r (keptP1 r hr)))

theorem st2_h (V0 : Valuation τ sig (Elt F)) : st2 V0 (Proc.devRef .tc main_v7 : DevRef τ sig) = res_h0 (V0 (Proc.devRef .tc main_arg0 : DevRef τ sig)) (V0 (Proc.devRef .tc main_arg3 : DevRef τ sig)) (V0 (Proc.devRef .tc main_arg4 : DevRef τ sig)) :=
  ((keepP2 (after opsP1 ((st1 V0))) main_v7 (by decide)).trans (keepP1 (st1 V0) main_v7 (by decide))).trans (st1_h V0)

theorem st2_conv (V0 : Valuation τ sig (Elt F)) : st2 V0 (Proc.devRef .tc main_v55 : DevRef τ sig) = res_conv_0 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (A0_conv (st1 V0) _ (st1_kept V0).src (st1_kept V0).dst).trans (by
    rw [st1_h V0, (st1_kept V0).a5, (st1_kept V0).a6]; rfl)

/-- The buffers after stage 3. -/
def st3 (V0 : Valuation τ sig (Elt F)) : Valuation τ sig (Elt F) := after opsP3 ((st2 V0))

theorem st3_kept (V0 : Valuation τ sig (Elt F)) : Kept V0 (st3 V0) :=
  (st2_kept V0).step fun r hr => (keepP3 (st2 V0) r (keptP3 r hr))

theorem st3_h (V0 : Valuation τ sig (Elt F)) : st3 V0 (Proc.devRef .tc main_v80 : DevRef τ sig) = res_h_1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (B0_next (st2 V0)).trans (by
    rw [st2_conv V0, st2_h V0, (st2_kept V0).a7, (st2_kept V0).a8]; rfl)

/-- The buffers after stage 4. -/
def st4 (V0 : Valuation τ sig (Elt F)) : Valuation τ sig (Elt F) := after opsP5 (after opsP4 ((st3 V0)))

theorem st4_kept (V0 : Valuation τ sig (Elt F)) : Kept V0 (st4 V0) :=
  (st3_kept V0).step fun r hr => ((keepP5 (after opsP4 ((st3 V0))) r (keptP5 r hr)).trans (keepP4 (st3 V0) r (keptP4 r hr)))

theorem st4_h (V0 : Valuation τ sig (Elt F)) : st4 V0 (Proc.devRef .tc main_v80 : DevRef τ sig) = res_h_1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  ((keepP5 (after opsP4 ((st3 V0))) main_v80 (by decide)).trans (keepP4 (st3 V0) main_v80 (by decide))).trans (st3_h V0)

theorem st4_conv (V0 : Valuation τ sig (Elt F)) : st4 V0 (Proc.devRef .tc main_v128 : DevRef τ sig) = res_conv_1 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (A1_conv (st3 V0) _ (st3_kept V0).src (st3_kept V0).dst).trans (by
    rw [st3_h V0, (st3_kept V0).a5, (st3_kept V0).a6]; rfl)

/-- The buffers after stage 5. -/
def st5 (V0 : Valuation τ sig (Elt F)) : Valuation τ sig (Elt F) := after opsP7 (after opsP6 ((st4 V0)))

theorem st5_kept (V0 : Valuation τ sig (Elt F)) : Kept V0 (st5 V0) :=
  (st4_kept V0).step fun r hr => ((keepP7 (after opsP6 ((st4 V0))) r (keptP7 r hr)).trans (keepP6 (st4 V0) r (keptP6 r hr)))

theorem st5_h (V0 : Valuation τ sig (Elt F)) : st5 V0 (Proc.devRef .tc main_v153 : DevRef τ sig) = res_h_2 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (B1_next (st4 V0)).trans (by
    rw [st4_conv V0, st4_h V0, (st4_kept V0).a7, (st4_kept V0).a8]; rfl)

/-- The buffers after stage 6. -/
def st6 (V0 : Valuation τ sig (Elt F)) : Valuation τ sig (Elt F) := after opsP8 ((st5 V0))

theorem st6_kept (V0 : Valuation τ sig (Elt F)) : Kept V0 (st6 V0) :=
  (st5_kept V0).step fun r hr => (keepP8 (st5 V0) r (keptP8 r hr))

theorem st6_h (V0 : Valuation τ sig (Elt F)) : st6 V0 (Proc.devRef .tc main_v153 : DevRef τ sig) = res_h_2 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (keepP8 (st5 V0) main_v153 (by decide)).trans (st5_h V0)

theorem st6_conv (V0 : Valuation τ sig (Elt F)) : st6 V0 (Proc.devRef .tc main_v201 : DevRef τ sig) = res_conv_2 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (A2_conv (st5 V0) _ (st5_kept V0).src (st5_kept V0).dst).trans (by
    rw [st5_h V0, (st5_kept V0).a5, (st5_kept V0).a6]; rfl)

/-- The buffers after stage 7. -/
def st7 (V0 : Valuation τ sig (Elt F)) : Valuation τ sig (Elt F) := after opsP9 ((st6 V0))

theorem st7_kept (V0 : Valuation τ sig (Elt F)) : Kept V0 (st7 V0) :=
  (st6_kept V0).step fun r hr => (keepP9 (st6 V0) r (keptP9 r hr))

theorem st7_h (V0 : Valuation τ sig (Elt F)) : st7 V0 (Proc.devRef .tc main_v226 : DevRef τ sig) = res_h_3 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (B2_next (st6 V0)).trans (by
    rw [st6_conv V0, st6_h V0, (st6_kept V0).a7, (st6_kept V0).a8]; rfl)

/-- The buffers after stage 8. -/
def st8 (V0 : Valuation τ sig (Elt F)) : Valuation τ sig (Elt F) := after opsP11 (after opsP10 ((st7 V0)))

theorem st8_kept (V0 : Valuation τ sig (Elt F)) : Kept V0 (st8 V0) :=
  (st7_kept V0).step fun r hr => ((keepP11 (after opsP10 ((st7 V0))) r (keptP11 r hr)).trans (keepP10 (st7 V0) r (keptP10 r hr)))

theorem st8_h (V0 : Valuation τ sig (Elt F)) : st8 V0 (Proc.devRef .tc main_v226 : DevRef τ sig) = res_h_3 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  ((keepP11 (after opsP10 ((st7 V0))) main_v226 (by decide)).trans (keepP10 (st7 V0) main_v226 (by decide))).trans (st7_h V0)

theorem st8_conv (V0 : Valuation τ sig (Elt F)) : st8 V0 (Proc.devRef .tc main_v274 : DevRef τ sig) = res_conv_3 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (A3_conv (st7 V0) _ (st7_kept V0).src (st7_kept V0).dst).trans (by
    rw [st7_h V0, (st7_kept V0).a5, (st7_kept V0).a6]; rfl)

/-- The buffers after stage 9. -/
def st9 (V0 : Valuation τ sig (Elt F)) : Valuation τ sig (Elt F) := after opsP12 ((st8 V0))

theorem st9_kept (V0 : Valuation τ sig (Elt F)) : Kept V0 (st9 V0) :=
  (st8_kept V0).step fun r hr => (keepP12 (st8 V0) r (keptP12 r hr))

theorem st9_h (V0 : Valuation τ sig (Elt F)) : st9 V0 (Proc.devRef .tc main_v299 : DevRef τ sig) = res_h_4 (V0 (Proc.devRef .tc main_arg0 : DevRef τ sig)) (V0 (Proc.devRef .tc main_arg1 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) :=
  (B3_next (st8 V0)).trans (by
    rw [st8_conv V0, st8_h V0, (st8_kept V0).a7, (st8_kept V0).a8]; rfl)

/-- The buffers after stage 10. -/
def st10 (V0 : Valuation τ sig (Elt F)) : Valuation τ sig (Elt F) := after opsP14 (after opsP13 ((st9 V0)))

theorem st10_kept (V0 : Valuation τ sig (Elt F)) : Kept V0 (st10 V0) :=
  (st9_kept V0).step fun r hr => ((keepP14 (after opsP13 ((st9 V0))) r (keptP14 r hr)).trans (keepP13 (st9 V0) r (keptP13 r hr)))

theorem st10_out (V0 : Valuation τ sig (Elt F)) : st10 V0 (Proc.devRef .tc main_v320 : DevRef τ sig) = out (V0 (Proc.devRef .tc main_arg0 : DevRef τ sig)) (V0 (Proc.devRef .tc main_arg1 : DevRef τ sig)) (V0 (Proc.devRef .tc main_arg2 : DevRef τ sig)) (V0 (Proc.devRef .tc main_arg3 : DevRef τ sig)) (V0 (Proc.devRef .tc main_arg4 : DevRef τ sig)) (V0 (Proc.devRef .tc main_arg5 : DevRef τ sig)) (V0 (Proc.devRef .tc main_arg6 : DevRef τ sig)) (V0 (Proc.devRef .tc main_arg7 : DevRef τ sig)) (V0 (Proc.devRef .tc main_arg8 : DevRef τ sig)) (V0 (Proc.devRef .tc main_arg9 : DevRef τ sig)) (V0 (Proc.devRef .tc main_arg10 : DevRef τ sig)) (V0 (Proc.devRef .tc main_arg11 : DevRef τ sig)) (V0 (Proc.devRef .tc main_arg12 : DevRef τ sig)) :=
  (tail_out (st9 V0)).trans (by
    rw [st9_h V0, (st9_kept V0).a2, (st9_kept V0).a9, (st9_kept V0).a10, (st9_kept V0).a11, (st9_kept V0).a12]; rfl)

/-- The whole list run from `V0` ends at the last stage. -/
theorem after_ops (V0 : Valuation τ sig (Elt F)) : after ops V0 = st10 V0 := by
  simp only [ops, after_append]
  rfl

/-! ## The run -/

/-- On every device, from any memory with zero counters: every weakly fair execution of the reference's @main terminates,
    with the result buffer at `out` of the thirteen argument arrays as launched, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v320) = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c =>
    ⟨(h c main_v320).trans (by rw [after_ops]; exact st10_out (launchContents m c)),
     (h c main_arg0).trans (by rw [after_ops]; exact (st10_kept (launchContents m c)).a0),
     (h c main_arg1).trans (by rw [after_ops]; exact (st10_kept (launchContents m c)).a1),
     (h c main_arg2).trans (by rw [after_ops]; exact (st10_kept (launchContents m c)).a2),
     (h c main_arg3).trans (by rw [after_ops]; exact (st10_kept (launchContents m c)).a3),
     (h c main_arg4).trans (by rw [after_ops]; exact (st10_kept (launchContents m c)).a4),
     (h c main_arg5).trans (by rw [after_ops]; exact (st10_kept (launchContents m c)).a5),
     (h c main_arg6).trans (by rw [after_ops]; exact (st10_kept (launchContents m c)).a6),
     (h c main_arg7).trans (by rw [after_ops]; exact (st10_kept (launchContents m c)).a7),
     (h c main_arg8).trans (by rw [after_ops]; exact (st10_kept (launchContents m c)).a8),
     (h c main_arg9).trans (by rw [after_ops]; exact (st10_kept (launchContents m c)).a9),
     (h c main_arg10).trans (by rw [after_ops]; exact (st10_kept (launchContents m c)).a10),
     (h c main_arg11).trans (by rw [after_ops]; exact (st10_kept (launchContents m c)).a11),
     (h c main_arg12).trans (by rw [after_ops]; exact (st10_kept (launchContents m c)).a12)⟩)
    (run_seq scopedRefs_eq scopedSems_eq defs main (fun _ => ops) main_eq (fun _ => ops_sub) m ρ (fun _ => ops_fresh))

end Cert.ReferenceIdeal.RefRun

namespace Cert.ReferenceIdeal.RefRun

open Cert.ReferenceIdeal Idealize.ShloMosaic Idealize.SL.Sem

/-- The reference's frame: its run with the result dropped (the precondition is not needed). -/
theorem frame : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (@run Cert.ReferenceIdeal.Gen.facts m ρ)

end Cert.ReferenceIdeal.RefRun

end
-- ==== Proof.LibExtReal.lean ====
/-
  Small general facts about float values read as extended reals.

  The words of the float one and of plus infinity denote `1` and `⊤`. A quotient by a nonzero REAL divisor is the
  product with one over the divisor, whatever the dividend (infinities included); at a zero divisor the two differ
  (`0 / 0` against `0 · (1 / 0)`), so the hypothesis is needed. A finite sum of reals read in the extended reals is the
  sum of the readings. An extended real whose absolute value `max x (-x)` is below `⊤` is a real. A comparison word
  that is one says its relation holds (less-than; not-equal).
-/
import Idealize.ShloMosaic.PureOps.Ideal.Laws

noncomputable section

namespace Cert.LibExtReal

open Idealize.ShloMosaic

/-- The word of the float one denotes the real one. -/
theorem ofBits_one : Ideal.ofBits .f32 0x3F800000#32 = 1 := by
  simp [Ideal.ofBits, Ideal.ieee, -EReal.coe_mul]; norm_num

/-- The word of plus infinity denotes the top element. -/
theorem ofBits_inf : Ideal.ofBits .f32 0x7F800000#32 = ⊤ := by simp [Ideal.ofBits, Ideal.ieee]

/-- A quotient by a nonzero real is the product with one over it. -/
theorem div_eq_mul_recip (a d : EReal) (y : ℝ) (hy : y ≠ 0) (hd : d = (y : EReal)) :
    Ideal.div a d = a * Ideal.div (Ideal.ofBits .f32 0x3F800000#32) d := by
  subst hd
  rw [Ideal.div_coe hy, Ideal.div_coe hy, ofBits_one, one_mul]

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below the top element is a real. -/
theorem real_of_abs_lt_top (x : EReal) (h : max x (-x) < ⊤) : ∃ y : ℝ, x = (y : EReal) := by
  induction x using EReal.rec with
  | bot => simp at h
  | coe y => exact ⟨y, rfl⟩
  | top => simp at h

/-- A less-than comparison word that is one: the left value is below the right. -/
theorem lt_of_cmp_olt {x y : EReal} (h : Ideal.cmp .olt x y = 1#1) : x < y := by
  unfold Ideal.cmp at h
  by_contra hn
  simp [hn] at h

/-- A not-equal comparison word that is one: the two values differ. -/
theorem ne_of_cmp_une {x y : EReal} (h : Ideal.cmp .une x y = 1#1) : x ≠ y := by
  unfold Ideal.cmp at h
  intro hn
  simp [hn] at h

end Cert.LibExtReal

end
-- ==== Proof.LibReal.lean ====
/-
  Extended reals that are real numbers.

  A float value at the exact reading is an extended real; the values a program computes from finite inputs stay real as
  long as no operation leaves the real line. `IsReal x` says that `x` is the reading of a real number. The real
  numbers are closed under sum, difference, product, negation, maximum, minimum and finite sums; a quotient by a nonzero
  real and the reciprocal square root of a positive real are real. The words of the floats 0, 1, 100000 and of the float
  nearest to 1e-5 denote the reals 0, 1, 100000 and 10995116 / 2^40 (a positive real). A sum of ones over a finite set is
  the number of its elements, so one plus such a sum is a real that is at least one.
-/
import Idealize.ShloMosaic.PureOps.Ideal.Laws
import proofs.«109724_j81406810128840_1_alg».proof.Proof.LibExtReal

noncomputable section

namespace Cert.LibReal

open Idealize.ShloMosaic
open scoped BigOperators

/-- `x` is the reading of a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- A real is neither infinity. -/
theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- An extended real that is neither infinity is a real. -/
theorem isReal_of_ne {x : EReal} (ht : x ≠ ⊤) (hb : x ≠ ⊥) : IsReal x := by
  induction x using EReal.rec with
  | bot => exact absurd rfl hb
  | coe y => exact ⟨y, rfl⟩
  | top => exact absurd rfl ht

theorem isReal_iff {x : EReal} : IsReal x ↔ x ≠ ⊤ ∧ x ≠ ⊥ :=
  ⟨fun h => ⟨h.ne_top, h.ne_bot⟩, fun h => isReal_of_ne h.1 h.2⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- A finite sum of reals is a real. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The sum over a whole finite type of reals is a real. -/
theorem isReal_sum_univ {ι : Type} [Fintype ι] (f : ι → EReal) (h : ∀ i, IsReal (f i)) : IsReal (∑ i, f i) :=
  isReal_sum Finset.univ f fun i _ => h i

/-- The sum over the elements of a finite type that satisfy a predicate, of reals, is a real. -/
theorem isReal_sum_filter {ι : Type} [Fintype ι] (p : ι → Prop) [DecidablePred p] (f : ι → EReal)
    (h : ∀ i, p i → IsReal (f i)) : IsReal (∑ i ∈ Finset.univ.filter p, f i) :=
  isReal_sum _ f fun i hi => h i (Finset.mem_filter.mp hi).2

/-- With real witnesses chosen, a finite sum is the reading of the sum of the witnesses. -/
theorem sum_eq_coe {ι : Type} (s : Finset ι) (f : ι → EReal) (r : ι → ℝ) (h : ∀ i ∈ s, f i = (r i : EReal)) :
    ∑ i ∈ s, f i = ((∑ i ∈ s, r i : ℝ) : EReal) := by
  rw [Cert.LibExtReal.coe_sum]; exact Finset.sum_congr rfl h

/-- A quotient of a real by a nonzero real is a real: the real quotient. -/
theorem div_coe_coe (a : ℝ) {y : ℝ} (hy : y ≠ 0) : Ideal.div (a : EReal) (y : EReal) = ((a / y : ℝ) : EReal) := by
  rw [Ideal.div_coe hy, ← EReal.coe_mul, mul_one_div]

theorem IsReal.div {x : EReal} (hx : IsReal x) {y : ℝ} (hy : y ≠ 0) : IsReal (Ideal.div x (y : EReal)) := by
  obtain ⟨a, rfl⟩ := hx; exact ⟨a / y, div_coe_coe a hy⟩

theorem IsReal.div' {x d : EReal} (hx : IsReal x) (hd : IsReal d) (h0 : d ≠ 0) : IsReal (Ideal.div x d) := by
  obtain ⟨y, rfl⟩ := hd
  exact hx.div (fun h => h0 (by rw [h, EReal.coe_zero]))

/-- The reciprocal square root of a positive real is the real `(√r)⁻¹`, a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem inv_sqrt_pos {r : ℝ} (hr : 0 < r) : 0 < (Real.sqrt r)⁻¹ := inv_pos.mpr (Real.sqrt_pos.mpr hr)

theorem isReal_rsqrt_coe {r : ℝ} (hr : 0 < r) : IsReal (Ideal.rsqrt (r : EReal)) := ⟨_, rsqrt_coe_pos hr⟩

theorem IsReal.rsqrt {x : EReal} (hx : IsReal x) (hpos : 0 < x) : IsReal (Ideal.rsqrt x) := by
  obtain ⟨r, rfl⟩ := hx
  exact isReal_rsqrt_coe (by exact_mod_cast hpos)

/-- The reciprocal square root of a positive real is positive. -/
theorem rsqrt_pos {x : EReal} (hx : IsReal x) (hpos : 0 < x) : 0 < Ideal.rsqrt x := by
  obtain ⟨r, rfl⟩ := hx
  have hr : 0 < r := by exact_mod_cast hpos
  rw [rsqrt_coe_pos hr]; exact_mod_cast inv_sqrt_pos hr

/-! ### Float words -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  rw [Cert.LibExtReal.ofBits_one, EReal.coe_one]

/-- The word `0x47C35000` is the float 100000. -/
theorem ofBits_100000 : Ideal.ofBits .f32 0x47C35000#32 = ((100000 : ℝ) : EReal) := by
  simp [Ideal.ofBits, Ideal.ieee, -EReal.coe_mul]; norm_num

/-- The word `0x3727C5AC` (the float nearest to 1e-5) is `10995116 / 2^40`. -/
theorem ofBits_eps : Ideal.ofBits .f32 0x3727C5AC#32 = ((10995116 / 1099511627776 : ℝ) : EReal) := by
  simp [Ideal.ofBits, Ideal.ieee, -EReal.coe_mul]; norm_num

theorem ofBits_eps_pos : ∃ ε : ℝ, 0 < ε ∧ Ideal.ofBits .f32 0x3727C5AC#32 = (ε : EReal) :=
  ⟨_, by norm_num, ofBits_eps⟩

theorem isReal_ofBits_zero : IsReal (Ideal.ofBits .f32 0x00000000#32) := ⟨_, ofBits_zero⟩
theorem isReal_ofBits_one : IsReal (Ideal.ofBits .f32 0x3F800000#32) := ⟨_, ofBits_one⟩
theorem isReal_ofBits_100000 : IsReal (Ideal.ofBits .f32 0x47C35000#32) := ⟨_, ofBits_100000⟩
theorem isReal_ofBits_eps : IsReal (Ideal.ofBits .f32 0x3727C5AC#32) := ⟨_, ofBits_eps⟩

/-! ### Counts -/

/-- A sum of ones over a finite set is the number of its elements. -/
theorem sum_ones {ι : Type} (s : Finset ι) (f : ι → EReal) (h : ∀ j ∈ s, f j = 1) :
    ∑ j ∈ s, f j = ((s.card : ℝ) : EReal) := by
  rw [sum_eq_coe s f (fun _ => 1) (fun j hj => by rw [h j hj, EReal.coe_one])]
  simp

/-- One plus a sum of ones is a real that is at least one. -/
theorem one_add_sum_ones {ι : Type} (s : Finset ι) (f : ι → EReal) (h : ∀ j ∈ s, f j = 1) :
    ∃ r : ℝ, 1 ≤ r ∧ 1 + ∑ j ∈ s, f j = (r : EReal) :=
  ⟨1 + s.card, by simp, by rw [sum_ones s f h, EReal.coe_add, EReal.coe_one]⟩

/-- The same count with the one added last, onto a sum started from zero: `(0 + ∑ 1) + 1`. -/
theorem zero_add_sum_ones_add_one {ι : Type} (s : Finset ι) (f : ι → EReal) (h : ∀ j ∈ s, f j = 1) :
    ∃ r : ℝ, 1 ≤ r ∧ (0 + ∑ j ∈ s, f j) + 1 = (r : EReal) :=
  ⟨s.card + 1, by simp, by rw [zero_add, sum_ones s f h, EReal.coe_add, EReal.coe_one]⟩

end Cert.LibReal

end
-- ==== Proof.PreReal.lean ====
/-
From the precondition to real entries.

The precondition is a program of its own: for each float argument, the test |x| < +inf at every entry, all entries'
answers joined by "and" into one bit, and the eleven bits joined by "and" again; it states that the final bit is 1.
A conjunction that is 1 has both sides 1, so each argument's joined bit is 1; a join by "and" over all entries into a
single bit that is 1 had a 1 at every entry; and an extended real x with max (x, −x) < +inf is neither infinity, that is,
a real number. Hence every entry of every float argument is the reading of a real number. The two integer arguments
carry no condition.
-/
import proofs.«109724_j81406810128840_1_alg».proof.Defs
import proofs.«109724_j81406810128840_1_alg».proof.Proof.Gen.Pre_finite_inputs
import proofs.«109724_j81406810128840_1_alg».proof.Proof.LibReal
import Idealize.ShloMosaic.Lib.ReduceAll
import Idealize.ShloMosaic.Lib.ValueIdx

noncomputable section

namespace Cert.Bridge

open Idealize.ShloMosaic Idealize.SL.Sem Cert.LibReal

/-- The rank-0 shape has one index. -/
instance subsingleton_scalarIdx : Subsingleton Cert.Pre_finite_inputs.S_.Idx := ⟨fun a b => funext fun d => d.elim0⟩

/-- One argument's test: if the "and" over all entries of |x| < +inf is 1, every entry of x is a real number. -/
theorem real_of_all_lt_inf {S : Shape} {axes : List (Fin S.rank)} (x : FVec Ideal S .f32)
    (bc : Cert.Pre_finite_inputs.S_.BroadcastsInDim S (![] : Fin 0 → Fin S.rank)) (rt : S.ReducesTo axes Cert.Pre_finite_inputs.S_)
    (hS : 0 < Cert.Pre_finite_inputs.S_.numel) (init : Cert.Pre_finite_inputs.S_.Idx → BitVec 1) (j : Cert.Pre_finite_inputs.S_.Idx)
    (e : Host.reduce IntOp.andi (cmpf .olt (Host.absf x) (broadcastInDim S ![] bc (constant Cert.Pre_finite_inputs.S_ .f32 0x7F800000#32))) init rt hS j = 1#1)
    (i : S.Idx) : IsReal (x i) := by
  have h1 := Host.reduce_andi_all _ init rt hS j e i
  have h2 : Ideal.cmp .olt (max (x i) (-(x i))) (Ideal.ofBits .f32 0x7F800000#32) = 1#1 := h1
  have h3 := Cert.LibExtReal.lt_of_cmp_olt h2
  rw [Cert.LibExtReal.ofBits_inf] at h3
  exact Cert.LibExtReal.real_of_abs_lt_top _ h3

section
variable [Cert.Pre_finite_inputs.Facts]
open Cert.Pre_finite_inputs Cert.Pre_finite_inputs.Facts

/-- The precondition's program answering 1 makes every entry of every float argument a real number. -/
theorem real_of_fn (a0 : FVec Ideal Cert.Pre_finite_inputs.S100000x32 .f32) (a1 : IVec Cert.Pre_finite_inputs.S2x1600000 32) (a2 : IVec Cert.Pre_finite_inputs.S100000 32) (a3 : FVec Ideal Cert.Pre_finite_inputs.S32x64 .f32) (a4 : FVec Ideal Cert.Pre_finite_inputs.S64 .f32) (a5 : FVec Ideal Cert.Pre_finite_inputs.S4x64x64 .f32) (a6 a7 a8 : FVec Ideal Cert.Pre_finite_inputs.S4x64 .f32) (a9 : FVec Ideal Cert.Pre_finite_inputs.S64x32 .f32) (a10 : FVec Ideal Cert.Pre_finite_inputs.S32 .f32) (a11 : FVec Ideal Cert.Pre_finite_inputs.S32x1 .f32) (a12 : FVec Ideal Cert.Pre_finite_inputs.S1 .f32)
    (h : Cert.Pre_finite_inputs.fn (F := Ideal) a0 a1 a2 a3 a4 a5 a6 a7 a8 a9 a10 a11 a12 = fun _ => 1#1) :
    (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  have h0 := congrFun h ValueIdx.ix0
  dsimp only [Cert.Pre_finite_inputs.fn, Cert.Pre_finite_inputs.fn_part1, Cert.Pre_finite_inputs.fn_part2, Cert.Pre_finite_inputs.fn_part3, andi] at h0
  obtain ⟨h0, t12⟩ := IntOp.andi_eq_one.1 h0
  obtain ⟨h0, t11⟩ := IntOp.andi_eq_one.1 h0
  obtain ⟨h0, t10⟩ := IntOp.andi_eq_one.1 h0
  obtain ⟨h0, t9⟩ := IntOp.andi_eq_one.1 h0
  obtain ⟨h0, t8⟩ := IntOp.andi_eq_one.1 h0
  obtain ⟨h0, t7⟩ := IntOp.andi_eq_one.1 h0
  obtain ⟨h0, t6⟩ := IntOp.andi_eq_one.1 h0
  obtain ⟨h0, t5⟩ := IntOp.andi_eq_one.1 h0
  obtain ⟨h0, t4⟩ := IntOp.andi_eq_one.1 h0
  obtain ⟨t0, t3⟩ := IntOp.andi_eq_one.1 h0
  exact ⟨fun i => real_of_all_lt_inf a0 _ _ _ _ _ t0 i,
    fun i => real_of_all_lt_inf a3 _ _ _ _ _ t3 i,
    fun i => real_of_all_lt_inf a4 _ _ _ _ _ t4 i,
    fun i => real_of_all_lt_inf a5 _ _ _ _ _ t5 i,
    fun i => real_of_all_lt_inf a6 _ _ _ _ _ t6 i,
    fun i => real_of_all_lt_inf a7 _ _ _ _ _ t7 i,
    fun i => real_of_all_lt_inf a8 _ _ _ _ _ t8 i,
    fun i => real_of_all_lt_inf a9 _ _ _ _ _ t9 i,
    fun i => real_of_all_lt_inf a10 _ _ _ _ _ t10 i,
    fun i => real_of_all_lt_inf a11 _ _ _ _ _ t11 i,
    fun i => real_of_all_lt_inf a12 _ _ _ _ _ t12 i⟩

end

/-- Under the precondition, on every device, every entry of every float argument of the idealized kernel is a real
    number (in the arguments' order: 0, 3, 4, …, 12). -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S100000x32.Idx, IsReal (m ((c.tc : Thread Cert.KernelIdeal.nD Cert.KernelIdeal.τ).loc Cert.KernelIdeal.main_arg0) i))
    ∧ (∀ i : Cert.KernelIdeal.S32x64.Idx, IsReal (m ((c.tc : Thread Cert.KernelIdeal.nD Cert.KernelIdeal.τ).loc Cert.KernelIdeal.main_arg3) i))
    ∧ (∀ i : Cert.KernelIdeal.S64.Idx, IsReal (m ((c.tc : Thread Cert.KernelIdeal.nD Cert.KernelIdeal.τ).loc Cert.KernelIdeal.main_arg4) i))
    ∧ (∀ i : Cert.KernelIdeal.S4x64x64.Idx, IsReal (m ((c.tc : Thread Cert.KernelIdeal.nD Cert.KernelIdeal.τ).loc Cert.KernelIdeal.main_arg5) i))
    ∧ (∀ i : Cert.KernelIdeal.S4x64.Idx, IsReal (m ((c.tc : Thread Cert.KernelIdeal.nD Cert.KernelIdeal.τ).loc Cert.KernelIdeal.main_arg6) i))
    ∧ (∀ i : Cert.KernelIdeal.S4x64.Idx, IsReal (m ((c.tc : Thread Cert.KernelIdeal.nD Cert.KernelIdeal.τ).loc Cert.KernelIdeal.main_arg7) i))
    ∧ (∀ i : Cert.KernelIdeal.S4x64.Idx, IsReal (m ((c.tc : Thread Cert.KernelIdeal.nD Cert.KernelIdeal.τ).loc Cert.KernelIdeal.main_arg8) i))
    ∧ (∀ i : Cert.KernelIdeal.S64x32.Idx, IsReal (m ((c.tc : Thread Cert.KernelIdeal.nD Cert.KernelIdeal.τ).loc Cert.KernelIdeal.main_arg9) i))
    ∧ (∀ i : Cert.KernelIdeal.S32.Idx, IsReal (m ((c.tc : Thread Cert.KernelIdeal.nD Cert.KernelIdeal.τ).loc Cert.KernelIdeal.main_arg10) i))
    ∧ (∀ i : Cert.KernelIdeal.S32x1.Idx, IsReal (m ((c.tc : Thread Cert.KernelIdeal.nD Cert.KernelIdeal.τ).loc Cert.KernelIdeal.main_arg11) i))
    ∧ (∀ i : Cert.KernelIdeal.S1.Idx, IsReal (m ((c.tc : Thread Cert.KernelIdeal.nD Cert.KernelIdeal.τ).loc Cert.KernelIdeal.main_arg12) i)) :=
  @real_of_fn Cert.Pre_finite_inputs.Gen.facts _ _ _ _ _ _ _ _ _ _ _ _ _ (h c)

theorem real_arg0 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S100000x32.Idx) : IsReal (m ((c.tc : Thread Cert.KernelIdeal.nD Cert.KernelIdeal.τ).loc Cert.KernelIdeal.main_arg0) i) :=
  (real_args m h c).1 i

theorem real_arg3 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S32x64.Idx) : IsReal (m ((c.tc : Thread Cert.KernelIdeal.nD Cert.KernelIdeal.τ).loc Cert.KernelIdeal.main_arg3) i) :=
  (real_args m h c).2.1 i

theorem real_arg4 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S64.Idx) : IsReal (m ((c.tc : Thread Cert.KernelIdeal.nD Cert.KernelIdeal.τ).loc Cert.KernelIdeal.main_arg4) i) :=
  (real_args m h c).2.2.1 i

theorem real_arg5 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S4x64x64.Idx) : IsReal (m ((c.tc : Thread Cert.KernelIdeal.nD Cert.KernelIdeal.τ).loc Cert.KernelIdeal.main_arg5) i) :=
  (real_args m h c).2.2.2.1 i

theorem real_arg6 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S4x64.Idx) : IsReal (m ((c.tc : Thread Cert.KernelIdeal.nD Cert.KernelIdeal.τ).loc Cert.KernelIdeal.main_arg6) i) :=
  (real_args m h c).2.2.2.2.1 i

theorem real_arg7 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S4x64.Idx) : IsReal (m ((c.tc : Thread Cert.KernelIdeal.nD Cert.KernelIdeal.τ).loc Cert.KernelIdeal.main_arg7) i) :=
  (real_args m h c).2.2.2.2.2.1 i

theorem real_arg8 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S4x64.Idx) : IsReal (m ((c.tc : Thread Cert.KernelIdeal.nD Cert.KernelIdeal.τ).loc Cert.KernelIdeal.main_arg8) i) :=
  (real_args m h c).2.2.2.2.2.2.1 i

theorem real_arg9 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S64x32.Idx) : IsReal (m ((c.tc : Thread Cert.KernelIdeal.nD Cert.KernelIdeal.τ).loc Cert.KernelIdeal.main_arg9) i) :=
  (real_args m h c).2.2.2.2.2.2.2.1 i

theorem real_arg10 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S32.Idx) : IsReal (m ((c.tc : Thread Cert.KernelIdeal.nD Cert.KernelIdeal.τ).loc Cert.KernelIdeal.main_arg10) i) :=
  (real_args m h c).2.2.2.2.2.2.2.2.1 i

theorem real_arg11 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S32x1.Idx) : IsReal (m ((c.tc : Thread Cert.KernelIdeal.nD Cert.KernelIdeal.τ).loc Cert.KernelIdeal.main_arg11) i) :=
  (real_args m h c).2.2.2.2.2.2.2.2.2.1 i

theorem real_arg12 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S1.Idx) : IsReal (m ((c.tc : Thread Cert.KernelIdeal.nD Cert.KernelIdeal.τ).loc Cert.KernelIdeal.main_arg12) i) :=
  (real_args m h c).2.2.2.2.2.2.2.2.2.2 i

end Cert.Bridge

end
-- ==== Proof.Assemble.lean ====
/-
The certificate's five claims, assembled.

The three frames: the kernel program and its idealization each run to the end with their argument arrays unchanged
(their generated frame theorems), and so does the reference (its run with the result dropped). The idealization rewrote no
operation, so "preserves" has nothing to say. For the value claim, both idealized programs are run from memories that agree
on the thirteen arguments: the kernel's run ends with its result buffer at the kernel's own whole-array function of the
arguments; the reference's run ends with its result at the reference's term of its arguments, which are the kernel's by
the agreement; and the two functions of the same thirteen arrays are equal once every entry of the float arguments that
the layers read is a real number — which the precondition says. The common value is the witness.
-/
import proofs.«109724_j81406810128840_1_alg».proof.Defs
import proofs.«109724_j81406810128840_1_alg».proof.Proof.Gen.Kernel.Frame
import proofs.«109724_j81406810128840_1_alg».proof.Proof.Gen.KernelIdeal.Frame
import proofs.«109724_j81406810128840_1_alg».proof.Proof.KRun
import proofs.«109724_j81406810128840_1_alg».proof.Proof.KValDefs
import proofs.«109724_j81406810128840_1_alg».proof.Proof.RefRun
import proofs.«109724_j81406810128840_1_alg».proof.Proof.PreReal

noncomputable section

namespace Cert.Proof.Parts

open Idealize.ShloMosaic Idealize.SL.Sem Cert.LibReal

/-- The thirteen argument arrays of the idealized kernel as launched on device `c`. -/
abbrev KArgs (m : (ℓ : Loc Cert.KernelIdeal.nD Cert.KernelIdeal.τ Cert.KernelIdeal.sig) → Buf (Elt Ideal) ℓ) (c : Dev Cert.KernelIdeal.nD) : Cert.KernelIdeal.KVal.Args :=
  ⟨m ((c.tc : Thread Cert.KernelIdeal.nD Cert.KernelIdeal.τ).loc Cert.KernelIdeal.main_arg0),
   m ((c.tc : Thread Cert.KernelIdeal.nD Cert.KernelIdeal.τ).loc Cert.KernelIdeal.main_arg1),
   m ((c.tc : Thread Cert.KernelIdeal.nD Cert.KernelIdeal.τ).loc Cert.KernelIdeal.main_arg2),
   m ((c.tc : Thread Cert.KernelIdeal.nD Cert.KernelIdeal.τ).loc Cert.KernelIdeal.main_arg3),
   m ((c.tc : Thread Cert.KernelIdeal.nD Cert.KernelIdeal.τ).loc Cert.KernelIdeal.main_arg4),
   m ((c.tc : Thread Cert.KernelIdeal.nD Cert.KernelIdeal.τ).loc Cert.KernelIdeal.main_arg5),
   m ((c.tc : Thread Cert.KernelIdeal.nD Cert.KernelIdeal.τ).loc Cert.KernelIdeal.main_arg6),
   m ((c.tc : Thread Cert.KernelIdeal.nD Cert.KernelIdeal.τ).loc Cert.KernelIdeal.main_arg7),
   m ((c.tc : Thread Cert.KernelIdeal.nD Cert.KernelIdeal.τ).loc Cert.KernelIdeal.main_arg8),
   m ((c.tc : Thread Cert.KernelIdeal.nD Cert.KernelIdeal.τ).loc Cert.KernelIdeal.main_arg9),
   m ((c.tc : Thread Cert.KernelIdeal.nD Cert.KernelIdeal.τ).loc Cert.KernelIdeal.main_arg10),
   m ((c.tc : Thread Cert.KernelIdeal.nD Cert.KernelIdeal.τ).loc Cert.KernelIdeal.main_arg11),
   m ((c.tc : Thread Cert.KernelIdeal.nD Cert.KernelIdeal.τ).loc Cert.KernelIdeal.main_arg12)⟩

/-- The kernel program runs to the end and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference. -/
theorem frame_ri : Cert.frame_ReferenceIdeal (hReferenceIdeal := Cert.ReferenceIdeal.Gen.facts) (hPre_finite_inputs := Cert.Pre_finite_inputs.Gen.facts) :=
  Cert.ReferenceIdeal.RefRun.frame

/-- The idealization rewrote nothing. -/
theorem preserves : Cert.preserves_Kernel_KernelIdeal := trivial

/-- The two idealized programs end with equal results: from the kernel's result as a function of its arguments (`hres`)
    and the equality of that function with the reference's term on real arguments (`hbridge`). -/
theorem algebraic_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W28 m ρ c (Proc.devRef .tc Cert.KernelIdeal.main_v179) = Cert.KernelIdeal.KVal.k_v179 (KArgs m c))
    (hbridge : ∀ A : Cert.KernelIdeal.KVal.Args, (∀ i, IsReal (A.a0 i)) → (∀ i, IsReal (A.a3 i)) → (∀ i, IsReal (A.a4 i)) → (∀ i, IsReal (A.a5 i)) → (∀ i, IsReal (A.a6 i)) → (∀ i, IsReal (A.a7 i)) → (∀ i, IsReal (A.a8 i)) →
      Cert.KernelIdeal.KVal.k_v179 A
        = Cert.ReferenceIdeal.RefRun.out (F := Ideal) A.a0 A.a1 A.a2 A.a3 A.a4 A.a5 A.a6 A.a7 A.a8 A.a9 A.a10 A.a11 A.a12) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.KVal.k_v179 (KArgs m c), ?_, ?_⟩
  · exact (θ_run (Cert.KernelIdeal.defs (F := Ideal)) _ _).mono
      (fun r h c => ⟨(h c).1.trans (hres m ρ c), (h c).2⟩) (Cert.KernelIdeal.KRun.run (F := Ideal) m ρ)
  · refine (θ_run (Cert.ReferenceIdeal.defs (F := Ideal)) _ _).mono (fun r h c => ⟨?_, (h c).2⟩)
      (Cert.ReferenceIdeal.RefRun.run m' ρ')
    obtain ⟨e0, e1, e2, e3, e4, e5, e6, e7, e8, e9, e10, e11, e12⟩ := hagree c
    refine (h c).1.trans ?_
    rw [e0, e1, e2, e3, e4, e5, e6, e7, e8, e9, e10, e11, e12]
    exact (hbridge (KArgs m c) (Cert.Bridge.real_arg0 m hpre c) (Cert.Bridge.real_arg3 m hpre c) (Cert.Bridge.real_arg4 m hpre c) (Cert.Bridge.real_arg5 m hpre c) (Cert.Bridge.real_arg6 m hpre c) (Cert.Bridge.real_arg7 m hpre c) (Cert.Bridge.real_arg8 m hpre c)).symm

/-- The whole claim, from the same two facts. -/
theorem claim_of
    (hres : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W28 m ρ c (Proc.devRef .tc Cert.KernelIdeal.main_v179) = Cert.KernelIdeal.KVal.k_v179 (KArgs m c))
    (hbridge : ∀ A : Cert.KernelIdeal.KVal.Args, (∀ i, IsReal (A.a0 i)) → (∀ i, IsReal (A.a3 i)) → (∀ i, IsReal (A.a4 i)) → (∀ i, IsReal (A.a5 i)) → (∀ i, IsReal (A.a6 i)) → (∀ i, IsReal (A.a7 i)) → (∀ i, IsReal (A.a8 i)) →
      Cert.KernelIdeal.KVal.k_v179 A
        = Cert.ReferenceIdeal.RefRun.out (F := Ideal) A.a0 A.a1 A.a2 A.a3 A.a4 A.a5 A.a6 A.a7 A.a8 A.a9 A.a10 A.a11 A.a12) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hres hbridge⟩

end Cert.Proof.Parts

end
-- ==== Proof.LibWrites.lean ====
/-
  Host operations that write only buffers numbered from `n` on.

  A straight line of host operations each of which writes one result buffer of its own, all of them
  numbered `n` or higher among the TensorCore references, leaves every reference numbered below `n` as
  it found it. With the program's arguments numbered first, this is "no host operation writes an
  argument".
-/
import Idealize.ShloMosaic.Lib.StableHlo.Run

noncomputable section

namespace Idealize.ShloMosaic.StableHlo

open Idealize.ShloMosaic.TcCoe

variable {τ : Topo} {sig : RefSig} {Val : EltTy → Type}

/-- Every buffer the operation writes is a TensorCore reference whose index is at least `n`. -/
def WritesFrom (n : ℕ) (op : HloOp τ sig Val) : Prop :=
  ∀ b ∈ op.writes, ∃ y : Ref sig .tc, b = Proc.devRef .tc y ∧ n ≤ y.idx.val

/-- A line of such operations leaves every reference numbered below `n` as it found it. -/
theorem after_below (n : ℕ) (ops : List (HloOp τ sig Val)) (W : Valuation τ sig Val)
    (h : ops.Forall (WritesFrom n)) (r : Ref sig .tc) (hr : r.idx.val < n) :
    after ops W (Proc.devRef .tc r) = W (Proc.devRef .tc r) :=
  after_of_forall_not_mem ops W fun op hop hb => by
    obtain ⟨y, e, hy⟩ := (List.forall_iff_forall_mem.mp h) op hop _ hb
    obtain rfl : r = y := Proc.devRef_injective _ e
    omega

/-- Any stretch cut from the front or the back of such a line is such a line. -/
theorem WritesFrom.take (n k : ℕ) (ops : List (HloOp τ sig Val)) (h : ops.Forall (WritesFrom n)) :
    (ops.take k).Forall (WritesFrom n) :=
  List.forall_iff_forall_mem.mpr fun op hop => (List.forall_iff_forall_mem.mp h) op (List.mem_of_mem_take hop)

theorem WritesFrom.drop (n k : ℕ) (ops : List (HloOp τ sig Val)) (h : ops.Forall (WritesFrom n)) :
    (ops.drop k).Forall (WritesFrom n) :=
  List.forall_iff_forall_mem.mpr fun op hop => (List.forall_iff_forall_mem.mp h) op (List.mem_of_mem_drop hop)

/-- One operation at a time over a literal line: the buffer written is the operation's own result. -/
macro "writes_own" : tactic =>
  `(tactic| (simp only [List.Forall]; repeat' constructor
             all_goals exact fun b hb => ⟨_, Finset.mem_singleton.mp hb, by decide⟩))

/-- Two lines one after the other. -/
theorem after_two : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_two l₁ l₂]

/-- A line run in two stretches. -/
theorem after_take_drop (k : ℕ) (ops : List (HloOp τ sig Val)) (W : Valuation τ sig Val) :
    after ops W = after (ops.drop k) (after (ops.take k) W) := by
  rw [← after_two, List.take_append_drop]

end Idealize.ShloMosaic.StableHlo

end
-- ==== Proof.KChain.lean ====
/-
  The host lines of the idealized kernel program between its regions, as pure functions.

  Each stretch of host operations between two regions is a straight line; what a buffer holds after the stretch is
  the composition of the operations that lead to it, applied to what the stretch found in the buffers it reads. The
  functions below are those compositions, one per buffer a later region or stretch consumes, spelt with exactly the
  operations of the program's text; the theorems say that the fold of a stretch over the contents at its start has,
  at that buffer, the function's value. Buffers are numbered in order of definition, so a stretch writes only
  buffers numbered from its first result on, and leaves every earlier buffer as it found it.
-/
import proofs.«109724_j81406810128840_1_alg».proof.Proof.Gen.KernelIdeal.Frame
import proofs.«109724_j81406810128840_1_alg».proof.Proof.LibWrites
import proofs.«109724_j81406810128840_1_alg».proof.Proof.KChainDefs

set_option maxRecDepth 16384
set_option maxHeartbeats 4000000

noncomputable section

namespace Cert.KernelIdeal.KChain

open Idealize.ShloMosaic Idealize.ShloMosaic.TcCoe Idealize.ShloMosaic.Tactic Idealize.ShloMosaic.StableHlo
open Cert.KernelIdeal Cert.KernelIdeal.Gen

variable {F : FTy → Type} [FloatOps F]

/-! ## Each stretch writes only its own results -/

theorem ho0_w : (hostOps0 : List (HloOp τ sig (Elt F))).Forall (WritesFrom 13) := by writes_own
theorem ho1_w : (hostOps1 : List (HloOp τ sig (Elt F))).Forall (WritesFrom 53) := by writes_own
theorem ho2_w : (hostOps2 : List (HloOp τ sig (Elt F))).Forall (WritesFrom 56) := by writes_own
theorem ho3_w : (hostOps3 : List (HloOp τ sig (Elt F))).Forall (WritesFrom 78) := by writes_own
theorem ho4_w : (hostOps4 : List (HloOp τ sig (Elt F))).Forall (WritesFrom 93) := by writes_own
theorem ho5_w : (hostOps5 : List (HloOp τ sig (Elt F))).Forall (WritesFrom 96) := by writes_own
theorem ho6_w : (hostOps6 : List (HloOp τ sig (Elt F))).Forall (WritesFrom 118) := by writes_own
theorem ho7_w : (hostOps7 : List (HloOp τ sig (Elt F))).Forall (WritesFrom 133) := by writes_own
theorem ho8_w : (hostOps8 : List (HloOp τ sig (Elt F))).Forall (WritesFrom 136) := by writes_own
theorem ho9_w : (hostOps9 : List (HloOp τ sig (Elt F))).Forall (WritesFrom 158) := by writes_own
theorem ho10_w : (hostOps10 : List (HloOp τ sig (Elt F))).Forall (WritesFrom 173) := by writes_own
theorem ho11_w : (hostOps11 : List (HloOp τ sig (Elt F))).Forall (WritesFrom 176) := by writes_own
theorem ho12_w : (hostOps12 : List (HloOp τ sig (Elt F))).Forall (WritesFrom 198) := by writes_own
theorem ho13_w : (hostOps13 : List (HloOp τ sig (Elt F))).Forall (WritesFrom 213) := by writes_own

variable (m : (ℓ : Loc nD τ sig) → Buf (Elt F) ℓ) (ρ : Dev nD → PrngReg) (c : Dev nD)

/-! ## What the stretches leave -/

theorem rd_v1 : W1 m ρ c (Proc.devRef .tc main_v1) = kf_v1 (W0 m ρ c (Proc.devRef .tc main_arg1)) := by
  show StableHlo.after hostOps0 (W0 m ρ c) (Proc.devRef .tc main_v1) = kf_v1 (W0 m ρ c (Proc.devRef .tc main_arg1))
  unfold kf_v1
  after_results
  try rfl

theorem rd_v3 : W1 m ρ c (Proc.devRef .tc main_v3) = kf_v3 (W0 m ρ c (Proc.devRef .tc main_arg1)) := by
  show StableHlo.after hostOps0 (W0 m ρ c) (Proc.devRef .tc main_v3) = kf_v3 (W0 m ρ c (Proc.devRef .tc main_arg1))
  unfold kf_v3
  after_results
  try rfl

theorem rd_v10 : W1 m ρ c (Proc.devRef .tc main_v10) = kf_v10 (W1 m ρ c (Proc.devRef .tc main_v3)) := by
  show StableHlo.after hostOps0 (W0 m ρ c) (Proc.devRef .tc main_v10) = kf_v10 (StableHlo.after hostOps0 (W0 m ρ c) (Proc.devRef .tc main_v3))
  unfold kf_v10
  after_results
  try rfl

theorem rd_v11 : W1 m ρ c (Proc.devRef .tc main_v11) = kf_v11 (W1 m ρ c (Proc.devRef .tc main_v10)) := by
  show StableHlo.after hostOps0 (W0 m ρ c) (Proc.devRef .tc main_v11) = kf_v11 (StableHlo.after hostOps0 (W0 m ρ c) (Proc.devRef .tc main_v10))
  unfold kf_v11
  after_results
  try rfl

theorem rd_v27 : W1 m ρ c (Proc.devRef .tc main_v27) = kf_v27 (W1 m ρ c (Proc.devRef .tc main_v10)) (W1 m ρ c (Proc.devRef .tc main_v1)) (W1 m ρ c (Proc.devRef .tc main_v3)) := by
  show StableHlo.after hostOps0 (W0 m ρ c) (Proc.devRef .tc main_v27) = kf_v27 (StableHlo.after hostOps0 (W0 m ρ c) (Proc.devRef .tc main_v10)) (StableHlo.after hostOps0 (W0 m ρ c) (Proc.devRef .tc main_v1)) (StableHlo.after hostOps0 (W0 m ρ c) (Proc.devRef .tc main_v3))
  unfold kf_v27
  after_results
  try rfl

theorem rd_v28 : W1 m ρ c (Proc.devRef .tc main_v28) = kf_v28 (W1 m ρ c (Proc.devRef .tc main_v1)) := by
  show StableHlo.after hostOps0 (W0 m ρ c) (Proc.devRef .tc main_v28) = kf_v28 (StableHlo.after hostOps0 (W0 m ρ c) (Proc.devRef .tc main_v1))
  unfold kf_v28
  after_results
  try rfl

theorem rd_v29 : W1 m ρ c (Proc.devRef .tc main_v29) = kf_v28 (W1 m ρ c (Proc.devRef .tc main_v3)) := by
  show StableHlo.after hostOps0 (W0 m ρ c) (Proc.devRef .tc main_v29) = kf_v28 (StableHlo.after hostOps0 (W0 m ρ c) (Proc.devRef .tc main_v3))
  unfold kf_v28
  after_results
  try rfl

theorem drop37_w : ((hostOps0 : List (HloOp τ sig (Elt F))).drop 37).Forall (WritesFrom 50) := by
  simp only [hostOps0, List.drop_succ_cons, List.drop_zero]
  writes_own

theorem rd_v30 : W1 m ρ c (Proc.devRef .tc main_v30) = kf_v30 (W1 m ρ c (Proc.devRef .tc main_v27)) (W1 m ρ c (Proc.devRef .tc main_v11)) := by
  have hd : ∀ b : Ref sig .tc, b.idx.val < 50 → W1 m ρ c (Proc.devRef .tc b) = StableHlo.after ((hostOps0 : List (HloOp τ sig (Elt F))).take 37) (W0 m ρ c) (Proc.devRef .tc b) := fun b hb => by
    show StableHlo.after hostOps0 (W0 m ρ c) _ = _
    rw [after_take_drop 37 hostOps0]
    exact after_below 50 _ _ drop37_w b hb
  rw [hd main_v27 (by decide), hd main_v11 (by decide)]
  show StableHlo.after hostOps0 (W0 m ρ c) (Proc.devRef .tc main_v30) = _
  rw [after_take_drop 37 hostOps0]
  generalize StableHlo.after ((hostOps0 : List (HloOp τ sig (Elt F))).take 37) (W0 m ρ c) = V
  simp only [hostOps0, List.drop_succ_cons, List.drop_zero]
  unfold kf_v30
  after_results
  try rfl

theorem rd_v31 : W1 m ρ c (Proc.devRef .tc main_v31) = kf_v31 (W0 m ρ c (Proc.devRef .tc main_arg4)) := by
  show StableHlo.after hostOps0 (W0 m ρ c) (Proc.devRef .tc main_v31) = kf_v31 (W0 m ρ c (Proc.devRef .tc main_arg4))
  unfold kf_v31
  after_results
  try rfl

theorem rd_v34 : W3 m ρ c (Proc.devRef .tc main_v34) = kf_v34 (W2 m ρ c (Proc.devRef .tc main_arg5)) := by
  show StableHlo.after hostOps1 (W2 m ρ c) (Proc.devRef .tc main_v34) = kf_v34 (W2 m ρ c (Proc.devRef .tc main_arg5))
  unfold kf_v34
  after_results
  try rfl

theorem rd_v48 : W5 m ρ c (Proc.devRef .tc main_v48) = kf_v48 (W4 m ρ c (Proc.devRef .tc main_v29)) (W4 m ρ c (Proc.devRef .tc main_v35)) (W4 m ρ c (Proc.devRef .tc main_v28)) (W4 m ρ c (Proc.devRef .tc main_v30)) := by
  show StableHlo.after hostOps2 (W4 m ρ c) (Proc.devRef .tc main_v48) = kf_v48 (W4 m ρ c (Proc.devRef .tc main_v29)) (W4 m ρ c (Proc.devRef .tc main_v35)) (W4 m ρ c (Proc.devRef .tc main_v28)) (W4 m ρ c (Proc.devRef .tc main_v30))
  unfold kf_v48
  after_results
  try rfl

theorem rd_v51 : W5 m ρ c (Proc.devRef .tc main_v51) = kf_v51 (W4 m ρ c (Proc.devRef .tc main_arg6)) := by
  show StableHlo.after hostOps2 (W4 m ρ c) (Proc.devRef .tc main_v51) = kf_v51 (W4 m ρ c (Proc.devRef .tc main_arg6))
  unfold kf_v51
  after_results
  try rfl

theorem rd_v54 : W7 m ρ c (Proc.devRef .tc main_v54) = kf_v54 (W6 m ρ c (Proc.devRef .tc main_v52_1)) := by
  show StableHlo.after hostOps3 (W6 m ρ c) (Proc.devRef .tc main_v54) = kf_v54 (W6 m ρ c (Proc.devRef .tc main_v52_1))
  unfold kf_v54
  after_results
  try rfl

theorem rd_v58 : W7 m ρ c (Proc.devRef .tc main_v58) = kf_v58 (W6 m ρ c (Proc.devRef .tc main_v52_2)) (W7 m ρ c (Proc.devRef .tc main_v54)) := by
  show StableHlo.after hostOps3 (W6 m ρ c) (Proc.devRef .tc main_v58) = kf_v58 (W6 m ρ c (Proc.devRef .tc main_v52_2)) (StableHlo.after hostOps3 (W6 m ρ c) (Proc.devRef .tc main_v54))
  unfold kf_v58
  after_results
  try rfl

theorem rd_v61 : W7 m ρ c (Proc.devRef .tc main_v61) = kf_v51 (W6 m ρ c (Proc.devRef .tc main_arg7)) := by
  show StableHlo.after hostOps3 (W6 m ρ c) (Proc.devRef .tc main_v61) = kf_v51 (W6 m ρ c (Proc.devRef .tc main_arg7))
  unfold kf_v51
  after_results
  try rfl

theorem rd_v64 : W7 m ρ c (Proc.devRef .tc main_v64) = kf_v51 (W6 m ρ c (Proc.devRef .tc main_arg8)) := by
  show StableHlo.after hostOps3 (W6 m ρ c) (Proc.devRef .tc main_v64) = kf_v51 (W6 m ρ c (Proc.devRef .tc main_arg8))
  unfold kf_v51
  after_results
  try rfl

theorem rd_v67 : W9 m ρ c (Proc.devRef .tc main_v67) = kf_v67 (W8 m ρ c (Proc.devRef .tc main_arg5)) := by
  show StableHlo.after hostOps4 (W8 m ρ c) (Proc.devRef .tc main_v67) = kf_v67 (W8 m ρ c (Proc.devRef .tc main_arg5))
  unfold kf_v67
  after_results
  try rfl

theorem rd_v81 : W11 m ρ c (Proc.devRef .tc main_v81) = kf_v48 (W10 m ρ c (Proc.devRef .tc main_v29)) (W10 m ρ c (Proc.devRef .tc main_v68)) (W10 m ρ c (Proc.devRef .tc main_v28)) (W10 m ρ c (Proc.devRef .tc main_v30)) := by
  show StableHlo.after hostOps5 (W10 m ρ c) (Proc.devRef .tc main_v81) = kf_v48 (W10 m ρ c (Proc.devRef .tc main_v29)) (W10 m ρ c (Proc.devRef .tc main_v68)) (W10 m ρ c (Proc.devRef .tc main_v28)) (W10 m ρ c (Proc.devRef .tc main_v30))
  unfold kf_v48
  after_results
  try rfl

theorem rd_v84 : W11 m ρ c (Proc.devRef .tc main_v84) = kf_v84 (W10 m ρ c (Proc.devRef .tc main_arg6)) := by
  show StableHlo.after hostOps5 (W10 m ρ c) (Proc.devRef .tc main_v84) = kf_v84 (W10 m ρ c (Proc.devRef .tc main_arg6))
  unfold kf_v84
  after_results
  try rfl

theorem rd_v87 : W13 m ρ c (Proc.devRef .tc main_v87) = kf_v54 (W12 m ρ c (Proc.devRef .tc main_v85_1)) := by
  show StableHlo.after hostOps6 (W12 m ρ c) (Proc.devRef .tc main_v87) = kf_v54 (W12 m ρ c (Proc.devRef .tc main_v85_1))
  unfold kf_v54
  after_results
  try rfl

theorem rd_v91 : W13 m ρ c (Proc.devRef .tc main_v91) = kf_v58 (W12 m ρ c (Proc.devRef .tc main_v85_2)) (W13 m ρ c (Proc.devRef .tc main_v87)) := by
  show StableHlo.after hostOps6 (W12 m ρ c) (Proc.devRef .tc main_v91) = kf_v58 (W12 m ρ c (Proc.devRef .tc main_v85_2)) (StableHlo.after hostOps6 (W12 m ρ c) (Proc.devRef .tc main_v87))
  unfold kf_v58
  after_results
  try rfl

theorem rd_v94 : W13 m ρ c (Proc.devRef .tc main_v94) = kf_v84 (W12 m ρ c (Proc.devRef .tc main_arg7)) := by
  show StableHlo.after hostOps6 (W12 m ρ c) (Proc.devRef .tc main_v94) = kf_v84 (W12 m ρ c (Proc.devRef .tc main_arg7))
  unfold kf_v84
  after_results
  try rfl

theorem rd_v97 : W13 m ρ c (Proc.devRef .tc main_v97) = kf_v84 (W12 m ρ c (Proc.devRef .tc main_arg8)) := by
  show StableHlo.after hostOps6 (W12 m ρ c) (Proc.devRef .tc main_v97) = kf_v84 (W12 m ρ c (Proc.devRef .tc main_arg8))
  unfold kf_v84
  after_results
  try rfl

theorem rd_v100 : W15 m ρ c (Proc.devRef .tc main_v100) = kf_v100 (W14 m ρ c (Proc.devRef .tc main_arg5)) := by
  show StableHlo.after hostOps7 (W14 m ρ c) (Proc.devRef .tc main_v100) = kf_v100 (W14 m ρ c (Proc.devRef .tc main_arg5))
  unfold kf_v100
  after_results
  try rfl

theorem rd_v114 : W17 m ρ c (Proc.devRef .tc main_v114) = kf_v48 (W16 m ρ c (Proc.devRef .tc main_v29)) (W16 m ρ c (Proc.devRef .tc main_v101)) (W16 m ρ c (Proc.devRef .tc main_v28)) (W16 m ρ c (Proc.devRef .tc main_v30)) := by
  show StableHlo.after hostOps8 (W16 m ρ c) (Proc.devRef .tc main_v114) = kf_v48 (W16 m ρ c (Proc.devRef .tc main_v29)) (W16 m ρ c (Proc.devRef .tc main_v101)) (W16 m ρ c (Proc.devRef .tc main_v28)) (W16 m ρ c (Proc.devRef .tc main_v30))
  unfold kf_v48
  after_results
  try rfl

theorem rd_v117 : W17 m ρ c (Proc.devRef .tc main_v117) = kf_v117 (W16 m ρ c (Proc.devRef .tc main_arg6)) := by
  show StableHlo.after hostOps8 (W16 m ρ c) (Proc.devRef .tc main_v117) = kf_v117 (W16 m ρ c (Proc.devRef .tc main_arg6))
  unfold kf_v117
  after_results
  try rfl

theorem rd_v120 : W19 m ρ c (Proc.devRef .tc main_v120) = kf_v54 (W18 m ρ c (Proc.devRef .tc main_v118_1)) := by
  show StableHlo.after hostOps9 (W18 m ρ c) (Proc.devRef .tc main_v120) = kf_v54 (W18 m ρ c (Proc.devRef .tc main_v118_1))
  unfold kf_v54
  after_results
  try rfl

theorem rd_v124 : W19 m ρ c (Proc.devRef .tc main_v124) = kf_v58 (W18 m ρ c (Proc.devRef .tc main_v118_2)) (W19 m ρ c (Proc.devRef .tc main_v120)) := by
  show StableHlo.after hostOps9 (W18 m ρ c) (Proc.devRef .tc main_v124) = kf_v58 (W18 m ρ c (Proc.devRef .tc main_v118_2)) (StableHlo.after hostOps9 (W18 m ρ c) (Proc.devRef .tc main_v120))
  unfold kf_v58
  after_results
  try rfl

theorem rd_v127 : W19 m ρ c (Proc.devRef .tc main_v127) = kf_v117 (W18 m ρ c (Proc.devRef .tc main_arg7)) := by
  show StableHlo.after hostOps9 (W18 m ρ c) (Proc.devRef .tc main_v127) = kf_v117 (W18 m ρ c (Proc.devRef .tc main_arg7))
  unfold kf_v117
  after_results
  try rfl

theorem rd_v130 : W19 m ρ c (Proc.devRef .tc main_v130) = kf_v117 (W18 m ρ c (Proc.devRef .tc main_arg8)) := by
  show StableHlo.after hostOps9 (W18 m ρ c) (Proc.devRef .tc main_v130) = kf_v117 (W18 m ρ c (Proc.devRef .tc main_arg8))
  unfold kf_v117
  after_results
  try rfl

theorem rd_v133 : W21 m ρ c (Proc.devRef .tc main_v133) = kf_v133 (W20 m ρ c (Proc.devRef .tc main_arg5)) := by
  show StableHlo.after hostOps10 (W20 m ρ c) (Proc.devRef .tc main_v133) = kf_v133 (W20 m ρ c (Proc.devRef .tc main_arg5))
  unfold kf_v133
  after_results
  try rfl

theorem rd_v147 : W23 m ρ c (Proc.devRef .tc main_v147) = kf_v48 (W22 m ρ c (Proc.devRef .tc main_v29)) (W22 m ρ c (Proc.devRef .tc main_v134)) (W22 m ρ c (Proc.devRef .tc main_v28)) (W22 m ρ c (Proc.devRef .tc main_v30)) := by
  show StableHlo.after hostOps11 (W22 m ρ c) (Proc.devRef .tc main_v147) = kf_v48 (W22 m ρ c (Proc.devRef .tc main_v29)) (W22 m ρ c (Proc.devRef .tc main_v134)) (W22 m ρ c (Proc.devRef .tc main_v28)) (W22 m ρ c (Proc.devRef .tc main_v30))
  unfold kf_v48
  after_results
  try rfl

theorem rd_v150 : W23 m ρ c (Proc.devRef .tc main_v150) = kf_v150 (W22 m ρ c (Proc.devRef .tc main_arg6)) := by
  show StableHlo.after hostOps11 (W22 m ρ c) (Proc.devRef .tc main_v150) = kf_v150 (W22 m ρ c (Proc.devRef .tc main_arg6))
  unfold kf_v150
  after_results
  try rfl

theorem rd_v153 : W25 m ρ c (Proc.devRef .tc main_v153) = kf_v54 (W24 m ρ c (Proc.devRef .tc main_v151_1)) := by
  show StableHlo.after hostOps12 (W24 m ρ c) (Proc.devRef .tc main_v153) = kf_v54 (W24 m ρ c (Proc.devRef .tc main_v151_1))
  unfold kf_v54
  after_results
  try rfl

theorem rd_v157 : W25 m ρ c (Proc.devRef .tc main_v157) = kf_v58 (W24 m ρ c (Proc.devRef .tc main_v151_2)) (W25 m ρ c (Proc.devRef .tc main_v153)) := by
  show StableHlo.after hostOps12 (W24 m ρ c) (Proc.devRef .tc main_v157) = kf_v58 (W24 m ρ c (Proc.devRef .tc main_v151_2)) (StableHlo.after hostOps12 (W24 m ρ c) (Proc.devRef .tc main_v153))
  unfold kf_v58
  after_results
  try rfl

theorem rd_v160 : W25 m ρ c (Proc.devRef .tc main_v160) = kf_v150 (W24 m ρ c (Proc.devRef .tc main_arg7)) := by
  show StableHlo.after hostOps12 (W24 m ρ c) (Proc.devRef .tc main_v160) = kf_v150 (W24 m ρ c (Proc.devRef .tc main_arg7))
  unfold kf_v150
  after_results
  try rfl

theorem rd_v163 : W25 m ρ c (Proc.devRef .tc main_v163) = kf_v150 (W24 m ρ c (Proc.devRef .tc main_arg8)) := by
  show StableHlo.after hostOps12 (W24 m ρ c) (Proc.devRef .tc main_v163) = kf_v150 (W24 m ρ c (Proc.devRef .tc main_arg8))
  unfold kf_v150
  after_results
  try rfl

theorem rd_v176 : W27 m ρ c (Proc.devRef .tc main_v176) = kf_v176 (W26 m ρ c (Proc.devRef .tc main_arg2)) (W26 m ρ c (Proc.devRef .tc main_v164)) := by
  show StableHlo.after hostOps13 (W26 m ρ c) (Proc.devRef .tc main_v176) = kf_v176 (W26 m ρ c (Proc.devRef .tc main_arg2)) (W26 m ρ c (Proc.devRef .tc main_v164))
  unfold kf_v176
  after_results
  try rfl

theorem rd_v177 : W27 m ρ c (Proc.devRef .tc main_v177) = kf_v177 (W26 m ρ c (Proc.devRef .tc main_arg10)) := by
  show StableHlo.after hostOps13 (W26 m ρ c) (Proc.devRef .tc main_v177) = kf_v177 (W26 m ρ c (Proc.devRef .tc main_arg10))
  unfold kf_v177
  after_results
  try rfl

theorem rd_v178 : W27 m ρ c (Proc.devRef .tc main_v178) = kf_v178 (W26 m ρ c (Proc.devRef .tc main_arg12)) := by
  show StableHlo.after hostOps13 (W26 m ρ c) (Proc.devRef .tc main_v178) = kf_v178 (W26 m ρ c (Proc.devRef .tc main_arg12))
  unfold kf_v178
  after_results
  try rfl

end Cert.KernelIdeal.KChain

end
-- ==== Proof.LibRegARowBlocks.lean ====
/-
  Row blocks of the dense stages of a network, over the extended reals.

  An [M, N] array cut into blocks of m consecutive rows (all columns) is processed block by block: the block of
  rows r0 .. r0 + m - 1 of the input gives the same rows of the output, for every stage that works row by row —
  a matrix product with a whole weight, a bias row added to every row, a rectifier, and any entry-by-entry
  combination of row blocks with whole [1, N] rows. This file says what "the rows from r0 on" means
  (`IsRows`: the block's entry (a, k) is the array's entry (r0 + a, k), stated on coordinates so that no index
  has to be built) and proves that each dense stage carries row blocks to row blocks.
-/
import proofs.«109724_j81406810128840_1_alg».proof.Proof.LibPlainDense

noncomputable section

namespace Cert.RowBlocks

open Idealize.ShloMosaic Idealize.ShloMosaic.ValueIdx Cert.Gcn Cert.LibDense

/-- `xb` holds the rows of `X` from row `r0` on: its entry at (a, k) is `X`'s entry at (r0 + a, k). -/
def IsRows {M N m : ℕ} (r0 : ℕ) (X : (⟨2, ![M, N]⟩ : Shape).Idx → EReal) (xb : (⟨2, ![m, N]⟩ : Shape).Idx → EReal) : Prop :=
  ∀ (y : (⟨2, ![m, N]⟩ : Shape).Idx) (i : (⟨2, ![M, N]⟩ : Shape).Idx),
    (i 0).val = r0 + (y 0).val → (i 1).val = (y 1).val → xb y = X i

/-- Two indices of one array with the same coordinates are equal. -/
theorem idx2_ext {M N : ℕ} (i i' : (⟨2, ![M, N]⟩ : Shape).Idx) (h0 : (i 0).val = (i' 0).val) (h1 : (i 1).val = (i' 1).val) :
    i = i' :=
  funext fun a => Fin.ext (by
    match a with
    | ⟨0, _⟩ => exact h0
    | ⟨1, _⟩ => exact h1)

/-- The product of a row block with a whole weight is the same rows of the product. -/
theorem mm_rows {M K N m : ℕ} {r0 : ℕ} {X : (⟨2, ![M, K]⟩ : Shape).Idx → EReal} {xb : (⟨2, ![m, K]⟩ : Shape).Idx → EReal}
    (h : IsRows r0 X xb) (W : (⟨2, ![K, N]⟩ : Shape).Idx → EReal) : IsRows r0 (mm X W) (mm xb W) := by
  intro y i h0 h1
  show ∑ k : Fin K, xb (ix2 (y 0) k) * W (ix2 k (y 1)) = ∑ k : Fin K, X (ix2 (i 0) k) * W (ix2 k (i 1))
  refine Finset.sum_congr rfl fun k _ => ?_
  have e1 : (ix2 k (y 1) : (⟨2, ![K, N]⟩ : Shape).Idx) = ix2 k (i 1) := idx2_ext _ _ rfl h1.symm
  exact congrArg₂ (fun a b : EReal => a * b) (h (ix2 (y 0) k) (ix2 (i 0) k) h0 rfl) (congrArg W e1)

/-- A bias row added to a row block is the same rows of the biased array. -/
theorem addRow_rows {M N m : ℕ} {r0 : ℕ} {A : (⟨2, ![M, N]⟩ : Shape).Idx → EReal} {ab : (⟨2, ![m, N]⟩ : Shape).Idx → EReal}
    (h : IsRows r0 A ab) (B : (⟨2, ![1, N]⟩ : Shape).Idx → EReal) : IsRows r0 (addRow A B) (addRow ab B) := by
  intro y i h0 h1
  have e1 : (ix2 (0 : Fin 1) (y 1) : (⟨2, ![1, N]⟩ : Shape).Idx) = ix2 (0 : Fin 1) (i 1) := idx2_ext _ _ rfl h1.symm
  show ab y + B (ix2 (0 : Fin 1) (y 1)) = A i + B (ix2 (0 : Fin 1) (i 1))
  exact congrArg₂ (fun a b : EReal => a + b) (h y i h0 h1) (congrArg B e1)

/-- The same with the block's weight given as equal to the whole weight. -/
theorem mm_rows_of_eq {M K N m : ℕ} {r0 : ℕ} {X : (⟨2, ![M, K]⟩ : Shape).Idx → EReal} {xb : (⟨2, ![m, K]⟩ : Shape).Idx → EReal}
    (h : IsRows r0 X xb) {W wb : (⟨2, ![K, N]⟩ : Shape).Idx → EReal} (hw : wb = W) : IsRows r0 (mm X W) (mm xb wb) := by
  subst hw; exact mm_rows h _

/-- The same with the block's bias row given as equal to the whole bias row. -/
theorem addRow_rows_of_eq {M N m : ℕ} {r0 : ℕ} {A : (⟨2, ![M, N]⟩ : Shape).Idx → EReal} {ab : (⟨2, ![m, N]⟩ : Shape).Idx → EReal}
    (h : IsRows r0 A ab) {B bb : (⟨2, ![1, N]⟩ : Shape).Idx → EReal} (hb : bb = B) : IsRows r0 (addRow A B) (addRow ab bb) := by
  subst hb; exact addRow_rows h _

/-- The rectifier of a row block is the same rows of the rectified array. -/
theorem relu_rows {M N m : ℕ} {r0 : ℕ} {A : (⟨2, ![M, N]⟩ : Shape).Idx → EReal} {ab : (⟨2, ![m, N]⟩ : Shape).Idx → EReal}
    (h : IsRows r0 A ab) : IsRows r0 (relu A) (relu ab) := by
  intro y i h0 h1
  show max (ab y) (Ideal.ofBits .f32 0x00000000#32) = max (A i) (Ideal.ofBits .f32 0x00000000#32)
  exact congrArg (fun a : EReal => max a (Ideal.ofBits .f32 0x00000000#32)) (h y i h0 h1)

/-- An array is its own rows from row 0 on. -/
theorem isRows_self {M N : ℕ} (X : (⟨2, ![M, N]⟩ : Shape).Idx → EReal) : IsRows 0 X X := by
  intro y i h0 h1
  exact congrArg X (idx2_ext _ _ (by omega) h1.symm)

end Cert.RowBlocks

end
-- ==== Proof.RegAPay.lean ====
/-
  The stored values of the network's dense stages, as functions of the blocks a point loads.

  Each dense stage stores, at every point, one value computed from the blocks it loaded. Read over the extended
  reals, a cast between float formats and a re-layout to the same shape are the identity, the matrix unit's product
  into a zero accumulator is the matrix product, a [1, N] row broadcast over the rows and added is the bias-row
  addition, and a maximum with a broadcast zero is the rectifier. So:

    the input stage stores          x · W + b,
    a weight stage stores           x · W,
    a normalisation stage stores    max(((a - mean) · rsqrt(var + ε)) · γ + β, 0) + r   entry by entry,
    the read-out stage stores       max(p · W1 + b1, 0) · W2 + b2.
-/
import proofs.«109724_j81406810128840_1_alg».proof.Proof.Gen.KernelIdeal.Skeleton
import proofs.«109724_j81406810128840_1_alg».proof.Proof.LibPlainDense
import proofs.«109724_j81406810128840_1_alg».proof.Proof.RegASpec
import Idealize.ShloMosaic.Lib.Pipeline.Value

noncomputable section

namespace Cert.KernelIdeal.RegVal

open Cert.KernelIdeal Cert.KernelIdeal.Gen Idealize.ShloMosaic Idealize.ShloMosaic.ValueIdx
open Cert.Gcn Cert.RegSpec

/-- The offsets of a load or store of a whole rank-2 buffer are zero. -/
theorem hz2 : (![0, 0] : Fin 2 → Nat) = fun _ => 0 := funext fun a => by fin_cases a <;> rfl

/-- The input stage's stored value: the row block times the weight, plus the bias row. -/
theorem pay0_eq (x0 : Vec Ideal S5000x32 .f32) (x1 : Vec Ideal S32x64 .f32) (x2 : Vec Ideal S1x64 .f32) :
    k0_pay1 (F := Ideal) x0 x1 x2 = addRow (mm x0 x1) x2 := by
  have e2 : shapeCast S1x64 x2 shapeCasts_S1x64_S1x64 = x2 := shapeCast_self x2 _
  have m1 : matmul (F := Ideal) dot_S5000x32_S32x64_S5000x64_1_0_0_1_n_n none (truncf .bf16 x0 bitsLt_bf16_f32)
      (truncf .bf16 x1 bitsLt_bf16_f32) (constant (F := Ideal) S5000x64 .f32 0x00000000#32) = mm x0 x1 :=
    matmul_eq_mm x0 x1 bitsLt_bf16_f32 bitsLt_bf16_f32
  show addf (matmul (F := Ideal) dot_S5000x32_S32x64_S5000x64_1_0_0_1_n_n none (truncf .bf16 x0 bitsLt_bf16_f32)
        (truncf .bf16 x1 bitsLt_bf16_f32) (constant (F := Ideal) S5000x64 .f32 0x00000000#32))
      (broadcastTo S5000x64 (shapeCast S1x64 x2 shapeCasts_S1x64_S1x64) broadcasts_S1x64_S5000x64) = addRow (mm x0 x1) x2
  rw [e2, m1]
  exact broadcastTo_row x2 broadcasts_S1x64_S5000x64 (mm x0 x1)

/-- A weight stage's stored value: the row block times the weight. -/
theorem payW_eq (x0 : Vec Ideal S5000x64 .f32) (x1 : Vec Ideal S64x64 .f32) :
    matmul (F := Ideal) dot_S5000x64_S64x64_S5000x64_1_0_0_1_n_n none
      (truncf .bf16 (shapeCast S5000x64 x0 shapeCasts_S5000x64_S5000x64) bitsLt_bf16_f32)
      (truncf .bf16 (shapeCast S64x64 x1 shapeCasts_S64x64_S64x64) bitsLt_bf16_f32)
      (constant (F := Ideal) S5000x64 .f32 0x00000000#32) = mm x0 x1 := by
  have e0 : shapeCast S5000x64 x0 shapeCasts_S5000x64_S5000x64 = x0 := shapeCast_self x0 _
  have e1 : shapeCast S64x64 x1 shapeCasts_S64x64_S64x64 = x1 := shapeCast_self x1 _
  rw [e0, e1]
  exact matmul_eq_mm x0 x1 bitsLt_bf16_f32 bitsLt_bf16_f32

theorem pay1_eq (x0 : Vec Ideal S5000x64 .f32) (x1 : Vec Ideal S64x64 .f32) : k1_pay1 (F := Ideal) x0 x1 = mm x0 x1 := payW_eq x0 x1
theorem pay4_eq (x0 : Vec Ideal S5000x64 .f32) (x1 : Vec Ideal S64x64 .f32) : k4_pay1 (F := Ideal) x0 x1 = mm x0 x1 := payW_eq x0 x1
theorem pay7_eq (x0 : Vec Ideal S5000x64 .f32) (x1 : Vec Ideal S64x64 .f32) : k7_pay1 (F := Ideal) x0 x1 = mm x0 x1 := payW_eq x0 x1
theorem pay10_eq (x0 : Vec Ideal S5000x64 .f32) (x1 : Vec Ideal S64x64 .f32) : k10_pay1 (F := Ideal) x0 x1 = mm x0 x1 := payW_eq x0 x1

/-- A normalisation stage's stored value, entry by entry: the four [1, 64] rows are read at the entry's column. -/
theorem payN_eq (a : Vec Ideal S5000x64 .f32) (mean var gamma beta : Vec Ideal S1x64 .f32) (r : Vec Ideal S5000x64 .f32) :
    addf (maximumf (addf (mulf (mulf (subf (shapeCast S5000x64 a shapeCasts_S5000x64_S5000x64)
              (broadcastTo S5000x64 (shapeCast S1x64 mean shapeCasts_S1x64_S1x64) broadcasts_S1x64_S5000x64))
            (broadcastTo S5000x64 (rsqrt (addf (shapeCast S1x64 var shapeCasts_S1x64_S1x64)
              (broadcast S1x64 (Scalar.ofBits (F := Ideal) .f32 0x3727C5AC#32)))) broadcasts_S1x64_S5000x64))
          (broadcastTo S5000x64 (shapeCast S1x64 gamma shapeCasts_S1x64_S1x64) broadcasts_S1x64_S5000x64))
        (broadcastTo S5000x64 (shapeCast S1x64 beta shapeCasts_S1x64_S1x64) broadcasts_S1x64_S5000x64))
      (broadcast S5000x64 (Scalar.ofBits (F := Ideal) .f32 0x00000000#32)))
      (shapeCast S5000x64 r shapeCasts_S5000x64_S5000x64)
      = bnNorm a mean var gamma beta r := by
  have ea : shapeCast S5000x64 a shapeCasts_S5000x64_S5000x64 = a := shapeCast_self a _
  have er : shapeCast S5000x64 r shapeCasts_S5000x64_S5000x64 = r := shapeCast_self r _
  have em : shapeCast S1x64 mean shapeCasts_S1x64_S1x64 = mean := shapeCast_self mean _
  have ev : shapeCast S1x64 var shapeCasts_S1x64_S1x64 = var := shapeCast_self var _
  have eg : shapeCast S1x64 gamma shapeCasts_S1x64_S1x64 = gamma := shapeCast_self gamma _
  have eb : shapeCast S1x64 beta shapeCasts_S1x64_S1x64 = beta := shapeCast_self beta _
  rw [ea, er, em, ev, eg, eb]
  funext j
  obtain ⟨p, q, rfl⟩ : ∃ (p : Fin 5000) (q : Fin 64), j = ix2 p q := ⟨j 0, j 1, eq_ix2 j⟩
  rw [bnNorm_apply]
  show max (((a (ix2 p q) - broadcastTo S5000x64 mean broadcasts_S1x64_S5000x64 (ix2 p q))
          * broadcastTo S5000x64 (rsqrt (addf var (broadcast S1x64 (Scalar.ofBits (F := Ideal) .f32 0x3727C5AC#32))))
              broadcasts_S1x64_S5000x64 (ix2 p q))
        * broadcastTo S5000x64 gamma broadcasts_S1x64_S5000x64 (ix2 p q)
        + broadcastTo S5000x64 beta broadcasts_S1x64_S5000x64 (ix2 p q))
      (Ideal.ofBits .f32 0x00000000#32) + r (ix2 p q) = _
  rw [broadcastTo_1b_ab_apply mean, broadcastTo_1b_ab_apply gamma, broadcastTo_1b_ab_apply beta,
    broadcastTo_1b_ab_apply (rsqrt (addf var (broadcast S1x64 (Scalar.ofBits (F := Ideal) .f32 0x3727C5AC#32))))]
  rfl

theorem pay3_eq (a : Vec Ideal S5000x64 .f32) (mean var gamma beta : Vec Ideal S1x64 .f32) (r : Vec Ideal S5000x64 .f32) :
    k3_pay1 (F := Ideal) a mean var gamma beta r = bnNorm a mean var gamma beta r := payN_eq a mean var gamma beta r
theorem pay6_eq (a : Vec Ideal S5000x64 .f32) (mean var gamma beta : Vec Ideal S1x64 .f32) (r : Vec Ideal S5000x64 .f32) :
    k6_pay1 (F := Ideal) a mean var gamma beta r = bnNorm a mean var gamma beta r := payN_eq a mean var gamma beta r
theorem pay9_eq (a : Vec Ideal S5000x64 .f32) (mean var gamma beta : Vec Ideal S1x64 .f32) (r : Vec Ideal S5000x64 .f32) :
    k9_pay1 (F := Ideal) a mean var gamma beta r = bnNorm a mean var gamma beta r := payN_eq a mean var gamma beta r
theorem pay12_eq (a : Vec Ideal S5000x64 .f32) (mean var gamma beta : Vec Ideal S1x64 .f32) (r : Vec Ideal S5000x64 .f32) :
    k12_pay1 (F := Ideal) a mean var gamma beta r = bnNorm a mean var gamma beta r := payN_eq a mean var gamma beta r

/-- The read-out stage's stored value: a rectified biased product, times a second weight, plus a second bias. -/
theorem pay13_eq (x0 : Vec Ideal S256x64 .f32) (x1 : Vec Ideal S64x32 .f32) (x2 : Vec Ideal S1x32 .f32)
    (x3 : Vec Ideal S32x1 .f32) (x4 : Vec Ideal S1x1 .f32) :
    k13_pay1 (F := Ideal) x0 x1 x2 x3 x4 = addRow (mm (relu (addRow (mm x0 x1) x2)) x3) x4 := by
  have e0 : shapeCast S256x64 x0 shapeCasts_S256x64_S256x64 = x0 := shapeCast_self x0 _
  have e2 : shapeCast S1x32 x2 shapeCasts_S1x32_S1x32 = x2 := shapeCast_self x2 _
  have e4 : shapeCast S1x1 x4 shapeCasts_S1x1_S1x1 = x4 := shapeCast_self x4 _
  have m1 : matmul (F := Ideal) dot_S256x64_S64x32_S256x32_1_0_0_1_n_n none (truncf .bf16 x0 bitsLt_bf16_f32)
      (truncf .bf16 x1 bitsLt_bf16_f32) (constant (F := Ideal) S256x32 .f32 0x00000000#32) = mm x0 x1 :=
    matmul_eq_mm x0 x1 bitsLt_bf16_f32 bitsLt_bf16_f32
  have b1 : addf (F := Ideal) (s := S256x32) (φ := .f32) (mm x0 x1) (broadcastTo S256x32 x2 broadcasts_S1x32_S256x32) = addRow (mm x0 x1) x2 :=
    broadcastTo_row x2 broadcasts_S1x32_S256x32 (mm x0 x1)
  have r1 : maximumf (F := Ideal) (s := S256x32) (φ := .f32) (addRow (mm x0 x1) x2) (broadcast S256x32 (Scalar.ofBits (F := Ideal) .f32 0x00000000#32))
      = relu (addRow (mm x0 x1) x2) := rfl
  have m2 : matmul (F := Ideal) dot_S256x32_S32x1_S256x1_1_0_0_1_n_n none
      (truncf .bf16 (relu (addRow (mm x0 x1) x2)) bitsLt_bf16_f32)
      (truncf .bf16 x3 bitsLt_bf16_f32) (constant (F := Ideal) S256x1 .f32 0x00000000#32) = mm (relu (addRow (mm x0 x1) x2)) x3 :=
    matmul_eq_mm (relu (addRow (mm x0 x1) x2)) x3 bitsLt_bf16_f32 bitsLt_bf16_f32
  have b2 : addf (F := Ideal) (s := S256x1) (φ := .f32) (mm (relu (addRow (mm x0 x1) x2)) x3) (broadcastTo S256x1 x4 broadcasts_S1x1_S256x1)
      = addRow (mm (relu (addRow (mm x0 x1) x2)) x3) x4 :=
    broadcastTo_row x4 broadcasts_S1x1_S256x1 (mm (relu (addRow (mm x0 x1) x2)) x3)
  show addf (matmul (F := Ideal) dot_S256x32_S32x1_S256x1_1_0_0_1_n_n none
        (truncf .bf16 (maximumf (addf (matmul (F := Ideal) dot_S256x64_S64x32_S256x32_1_0_0_1_n_n none
              (truncf .bf16 (shapeCast S256x64 x0 shapeCasts_S256x64_S256x64) bitsLt_bf16_f32)
              (truncf .bf16 x1 bitsLt_bf16_f32) (constant (F := Ideal) S256x32 .f32 0x00000000#32))
            (broadcastTo S256x32 (shapeCast S1x32 x2 shapeCasts_S1x32_S1x32) broadcasts_S1x32_S256x32))
          (broadcast S256x32 (Scalar.ofBits (F := Ideal) .f32 0x00000000#32))) bitsLt_bf16_f32)
        (truncf .bf16 x3 bitsLt_bf16_f32) (constant (F := Ideal) S256x1 .f32 0x00000000#32))
      (broadcastTo S256x1 (shapeCast S1x1 x4 shapeCasts_S1x1_S1x1) broadcasts_S1x1_S256x1) = _
  rw [e0, e2, e4, m1, b1, r1, m2, b2]

end Cert.KernelIdeal.RegVal

end
-- ==== Proof.RegA0.lean ====
/-
  Region 0 of the network's program, the input stage: what it leaves in its output array.

  The region walks 20 points. Point t stages rows 5000 t .. 5000 t + 4999 (all 32 columns) of the feature array
  X [100000, 32], the whole weight W [32, 64] and the whole bias row b [1, 64], multiplies the row block by the
  weight on the matrix unit into a zero accumulator, adds the bias row to every row, and writes the [5000, 64]
  result back to the same rows of the output array. A row block of X times W plus b is the same rows of X · W + b,
  and the 20 row blocks tile the 100000 rows, so the output array ends holding X · W + b, whatever it held before.
-/
import proofs.«109724_j81406810128840_1_alg».proof.Proof.Gen.KernelIdeal.Frame
import proofs.«109724_j81406810128840_1_alg».proof.Proof.LibRegARowBlocks
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.RowBlocks

variable (V : (c : Dev nD) → (b : Ref sig .tc) → Buf (Elt Ideal) ((c : Thread nD τ).loc b)) (c : Dev nD)

/-- The printed index maps, decided over the 20 points: the features and the output move down one row block per
    point, the weight and the bias row stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is the rows of the feature array from row 5000 t on. -/
theorem rows0_0 (t : Fin cfg0.N) :
    IsRows (M := 100000) (N := 32) (m := 5000) (t.val * 5000) (V c (Pipeline.arrRef spec0 0)) (iblk0 V c 0 t) := by
  intro y i h0 h1
  obtain ⟨e0, e1, -⟩ := idx0 t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 32 + 1 * (y 1).val = (i 1).val; omega

/-- The weight window's block at every point is the whole weight. -/
theorem whole0_1 (t : Fin cfg0.N) :
    (iblk0 V c 1 t : FVec Ideal S32x64 .f32) = V c (Pipeline.arrRef spec0 1) := by
  funext y
  obtain ⟨-, -, e2, e3, -⟩ := idx0 t
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The bias window's block at every point is the whole bias row. -/
theorem whole0_2 (t : Fin cfg0.N) :
    (iblk0 V c 2 t : FVec Ideal S1x64 .f32) = V c (Pipeline.arrRef spec0 2) := by
  funext y
  obtain ⟨-, -, -, -, e4, e5, -⟩ := idx0 t
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point t writes back is block t of the biased product of the arrays as the region finds them. -/
theorem flushed0_eq (t : Fin cfg0.N) :
    (dat0 V c).flushed 3 t = ((cfg0.win 3).blk t).view.read (Elt Ideal)
      (addRow (M := 100000) (N := 64) (mm (M := 100000) (K := 32) (N := 64) (V c (Pipeline.arrRef spec0 0)) (V c (Pipeline.arrRef spec0 1)))
        (V c (Pipeline.arrRef spec0 2))) := by
  obtain ⟨-, -, -, -, -, -, e6, e7⟩ := idx0 t
  show (cfg0.win 3).cut (grid0.coords t) ((dat0 V c).after 3 t) = _
  rw [after0_3]
  unfold out0_3
  rw [View.canon_unit_zero hz2]
  simp only [View.ld_unit_zero (S := S5000x32) hz2, View.ld_unit_zero (S := S32x64) hz2, View.ld_unit_zero (S := S1x64) hz2]
  funext j
  refine (congrFun (pay0_eq (iblk0 V c 0 t) (iblk0 V c 1 t) (iblk0 V c 2 t)) j).trans ?_
  refine addRow_rows_of_eq (mm_rows_of_eq (rows0_0 V c t) (whole0_1 V c t)) (whole0_2 V c t) j (((cfg0.win 3).blk t).view.emb j) ?_ ?_
  · show win0_3.index t (0 : Fin 2) * 5000 + 1 * (j 0).val = t.val * 5000 + (j 0).val; omega
  · show win0_3.index t (1 : Fin 2) * 64 + 1 * (j 1).val = (j 1).val; omega

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- Every index of the output array is in the block of the point its row falls in. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, e6, e7⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- REGION 0'S VALUE: after the region its output array holds the feature array times the weight plus the bias row,
    as the region found them. -/
theorem val0 : (dat0 V c).arrAt 3 cfg0.N
    = addRow (M := 100000) (N := 64) (mm (M := 100000) (K := 32) (N := 64) (V c (Pipeline.arrRef spec0 0)) (V c (Pipeline.arrRef spec0 1)))
        (V c (Pipeline.arrRef spec0 2)) :=
  (dat0 V c).arrAt_eq_of_cover 3 _ (fun t _ => flushed0_eq V c t) (cover0)

end Cert.KernelIdeal.RegVal

end
-- ==== Proof.RegA1.lean ====
/-
  Region 1 of the network's program, a weight product: what it leaves in its output array.

  The region walks 20 points. Point t stages rows 5000 t .. 5000 t + 4999 (all 64 columns) of the input array
  X [100000, 64] and the whole weight W [64, 64], multiplies the row block by the weight on the matrix unit into a
  zero accumulator, and writes the [5000, 64] product back to the same rows of the output array. A row block of X
  times W is the same rows of X · W, and the 20 row blocks tile the 100000 rows, so the output array ends holding
  X · W, whatever it held before.
-/
import proofs.«109724_j81406810128840_1_alg».proof.Proof.Gen.KernelIdeal.Frame
import proofs.«109724_j81406810128840_1_alg».proof.Proof.LibRegARowBlocks
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.RowBlocks

variable (V : (c : Dev nD) → (b : Ref sig .tc) → Buf (Elt Ideal) ((c : Thread nD τ).loc b)) (c : Dev nD)

/-- The printed index maps, decided over the 20 points: the input and the output move down one row block per point,
    the weight stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input window's block at point t is the rows of the input array from row 5000 t on. -/
theorem rows1_0 (t : Fin cfg1.N) :
    IsRows (M := 100000) (N := 64) (m := 5000) (t.val * 5000) (V c (Pipeline.arrRef spec1 0)) (iblk1 V c 0 t) := by
  intro y i h0 h1
  obtain ⟨e0, e1, -⟩ := idx1 t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The weight window's block at every point is the whole weight. -/
theorem whole1_1 (t : Fin cfg1.N) :
    (iblk1 V c 1 t : FVec Ideal S64x64 .f32) = V c (Pipeline.arrRef spec1 1) := by
  funext y
  obtain ⟨-, -, e2, e3, -⟩ := idx1 t
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- What point t writes back is block t of the product of the two arrays as the region finds them. -/
theorem flushed1_eq (t : Fin cfg1.N) :
    (dat1 V c).flushed 2 t = ((cfg1.win 2).blk t).view.read (Elt Ideal)
      (mm (M := 100000) (K := 64) (N := 64) (V c (Pipeline.arrRef spec1 0)) (V c (Pipeline.arrRef spec1 1))) := by
  obtain ⟨-, -, -, -, e4, e5⟩ := idx1 t
  show (cfg1.win 2).cut (grid1.coords t) ((dat1 V c).after 2 t) = _
  rw [after1_2]
  unfold out1_2
  rw [View.canon_unit_zero hz2]
  simp only [View.ld_unit_zero (S := S5000x64) hz2, View.ld_unit_zero (S := S64x64) hz2]
  funext j
  refine (congrFun (pay1_eq (iblk1 V c 0 t) (iblk1 V c 1 t)) j).trans ?_
  refine mm_rows_of_eq (rows1_0 V c t) (whole1_1 V c t) j (((cfg1.win 2).blk t).view.emb j) ?_ ?_
  · show win1_2.index t (0 : Fin 2) * 5000 + 1 * (j 0).val = t.val * 5000 + (j 0).val; omega
  · show win1_2.index t (1 : Fin 2) * 64 + 1 * (j 1).val = (j 1).val; omega

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v35).slice (win1_2.rect t)).set ↔ _
  rw [View.set_slice_whole, Rect.mem_set_unit]
  exact Iff.rfl

/-- Every index of the output array is in the block of the point its row falls in. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- REGION 1'S VALUE: after the region its output array holds the product of its input array and its weight, as
    the region found them. -/
theorem val1 : (dat1 V c).arrAt 2 cfg1.N
    = mm (M := 100000) (K := 64) (N := 64) (V c (Pipeline.arrRef spec1 0)) (V c (Pipeline.arrRef spec1 1)) :=
  (dat1 V c).arrAt_eq_of_cover 2 _ (fun t _ => flushed1_eq V c t) (cover1)

end Cert.KernelIdeal.RegVal

end
-- ==== Proof.RegARows.lean ====
/-
  The normalisation stage works row by row: applied to the rows from r0 on of the pre-normalisation array and of
  the residual array (with the four whole [1, N] rows), it gives the rows from r0 on of the normalised array.
-/
import proofs.«109724_j81406810128840_1_alg».proof.Proof.LibRegARowBlocks
import proofs.«109724_j81406810128840_1_alg».proof.Proof.RegASpec

noncomputable section

namespace Cert.RegSpec

open Idealize.ShloMosaic Idealize.ShloMosaic.ValueIdx Cert.RowBlocks

/-- Row blocks of the two tiled operands give the same rows of the normalised array. -/
theorem bnNorm_rows {M N m : ℕ} {r0 : ℕ} {A R : (⟨2, ![M, N]⟩ : Shape).Idx → EReal}
    {ab rb : (⟨2, ![m, N]⟩ : Shape).Idx → EReal} (hA : IsRows r0 A ab) (hR : IsRows r0 R rb)
    (mean var gamma beta : (⟨2, ![1, N]⟩ : Shape).Idx → EReal) :
    IsRows r0 (bnNorm A mean var gamma beta R) (bnNorm ab mean var gamma beta rb) := by
  intro y i h0 h1
  have e1 : (ix2 (0 : Fin 1) (y 1) : (⟨2, ![1, N]⟩ : Shape).Idx) = ix2 (0 : Fin 1) (i 1) := idx2_ext _ _ rfl h1.symm
  have ha : ab y = A i := hA y i h0 h1
  have hr : rb y = R i := hR y i h0 h1
  show max (((ab y - mean (ix2 (0 : Fin 1) (y 1)))
            * Ideal.rsqrt (var (ix2 (0 : Fin 1) (y 1)) + Ideal.ofBits .f32 0x3727C5AC#32))
          * gamma (ix2 (0 : Fin 1) (y 1)) + beta (ix2 (0 : Fin 1) (y 1)))
        (Ideal.ofBits .f32 0x00000000#32) + rb y
    = max (((A i - mean (ix2 (0 : Fin 1) (i 1)))
            * Ideal.rsqrt (var (ix2 (0 : Fin 1) (i 1)) + Ideal.ofBits .f32 0x3727C5AC#32))
          * gamma (ix2 (0 : Fin 1) (i 1)) + beta (ix2 (0 : Fin 1) (i 1)))
        (Ideal.ofBits .f32 0x00000000#32) + R i
  rw [ha, hr, e1]
  rfl

/-- The same with the blocks of the four whole rows given as equal to the rows. -/
theorem bnNorm_rows_of_eq {M N m : ℕ} {r0 : ℕ} {A R : (⟨2, ![M, N]⟩ : Shape).Idx → EReal}
    {ab rb : (⟨2, ![m, N]⟩ : Shape).Idx → EReal} (hA : IsRows r0 A ab) (hR : IsRows r0 R rb)
    {mean var gamma beta mb vb gb bb : (⟨2, ![1, N]⟩ : Shape).Idx → EReal}
    (hm : mb = mean) (hv : vb = var) (hg : gb = gamma) (hb : bb = beta) :
    IsRows r0 (bnNorm A mean var gamma beta R) (bnNorm ab mb vb gb bb rb) := by
  subst hm hv hg hb; exact bnNorm_rows hA hR _ _ _ _

end Cert.RegSpec

end
-- ==== Proof.RegA3.lean ====
/-
  Region 3 of the network's program, a normalisation stage: what it leaves in its output array.

  The region walks 20 points. Point t stages rows 5000 t .. 5000 t + 4999 (all 64 columns) of the pre-normalisation
  array A [100000, 64] and of the residual array R [100000, 64], and the four whole [1, 64] rows (mean, variance,
  scale, shift); it centres, scales by the reciprocal square root of the offset variance, scales and shifts,
  rectifies and adds the residual, entry by entry, and writes the [5000, 64] result back to the same rows of the
  output array. Every entry depends only on its own row of A and R and on its own column of the four rows, so a row
  block of the inputs gives the same rows of the normalised array; the 20 row blocks tile the 100000 rows, so the
  output array ends holding the normalised array, whatever it held before.
-/
import proofs.«109724_j81406810128840_1_alg».proof.Proof.Gen.KernelIdeal.Frame
import proofs.«109724_j81406810128840_1_alg».proof.Proof.RegARows
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.RowBlocks Cert.RegSpec

variable (V : (c : Dev nD) → (b : Ref sig .tc) → Buf (Elt Ideal) ((c : Thread nD τ).loc b)) (c : Dev nD)

/-! The printed index maps, decided over the 20 points: the two tiled inputs and the output move down one row block
    per point, the four rows stay. -/
theorem idxTile3_0 : ∀ t : Fin cfg3.N, win3_0.index t (0 : Fin 2) = t.val ∧ win3_0.index t (1 : Fin 2) = 0 :=
  (by decide +kernel : ∀ t : Fin grid3.N, _)
theorem idxRow3_1 : ∀ t : Fin cfg3.N, win3_1.index t (0 : Fin 2) = 0 ∧ win3_1.index t (1 : Fin 2) = 0 :=
  (by decide +kernel : ∀ t : Fin grid3.N, _)
theorem idxRow3_2 : ∀ t : Fin cfg3.N, win3_2.index t (0 : Fin 2) = 0 ∧ win3_2.index t (1 : Fin 2) = 0 :=
  (by decide +kernel : ∀ t : Fin grid3.N, _)
theorem idxRow3_3 : ∀ t : Fin cfg3.N, win3_3.index t (0 : Fin 2) = 0 ∧ win3_3.index t (1 : Fin 2) = 0 :=
  (by decide +kernel : ∀ t : Fin grid3.N, _)
theorem idxRow3_4 : ∀ t : Fin cfg3.N, win3_4.index t (0 : Fin 2) = 0 ∧ win3_4.index t (1 : Fin 2) = 0 :=
  (by decide +kernel : ∀ t : Fin grid3.N, _)
theorem idxTile3_5 : ∀ t : Fin cfg3.N, win3_5.index t (0 : Fin 2) = t.val ∧ win3_5.index t (1 : Fin 2) = 0 :=
  (by decide +kernel : ∀ t : Fin grid3.N, _)
theorem idxTile3_6 : ∀ t : Fin cfg3.N, win3_6.index t (0 : Fin 2) = t.val ∧ win3_6.index t (1 : Fin 2) = 0 :=
  (by decide +kernel : ∀ t : Fin grid3.N, _)

/-- The pre-normalisation window's block at point t is the rows of its array from row 5000 t on. -/
theorem rows3_0 (t : Fin cfg3.N) :
    IsRows (M := 100000) (N := 64) (m := 5000) (t.val * 5000) (V c (Pipeline.arrRef spec3 0)) (iblk3 V c 0 t) := by
  intro y i h0 h1
  obtain ⟨e0, e1⟩ := idxTile3_0 t
  show V c (Pipeline.arrRef spec3 0) (((cfg3.win 0).blk t).view.emb y) = V c (Pipeline.arrRef spec3 0) i
  refine congrArg _ (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The mean window's block at every point is the whole mean row. -/
theorem whole3_1 (t : Fin cfg3.N) :
    (iblk3 V c 1 t : FVec Ideal S1x64 .f32) = V c (Pipeline.arrRef spec3 1) := by
  funext y
  obtain ⟨e0, e1⟩ := idxRow3_1 t
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- The variance window's block at every point is the whole variance row. -/
theorem whole3_2 (t : Fin cfg3.N) :
    (iblk3 V c 2 t : FVec Ideal S1x64 .f32) = V c (Pipeline.arrRef spec3 2) := by
  funext y
  obtain ⟨e0, e1⟩ := idxRow3_2 t
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The scale window's block at every point is the whole scale row. -/
theorem whole3_3 (t : Fin cfg3.N) :
    (iblk3 V c 3 t : FVec Ideal S1x64 .f32) = V c (Pipeline.arrRef spec3 3) := by
  funext y
  obtain ⟨e0, e1⟩ := idxRow3_3 t
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The shift window's block at every point is the whole shift row. -/
theorem whole3_4 (t : Fin cfg3.N) :
    (iblk3 V c 4 t : FVec Ideal S1x64 .f32) = V c (Pipeline.arrRef spec3 4) := by
  funext y
  obtain ⟨e0, e1⟩ := idxRow3_4 t
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The residual window's block at point t is the rows of its array from row 5000 t on. -/
theorem rows3_5 (t : Fin cfg3.N) :
    IsRows (M := 100000) (N := 64) (m := 5000) (t.val * 5000) (V c (Pipeline.arrRef spec3 5)) (iblk3 V c 5 t) := by
  intro y i h0 h1
  obtain ⟨e0, e1⟩ := idxTile3_5 t
  show V c (Pipeline.arrRef spec3 5) (((cfg3.win 5).blk t).view.emb y) = V c (Pipeline.arrRef spec3 5) i
  refine congrArg _ (funext fun a => Fin.ext ?_)
  match a with
  | ⟨0, _⟩ => show win3_5.index t (0 : Fin 2) * 5000 + 1 * (y 0).val = (i 0).val; omega
  | ⟨1, _⟩ => show win3_5.index t (1 : Fin 2) * 64 + 1 * (y 1).val = (i 1).val; omega

/-- What point t writes back is block t of the normalised array of the arrays as the region finds them. -/
theorem flushed3_eq (t : Fin cfg3.N) :
    (dat3 V c).flushed 6 t = ((cfg3.win 6).blk t).view.read (Elt Ideal)
      (bnNorm (M := 100000) (N := 64) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  obtain ⟨e0, e1⟩ := idxTile3_6 t
  show (cfg3.win 6).cut (grid3.coords t) ((dat3 V c).after 6 t) = _
  rw [after3_6]
  unfold out3_6
  rw [View.canon_unit_zero hz2]
  simp only [View.ld_unit_zero (S := S5000x64) hz2, View.ld_unit_zero (S := S1x64) hz2]
  funext j
  refine (congrFun (pay3_eq (iblk3 V c 0 t) (iblk3 V c 1 t) (iblk3 V c 2 t) (iblk3 V c 3 t) (iblk3 V c 4 t) (iblk3 V c 5 t)) j).trans ?_
  refine bnNorm_rows_of_eq (rows3_0 V c t) (rows3_5 V c t) (whole3_1 V c t) (whole3_2 V c t) (whole3_3 V c t) (whole3_4 V c t)
    j (((cfg3.win 6).blk t).view.emb j) ?_ ?_
  · show win3_6.index t (0 : Fin 2) * 5000 + 1 * (j 0).val = t.val * 5000 + (j 0).val; omega
  · show win3_6.index t (1 : Fin 2) * 64 + 1 * (j 1).val = (j 1).val; omega

/-- An index of the output array is in point t's block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v65).slice (win3_6.rect t)).set ↔ _
  rw [View.set_slice_whole, Rect.mem_set_unit]
  exact Iff.rfl

/-- Every index of the output array is in the block of the point its row falls in. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  have ht : t.val = (i 0).val / 5000 := rfl
  obtain ⟨e0, e1⟩ := idxTile3_6 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- REGION 3'S VALUE: after the region its output array holds the normalised, rectified rows plus the residual, of
    the arrays as the region found them. -/
theorem val3 : (dat3 V c).arrAt 6 cfg3.N
    = (bnNorm (M := 100000) (N := 64) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) :=
  (dat3 V c).arrAt_eq_of_cover 6 _ (fun t _ => flushed3_eq V c t) (cover3)

end Cert.KernelIdeal.RegVal

end
-- ==== Proof.RegA4.lean ====
/-
  Region 4 of the network's program, a weight product: what it leaves in its output array.

  The region walks 20 points. Point t stages rows 5000 t .. 5000 t + 4999 (all 64 columns) of the input array
  X [100000, 64] and the whole weight W [64, 64], multiplies the row block by the weight on the matrix unit into a
  zero accumulator, and writes the [5000, 64] product back to the same rows of the output array. A row block of X
  times W is the same rows of X · W, and the 20 row blocks tile the 100000 rows, so the output array ends holding
  X · W, whatever it held before.
-/
import proofs.«109724_j81406810128840_1_alg».proof.Proof.Gen.KernelIdeal.Frame
import proofs.«109724_j81406810128840_1_alg».proof.Proof.LibRegARowBlocks
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.RowBlocks

variable (V : (c : Dev nD) → (b : Ref sig .tc) → Buf (Elt Ideal) ((c : Thread nD τ).loc b)) (c : Dev nD)

/-- The printed index maps, decided over the 20 points: the input and the output move down one row block per point,
    the weight stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input window's block at point t is the rows of the input array from row 5000 t on. -/
theorem rows4_0 (t : Fin cfg4.N) :
    IsRows (M := 100000) (N := 64) (m := 5000) (t.val * 5000) (V c (Pipeline.arrRef spec4 0)) (iblk4 V c 0 t) := by
  intro y i h0 h1
  obtain ⟨e0, e1, -⟩ := idx4 t
  show V c (Pipeline.arrRef spec4 0) (((cfg4.win 0).blk t).view.emb y) = V c (Pipeline.arrRef spec4 0) i
  refine congrArg _ (funext fun a => Fin.ext ?_)
  match a with
  | ⟨0, _⟩ => show win4_0.index t (0 : Fin 2) * 5000 + 1 * (y 0).val = (i 0).val; omega
  | ⟨1, _⟩ => show win4_0.index t (1 : Fin 2) * 64 + 1 * (y 1).val = (i 1).val; omega

/-- The weight window's block at every point is the whole weight. -/
theorem whole4_1 (t : Fin cfg4.N) :
    (iblk4 V c 1 t : FVec Ideal S64x64 .f32) = V c (Pipeline.arrRef spec4 1) := by
  funext y
  obtain ⟨-, -, e2, e3, -⟩ := idx4 t
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- What point t writes back is block t of the product of the two arrays as the region finds them. -/
theorem flushed4_eq (t : Fin cfg4.N) :
    (dat4 V c).flushed 2 t = ((cfg4.win 2).blk t).view.read (Elt Ideal)
      (mm (M := 100000) (K := 64) (N := 64) (V c (Pipeline.arrRef spec4 0)) (V c (Pipeline.arrRef spec4 1))) := by
  obtain ⟨-, -, -, -, e4, e5⟩ := idx4 t
  show (cfg4.win 2).cut (grid4.coords t) ((dat4 V c).after 2 t) = _
  rw [after4_2]
  unfold out4_2
  rw [View.canon_unit_zero hz2]
  simp only [View.ld_unit_zero (S := S5000x64) hz2, View.ld_unit_zero (S := S64x64) hz2]
  funext j
  refine (congrFun (pay4_eq (iblk4 V c 0 t) (iblk4 V c 1 t)) j).trans ?_
  refine mm_rows_of_eq (rows4_0 V c t) (whole4_1 V c t) j (((cfg4.win 2).blk t).view.emb j) ?_ ?_
  · show win4_2.index t (0 : Fin 2) * 5000 + 1 * (j 0).val = t.val * 5000 + (j 0).val; omega
  · show win4_2.index t (1 : Fin 2) * 64 + 1 * (j 1).val = (j 1).val; omega

/-- An index of the output array is in point t's block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v68).slice (win4_2.rect t)).set ↔ _
  rw [View.set_slice_whole, Rect.mem_set_unit]
  exact Iff.rfl

/-- Every index of the output array is in the block of the point its row falls in. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  have ht : t.val = (i 0).val / 5000 := rfl
  obtain ⟨-, -, -, -, e4, e5⟩ := idx4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- REGION 4'S VALUE: after the region its output array holds the product of its input array and its weight, as
    the region found them. -/
theorem val4 : (dat4 V c).arrAt 2 cfg4.N
    = mm (M := 100000) (K := 64) (N := 64) (V c (Pipeline.arrRef spec4 0)) (V c (Pipeline.arrRef spec4 1)) :=
  (dat4 V c).arrAt_eq_of_cover 2 _ (fun t _ => flushed4_eq V c t) (cover4)

end Cert.KernelIdeal.RegVal

end
-- ==== Proof.RegA6.lean ====
/-
  Region 6 of the network's program, a normalisation stage: what it leaves in its output array.

  The region walks 20 points. Point t stages rows 5000 t .. 5000 t + 4999 (all 64 columns) of the pre-normalisation
  array A [100000, 64] and of the residual array R [100000, 64], and the four whole [1, 64] rows (mean, variance,
  scale, shift); it centres, scales by the reciprocal square root of the offset variance, scales and shifts,
  rectifies and adds the residual, entry by entry, and writes the [5000, 64] result back to the same rows of the
  output array. Every entry depends only on its own row of A and R and on its own column of the four rows, so a row
  block of the inputs gives the same rows of the normalised array; the 20 row blocks tile the 100000 rows, so the
  output array ends holding the normalised array, whatever it held before.
-/
import proofs.«109724_j81406810128840_1_alg».proof.Proof.Gen.KernelIdeal.Frame
import proofs.«109724_j81406810128840_1_alg».proof.Proof.RegARows
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.RowBlocks Cert.RegSpec

variable (V : (c : Dev nD) → (b : Ref sig .tc) → Buf (Elt Ideal) ((c : Thread nD τ).loc b)) (c : Dev nD)

/-! The printed index maps, decided over the 20 points: the two tiled inputs and the output move down one row block
    per point, the four rows stay. -/
theorem idxTile6_0 : ∀ t : Fin cfg6.N, win6_0.index t (0 : Fin 2) = t.val ∧ win6_0.index t (1 : Fin 2) = 0 :=
  (by decide +kernel : ∀ t : Fin grid6.N, _)
theorem idxRow6_1 : ∀ t : Fin cfg6.N, win6_1.index t (0 : Fin 2) = 0 ∧ win6_1.index t (1 : Fin 2) = 0 :=
  (by decide +kernel : ∀ t : Fin grid6.N, _)
theorem idxRow6_2 : ∀ t : Fin cfg6.N, win6_2.index t (0 : Fin 2) = 0 ∧ win6_2.index t (1 : Fin 2) = 0 :=
  (by decide +kernel : ∀ t : Fin grid6.N, _)
theorem idxRow6_3 : ∀ t : Fin cfg6.N, win6_3.index t (0 : Fin 2) = 0 ∧ win6_3.index t (1 : Fin 2) = 0 :=
  (by decide +kernel : ∀ t : Fin grid6.N, _)
theorem idxRow6_4 : ∀ t : Fin cfg6.N, win6_4.index t (0 : Fin 2) = 0 ∧ win6_4.index t (1 : Fin 2) = 0 :=
  (by decide +kernel : ∀ t : Fin grid6.N, _)
theorem idxTile6_5 : ∀ t : Fin cfg6.N, win6_5.index t (0 : Fin 2) = t.val ∧ win6_5.index t (1 : Fin 2) = 0 :=
  (by decide +kernel : ∀ t : Fin grid6.N, _)
theorem idxTile6_6 : ∀ t : Fin cfg6.N, win6_6.index t (0 : Fin 2) = t.val ∧ win6_6.index t (1 : Fin 2) = 0 :=
  (by decide +kernel : ∀ t : Fin grid6.N, _)

/-- The pre-normalisation window's block at point t is the rows of its array from row 5000 t on. -/
theorem rows6_0 (t : Fin cfg6.N) :
    IsRows (M := 100000) (N := 64) (m := 5000) (t.val * 5000) (V c (Pipeline.arrRef spec6 0)) (iblk6 V c 0 t) := by
  intro y i h0 h1
  obtain ⟨e0, e1⟩ := idxTile6_0 t
  show V c (Pipeline.arrRef spec6 0) (((cfg6.win 0).blk t).view.emb y) = V c (Pipeline.arrRef spec6 0) i
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 64 + 1 * (y 1).val = (i 1).val; omega

/-- The mean window's block at every point is the whole mean row. -/
theorem whole6_1 (t : Fin cfg6.N) :
    (iblk6 V c 1 t : FVec Ideal S1x64 .f32) = V c (Pipeline.arrRef spec6 1) := by
  funext y
  obtain ⟨e0, e1⟩ := idxRow6_1 t
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 64 + 1 * (y 1).val = (y 1).val; omega

/-- The variance window's block at every point is the whole variance row. -/
theorem whole6_2 (t : Fin cfg6.N) :
    (iblk6 V c 2 t : FVec Ideal S1x64 .f32) = V c (Pipeline.arrRef spec6 2) := by
  funext y
  obtain ⟨e0, e1⟩ := idxRow6_2 t
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- The scale window's block at every point is the whole scale row. -/
theorem whole6_3 (t : Fin cfg6.N) :
    (iblk6 V c 3 t : FVec Ideal S1x64 .f32) = V c (Pipeline.arrRef spec6 3) := by
  funext y
  obtain ⟨e0, e1⟩ := idxRow6_3 t
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- The shift window's block at every point is the whole shift row. -/
theorem whole6_4 (t : Fin cfg6.N) :
    (iblk6 V c 4 t : FVec Ideal S1x64 .f32) = V c (Pipeline.arrRef spec6 4) := by
  funext y
  obtain ⟨e0, e1⟩ := idxRow6_4 t
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 64 + 1 * (y 1).val = (y 1).val; omega

/-- The residual window's block at point t is the rows of its array from row 5000 t on. -/
theorem rows6_5 (t : Fin cfg6.N) :
    IsRows (M := 100000) (N := 64) (m := 5000) (t.val * 5000) (V c (Pipeline.arrRef spec6 5)) (iblk6 V c 5 t) := by
  intro y i h0 h1
  obtain ⟨e0, e1⟩ := idxTile6_5 t
  show V c (Pipeline.arrRef spec6 5) (((cfg6.win 5).blk t).view.emb y) = V c (Pipeline.arrRef spec6 5) i
  refine congrArg _ (funext fun a => Fin.ext ?_)
  match a with
  | ⟨0, _⟩ => show win6_5.index t (0 : Fin 2) * 5000 + 1 * (y 0).val = (i 0).val; omega
  | ⟨1, _⟩ => show win6_5.index t (1 : Fin 2) * 64 + 1 * (y 1).val = (i 1).val; omega

/-- What point t writes back is block t of the normalised array of the arrays as the region finds them. -/
theorem flushed6_eq (t : Fin cfg6.N) :
    (dat6 V c).flushed 6 t = ((cfg6.win 6).blk t).view.read (Elt Ideal)
      (bnNorm (M := 100000) (N := 64) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  obtain ⟨e0, e1⟩ := idxTile6_6 t
  show (cfg6.win 6).cut (grid6.coords t) ((dat6 V c).after 6 t) = _
  rw [after6_6]
  unfold out6_6
  rw [View.canon_unit_zero hz2]
  simp only [View.ld_unit_zero (S := S5000x64) hz2, View.ld_unit_zero (S := S1x64) hz2]
  funext j
  refine (congrFun (pay6_eq (iblk6 V c 0 t) (iblk6 V c 1 t) (iblk6 V c 2 t) (iblk6 V c 3 t) (iblk6 V c 4 t) (iblk6 V c 5 t)) j).trans ?_
  refine bnNorm_rows_of_eq (rows6_0 V c t) (rows6_5 V c t) (whole6_1 V c t) (whole6_2 V c t) (whole6_3 V c t) (whole6_4 V c t)
    j (((cfg6.win 6).blk t).view.emb j) ?_ ?_
  · show win6_6.index t (0 : Fin 2) * 5000 + 1 * (j 0).val = t.val * 5000 + (j 0).val; omega
  · show win6_6.index t (1 : Fin 2) * 64 + 1 * (j 1).val = (j 1).val; omega

/-- An index of the output array is in point t's block iff each coordinate is in the block's range on its axis. -/
theorem mem_blk6 (t : Fin cfg6.N) (i : S100000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v98).slice (win6_6.rect t)).set ↔ _
  rw [View.set_slice_whole, Rect.mem_set_unit]
  exact Iff.rfl

/-- Every index of the output array is in the block of the point its row falls in. -/
theorem cover6 (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  have ht : t.val = (i 0).val / 5000 := rfl
  obtain ⟨e0, e1⟩ := idxTile6_6 t
  refine ⟨t, flush6_6 t, ?_⟩
  rw [mem_blk6]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 64 ≤ (i 1).val ∧ (i 1).val < win6_6.index t (1 : Fin 2) * 64 + 64; omega

/-- REGION 6'S VALUE: after the region its output array holds the normalised, rectified rows plus the residual, of
    the arrays as the region found them. -/
theorem val6 : (dat6 V c).arrAt 6 cfg6.N
    = (bnNorm (M := 100000) (N := 64) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) :=
  (dat6 V c).arrAt_eq_of_cover 6 _ (fun t _ => flushed6_eq V c t) (cover6)

end Cert.KernelIdeal.RegVal

end
-- ==== Proof.RegA7.lean ====
/-
  Region 7 of the network's program, a weight product: what it leaves in its output array.

  The region walks 20 points. Point t stages rows 5000 t .. 5000 t + 4999 (all 64 columns) of the input array
  X [100000, 64] and the whole weight W [64, 64], multiplies the row block by the weight on the matrix unit into a
  zero accumulator, and writes the [5000, 64] product back to the same rows of the output array. A row block of X
  times W is the same rows of X · W, and the 20 row blocks tile the 100000 rows, so the output array ends holding
  X · W, whatever it held before.
-/
import proofs.«109724_j81406810128840_1_alg».proof.Proof.Gen.KernelIdeal.Frame
import proofs.«109724_j81406810128840_1_alg».proof.Proof.LibRegARowBlocks
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.RowBlocks

variable (V : (c : Dev nD) → (b : Ref sig .tc) → Buf (Elt Ideal) ((c : Thread nD τ).loc b)) (c : Dev nD)

/-- The printed index maps, decided over the 20 points: the input and the output move down one row block per point,
    the weight stays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The input window's block at point t is the rows of the input array from row 5000 t on. -/
theorem rows7_0 (t : Fin cfg7.N) :
    IsRows (M := 100000) (N := 64) (m := 5000) (t.val * 5000) (V c (Pipeline.arrRef spec7 0)) (iblk7 V c 0 t) := by
  intro y i h0 h1
  obtain ⟨e0, e1, -⟩ := idx7 t
  show V c (Pipeline.arrRef spec7 0) (((cfg7.win 0).blk t).view.emb y) = V c (Pipeline.arrRef spec7 0) i
  refine congrArg _ (funext fun a => Fin.ext ?_)
  match a with
  | ⟨0, _⟩ => show win7_0.index t (0 : Fin 2) * 5000 + 1 * (y 0).val = (i 0).val; omega
  | ⟨1, _⟩ => show win7_0.index t (1 : Fin 2) * 64 + 1 * (y 1).val = (i 1).val; omega

/-- The weight window's block at every point is the whole weight. -/
theorem whole7_1 (t : Fin cfg7.N) :
    (iblk7 V c 1 t : FVec Ideal S64x64 .f32) = V c (Pipeline.arrRef spec7 1) := by
  funext y
  obtain ⟨-, -, e2, e3, -⟩ := idx7 t
  show V c (Pipeline.arrRef spec7 1) (((cfg7.win 1).blk t).view.emb y) = V c (Pipeline.arrRef spec7 1) y
  refine congrArg _ (funext fun a => Fin.ext ?_)
  match a with
  | ⟨0, _⟩ => show win7_1.index t (0 : Fin 2) * 64 + 1 * (y 0).val = (y 0).val; omega
  | ⟨1, _⟩ => show win7_1.index t (1 : Fin 2) * 64 + 1 * (y 1).val = (y 1).val; omega

/-- What point t writes back is block t of the product of the two arrays as the region finds them. -/
theorem flushed7_eq (t : Fin cfg7.N) :
    (dat7 V c).flushed 2 t = ((cfg7.win 2).blk t).view.read (Elt Ideal)
      (mm (M := 100000) (K := 64) (N := 64) (V c (Pipeline.arrRef spec7 0)) (V c (Pipeline.arrRef spec7 1))) := by
  obtain ⟨-, -, -, -, e4, e5⟩ := idx7 t
  show (cfg7.win 2).cut (grid7.coords t) ((dat7 V c).after 2 t) = _
  rw [after7_2]
  unfold out7_2
  rw [View.canon_unit_zero hz2]
  simp only [View.ld_unit_zero (S := S5000x64) hz2, View.ld_unit_zero (S := S64x64) hz2]
  funext j
  refine (congrFun (pay7_eq (iblk7 V c 0 t) (iblk7 V c 1 t)) j).trans ?_
  refine mm_rows_of_eq (rows7_0 V c t) (whole7_1 V c t) j (((cfg7.win 2).blk t).view.emb j) ?_ ?_
  · show win7_2.index t (0 : Fin 2) * 5000 + 1 * (j 0).val = t.val * 5000 + (j 0).val; omega
  · show win7_2.index t (1 : Fin 2) * 64 + 1 * (j 1).val = (j 1).val; omega

/-- An index of the output array is in point t's block iff each coordinate is in the block's range on its axis. -/
theorem mem_blk7 (t : Fin cfg7.N) (i : S100000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v101).slice (win7_2.rect t)).set ↔ _
  rw [View.set_slice_whole, Rect.mem_set_unit]
  exact Iff.rfl

/-- Every index of the output array is in the block of the point its row falls in. -/
theorem cover7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : cfg7.N = 20 := N_7
  let t : Fin cfg7.N := ⟨(i 0).val / 5000, by rw [hN]; omega⟩
  have ht : t.val = (i 0).val / 5000 := rfl
  obtain ⟨-, -, -, -, e4, e5⟩ := idx7 t
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- REGION 7'S VALUE: after the region its output array holds the product of its input array and its weight, as
    the region found them. -/
theorem val7 : (dat7 V c).arrAt 2 cfg7.N
    = mm (M := 100000) (K := 64) (N := 64) (V c (Pipeline.arrRef spec7 0)) (V c (Pipeline.arrRef spec7 1)) :=
  (dat7 V c).arrAt_eq_of_cover 2 _ (fun t _ => flushed7_eq V c t) (cover7)

end Cert.KernelIdeal.RegVal

end
-- ==== Proof.RegA9.lean ====
/-
  Region 9 of the network's program, a normalisation stage: what it leaves in its output array.

  The region walks 20 points. Point t stages rows 5000 t .. 5000 t + 4999 (all 64 columns) of the pre-normalisation
  array A [100000, 64] and of the residual array R [100000, 64], and the four whole [1, 64] rows (mean, variance,
  scale, shift); it centres, scales by the reciprocal square root of the offset variance, scales and shifts,
  rectifies and adds the residual, entry by entry, and writes the [5000, 64] result back to the same rows of the
  output array. Every entry depends only on its own row of A and R and on its own column of the four rows, so a row
  block of the inputs gives the same rows of the normalised array; the 20 row blocks tile the 100000 rows, so the
  output array ends holding the normalised array, whatever it held before.
-/
import proofs.«109724_j81406810128840_1_alg».proof.Proof.Gen.KernelIdeal.Frame
import proofs.«109724_j81406810128840_1_alg».proof.Proof.RegARows
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.RowBlocks Cert.RegSpec

variable (V : (c : Dev nD) → (b : Ref sig .tc) → Buf (Elt Ideal) ((c : Thread nD τ).loc b)) (c : Dev nD)

/-! The printed index maps, decided over the 20 points: the two tiled inputs and the output move down one row block
    per point, the four rows stay. -/
theorem idxTile9_0 : ∀ t : Fin cfg9.N, win9_0.index t (0 : Fin 2) = t.val ∧ win9_0.index t (1 : Fin 2) = 0 :=
  (by decide +kernel : ∀ t : Fin grid9.N, _)
theorem idxRow9_1 : ∀ t : Fin cfg9.N, win9_1.index t (0 : Fin 2) = 0 ∧ win9_1.index t (1 : Fin 2) = 0 :=
  (by decide +kernel : ∀ t : Fin grid9.N, _)
theorem idxRow9_2 : ∀ t : Fin cfg9.N, win9_2.index t (0 : Fin 2) = 0 ∧ win9_2.index t (1 : Fin 2) = 0 :=
  (by decide +kernel : ∀ t : Fin grid9.N, _)
theorem idxRow9_3 : ∀ t : Fin cfg9.N, win9_3.index t (0 : Fin 2) = 0 ∧ win9_3.index t (1 : Fin 2) = 0 :=
  (by decide +kernel : ∀ t : Fin grid9.N, _)
theorem idxRow9_4 : ∀ t : Fin cfg9.N, win9_4.index t (0 : Fin 2) = 0 ∧ win9_4.index t (1 : Fin 2) = 0 :=
  (by decide +kernel : ∀ t : Fin grid9.N, _)
theorem idxTile9_5 : ∀ t : Fin cfg9.N, win9_5.index t (0 : Fin 2) = t.val ∧ win9_5.index t (1 : Fin 2) = 0 :=
  (by decide +kernel : ∀ t : Fin grid9.N, _)
theorem idxTile9_6 : ∀ t : Fin cfg9.N, win9_6.index t (0 : Fin 2) = t.val ∧ win9_6.index t (1 : Fin 2) = 0 :=
  (by decide +kernel : ∀ t : Fin grid9.N, _)

/-- The pre-normalisation window's block at point t is the rows of its array from row 5000 t on. -/
theorem rows9_0 (t : Fin cfg9.N) :
    IsRows (M := 100000) (N := 64) (m := 5000) (t.val * 5000) (V c (Pipeline.arrRef spec9 0)) (iblk9 V c 0 t) := by
  intro y i h0 h1
  obtain ⟨e0, e1⟩ := idxTile9_0 t
  show V c (Pipeline.arrRef spec9 0) (((cfg9.win 0).blk t).view.emb y) = V c (Pipeline.arrRef spec9 0) i
  refine congrArg _ (funext fun a => Fin.ext ?_)
  match a with
  | ⟨0, _⟩ => show win9_0.index t (0 : Fin 2) * 5000 + 1 * (y 0).val = (i 0).val; omega
  | ⟨1, _⟩ => show win9_0.index t (1 : Fin 2) * 64 + 1 * (y 1).val = (i 1).val; omega

/-- The mean window's block at every point is the whole mean row. -/
theorem whole9_1 (t : Fin cfg9.N) :
    (iblk9 V c 1 t : FVec Ideal S1x64 .f32) = V c (Pipeline.arrRef spec9 1) := by
  funext y
  obtain ⟨e0, e1⟩ := idxRow9_1 t
  show V c (Pipeline.arrRef spec9 1) (((cfg9.win 1).blk t).view.emb y) = V c (Pipeline.arrRef spec9 1) y
  refine congrArg _ (funext fun a => Fin.ext ?_)
  match a with
  | ⟨0, _⟩ => show win9_1.index t (0 : Fin 2) * 1 + 1 * (y 0).val = (y 0).val; omega
  | ⟨1, _⟩ => show win9_1.index t (1 : Fin 2) * 64 + 1 * (y 1).val = (y 1).val; omega

/-- The variance window's block at every point is the whole variance row. -/
theorem whole9_2 (t : Fin cfg9.N) :
    (iblk9 V c 2 t : FVec Ideal S1x64 .f32) = V c (Pipeline.arrRef spec9 2) := by
  funext y
  obtain ⟨e0, e1⟩ := idxRow9_2 t
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 64 + 1 * (y 1).val = (y 1).val; omega

/-- The scale window's block at every point is the whole scale row. -/
theorem whole9_3 (t : Fin cfg9.N) :
    (iblk9 V c 3 t : FVec Ideal S1x64 .f32) = V c (Pipeline.arrRef spec9 3) := by
  funext y
  obtain ⟨e0, e1⟩ := idxRow9_3 t
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 1 + 1 * (y 0).val = (y 0).val; omega
  | ⟨1, _⟩ => show win9_3.index t (1 : Fin 2) * 64 + 1 * (y 1).val = (y 1).val; omega

/-- The shift window's block at every point is the whole shift row. -/
theorem whole9_4 (t : Fin cfg9.N) :
    (iblk9 V c 4 t : FVec Ideal S1x64 .f32) = V c (Pipeline.arrRef spec9 4) := by
  funext y
  obtain ⟨e0, e1⟩ := idxRow9_4 t
  show V c (Pipeline.arrRef spec9 4) (((cfg9.win 4).blk t).view.emb y) = V c (Pipeline.arrRef spec9 4) y
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 64 + 1 * (y 1).val = (y 1).val; omega

/-- The residual window's block at point t is the rows of its array from row 5000 t on. -/
theorem rows9_5 (t : Fin cfg9.N) :
    IsRows (M := 100000) (N := 64) (m := 5000) (t.val * 5000) (V c (Pipeline.arrRef spec9 5)) (iblk9 V c 5 t) := by
  intro y i h0 h1
  obtain ⟨e0, e1⟩ := idxTile9_5 t
  show V c (Pipeline.arrRef spec9 5) (((cfg9.win 5).blk t).view.emb y) = V c (Pipeline.arrRef spec9 5) i
  refine congrArg _ (funext fun a => Fin.ext ?_)
  match a with
  | ⟨0, _⟩ => show win9_5.index t (0 : Fin 2) * 5000 + 1 * (y 0).val = (i 0).val; omega
  | ⟨1, _⟩ => show win9_5.index t (1 : Fin 2) * 64 + 1 * (y 1).val = (i 1).val; omega

/-- What point t writes back is block t of the normalised array of the arrays as the region finds them. -/
theorem flushed9_eq (t : Fin cfg9.N) :
    (dat9 V c).flushed 6 t = ((cfg9.win 6).blk t).view.read (Elt Ideal)
      (bnNorm (M := 100000) (N := 64) (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))) := by
  obtain ⟨e0, e1⟩ := idxTile9_6 t
  show (cfg9.win 6).cut (grid9.coords t) ((dat9 V c).after 6 t) = _
  rw [after9_6]
  unfold out9_6
  rw [View.canon_unit_zero hz2]
  simp only [View.ld_unit_zero (S := S5000x64) hz2, View.ld_unit_zero (S := S1x64) hz2]
  funext j
  refine (congrFun (pay9_eq (iblk9 V c 0 t) (iblk9 V c 1 t) (iblk9 V c 2 t) (iblk9 V c 3 t) (iblk9 V c 4 t) (iblk9 V c 5 t)) j).trans ?_
  refine bnNorm_rows_of_eq (rows9_0 V c t) (rows9_5 V c t) (whole9_1 V c t) (whole9_2 V c t) (whole9_3 V c t) (whole9_4 V c t)
    j (((cfg9.win 6).blk t).view.emb j) ?_ ?_
  · show win9_6.index t (0 : Fin 2) * 5000 + 1 * (j 0).val = t.val * 5000 + (j 0).val; omega
  · show win9_6.index t (1 : Fin 2) * 64 + 1 * (j 1).val = (j 1).val; omega

/-- An index of the output array is in point t's block iff each coordinate is in the block's range on its axis. -/
theorem mem_blk9 (t : Fin cfg9.N) (i : S100000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v131).slice (win9_6.rect t)).set ↔ _
  rw [View.set_slice_whole, Rect.mem_set_unit]
  exact Iff.rfl

/-- Every index of the output array is in the block of the point its row falls in. -/
theorem cover9 (i : S100000x64.Idx) :
    ∃ t : Fin cfg9.N, (cfg9.win 6).flush t = true ∧ i ∈ ((cfg9.win 6).blk t).view.set := by
  have hi0 : (i 0).val < 100000 := (i 0).isLt
  have hi1 : (i 1).val < 64 := (i 1).isLt
  have hN : cfg9.N = 20 := N_9
  let t : Fin cfg9.N := ⟨(i 0).val / 5000, by rw [hN]; omega⟩
  have ht : t.val = (i 0).val / 5000 := rfl
  obtain ⟨e0, e1⟩ := idxTile9_6 t
  refine ⟨t, flush9_6 t, ?_⟩
  rw [mem_blk9]
  intro a
  match a with
  | ⟨0, _⟩ => show win9_6.index t (0 : Fin 2) * 5000 ≤ (i 0).val ∧ (i 0).val < win9_6.index t (0 : Fin 2) * 5000 + 5000; omega
  | ⟨1, _⟩ => show win9_6.index t (1 : Fin 2) * 64 ≤ (i 1).val ∧ (i 1).val < win9_6.index t (1 : Fin 2) * 64 + 64; omega

/-- REGION 9'S VALUE: after the region its output array holds the normalised, rectified rows plus the residual, of
    the arrays as the region found them. -/
theorem val9 : (dat9 V c).arrAt 6 cfg9.N
    = (bnNorm (M := 100000) (N := 64) (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))) :=
  (dat9 V c).arrAt_eq_of_cover 6 _ (fun t _ => flushed9_eq V c t) (cover9)

end Cert.KernelIdeal.RegVal

end
-- ==== Proof.RegA10.lean ====
/-
  Region 10 of the network's program, a weight product: what it leaves in its output array.

  The region walks 20 points. Point t stages rows 5000 t .. 5000 t + 4999 (all 64 columns) of the input array
  X [100000, 64] and the whole weight W [64, 64], multiplies the row block by the weight on the matrix unit into a
  zero accumulator, and writes the [5000, 64] product back to the same rows of the output array. A row block of X
  times W is the same rows of X · W, and the 20 row blocks tile the 100000 rows, so the output array ends holding
  X · W, whatever it held before.
-/
import proofs.«109724_j81406810128840_1_alg».proof.Proof.Gen.KernelIdeal.Frame
import proofs.«109724_j81406810128840_1_alg».proof.Proof.LibRegARowBlocks
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.RowBlocks

variable (V : (c : Dev nD) → (b : Ref sig .tc) → Buf (Elt Ideal) ((c : Thread nD τ).loc b)) (c : Dev nD)

/-- The printed index maps, decided over the 20 points: the input and the output move down one row block per point,
    the weight stays. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- The input window's block at point t is the rows of the input array from row 5000 t on. -/
theorem rows10_0 (t : Fin cfg10.N) :
    IsRows (M := 100000) (N := 64) (m := 5000) (t.val * 5000) (V c (Pipeline.arrRef spec10 0)) (iblk10 V c 0 t) := by
  intro y i h0 h1
  obtain ⟨e0, e1, -⟩ := idx10 t
  show V c (Pipeline.arrRef spec10 0) (((cfg10.win 0).blk t).view.emb y) = V c (Pipeline.arrRef spec10 0) i
  refine congrArg _ (funext fun a => Fin.ext ?_)
  match a with
  | ⟨0, _⟩ => show win10_0.index t (0 : Fin 2) * 5000 + 1 * (y 0).val = (i 0).val; omega
  | ⟨1, _⟩ => show win10_0.index t (1 : Fin 2) * 64 + 1 * (y 1).val = (i 1).val; omega

/-- The weight window's block at every point is the whole weight. -/
theorem whole10_1 (t : Fin cfg10.N) :
    (iblk10 V c 1 t : FVec Ideal S64x64 .f32) = V c (Pipeline.arrRef spec10 1) := by
  funext y
  obtain ⟨-, -, e2, e3, -⟩ := idx10 t
  show V c (Pipeline.arrRef spec10 1) (((cfg10.win 1).blk t).view.emb y) = V c (Pipeline.arrRef spec10 1) y
  refine congrArg _ (funext fun a => Fin.ext ?_)
  match a with
  | ⟨0, _⟩ => show win10_1.index t (0 : Fin 2) * 64 + 1 * (y 0).val = (y 0).val; omega
  | ⟨1, _⟩ => show win10_1.index t (1 : Fin 2) * 64 + 1 * (y 1).val = (y 1).val; omega

/-- What point t writes back is block t of the product of the two arrays as the region finds them. -/
theorem flushed10_eq (t : Fin cfg10.N) :
    (dat10 V c).flushed 2 t = ((cfg10.win 2).blk t).view.read (Elt Ideal)
      (mm (M := 100000) (K := 64) (N := 64) (V c (Pipeline.arrRef spec10 0)) (V c (Pipeline.arrRef spec10 1))) := by
  obtain ⟨-, -, -, -, e4, e5⟩ := idx10 t
  show (cfg10.win 2).cut (grid10.coords t) ((dat10 V c).after 2 t) = _
  rw [after10_2]
  unfold out10_2
  rw [View.canon_unit_zero hz2]
  simp only [View.ld_unit_zero (S := S5000x64) hz2, View.ld_unit_zero (S := S64x64) hz2]
  funext j
  refine (congrFun (pay10_eq (iblk10 V c 0 t) (iblk10 V c 1 t)) j).trans ?_
  refine mm_rows_of_eq (rows10_0 V c t) (whole10_1 V c t) j (((cfg10.win 2).blk t).view.emb j) ?_ ?_
  · show win10_2.index t (0 : Fin 2) * 5000 + 1 * (j 0).val = t.val * 5000 + (j 0).val; omega
  · show win10_2.index t (1 : Fin 2) * 64 + 1 * (j 1).val = (j 1).val; omega

/-- An index of the output array is in point t's block iff each coordinate is in the block's range on its axis. -/
theorem mem_blk10 (t : Fin cfg10.N) (i : S100000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole main_v134).slice (win10_2.rect t)).set ↔ _
  rw [View.set_slice_whole, Rect.mem_set_unit]
  exact Iff.rfl

/-- Every index of the output array is in the block of the point its row falls in. -/
theorem cover10 (i : S100000x64.Idx) :
    ∃ t : Fin cfg10.N, (cfg10.win 2).flush t = true ∧ i ∈ ((cfg10.win 2).blk t).view.set := by
  have hi0 : (i 0).val < 100000 := (i 0).isLt
  have hi1 : (i 1).val < 64 := (i 1).isLt
  have hN : cfg10.N = 20 := N_10
  let t : Fin cfg10.N := ⟨(i 0).val / 5000, by rw [hN]; omega⟩
  have ht : t.val = (i 0).val / 5000 := rfl
  obtain ⟨-, -, -, -, e4, e5⟩ := idx10 t
  refine ⟨t, flush10_2 t, ?_⟩
  rw [mem_blk10]
  intro a
  match a with
  | ⟨0, _⟩ => show win10_2.index t (0 : Fin 2) * 5000 ≤ (i 0).val ∧ (i 0).val < win10_2.index t (0 : Fin 2) * 5000 + 5000; omega
  | ⟨1, _⟩ => show win10_2.index t (1 : Fin 2) * 64 ≤ (i 1).val ∧ (i 1).val < win10_2.index t (1 : Fin 2) * 64 + 64; omega

/-- REGION 10'S VALUE: after the region its output array holds the product of its input array and its weight, as
    the region found them. -/
theorem val10 : (dat10 V c).arrAt 2 cfg10.N
    = mm (M := 100000) (K := 64) (N := 64) (V c (Pipeline.arrRef spec10 0)) (V c (Pipeline.arrRef spec10 1)) :=
  (dat10 V c).arrAt_eq_of_cover 2 _ (fun t _ => flushed10_eq V c t) (cover10)

end Cert.KernelIdeal.RegVal

end
-- ==== Proof.RegA12.lean ====
/-
  Region 12 of the network's program, a normalisation stage: what it leaves in its output array.

  The region walks 20 points. Point t stages rows 5000 t .. 5000 t + 4999 (all 64 columns) of the pre-normalisation
  array A [100000, 64] and of the residual array R [100000, 64], and the four whole [1, 64] rows (mean, variance,
  scale, shift); it centres, scales by the reciprocal square root of the offset variance, scales and shifts,
  rectifies and adds the residual, entry by entry, and writes the [5000, 64] result back to the same rows of the
  output array. Every entry depends only on its own row of A and R and on its own column of the four rows, so a row
  block of the inputs gives the same rows of the normalised array; the 20 row blocks tile the 100000 rows, so the
  output array ends holding the normalised array, whatever it held before.
-/
import proofs.«109724_j81406810128840_1_alg».proof.Proof.Gen.KernelIdeal.Frame
import proofs.«109724_j81406810128840_1_alg».proof.Proof.RegARows
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.RowBlocks Cert.RegSpec

variable (V : (c : Dev nD) → (b : Ref sig .tc) → Buf (Elt Ideal) ((c : Thread nD τ).loc b)) (c : Dev nD)

/-! The printed index maps, decided over the 20 points: the two tiled inputs and the output move down one row block
    per point, the four rows stay. -/
theorem idxTile12_0 : ∀ t : Fin cfg12.N, win12_0.index t (0 : Fin 2) = t.val ∧ win12_0.index t (1 : Fin 2) = 0 :=
  (by decide +kernel : ∀ t : Fin grid12.N, _)
theorem idxRow12_1 : ∀ t : Fin cfg12.N, win12_1.index t (0 : Fin 2) = 0 ∧ win12_1.index t (1 : Fin 2) = 0 :=
  (by decide +kernel : ∀ t : Fin grid12.N, _)
theorem idxRow12_2 : ∀ t : Fin cfg12.N, win12_2.index t (0 : Fin 2) = 0 ∧ win12_2.index t (1 : Fin 2) = 0 :=
  (by decide +kernel : ∀ t : Fin grid12.N, _)
theorem idxRow12_3 : ∀ t : Fin cfg12.N, win12_3.index t (0 : Fin 2) = 0 ∧ win12_3.index t (1 : Fin 2) = 0 :=
  (by decide +kernel : ∀ t : Fin grid12.N, _)
theorem idxRow12_4 : ∀ t : Fin cfg12.N, win12_4.index t (0 : Fin 2) = 0 ∧ win12_4.index t (1 : Fin 2) = 0 :=
  (by decide +kernel : ∀ t : Fin grid12.N, _)
theorem idxTile12_5 : ∀ t : Fin cfg12.N, win12_5.index t (0 : Fin 2) = t.val ∧ win12_5.index t (1 : Fin 2) = 0 :=
  (by decide +kernel : ∀ t : Fin grid12.N, _)
theorem idxTile12_6 : ∀ t : Fin cfg12.N, win12_6.index t (0 : Fin 2) = t.val ∧ win12_6.index t (1 : Fin 2) = 0 :=
  (by decide +kernel : ∀ t : Fin grid12.N, _)

/-- The pre-normalisation window's block at point t is the rows of its array from row 5000 t on. -/
theorem rows12_0 (t : Fin cfg12.N) :
    IsRows (M := 100000) (N := 64) (m := 5000) (t.val * 5000) (V c (Pipeline.arrRef spec12 0)) (iblk12 V c 0 t) := by
  intro y i h0 h1
  obtain ⟨e0, e1⟩ := idxTile12_0 t
  show V c (Pipeline.arrRef spec12 0) (((cfg12.win 0).blk t).view.emb y) = V c (Pipeline.arrRef spec12 0) i
  refine congrArg _ (funext fun a => Fin.ext ?_)
  match a with
  | ⟨0, _⟩ => show win12_0.index t (0 : Fin 2) * 5000 + 1 * (y 0).val = (i 0).val; omega
  | ⟨1, _⟩ => show win12_0.index t (1 : Fin 2) * 64 + 1 * (y 1).val = (i 1).val; omega

/-- The mean window's block at every point is the whole mean row. -/
theorem whole12_1 (t : Fin cfg12.N) :
    (iblk12 V c 1 t : FVec Ideal S1x64 .f32) = V c (Pipeline.arrRef spec12 1) := by
  funext y
  obtain ⟨e0, e1⟩ := idxRow12_1 t
  show V c (Pipeline.arrRef spec12 1) (((cfg12.win 1).blk t).view.emb y) = V c (Pipeline.arrRef spec12 1) y
  refine congrArg _ (funext fun a => Fin.ext ?_)
  match a with
  | ⟨0, _⟩ => show win12_1.index t (0 : Fin 2) * 1 + 1 * (y 0).val = (y 0).val; omega
  | ⟨1, _⟩ => show win12_1.index t (1 : Fin 2) * 64 + 1 * (y 1).val = (y 1).val; omega

/-- The variance window's block at every point is the whole variance row. -/
theorem whole12_2 (t : Fin cfg12.N) :
    (iblk12 V c 2 t : FVec Ideal S1x64 .f32) = V c (Pipeline.arrRef spec12 2) := by
  funext y
  obtain ⟨e0, e1⟩ := idxRow12_2 t
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 64 + 1 * (y 1).val = (y 1).val; omega

/-- The scale window's block at every point is the whole scale row. -/
theorem whole12_3 (t : Fin cfg12.N) :
    (iblk12 V c 3 t : FVec Ideal S1x64 .f32) = V c (Pipeline.arrRef spec12 3) := by
  funext y
  obtain ⟨e0, e1⟩ := idxRow12_3 t
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 1 + 1 * (y 0).val = (y 0).val; omega
  | ⟨1, _⟩ => show win12_3.index t (1 : Fin 2) * 64 + 1 * (y 1).val = (y 1).val; omega

/-- The shift window's block at every point is the whole shift row. -/
theorem whole12_4 (t : Fin cfg12.N) :
    (iblk12 V c 4 t : FVec Ideal S1x64 .f32) = V c (Pipeline.arrRef spec12 4) := by
  funext y
  obtain ⟨e0, e1⟩ := idxRow12_4 t
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 1 + 1 * (y 0).val = (y 0).val; omega
  | ⟨1, _⟩ => show win12_4.index t (1 : Fin 2) * 64 + 1 * (y 1).val = (y 1).val; omega

/-- The residual window's block at point t is the rows of its array from row 5000 t on. -/
theorem rows12_5 (t : Fin cfg12.N) :
    IsRows (M := 100000) (N := 64) (m := 5000) (t.val * 5000) (V c (Pipeline.arrRef spec12 5)) (iblk12 V c 5 t) := by
  intro y i h0 h1
  obtain ⟨e0, e1⟩ := idxTile12_5 t
  show V c (Pipeline.arrRef spec12 5) (((cfg12.win 5).blk t).view.emb y) = V c (Pipeline.arrRef spec12 5) i
  refine congrArg _ (funext fun a => Fin.ext ?_)
  match a with
  | ⟨0, _⟩ => show win12_5.index t (0 : Fin 2) * 5000 + 1 * (y 0).val = (i 0).val; omega
  | ⟨1, _⟩ => show win12_5.index t (1 : Fin 2) * 64 + 1 * (y 1).val = (i 1).val; omega

/-- What point t writes back is block t of the normalised array of the arrays as the region finds them. -/
theorem flushed12_eq (t : Fin cfg12.N) :
    (dat12 V c).flushed 6 t = ((cfg12.win 6).blk t).view.read (Elt Ideal)
      (bnNorm (M := 100000) (N := 64) (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))) := by
  obtain ⟨e0, e1⟩ := idxTile12_6 t
  show (cfg12.win 6).cut (grid12.coords t) ((dat12 V c).after 6 t) = _
  rw [after12_6]
  unfold out12_6
  rw [View.canon_unit_zero hz2]
  simp only [View.ld_unit_zero (S := S5000x64) hz2, View.ld_unit_zero (S := S1x64) hz2]
  funext j
  refine (congrFun (pay12_eq (iblk12 V c 0 t) (iblk12 V c 1 t) (iblk12 V c 2 t) (iblk12 V c 3 t) (iblk12 V c 4 t) (iblk12 V c 5 t)) j).trans ?_
  refine bnNorm_rows_of_eq (rows12_0 V c t) (rows12_5 V c t) (whole12_1 V c t) (whole12_2 V c t) (whole12_3 V c t) (whole12_4 V c t)
    j (((cfg12.win 6).blk t).view.emb j) ?_ ?_
  · show win12_6.index t (0 : Fin 2) * 5000 + 1 * (j 0).val = t.val * 5000 + (j 0).val; omega
  · show win12_6.index t (1 : Fin 2) * 64 + 1 * (j 1).val = (j 1).val; omega

/-- An index of the output array is in point t's block iff each coordinate is in the block's range on its axis. -/
theorem mem_blk12 (t : Fin cfg12.N) (i : S100000x64.Idx) :
    i ∈ ((cfg12.win 6).blk t).view.set ↔ ∀ a : Fin 2, win12_6.index t a * S5000x64.size a ≤ (i a).val ∧ (i a).val < win12_6.index t a * S5000x64.size a + S5000x64.size a := by
  show i ∈ ((View.whole main_v164).slice (win12_6.rect t)).set ↔ _
  rw [View.set_slice_whole, Rect.mem_set_unit]
  exact Iff.rfl

/-- Every index of the output array is in the block of the point its row falls in. -/
theorem cover12 (i : S100000x64.Idx) :
    ∃ t : Fin cfg12.N, (cfg12.win 6).flush t = true ∧ i ∈ ((cfg12.win 6).blk t).view.set := by
  have hi0 : (i 0).val < 100000 := (i 0).isLt
  have hi1 : (i 1).val < 64 := (i 1).isLt
  have hN : cfg12.N = 20 := N_12
  let t : Fin cfg12.N := ⟨(i 0).val / 5000, by rw [hN]; omega⟩
  have ht : t.val = (i 0).val / 5000 := rfl
  obtain ⟨e0, e1⟩ := idxTile12_6 t
  refine ⟨t, flush12_6 t, ?_⟩
  rw [mem_blk12]
  intro a
  match a with
  | ⟨0, _⟩ => show win12_6.index t (0 : Fin 2) * 5000 ≤ (i 0).val ∧ (i 0).val < win12_6.index t (0 : Fin 2) * 5000 + 5000; omega
  | ⟨1, _⟩ => show win12_6.index t (1 : Fin 2) * 64 ≤ (i 1).val ∧ (i 1).val < win12_6.index t (1 : Fin 2) * 64 + 64; omega

/-- REGION 12'S VALUE: after the region its output array holds the normalised, rectified rows plus the residual, of
    the arrays as the region found them. -/
theorem val12 : (dat12 V c).arrAt 6 cfg12.N
    = (bnNorm (M := 100000) (N := 64) (V c (Pipeline.arrRef spec12 0)) (V c (Pipeline.arrRef spec12 1)) (V c (Pipeline.arrRef spec12 2))
        (V c (Pipeline.arrRef spec12 3)) (V c (Pipeline.arrRef spec12 4)) (V c (Pipeline.arrRef spec12 5))) :=
  (dat12 V c).arrAt_eq_of_cover 6 _ (fun t _ => flushed12_eq V c t) (cover12)

end Cert.KernelIdeal.RegVal

end
-- ==== Proof.RegA13.lean ====
/-
  Region 13 of the network's program, the read-out stage: what it leaves in its output array.

  The region has one point. It stages the whole pooled array P [256, 64], the two weights W1 [64, 32] and W2 [32, 1]
  and the two bias rows b1 [1, 32] and b2 [1, 1], computes max(P · W1 + b1, 0) · W2 + b2 on the matrix unit (zero
  accumulators, biases broadcast over the rows), and writes the [256, 1] result back as the whole output array. Every
  block is its whole array, so the output array ends holding that expression of the arrays as the region found them.
-/
import proofs.«109724_j81406810128840_1_alg».proof.Proof.Gen.KernelIdeal.Frame
import proofs.«109724_j81406810128840_1_alg».proof.Proof.RegAPay
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b)) (c : Dev nD)

/-! The printed index maps at the one point: every window's block index is (0, 0). -/
theorem idx13_0 : ∀ t : Fin cfg13.N, win13_0.index t (0 : Fin 2) = 0 ∧ win13_0.index t (1 : Fin 2) = 0 :=
  (by decide +kernel : ∀ t : Fin grid13.N, _)
theorem idx13_1 : ∀ t : Fin cfg13.N, win13_1.index t (0 : Fin 2) = 0 ∧ win13_1.index t (1 : Fin 2) = 0 :=
  (by decide +kernel : ∀ t : Fin grid13.N, _)
theorem idx13_2 : ∀ t : Fin cfg13.N, win13_2.index t (0 : Fin 2) = 0 ∧ win13_2.index t (1 : Fin 2) = 0 :=
  (by decide +kernel : ∀ t : Fin grid13.N, _)
theorem idx13_3 : ∀ t : Fin cfg13.N, win13_3.index t (0 : Fin 2) = 0 ∧ win13_3.index t (1 : Fin 2) = 0 :=
  (by decide +kernel : ∀ t : Fin grid13.N, _)
theorem idx13_4 : ∀ t : Fin cfg13.N, win13_4.index t (0 : Fin 2) = 0 ∧ win13_4.index t (1 : Fin 2) = 0 :=
  (by decide +kernel : ∀ t : Fin grid13.N, _)
theorem idx13_5 : ∀ t : Fin cfg13.N, win13_5.index t (0 : Fin 2) = 0 ∧ win13_5.index t (1 : Fin 2) = 0 :=
  (by decide +kernel : ∀ t : Fin grid13.N, _)

/-- The pooled window's block at the one point is the whole array. -/
theorem whole13_0 (t : Fin cfg13.N) :
    (iblk13 V c 0 t : FVec Ideal S256x64 .f32) = V c (Pipeline.arrRef spec13 0) := by
  funext y
  obtain ⟨e0, e1⟩ := idx13_0 t
  show V c (Pipeline.arrRef spec13 0) (((cfg13.win 0).blk t).view.emb y) = V c (Pipeline.arrRef spec13 0) y
  refine congrArg _ (funext fun a => Fin.ext ?_)
  match a with
  | ⟨0, _⟩ => show win13_0.index t (0 : Fin 2) * 256 + 1 * (y 0).val = (y 0).val; omega
  | ⟨1, _⟩ => show win13_0.index t (1 : Fin 2) * 64 + 1 * (y 1).val = (y 1).val; omega

/-- The first weight window's block at the one point is the whole array. -/
theorem whole13_1 (t : Fin cfg13.N) :
    (iblk13 V c 1 t : FVec Ideal S64x32 .f32) = V c (Pipeline.arrRef spec13 1) := by
  funext y
  obtain ⟨e0, e1⟩ := idx13_1 t
  show V c (Pipeline.arrRef spec13 1) (((cfg13.win 1).blk t).view.emb y) = V c (Pipeline.arrRef spec13 1) y
  refine congrArg _ (funext fun a => Fin.ext ?_)
  match a with
  | ⟨0, _⟩ => show win13_1.index t (0 : Fin 2) * 64 + 1 * (y 0).val = (y 0).val; omega
  | ⟨1, _⟩ => show win13_1.index t (1 : Fin 2) * 32 + 1 * (y 1).val = (y 1).val; omega

/-- The first bias window's block at the one point is the whole array. -/
theorem whole13_2 (t : Fin cfg13.N) :
    (iblk13 V c 2 t : FVec Ideal S1x32 .f32) = V c (Pipeline.arrRef spec13 2) := by
  funext y
  obtain ⟨e0, e1⟩ := idx13_2 t
  show V c (Pipeline.arrRef spec13 2) (((cfg13.win 2).blk t).view.emb y) = V c (Pipeline.arrRef spec13 2) y
  refine congrArg _ (funext fun a => Fin.ext ?_)
  match a with
  | ⟨0, _⟩ => show win13_2.index t (0 : Fin 2) * 1 + 1 * (y 0).val = (y 0).val; omega
  | ⟨1, _⟩ => show win13_2.index t (1 : Fin 2) * 32 + 1 * (y 1).val = (y 1).val; omega

/-- The second weight window's block at the one point is the whole array. -/
theorem whole13_3 (t : Fin cfg13.N) :
    (iblk13 V c 3 t : FVec Ideal S32x1 .f32) = V c (Pipeline.arrRef spec13 3) := by
  funext y
  obtain ⟨e0, e1⟩ := idx13_3 t
  show V c (Pipeline.arrRef spec13 3) (((cfg13.win 3).blk t).view.emb y) = V c (Pipeline.arrRef spec13 3) y
  refine congrArg _ (funext fun a => Fin.ext ?_)
  match a with
  | ⟨0, _⟩ => show win13_3.index t (0 : Fin 2) * 32 + 1 * (y 0).val = (y 0).val; omega
  | ⟨1, _⟩ => show win13_3.index t (1 : Fin 2) * 1 + 1 * (y 1).val = (y 1).val; omega

/-- The second bias window's block at the one point is the whole array. -/
theorem whole13_4 (t : Fin cfg13.N) :
    (iblk13 V c 4 t : FVec Ideal S1x1 .f32) = V c (Pipeline.arrRef spec13 4) := by
  funext y
  obtain ⟨e0, e1⟩ := idx13_4 t
  show V c (Pipeline.arrRef spec13 4) (((cfg13.win 4).blk t).view.emb y) = V c (Pipeline.arrRef spec13 4) y
  refine congrArg _ (funext fun a => Fin.ext ?_)
  match a with
  | ⟨0, _⟩ => show win13_4.index t (0 : Fin 2) * 1 + 1 * (y 0).val = (y 0).val; omega
  | ⟨1, _⟩ => show win13_4.index t (1 : Fin 2) * 1 + 1 * (y 1).val = (y 1).val; omega

/-- The read-out expression of equal operands. -/
theorem readout_congr {p P : (⟨2, ![256, 64]⟩ : Shape).Idx → EReal} {w1 W1 : (⟨2, ![64, 32]⟩ : Shape).Idx → EReal}
    {b1 B1 : (⟨2, ![1, 32]⟩ : Shape).Idx → EReal} {w2 W2 : (⟨2, ![32, 1]⟩ : Shape).Idx → EReal}
    {b2 B2 : (⟨2, ![1, 1]⟩ : Shape).Idx → EReal}
    (h0 : p = P) (h1 : w1 = W1) (h2 : b1 = B1) (h3 : w2 = W2) (h4 : b2 = B2) :
    addRow (mm (relu (addRow (mm p w1) b1)) w2) b2 = addRow (mm (relu (addRow (mm P W1) B1)) W2) B2 := by
  rw [h0, h1, h2, h3, h4]

/-- The read-out expression of the arrays as the region finds them. -/
def readout13 : FVec Ideal S256x1 .f32 :=
  addRow (M := 256) (N := 1) (mm (M := 256) (K := 32) (N := 1) (relu (addRow (M := 256) (N := 32)
        (mm (M := 256) (K := 64) (N := 32) (V c (Pipeline.arrRef spec13 0)) (V c (Pipeline.arrRef spec13 1))) (V c (Pipeline.arrRef spec13 2))))
        (V c (Pipeline.arrRef spec13 3))) (V c (Pipeline.arrRef spec13 4))

/-- What the body leaves in the output's staging buffer at the one point: the read-out expression. -/
theorem after13_eq (t : Fin cfg13.N) : (dat13 V c).after 5 t = readout13 V c := by
  rw [after13_5]
  unfold out13_5
  rw [View.canon_unit_zero hz2]
  simp only [View.ld_unit_zero (S := S256x64) hz2, View.ld_unit_zero (S := S64x32) hz2, View.ld_unit_zero (S := S1x32) hz2,
    View.ld_unit_zero (S := S32x1) hz2, View.ld_unit_zero (S := S1x1) hz2]
  refine (pay13_eq (iblk13 V c 0 t) (iblk13 V c 1 t) (iblk13 V c 2 t) (iblk13 V c 3 t) (iblk13 V c 4 t)).trans ?_
  exact readout_congr (whole13_0 V c t) (whole13_1 V c t) (whole13_2 V c t) (whole13_3 V c t) (whole13_4 V c t)

/-- The output window's block at the one point, read off any contents of the output array, is those contents. -/
theorem read13 (G : FVec Ideal S256x1 .f32) (t : Fin cfg13.N) :
    ((cfg13.win 5).blk t).view.read (Elt Ideal) G = G := by
  obtain ⟨e0, e1⟩ := idx13_5 t
  funext j
  show G (((cfg13.win 5).blk t).view.emb j) = G j
  refine congrArg G (funext fun a => Fin.ext ?_)
  match a with
  | ⟨0, _⟩ => show win13_5.index t (0 : Fin 2) * 256 + 1 * (j 0).val = (j 0).val; omega
  | ⟨1, _⟩ => show win13_5.index t (1 : Fin 2) * 1 + 1 * (j 1).val = (j 1).val; omega

/-- What the one point writes back is the whole read-out expression of the arrays as the region finds them. -/
theorem flushed13_eq (t : Fin cfg13.N) :
    (dat13 V c).flushed 5 t = ((cfg13.win 5).blk t).view.read (Elt Ideal) (readout13 V c) := by
  refine Eq.trans ?_ (read13 (readout13 V c) t).symm
  show (cfg13.win 5).cut (grid13.coords t) ((dat13 V c).after 5 t) = readout13 V c
  exact after13_eq V c t

/-- An index of the output array is in the point's block iff each coordinate is in the block's range on its axis. -/
theorem mem_blk13 (t : Fin cfg13.N) (i : S256x1.Idx) :
    i ∈ ((cfg13.win 5).blk t).view.set ↔ ∀ a : Fin 2, win13_5.index t a * S256x1.size a ≤ (i a).val ∧ (i a).val < win13_5.index t a * S256x1.size a + S256x1.size a := by
  show i ∈ ((View.whole main_v179).slice (win13_5.rect t)).set ↔ _
  rw [View.set_slice_whole, Rect.mem_set_unit]
  exact Iff.rfl

/-- Every index of the output array is in the one point's block. -/
theorem cover13 (i : S256x1.Idx) :
    ∃ t : Fin cfg13.N, (cfg13.win 5).flush t = true ∧ i ∈ ((cfg13.win 5).blk t).view.set := by
  have hi0 : (i 0).val < 256 := (i 0).isLt
  have hi1 : (i 1).val < 1 := (i 1).isLt
  have hN : cfg13.N = 1 := N_13
  let t : Fin cfg13.N := ⟨0, by rw [hN]; omega⟩
  obtain ⟨e0, e1⟩ := idx13_5 t
  refine ⟨t, flush13_5 t, ?_⟩
  rw [mem_blk13]
  intro a
  match a with
  | ⟨0, _⟩ => show win13_5.index t (0 : Fin 2) * 256 ≤ (i 0).val ∧ (i 0).val < win13_5.index t (0 : Fin 2) * 256 + 256; omega
  | ⟨1, _⟩ => show win13_5.index t (1 : Fin 2) * 1 ≤ (i 1).val ∧ (i 1).val < win13_5.index t (1 : Fin 2) * 1 + 1; omega

/-- REGION 13'S VALUE: after the region its output array holds max(P · W1 + b1, 0) · W2 + b2 of the arrays as the
    region found them. -/
theorem val13 : (dat13 V c).arrAt 5 cfg13.N
    = (addRow (M := 256) (N := 1) (mm (M := 256) (K := 32) (N := 1) (relu (addRow (M := 256) (N := 32)
        (mm (M := 256) (K := 64) (N := 32) (V c (Pipeline.arrRef spec13 0)) (V c (Pipeline.arrRef spec13 1))) (V c (Pipeline.arrRef spec13 2))))
        (V c (Pipeline.arrRef spec13 3))) (V c (Pipeline.arrRef spec13 4))) :=
  (dat13 V c).arrAt_eq_of_cover 5 (readout13 V c) (fun t _ => flushed13_eq V c t) (cover13)

end Cert.KernelIdeal.RegVal

end
-- ==== Proof.LibRowStats.lean ====
/-
  The column statistics of a matrix with a bias row, as a kernel body computes them block by block.

  For an [M, N] block x and a [1, N] bias row b the body forms the biased block  y(r, c) = x(r, c) + b(0, c)  (the bias
  row broadcast over the rows), then, per column c, the sum over the M rows of y and of y · y, each reduced over axis 0
  into an [N] vector, laid out as a [1, N] row and added to a running [1, N] accumulator. Read at an entry over the
  extended reals: the new accumulator at (0, c) is the old one plus ∑ᵣ y(r, c), respectively plus ∑ᵣ y(r, c) · y(r, c).
  General in the extents M and N.
-/
import Idealize.ShloMosaic.Lib.ValueIdx
import Idealize.ShloMosaic.Lib.ValueLayout
import Idealize.ShloMosaic.Lib.Pipeline.Value
import Idealize.ShloMosaic.PureOps.Ideal.Laws
import proofs.«109724_j81406810128840_1_alg».proof.Proof.LibPlainDense

noncomputable section

namespace Cert.LibRowStats

open Idealize.ShloMosaic Idealize.ShloMosaic.ValueIdx Idealize.ShloMosaic.Pipeline
open scoped BigOperators

/-- The biased block: the block cast to its own shape plus the bias row, cast to its own shape, broadcast over the rows. -/
theorem biased_eq {M N : ℕ} (x : FVec Ideal (⟨2, ![M, N]⟩ : Shape) .f32) (b : FVec Ideal (⟨2, ![1, N]⟩ : Shape) .f32)
    (h1 : (⟨2, ![M, N]⟩ : Shape).ShapeCasts ⟨2, ![M, N]⟩) (h2 : (⟨2, ![1, N]⟩ : Shape).ShapeCasts ⟨2, ![1, N]⟩)
    (h3 : (⟨2, ![1, N]⟩ : Shape).Broadcasts ⟨2, ![M, N]⟩) :
    addf (shapeCast (⟨2, ![M, N]⟩ : Shape) x h1) (broadcastTo (⟨2, ![M, N]⟩ : Shape) (shapeCast (⟨2, ![1, N]⟩ : Shape) b h2) h3)
      = Cert.Gcn.addRow x b := by
  rw [shapeCast_self, shapeCast_self]
  exact Cert.Gcn.broadcastTo_row b h3 x

/-- The source index over column c with row r inserted on the reduced axis 0 is (r, c). -/
theorem lift_row {M N : ℕ} (h : Shape.Reduces (⟨2, ![M, N]⟩ : Shape) [0] (⟨1, ![N]⟩ : Shape)) (c : Fin N) (r : Fin M) :
    h.lift (ix1 c) r = ix2 r c := by
  funext a
  match a with
  | ⟨0, _⟩ => exact Fin.ext rfl
  | ⟨1, _⟩ => exact Fin.ext rfl

/-- A sum over axis 0 of an [M, N] block, read at column c: the sum over the M rows. -/
theorem colsum_apply {M N : ℕ} (src : FVec Ideal (⟨2, ![M, N]⟩ : Shape) .f32)
    (h : Shape.Reduces (⟨2, ![M, N]⟩ : Shape) [0] (⟨1, ![N]⟩ : Shape)) (hφ : FKind.Formats .f32)
    (hacc : (0x00000000#32 : BitVec 32) = FKind.add.neutral .f32 hφ) (c : Fin N) :
    multiReduction .add [0] (⟨1, ![N]⟩ : Shape) src 0x00000000#32 h hφ hacc (ix1 c) = ∑ r : Fin M, src (ix2 r c) :=
  (Ideal.multiReduction_add_single src 0x00000000#32 h hφ hacc (ix1 c)).trans
    (Finset.sum_congr rfl fun r _ => congrArg src (lift_row h c r))

/-- The accumulator's step: the running [1, N] row plus the column sums of the block laid out as a [1, N] row, at
    (u, c): the old entry plus the sum over the block's rows. -/
theorem acc_colsum_apply {M N : ℕ} (acc : FVec Ideal (⟨2, ![1, N]⟩ : Shape) .f32) (src : FVec Ideal (⟨2, ![M, N]⟩ : Shape) .f32)
    (h : Shape.Reduces (⟨2, ![M, N]⟩ : Shape) [0] (⟨1, ![N]⟩ : Shape)) (hφ : FKind.Formats .f32)
    (hacc : (0x00000000#32 : BitVec 32) = FKind.add.neutral .f32 hφ)
    (hc1 : (⟨1, ![N]⟩ : Shape).ShapeCasts ⟨2, ![1, N]⟩) (hc2 : (⟨2, ![1, N]⟩ : Shape).ShapeCasts ⟨2, ![1, N]⟩)
    (u : Fin 1) (c : Fin N) :
    addf (shapeCast (⟨2, ![1, N]⟩ : Shape) acc hc2)
        (shapeCast (⟨2, ![1, N]⟩ : Shape) (multiReduction .add [0] (⟨1, ![N]⟩ : Shape) src 0x00000000#32 h hφ hacc) hc1) (ix2 u c)
      = acc (ix2 u c) + ∑ r : Fin M, src (ix2 r c) := by
  rw [addf_apply, shapeCast_self, shapeCast_a_1a_apply, colsum_apply]

end Cert.LibRowStats

end
-- ==== Proof.RegR2Pay.lean ====
/-
  The arithmetic of the statistics body of region 2, read at an entry over the extended reals.

  With x the [5000, 64] block of aggregated rows and b the [1, 64] bias row, the body stores the biased block
  y(r, c) = x(r, c) + b(0, c); the two accumulators are reset to the zero word's value, which is 0; and each accumulator
  step adds, per column c, the sum over the block's 5000 rows of y(r, c), respectively of y(r, c) · y(r, c), to the
  running [1, 64] row.
-/
import proofs.«109724_j81406810128840_1_alg».proof.Proof.Gen.KernelIdeal.Skeleton
import proofs.«109724_j81406810128840_1_alg».proof.Proof.LibPlainDense
import proofs.«109724_j81406810128840_1_alg».proof.Proof.LibRowStats

noncomputable section

namespace Cert.KernelIdeal.RegVal

open Cert.KernelIdeal Cert.KernelIdeal.Gen
open Idealize.ShloMosaic Idealize.ShloMosaic.ValueIdx
open scoped BigOperators

/-- The stored block is the biased block. -/
theorem pay2_full (x0 : FVec Ideal S5000x64 .f32) (x1 : FVec Ideal S1x64 .f32) :
    k2_pay1 (F := Ideal) x0 x1 = Cert.Gcn.addRow x0 x1 := by
  unfold k2_pay1
  exact Cert.LibRowStats.biased_eq x0 x1 shapeCasts_S5000x64_S5000x64 shapeCasts_S1x64_S1x64 broadcasts_S1x64_S5000x64

/-- The reset value of the sum accumulator is zero. -/
theorem pay2_zero_sum (j : S1x64.Idx) : k2_pay2 (F := Ideal) j = 0 := by
  unfold k2_pay2
  show Ideal.ofBits .f32 0x00000000#32 = 0
  exact Ideal.ofBits_zero_f32

/-- The reset value of the sum-of-squares accumulator is zero. -/
theorem pay2_zero_sumsq (j : S1x64.Idx) : k2_pay3 (F := Ideal) j = 0 := by
  unfold k2_pay3
  show Ideal.ofBits .f32 0x00000000#32 = 0
  exact Ideal.ofBits_zero_f32

/-- One step of the sum accumulator: the running row plus the block's column sums. -/
theorem pay2_sum (x0 : FVec Ideal S5000x64 .f32) (x1 : FVec Ideal S1x64 .f32) (acc : FVec Ideal S1x64 .f32) (u : Fin 1) (cc : Fin 64) :
    k2_pay4 (F := Ideal) x0 x1 acc (ix2 u cc) = acc (ix2 u cc) + ∑ r : Fin 5000, Cert.Gcn.addRow x0 x1 (ix2 r cc) := by
  unfold k2_pay4
  refine (Cert.LibRowStats.acc_colsum_apply acc (k2_pay1 (F := Ideal) x0 x1) reduces_S5000x64_S64 (.inl rfl) rfl shapeCasts_S64_S1x64
    shapeCasts_S1x64_S1x64 u cc).trans ?_
  rw [pay2_full]

/-- One step of the sum-of-squares accumulator: the running row plus the column sums of the block's squares. -/
theorem pay2_sumsq (x0 : FVec Ideal S5000x64 .f32) (x1 : FVec Ideal S1x64 .f32) (acc : FVec Ideal S1x64 .f32) (u : Fin 1) (cc : Fin 64) :
    k2_pay5 (F := Ideal) x0 x1 acc (ix2 u cc)
      = acc (ix2 u cc) + ∑ r : Fin 5000, Cert.Gcn.addRow x0 x1 (ix2 r cc) * Cert.Gcn.addRow x0 x1 (ix2 r cc) := by
  unfold k2_pay5
  refine (Cert.LibRowStats.acc_colsum_apply acc (mulf (k2_pay1 (F := Ideal) x0 x1) (k2_pay1 (F := Ideal) x0 x1)) reduces_S5000x64_S64 (.inl rfl) rfl
    shapeCasts_S64_S1x64 shapeCasts_S1x64_S1x64 u cc).trans ?_
  rw [pay2_full]
  rfl

end Cert.KernelIdeal.RegVal

end
-- ==== Proof.RegR2Pieces.lean ====
/-
  What the statistics body of region 2 leaves in its three output buffers, for any float values.

  At the first grid point the body stores the biased block, resets both accumulators and then adds the block's column
  statistics to the values just reset; at every later point it stores the biased block and adds the block's column
  statistics to what the accumulators held on entry. Each buffer is written last by one store over its whole extent,
  so it holds that store's value; an accumulator read back after its reset reads the reset value.
-/
import proofs.«109724_j81406810128840_1_alg».proof.Proof.Gen.KernelIdeal.Frame
import proofs.«109724_j81406810128840_1_alg».proof.Proof.RegRCore
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)

variable {F : FTy → Type} [FloatOps F]

/-- First point, the full block: the biased block. -/
theorem out2_A_full (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond2_0 i)
    (x0 : Vec F S5000x64 .f32) (x1 : Vec F S1x64 .f32) :
    out2_A_2 c i a1 h1 a2 h2 a3 h3 a4 h4 a5 h5 hc x0 x1 = k2_pay1 x0 x1 := by
  unfold out2_A_2
  rw [View.read_writes_eq_canon _ _ _ (cover2_A_2 c i a1 h1 a2 h2 a3 h3 a4 h4 a5 h5 hc x0 x1)]
  unfold kernelRun2_A
  dsimp only
  rw [View.canon_unit_zero hz]
  simp only [View.readAt_eq_ld, h1.read_unread, h2.read_unread, View.ld_unit_zero (S := S5000x64) hz, View.ld_unit_zero (S := S1x64) hz]

/-- First point, the sum accumulator: one step from the reset value. -/
theorem out2_A_sum (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond2_0 i)
    (x0 : Vec F S5000x64 .f32) (x1 : Vec F S1x64 .f32) :
    out2_A_3 c i a1 h1 a2 h2 a3 h3 a4 h4 a5 h5 hc x0 x1 = k2_pay4 x0 x1 (k2_pay2 (F := F)) := by
  unfold out2_A_3
  rw [View.read_writes_eq_canon _ _ _ (cover2_A_3 c i a1 h1 a2 h2 a3 h3 a4 h4 a5 h5 hc x0 x1)]
  unfold kernelRun2_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- First point, the sum-of-squares accumulator: one step from the reset value. -/
theorem out2_A_sumsq (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond2_0 i)
    (x0 : Vec F S5000x64 .f32) (x1 : Vec F S1x64 .f32) :
    out2_A_4 c i a1 h1 a2 h2 a3 h3 a4 h4 a5 h5 hc x0 x1 = k2_pay5 x0 x1 (k2_pay3 (F := F)) := by
  unfold out2_A_4
  rw [View.read_writes_eq_canon _ _ _ (cover2_A_4 c i a1 h1 a2 h2 a3 h3 a4 h4 a5 h5 hc x0 x1)]
  unfold kernelRun2_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- A later point, the full block: the biased block. -/
theorem out2_B_full (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond2_0 i)
    (x0 : Vec F S5000x64 .f32) (x1 : Vec F S1x64 .f32) (xo3 : Vec F S1x64 .f32) (xo4 : Vec F S1x64 .f32) :
    out2_B_2 c i a1 h1 a2 h2 a3 h3 a4 h4 a5 h5 hc x0 x1 xo3 xo4 = k2_pay1 x0 x1 := by
  unfold out2_B_2
  rw [View.read_writes_eq_canon _ _ _ (cover2_B_2 c i a1 h1 a2 h2 a3 h3 a4 h4 a5 h5 hc x0 x1 xo3 xo4)]
  unfold kernelRun2_B
  dsimp only
  rw [View.canon_unit_zero hz]
  simp only [View.readAt_eq_ld, h1.read_unread, h2.read_unread, View.ld_unit_zero (S := S5000x64) hz, View.ld_unit_zero (S := S1x64) hz]

/-- A later point, the sum accumulator: one step from what it held. -/
theorem out2_B_sum (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond2_0 i)
    (x0 : Vec F S5000x64 .f32) (x1 : Vec F S1x64 .f32) (xo3 : Vec F S1x64 .f32) (xo4 : Vec F S1x64 .f32) :
    out2_B_3 c i a1 h1 a2 h2 a3 h3 a4 h4 a5 h5 hc x0 x1 xo3 xo4 = k2_pay4 x0 x1 xo3 := by
  unfold out2_B_3
  rw [View.read_writes_eq_canon _ _ _ (cover2_B_3 c i a1 h1 a2 h2 a3 h3 a4 h4 a5 h5 hc x0 x1 xo3 xo4)]
  unfold kernelRun2_B
  dsimp only
  rw [View.canon_unit_zero hz]
  simp only [View.readAt_eq_ld, h1.read_unread, h2.read_unread, h4.read_unread, View.ld_unit_zero (S := S5000x64) hz, View.ld_unit_zero (S := S1x64) hz]

/-- A later point, the sum-of-squares accumulator: one step from what it held. -/
theorem out2_B_sumsq (c : Dev nD) (i : grid2.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond2_0 i)
    (x0 : Vec F S5000x64 .f32) (x1 : Vec F S1x64 .f32) (xo3 : Vec F S1x64 .f32) (xo4 : Vec F S1x64 .f32) :
    out2_B_4 c i a1 h1 a2 h2 a3 h3 a4 h4 a5 h5 hc x0 x1 xo3 xo4 = k2_pay5 x0 x1 xo4 := by
  unfold out2_B_4
  rw [View.read_writes_eq_canon _ _ _ (cover2_B_4 c i a1 h1 a2 h2 a3 h3 a4 h4 a5 h5 hc x0 x1 xo3 xo4)]
  unfold kernelRun2_B
  dsimp only
  rw [View.canon_unit_zero hz]
  simp only [View.readAt_eq_ld, h1.read_unread, h2.read_unread, h5.read_unread, View.ld_unit_zero (S := S5000x64) hz, View.ld_unit_zero (S := S1x64) hz]

variable (V : (c : Dev nD) → (b : Ref sig .tc) → Buf (Elt F) ((c : Thread nD τ).loc b))

/-- The three buffers after the first point. -/
theorem outs2_first (c : Dev nD) (t : Fin cfg2.N) (h0 : t.val % 20 = 0) :
    outsAt2 V c t.val t.isLt
      = (k2_pay1 (iblk2 V c 0 t) (iblk2 V c 1 t), k2_pay4 (iblk2 V c 0 t) (iblk2 V c 1 t) (k2_pay2 (F := F)),
          k2_pay5 (iblk2 V c 0 t) (iblk2 V c 1 t) (k2_pay3 (F := F))) := by
  rw [outsAt2_A V c t h0,
    out2_A_full c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t),
    out2_A_sum c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t),
    out2_A_sumsq c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)]

/-- The three buffers after a later point, from the accumulators after the point before. -/
theorem outs2_later (c : Dev nD) (t : Fin cfg2.N) (h0 : ¬t.val % 20 = 0) :
    outsAt2 V c t.val t.isLt
      = (k2_pay1 (iblk2 V c 0 t) (iblk2 V c 1 t),
          k2_pay4 (iblk2 V c 0 t) (iblk2 V c 1 t) (outsAt2 V c (t.val - 1) (Nat.lt_of_le_of_lt (Nat.sub_le _ _) t.isLt)).2.1,
          k2_pay5 (iblk2 V c 0 t) (iblk2 V c 1 t) (outsAt2 V c (t.val - 1) (Nat.lt_of_le_of_lt (Nat.sub_le _ _) t.isLt)).2.2) := by
  rw [outsAt2_B V c t h0,
    out2_B_full c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t)
      (outsAt2 V c (t.val - 1) (Nat.lt_of_le_of_lt (Nat.sub_le _ _) t.isLt)).2.1 (outsAt2 V c (t.val - 1) (Nat.lt_of_le_of_lt (Nat.sub_le _ _) t.isLt)).2.2,
    out2_B_sum c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t)
      (outsAt2 V c (t.val - 1) (Nat.lt_of_le_of_lt (Nat.sub_le _ _) t.isLt)).2.1 (outsAt2 V c (t.val - 1) (Nat.lt_of_le_of_lt (Nat.sub_le _ _) t.isLt)).2.2,
    out2_B_sumsq c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t)
      (outsAt2 V c (t.val - 1) (Nat.lt_of_le_of_lt (Nat.sub_le _ _) t.isLt)).2.1 (outsAt2 V c (t.val - 1) (Nat.lt_of_le_of_lt (Nat.sub_le _ _) t.isLt)).2.2]

end Cert.KernelIdeal.RegVal

end
-- ==== Proof.RegR2Val.lean ====
/-
  The values region 2 leaves in its three result arrays, over the extended reals.

  The region reads the aggregated rows AGG, a [100000, 64] array, in 20 blocks of 5000 rows, and a [1, 64] bias row BIAS,
  whole at every point. Row r of block t is row 5000 · t + r of AGG. Write Y(r, c) = AGG(r, c) + BIAS(0, c) for the
  biased array. Every point writes its block of Y back to the first result, so that array ends as Y. The two [1, 64]
  accumulators stay in place across the 20 points: reset to 0 at the first, each point adds its block's column sums of
  Y, respectively of Y · Y; after point n they hold the sums over the rows of blocks 0 to n, and the last point's
  contents, the sums over all 100000 rows, are what is written back. Only commutativity and associativity of addition
  are used; no entry needs to be finite.
-/
import proofs.«109724_j81406810128840_1_alg».proof.Proof.Gen.KernelIdeal.Frame
import proofs.«109724_j81406810128840_1_alg».proof.Proof.RegRCore
import proofs.«109724_j81406810128840_1_alg».proof.Proof.RegR2Pay
import proofs.«109724_j81406810128840_1_alg».proof.Proof.RegR2Pieces
import proofs.«109724_j81406810128840_1_alg».proof.Proof.LibPlainDense
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The aggregated rows as the region finds them. -/
abbrev agg2 : FVec Ideal S100000x64 .f32 := V c (Pipeline.arrRef spec2 0)
/-- The bias row as the region finds it. -/
abbrev bias2 : FVec Ideal S1x64 .f32 := V c (Pipeline.arrRef spec2 1)
/-- The biased array Y. -/
abbrev biased2 : FVec Ideal S100000x64 .f32 := Cert.Gcn.addRow (agg2 V c) (bias2 V c)

/-- The printed block indices, decided over the 20 points: the two tiled windows sit at block (t, 0), the others at (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- A point's number is below 20, so its rows are among the 100000. -/
theorem row_lt2 (t : Fin cfg2.N) (r : Fin 5000) : t.val * 5000 + r.val < 100000 := by
  have hN : cfg2.N = 20 := N_2
  have := t.isLt
  have := r.isLt
  omega

theorem succ_le2 {n : ℕ} (h : n < cfg2.N) : n + 1 ≤ 20 := by
  have hN : cfg2.N = 20 := N_2
  omega

/-! ## Where a block's entry sits in its array -/

theorem emb2_0 (t : Fin cfg2.N) (r : Fin 5000) (cc : Fin 64) :
    ((cfg2.win 0).blk t).view.emb (ix2 r cc) = (ix2 (⟨t.val * 5000 + r.val, row_lt2 t r⟩ : Fin 100000) cc : S100000x64.Idx) := by
  obtain ⟨e0, e1, -⟩ := idx2 t
  funext a; apply Fin.ext
  match a with
  | ⟨0, _⟩ => show win2_0.index t (0 : Fin 2) * 5000 + 1 * r.val = t.val * 5000 + r.val; rw [e0]; omega
  | ⟨1, _⟩ => show win2_0.index t (1 : Fin 2) * 64 + 1 * cc.val = cc.val; rw [e1]; omega

theorem emb2_1 (t : Fin cfg2.N) (u : Fin 1) (cc : Fin 64) :
    ((cfg2.win 1).blk t).view.emb (ix2 u cc) = (ix2 u cc : S1x64.Idx) := by
  obtain ⟨-, -, e0, e1, -⟩ := idx2 t
  funext a; apply Fin.ext
  match a with
  | ⟨0, _⟩ => show win2_1.index t (0 : Fin 2) * 1 + 1 * u.val = u.val; rw [e0]; omega
  | ⟨1, _⟩ => show win2_1.index t (1 : Fin 2) * 64 + 1 * cc.val = cc.val; rw [e1]; omega

theorem emb2_2 (t : Fin cfg2.N) (r : Fin 5000) (cc : Fin 64) :
    ((cfg2.win 2).blk t).view.emb (ix2 r cc) = (ix2 (⟨t.val * 5000 + r.val, row_lt2 t r⟩ : Fin 100000) cc : S100000x64.Idx) := by
  obtain ⟨-, -, -, -, e0, e1, -⟩ := idx2 t
  funext a; apply Fin.ext
  match a with
  | ⟨0, _⟩ => show win2_2.index t (0 : Fin 2) * 5000 + 1 * r.val = t.val * 5000 + r.val; rw [e0]; omega
  | ⟨1, _⟩ => show win2_2.index t (1 : Fin 2) * 64 + 1 * cc.val = cc.val; rw [e1]; omega

theorem emb2_3 (t : Fin cfg2.N) (u : Fin 1) (cc : Fin 64) :
    ((cfg2.win 3).blk t).view.emb (ix2 u cc) = (ix2 u cc : S1x64.Idx) := by
  obtain ⟨-, -, -, -, -, -, e0, e1, -⟩ := idx2 t
  funext a; apply Fin.ext
  match a with
  | ⟨0, _⟩ => show win2_3.index t (0 : Fin 2) * 1 + 1 * u.val = u.val; rw [e0]; omega
  | ⟨1, _⟩ => show win2_3.index t (1 : Fin 2) * 64 + 1 * cc.val = cc.val; rw [e1]; omega

theorem emb2_4 (t : Fin cfg2.N) (u : Fin 1) (cc : Fin 64) :
    ((cfg2.win 4).blk t).view.emb (ix2 u cc) = (ix2 u cc : S1x64.Idx) := by
  obtain ⟨-, -, -, -, -, -, -, -, e0, e1⟩ := idx2 t
  funext a; apply Fin.ext
  match a with
  | ⟨0, _⟩ => show win2_4.index t (0 : Fin 2) * 1 + 1 * u.val = u.val; rw [e0]; omega
  | ⟨1, _⟩ => show win2_4.index t (1 : Fin 2) * 64 + 1 * cc.val = cc.val; rw [e1]; omega

/-! ## The input blocks -/

/-- Row r of the block of aggregated rows at point t is row 5000 · t + r of AGG. -/
theorem iblk2_agg (t : Fin cfg2.N) (r : Fin 5000) (cc : Fin 64) :
    (iblk2 V c 0 t : FVec Ideal S5000x64 .f32) (ix2 r cc) = agg2 V c (ix2 (⟨t.val * 5000 + r.val, row_lt2 t r⟩ : Fin 100000) cc) := by
  unfold iblk2
  rw [View.read_apply]
  exact congrArg (fun i => agg2 V c i) (emb2_0 t r cc)

/-- The bias block at every point is the whole bias row. -/
theorem iblk2_bias (t : Fin cfg2.N) (u : Fin 1) (cc : Fin 64) :
    (iblk2 V c 1 t : FVec Ideal S1x64 .f32) (ix2 u cc) = bias2 V c (ix2 u cc) := by
  unfold iblk2
  rw [View.read_apply]
  exact congrArg (fun i => bias2 V c i) (emb2_1 t u cc)

/-- The biased block at point t is block t of Y. -/
theorem block2 (t : Fin cfg2.N) (r : Fin 5000) (cc : Fin 64) (hlt : t.val * 5000 + r.val < 100000) :
    Cert.Gcn.addRow (iblk2 V c 0 t : FVec Ideal S5000x64 .f32) (iblk2 V c 1 t : FVec Ideal S1x64 .f32) (ix2 r cc)
      = biased2 V c (ix2 (⟨t.val * 5000 + r.val, hlt⟩ : Fin 100000) cc) := by
  exact congrArg₂ (fun a b : EReal => a + b) (iblk2_agg V c t r cc) (iblk2_bias V c t 0 cc)

/-! ## The three buffers after each point -/

/-- After every point the first output buffer holds the biased block. -/
theorem outs2_full (t : Fin cfg2.N) :
    (outsAt2 V c t.val t.isLt).1 = Cert.Gcn.addRow (iblk2 V c 0 t : FVec Ideal S5000x64 .f32) (iblk2 V c 1 t : FVec Ideal S1x64 .f32) := by
  by_cases h0 : t.val % 20 = 0
  · rw [outs2_first V c t h0]
    exact pay2_full (iblk2 V c 0 t) (iblk2 V c 1 t)
  · rw [outs2_later V c t h0]
    exact pay2_full (iblk2 V c 0 t) (iblk2 V c 1 t)

/-- After point n the accumulators hold the column sums of Y, and of Y · Y, over the rows of blocks 0 to n. -/
theorem outs2_acc : ∀ (n : ℕ) (h : n < cfg2.N) (u : Fin 1) (cc : Fin 64),
    (outsAt2 V c n h).2.1 (ix2 u cc) = partialSum (fun ρ => biased2 V c (ix2 ρ cc)) (n + 1) (succ_le2 h)
    ∧ (outsAt2 V c n h).2.2 (ix2 u cc)
        = partialSum (fun ρ => biased2 V c (ix2 ρ cc) * biased2 V c (ix2 ρ cc)) (n + 1) (succ_le2 h)
  | 0, h, u, cc => by
    have e : outsAt2 V c 0 h = _ := outs2_first V c ⟨0, h⟩ (Nat.zero_mod 20)
    rw [e]
    refine ⟨?_, ?_⟩
    · refine (pay2_sum (iblk2 V c 0 ⟨0, h⟩) (iblk2 V c 1 ⟨0, h⟩) (k2_pay2 (F := Ideal)) u cc).trans ?_
      rw [pay2_zero_sum, zero_add, partialSum_succ _ 0, partialSum_zero, zero_add]
      exact Finset.sum_congr rfl fun r _ => block2 V c ⟨0, h⟩ r cc _
    · refine (pay2_sumsq (iblk2 V c 0 ⟨0, h⟩) (iblk2 V c 1 ⟨0, h⟩) (k2_pay3 (F := Ideal)) u cc).trans ?_
      rw [pay2_zero_sumsq, zero_add, partialSum_succ _ 0, partialSum_zero, zero_add]
      exact Finset.sum_congr rfl fun r _ => by rw [block2 V c ⟨0, h⟩ r cc _]
  | n + 1, h, u, cc => by
    have hN : cfg2.N = 20 := N_2
    have hB : ¬(⟨n + 1, h⟩ : Fin cfg2.N).val % 20 = 0 := by dsimp only; omega
    have ih := outs2_acc n (Nat.lt_of_succ_lt h) u cc
    have e : outsAt2 V c (n + 1) h = _ := outs2_later V c ⟨n + 1, h⟩ hB
    rw [e]
    refine ⟨?_, ?_⟩
    · refine (pay2_sum (iblk2 V c 0 ⟨n + 1, h⟩) (iblk2 V c 1 ⟨n + 1, h⟩) (outsAt2 V c n (Nat.lt_of_succ_lt h)).2.1 u cc).trans ?_
      rw [ih.1, partialSum_succ _ (n + 1)]
      exact congrArg (fun z => _ + z) (Finset.sum_congr rfl fun r _ => block2 V c ⟨n + 1, h⟩ r cc _)
    · refine (pay2_sumsq (iblk2 V c 0 ⟨n + 1, h⟩) (iblk2 V c 1 ⟨n + 1, h⟩) (outsAt2 V c n (Nat.lt_of_succ_lt h)).2.2 u cc).trans ?_
      rw [ih.2, partialSum_succ _ (n + 1)]
      exact congrArg (fun z => _ + z) (Finset.sum_congr rfl fun r _ => by rw [block2 V c ⟨n + 1, h⟩ r cc _])

/-! ## What is written back, and the arrays after the region -/

/-- An index of the first result array is in point t's block iff each coordinate is in the block's range. -/
theorem mem2_2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v52_0).slice (win2_2.rect t)).set ↔ _
  rw [View.set_slice_whole, Rect.mem_set_unit]
  exact Iff.rfl

theorem mem2_3 (t : Fin cfg2.N) (i : S1x64.Idx) :
    i ∈ ((cfg2.win 3).blk t).view.set ↔ ∀ a : Fin 2, win2_3.index t a * S1x64.size a ≤ (i a).val ∧ (i a).val < win2_3.index t a * S1x64.size a + S1x64.size a := by
  show i ∈ ((View.whole main_v52_1).slice (win2_3.rect t)).set ↔ _
  rw [View.set_slice_whole, Rect.mem_set_unit]
  exact Iff.rfl

theorem mem2_4 (t : Fin cfg2.N) (i : S1x64.Idx) :
    i ∈ ((cfg2.win 4).blk t).view.set ↔ ∀ a : Fin 2, win2_4.index t a * S1x64.size a ≤ (i a).val ∧ (i a).val < win2_4.index t a * S1x64.size a + S1x64.size a := by
  show i ∈ ((View.whole main_v52_2).slice (win2_4.rect t)).set ↔ _
  rw [View.set_slice_whole, Rect.mem_set_unit]
  exact Iff.rfl

/-- Point t writes back block t of Y. -/
theorem flushed2_full (t : Fin cfg2.N) :
    (dat2 V c).flushed 2 t = ((cfg2.win 2).blk t).view.read (Elt Ideal) (biased2 V c) := by
  show (cfg2.win 2).cut (grid2.coords t) ((dat2 V c).after 2 t) = _
  rw [after2_2, outs2_full V c t]
  funext (y : S5000x64.Idx)
  obtain ⟨r, cc, rfl⟩ : ∃ (r : Fin 5000) (cc : Fin 64), y = ix2 r cc := ⟨y 0, y 1, eq_ix2 y⟩
  rw [View.read_apply]
  show Cert.Gcn.addRow (iblk2 V c 0 t : FVec Ideal S5000x64 .f32) (iblk2 V c 1 t : FVec Ideal S1x64 .f32) (ix2 r cc)
    = biased2 V c (((cfg2.win 2).blk t).view.emb (ix2 r cc))
  rw [emb2_2 t r cc]
  exact block2 V c t r cc _

/-- Every row lies in the block of the point numbered by its tile. -/
theorem cover2_full (i : S100000x64.Idx) :
    ∃ t : Fin cfg2.N, (cfg2.win 2).flush t = true ∧ i ∈ ((cfg2.win 2).blk t).view.set := by
  have hN : cfg2.N = 20 := N_2
  have h0 : (i 0).val < 100000 := (i 0).isLt
  have h1 : (i 1).val < 64 := (i 1).isLt
  obtain ⟨t, ht⟩ : ∃ t : Fin cfg2.N, t.val = (i 0).val / 5000 := ⟨⟨(i 0).val / 5000, by rw [hN]; omega⟩, rfl⟩
  refine ⟨t, flush2_2 t, ?_⟩
  rw [mem2_2]
  obtain ⟨-, -, -, -, e0, e1, -⟩ := idx2 t
  intro a
  match a with
  | ⟨0, _⟩ =>
    show win2_2.index t (0 : Fin 2) * 5000 ≤ (i 0).val ∧ (i 0).val < win2_2.index t (0 : Fin 2) * 5000 + 5000
    rw [e0]; omega
  | ⟨1, _⟩ =>
    show win2_2.index t (1 : Fin 2) * 64 ≤ (i 1).val ∧ (i 1).val < win2_2.index t (1 : Fin 2) * 64 + 64
    rw [e1]; omega

/-- The first result array ends as the biased array Y. -/
theorem val2_full : (dat2 V c).arrAt 2 cfg2.N = biased2 V c :=
  (dat2 V c).arrAt_eq_of_cover 2 (biased2 V c) (fun t _ => flushed2_full V c t) (cover2_full)

/-- What the last point writes back of the sum accumulator, for any row G its contents then agree with entry by entry. -/
theorem flushed2_sum_of (G : FVec Ideal S1x64 .f32) (t : Fin cfg2.N)
    (hG : ∀ (u : Fin 1) (cc : Fin 64), (outsAt2 V c t.val t.isLt).2.1 (ix2 u cc) = G (ix2 u cc)) :
    (dat2 V c).flushed 3 t = ((cfg2.win 3).blk t).view.read (Elt Ideal) G := by
  show (cfg2.win 3).cut (grid2.coords t) ((dat2 V c).after 3 t) = _
  rw [after2_3]
  funext (y : S1x64.Idx)
  obtain ⟨u, cc, rfl⟩ : ∃ (u : Fin 1) (cc : Fin 64), y = ix2 u cc := ⟨y 0, y 1, eq_ix2 y⟩
  rw [View.read_apply]
  show (outsAt2 V c t.val t.isLt).2.1 (ix2 u cc) = G (((cfg2.win 3).blk t).view.emb (ix2 u cc))
  rw [emb2_3 t u cc]
  exact hG u cc

/-- The one write-back of the sum accumulator, at the last point: the column sums of Y over all rows. -/
theorem flushed2_sum (t : Fin cfg2.N) (hf : (cfg2.win 3).flush t = true) :
    (dat2 V c).flushed 3 t = ((cfg2.win 3).blk t).view.read (Elt Ideal) (colSums (biased2 V c)) :=
  flushed2_sum_of V c (colSums (biased2 V c)) t fun u cc => by
    have hN : cfg2.N = 20 := N_2
    have h19 : t.val + 1 = 20 := by have := (flush2_3 t).mp hf; have := t.isLt; omega
    rw [(outs2_acc V c t.val t.isLt u cc).1, colSums_apply, partialSum_congr _ h19 _ (le_refl 20), partialSum_all]

/-- What the last point writes back of the sum-of-squares accumulator, for any row G its contents then agree with entry by entry. -/
theorem flushed2_sumsq_of (G : FVec Ideal S1x64 .f32) (t : Fin cfg2.N)
    (hG : ∀ (u : Fin 1) (cc : Fin 64), (outsAt2 V c t.val t.isLt).2.2 (ix2 u cc) = G (ix2 u cc)) :
    (dat2 V c).flushed 4 t = ((cfg2.win 4).blk t).view.read (Elt Ideal) G := by
  show (cfg2.win 4).cut (grid2.coords t) ((dat2 V c).after 4 t) = _
  rw [after2_4]
  funext (y : S1x64.Idx)
  obtain ⟨u, cc, rfl⟩ : ∃ (u : Fin 1) (cc : Fin 64), y = ix2 u cc := ⟨y 0, y 1, eq_ix2 y⟩
  rw [View.read_apply]
  show (outsAt2 V c t.val t.isLt).2.2 (ix2 u cc) = G (((cfg2.win 4).blk t).view.emb (ix2 u cc))
  rw [emb2_4 t u cc]
  exact hG u cc

/-- The one write-back of the sum-of-squares accumulator, at the last point: the column sums of Y · Y over all rows. -/
theorem flushed2_sumsq (t : Fin cfg2.N) (hf : (cfg2.win 4).flush t = true) :
    (dat2 V c).flushed 4 t = ((cfg2.win 4).blk t).view.read (Elt Ideal) (colSumSqs (biased2 V c)) :=
  flushed2_sumsq_of V c (colSumSqs (biased2 V c)) t fun u cc => by
    have hN : cfg2.N = 20 := N_2
    have h19 : t.val + 1 = 20 := by have := (flush2_4 t).mp hf; have := t.isLt; omega
    rw [(outs2_acc V c t.val t.isLt u cc).2, colSumSqs_apply, partialSum_congr _ h19 _ (le_refl 20), partialSum_all]

/-- The last point's block of each accumulator is its whole array. -/
theorem cover2_sum (i : S1x64.Idx) :
    ∃ t : Fin cfg2.N, (cfg2.win 3).flush t = true ∧ i ∈ ((cfg2.win 3).blk t).view.set := by
  have hN : cfg2.N = 20 := N_2
  have h0 : (i 0).val < 1 := (i 0).isLt
  have h1 : (i 1).val < 64 := (i 1).isLt
  obtain ⟨t, ht⟩ : ∃ t : Fin cfg2.N, t.val = 19 := ⟨⟨19, by rw [hN]; omega⟩, rfl⟩
  refine ⟨t, (flush2_3 t).mpr (by rw [ht]), ?_⟩
  rw [mem2_3]
  obtain ⟨-, -, -, -, -, -, e0, e1, -⟩ := idx2 t
  intro a
  match a with
  | ⟨0, _⟩ =>
    show win2_3.index t (0 : Fin 2) * 1 ≤ (i 0).val ∧ (i 0).val < win2_3.index t (0 : Fin 2) * 1 + 1
    rw [e0]; omega
  | ⟨1, _⟩ =>
    show win2_3.index t (1 : Fin 2) * 64 ≤ (i 1).val ∧ (i 1).val < win2_3.index t (1 : Fin 2) * 64 + 64
    rw [e1]; omega

theorem cover2_sumsq (i : S1x64.Idx) :
    ∃ t : Fin cfg2.N, (cfg2.win 4).flush t = true ∧ i ∈ ((cfg2.win 4).blk t).view.set := by
  have hN : cfg2.N = 20 := N_2
  have h0 : (i 0).val < 1 := (i 0).isLt
  have h1 : (i 1).val < 64 := (i 1).isLt
  obtain ⟨t, ht⟩ : ∃ t : Fin cfg2.N, t.val = 19 := ⟨⟨19, by rw [hN]; omega⟩, rfl⟩
  refine ⟨t, (flush2_4 t).mpr (by rw [ht]), ?_⟩
  rw [mem2_4]
  obtain ⟨-, -, -, -, -, -, -, -, e0, e1⟩ := idx2 t
  intro a
  match a with
  | ⟨0, _⟩ =>
    show win2_4.index t (0 : Fin 2) * 1 ≤ (i 0).val ∧ (i 0).val < win2_4.index t (0 : Fin 2) * 1 + 1
    rw [e0]; omega
  | ⟨1, _⟩ =>
    show win2_4.index t (1 : Fin 2) * 64 ≤ (i 1).val ∧ (i 1).val < win2_4.index t (1 : Fin 2) * 64 + 64
    rw [e1]; omega

/-- The second result array ends as the column sums of Y over all 100000 rows. -/
theorem val2_sum : (dat2 V c).arrAt 3 cfg2.N = colSums (biased2 V c) :=
  (dat2 V c).arrAt_eq_of_cover 3 (colSums (biased2 V c)) (flushed2_sum V c) (cover2_sum)

/-- The third result array ends as the column sums of Y · Y over all 100000 rows. -/
theorem val2_sumsq : (dat2 V c).arrAt 4 cfg2.N = colSumSqs (biased2 V c) :=
  (dat2 V c).arrAt_eq_of_cover 4 (colSumSqs (biased2 V c)) (flushed2_sumsq V c) (cover2_sumsq)

end Cert.KernelIdeal.RegVal

end
-- ==== Proof.RegR5Pay.lean ====
/-
  The arithmetic of the statistics body of region 5, read at an entry over the extended reals.

  With x the [5000, 64] block of aggregated rows and b the [1, 64] bias row, the body stores the biased block
  y(r, c) = x(r, c) + b(0, c); the two accumulators are reset to the zero word's value, which is 0; and each accumulator
  step adds, per column c, the sum over the block's 5000 rows of y(r, c), respectively of y(r, c) · y(r, c), to the
  running [1, 64] row.
-/
import proofs.«109724_j81406810128840_1_alg».proof.Proof.Gen.KernelIdeal.Skeleton
import proofs.«109724_j81406810128840_1_alg».proof.Proof.LibPlainDense
import proofs.«109724_j81406810128840_1_alg».proof.Proof.LibRowStats

noncomputable section

namespace Cert.KernelIdeal.RegVal

open Cert.KernelIdeal Cert.KernelIdeal.Gen
open Idealize.ShloMosaic Idealize.ShloMosaic.ValueIdx
open scoped BigOperators

/-- The stored block is the biased block. -/
theorem pay5_full (x0 : FVec Ideal S5000x64 .f32) (x1 : FVec Ideal S1x64 .f32) :
    k5_pay1 (F := Ideal) x0 x1 = Cert.Gcn.addRow x0 x1 := by
  unfold k5_pay1
  exact Cert.LibRowStats.biased_eq x0 x1 shapeCasts_S5000x64_S5000x64 shapeCasts_S1x64_S1x64 broadcasts_S1x64_S5000x64

/-- The reset value of the sum accumulator is zero. -/
theorem pay5_zero_sum (j : S1x64.Idx) : k5_pay2 (F := Ideal) j = 0 := by
  unfold k5_pay2
  show Ideal.ofBits .f32 0x00000000#32 = 0
  exact Ideal.ofBits_zero_f32

/-- The reset value of the sum-of-squares accumulator is zero. -/
theorem pay5_zero_sumsq (j : S1x64.Idx) : k5_pay3 (F := Ideal) j = 0 := by
  unfold k5_pay3
  show Ideal.ofBits .f32 0x00000000#32 = 0
  exact Ideal.ofBits_zero_f32

/-- One step of the sum accumulator: the running row plus the block's column sums. -/
theorem pay5_sum (x0 : FVec Ideal S5000x64 .f32) (x1 : FVec Ideal S1x64 .f32) (acc : FVec Ideal S1x64 .f32) (u : Fin 1) (cc : Fin 64) :
    k5_pay4 (F := Ideal) x0 x1 acc (ix2 u cc) = acc (ix2 u cc) + ∑ r : Fin 5000, Cert.Gcn.addRow x0 x1 (ix2 r cc) := by
  unfold k5_pay4
  refine (Cert.LibRowStats.acc_colsum_apply acc (k5_pay1 (F := Ideal) x0 x1) reduces_S5000x64_S64 (.inl rfl) rfl shapeCasts_S64_S1x64
    shapeCasts_S1x64_S1x64 u cc).trans ?_
  rw [pay5_full]

/-- One step of the sum-of-squares accumulator: the running row plus the column sums of the block's squares. -/
theorem pay5_sumsq (x0 : FVec Ideal S5000x64 .f32) (x1 : FVec Ideal S1x64 .f32) (acc : FVec Ideal S1x64 .f32) (u : Fin 1) (cc : Fin 64) :
    k5_pay5 (F := Ideal) x0 x1 acc (ix2 u cc)
      = acc (ix2 u cc) + ∑ r : Fin 5000, Cert.Gcn.addRow x0 x1 (ix2 r cc) * Cert.Gcn.addRow x0 x1 (ix2 r cc) := by
  unfold k5_pay5
  refine (Cert.LibRowStats.acc_colsum_apply acc (mulf (k5_pay1 (F := Ideal) x0 x1) (k5_pay1 (F := Ideal) x0 x1)) reduces_S5000x64_S64 (.inl rfl) rfl
    shapeCasts_S64_S1x64 shapeCasts_S1x64_S1x64 u cc).trans ?_
  rw [pay5_full]
  rfl

end Cert.KernelIdeal.RegVal

end
-- ==== Proof.RegR5Pieces.lean ====
/-
  What the statistics body of region 5 leaves in its three output buffers, for any float values.

  At the first grid point the body stores the biased block, resets both accumulators and then adds the block's column
  statistics to the values just reset; at every later point it stores the biased block and adds the block's column
  statistics to what the accumulators held on entry. Each buffer is written last by one store over its whole extent,
  so it holds that store's value; an accumulator read back after its reset reads the reset value.
-/
import proofs.«109724_j81406810128840_1_alg».proof.Proof.Gen.KernelIdeal.Frame
import proofs.«109724_j81406810128840_1_alg».proof.Proof.RegRCore
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)

variable {F : FTy → Type} [FloatOps F]

/-- First point, the full block: the biased block. -/
theorem out5_A_full (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond5_0 i)
    (x0 : Vec F S5000x64 .f32) (x1 : Vec F S1x64 .f32) :
    out5_A_2 c i a1 h1 a2 h2 a3 h3 a4 h4 a5 h5 hc x0 x1 = k5_pay1 x0 x1 := by
  unfold out5_A_2
  rw [View.read_writes_eq_canon _ _ _ (cover5_A_2 c i a1 h1 a2 h2 a3 h3 a4 h4 a5 h5 hc x0 x1)]
  unfold kernelRun5_A
  dsimp only
  rw [View.canon_unit_zero hz]
  simp only [View.readAt_eq_ld, h1.read_unread, h2.read_unread, View.ld_unit_zero (S := S5000x64) hz, View.ld_unit_zero (S := S1x64) hz]

/-- First point, the sum accumulator: one step from the reset value. -/
theorem out5_A_sum (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond5_0 i)
    (x0 : Vec F S5000x64 .f32) (x1 : Vec F S1x64 .f32) :
    out5_A_3 c i a1 h1 a2 h2 a3 h3 a4 h4 a5 h5 hc x0 x1 = k5_pay4 x0 x1 (k5_pay2 (F := F)) := by
  unfold out5_A_3
  rw [View.read_writes_eq_canon _ _ _ (cover5_A_3 c i a1 h1 a2 h2 a3 h3 a4 h4 a5 h5 hc x0 x1)]
  unfold kernelRun5_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- First point, the sum-of-squares accumulator: one step from the reset value. -/
theorem out5_A_sumsq (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond5_0 i)
    (x0 : Vec F S5000x64 .f32) (x1 : Vec F S1x64 .f32) :
    out5_A_4 c i a1 h1 a2 h2 a3 h3 a4 h4 a5 h5 hc x0 x1 = k5_pay5 x0 x1 (k5_pay3 (F := F)) := by
  unfold out5_A_4
  rw [View.read_writes_eq_canon _ _ _ (cover5_A_4 c i a1 h1 a2 h2 a3 h3 a4 h4 a5 h5 hc x0 x1)]
  unfold kernelRun5_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- A later point, the full block: the biased block. -/
theorem out5_B_full (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond5_0 i)
    (x0 : Vec F S5000x64 .f32) (x1 : Vec F S1x64 .f32) (xo3 : Vec F S1x64 .f32) (xo4 : Vec F S1x64 .f32) :
    out5_B_2 c i a1 h1 a2 h2 a3 h3 a4 h4 a5 h5 hc x0 x1 xo3 xo4 = k5_pay1 x0 x1 := by
  unfold out5_B_2
  rw [View.read_writes_eq_canon _ _ _ (cover5_B_2 c i a1 h1 a2 h2 a3 h3 a4 h4 a5 h5 hc x0 x1 xo3 xo4)]
  unfold kernelRun5_B
  dsimp only
  rw [View.canon_unit_zero hz]
  simp only [View.readAt_eq_ld, h1.read_unread, h2.read_unread, View.ld_unit_zero (S := S5000x64) hz, View.ld_unit_zero (S := S1x64) hz]

/-- A later point, the sum accumulator: one step from what it held. -/
theorem out5_B_sum (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond5_0 i)
    (x0 : Vec F S5000x64 .f32) (x1 : Vec F S1x64 .f32) (xo3 : Vec F S1x64 .f32) (xo4 : Vec F S1x64 .f32) :
    out5_B_3 c i a1 h1 a2 h2 a3 h3 a4 h4 a5 h5 hc x0 x1 xo3 xo4 = k5_pay4 x0 x1 xo3 := by
  unfold out5_B_3
  rw [View.read_writes_eq_canon _ _ _ (cover5_B_3 c i a1 h1 a2 h2 a3 h3 a4 h4 a5 h5 hc x0 x1 xo3 xo4)]
  unfold kernelRun5_B
  dsimp only
  rw [View.canon_unit_zero hz]
  simp only [View.readAt_eq_ld, h1.read_unread, h2.read_unread, h4.read_unread, View.ld_unit_zero (S := S5000x64) hz, View.ld_unit_zero (S := S1x64) hz]

/-- A later point, the sum-of-squares accumulator: one step from what it held. -/
theorem out5_B_sumsq (c : Dev nD) (i : grid5.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond5_0 i)
    (x0 : Vec F S5000x64 .f32) (x1 : Vec F S1x64 .f32) (xo3 : Vec F S1x64 .f32) (xo4 : Vec F S1x64 .f32) :
    out5_B_4 c i a1 h1 a2 h2 a3 h3 a4 h4 a5 h5 hc x0 x1 xo3 xo4 = k5_pay5 x0 x1 xo4 := by
  unfold out5_B_4
  rw [View.read_writes_eq_canon _ _ _ (cover5_B_4 c i a1 h1 a2 h2 a3 h3 a4 h4 a5 h5 hc x0 x1 xo3 xo4)]
  unfold kernelRun5_B
  dsimp only
  rw [View.canon_unit_zero hz]
  simp only [View.readAt_eq_ld, h1.read_unread, h2.read_unread, h5.read_unread, View.ld_unit_zero (S := S5000x64) hz, View.ld_unit_zero (S := S1x64) hz]

variable (V : (c : Dev nD) → (b : Ref sig .tc) → Buf (Elt F) ((c : Thread nD τ).loc b))

/-- The three buffers after the first point. -/
theorem outs5_first (c : Dev nD) (t : Fin cfg5.N) (h0 : t.val % 20 = 0) :
    outsAt5 V c t.val t.isLt
      = (k5_pay1 (iblk5 V c 0 t) (iblk5 V c 1 t), k5_pay4 (iblk5 V c 0 t) (iblk5 V c 1 t) (k5_pay2 (F := F)),
          k5_pay5 (iblk5 V c 0 t) (iblk5 V c 1 t) (k5_pay3 (F := F))) := by
  rw [outsAt5_A V c t h0,
    out5_A_full c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t),
    out5_A_sum c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t),
    out5_A_sumsq c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)]

/-- The three buffers after a later point, from the accumulators after the point before. -/
theorem outs5_later (c : Dev nD) (t : Fin cfg5.N) (h0 : ¬t.val % 20 = 0) :
    outsAt5 V c t.val t.isLt
      = (k5_pay1 (iblk5 V c 0 t) (iblk5 V c 1 t),
          k5_pay4 (iblk5 V c 0 t) (iblk5 V c 1 t) (outsAt5 V c (t.val - 1) (Nat.lt_of_le_of_lt (Nat.sub_le _ _) t.isLt)).2.1,
          k5_pay5 (iblk5 V c 0 t) (iblk5 V c 1 t) (outsAt5 V c (t.val - 1) (Nat.lt_of_le_of_lt (Nat.sub_le _ _) t.isLt)).2.2) := by
  rw [outsAt5_B V c t h0,
    out5_B_full c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
      (outsAt5 V c (t.val - 1) (Nat.lt_of_le_of_lt (Nat.sub_le _ _) t.isLt)).2.1 (outsAt5 V c (t.val - 1) (Nat.lt_of_le_of_lt (Nat.sub_le _ _) t.isLt)).2.2,
    out5_B_sum c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
      (outsAt5 V c (t.val - 1) (Nat.lt_of_le_of_lt (Nat.sub_le _ _) t.isLt)).2.1 (outsAt5 V c (t.val - 1) (Nat.lt_of_le_of_lt (Nat.sub_le _ _) t.isLt)).2.2,
    out5_B_sumsq c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t)
      (outsAt5 V c (t.val - 1) (Nat.lt_of_le_of_lt (Nat.sub_le _ _) t.isLt)).2.1 (outsAt5 V c (t.val - 1) (Nat.lt_of_le_of_lt (Nat.sub_le _ _) t.isLt)).2.2]

end Cert.KernelIdeal.RegVal

end
-- ==== Proof.RegR5Val.lean ====
/-
  The values region 5 leaves in its three result arrays, over the extended reals.

  The region reads the aggregated rows AGG, a [100000, 64] array, in 20 blocks of 5000 rows, and a [1, 64] bias row BIAS,
  whole at every point. Row r of block t is row 5000 · t + r of AGG. Write Y(r, c) = AGG(r, c) + BIAS(0, c) for the
  biased array. Every point writes its block of Y back to the first result, so that array ends as Y. The two [1, 64]
  accumulators stay in place across the 20 points: reset to 0 at the first, each point adds its block's column sums of
  Y, respectively of Y · Y; after point n they hold the sums over the rows of blocks 0 to n, and the last point's
  contents, the sums over all 100000 rows, are what is written back. Only commutativity and associativity of addition
  are used; no entry needs to be finite.
-/
import proofs.«109724_j81406810128840_1_alg».proof.Proof.Gen.KernelIdeal.Frame
import proofs.«109724_j81406810128840_1_alg».proof.Proof.RegRCore
import proofs.«109724_j81406810128840_1_alg».proof.Proof.RegR5Pay
import proofs.«109724_j81406810128840_1_alg».proof.Proof.RegR5Pieces
import proofs.«109724_j81406810128840_1_alg».proof.Proof.LibPlainDense
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The aggregated rows as the region finds them. -/
abbrev agg5 : FVec Ideal S100000x64 .f32 := V c (Pipeline.arrRef spec5 0)
/-- The bias row as the region finds it. -/
abbrev bias5 : FVec Ideal S1x64 .f32 := V c (Pipeline.arrRef spec5 1)
/-- The biased array Y. -/
abbrev biased5 : FVec Ideal S100000x64 .f32 := Cert.Gcn.addRow (agg5 V c) (bias5 V c)

/-- The printed block indices, decided over the 20 points: the two tiled windows sit at block (t, 0), the others at (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- A point's number is below 20, so its rows are among the 100000. -/
theorem row_lt5 (t : Fin cfg5.N) (r : Fin 5000) : t.val * 5000 + r.val < 100000 := by
  have hN : cfg5.N = 20 := N_5
  have := t.isLt
  have := r.isLt
  omega

theorem succ_le5 {n : ℕ} (h : n < cfg5.N) : n + 1 ≤ 20 := by
  have hN : cfg5.N = 20 := N_5
  omega

/-! ## Where a block's entry sits in its array -/

theorem emb5_0 (t : Fin cfg5.N) (r : Fin 5000) (cc : Fin 64) :
    ((cfg5.win 0).blk t).view.emb (ix2 r cc) = (ix2 (⟨t.val * 5000 + r.val, row_lt5 t r⟩ : Fin 100000) cc : S100000x64.Idx) := by
  obtain ⟨e0, e1, -⟩ := idx5 t
  funext a; apply Fin.ext
  match a with
  | ⟨0, _⟩ => show win5_0.index t (0 : Fin 2) * 5000 + 1 * r.val = t.val * 5000 + r.val; rw [e0]; omega
  | ⟨1, _⟩ => show win5_0.index t (1 : Fin 2) * 64 + 1 * cc.val = cc.val; rw [e1]; omega

theorem emb5_1 (t : Fin cfg5.N) (u : Fin 1) (cc : Fin 64) :
    ((cfg5.win 1).blk t).view.emb (ix2 u cc) = (ix2 u cc : S1x64.Idx) := by
  obtain ⟨-, -, e0, e1, -⟩ := idx5 t
  funext a; apply Fin.ext
  match a with
  | ⟨0, _⟩ => show win5_1.index t (0 : Fin 2) * 1 + 1 * u.val = u.val; rw [e0]; omega
  | ⟨1, _⟩ => show win5_1.index t (1 : Fin 2) * 64 + 1 * cc.val = cc.val; rw [e1]; omega

theorem emb5_2 (t : Fin cfg5.N) (r : Fin 5000) (cc : Fin 64) :
    ((cfg5.win 2).blk t).view.emb (ix2 r cc) = (ix2 (⟨t.val * 5000 + r.val, row_lt5 t r⟩ : Fin 100000) cc : S100000x64.Idx) := by
  obtain ⟨-, -, -, -, e0, e1, -⟩ := idx5 t
  funext a; apply Fin.ext
  match a with
  | ⟨0, _⟩ => show win5_2.index t (0 : Fin 2) * 5000 + 1 * r.val = t.val * 5000 + r.val; rw [e0]; omega
  | ⟨1, _⟩ => show win5_2.index t (1 : Fin 2) * 64 + 1 * cc.val = cc.val; rw [e1]; omega

theorem emb5_3 (t : Fin cfg5.N) (u : Fin 1) (cc : Fin 64) :
    ((cfg5.win 3).blk t).view.emb (ix2 u cc) = (ix2 u cc : S1x64.Idx) := by
  obtain ⟨-, -, -, -, -, -, e0, e1, -⟩ := idx5 t
  funext a; apply Fin.ext
  match a with
  | ⟨0, _⟩ => show win5_3.index t (0 : Fin 2) * 1 + 1 * u.val = u.val; rw [e0]; omega
  | ⟨1, _⟩ => show win5_3.index t (1 : Fin 2) * 64 + 1 * cc.val = cc.val; rw [e1]; omega

theorem emb5_4 (t : Fin cfg5.N) (u : Fin 1) (cc : Fin 64) :
    ((cfg5.win 4).blk t).view.emb (ix2 u cc) = (ix2 u cc : S1x64.Idx) := by
  obtain ⟨-, -, -, -, -, -, -, -, e0, e1⟩ := idx5 t
  funext a; apply Fin.ext
  match a with
  | ⟨0, _⟩ => show win5_4.index t (0 : Fin 2) * 1 + 1 * u.val = u.val; rw [e0]; omega
  | ⟨1, _⟩ => show win5_4.index t (1 : Fin 2) * 64 + 1 * cc.val = cc.val; rw [e1]; omega

/-! ## The input blocks -/

/-- Row r of the block of aggregated rows at point t is row 5000 · t + r of AGG. -/
theorem iblk5_agg (t : Fin cfg5.N) (r : Fin 5000) (cc : Fin 64) :
    (iblk5 V c 0 t : FVec Ideal S5000x64 .f32) (ix2 r cc) = agg5 V c (ix2 (⟨t.val * 5000 + r.val, row_lt5 t r⟩ : Fin 100000) cc) := by
  unfold iblk5
  rw [View.read_apply]
  exact congrArg (fun i => agg5 V c i) (emb5_0 t r cc)

/-- The bias block at every point is the whole bias row. -/
theorem iblk5_bias (t : Fin cfg5.N) (u : Fin 1) (cc : Fin 64) :
    (iblk5 V c 1 t : FVec Ideal S1x64 .f32) (ix2 u cc) = bias5 V c (ix2 u cc) := by
  unfold iblk5
  rw [View.read_apply]
  exact congrArg (fun i => bias5 V c i) (emb5_1 t u cc)

/-- The biased block at point t is block t of Y. -/
theorem block5 (t : Fin cfg5.N) (r : Fin 5000) (cc : Fin 64) (hlt : t.val * 5000 + r.val < 100000) :
    Cert.Gcn.addRow (iblk5 V c 0 t : FVec Ideal S5000x64 .f32) (iblk5 V c 1 t : FVec Ideal S1x64 .f32) (ix2 r cc)
      = biased5 V c (ix2 (⟨t.val * 5000 + r.val, hlt⟩ : Fin 100000) cc) := by
  exact congrArg₂ (fun a b : EReal => a + b) (iblk5_agg V c t r cc) (iblk5_bias V c t 0 cc)

/-! ## The three buffers after each point -/

/-- After every point the first output buffer holds the biased block. -/
theorem outs5_full (t : Fin cfg5.N) :
    (outsAt5 V c t.val t.isLt).1 = Cert.Gcn.addRow (iblk5 V c 0 t : FVec Ideal S5000x64 .f32) (iblk5 V c 1 t : FVec Ideal S1x64 .f32) := by
  by_cases h0 : t.val % 20 = 0
  · rw [outs5_first V c t h0]
    exact pay5_full (iblk5 V c 0 t) (iblk5 V c 1 t)
  · rw [outs5_later V c t h0]
    exact pay5_full (iblk5 V c 0 t) (iblk5 V c 1 t)

/-- After point n the accumulators hold the column sums of Y, and of Y · Y, over the rows of blocks 0 to n. -/
theorem outs5_acc : ∀ (n : ℕ) (h : n < cfg5.N) (u : Fin 1) (cc : Fin 64),
    (outsAt5 V c n h).2.1 (ix2 u cc) = partialSum (fun ρ => biased5 V c (ix2 ρ cc)) (n + 1) (succ_le5 h)
    ∧ (outsAt5 V c n h).2.2 (ix2 u cc)
        = partialSum (fun ρ => biased5 V c (ix2 ρ cc) * biased5 V c (ix2 ρ cc)) (n + 1) (succ_le5 h)
  | 0, h, u, cc => by
    have e : outsAt5 V c 0 h = _ := outs5_first V c ⟨0, h⟩ (Nat.zero_mod 20)
    rw [e]
    refine ⟨?_, ?_⟩
    · refine (pay5_sum (iblk5 V c 0 ⟨0, h⟩) (iblk5 V c 1 ⟨0, h⟩) (k5_pay2 (F := Ideal)) u cc).trans ?_
      rw [pay5_zero_sum, zero_add, partialSum_succ _ 0, partialSum_zero, zero_add]
      exact Finset.sum_congr rfl fun r _ => block5 V c ⟨0, h⟩ r cc _
    · refine (pay5_sumsq (iblk5 V c 0 ⟨0, h⟩) (iblk5 V c 1 ⟨0, h⟩) (k5_pay3 (F := Ideal)) u cc).trans ?_
      rw [pay5_zero_sumsq, zero_add, partialSum_succ _ 0, partialSum_zero, zero_add]
      exact Finset.sum_congr rfl fun r _ => by rw [block5 V c ⟨0, h⟩ r cc _]
  | n + 1, h, u, cc => by
    have hN : cfg5.N = 20 := N_5
    have hB : ¬(⟨n + 1, h⟩ : Fin cfg5.N).val % 20 = 0 := by dsimp only; omega
    have ih := outs5_acc n (Nat.lt_of_succ_lt h) u cc
    have e : outsAt5 V c (n + 1) h = _ := outs5_later V c ⟨n + 1, h⟩ hB
    rw [e]
    refine ⟨?_, ?_⟩
    · refine (pay5_sum (iblk5 V c 0 ⟨n + 1, h⟩) (iblk5 V c 1 ⟨n + 1, h⟩) (outsAt5 V c n (Nat.lt_of_succ_lt h)).2.1 u cc).trans ?_
      rw [ih.1, partialSum_succ _ (n + 1)]
      exact congrArg (fun z => _ + z) (Finset.sum_congr rfl fun r _ => block5 V c ⟨n + 1, h⟩ r cc _)
    · refine (pay5_sumsq (iblk5 V c 0 ⟨n + 1, h⟩) (iblk5 V c 1 ⟨n + 1, h⟩) (outsAt5 V c n (Nat.lt_of_succ_lt h)).2.2 u cc).trans ?_
      rw [ih.2, partialSum_succ _ (n + 1)]
      exact congrArg (fun z => _ + z) (Finset.sum_congr rfl fun r _ => by rw [block5 V c ⟨n + 1, h⟩ r cc _])

/-! ## What is written back, and the arrays after the region -/

/-- An index of the first result array is in point t's block iff each coordinate is in the block's range. -/
theorem mem5_2 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v85_0).slice (win5_2.rect t)).set ↔ _
  rw [View.set_slice_whole, Rect.mem_set_unit]
  exact Iff.rfl

theorem mem5_3 (t : Fin cfg5.N) (i : S1x64.Idx) :
    i ∈ ((cfg5.win 3).blk t).view.set ↔ ∀ a : Fin 2, win5_3.index t a * S1x64.size a ≤ (i a).val ∧ (i a).val < win5_3.index t a * S1x64.size a + S1x64.size a := by
  show i ∈ ((View.whole main_v85_1).slice (win5_3.rect t)).set ↔ _
  rw [View.set_slice_whole, Rect.mem_set_unit]
  exact Iff.rfl

theorem mem5_4 (t : Fin cfg5.N) (i : S1x64.Idx) :
    i ∈ ((cfg5.win 4).blk t).view.set ↔ ∀ a : Fin 2, win5_4.index t a * S1x64.size a ≤ (i a).val ∧ (i a).val < win5_4.index t a * S1x64.size a + S1x64.size a := by
  show i ∈ ((View.whole main_v85_2).slice (win5_4.rect t)).set ↔ _
  rw [View.set_slice_whole, Rect.mem_set_unit]
  exact Iff.rfl

/-- Point t writes back block t of Y. -/
theorem flushed5_full (t : Fin cfg5.N) :
    (dat5 V c).flushed 2 t = ((cfg5.win 2).blk t).view.read (Elt Ideal) (biased5 V c) := by
  show (cfg5.win 2).cut (grid5.coords t) ((dat5 V c).after 2 t) = _
  rw [after5_2, outs5_full V c t]
  funext (y : S5000x64.Idx)
  obtain ⟨r, cc, rfl⟩ : ∃ (r : Fin 5000) (cc : Fin 64), y = ix2 r cc := ⟨y 0, y 1, eq_ix2 y⟩
  rw [View.read_apply]
  show Cert.Gcn.addRow (iblk5 V c 0 t : FVec Ideal S5000x64 .f32) (iblk5 V c 1 t : FVec Ideal S1x64 .f32) (ix2 r cc)
    = biased5 V c (((cfg5.win 2).blk t).view.emb (ix2 r cc))
  rw [emb5_2 t r cc]
  exact block5 V c t r cc _

/-- Every row lies in the block of the point numbered by its tile. -/
theorem cover5_full (i : S100000x64.Idx) :
    ∃ t : Fin cfg5.N, (cfg5.win 2).flush t = true ∧ i ∈ ((cfg5.win 2).blk t).view.set := by
  have hN : cfg5.N = 20 := N_5
  have h0 : (i 0).val < 100000 := (i 0).isLt
  have h1 : (i 1).val < 64 := (i 1).isLt
  obtain ⟨t, ht⟩ : ∃ t : Fin cfg5.N, t.val = (i 0).val / 5000 := ⟨⟨(i 0).val / 5000, by rw [hN]; omega⟩, rfl⟩
  refine ⟨t, flush5_2 t, ?_⟩
  rw [mem5_2]
  obtain ⟨-, -, -, -, e0, e1, -⟩ := idx5 t
  intro a
  match a with
  | ⟨0, _⟩ =>
    show win5_2.index t (0 : Fin 2) * 5000 ≤ (i 0).val ∧ (i 0).val < win5_2.index t (0 : Fin 2) * 5000 + 5000
    rw [e0]; omega
  | ⟨1, _⟩ =>
    show win5_2.index t (1 : Fin 2) * 64 ≤ (i 1).val ∧ (i 1).val < win5_2.index t (1 : Fin 2) * 64 + 64
    rw [e1]; omega

/-- The first result array ends as the biased array Y. -/
theorem val5_full : (dat5 V c).arrAt 2 cfg5.N = biased5 V c :=
  (dat5 V c).arrAt_eq_of_cover 2 (biased5 V c) (fun t _ => flushed5_full V c t) (cover5_full)

/-- What the last point writes back of the sum accumulator, for any row G its contents then agree with entry by entry. -/
theorem flushed5_sum_of (G : FVec Ideal S1x64 .f32) (t : Fin cfg5.N)
    (hG : ∀ (u : Fin 1) (cc : Fin 64), (outsAt5 V c t.val t.isLt).2.1 (ix2 u cc) = G (ix2 u cc)) :
    (dat5 V c).flushed 3 t = ((cfg5.win 3).blk t).view.read (Elt Ideal) G := by
  show (cfg5.win 3).cut (grid5.coords t) ((dat5 V c).after 3 t) = _
  rw [after5_3]
  funext (y : S1x64.Idx)
  obtain ⟨u, cc, rfl⟩ : ∃ (u : Fin 1) (cc : Fin 64), y = ix2 u cc := ⟨y 0, y 1, eq_ix2 y⟩
  rw [View.read_apply]
  show (outsAt5 V c t.val t.isLt).2.1 (ix2 u cc) = G (((cfg5.win 3).blk t).view.emb (ix2 u cc))
  rw [emb5_3 t u cc]
  exact hG u cc

/-- The one write-back of the sum accumulator, at the last point: the column sums of Y over all rows. -/
theorem flushed5_sum (t : Fin cfg5.N) (hf : (cfg5.win 3).flush t = true) :
    (dat5 V c).flushed 3 t = ((cfg5.win 3).blk t).view.read (Elt Ideal) (colSums (biased5 V c)) :=
  flushed5_sum_of V c (colSums (biased5 V c)) t fun u cc => by
    have hN : cfg5.N = 20 := N_5
    have h19 : t.val + 1 = 20 := by have := (flush5_3 t).mp hf; have := t.isLt; omega
    rw [(outs5_acc V c t.val t.isLt u cc).1, colSums_apply, partialSum_congr _ h19 _ (le_refl 20), partialSum_all]

/-- What the last point writes back of the sum-of-squares accumulator, for any row G its contents then agree with entry by entry. -/
theorem flushed5_sumsq_of (G : FVec Ideal S1x64 .f32) (t : Fin cfg5.N)
    (hG : ∀ (u : Fin 1) (cc : Fin 64), (outsAt5 V c t.val t.isLt).2.2 (ix2 u cc) = G (ix2 u cc)) :
    (dat5 V c).flushed 4 t = ((cfg5.win 4).blk t).view.read (Elt Ideal) G := by
  show (cfg5.win 4).cut (grid5.coords t) ((dat5 V c).after 4 t) = _
  rw [after5_4]
  funext (y : S1x64.Idx)
  obtain ⟨u, cc, rfl⟩ : ∃ (u : Fin 1) (cc : Fin 64), y = ix2 u cc := ⟨y 0, y 1, eq_ix2 y⟩
  rw [View.read_apply]
  show (outsAt5 V c t.val t.isLt).2.2 (ix2 u cc) = G (((cfg5.win 4).blk t).view.emb (ix2 u cc))
  rw [emb5_4 t u cc]
  exact hG u cc

/-- The one write-back of the sum-of-squares accumulator, at the last point: the column sums of Y · Y over all rows. -/
theorem flushed5_sumsq (t : Fin cfg5.N) (hf : (cfg5.win 4).flush t = true) :
    (dat5 V c).flushed 4 t = ((cfg5.win 4).blk t).view.read (Elt Ideal) (colSumSqs (biased5 V c)) :=
  flushed5_sumsq_of V c (colSumSqs (biased5 V c)) t fun u cc => by
    have hN : cfg5.N = 20 := N_5
    have h19 : t.val + 1 = 20 := by have := (flush5_4 t).mp hf; have := t.isLt; omega
    rw [(outs5_acc V c t.val t.isLt u cc).2, colSumSqs_apply, partialSum_congr _ h19 _ (le_refl 20), partialSum_all]

/-- The last point's block of each accumulator is its whole array. -/
theorem cover5_sum (i : S1x64.Idx) :
    ∃ t : Fin cfg5.N, (cfg5.win 3).flush t = true ∧ i ∈ ((cfg5.win 3).blk t).view.set := by
  have hN : cfg5.N = 20 := N_5
  have h0 : (i 0).val < 1 := (i 0).isLt
  have h1 : (i 1).val < 64 := (i 1).isLt
  obtain ⟨t, ht⟩ : ∃ t : Fin cfg5.N, t.val = 19 := ⟨⟨19, by rw [hN]; omega⟩, rfl⟩
  refine ⟨t, (flush5_3 t).mpr (by rw [ht]), ?_⟩
  rw [mem5_3]
  obtain ⟨-, -, -, -, -, -, e0, e1, -⟩ := idx5 t
  intro a
  match a with
  | ⟨0, _⟩ =>
    show win5_3.index t (0 : Fin 2) * 1 ≤ (i 0).val ∧ (i 0).val < win5_3.index t (0 : Fin 2) * 1 + 1
    rw [e0]; omega
  | ⟨1, _⟩ =>
    show win5_3.index t (1 : Fin 2) * 64 ≤ (i 1).val ∧ (i 1).val < win5_3.index t (1 : Fin 2) * 64 + 64
    rw [e1]; omega

theorem cover5_sumsq (i : S1x64.Idx) :
    ∃ t : Fin cfg5.N, (cfg5.win 4).flush t = true ∧ i ∈ ((cfg5.win 4).blk t).view.set := by
  have hN : cfg5.N = 20 := N_5
  have h0 : (i 0).val < 1 := (i 0).isLt
  have h1 : (i 1).val < 64 := (i 1).isLt
  obtain ⟨t, ht⟩ : ∃ t : Fin cfg5.N, t.val = 19 := ⟨⟨19, by rw [hN]; omega⟩, rfl⟩
  refine ⟨t, (flush5_4 t).mpr (by rw [ht]), ?_⟩
  rw [mem5_4]
  obtain ⟨-, -, -, -, -, -, -, -, e0, e1⟩ := idx5 t
  intro a
  match a with
  | ⟨0, _⟩ =>
    show win5_4.index t (0 : Fin 2) * 1 ≤ (i 0).val ∧ (i 0).val < win5_4.index t (0 : Fin 2) * 1 + 1
    rw [e0]; omega
  | ⟨1, _⟩ =>
    show win5_4.index t (1 : Fin 2) * 64 ≤ (i 1).val ∧ (i 1).val < win5_4.index t (1 : Fin 2) * 64 + 64
    rw [e1]; omega

/-- The second result array ends as the column sums of Y over all 100000 rows. -/
theorem val5_sum : (dat5 V c).arrAt 3 cfg5.N = colSums (biased5 V c) :=
  (dat5 V c).arrAt_eq_of_cover 3 (colSums (biased5 V c)) (flushed5_sum V c) (cover5_sum)

/-- The third result array ends as the column sums of Y · Y over all 100000 rows. -/
theorem val5_sumsq : (dat5 V c).arrAt 4 cfg5.N = colSumSqs (biased5 V c) :=
  (dat5 V c).arrAt_eq_of_cover 4 (colSumSqs (biased5 V c)) (flushed5_sumsq V c) (cover5_sumsq)

end Cert.KernelIdeal.RegVal

end
-- ==== Proof.RegR8Pay.lean ====
/-
  The arithmetic of the statistics body of region 8, read at an entry over the extended reals.

  With x the [5000, 64] block of aggregated rows and b the [1, 64] bias row, the body stores the biased block
  y(r, c) = x(r, c) + b(0, c); the two accumulators are reset to the zero word's value, which is 0; and each accumulator
  step adds, per column c, the sum over the block's 5000 rows of y(r, c), respectively of y(r, c) · y(r, c), to the
  running [1, 64] row.
-/
import proofs.«109724_j81406810128840_1_alg».proof.Proof.Gen.KernelIdeal.Skeleton
import proofs.«109724_j81406810128840_1_alg».proof.Proof.LibPlainDense
import proofs.«109724_j81406810128840_1_alg».proof.Proof.LibRowStats

noncomputable section

namespace Cert.KernelIdeal.RegVal

open Cert.KernelIdeal Cert.KernelIdeal.Gen
open Idealize.ShloMosaic Idealize.ShloMosaic.ValueIdx
open scoped BigOperators

/-- The stored block is the biased block. -/
theorem pay8_full (x0 : FVec Ideal S5000x64 .f32) (x1 : FVec Ideal S1x64 .f32) :
    k8_pay1 (F := Ideal) x0 x1 = Cert.Gcn.addRow x0 x1 := by
  unfold k8_pay1
  exact Cert.LibRowStats.biased_eq x0 x1 shapeCasts_S5000x64_S5000x64 shapeCasts_S1x64_S1x64 broadcasts_S1x64_S5000x64

/-- The reset value of the sum accumulator is zero. -/
theorem pay8_zero_sum (j : S1x64.Idx) : k8_pay2 (F := Ideal) j = 0 := by
  unfold k8_pay2
  show Ideal.ofBits .f32 0x00000000#32 = 0
  exact Ideal.ofBits_zero_f32

/-- The reset value of the sum-of-squares accumulator is zero. -/
theorem pay8_zero_sumsq (j : S1x64.Idx) : k8_pay3 (F := Ideal) j = 0 := by
  unfold k8_pay3
  show Ideal.ofBits .f32 0x00000000#32 = 0
  exact Ideal.ofBits_zero_f32

/-- One step of the sum accumulator: the running row plus the block's column sums. -/
theorem pay8_sum (x0 : FVec Ideal S5000x64 .f32) (x1 : FVec Ideal S1x64 .f32) (acc : FVec Ideal S1x64 .f32) (u : Fin 1) (cc : Fin 64) :
    k8_pay4 (F := Ideal) x0 x1 acc (ix2 u cc) = acc (ix2 u cc) + ∑ r : Fin 5000, Cert.Gcn.addRow x0 x1 (ix2 r cc) := by
  unfold k8_pay4
  refine (Cert.LibRowStats.acc_colsum_apply acc (k8_pay1 (F := Ideal) x0 x1) reduces_S5000x64_S64 (.inl rfl) rfl shapeCasts_S64_S1x64
    shapeCasts_S1x64_S1x64 u cc).trans ?_
  rw [pay8_full]

/-- One step of the sum-of-squares accumulator: the running row plus the column sums of the block's squares. -/
theorem pay8_sumsq (x0 : FVec Ideal S5000x64 .f32) (x1 : FVec Ideal S1x64 .f32) (acc : FVec Ideal S1x64 .f32) (u : Fin 1) (cc : Fin 64) :
    k8_pay5 (F := Ideal) x0 x1 acc (ix2 u cc)
      = acc (ix2 u cc) + ∑ r : Fin 5000, Cert.Gcn.addRow x0 x1 (ix2 r cc) * Cert.Gcn.addRow x0 x1 (ix2 r cc) := by
  unfold k8_pay5
  refine (Cert.LibRowStats.acc_colsum_apply acc (mulf (k8_pay1 (F := Ideal) x0 x1) (k8_pay1 (F := Ideal) x0 x1)) reduces_S5000x64_S64 (.inl rfl) rfl
    shapeCasts_S64_S1x64 shapeCasts_S1x64_S1x64 u cc).trans ?_
  rw [pay8_full]
  rfl

end Cert.KernelIdeal.RegVal

end
-- ==== Proof.RegR8Pieces.lean ====
/-
  What the statistics body of region 8 leaves in its three output buffers, for any float values.

  At the first grid point the body stores the biased block, resets both accumulators and then adds the block's column
  statistics to the values just reset; at every later point it stores the biased block and adds the block's column
  statistics to what the accumulators held on entry. Each buffer is written last by one store over its whole extent,
  so it holds that store's value; an accumulator read back after its reset reads the reset value.
-/
import proofs.«109724_j81406810128840_1_alg».proof.Proof.Gen.KernelIdeal.Frame
import proofs.«109724_j81406810128840_1_alg».proof.Proof.RegRCore
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)

variable {F : FTy → Type} [FloatOps F]

/-- First point, the full block: the biased block. -/
theorem out8_A_full (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond8_0 i)
    (x0 : Vec F S5000x64 .f32) (x1 : Vec F S1x64 .f32) :
    out8_A_2 c i a1 h1 a2 h2 a3 h3 a4 h4 a5 h5 hc x0 x1 = k8_pay1 x0 x1 := by
  unfold out8_A_2
  rw [View.read_writes_eq_canon _ _ _ (cover8_A_2 c i a1 h1 a2 h2 a3 h3 a4 h4 a5 h5 hc x0 x1)]
  unfold kernelRun8_A
  dsimp only
  rw [View.canon_unit_zero hz]
  simp only [View.readAt_eq_ld, h1.read_unread, h2.read_unread, View.ld_unit_zero (S := S5000x64) hz, View.ld_unit_zero (S := S1x64) hz]

/-- First point, the sum accumulator: one step from the reset value. -/
theorem out8_A_sum (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond8_0 i)
    (x0 : Vec F S5000x64 .f32) (x1 : Vec F S1x64 .f32) :
    out8_A_3 c i a1 h1 a2 h2 a3 h3 a4 h4 a5 h5 hc x0 x1 = k8_pay4 x0 x1 (k8_pay2 (F := F)) := by
  unfold out8_A_3
  rw [View.read_writes_eq_canon _ _ _ (cover8_A_3 c i a1 h1 a2 h2 a3 h3 a4 h4 a5 h5 hc x0 x1)]
  unfold kernelRun8_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- First point, the sum-of-squares accumulator: one step from the reset value. -/
theorem out8_A_sumsq (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond8_0 i)
    (x0 : Vec F S5000x64 .f32) (x1 : Vec F S1x64 .f32) :
    out8_A_4 c i a1 h1 a2 h2 a3 h3 a4 h4 a5 h5 hc x0 x1 = k8_pay5 x0 x1 (k8_pay3 (F := F)) := by
  unfold out8_A_4
  rw [View.read_writes_eq_canon _ _ _ (cover8_A_4 c i a1 h1 a2 h2 a3 h3 a4 h4 a5 h5 hc x0 x1)]
  unfold kernelRun8_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- A later point, the full block: the biased block. -/
theorem out8_B_full (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond8_0 i)
    (x0 : Vec F S5000x64 .f32) (x1 : Vec F S1x64 .f32) (xo3 : Vec F S1x64 .f32) (xo4 : Vec F S1x64 .f32) :
    out8_B_2 c i a1 h1 a2 h2 a3 h3 a4 h4 a5 h5 hc x0 x1 xo3 xo4 = k8_pay1 x0 x1 := by
  unfold out8_B_2
  rw [View.read_writes_eq_canon _ _ _ (cover8_B_2 c i a1 h1 a2 h2 a3 h3 a4 h4 a5 h5 hc x0 x1 xo3 xo4)]
  unfold kernelRun8_B
  dsimp only
  rw [View.canon_unit_zero hz]
  simp only [View.readAt_eq_ld, h1.read_unread, h2.read_unread, View.ld_unit_zero (S := S5000x64) hz, View.ld_unit_zero (S := S1x64) hz]

/-- A later point, the sum accumulator: one step from what it held. -/
theorem out8_B_sum (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond8_0 i)
    (x0 : Vec F S5000x64 .f32) (x1 : Vec F S1x64 .f32) (xo3 : Vec F S1x64 .f32) (xo4 : Vec F S1x64 .f32) :
    out8_B_3 c i a1 h1 a2 h2 a3 h3 a4 h4 a5 h5 hc x0 x1 xo3 xo4 = k8_pay4 x0 x1 xo3 := by
  unfold out8_B_3
  rw [View.read_writes_eq_canon _ _ _ (cover8_B_3 c i a1 h1 a2 h2 a3 h3 a4 h4 a5 h5 hc x0 x1 xo3 xo4)]
  unfold kernelRun8_B
  dsimp only
  rw [View.canon_unit_zero hz]
  simp only [View.readAt_eq_ld, h1.read_unread, h2.read_unread, h4.read_unread, View.ld_unit_zero (S := S5000x64) hz, View.ld_unit_zero (S := S1x64) hz]

/-- A later point, the sum-of-squares accumulator: one step from what it held. -/
theorem out8_B_sumsq (c : Dev nD) (i : grid8.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond8_0 i)
    (x0 : Vec F S5000x64 .f32) (x1 : Vec F S1x64 .f32) (xo3 : Vec F S1x64 .f32) (xo4 : Vec F S1x64 .f32) :
    out8_B_4 c i a1 h1 a2 h2 a3 h3 a4 h4 a5 h5 hc x0 x1 xo3 xo4 = k8_pay5 x0 x1 xo4 := by
  unfold out8_B_4
  rw [View.read_writes_eq_canon _ _ _ (cover8_B_4 c i a1 h1 a2 h2 a3 h3 a4 h4 a5 h5 hc x0 x1 xo3 xo4)]
  unfold kernelRun8_B
  dsimp only
  rw [View.canon_unit_zero hz]
  simp only [View.readAt_eq_ld, h1.read_unread, h2.read_unread, h5.read_unread, View.ld_unit_zero (S := S5000x64) hz, View.ld_unit_zero (S := S1x64) hz]

variable (V : (c : Dev nD) → (b : Ref sig .tc) → Buf (Elt F) ((c : Thread nD τ).loc b))

/-- The three buffers after the first point. -/
theorem outs8_first (c : Dev nD) (t : Fin cfg8.N) (h0 : t.val % 20 = 0) :
    outsAt8 V c t.val t.isLt
      = (k8_pay1 (iblk8 V c 0 t) (iblk8 V c 1 t), k8_pay4 (iblk8 V c 0 t) (iblk8 V c 1 t) (k8_pay2 (F := F)),
          k8_pay5 (iblk8 V c 0 t) (iblk8 V c 1 t) (k8_pay3 (F := F))) := by
  rw [outsAt8_A V c t h0,
    out8_A_full c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t),
    out8_A_sum c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t),
    out8_A_sumsq c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t)]

/-- The three buffers after a later point, from the accumulators after the point before. -/
theorem outs8_later (c : Dev nD) (t : Fin cfg8.N) (h0 : ¬t.val % 20 = 0) :
    outsAt8 V c t.val t.isLt
      = (k8_pay1 (iblk8 V c 0 t) (iblk8 V c 1 t),
          k8_pay4 (iblk8 V c 0 t) (iblk8 V c 1 t) (outsAt8 V c (t.val - 1) (Nat.lt_of_le_of_lt (Nat.sub_le _ _) t.isLt)).2.1,
          k8_pay5 (iblk8 V c 0 t) (iblk8 V c 1 t) (outsAt8 V c (t.val - 1) (Nat.lt_of_le_of_lt (Nat.sub_le _ _) t.isLt)).2.2) := by
  rw [outsAt8_B V c t h0,
    out8_B_full c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t)
      (outsAt8 V c (t.val - 1) (Nat.lt_of_le_of_lt (Nat.sub_le _ _) t.isLt)).2.1 (outsAt8 V c (t.val - 1) (Nat.lt_of_le_of_lt (Nat.sub_le _ _) t.isLt)).2.2,
    out8_B_sum c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t)
      (outsAt8 V c (t.val - 1) (Nat.lt_of_le_of_lt (Nat.sub_le _ _) t.isLt)).2.1 (outsAt8 V c (t.val - 1) (Nat.lt_of_le_of_lt (Nat.sub_le _ _) t.isLt)).2.2,
    out8_B_sumsq c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t)
      (outsAt8 V c (t.val - 1) (Nat.lt_of_le_of_lt (Nat.sub_le _ _) t.isLt)).2.1 (outsAt8 V c (t.val - 1) (Nat.lt_of_le_of_lt (Nat.sub_le _ _) t.isLt)).2.2]

end Cert.KernelIdeal.RegVal

end
-- ==== Proof.RegR8Val.lean ====
/-
  The values region 8 leaves in its three result arrays, over the extended reals.

  The region reads the aggregated rows AGG, a [100000, 64] array, in 20 blocks of 5000 rows, and a [1, 64] bias row BIAS,
  whole at every point. Row r of block t is row 5000 · t + r of AGG. Write Y(r, c) = AGG(r, c) + BIAS(0, c) for the
  biased array. Every point writes its block of Y back to the first result, so that array ends as Y. The two [1, 64]
  accumulators stay in place across the 20 points: reset to 0 at the first, each point adds its block's column sums of
  Y, respectively of Y · Y; after point n they hold the sums over the rows of blocks 0 to n, and the last point's
  contents, the sums over all 100000 rows, are what is written back. Only commutativity and associativity of addition
  are used; no entry needs to be finite.
-/
import proofs.«109724_j81406810128840_1_alg».proof.Proof.Gen.KernelIdeal.Frame
import proofs.«109724_j81406810128840_1_alg».proof.Proof.RegRCore
import proofs.«109724_j81406810128840_1_alg».proof.Proof.RegR8Pay
import proofs.«109724_j81406810128840_1_alg».proof.Proof.RegR8Pieces
import proofs.«109724_j81406810128840_1_alg».proof.Proof.LibPlainDense
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The aggregated rows as the region finds them. -/
abbrev agg8 : FVec Ideal S100000x64 .f32 := V c (Pipeline.arrRef spec8 0)
/-- The bias row as the region finds it. -/
abbrev bias8 : FVec Ideal S1x64 .f32 := V c (Pipeline.arrRef spec8 1)
/-- The biased array Y. -/
abbrev biased8 : FVec Ideal S100000x64 .f32 := Cert.Gcn.addRow (agg8 V c) (bias8 V c)

/-- The printed block indices, decided over the 20 points: the two tiled windows sit at block (t, 0), the others at (0, 0). -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- A point's number is below 20, so its rows are among the 100000. -/
theorem row_lt8 (t : Fin cfg8.N) (r : Fin 5000) : t.val * 5000 + r.val < 100000 := by
  have hN : cfg8.N = 20 := N_8
  have := t.isLt
  have := r.isLt
  omega

theorem succ_le8 {n : ℕ} (h : n < cfg8.N) : n + 1 ≤ 20 := by
  have hN : cfg8.N = 20 := N_8
  omega

/-! ## Where a block's entry sits in its array -/

theorem emb8_0 (t : Fin cfg8.N) (r : Fin 5000) (cc : Fin 64) :
    ((cfg8.win 0).blk t).view.emb (ix2 r cc) = (ix2 (⟨t.val * 5000 + r.val, row_lt8 t r⟩ : Fin 100000) cc : S100000x64.Idx) := by
  obtain ⟨e0, e1, -⟩ := idx8 t
  funext a; apply Fin.ext
  match a with
  | ⟨0, _⟩ => show win8_0.index t (0 : Fin 2) * 5000 + 1 * r.val = t.val * 5000 + r.val; rw [e0]; omega
  | ⟨1, _⟩ => show win8_0.index t (1 : Fin 2) * 64 + 1 * cc.val = cc.val; rw [e1]; omega

theorem emb8_1 (t : Fin cfg8.N) (u : Fin 1) (cc : Fin 64) :
    ((cfg8.win 1).blk t).view.emb (ix2 u cc) = (ix2 u cc : S1x64.Idx) := by
  obtain ⟨-, -, e0, e1, -⟩ := idx8 t
  funext a; apply Fin.ext
  match a with
  | ⟨0, _⟩ => show win8_1.index t (0 : Fin 2) * 1 + 1 * u.val = u.val; rw [e0]; omega
  | ⟨1, _⟩ => show win8_1.index t (1 : Fin 2) * 64 + 1 * cc.val = cc.val; rw [e1]; omega

theorem emb8_2 (t : Fin cfg8.N) (r : Fin 5000) (cc : Fin 64) :
    ((cfg8.win 2).blk t).view.emb (ix2 r cc) = (ix2 (⟨t.val * 5000 + r.val, row_lt8 t r⟩ : Fin 100000) cc : S100000x64.Idx) := by
  obtain ⟨-, -, -, -, e0, e1, -⟩ := idx8 t
  funext a; apply Fin.ext
  match a with
  | ⟨0, _⟩ => show win8_2.index t (0 : Fin 2) * 5000 + 1 * r.val = t.val * 5000 + r.val; rw [e0]; omega
  | ⟨1, _⟩ => show win8_2.index t (1 : Fin 2) * 64 + 1 * cc.val = cc.val; rw [e1]; omega

theorem emb8_3 (t : Fin cfg8.N) (u : Fin 1) (cc : Fin 64) :
    ((cfg8.win 3).blk t).view.emb (ix2 u cc) = (ix2 u cc : S1x64.Idx) := by
  obtain ⟨-, -, -, -, -, -, e0, e1, -⟩ := idx8 t
  funext a; apply Fin.ext
  match a with
  | ⟨0, _⟩ => show win8_3.index t (0 : Fin 2) * 1 + 1 * u.val = u.val; rw [e0]; omega
  | ⟨1, _⟩ => show win8_3.index t (1 : Fin 2) * 64 + 1 * cc.val = cc.val; rw [e1]; omega

theorem emb8_4 (t : Fin cfg8.N) (u : Fin 1) (cc : Fin 64) :
    ((cfg8.win 4).blk t).view.emb (ix2 u cc) = (ix2 u cc : S1x64.Idx) := by
  obtain ⟨-, -, -, -, -, -, -, -, e0, e1⟩ := idx8 t
  funext a; apply Fin.ext
  match a with
  | ⟨0, _⟩ => show win8_4.index t (0 : Fin 2) * 1 + 1 * u.val = u.val; rw [e0]; omega
  | ⟨1, _⟩ => show win8_4.index t (1 : Fin 2) * 64 + 1 * cc.val = cc.val; rw [e1]; omega

/-! ## The input blocks -/

/-- Row r of the block of aggregated rows at point t is row 5000 · t + r of AGG. -/
theorem iblk8_agg (t : Fin cfg8.N) (r : Fin 5000) (cc : Fin 64) :
    (iblk8 V c 0 t : FVec Ideal S5000x64 .f32) (ix2 r cc) = agg8 V c (ix2 (⟨t.val * 5000 + r.val, row_lt8 t r⟩ : Fin 100000) cc) := by
  unfold iblk8
  rw [View.read_apply]
  exact congrArg (fun i => agg8 V c i) (emb8_0 t r cc)

/-- The bias block at every point is the whole bias row. -/
theorem iblk8_bias (t : Fin cfg8.N) (u : Fin 1) (cc : Fin 64) :
    (iblk8 V c 1 t : FVec Ideal S1x64 .f32) (ix2 u cc) = bias8 V c (ix2 u cc) := by
  unfold iblk8
  rw [View.read_apply]
  exact congrArg (fun i => bias8 V c i) (emb8_1 t u cc)

/-- The biased block at point t is block t of Y. -/
theorem block8 (t : Fin cfg8.N) (r : Fin 5000) (cc : Fin 64) (hlt : t.val * 5000 + r.val < 100000) :
    Cert.Gcn.addRow (iblk8 V c 0 t : FVec Ideal S5000x64 .f32) (iblk8 V c 1 t : FVec Ideal S1x64 .f32) (ix2 r cc)
      = biased8 V c (ix2 (⟨t.val * 5000 + r.val, hlt⟩ : Fin 100000) cc) := by
  exact congrArg₂ (fun a b : EReal => a + b) (iblk8_agg V c t r cc) (iblk8_bias V c t 0 cc)

/-! ## The three buffers after each point -/

/-- After every point the first output buffer holds the biased block. -/
theorem outs8_full (t : Fin cfg8.N) :
    (outsAt8 V c t.val t.isLt).1 = Cert.Gcn.addRow (iblk8 V c 0 t : FVec Ideal S5000x64 .f32) (iblk8 V c 1 t : FVec Ideal S1x64 .f32) := by
  by_cases h0 : t.val % 20 = 0
  · rw [outs8_first V c t h0]
    exact pay8_full (iblk8 V c 0 t) (iblk8 V c 1 t)
  · rw [outs8_later V c t h0]
    exact pay8_full (iblk8 V c 0 t) (iblk8 V c 1 t)

/-- After point n the accumulators hold the column sums of Y, and of Y · Y, over the rows of blocks 0 to n. -/
theorem outs8_acc : ∀ (n : ℕ) (h : n < cfg8.N) (u : Fin 1) (cc : Fin 64),
    (outsAt8 V c n h).2.1 (ix2 u cc) = partialSum (fun ρ => biased8 V c (ix2 ρ cc)) (n + 1) (succ_le8 h)
    ∧ (outsAt8 V c n h).2.2 (ix2 u cc)
        = partialSum (fun ρ => biased8 V c (ix2 ρ cc) * biased8 V c (ix2 ρ cc)) (n + 1) (succ_le8 h)
  | 0, h, u, cc => by
    have e : outsAt8 V c 0 h = _ := outs8_first V c ⟨0, h⟩ (Nat.zero_mod 20)
    rw [e]
    refine ⟨?_, ?_⟩
    · refine (pay8_sum (iblk8 V c 0 ⟨0, h⟩) (iblk8 V c 1 ⟨0, h⟩) (k8_pay2 (F := Ideal)) u cc).trans ?_
      rw [pay8_zero_sum, zero_add, partialSum_succ _ 0, partialSum_zero, zero_add]
      exact Finset.sum_congr rfl fun r _ => block8 V c ⟨0, h⟩ r cc _
    · refine (pay8_sumsq (iblk8 V c 0 ⟨0, h⟩) (iblk8 V c 1 ⟨0, h⟩) (k8_pay3 (F := Ideal)) u cc).trans ?_
      rw [pay8_zero_sumsq, zero_add, partialSum_succ _ 0, partialSum_zero, zero_add]
      exact Finset.sum_congr rfl fun r _ => by rw [block8 V c ⟨0, h⟩ r cc _]
  | n + 1, h, u, cc => by
    have hN : cfg8.N = 20 := N_8
    have hB : ¬(⟨n + 1, h⟩ : Fin cfg8.N).val % 20 = 0 := by dsimp only; omega
    have ih := outs8_acc n (Nat.lt_of_succ_lt h) u cc
    have e : outsAt8 V c (n + 1) h = _ := outs8_later V c ⟨n + 1, h⟩ hB
    rw [e]
    refine ⟨?_, ?_⟩
    · refine (pay8_sum (iblk8 V c 0 ⟨n + 1, h⟩) (iblk8 V c 1 ⟨n + 1, h⟩) (outsAt8 V c n (Nat.lt_of_succ_lt h)).2.1 u cc).trans ?_
      rw [ih.1, partialSum_succ _ (n + 1)]
      exact congrArg (fun z => _ + z) (Finset.sum_congr rfl fun r _ => block8 V c ⟨n + 1, h⟩ r cc _)
    · refine (pay8_sumsq (iblk8 V c 0 ⟨n + 1, h⟩) (iblk8 V c 1 ⟨n + 1, h⟩) (outsAt8 V c n (Nat.lt_of_succ_lt h)).2.2 u cc).trans ?_
      rw [ih.2, partialSum_succ _ (n + 1)]
      exact congrArg (fun z => _ + z) (Finset.sum_congr rfl fun r _ => by rw [block8 V c ⟨n + 1, h⟩ r cc _])

/-! ## What is written back, and the arrays after the region -/

/-- An index of the first result array is in point t's block iff each coordinate is in the block's range. -/
theorem mem8_2 (t : Fin cfg8.N) (i : S100000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v118_0).slice (win8_2.rect t)).set ↔ _
  rw [View.set_slice_whole, Rect.mem_set_unit]
  exact Iff.rfl

theorem mem8_3 (t : Fin cfg8.N) (i : S1x64.Idx) :
    i ∈ ((cfg8.win 3).blk t).view.set ↔ ∀ a : Fin 2, win8_3.index t a * S1x64.size a ≤ (i a).val ∧ (i a).val < win8_3.index t a * S1x64.size a + S1x64.size a := by
  show i ∈ ((View.whole main_v118_1).slice (win8_3.rect t)).set ↔ _
  rw [View.set_slice_whole, Rect.mem_set_unit]
  exact Iff.rfl

theorem mem8_4 (t : Fin cfg8.N) (i : S1x64.Idx) :
    i ∈ ((cfg8.win 4).blk t).view.set ↔ ∀ a : Fin 2, win8_4.index t a * S1x64.size a ≤ (i a).val ∧ (i a).val < win8_4.index t a * S1x64.size a + S1x64.size a := by
  show i ∈ ((View.whole main_v118_2).slice (win8_4.rect t)).set ↔ _
  rw [View.set_slice_whole, Rect.mem_set_unit]
  exact Iff.rfl

/-- Point t writes back block t of Y. -/
theorem flushed8_full (t : Fin cfg8.N) :
    (dat8 V c).flushed 2 t = ((cfg8.win 2).blk t).view.read (Elt Ideal) (biased8 V c) := by
  show (cfg8.win 2).cut (grid8.coords t) ((dat8 V c).after 2 t) = _
  rw [after8_2, outs8_full V c t]
  funext (y : S5000x64.Idx)
  obtain ⟨r, cc, rfl⟩ : ∃ (r : Fin 5000) (cc : Fin 64), y = ix2 r cc := ⟨y 0, y 1, eq_ix2 y⟩
  rw [View.read_apply]
  show Cert.Gcn.addRow (iblk8 V c 0 t : FVec Ideal S5000x64 .f32) (iblk8 V c 1 t : FVec Ideal S1x64 .f32) (ix2 r cc)
    = biased8 V c (((cfg8.win 2).blk t).view.emb (ix2 r cc))
  rw [emb8_2 t r cc]
  exact block8 V c t r cc _

/-- Every row lies in the block of the point numbered by its tile. -/
theorem cover8_full (i : S100000x64.Idx) :
    ∃ t : Fin cfg8.N, (cfg8.win 2).flush t = true ∧ i ∈ ((cfg8.win 2).blk t).view.set := by
  have hN : cfg8.N = 20 := N_8
  have h0 : (i 0).val < 100000 := (i 0).isLt
  have h1 : (i 1).val < 64 := (i 1).isLt
  obtain ⟨t, ht⟩ : ∃ t : Fin cfg8.N, t.val = (i 0).val / 5000 := ⟨⟨(i 0).val / 5000, by rw [hN]; omega⟩, rfl⟩
  refine ⟨t, flush8_2 t, ?_⟩
  rw [mem8_2]
  obtain ⟨-, -, -, -, e0, e1, -⟩ := idx8 t
  intro a
  match a with
  | ⟨0, _⟩ =>
    show win8_2.index t (0 : Fin 2) * 5000 ≤ (i 0).val ∧ (i 0).val < win8_2.index t (0 : Fin 2) * 5000 + 5000
    rw [e0]; omega
  | ⟨1, _⟩ =>
    show win8_2.index t (1 : Fin 2) * 64 ≤ (i 1).val ∧ (i 1).val < win8_2.index t (1 : Fin 2) * 64 + 64
    rw [e1]; omega

/-- The first result array ends as the biased array Y. -/
theorem val8_full : (dat8 V c).arrAt 2 cfg8.N = biased8 V c :=
  (dat8 V c).arrAt_eq_of_cover 2 (biased8 V c) (fun t _ => flushed8_full V c t) (cover8_full)

/-- What the last point writes back of the sum accumulator, for any row G its contents then agree with entry by entry. -/
theorem flushed8_sum_of (G : FVec Ideal S1x64 .f32) (t : Fin cfg8.N)
    (hG : ∀ (u : Fin 1) (cc : Fin 64), (outsAt8 V c t.val t.isLt).2.1 (ix2 u cc) = G (ix2 u cc)) :
    (dat8 V c).flushed 3 t = ((cfg8.win 3).blk t).view.read (Elt Ideal) G := by
  show (cfg8.win 3).cut (grid8.coords t) ((dat8 V c).after 3 t) = _
  rw [after8_3]
  funext (y : S1x64.Idx)
  obtain ⟨u, cc, rfl⟩ : ∃ (u : Fin 1) (cc : Fin 64), y = ix2 u cc := ⟨y 0, y 1, eq_ix2 y⟩
  rw [View.read_apply]
  show (outsAt8 V c t.val t.isLt).2.1 (ix2 u cc) = G (((cfg8.win 3).blk t).view.emb (ix2 u cc))
  rw [emb8_3 t u cc]
  exact hG u cc

/-- The one write-back of the sum accumulator, at the last point: the column sums of Y over all rows. -/
theorem flushed8_sum (t : Fin cfg8.N) (hf : (cfg8.win 3).flush t = true) :
    (dat8 V c).flushed 3 t = ((cfg8.win 3).blk t).view.read (Elt Ideal) (colSums (biased8 V c)) :=
  flushed8_sum_of V c (colSums (biased8 V c)) t fun u cc => by
    have hN : cfg8.N = 20 := N_8
    have h19 : t.val + 1 = 20 := by have := (flush8_3 t).mp hf; have := t.isLt; omega
    rw [(outs8_acc V c t.val t.isLt u cc).1, colSums_apply, partialSum_congr _ h19 _ (le_refl 20), partialSum_all]

/-- What the last point writes back of the sum-of-squares accumulator, for any row G its contents then agree with entry by entry. -/
theorem flushed8_sumsq_of (G : FVec Ideal S1x64 .f32) (t : Fin cfg8.N)
    (hG : ∀ (u : Fin 1) (cc : Fin 64), (outsAt8 V c t.val t.isLt).2.2 (ix2 u cc) = G (ix2 u cc)) :
    (dat8 V c).flushed 4 t = ((cfg8.win 4).blk t).view.read (Elt Ideal) G := by
  show (cfg8.win 4).cut (grid8.coords t) ((dat8 V c).after 4 t) = _
  rw [after8_4]
  funext (y : S1x64.Idx)
  obtain ⟨u, cc, rfl⟩ : ∃ (u : Fin 1) (cc : Fin 64), y = ix2 u cc := ⟨y 0, y 1, eq_ix2 y⟩
  rw [View.read_apply]
  show (outsAt8 V c t.val t.isLt).2.2 (ix2 u cc) = G (((cfg8.win 4).blk t).view.emb (ix2 u cc))
  rw [emb8_4 t u cc]
  exact hG u cc

/-- The one write-back of the sum-of-squares accumulator, at the last point: the column sums of Y · Y over all rows. -/
theorem flushed8_sumsq (t : Fin cfg8.N) (hf : (cfg8.win 4).flush t = true) :
    (dat8 V c).flushed 4 t = ((cfg8.win 4).blk t).view.read (Elt Ideal) (colSumSqs (biased8 V c)) :=
  flushed8_sumsq_of V c (colSumSqs (biased8 V c)) t fun u cc => by
    have hN : cfg8.N = 20 := N_8
    have h19 : t.val + 1 = 20 := by have := (flush8_4 t).mp hf; have := t.isLt; omega
    rw [(outs8_acc V c t.val t.isLt u cc).2, colSumSqs_apply, partialSum_congr _ h19 _ (le_refl 20), partialSum_all]

/-- The last point's block of each accumulator is its whole array. -/
theorem cover8_sum (i : S1x64.Idx) :
    ∃ t : Fin cfg8.N, (cfg8.win 3).flush t = true ∧ i ∈ ((cfg8.win 3).blk t).view.set := by
  have hN : cfg8.N = 20 := N_8
  have h0 : (i 0).val < 1 := (i 0).isLt
  have h1 : (i 1).val < 64 := (i 1).isLt
  obtain ⟨t, ht⟩ : ∃ t : Fin cfg8.N, t.val = 19 := ⟨⟨19, by rw [hN]; omega⟩, rfl⟩
  refine ⟨t, (flush8_3 t).mpr (by rw [ht]), ?_⟩
  rw [mem8_3]
  obtain ⟨-, -, -, -, -, -, e0, e1, -⟩ := idx8 t
  intro a
  match a with
  | ⟨0, _⟩ =>
    show win8_3.index t (0 : Fin 2) * 1 ≤ (i 0).val ∧ (i 0).val < win8_3.index t (0 : Fin 2) * 1 + 1
    rw [e0]; omega
  | ⟨1, _⟩ =>
    show win8_3.index t (1 : Fin 2) * 64 ≤ (i 1).val ∧ (i 1).val < win8_3.index t (1 : Fin 2) * 64 + 64
    rw [e1]; omega

theorem cover8_sumsq (i : S1x64.Idx) :
    ∃ t : Fin cfg8.N, (cfg8.win 4).flush t = true ∧ i ∈ ((cfg8.win 4).blk t).view.set := by
  have hN : cfg8.N = 20 := N_8
  have h0 : (i 0).val < 1 := (i 0).isLt
  have h1 : (i 1).val < 64 := (i 1).isLt
  obtain ⟨t, ht⟩ : ∃ t : Fin cfg8.N, t.val = 19 := ⟨⟨19, by rw [hN]; omega⟩, rfl⟩
  refine ⟨t, (flush8_4 t).mpr (by rw [ht]), ?_⟩
  rw [mem8_4]
  obtain ⟨-, -, -, -, -, -, -, -, e0, e1⟩ := idx8 t
  intro a
  match a with
  | ⟨0, _⟩ =>
    show win8_4.index t (0 : Fin 2) * 1 ≤ (i 0).val ∧ (i 0).val < win8_4.index t (0 : Fin 2) * 1 + 1
    rw [e0]; omega
  | ⟨1, _⟩ =>
    show win8_4.index t (1 : Fin 2) * 64 ≤ (i 1).val ∧ (i 1).val < win8_4.index t (1 : Fin 2) * 64 + 64
    rw [e1]; omega

/-- The second result array ends as the column sums of Y over all 100000 rows. -/
theorem val8_sum : (dat8 V c).arrAt 3 cfg8.N = colSums (biased8 V c) :=
  (dat8 V c).arrAt_eq_of_cover 3 (colSums (biased8 V c)) (flushed8_sum V c) (cover8_sum)

/-- The third result array ends as the column sums of Y · Y over all 100000 rows. -/
theorem val8_sumsq : (dat8 V c).arrAt 4 cfg8.N = colSumSqs (biased8 V c) :=
  (dat8 V c).arrAt_eq_of_cover 4 (colSumSqs (biased8 V c)) (flushed8_sumsq V c) (cover8_sumsq)

end Cert.KernelIdeal.RegVal

end
-- ==== Proof.RegR11Pay.lean ====
/-
  The arithmetic of the statistics body of region 11, read at an entry over the extended reals.

  With x the [5000, 64] block of aggregated rows and b the [1, 64] bias row, the body stores the biased block
  y(r, c) = x(r, c) + b(0, c); the two accumulators are reset to the zero word's value, which is 0; and each accumulator
  step adds, per column c, the sum over the block's 5000 rows of y(r, c), respectively of y(r, c) · y(r, c), to the
  running [1, 64] row.
-/
import proofs.«109724_j81406810128840_1_alg».proof.Proof.Gen.KernelIdeal.Skeleton
import proofs.«109724_j81406810128840_1_alg».proof.Proof.LibPlainDense
import proofs.«109724_j81406810128840_1_alg».proof.Proof.LibRowStats

noncomputable section

namespace Cert.KernelIdeal.RegVal

open Cert.KernelIdeal Cert.KernelIdeal.Gen
open Idealize.ShloMosaic Idealize.ShloMosaic.ValueIdx
open scoped BigOperators

/-- The stored block is the biased block. -/
theorem pay11_full (x0 : FVec Ideal S5000x64 .f32) (x1 : FVec Ideal S1x64 .f32) :
    k11_pay1 (F := Ideal) x0 x1 = Cert.Gcn.addRow x0 x1 := by
  unfold k11_pay1
  exact Cert.LibRowStats.biased_eq x0 x1 shapeCasts_S5000x64_S5000x64 shapeCasts_S1x64_S1x64 broadcasts_S1x64_S5000x64

/-- The reset value of the sum accumulator is zero. -/
theorem pay11_zero_sum (j : S1x64.Idx) : k11_pay2 (F := Ideal) j = 0 := by
  unfold k11_pay2
  show Ideal.ofBits .f32 0x00000000#32 = 0
  exact Ideal.ofBits_zero_f32

/-- The reset value of the sum-of-squares accumulator is zero. -/
theorem pay11_zero_sumsq (j : S1x64.Idx) : k11_pay3 (F := Ideal) j = 0 := by
  unfold k11_pay3
  show Ideal.ofBits .f32 0x00000000#32 = 0
  exact Ideal.ofBits_zero_f32

/-- One step of the sum accumulator: the running row plus the block's column sums. -/
theorem pay11_sum (x0 : FVec Ideal S5000x64 .f32) (x1 : FVec Ideal S1x64 .f32) (acc : FVec Ideal S1x64 .f32) (u : Fin 1) (cc : Fin 64) :
    k11_pay4 (F := Ideal) x0 x1 acc (ix2 u cc) = acc (ix2 u cc) + ∑ r : Fin 5000, Cert.Gcn.addRow x0 x1 (ix2 r cc) := by
  unfold k11_pay4
  refine (Cert.LibRowStats.acc_colsum_apply acc (k11_pay1 (F := Ideal) x0 x1) reduces_S5000x64_S64 (.inl rfl) rfl shapeCasts_S64_S1x64
    shapeCasts_S1x64_S1x64 u cc).trans ?_
  rw [pay11_full]

/-- One step of the sum-of-squares accumulator: the running row plus the column sums of the block's squares. -/
theorem pay11_sumsq (x0 : FVec Ideal S5000x64 .f32) (x1 : FVec Ideal S1x64 .f32) (acc : FVec Ideal S1x64 .f32) (u : Fin 1) (cc : Fin 64) :
    k11_pay5 (F := Ideal) x0 x1 acc (ix2 u cc)
      = acc (ix2 u cc) + ∑ r : Fin 5000, Cert.Gcn.addRow x0 x1 (ix2 r cc) * Cert.Gcn.addRow x0 x1 (ix2 r cc) := by
  unfold k11_pay5
  refine (Cert.LibRowStats.acc_colsum_apply acc (mulf (k11_pay1 (F := Ideal) x0 x1) (k11_pay1 (F := Ideal) x0 x1)) reduces_S5000x64_S64 (.inl rfl) rfl
    shapeCasts_S64_S1x64 shapeCasts_S1x64_S1x64 u cc).trans ?_
  rw [pay11_full]
  rfl

end Cert.KernelIdeal.RegVal

end
-- ==== Proof.RegR11Pieces.lean ====
/-
  What the statistics body of region 11 leaves in its three output buffers, for any float values.

  At the first grid point the body stores the biased block, resets both accumulators and then adds the block's column
  statistics to the values just reset; at every later point it stores the biased block and adds the block's column
  statistics to what the accumulators held on entry. Each buffer is written last by one store over its whole extent,
  so it holds that store's value; an accumulator read back after its reset reads the reset value.
-/
import proofs.«109724_j81406810128840_1_alg».proof.Proof.Gen.KernelIdeal.Frame
import proofs.«109724_j81406810128840_1_alg».proof.Proof.RegRCore
import Idealize.ShloMosaic.Lib.Pipeline.Value
import Idealize.ShloMosaic.Lib.Tactic

set_option maxRecDepth 16384

noncomputable section

namespace Cert.KernelIdeal.RegVal

open Cert.KernelIdeal Cert.KernelIdeal.Gen
open Idealize.ShloMosaic Idealize.ShloMosaic.TcCoe Idealize.SL.Sem
open Idealize.ShloMosaic.Pipeline (Dat)

variable {F : FTy → Type} [FloatOps F]

/-- First point, the full block: the biased block. -/
theorem out11_A_full (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond11_0 i)
    (x0 : Vec F S5000x64 .f32) (x1 : Vec F S1x64 .f32) :
    out11_A_2 c i a1 h1 a2 h2 a3 h3 a4 h4 a5 h5 hc x0 x1 = k11_pay1 x0 x1 := by
  unfold out11_A_2
  rw [View.read_writes_eq_canon _ _ _ (cover11_A_2 c i a1 h1 a2 h2 a3 h3 a4 h4 a5 h5 hc x0 x1)]
  unfold kernelRun11_A
  dsimp only
  rw [View.canon_unit_zero hz]
  simp only [View.readAt_eq_ld, h1.read_unread, h2.read_unread, View.ld_unit_zero (S := S5000x64) hz, View.ld_unit_zero (S := S1x64) hz]

/-- First point, the sum accumulator: one step from the reset value. -/
theorem out11_A_sum (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond11_0 i)
    (x0 : Vec F S5000x64 .f32) (x1 : Vec F S1x64 .f32) :
    out11_A_3 c i a1 h1 a2 h2 a3 h3 a4 h4 a5 h5 hc x0 x1 = k11_pay4 x0 x1 (k11_pay2 (F := F)) := by
  unfold out11_A_3
  rw [View.read_writes_eq_canon _ _ _ (cover11_A_3 c i a1 h1 a2 h2 a3 h3 a4 h4 a5 h5 hc x0 x1)]
  unfold kernelRun11_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- First point, the sum-of-squares accumulator: one step from the reset value. -/
theorem out11_A_sumsq (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : cond11_0 i)
    (x0 : Vec F S5000x64 .f32) (x1 : Vec F S1x64 .f32) :
    out11_A_4 c i a1 h1 a2 h2 a3 h3 a4 h4 a5 h5 hc x0 x1 = k11_pay5 x0 x1 (k11_pay3 (F := F)) := by
  unfold out11_A_4
  rw [View.read_writes_eq_canon _ _ _ (cover11_A_4 c i a1 h1 a2 h2 a3 h3 a4 h4 a5 h5 hc x0 x1)]
  unfold kernelRun11_A
  dsimp only
  sl_unfold_words
  rw [View.canon_cons_unit_zero (S := S1x64) hz, View.readCov_unit_zero (S := S1x64) _ hz]
  simp only [View.readAt_eq_ld, h1.read_unread, h2.read_unread, View.ld_unit_zero (S := S5000x64) hz, View.ld_unit_zero (S := S1x64) hz]

/-- A later point, the full block: the biased block. -/
theorem out11_B_full (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond11_0 i)
    (x0 : Vec F S5000x64 .f32) (x1 : Vec F S1x64 .f32) (xo3 : Vec F S1x64 .f32) (xo4 : Vec F S1x64 .f32) :
    out11_B_2 c i a1 h1 a2 h2 a3 h3 a4 h4 a5 h5 hc x0 x1 xo3 xo4 = k11_pay1 x0 x1 := by
  unfold out11_B_2
  rw [View.read_writes_eq_canon _ _ _ (cover11_B_2 c i a1 h1 a2 h2 a3 h3 a4 h4 a5 h5 hc x0 x1 xo3 xo4)]
  unfold kernelRun11_B
  dsimp only
  rw [View.canon_unit_zero hz]
  simp only [View.readAt_eq_ld, h1.read_unread, h2.read_unread, View.ld_unit_zero (S := S5000x64) hz, View.ld_unit_zero (S := S1x64) hz]

/-- A later point, the sum accumulator: one step from what it held. -/
theorem out11_B_sum (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond11_0 i)
    (x0 : Vec F S5000x64 .f32) (x1 : Vec F S1x64 .f32) (xo3 : Vec F S1x64 .f32) (xo4 : Vec F S1x64 .f32) :
    out11_B_3 c i a1 h1 a2 h2 a3 h3 a4 h4 a5 h5 hc x0 x1 xo3 xo4 = k11_pay4 x0 x1 xo3 := by
  unfold out11_B_3
  rw [View.read_writes_eq_canon _ _ _ (cover11_B_3 c i a1 h1 a2 h2 a3 h3 a4 h4 a5 h5 hc x0 x1 xo3 xo4)]
  unfold kernelRun11_B
  dsimp only
  rw [View.canon_unit_zero hz]
  simp only [View.readAt_eq_ld, h1.read_unread, h2.read_unread, h4.read_unread, View.ld_unit_zero (S := S5000x64) hz, View.ld_unit_zero (S := S1x64) hz]

/-- A later point, the sum-of-squares accumulator: one step from what it held. -/
theorem out11_B_sumsq (c : Dev nD) (i : grid11.Coords) (a1 : Memref sig .tc .vmem S5000x64 .f32) (h1 : a1.IsWhole) (a2 : Memref sig .tc .vmem S1x64 .f32) (h2 : a2.IsWhole) (a3 : Memref sig .tc .vmem S5000x64 .f32) (h3 : a3.IsWhole) (a4 : Memref sig .tc .vmem S1x64 .f32) (h4 : a4.IsWhole) (a5 : Memref sig .tc .vmem S1x64 .f32) (h5 : a5.IsWhole) (hc : ¬cond11_0 i)
    (x0 : Vec F S5000x64 .f32) (x1 : Vec F S1x64 .f32) (xo3 : Vec F S1x64 .f32) (xo4 : Vec F S1x64 .f32) :
    out11_B_4 c i a1 h1 a2 h2 a3 h3 a4 h4 a5 h5 hc x0 x1 xo3 xo4 = k11_pay5 x0 x1 xo4 := by
  unfold out11_B_4
  rw [View.read_writes_eq_canon _ _ _ (cover11_B_4 c i a1 h1 a2 h2 a3 h3 a4 h4 a5 h5 hc x0 x1 xo3 xo4)]
  unfold kernelRun11_B
  dsimp only
  rw [View.canon_unit_zero hz]
  simp only [View.readAt_eq_ld, h1.read_unread, h2.read_unread, h5.read_unread, View.ld_unit_zero (S := S5000x64) hz, View.ld_unit_zero (S := S1x64) hz]

variable (V : (c : Dev nD) → (b : Ref sig .tc) → Buf (Elt F) ((c : Thread nD τ).loc b))

/-- The three buffers after the first point. -/
theorem outs11_first (c : Dev nD) (t : Fin cfg11.N) (h0 : t.val % 20 = 0) :
    outsAt11 V c t.val t.isLt
      = (k11_pay1 (iblk11 V c 0 t) (iblk11 V c 1 t), k11_pay4 (iblk11 V c 0 t) (iblk11 V c 1 t) (k11_pay2 (F := F)),
          k11_pay5 (iblk11 V c 0 t) (iblk11 V c 1 t) (k11_pay3 (F := F))) := by
  rw [outsAt11_A V c t h0,
    out11_A_full c (grid11.coords t) (ms11_0 t) (hs11_0 t) (ms11_1 t) (hs11_1 t) (ms11_2 t) (hs11_2 t) (ms11_3 t) (hs11_3 t) (ms11_4 t) (hs11_4 t) ((hcond11_0 t).mpr h0) (iblk11 V c 0 t) (iblk11 V c 1 t),
    out11_A_sum c (grid11.coords t) (ms11_0 t) (hs11_0 t) (ms11_1 t) (hs11_1 t) (ms11_2 t) (hs11_2 t) (ms11_3 t) (hs11_3 t) (ms11_4 t) (hs11_4 t) ((hcond11_0 t).mpr h0) (iblk11 V c 0 t) (iblk11 V c 1 t),
    out11_A_sumsq c (grid11.coords t) (ms11_0 t) (hs11_0 t) (ms11_1 t) (hs11_1 t) (ms11_2 t) (hs11_2 t) (ms11_3 t) (hs11_3 t) (ms11_4 t) (hs11_4 t) ((hcond11_0 t).mpr h0) (iblk11 V c 0 t) (iblk11 V c 1 t)]

/-- The three buffers after a later point, from the accumulators after the point before. -/
theorem outs11_later (c : Dev nD) (t : Fin cfg11.N) (h0 : ¬t.val % 20 = 0) :
    outsAt11 V c t.val t.isLt
      = (k11_pay1 (iblk11 V c 0 t) (iblk11 V c 1 t),
          k11_pay4 (iblk11 V c 0 t) (iblk11 V c 1 t) (outsAt11 V c (t.val - 1) (Nat.lt_of_le_of_lt (Nat.sub_le _ _) t.isLt)).2.1,
          k11_pay5 (iblk11 V c 0 t) (iblk11 V c 1 t) (outsAt11 V c (t.val - 1) (Nat.lt_of_le_of_lt (Nat.sub_le _ _) t.isLt)).2.2) := by
  rw [outsAt11_B V c t h0,
    out11_B_full c (grid11.coords t) (ms11_0 t) (hs11_0 t) (ms11_1 t) (hs11_1 t) (ms11_2 t) (hs11_2 t) (ms11_3 t) (hs11_3 t) (ms11_4 t) (hs11_4 t) (fun h => h0 ((hcond11_0 t).mp h)) (iblk11 V c 0 t) (iblk11 V c 1 t)
      (outsAt11 V c (t.val - 1) (Nat.lt_of_le_of_lt (Nat.sub_le _ _) t.isLt)).2.1 (outsAt11 V c (t.val - 1) (Nat.lt_of_le_of_lt (Nat.sub_le _ _) t.isLt)).2.2,
    out11_B_sum c (grid11.coords t) (ms11_0 t) (hs11_0 t) (ms11_1 t) (hs11_1 t) (ms11_2 t) (hs11_2 t) (ms11_3 t) (hs11_3 t) (ms11_4 t) (hs11_4 t) (fun h => h0 ((hcond11_0 t).mp h)) (iblk11 V c 0 t) (iblk11 V c 1 t)
      (outsAt11 V c (t.val - 1) (Nat.lt_of_le_of_lt (Nat.sub_le _ _) t.isLt)).2.1 (outsAt11 V c (t.val - 1) (Nat.lt_of_le_of_lt (Nat.sub_le _ _) t.isLt)).2.2,
    out11_B_sumsq c (grid11.coords t) (ms11_0 t) (hs11_0 t) (ms11_1 t) (hs11_1 t) (ms11_2 t) (hs11_2 t) (ms11_3 t) (hs11_3 t) (ms11_4 t) (hs11_4 t) (fun h => h0 ((hcond11_0 t).mp h)) (iblk11 V c 0 t) (iblk11 V c 1 t)
      (outsAt11 V c (t.val - 1) (Nat.lt_of_le_of_lt (Nat.sub_le _ _) t.isLt)).2.1 (outsAt11 V c (t.val - 1) (Nat.lt_of_le_of_lt (Nat.sub_le _ _) t.isLt)).2.2]

end Cert.KernelIdeal.RegVal

end
-- ==== Proof.RegR11Val.lean ====
/-
  The values region 11 leaves in its three result arrays, over the extended reals.

  The region reads the aggregated rows AGG, a [100000, 64] array, in 20 blocks of 5000 rows, and a [1, 64] bias row BIAS,
  whole at every point. Row r of block t is row 5000 · t + r of AGG. Write Y(r, c) = AGG(r, c) + BIAS(0, c) for the
  biased array. Every point writes its block of Y back to the first result, so that array ends as Y. The two [1, 64]
  accumulators stay in place across the 20 points: reset to 0 at the first, each point adds its block's column sums of
  Y, respectively of Y · Y; after point n they hold the sums over the rows of blocks 0 to n, and the last point's
  contents, the sums over all 100000 rows, are what is written back. Only commutativity and associativity of addition
  are used; no entry needs to be finite.
-/
import proofs.«109724_j81406810128840_1_alg».proof.Proof.Gen.KernelIdeal.Frame
import proofs.«109724_j81406810128840_1_alg».proof.Proof.RegRCore
import proofs.«109724_j81406810128840_1_alg».proof.Proof.RegR11Pay
import proofs.«109724_j81406810128840_1_alg».proof.Proof.RegR11Pieces
import proofs.«109724_j81406810128840_1_alg».proof.Proof.LibPlainDense
import Idealize.ShloMosaic.Lib.Pipeline.Value
import Idealize.ShloMosaic.Lib.ValueIdx

set_option maxRecDepth 16384

noncomputable section

namespace Cert.KernelIdeal.RegVal

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The aggregated rows as the region finds them. -/
abbrev agg11 : FVec Ideal S100000x64 .f32 := V c (Pipeline.arrRef spec11 0)
/-- The bias row as the region finds it. -/
abbrev bias11 : FVec Ideal S1x64 .f32 := V c (Pipeline.arrRef spec11 1)
/-- The biased array Y. -/
abbrev biased11 : FVec Ideal S100000x64 .f32 := Cert.Gcn.addRow (agg11 V c) (bias11 V c)

/-- The printed block indices, decided over the 20 points: the two tiled windows sit at block (t, 0), the others at (0, 0). -/
theorem idx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- A point's number is below 20, so its rows are among the 100000. -/
theorem row_lt11 (t : Fin cfg11.N) (r : Fin 5000) : t.val * 5000 + r.val < 100000 := by
  have hN : cfg11.N = 20 := N_11
  have := t.isLt
  have := r.isLt
  omega

theorem succ_le11 {n : ℕ} (h : n < cfg11.N) : n + 1 ≤ 20 := by
  have hN : cfg11.N = 20 := N_11
  omega

/-! ## Where a block's entry sits in its array -/

theorem emb11_0 (t : Fin cfg11.N) (r : Fin 5000) (cc : Fin 64) :
    ((cfg11.win 0).blk t).view.emb (ix2 r cc) = (ix2 (⟨t.val * 5000 + r.val, row_lt11 t r⟩ : Fin 100000) cc : S100000x64.Idx) := by
  obtain ⟨e0, e1, -⟩ := idx11 t
  funext a; apply Fin.ext
  match a with
  | ⟨0, _⟩ => show win11_0.index t (0 : Fin 2) * 5000 + 1 * r.val = t.val * 5000 + r.val; rw [e0]; omega
  | ⟨1, _⟩ => show win11_0.index t (1 : Fin 2) * 64 + 1 * cc.val = cc.val; rw [e1]; omega

theorem emb11_1 (t : Fin cfg11.N) (u : Fin 1) (cc : Fin 64) :
    ((cfg11.win 1).blk t).view.emb (ix2 u cc) = (ix2 u cc : S1x64.Idx) := by
  obtain ⟨-, -, e0, e1, -⟩ := idx11 t
  funext a; apply Fin.ext
  match a with
  | ⟨0, _⟩ => show win11_1.index t (0 : Fin 2) * 1 + 1 * u.val = u.val; rw [e0]; omega
  | ⟨1, _⟩ => show win11_1.index t (1 : Fin 2) * 64 + 1 * cc.val = cc.val; rw [e1]; omega

theorem emb11_2 (t : Fin cfg11.N) (r : Fin 5000) (cc : Fin 64) :
    ((cfg11.win 2).blk t).view.emb (ix2 r cc) = (ix2 (⟨t.val * 5000 + r.val, row_lt11 t r⟩ : Fin 100000) cc : S100000x64.Idx) := by
  obtain ⟨-, -, -, -, e0, e1, -⟩ := idx11 t
  funext a; apply Fin.ext
  match a with
  | ⟨0, _⟩ => show win11_2.index t (0 : Fin 2) * 5000 + 1 * r.val = t.val * 5000 + r.val; rw [e0]; omega
  | ⟨1, _⟩ => show win11_2.index t (1 : Fin 2) * 64 + 1 * cc.val = cc.val; rw [e1]; omega

theorem emb11_3 (t : Fin cfg11.N) (u : Fin 1) (cc : Fin 64) :
    ((cfg11.win 3).blk t).view.emb (ix2 u cc) = (ix2 u cc : S1x64.Idx) := by
  obtain ⟨-, -, -, -, -, -, e0, e1, -⟩ := idx11 t
  funext a; apply Fin.ext
  match a with
  | ⟨0, _⟩ => show win11_3.index t (0 : Fin 2) * 1 + 1 * u.val = u.val; rw [e0]; omega
  | ⟨1, _⟩ => show win11_3.index t (1 : Fin 2) * 64 + 1 * cc.val = cc.val; rw [e1]; omega

theorem emb11_4 (t : Fin cfg11.N) (u : Fin 1) (cc : Fin 64) :
    ((cfg11.win 4).blk t).view.emb (ix2 u cc) = (ix2 u cc : S1x64.Idx) := by
  obtain ⟨-, -, -, -, -, -, -, -, e0, e1⟩ := idx11 t
  funext a; apply Fin.ext
  match a with
  | ⟨0, _⟩ => show win11_4.index t (0 : Fin 2) * 1 + 1 * u.val = u.val; rw [e0]; omega
  | ⟨1, _⟩ => show win11_4.index t (1 : Fin 2) * 64 + 1 * cc.val = cc.val; rw [e1]; omega

/-! ## The input blocks -/

/-- Row r of the block of aggregated rows at point t is row 5000 · t + r of AGG. -/
theorem iblk11_agg (t : Fin cfg11.N) (r : Fin 5000) (cc : Fin 64) :
    (iblk11 V c 0 t : FVec Ideal S5000x64 .f32) (ix2 r cc) = agg11 V c (ix2 (⟨t.val * 5000 + r.val, row_lt11 t r⟩ : Fin 100000) cc) := by
  unfold iblk11
  rw [View.read_apply]
  exact congrArg (fun i => agg11 V c i) (emb11_0 t r cc)

/-- The bias block at every point is the whole bias row. -/
theorem iblk11_bias (t : Fin cfg11.N) (u : Fin 1) (cc : Fin 64) :
    (iblk11 V c 1 t : FVec Ideal S1x64 .f32) (ix2 u cc) = bias11 V c (ix2 u cc) := by
  unfold iblk11
  rw [View.read_apply]
  exact congrArg (fun i => bias11 V c i) (emb11_1 t u cc)

/-- The biased block at point t is block t of Y. -/
theorem block11 (t : Fin cfg11.N) (r : Fin 5000) (cc : Fin 64) (hlt : t.val * 5000 + r.val < 100000) :
    Cert.Gcn.addRow (iblk11 V c 0 t : FVec Ideal S5000x64 .f32) (iblk11 V c 1 t : FVec Ideal S1x64 .f32) (ix2 r cc)
      = biased11 V c (ix2 (⟨t.val * 5000 + r.val, hlt⟩ : Fin 100000) cc) := by
  exact congrArg₂ (fun a b : EReal => a + b) (iblk11_agg V c t r cc) (iblk11_bias V c t 0 cc)

/-! ## The three buffers after each point -/

/-- After every point the first output buffer holds the biased block. -/
theorem outs11_full (t : Fin cfg11.N) :
    (outsAt11 V c t.val t.isLt).1 = Cert.Gcn.addRow (iblk11 V c 0 t : FVec Ideal S5000x64 .f32) (iblk11 V c 1 t : FVec Ideal S1x64 .f32) := by
  by_cases h0 : t.val % 20 = 0
  · rw [outs11_first V c t h0]
    exact pay11_full (iblk11 V c 0 t) (iblk11 V c 1 t)
  · rw [outs11_later V c t h0]
    exact pay11_full (iblk11 V c 0 t) (iblk11 V c 1 t)

/-- After point n the accumulators hold the column sums of Y, and of Y · Y, over the rows of blocks 0 to n. -/
theorem outs11_acc : ∀ (n : ℕ) (h : n < cfg11.N) (u : Fin 1) (cc : Fin 64),
    (outsAt11 V c n h).2.1 (ix2 u cc) = partialSum (fun ρ => biased11 V c (ix2 ρ cc)) (n + 1) (succ_le11 h)
    ∧ (outsAt11 V c n h).2.2 (ix2 u cc)
        = partialSum (fun ρ => biased11 V c (ix2 ρ cc) * biased11 V c (ix2 ρ cc)) (n + 1) (succ_le11 h)
  | 0, h, u, cc => by
    have e : outsAt11 V c 0 h = _ := outs11_first V c ⟨0, h⟩ (Nat.zero_mod 20)
    rw [e]
    refine ⟨?_, ?_⟩
    · refine (pay11_sum (iblk11 V c 0 ⟨0, h⟩) (iblk11 V c 1 ⟨0, h⟩) (k11_pay2 (F := Ideal)) u cc).trans ?_
      rw [pay11_zero_sum, zero_add, partialSum_succ _ 0, partialSum_zero, zero_add]
      exact Finset.sum_congr rfl fun r _ => block11 V c ⟨0, h⟩ r cc _
    · refine (pay11_sumsq (iblk11 V c 0 ⟨0, h⟩) (iblk11 V c 1 ⟨0, h⟩) (k11_pay3 (F := Ideal)) u cc).trans ?_
      rw [pay11_zero_sumsq, zero_add, partialSum_succ _ 0, partialSum_zero, zero_add]
      exact Finset.sum_congr rfl fun r _ => by rw [block11 V c ⟨0, h⟩ r cc _]
  | n + 1, h, u, cc => by
    have hN : cfg11.N = 20 := N_11
    have hB : ¬(⟨n + 1, h⟩ : Fin cfg11.N).val % 20 = 0 := by dsimp only; omega
    have ih := outs11_acc n (Nat.lt_of_succ_lt h) u cc
    have e : outsAt11 V c (n + 1) h = _ := outs11_later V c ⟨n + 1, h⟩ hB
    rw [e]
    refine ⟨?_, ?_⟩
    · refine (pay11_sum (iblk11 V c 0 ⟨n + 1, h⟩) (iblk11 V c 1 ⟨n + 1, h⟩) (outsAt11 V c n (Nat.lt_of_succ_lt h)).2.1 u cc).trans ?_
      rw [ih.1, partialSum_succ _ (n + 1)]
      exact congrArg (fun z => _ + z) (Finset.sum_congr rfl fun r _ => block11 V c ⟨n + 1, h⟩ r cc _)
    · refine (pay11_sumsq (iblk11 V c 0 ⟨n + 1, h⟩) (iblk11 V c 1 ⟨n + 1, h⟩) (outsAt11 V c n (Nat.lt_of_succ_lt h)).2.2 u cc).trans ?_
      rw [ih.2, partialSum_succ _ (n + 1)]
      exact congrArg (fun z => _ + z) (Finset.sum_congr rfl fun r _ => by rw [block11 V c ⟨n + 1, h⟩ r cc _])

/-! ## What is written back, and the arrays after the region -/

/-- An index of the first result array is in point t's block iff each coordinate is in the block's range. -/
theorem mem11_2 (t : Fin cfg11.N) (i : S100000x64.Idx) :
    i ∈ ((cfg11.win 2).blk t).view.set ↔ ∀ a : Fin 2, win11_2.index t a * S5000x64.size a ≤ (i a).val ∧ (i a).val < win11_2.index t a * S5000x64.size a + S5000x64.size a := by
  show i ∈ ((View.whole main_v151_0).slice (win11_2.rect t)).set ↔ _
  rw [View.set_slice_whole, Rect.mem_set_unit]
  exact Iff.rfl

theorem mem11_3 (t : Fin cfg11.N) (i : S1x64.Idx) :
    i ∈ ((cfg11.win 3).blk t).view.set ↔ ∀ a : Fin 2, win11_3.index t a * S1x64.size a ≤ (i a).val ∧ (i a).val < win11_3.index t a * S1x64.size a + S1x64.size a := by
  show i ∈ ((View.whole main_v151_1).slice (win11_3.rect t)).set ↔ _
  rw [View.set_slice_whole, Rect.mem_set_unit]
  exact Iff.rfl

theorem mem11_4 (t : Fin cfg11.N) (i : S1x64.Idx) :
    i ∈ ((cfg11.win 4).blk t).view.set ↔ ∀ a : Fin 2, win11_4.index t a * S1x64.size a ≤ (i a).val ∧ (i a).val < win11_4.index t a * S1x64.size a + S1x64.size a := by
  show i ∈ ((View.whole main_v151_2).slice (win11_4.rect t)).set ↔ _
  rw [View.set_slice_whole, Rect.mem_set_unit]
  exact Iff.rfl

/-- Point t writes back block t of Y. -/
theorem flushed11_full (t : Fin cfg11.N) :
    (dat11 V c).flushed 2 t = ((cfg11.win 2).blk t).view.read (Elt Ideal) (biased11 V c) := by
  show (cfg11.win 2).cut (grid11.coords t) ((dat11 V c).after 2 t) = _
  rw [after11_2, outs11_full V c t]
  funext (y : S5000x64.Idx)
  obtain ⟨r, cc, rfl⟩ : ∃ (r : Fin 5000) (cc : Fin 64), y = ix2 r cc := ⟨y 0, y 1, eq_ix2 y⟩
  rw [View.read_apply]
  show Cert.Gcn.addRow (iblk11 V c 0 t : FVec Ideal S5000x64 .f32) (iblk11 V c 1 t : FVec Ideal S1x64 .f32) (ix2 r cc)
    = biased11 V c (((cfg11.win 2).blk t).view.emb (ix2 r cc))
  rw [emb11_2 t r cc]
  exact block11 V c t r cc _

/-- Every row lies in the block of the point numbered by its tile. -/
theorem cover11_full (i : S100000x64.Idx) :
    ∃ t : Fin cfg11.N, (cfg11.win 2).flush t = true ∧ i ∈ ((cfg11.win 2).blk t).view.set := by
  have hN : cfg11.N = 20 := N_11
  have h0 : (i 0).val < 100000 := (i 0).isLt
  have h1 : (i 1).val < 64 := (i 1).isLt
  obtain ⟨t, ht⟩ : ∃ t : Fin cfg11.N, t.val = (i 0).val / 5000 := ⟨⟨(i 0).val / 5000, by rw [hN]; omega⟩, rfl⟩
  refine ⟨t, flush11_2 t, ?_⟩
  rw [mem11_2]
  obtain ⟨-, -, -, -, e0, e1, -⟩ := idx11 t
  intro a
  match a with
  | ⟨0, _⟩ =>
    show win11_2.index t (0 : Fin 2) * 5000 ≤ (i 0).val ∧ (i 0).val < win11_2.index t (0 : Fin 2) * 5000 + 5000
    rw [e0]; omega
  | ⟨1, _⟩ =>
    show win11_2.index t (1 : Fin 2) * 64 ≤ (i 1).val ∧ (i 1).val < win11_2.index t (1 : Fin 2) * 64 + 64
    rw [e1]; omega

/-- The first result array ends as the biased array Y. -/
theorem val11_full : (dat11 V c).arrAt 2 cfg11.N = biased11 V c :=
  (dat11 V c).arrAt_eq_of_cover 2 (biased11 V c) (fun t _ => flushed11_full V c t) (cover11_full)

/-- What the last point writes back of the sum accumulator, for any row G its contents then agree with entry by entry. -/
theorem flushed11_sum_of (G : FVec Ideal S1x64 .f32) (t : Fin cfg11.N)
    (hG : ∀ (u : Fin 1) (cc : Fin 64), (outsAt11 V c t.val t.isLt).2.1 (ix2 u cc) = G (ix2 u cc)) :
    (dat11 V c).flushed 3 t = ((cfg11.win 3).blk t).view.read (Elt Ideal) G := by
  show (cfg11.win 3).cut (grid11.coords t) ((dat11 V c).after 3 t) = _
  rw [after11_3]
  funext (y : S1x64.Idx)
  obtain ⟨u, cc, rfl⟩ : ∃ (u : Fin 1) (cc : Fin 64), y = ix2 u cc := ⟨y 0, y 1, eq_ix2 y⟩
  rw [View.read_apply]
  show (outsAt11 V c t.val t.isLt).2.1 (ix2 u cc) = G (((cfg11.win 3).blk t).view.emb (ix2 u cc))
  rw [emb11_3 t u cc]
  exact hG u cc

/-- The one write-back of the sum accumulator, at the last point: the column sums of Y over all rows. -/
theorem flushed11_sum (t : Fin cfg11.N) (hf : (cfg11.win 3).flush t = true) :
    (dat11 V c).flushed 3 t = ((cfg11.win 3).blk t).view.read (Elt Ideal) (colSums (biased11 V c)) :=
  flushed11_sum_of V c (colSums (biased11 V c)) t fun u cc => by
    have hN : cfg11.N = 20 := N_11
    have h19 : t.val + 1 = 20 := by have := (flush11_3 t).mp hf; have := t.isLt; omega
    rw [(outs11_acc V c t.val t.isLt u cc).1, colSums_apply, partialSum_congr _ h19 _ (le_refl 20), partialSum_all]

/-- What the last point writes back of the sum-of-squares accumulator, for any row G its contents then agree with entry by entry. -/
theorem flushed11_sumsq_of (G : FVec Ideal S1x64 .f32) (t : Fin cfg11.N)
    (hG : ∀ (u : Fin 1) (cc : Fin 64), (outsAt11 V c t.val t.isLt).2.2 (ix2 u cc) = G (ix2 u cc)) :
    (dat11 V c).flushed 4 t = ((cfg11.win 4).blk t).view.read (Elt Ideal) G := by
  show (cfg11.win 4).cut (grid11.coords t) ((dat11 V c).after 4 t) = _
  rw [after11_4]
  funext (y : S1x64.Idx)
  obtain ⟨u, cc, rfl⟩ : ∃ (u : Fin 1) (cc : Fin 64), y = ix2 u cc := ⟨y 0, y 1, eq_ix2 y⟩
  rw [View.read_apply]
  show (outsAt11 V c t.val t.isLt).2.2 (ix2 u cc) = G (((cfg11.win 4).blk t).view.emb (ix2 u cc))
  rw [emb11_4 t u cc]
  exact hG u cc

/-- The one write-back of the sum-of-squares accumulator, at the last point: the column sums of Y · Y over all rows. -/
theorem flushed11_sumsq (t : Fin cfg11.N) (hf : (cfg11.win 4).flush t = true) :
    (dat11 V c).flushed 4 t = ((cfg11.win 4).blk t).view.read (Elt Ideal) (colSumSqs (biased11 V c)) :=
  flushed11_sumsq_of V c (colSumSqs (biased11 V c)) t fun u cc => by
    have hN : cfg11.N = 20 := N_11
    have h19 : t.val + 1 = 20 := by have := (flush11_4 t).mp hf; have := t.isLt; omega
    rw [(outs11_acc V c t.val t.isLt u cc).2, colSumSqs_apply, partialSum_congr _ h19 _ (le_refl 20), partialSum_all]

/-- The last point's block of each accumulator is its whole array. -/
theorem cover11_sum (i : S1x64.Idx) :
    ∃ t : Fin cfg11.N, (cfg11.win 3).flush t = true ∧ i ∈ ((cfg11.win 3).blk t).view.set := by
  have hN : cfg11.N = 20 := N_11
  have h0 : (i 0).val < 1 := (i 0).isLt
  have h1 : (i 1).val < 64 := (i 1).isLt
  obtain ⟨t, ht⟩ : ∃ t : Fin cfg11.N, t.val = 19 := ⟨⟨19, by rw [hN]; omega⟩, rfl⟩
  refine ⟨t, (flush11_3 t).mpr (by rw [ht]), ?_⟩
  rw [mem11_3]
  obtain ⟨-, -, -, -, -, -, e0, e1, -⟩ := idx11 t
  intro a
  match a with
  | ⟨0, _⟩ =>
    show win11_3.index t (0 : Fin 2) * 1 ≤ (i 0).val ∧ (i 0).val < win11_3.index t (0 : Fin 2) * 1 + 1
    rw [e0]; omega
  | ⟨1, _⟩ =>
    show win11_3.index t (1 : Fin 2) * 64 ≤ (i 1).val ∧ (i 1).val < win11_3.index t (1 : Fin 2) * 64 + 64
    rw [e1]; omega

theorem cover11_sumsq (i : S1x64.Idx) :
    ∃ t : Fin cfg11.N, (cfg11.win 4).flush t = true ∧ i ∈ ((cfg11.win 4).blk t).view.set := by
  have hN : cfg11.N = 20 := N_11
  have h0 : (i 0).val < 1 := (i 0).isLt
  have h1 : (i 1).val < 64 := (i 1).isLt
  obtain ⟨t, ht⟩ : ∃ t : Fin cfg11.N, t.val = 19 := ⟨⟨19, by rw [hN]; omega⟩, rfl⟩
  refine ⟨t, (flush11_4 t).mpr (by rw [ht]), ?_⟩
  rw [mem11_4]
  obtain ⟨-, -, -, -, -, -, -, -, e0, e1⟩ := idx11 t
  intro a
  match a with
  | ⟨0, _⟩ =>
    show win11_4.index t (0 : Fin 2) * 1 ≤ (i 0).val ∧ (i 0).val < win11_4.index t (0 : Fin 2) * 1 + 1
    rw [e0]; omega
  | ⟨1, _⟩ =>
    show win11_4.index t (1 : Fin 2) * 64 ≤ (i 1).val ∧ (i 1).val < win11_4.index t (1 : Fin 2) * 64 + 64
    rw [e1]; omega

/-- The second result array ends as the column sums of Y over all 100000 rows. -/
theorem val11_sum : (dat11 V c).arrAt 3 cfg11.N = colSums (biased11 V c) :=
  (dat11 V c).arrAt_eq_of_cover 3 (colSums (biased11 V c)) (flushed11_sum V c) (cover11_sum)

/-- The third result array ends as the column sums of Y · Y over all 100000 rows. -/
theorem val11_sumsq : (dat11 V c).arrAt 4 cfg11.N = colSumSqs (biased11 V c) :=
  (dat11 V c).arrAt_eq_of_cover 4 (colSumSqs (biased11 V c)) (flushed11_sumsq V c) (cover11_sumsq)

end Cert.KernelIdeal.RegVal

end
-- ==== Proof.KRegVals.lean ====
/-
  The values of the fourteen regions of the idealized kernel program, gathered: each region's output arrays as
  whole-array functions of the arrays its input windows read.
-/
import proofs.«109724_j81406810128840_1_alg».proof.Proof.RegA0
import proofs.«109724_j81406810128840_1_alg».proof.Proof.RegA1
import proofs.«109724_j81406810128840_1_alg».proof.Proof.RegA3
import proofs.«109724_j81406810128840_1_alg».proof.Proof.RegA4
import proofs.«109724_j81406810128840_1_alg».proof.Proof.RegA6
import proofs.«109724_j81406810128840_1_alg».proof.Proof.RegA7
import proofs.«109724_j81406810128840_1_alg».proof.Proof.RegA9
import proofs.«109724_j81406810128840_1_alg».proof.Proof.RegA10
import proofs.«109724_j81406810128840_1_alg».proof.Proof.RegA12
import proofs.«109724_j81406810128840_1_alg».proof.Proof.RegA13
import proofs.«109724_j81406810128840_1_alg».proof.Proof.RegR2Val
import proofs.«109724_j81406810128840_1_alg».proof.Proof.RegR5Val
import proofs.«109724_j81406810128840_1_alg».proof.Proof.RegR8Val
import proofs.«109724_j81406810128840_1_alg».proof.Proof.RegR11Val
-- ==== Proof.KVal.lean ====
/-
  The idealized kernel program's result as a function of its thirteen argument arrays.

  Every buffer the program defines is produced once: by a host line (a composition of host operations on earlier
  buffers) or by a region (a whole-array function of the arrays its input windows read). Following the buffers in
  order of definition gives each one as a function of the arguments; the last is the program's result. Between its
  definition and its uses a buffer is left alone: a later stretch writes only later-numbered buffers, a later region
  only its own output arrays.
-/
import proofs.«109724_j81406810128840_1_alg».proof.Proof.KChain
import proofs.«109724_j81406810128840_1_alg».proof.Proof.KRegVals
import proofs.«109724_j81406810128840_1_alg».proof.Proof.KValDefs

set_option maxRecDepth 16384
set_option maxHeartbeats 1000000

noncomputable section

namespace Cert.KernelIdeal.KVal

open Idealize.ShloMosaic Idealize.ShloMosaic.TcCoe Idealize.ShloMosaic.Tactic Idealize.ShloMosaic.StableHlo
open Cert.KernelIdeal Cert.KernelIdeal.Gen Cert.KernelIdeal.KChain Cert.KernelIdeal.RegVal Cert.Gcn Cert.RegSpec

/-! ## Equal operands give equal values -/

theorem congr2 {α β γ : Sort _} (f : α → β → γ) {a a' : α} {b b' : β} (h0 : a = a') (h1 : b = b') : f a b = f a' b' := by
  rw [h0, h1]
theorem congr3 {α β γ δ : Sort _} (f : α → β → γ → δ) {a a' : α} {b b' : β} {c c' : γ} (h0 : a = a') (h1 : b = b') (h2 : c = c') :
    f a b c = f a' b' c' := by
  rw [h0, h1, h2]
theorem congr4 {α β γ δ ε : Sort _} (f : α → β → γ → δ → ε) {a a' : α} {b b' : β} {c c' : γ} {d d' : δ}
    (h0 : a = a') (h1 : b = b') (h2 : c = c') (h3 : d = d') : f a b c d = f a' b' c' d' := by
  rw [h0, h1, h2, h3]

theorem congr_mm {M K N : ℕ} {X X' : (⟨2, ![M, K]⟩ : Shape).Idx → EReal} {W W' : (⟨2, ![K, N]⟩ : Shape).Idx → EReal}
    (h0 : X = X') (h1 : W = W') : mm X W = mm X' W' := by
  rw [h0, h1]
theorem congr_addRow {M N : ℕ} {Y Y' : (⟨2, ![M, N]⟩ : Shape).Idx → EReal} {B B' : (⟨2, ![1, N]⟩ : Shape).Idx → EReal}
    (h0 : Y = Y') (h1 : B = B') : addRow Y B = addRow Y' B' := by
  rw [h0, h1]
theorem congr_addRow_mm {M K N : ℕ} {X X' : (⟨2, ![M, K]⟩ : Shape).Idx → EReal} {W W' : (⟨2, ![K, N]⟩ : Shape).Idx → EReal}
    {B B' : (⟨2, ![1, N]⟩ : Shape).Idx → EReal} (h0 : X = X') (h1 : W = W') (h2 : B = B') :
    addRow (mm X W) B = addRow (mm X' W') B' := by
  rw [h0, h1, h2]
theorem congr_bnNorm {M N : ℕ} {Y Y' R R' : (⟨2, ![M, N]⟩ : Shape).Idx → EReal}
    {mean mean' var var' gamma gamma' beta beta' : (⟨2, ![1, N]⟩ : Shape).Idx → EReal}
    (h0 : Y = Y') (h1 : mean = mean') (h2 : var = var') (h3 : gamma = gamma') (h4 : beta = beta') (h5 : R = R') :
    bnNorm Y mean var gamma beta R = bnNorm Y' mean' var' gamma' beta' R' := by
  rw [h0, h1, h2, h3, h4, h5]
theorem congr_readout {p P : (⟨2, ![256, 64]⟩ : Shape).Idx → EReal} {w1 W1 : (⟨2, ![64, 32]⟩ : Shape).Idx → EReal}
    {b1 B1 : (⟨2, ![1, 32]⟩ : Shape).Idx → EReal} {w2 W2 : (⟨2, ![32, 1]⟩ : Shape).Idx → EReal}
    {b2 B2 : (⟨2, ![1, 1]⟩ : Shape).Idx → EReal}
    (h0 : p = P) (h1 : w1 = W1) (h2 : b1 = B1) (h3 : w2 = W2) (h4 : b2 = B2) :
    addRow (mm (relu (addRow (mm p w1) b1)) w2) b2 = addRow (mm (relu (addRow (mm P W1) B1)) W2) B2 := by
  rw [h0, h1, h2, h3, h4]

/-! ## The run's buffers are those functions of the launch contents -/

variable (m : (ℓ : Loc nD τ sig) → Buf (Elt Ideal) ℓ) (ρ : Dev nD → PrngReg) (c : Dev nD)

/-- The argument arrays as launched on core `c`. -/
def argsOf : Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12)⟩

theorem at_arg0_0 : W0 m ρ c (Proc.devRef .tc main_arg0) = (argsOf m c).a0 := rfl
theorem at_arg0_1 : W1 m ρ c (Proc.devRef .tc main_arg0) = (argsOf m c).a0 := (StableHlo.after_below 13 hostOps0 (W0 m ρ c) ho0_w main_arg0 (by decide)).trans (at_arg0_0 m ρ c)

theorem at_arg1_0 : W0 m ρ c (Proc.devRef .tc main_arg1) = (argsOf m c).a1 := rfl

theorem at_arg2_0 : W0 m ρ c (Proc.devRef .tc main_arg2) = (argsOf m c).a2 := rfl
theorem at_arg2_1 : W1 m ρ c (Proc.devRef .tc main_arg2) = (argsOf m c).a2 := (StableHlo.after_below 13 hostOps0 (W0 m ρ c) ho0_w main_arg2 (by decide)).trans (at_arg2_0 m ρ c)
theorem at_arg2_2 : W2 m ρ c (Proc.devRef .tc main_arg2) = (argsOf m c).a2 := (W2_of_ne m ρ c main_arg2 (by decide)).trans (at_arg2_1 m ρ c)
theorem at_arg2_3 : W3 m ρ c (Proc.devRef .tc main_arg2) = (argsOf m c).a2 := (StableHlo.after_below 53 hostOps1 (W2 m ρ c) ho1_w main_arg2 (by decide)).trans (at_arg2_2 m ρ c)
theorem at_arg2_4 : W4 m ρ c (Proc.devRef .tc main_arg2) = (argsOf m c).a2 := (W4_of_ne m ρ c main_arg2 (by decide)).trans (at_arg2_3 m ρ c)
theorem at_arg2_5 : W5 m ρ c (Proc.devRef .tc main_arg2) = (argsOf m c).a2 := (StableHlo.after_below 56 hostOps2 (W4 m ρ c) ho2_w main_arg2 (by decide)).trans (at_arg2_4 m ρ c)
theorem at_arg2_6 : W6 m ρ c (Proc.devRef .tc main_arg2) = (argsOf m c).a2 := (W6_of_ne m ρ c main_arg2 (by decide)).trans (at_arg2_5 m ρ c)
theorem at_arg2_7 : W7 m ρ c (Proc.devRef .tc main_arg2) = (argsOf m c).a2 := (StableHlo.after_below 78 hostOps3 (W6 m ρ c) ho3_w main_arg2 (by decide)).trans (at_arg2_6 m ρ c)
theorem at_arg2_8 : W8 m ρ c (Proc.devRef .tc main_arg2) = (argsOf m c).a2 := (W8_of_ne m ρ c main_arg2 (by decide)).trans (at_arg2_7 m ρ c)
theorem at_arg2_9 : W9 m ρ c (Proc.devRef .tc main_arg2) = (argsOf m c).a2 := (StableHlo.after_below 93 hostOps4 (W8 m ρ c) ho4_w main_arg2 (by decide)).trans (at_arg2_8 m ρ c)
theorem at_arg2_10 : W10 m ρ c (Proc.devRef .tc main_arg2) = (argsOf m c).a2 := (W10_of_ne m ρ c main_arg2 (by decide)).trans (at_arg2_9 m ρ c)
theorem at_arg2_11 : W11 m ρ c (Proc.devRef .tc main_arg2) = (argsOf m c).a2 := (StableHlo.after_below 96 hostOps5 (W10 m ρ c) ho5_w main_arg2 (by decide)).trans (at_arg2_10 m ρ c)
theorem at_arg2_12 : W12 m ρ c (Proc.devRef .tc main_arg2) = (argsOf m c).a2 := (W12_of_ne m ρ c main_arg2 (by decide)).trans (at_arg2_11 m ρ c)
theorem at_arg2_13 : W13 m ρ c (Proc.devRef .tc main_arg2) = (argsOf m c).a2 := (StableHlo.after_below 118 hostOps6 (W12 m ρ c) ho6_w main_arg2 (by decide)).trans (at_arg2_12 m ρ c)
theorem at_arg2_14 : W14 m ρ c (Proc.devRef .tc main_arg2) = (argsOf m c).a2 := (W14_of_ne m ρ c main_arg2 (by decide)).trans (at_arg2_13 m ρ c)
theorem at_arg2_15 : W15 m ρ c (Proc.devRef .tc main_arg2) = (argsOf m c).a2 := (StableHlo.after_below 133 hostOps7 (W14 m ρ c) ho7_w main_arg2 (by decide)).trans (at_arg2_14 m ρ c)
theorem at_arg2_16 : W16 m ρ c (Proc.devRef .tc main_arg2) = (argsOf m c).a2 := (W16_of_ne m ρ c main_arg2 (by decide)).trans (at_arg2_15 m ρ c)
theorem at_arg2_17 : W17 m ρ c (Proc.devRef .tc main_arg2) = (argsOf m c).a2 := (StableHlo.after_below 136 hostOps8 (W16 m ρ c) ho8_w main_arg2 (by decide)).trans (at_arg2_16 m ρ c)
theorem at_arg2_18 : W18 m ρ c (Proc.devRef .tc main_arg2) = (argsOf m c).a2 := (W18_of_ne m ρ c main_arg2 (by decide)).trans (at_arg2_17 m ρ c)
theorem at_arg2_19 : W19 m ρ c (Proc.devRef .tc main_arg2) = (argsOf m c).a2 := (StableHlo.after_below 158 hostOps9 (W18 m ρ c) ho9_w main_arg2 (by decide)).trans (at_arg2_18 m ρ c)
theorem at_arg2_20 : W20 m ρ c (Proc.devRef .tc main_arg2) = (argsOf m c).a2 := (W20_of_ne m ρ c main_arg2 (by decide)).trans (at_arg2_19 m ρ c)
theorem at_arg2_21 : W21 m ρ c (Proc.devRef .tc main_arg2) = (argsOf m c).a2 := (StableHlo.after_below 173 hostOps10 (W20 m ρ c) ho10_w main_arg2 (by decide)).trans (at_arg2_20 m ρ c)
theorem at_arg2_22 : W22 m ρ c (Proc.devRef .tc main_arg2) = (argsOf m c).a2 := (W22_of_ne m ρ c main_arg2 (by decide)).trans (at_arg2_21 m ρ c)
theorem at_arg2_23 : W23 m ρ c (Proc.devRef .tc main_arg2) = (argsOf m c).a2 := (StableHlo.after_below 176 hostOps11 (W22 m ρ c) ho11_w main_arg2 (by decide)).trans (at_arg2_22 m ρ c)
theorem at_arg2_24 : W24 m ρ c (Proc.devRef .tc main_arg2) = (argsOf m c).a2 := (W24_of_ne m ρ c main_arg2 (by decide)).trans (at_arg2_23 m ρ c)
theorem at_arg2_25 : W25 m ρ c (Proc.devRef .tc main_arg2) = (argsOf m c).a2 := (StableHlo.after_below 198 hostOps12 (W24 m ρ c) ho12_w main_arg2 (by decide)).trans (at_arg2_24 m ρ c)
theorem at_arg2_26 : W26 m ρ c (Proc.devRef .tc main_arg2) = (argsOf m c).a2 := (W26_of_ne m ρ c main_arg2 (by decide)).trans (at_arg2_25 m ρ c)

theorem at_arg3_0 : W0 m ρ c (Proc.devRef .tc main_arg3) = (argsOf m c).a3 := rfl
theorem at_arg3_1 : W1 m ρ c (Proc.devRef .tc main_arg3) = (argsOf m c).a3 := (StableHlo.after_below 13 hostOps0 (W0 m ρ c) ho0_w main_arg3 (by decide)).trans (at_arg3_0 m ρ c)

theorem at_arg4_0 : W0 m ρ c (Proc.devRef .tc main_arg4) = (argsOf m c).a4 := rfl

theorem at_arg5_0 : W0 m ρ c (Proc.devRef .tc main_arg5) = (argsOf m c).a5 := rfl
theorem at_arg5_1 : W1 m ρ c (Proc.devRef .tc main_arg5) = (argsOf m c).a5 := (StableHlo.after_below 13 hostOps0 (W0 m ρ c) ho0_w main_arg5 (by decide)).trans (at_arg5_0 m ρ c)
theorem at_arg5_2 : W2 m ρ c (Proc.devRef .tc main_arg5) = (argsOf m c).a5 := (W2_of_ne m ρ c main_arg5 (by decide)).trans (at_arg5_1 m ρ c)
theorem at_arg5_3 : W3 m ρ c (Proc.devRef .tc main_arg5) = (argsOf m c).a5 := (StableHlo.after_below 53 hostOps1 (W2 m ρ c) ho1_w main_arg5 (by decide)).trans (at_arg5_2 m ρ c)
theorem at_arg5_4 : W4 m ρ c (Proc.devRef .tc main_arg5) = (argsOf m c).a5 := (W4_of_ne m ρ c main_arg5 (by decide)).trans (at_arg5_3 m ρ c)
theorem at_arg5_5 : W5 m ρ c (Proc.devRef .tc main_arg5) = (argsOf m c).a5 := (StableHlo.after_below 56 hostOps2 (W4 m ρ c) ho2_w main_arg5 (by decide)).trans (at_arg5_4 m ρ c)
theorem at_arg5_6 : W6 m ρ c (Proc.devRef .tc main_arg5) = (argsOf m c).a5 := (W6_of_ne m ρ c main_arg5 (by decide)).trans (at_arg5_5 m ρ c)
theorem at_arg5_7 : W7 m ρ c (Proc.devRef .tc main_arg5) = (argsOf m c).a5 := (StableHlo.after_below 78 hostOps3 (W6 m ρ c) ho3_w main_arg5 (by decide)).trans (at_arg5_6 m ρ c)
theorem at_arg5_8 : W8 m ρ c (Proc.devRef .tc main_arg5) = (argsOf m c).a5 := (W8_of_ne m ρ c main_arg5 (by decide)).trans (at_arg5_7 m ρ c)
theorem at_arg5_9 : W9 m ρ c (Proc.devRef .tc main_arg5) = (argsOf m c).a5 := (StableHlo.after_below 93 hostOps4 (W8 m ρ c) ho4_w main_arg5 (by decide)).trans (at_arg5_8 m ρ c)
theorem at_arg5_10 : W10 m ρ c (Proc.devRef .tc main_arg5) = (argsOf m c).a5 := (W10_of_ne m ρ c main_arg5 (by decide)).trans (at_arg5_9 m ρ c)
theorem at_arg5_11 : W11 m ρ c (Proc.devRef .tc main_arg5) = (argsOf m c).a5 := (StableHlo.after_below 96 hostOps5 (W10 m ρ c) ho5_w main_arg5 (by decide)).trans (at_arg5_10 m ρ c)
theorem at_arg5_12 : W12 m ρ c (Proc.devRef .tc main_arg5) = (argsOf m c).a5 := (W12_of_ne m ρ c main_arg5 (by decide)).trans (at_arg5_11 m ρ c)
theorem at_arg5_13 : W13 m ρ c (Proc.devRef .tc main_arg5) = (argsOf m c).a5 := (StableHlo.after_below 118 hostOps6 (W12 m ρ c) ho6_w main_arg5 (by decide)).trans (at_arg5_12 m ρ c)
theorem at_arg5_14 : W14 m ρ c (Proc.devRef .tc main_arg5) = (argsOf m c).a5 := (W14_of_ne m ρ c main_arg5 (by decide)).trans (at_arg5_13 m ρ c)
theorem at_arg5_15 : W15 m ρ c (Proc.devRef .tc main_arg5) = (argsOf m c).a5 := (StableHlo.after_below 133 hostOps7 (W14 m ρ c) ho7_w main_arg5 (by decide)).trans (at_arg5_14 m ρ c)
theorem at_arg5_16 : W16 m ρ c (Proc.devRef .tc main_arg5) = (argsOf m c).a5 := (W16_of_ne m ρ c main_arg5 (by decide)).trans (at_arg5_15 m ρ c)
theorem at_arg5_17 : W17 m ρ c (Proc.devRef .tc main_arg5) = (argsOf m c).a5 := (StableHlo.after_below 136 hostOps8 (W16 m ρ c) ho8_w main_arg5 (by decide)).trans (at_arg5_16 m ρ c)
theorem at_arg5_18 : W18 m ρ c (Proc.devRef .tc main_arg5) = (argsOf m c).a5 := (W18_of_ne m ρ c main_arg5 (by decide)).trans (at_arg5_17 m ρ c)
theorem at_arg5_19 : W19 m ρ c (Proc.devRef .tc main_arg5) = (argsOf m c).a5 := (StableHlo.after_below 158 hostOps9 (W18 m ρ c) ho9_w main_arg5 (by decide)).trans (at_arg5_18 m ρ c)
theorem at_arg5_20 : W20 m ρ c (Proc.devRef .tc main_arg5) = (argsOf m c).a5 := (W20_of_ne m ρ c main_arg5 (by decide)).trans (at_arg5_19 m ρ c)

theorem at_arg6_0 : W0 m ρ c (Proc.devRef .tc main_arg6) = (argsOf m c).a6 := rfl
theorem at_arg6_1 : W1 m ρ c (Proc.devRef .tc main_arg6) = (argsOf m c).a6 := (StableHlo.after_below 13 hostOps0 (W0 m ρ c) ho0_w main_arg6 (by decide)).trans (at_arg6_0 m ρ c)
theorem at_arg6_2 : W2 m ρ c (Proc.devRef .tc main_arg6) = (argsOf m c).a6 := (W2_of_ne m ρ c main_arg6 (by decide)).trans (at_arg6_1 m ρ c)
theorem at_arg6_3 : W3 m ρ c (Proc.devRef .tc main_arg6) = (argsOf m c).a6 := (StableHlo.after_below 53 hostOps1 (W2 m ρ c) ho1_w main_arg6 (by decide)).trans (at_arg6_2 m ρ c)
theorem at_arg6_4 : W4 m ρ c (Proc.devRef .tc main_arg6) = (argsOf m c).a6 := (W4_of_ne m ρ c main_arg6 (by decide)).trans (at_arg6_3 m ρ c)
theorem at_arg6_5 : W5 m ρ c (Proc.devRef .tc main_arg6) = (argsOf m c).a6 := (StableHlo.after_below 56 hostOps2 (W4 m ρ c) ho2_w main_arg6 (by decide)).trans (at_arg6_4 m ρ c)
theorem at_arg6_6 : W6 m ρ c (Proc.devRef .tc main_arg6) = (argsOf m c).a6 := (W6_of_ne m ρ c main_arg6 (by decide)).trans (at_arg6_5 m ρ c)
theorem at_arg6_7 : W7 m ρ c (Proc.devRef .tc main_arg6) = (argsOf m c).a6 := (StableHlo.after_below 78 hostOps3 (W6 m ρ c) ho3_w main_arg6 (by decide)).trans (at_arg6_6 m ρ c)
theorem at_arg6_8 : W8 m ρ c (Proc.devRef .tc main_arg6) = (argsOf m c).a6 := (W8_of_ne m ρ c main_arg6 (by decide)).trans (at_arg6_7 m ρ c)
theorem at_arg6_9 : W9 m ρ c (Proc.devRef .tc main_arg6) = (argsOf m c).a6 := (StableHlo.after_below 93 hostOps4 (W8 m ρ c) ho4_w main_arg6 (by decide)).trans (at_arg6_8 m ρ c)
theorem at_arg6_10 : W10 m ρ c (Proc.devRef .tc main_arg6) = (argsOf m c).a6 := (W10_of_ne m ρ c main_arg6 (by decide)).trans (at_arg6_9 m ρ c)
theorem at_arg6_11 : W11 m ρ c (Proc.devRef .tc main_arg6) = (argsOf m c).a6 := (StableHlo.after_below 96 hostOps5 (W10 m ρ c) ho5_w main_arg6 (by decide)).trans (at_arg6_10 m ρ c)
theorem at_arg6_12 : W12 m ρ c (Proc.devRef .tc main_arg6) = (argsOf m c).a6 := (W12_of_ne m ρ c main_arg6 (by decide)).trans (at_arg6_11 m ρ c)
theorem at_arg6_13 : W13 m ρ c (Proc.devRef .tc main_arg6) = (argsOf m c).a6 := (StableHlo.after_below 118 hostOps6 (W12 m ρ c) ho6_w main_arg6 (by decide)).trans (at_arg6_12 m ρ c)
theorem at_arg6_14 : W14 m ρ c (Proc.devRef .tc main_arg6) = (argsOf m c).a6 := (W14_of_ne m ρ c main_arg6 (by decide)).trans (at_arg6_13 m ρ c)
theorem at_arg6_15 : W15 m ρ c (Proc.devRef .tc main_arg6) = (argsOf m c).a6 := (StableHlo.after_below 133 hostOps7 (W14 m ρ c) ho7_w main_arg6 (by decide)).trans (at_arg6_14 m ρ c)
theorem at_arg6_16 : W16 m ρ c (Proc.devRef .tc main_arg6) = (argsOf m c).a6 := (W16_of_ne m ρ c main_arg6 (by decide)).trans (at_arg6_15 m ρ c)
theorem at_arg6_17 : W17 m ρ c (Proc.devRef .tc main_arg6) = (argsOf m c).a6 := (StableHlo.after_below 136 hostOps8 (W16 m ρ c) ho8_w main_arg6 (by decide)).trans (at_arg6_16 m ρ c)
theorem at_arg6_18 : W18 m ρ c (Proc.devRef .tc main_arg6) = (argsOf m c).a6 := (W18_of_ne m ρ c main_arg6 (by decide)).trans (at_arg6_17 m ρ c)
theorem at_arg6_19 : W19 m ρ c (Proc.devRef .tc main_arg6) = (argsOf m c).a6 := (StableHlo.after_below 158 hostOps9 (W18 m ρ c) ho9_w main_arg6 (by decide)).trans (at_arg6_18 m ρ c)
theorem at_arg6_20 : W20 m ρ c (Proc.devRef .tc main_arg6) = (argsOf m c).a6 := (W20_of_ne m ρ c main_arg6 (by decide)).trans (at_arg6_19 m ρ c)
theorem at_arg6_21 : W21 m ρ c (Proc.devRef .tc main_arg6) = (argsOf m c).a6 := (StableHlo.after_below 173 hostOps10 (W20 m ρ c) ho10_w main_arg6 (by decide)).trans (at_arg6_20 m ρ c)
theorem at_arg6_22 : W22 m ρ c (Proc.devRef .tc main_arg6) = (argsOf m c).a6 := (W22_of_ne m ρ c main_arg6 (by decide)).trans (at_arg6_21 m ρ c)

theorem at_arg7_0 : W0 m ρ c (Proc.devRef .tc main_arg7) = (argsOf m c).a7 := rfl
theorem at_arg7_1 : W1 m ρ c (Proc.devRef .tc main_arg7) = (argsOf m c).a7 := (StableHlo.after_below 13 hostOps0 (W0 m ρ c) ho0_w main_arg7 (by decide)).trans (at_arg7_0 m ρ c)
theorem at_arg7_2 : W2 m ρ c (Proc.devRef .tc main_arg7) = (argsOf m c).a7 := (W2_of_ne m ρ c main_arg7 (by decide)).trans (at_arg7_1 m ρ c)
theorem at_arg7_3 : W3 m ρ c (Proc.devRef .tc main_arg7) = (argsOf m c).a7 := (StableHlo.after_below 53 hostOps1 (W2 m ρ c) ho1_w main_arg7 (by decide)).trans (at_arg7_2 m ρ c)
theorem at_arg7_4 : W4 m ρ c (Proc.devRef .tc main_arg7) = (argsOf m c).a7 := (W4_of_ne m ρ c main_arg7 (by decide)).trans (at_arg7_3 m ρ c)
theorem at_arg7_5 : W5 m ρ c (Proc.devRef .tc main_arg7) = (argsOf m c).a7 := (StableHlo.after_below 56 hostOps2 (W4 m ρ c) ho2_w main_arg7 (by decide)).trans (at_arg7_4 m ρ c)
theorem at_arg7_6 : W6 m ρ c (Proc.devRef .tc main_arg7) = (argsOf m c).a7 := (W6_of_ne m ρ c main_arg7 (by decide)).trans (at_arg7_5 m ρ c)
theorem at_arg7_7 : W7 m ρ c (Proc.devRef .tc main_arg7) = (argsOf m c).a7 := (StableHlo.after_below 78 hostOps3 (W6 m ρ c) ho3_w main_arg7 (by decide)).trans (at_arg7_6 m ρ c)
theorem at_arg7_8 : W8 m ρ c (Proc.devRef .tc main_arg7) = (argsOf m c).a7 := (W8_of_ne m ρ c main_arg7 (by decide)).trans (at_arg7_7 m ρ c)
theorem at_arg7_9 : W9 m ρ c (Proc.devRef .tc main_arg7) = (argsOf m c).a7 := (StableHlo.after_below 93 hostOps4 (W8 m ρ c) ho4_w main_arg7 (by decide)).trans (at_arg7_8 m ρ c)
theorem at_arg7_10 : W10 m ρ c (Proc.devRef .tc main_arg7) = (argsOf m c).a7 := (W10_of_ne m ρ c main_arg7 (by decide)).trans (at_arg7_9 m ρ c)
theorem at_arg7_11 : W11 m ρ c (Proc.devRef .tc main_arg7) = (argsOf m c).a7 := (StableHlo.after_below 96 hostOps5 (W10 m ρ c) ho5_w main_arg7 (by decide)).trans (at_arg7_10 m ρ c)
theorem at_arg7_12 : W12 m ρ c (Proc.devRef .tc main_arg7) = (argsOf m c).a7 := (W12_of_ne m ρ c main_arg7 (by decide)).trans (at_arg7_11 m ρ c)
theorem at_arg7_13 : W13 m ρ c (Proc.devRef .tc main_arg7) = (argsOf m c).a7 := (StableHlo.after_below 118 hostOps6 (W12 m ρ c) ho6_w main_arg7 (by decide)).trans (at_arg7_12 m ρ c)
theorem at_arg7_14 : W14 m ρ c (Proc.devRef .tc main_arg7) = (argsOf m c).a7 := (W14_of_ne m ρ c main_arg7 (by decide)).trans (at_arg7_13 m ρ c)
theorem at_arg7_15 : W15 m ρ c (Proc.devRef .tc main_arg7) = (argsOf m c).a7 := (StableHlo.after_below 133 hostOps7 (W14 m ρ c) ho7_w main_arg7 (by decide)).trans (at_arg7_14 m ρ c)
theorem at_arg7_16 : W16 m ρ c (Proc.devRef .tc main_arg7) = (argsOf m c).a7 := (W16_of_ne m ρ c main_arg7 (by decide)).trans (at_arg7_15 m ρ c)
theorem at_arg7_17 : W17 m ρ c (Proc.devRef .tc main_arg7) = (argsOf m c).a7 := (StableHlo.after_below 136 hostOps8 (W16 m ρ c) ho8_w main_arg7 (by decide)).trans (at_arg7_16 m ρ c)
theorem at_arg7_18 : W18 m ρ c (Proc.devRef .tc main_arg7) = (argsOf m c).a7 := (W18_of_ne m ρ c main_arg7 (by decide)).trans (at_arg7_17 m ρ c)
theorem at_arg7_19 : W19 m ρ c (Proc.devRef .tc main_arg7) = (argsOf m c).a7 := (StableHlo.after_below 158 hostOps9 (W18 m ρ c) ho9_w main_arg7 (by decide)).trans (at_arg7_18 m ρ c)
theorem at_arg7_20 : W20 m ρ c (Proc.devRef .tc main_arg7) = (argsOf m c).a7 := (W20_of_ne m ρ c main_arg7 (by decide)).trans (at_arg7_19 m ρ c)
theorem at_arg7_21 : W21 m ρ c (Proc.devRef .tc main_arg7) = (argsOf m c).a7 := (StableHlo.after_below 173 hostOps10 (W20 m ρ c) ho10_w main_arg7 (by decide)).trans (at_arg7_20 m ρ c)
theorem at_arg7_22 : W22 m ρ c (Proc.devRef .tc main_arg7) = (argsOf m c).a7 := (W22_of_ne m ρ c main_arg7 (by decide)).trans (at_arg7_21 m ρ c)
theorem at_arg7_23 : W23 m ρ c (Proc.devRef .tc main_arg7) = (argsOf m c).a7 := (StableHlo.after_below 176 hostOps11 (W22 m ρ c) ho11_w main_arg7 (by decide)).trans (at_arg7_22 m ρ c)
theorem at_arg7_24 : W24 m ρ c (Proc.devRef .tc main_arg7) = (argsOf m c).a7 := (W24_of_ne m ρ c main_arg7 (by decide)).trans (at_arg7_23 m ρ c)

theorem at_arg8_0 : W0 m ρ c (Proc.devRef .tc main_arg8) = (argsOf m c).a8 := rfl
theorem at_arg8_1 : W1 m ρ c (Proc.devRef .tc main_arg8) = (argsOf m c).a8 := (StableHlo.after_below 13 hostOps0 (W0 m ρ c) ho0_w main_arg8 (by decide)).trans (at_arg8_0 m ρ c)
theorem at_arg8_2 : W2 m ρ c (Proc.devRef .tc main_arg8) = (argsOf m c).a8 := (W2_of_ne m ρ c main_arg8 (by decide)).trans (at_arg8_1 m ρ c)
theorem at_arg8_3 : W3 m ρ c (Proc.devRef .tc main_arg8) = (argsOf m c).a8 := (StableHlo.after_below 53 hostOps1 (W2 m ρ c) ho1_w main_arg8 (by decide)).trans (at_arg8_2 m ρ c)
theorem at_arg8_4 : W4 m ρ c (Proc.devRef .tc main_arg8) = (argsOf m c).a8 := (W4_of_ne m ρ c main_arg8 (by decide)).trans (at_arg8_3 m ρ c)
theorem at_arg8_5 : W5 m ρ c (Proc.devRef .tc main_arg8) = (argsOf m c).a8 := (StableHlo.after_below 56 hostOps2 (W4 m ρ c) ho2_w main_arg8 (by decide)).trans (at_arg8_4 m ρ c)
theorem at_arg8_6 : W6 m ρ c (Proc.devRef .tc main_arg8) = (argsOf m c).a8 := (W6_of_ne m ρ c main_arg8 (by decide)).trans (at_arg8_5 m ρ c)
theorem at_arg8_7 : W7 m ρ c (Proc.devRef .tc main_arg8) = (argsOf m c).a8 := (StableHlo.after_below 78 hostOps3 (W6 m ρ c) ho3_w main_arg8 (by decide)).trans (at_arg8_6 m ρ c)
theorem at_arg8_8 : W8 m ρ c (Proc.devRef .tc main_arg8) = (argsOf m c).a8 := (W8_of_ne m ρ c main_arg8 (by decide)).trans (at_arg8_7 m ρ c)
theorem at_arg8_9 : W9 m ρ c (Proc.devRef .tc main_arg8) = (argsOf m c).a8 := (StableHlo.after_below 93 hostOps4 (W8 m ρ c) ho4_w main_arg8 (by decide)).trans (at_arg8_8 m ρ c)
theorem at_arg8_10 : W10 m ρ c (Proc.devRef .tc main_arg8) = (argsOf m c).a8 := (W10_of_ne m ρ c main_arg8 (by decide)).trans (at_arg8_9 m ρ c)
theorem at_arg8_11 : W11 m ρ c (Proc.devRef .tc main_arg8) = (argsOf m c).a8 := (StableHlo.after_below 96 hostOps5 (W10 m ρ c) ho5_w main_arg8 (by decide)).trans (at_arg8_10 m ρ c)
theorem at_arg8_12 : W12 m ρ c (Proc.devRef .tc main_arg8) = (argsOf m c).a8 := (W12_of_ne m ρ c main_arg8 (by decide)).trans (at_arg8_11 m ρ c)
theorem at_arg8_13 : W13 m ρ c (Proc.devRef .tc main_arg8) = (argsOf m c).a8 := (StableHlo.after_below 118 hostOps6 (W12 m ρ c) ho6_w main_arg8 (by decide)).trans (at_arg8_12 m ρ c)
theorem at_arg8_14 : W14 m ρ c (Proc.devRef .tc main_arg8) = (argsOf m c).a8 := (W14_of_ne m ρ c main_arg8 (by decide)).trans (at_arg8_13 m ρ c)
theorem at_arg8_15 : W15 m ρ c (Proc.devRef .tc main_arg8) = (argsOf m c).a8 := (StableHlo.after_below 133 hostOps7 (W14 m ρ c) ho7_w main_arg8 (by decide)).trans (at_arg8_14 m ρ c)
theorem at_arg8_16 : W16 m ρ c (Proc.devRef .tc main_arg8) = (argsOf m c).a8 := (W16_of_ne m ρ c main_arg8 (by decide)).trans (at_arg8_15 m ρ c)
theorem at_arg8_17 : W17 m ρ c (Proc.devRef .tc main_arg8) = (argsOf m c).a8 := (StableHlo.after_below 136 hostOps8 (W16 m ρ c) ho8_w main_arg8 (by decide)).trans (at_arg8_16 m ρ c)
theorem at_arg8_18 : W18 m ρ c (Proc.devRef .tc main_arg8) = (argsOf m c).a8 := (W18_of_ne m ρ c main_arg8 (by decide)).trans (at_arg8_17 m ρ c)
theorem at_arg8_19 : W19 m ρ c (Proc.devRef .tc main_arg8) = (argsOf m c).a8 := (StableHlo.after_below 158 hostOps9 (W18 m ρ c) ho9_w main_arg8 (by decide)).trans (at_arg8_18 m ρ c)
theorem at_arg8_20 : W20 m ρ c (Proc.devRef .tc main_arg8) = (argsOf m c).a8 := (W20_of_ne m ρ c main_arg8 (by decide)).trans (at_arg8_19 m ρ c)
theorem at_arg8_21 : W21 m ρ c (Proc.devRef .tc main_arg8) = (argsOf m c).a8 := (StableHlo.after_below 173 hostOps10 (W20 m ρ c) ho10_w main_arg8 (by decide)).trans (at_arg8_20 m ρ c)
theorem at_arg8_22 : W22 m ρ c (Proc.devRef .tc main_arg8) = (argsOf m c).a8 := (W22_of_ne m ρ c main_arg8 (by decide)).trans (at_arg8_21 m ρ c)
theorem at_arg8_23 : W23 m ρ c (Proc.devRef .tc main_arg8) = (argsOf m c).a8 := (StableHlo.after_below 176 hostOps11 (W22 m ρ c) ho11_w main_arg8 (by decide)).trans (at_arg8_22 m ρ c)
theorem at_arg8_24 : W24 m ρ c (Proc.devRef .tc main_arg8) = (argsOf m c).a8 := (W24_of_ne m ρ c main_arg8 (by decide)).trans (at_arg8_23 m ρ c)

theorem at_arg9_0 : W0 m ρ c (Proc.devRef .tc main_arg9) = (argsOf m c).a9 := rfl
theorem at_arg9_1 : W1 m ρ c (Proc.devRef .tc main_arg9) = (argsOf m c).a9 := (StableHlo.after_below 13 hostOps0 (W0 m ρ c) ho0_w main_arg9 (by decide)).trans (at_arg9_0 m ρ c)
theorem at_arg9_2 : W2 m ρ c (Proc.devRef .tc main_arg9) = (argsOf m c).a9 := (W2_of_ne m ρ c main_arg9 (by decide)).trans (at_arg9_1 m ρ c)
theorem at_arg9_3 : W3 m ρ c (Proc.devRef .tc main_arg9) = (argsOf m c).a9 := (StableHlo.after_below 53 hostOps1 (W2 m ρ c) ho1_w main_arg9 (by decide)).trans (at_arg9_2 m ρ c)
theorem at_arg9_4 : W4 m ρ c (Proc.devRef .tc main_arg9) = (argsOf m c).a9 := (W4_of_ne m ρ c main_arg9 (by decide)).trans (at_arg9_3 m ρ c)
theorem at_arg9_5 : W5 m ρ c (Proc.devRef .tc main_arg9) = (argsOf m c).a9 := (StableHlo.after_below 56 hostOps2 (W4 m ρ c) ho2_w main_arg9 (by decide)).trans (at_arg9_4 m ρ c)
theorem at_arg9_6 : W6 m ρ c (Proc.devRef .tc main_arg9) = (argsOf m c).a9 := (W6_of_ne m ρ c main_arg9 (by decide)).trans (at_arg9_5 m ρ c)
theorem at_arg9_7 : W7 m ρ c (Proc.devRef .tc main_arg9) = (argsOf m c).a9 := (StableHlo.after_below 78 hostOps3 (W6 m ρ c) ho3_w main_arg9 (by decide)).trans (at_arg9_6 m ρ c)
theorem at_arg9_8 : W8 m ρ c (Proc.devRef .tc main_arg9) = (argsOf m c).a9 := (W8_of_ne m ρ c main_arg9 (by decide)).trans (at_arg9_7 m ρ c)
theorem at_arg9_9 : W9 m ρ c (Proc.devRef .tc main_arg9) = (argsOf m c).a9 := (StableHlo.after_below 93 hostOps4 (W8 m ρ c) ho4_w main_arg9 (by decide)).trans (at_arg9_8 m ρ c)
theorem at_arg9_10 : W10 m ρ c (Proc.devRef .tc main_arg9) = (argsOf m c).a9 := (W10_of_ne m ρ c main_arg9 (by decide)).trans (at_arg9_9 m ρ c)
theorem at_arg9_11 : W11 m ρ c (Proc.devRef .tc main_arg9) = (argsOf m c).a9 := (StableHlo.after_below 96 hostOps5 (W10 m ρ c) ho5_w main_arg9 (by decide)).trans (at_arg9_10 m ρ c)
theorem at_arg9_12 : W12 m ρ c (Proc.devRef .tc main_arg9) = (argsOf m c).a9 := (W12_of_ne m ρ c main_arg9 (by decide)).trans (at_arg9_11 m ρ c)
theorem at_arg9_13 : W13 m ρ c (Proc.devRef .tc main_arg9) = (argsOf m c).a9 := (StableHlo.after_below 118 hostOps6 (W12 m ρ c) ho6_w main_arg9 (by decide)).trans (at_arg9_12 m ρ c)
theorem at_arg9_14 : W14 m ρ c (Proc.devRef .tc main_arg9) = (argsOf m c).a9 := (W14_of_ne m ρ c main_arg9 (by decide)).trans (at_arg9_13 m ρ c)
theorem at_arg9_15 : W15 m ρ c (Proc.devRef .tc main_arg9) = (argsOf m c).a9 := (StableHlo.after_below 133 hostOps7 (W14 m ρ c) ho7_w main_arg9 (by decide)).trans (at_arg9_14 m ρ c)
theorem at_arg9_16 : W16 m ρ c (Proc.devRef .tc main_arg9) = (argsOf m c).a9 := (W16_of_ne m ρ c main_arg9 (by decide)).trans (at_arg9_15 m ρ c)
theorem at_arg9_17 : W17 m ρ c (Proc.devRef .tc main_arg9) = (argsOf m c).a9 := (StableHlo.after_below 136 hostOps8 (W16 m ρ c) ho8_w main_arg9 (by decide)).trans (at_arg9_16 m ρ c)
theorem at_arg9_18 : W18 m ρ c (Proc.devRef .tc main_arg9) = (argsOf m c).a9 := (W18_of_ne m ρ c main_arg9 (by decide)).trans (at_arg9_17 m ρ c)
theorem at_arg9_19 : W19 m ρ c (Proc.devRef .tc main_arg9) = (argsOf m c).a9 := (StableHlo.after_below 158 hostOps9 (W18 m ρ c) ho9_w main_arg9 (by decide)).trans (at_arg9_18 m ρ c)
theorem at_arg9_20 : W20 m ρ c (Proc.devRef .tc main_arg9) = (argsOf m c).a9 := (W20_of_ne m ρ c main_arg9 (by decide)).trans (at_arg9_19 m ρ c)
theorem at_arg9_21 : W21 m ρ c (Proc.devRef .tc main_arg9) = (argsOf m c).a9 := (StableHlo.after_below 173 hostOps10 (W20 m ρ c) ho10_w main_arg9 (by decide)).trans (at_arg9_20 m ρ c)
theorem at_arg9_22 : W22 m ρ c (Proc.devRef .tc main_arg9) = (argsOf m c).a9 := (W22_of_ne m ρ c main_arg9 (by decide)).trans (at_arg9_21 m ρ c)
theorem at_arg9_23 : W23 m ρ c (Proc.devRef .tc main_arg9) = (argsOf m c).a9 := (StableHlo.after_below 176 hostOps11 (W22 m ρ c) ho11_w main_arg9 (by decide)).trans (at_arg9_22 m ρ c)
theorem at_arg9_24 : W24 m ρ c (Proc.devRef .tc main_arg9) = (argsOf m c).a9 := (W24_of_ne m ρ c main_arg9 (by decide)).trans (at_arg9_23 m ρ c)
theorem at_arg9_25 : W25 m ρ c (Proc.devRef .tc main_arg9) = (argsOf m c).a9 := (StableHlo.after_below 198 hostOps12 (W24 m ρ c) ho12_w main_arg9 (by decide)).trans (at_arg9_24 m ρ c)
theorem at_arg9_26 : W26 m ρ c (Proc.devRef .tc main_arg9) = (argsOf m c).a9 := (W26_of_ne m ρ c main_arg9 (by decide)).trans (at_arg9_25 m ρ c)
theorem at_arg9_27 : W27 m ρ c (Proc.devRef .tc main_arg9) = (argsOf m c).a9 := (StableHlo.after_below 213 hostOps13 (W26 m ρ c) ho13_w main_arg9 (by decide)).trans (at_arg9_26 m ρ c)

theorem at_arg10_0 : W0 m ρ c (Proc.devRef .tc main_arg10) = (argsOf m c).a10 := rfl
theorem at_arg10_1 : W1 m ρ c (Proc.devRef .tc main_arg10) = (argsOf m c).a10 := (StableHlo.after_below 13 hostOps0 (W0 m ρ c) ho0_w main_arg10 (by decide)).trans (at_arg10_0 m ρ c)
theorem at_arg10_2 : W2 m ρ c (Proc.devRef .tc main_arg10) = (argsOf m c).a10 := (W2_of_ne m ρ c main_arg10 (by decide)).trans (at_arg10_1 m ρ c)
theorem at_arg10_3 : W3 m ρ c (Proc.devRef .tc main_arg10) = (argsOf m c).a10 := (StableHlo.after_below 53 hostOps1 (W2 m ρ c) ho1_w main_arg10 (by decide)).trans (at_arg10_2 m ρ c)
theorem at_arg10_4 : W4 m ρ c (Proc.devRef .tc main_arg10) = (argsOf m c).a10 := (W4_of_ne m ρ c main_arg10 (by decide)).trans (at_arg10_3 m ρ c)
theorem at_arg10_5 : W5 m ρ c (Proc.devRef .tc main_arg10) = (argsOf m c).a10 := (StableHlo.after_below 56 hostOps2 (W4 m ρ c) ho2_w main_arg10 (by decide)).trans (at_arg10_4 m ρ c)
theorem at_arg10_6 : W6 m ρ c (Proc.devRef .tc main_arg10) = (argsOf m c).a10 := (W6_of_ne m ρ c main_arg10 (by decide)).trans (at_arg10_5 m ρ c)
theorem at_arg10_7 : W7 m ρ c (Proc.devRef .tc main_arg10) = (argsOf m c).a10 := (StableHlo.after_below 78 hostOps3 (W6 m ρ c) ho3_w main_arg10 (by decide)).trans (at_arg10_6 m ρ c)
theorem at_arg10_8 : W8 m ρ c (Proc.devRef .tc main_arg10) = (argsOf m c).a10 := (W8_of_ne m ρ c main_arg10 (by decide)).trans (at_arg10_7 m ρ c)
theorem at_arg10_9 : W9 m ρ c (Proc.devRef .tc main_arg10) = (argsOf m c).a10 := (StableHlo.after_below 93 hostOps4 (W8 m ρ c) ho4_w main_arg10 (by decide)).trans (at_arg10_8 m ρ c)
theorem at_arg10_10 : W10 m ρ c (Proc.devRef .tc main_arg10) = (argsOf m c).a10 := (W10_of_ne m ρ c main_arg10 (by decide)).trans (at_arg10_9 m ρ c)
theorem at_arg10_11 : W11 m ρ c (Proc.devRef .tc main_arg10) = (argsOf m c).a10 := (StableHlo.after_below 96 hostOps5 (W10 m ρ c) ho5_w main_arg10 (by decide)).trans (at_arg10_10 m ρ c)
theorem at_arg10_12 : W12 m ρ c (Proc.devRef .tc main_arg10) = (argsOf m c).a10 := (W12_of_ne m ρ c main_arg10 (by decide)).trans (at_arg10_11 m ρ c)
theorem at_arg10_13 : W13 m ρ c (Proc.devRef .tc main_arg10) = (argsOf m c).a10 := (StableHlo.after_below 118 hostOps6 (W12 m ρ c) ho6_w main_arg10 (by decide)).trans (at_arg10_12 m ρ c)
theorem at_arg10_14 : W14 m ρ c (Proc.devRef .tc main_arg10) = (argsOf m c).a10 := (W14_of_ne m ρ c main_arg10 (by decide)).trans (at_arg10_13 m ρ c)
theorem at_arg10_15 : W15 m ρ c (Proc.devRef .tc main_arg10) = (argsOf m c).a10 := (StableHlo.after_below 133 hostOps7 (W14 m ρ c) ho7_w main_arg10 (by decide)).trans (at_arg10_14 m ρ c)
theorem at_arg10_16 : W16 m ρ c (Proc.devRef .tc main_arg10) = (argsOf m c).a10 := (W16_of_ne m ρ c main_arg10 (by decide)).trans (at_arg10_15 m ρ c)
theorem at_arg10_17 : W17 m ρ c (Proc.devRef .tc main_arg10) = (argsOf m c).a10 := (StableHlo.after_below 136 hostOps8 (W16 m ρ c) ho8_w main_arg10 (by decide)).trans (at_arg10_16 m ρ c)
theorem at_arg10_18 : W18 m ρ c (Proc.devRef .tc main_arg10) = (argsOf m c).a10 := (W18_of_ne m ρ c main_arg10 (by decide)).trans (at_arg10_17 m ρ c)
theorem at_arg10_19 : W19 m ρ c (Proc.devRef .tc main_arg10) = (argsOf m c).a10 := (StableHlo.after_below 158 hostOps9 (W18 m ρ c) ho9_w main_arg10 (by decide)).trans (at_arg10_18 m ρ c)
theorem at_arg10_20 : W20 m ρ c (Proc.devRef .tc main_arg10) = (argsOf m c).a10 := (W20_of_ne m ρ c main_arg10 (by decide)).trans (at_arg10_19 m ρ c)
theorem at_arg10_21 : W21 m ρ c (Proc.devRef .tc main_arg10) = (argsOf m c).a10 := (StableHlo.after_below 173 hostOps10 (W20 m ρ c) ho10_w main_arg10 (by decide)).trans (at_arg10_20 m ρ c)
theorem at_arg10_22 : W22 m ρ c (Proc.devRef .tc main_arg10) = (argsOf m c).a10 := (W22_of_ne m ρ c main_arg10 (by decide)).trans (at_arg10_21 m ρ c)
theorem at_arg10_23 : W23 m ρ c (Proc.devRef .tc main_arg10) = (argsOf m c).a10 := (StableHlo.after_below 176 hostOps11 (W22 m ρ c) ho11_w main_arg10 (by decide)).trans (at_arg10_22 m ρ c)
theorem at_arg10_24 : W24 m ρ c (Proc.devRef .tc main_arg10) = (argsOf m c).a10 := (W24_of_ne m ρ c main_arg10 (by decide)).trans (at_arg10_23 m ρ c)
theorem at_arg10_25 : W25 m ρ c (Proc.devRef .tc main_arg10) = (argsOf m c).a10 := (StableHlo.after_below 198 hostOps12 (W24 m ρ c) ho12_w main_arg10 (by decide)).trans (at_arg10_24 m ρ c)
theorem at_arg10_26 : W26 m ρ c (Proc.devRef .tc main_arg10) = (argsOf m c).a10 := (W26_of_ne m ρ c main_arg10 (by decide)).trans (at_arg10_25 m ρ c)

theorem at_arg11_0 : W0 m ρ c (Proc.devRef .tc main_arg11) = (argsOf m c).a11 := rfl
theorem at_arg11_1 : W1 m ρ c (Proc.devRef .tc main_arg11) = (argsOf m c).a11 := (StableHlo.after_below 13 hostOps0 (W0 m ρ c) ho0_w main_arg11 (by decide)).trans (at_arg11_0 m ρ c)
theorem at_arg11_2 : W2 m ρ c (Proc.devRef .tc main_arg11) = (argsOf m c).a11 := (W2_of_ne m ρ c main_arg11 (by decide)).trans (at_arg11_1 m ρ c)
theorem at_arg11_3 : W3 m ρ c (Proc.devRef .tc main_arg11) = (argsOf m c).a11 := (StableHlo.after_below 53 hostOps1 (W2 m ρ c) ho1_w main_arg11 (by decide)).trans (at_arg11_2 m ρ c)
theorem at_arg11_4 : W4 m ρ c (Proc.devRef .tc main_arg11) = (argsOf m c).a11 := (W4_of_ne m ρ c main_arg11 (by decide)).trans (at_arg11_3 m ρ c)
theorem at_arg11_5 : W5 m ρ c (Proc.devRef .tc main_arg11) = (argsOf m c).a11 := (StableHlo.after_below 56 hostOps2 (W4 m ρ c) ho2_w main_arg11 (by decide)).trans (at_arg11_4 m ρ c)
theorem at_arg11_6 : W6 m ρ c (Proc.devRef .tc main_arg11) = (argsOf m c).a11 := (W6_of_ne m ρ c main_arg11 (by decide)).trans (at_arg11_5 m ρ c)
theorem at_arg11_7 : W7 m ρ c (Proc.devRef .tc main_arg11) = (argsOf m c).a11 := (StableHlo.after_below 78 hostOps3 (W6 m ρ c) ho3_w main_arg11 (by decide)).trans (at_arg11_6 m ρ c)
theorem at_arg11_8 : W8 m ρ c (Proc.devRef .tc main_arg11) = (argsOf m c).a11 := (W8_of_ne m ρ c main_arg11 (by decide)).trans (at_arg11_7 m ρ c)
theorem at_arg11_9 : W9 m ρ c (Proc.devRef .tc main_arg11) = (argsOf m c).a11 := (StableHlo.after_below 93 hostOps4 (W8 m ρ c) ho4_w main_arg11 (by decide)).trans (at_arg11_8 m ρ c)
theorem at_arg11_10 : W10 m ρ c (Proc.devRef .tc main_arg11) = (argsOf m c).a11 := (W10_of_ne m ρ c main_arg11 (by decide)).trans (at_arg11_9 m ρ c)
theorem at_arg11_11 : W11 m ρ c (Proc.devRef .tc main_arg11) = (argsOf m c).a11 := (StableHlo.after_below 96 hostOps5 (W10 m ρ c) ho5_w main_arg11 (by decide)).trans (at_arg11_10 m ρ c)
theorem at_arg11_12 : W12 m ρ c (Proc.devRef .tc main_arg11) = (argsOf m c).a11 := (W12_of_ne m ρ c main_arg11 (by decide)).trans (at_arg11_11 m ρ c)
theorem at_arg11_13 : W13 m ρ c (Proc.devRef .tc main_arg11) = (argsOf m c).a11 := (StableHlo.after_below 118 hostOps6 (W12 m ρ c) ho6_w main_arg11 (by decide)).trans (at_arg11_12 m ρ c)
theorem at_arg11_14 : W14 m ρ c (Proc.devRef .tc main_arg11) = (argsOf m c).a11 := (W14_of_ne m ρ c main_arg11 (by decide)).trans (at_arg11_13 m ρ c)
theorem at_arg11_15 : W15 m ρ c (Proc.devRef .tc main_arg11) = (argsOf m c).a11 := (StableHlo.after_below 133 hostOps7 (W14 m ρ c) ho7_w main_arg11 (by decide)).trans (at_arg11_14 m ρ c)
theorem at_arg11_16 : W16 m ρ c (Proc.devRef .tc main_arg11) = (argsOf m c).a11 := (W16_of_ne m ρ c main_arg11 (by decide)).trans (at_arg11_15 m ρ c)
theorem at_arg11_17 : W17 m ρ c (Proc.devRef .tc main_arg11) = (argsOf m c).a11 := (StableHlo.after_below 136 hostOps8 (W16 m ρ c) ho8_w main_arg11 (by decide)).trans (at_arg11_16 m ρ c)
theorem at_arg11_18 : W18 m ρ c (Proc.devRef .tc main_arg11) = (argsOf m c).a11 := (W18_of_ne m ρ c main_arg11 (by decide)).trans (at_arg11_17 m ρ c)
theorem at_arg11_19 : W19 m ρ c (Proc.devRef .tc main_arg11) = (argsOf m c).a11 := (StableHlo.after_below 158 hostOps9 (W18 m ρ c) ho9_w main_arg11 (by decide)).trans (at_arg11_18 m ρ c)
theorem at_arg11_20 : W20 m ρ c (Proc.devRef .tc main_arg11) = (argsOf m c).a11 := (W20_of_ne m ρ c main_arg11 (by decide)).trans (at_arg11_19 m ρ c)
theorem at_arg11_21 : W21 m ρ c (Proc.devRef .tc main_arg11) = (argsOf m c).a11 := (StableHlo.after_below 173 hostOps10 (W20 m ρ c) ho10_w main_arg11 (by decide)).trans (at_arg11_20 m ρ c)
theorem at_arg11_22 : W22 m ρ c (Proc.devRef .tc main_arg11) = (argsOf m c).a11 := (W22_of_ne m ρ c main_arg11 (by decide)).trans (at_arg11_21 m ρ c)
theorem at_arg11_23 : W23 m ρ c (Proc.devRef .tc main_arg11) = (argsOf m c).a11 := (StableHlo.after_below 176 hostOps11 (W22 m ρ c) ho11_w main_arg11 (by decide)).trans (at_arg11_22 m ρ c)
theorem at_arg11_24 : W24 m ρ c (Proc.devRef .tc main_arg11) = (argsOf m c).a11 := (W24_of_ne m ρ c main_arg11 (by decide)).trans (at_arg11_23 m ρ c)
theorem at_arg11_25 : W25 m ρ c (Proc.devRef .tc main_arg11) = (argsOf m c).a11 := (StableHlo.after_below 198 hostOps12 (W24 m ρ c) ho12_w main_arg11 (by decide)).trans (at_arg11_24 m ρ c)
theorem at_arg11_26 : W26 m ρ c (Proc.devRef .tc main_arg11) = (argsOf m c).a11 := (W26_of_ne m ρ c main_arg11 (by decide)).trans (at_arg11_25 m ρ c)
theorem at_arg11_27 : W27 m ρ c (Proc.devRef .tc main_arg11) = (argsOf m c).a11 := (StableHlo.after_below 213 hostOps13 (W26 m ρ c) ho13_w main_arg11 (by decide)).trans (at_arg11_26 m ρ c)

theorem at_arg12_0 : W0 m ρ c (Proc.devRef .tc main_arg12) = (argsOf m c).a12 := rfl
theorem at_arg12_1 : W1 m ρ c (Proc.devRef .tc main_arg12) = (argsOf m c).a12 := (StableHlo.after_below 13 hostOps0 (W0 m ρ c) ho0_w main_arg12 (by decide)).trans (at_arg12_0 m ρ c)
theorem at_arg12_2 : W2 m ρ c (Proc.devRef .tc main_arg12) = (argsOf m c).a12 := (W2_of_ne m ρ c main_arg12 (by decide)).trans (at_arg12_1 m ρ c)
theorem at_arg12_3 : W3 m ρ c (Proc.devRef .tc main_arg12) = (argsOf m c).a12 := (StableHlo.after_below 53 hostOps1 (W2 m ρ c) ho1_w main_arg12 (by decide)).trans (at_arg12_2 m ρ c)
theorem at_arg12_4 : W4 m ρ c (Proc.devRef .tc main_arg12) = (argsOf m c).a12 := (W4_of_ne m ρ c main_arg12 (by decide)).trans (at_arg12_3 m ρ c)
theorem at_arg12_5 : W5 m ρ c (Proc.devRef .tc main_arg12) = (argsOf m c).a12 := (StableHlo.after_below 56 hostOps2 (W4 m ρ c) ho2_w main_arg12 (by decide)).trans (at_arg12_4 m ρ c)
theorem at_arg12_6 : W6 m ρ c (Proc.devRef .tc main_arg12) = (argsOf m c).a12 := (W6_of_ne m ρ c main_arg12 (by decide)).trans (at_arg12_5 m ρ c)
theorem at_arg12_7 : W7 m ρ c (Proc.devRef .tc main_arg12) = (argsOf m c).a12 := (StableHlo.after_below 78 hostOps3 (W6 m ρ c) ho3_w main_arg12 (by decide)).trans (at_arg12_6 m ρ c)
theorem at_arg12_8 : W8 m ρ c (Proc.devRef .tc main_arg12) = (argsOf m c).a12 := (W8_of_ne m ρ c main_arg12 (by decide)).trans (at_arg12_7 m ρ c)
theorem at_arg12_9 : W9 m ρ c (Proc.devRef .tc main_arg12) = (argsOf m c).a12 := (StableHlo.after_below 93 hostOps4 (W8 m ρ c) ho4_w main_arg12 (by decide)).trans (at_arg12_8 m ρ c)
theorem at_arg12_10 : W10 m ρ c (Proc.devRef .tc main_arg12) = (argsOf m c).a12 := (W10_of_ne m ρ c main_arg12 (by decide)).trans (at_arg12_9 m ρ c)
theorem at_arg12_11 : W11 m ρ c (Proc.devRef .tc main_arg12) = (argsOf m c).a12 := (StableHlo.after_below 96 hostOps5 (W10 m ρ c) ho5_w main_arg12 (by decide)).trans (at_arg12_10 m ρ c)
theorem at_arg12_12 : W12 m ρ c (Proc.devRef .tc main_arg12) = (argsOf m c).a12 := (W12_of_ne m ρ c main_arg12 (by decide)).trans (at_arg12_11 m ρ c)
theorem at_arg12_13 : W13 m ρ c (Proc.devRef .tc main_arg12) = (argsOf m c).a12 := (StableHlo.after_below 118 hostOps6 (W12 m ρ c) ho6_w main_arg12 (by decide)).trans (at_arg12_12 m ρ c)
theorem at_arg12_14 : W14 m ρ c (Proc.devRef .tc main_arg12) = (argsOf m c).a12 := (W14_of_ne m ρ c main_arg12 (by decide)).trans (at_arg12_13 m ρ c)
theorem at_arg12_15 : W15 m ρ c (Proc.devRef .tc main_arg12) = (argsOf m c).a12 := (StableHlo.after_below 133 hostOps7 (W14 m ρ c) ho7_w main_arg12 (by decide)).trans (at_arg12_14 m ρ c)
theorem at_arg12_16 : W16 m ρ c (Proc.devRef .tc main_arg12) = (argsOf m c).a12 := (W16_of_ne m ρ c main_arg12 (by decide)).trans (at_arg12_15 m ρ c)
theorem at_arg12_17 : W17 m ρ c (Proc.devRef .tc main_arg12) = (argsOf m c).a12 := (StableHlo.after_below 136 hostOps8 (W16 m ρ c) ho8_w main_arg12 (by decide)).trans (at_arg12_16 m ρ c)
theorem at_arg12_18 : W18 m ρ c (Proc.devRef .tc main_arg12) = (argsOf m c).a12 := (W18_of_ne m ρ c main_arg12 (by decide)).trans (at_arg12_17 m ρ c)
theorem at_arg12_19 : W19 m ρ c (Proc.devRef .tc main_arg12) = (argsOf m c).a12 := (StableHlo.after_below 158 hostOps9 (W18 m ρ c) ho9_w main_arg12 (by decide)).trans (at_arg12_18 m ρ c)
theorem at_arg12_20 : W20 m ρ c (Proc.devRef .tc main_arg12) = (argsOf m c).a12 := (W20_of_ne m ρ c main_arg12 (by decide)).trans (at_arg12_19 m ρ c)
theorem at_arg12_21 : W21 m ρ c (Proc.devRef .tc main_arg12) = (argsOf m c).a12 := (StableHlo.after_below 173 hostOps10 (W20 m ρ c) ho10_w main_arg12 (by decide)).trans (at_arg12_20 m ρ c)
theorem at_arg12_22 : W22 m ρ c (Proc.devRef .tc main_arg12) = (argsOf m c).a12 := (W22_of_ne m ρ c main_arg12 (by decide)).trans (at_arg12_21 m ρ c)
theorem at_arg12_23 : W23 m ρ c (Proc.devRef .tc main_arg12) = (argsOf m c).a12 := (StableHlo.after_below 176 hostOps11 (W22 m ρ c) ho11_w main_arg12 (by decide)).trans (at_arg12_22 m ρ c)
theorem at_arg12_24 : W24 m ρ c (Proc.devRef .tc main_arg12) = (argsOf m c).a12 := (W24_of_ne m ρ c main_arg12 (by decide)).trans (at_arg12_23 m ρ c)
theorem at_arg12_25 : W25 m ρ c (Proc.devRef .tc main_arg12) = (argsOf m c).a12 := (StableHlo.after_below 198 hostOps12 (W24 m ρ c) ho12_w main_arg12 (by decide)).trans (at_arg12_24 m ρ c)
theorem at_arg12_26 : W26 m ρ c (Proc.devRef .tc main_arg12) = (argsOf m c).a12 := (W26_of_ne m ρ c main_arg12 (by decide)).trans (at_arg12_25 m ρ c)

theorem at_v1_1 : W1 m ρ c (Proc.devRef .tc main_v1) = k_v1 (argsOf m c) :=
  (rd_v1 (F := Ideal) m ρ c).trans (congrArg (kf_v1 (F := Ideal)) (at_arg1_0 m ρ c))

theorem at_v3_1 : W1 m ρ c (Proc.devRef .tc main_v3) = k_v3 (argsOf m c) :=
  (rd_v3 (F := Ideal) m ρ c).trans (congrArg (kf_v3 (F := Ideal)) (at_arg1_0 m ρ c))

theorem at_v10_1 : W1 m ρ c (Proc.devRef .tc main_v10) = k_v10 (argsOf m c) :=
  (rd_v10 (F := Ideal) m ρ c).trans (congrArg (kf_v10 (F := Ideal)) (at_v3_1 m ρ c))

theorem at_v11_1 : W1 m ρ c (Proc.devRef .tc main_v11) = k_v11 (argsOf m c) :=
  (rd_v11 (F := Ideal) m ρ c).trans (congrArg (kf_v11 (F := Ideal)) (at_v10_1 m ρ c))

theorem at_v27_1 : W1 m ρ c (Proc.devRef .tc main_v27) = k_v27 (argsOf m c) :=
  (rd_v27 (F := Ideal) m ρ c).trans (congr3 (kf_v27 (F := Ideal)) (at_v10_1 m ρ c) (at_v1_1 m ρ c) (at_v3_1 m ρ c))

theorem at_v28_1 : W1 m ρ c (Proc.devRef .tc main_v28) = k_v28 (argsOf m c) :=
  (rd_v28 (F := Ideal) m ρ c).trans (congrArg (kf_v28 (F := Ideal)) (at_v1_1 m ρ c))
theorem at_v28_2 : W2 m ρ c (Proc.devRef .tc main_v28) = k_v28 (argsOf m c) := (W2_of_ne m ρ c main_v28 (by decide)).trans (at_v28_1 m ρ c)
theorem at_v28_3 : W3 m ρ c (Proc.devRef .tc main_v28) = k_v28 (argsOf m c) := (StableHlo.after_below 53 hostOps1 (W2 m ρ c) ho1_w main_v28 (by decide)).trans (at_v28_2 m ρ c)
theorem at_v28_4 : W4 m ρ c (Proc.devRef .tc main_v28) = k_v28 (argsOf m c) := (W4_of_ne m ρ c main_v28 (by decide)).trans (at_v28_3 m ρ c)
theorem at_v28_5 : W5 m ρ c (Proc.devRef .tc main_v28) = k_v28 (argsOf m c) := (StableHlo.after_below 56 hostOps2 (W4 m ρ c) ho2_w main_v28 (by decide)).trans (at_v28_4 m ρ c)
theorem at_v28_6 : W6 m ρ c (Proc.devRef .tc main_v28) = k_v28 (argsOf m c) := (W6_of_ne m ρ c main_v28 (by decide)).trans (at_v28_5 m ρ c)
theorem at_v28_7 : W7 m ρ c (Proc.devRef .tc main_v28) = k_v28 (argsOf m c) := (StableHlo.after_below 78 hostOps3 (W6 m ρ c) ho3_w main_v28 (by decide)).trans (at_v28_6 m ρ c)
theorem at_v28_8 : W8 m ρ c (Proc.devRef .tc main_v28) = k_v28 (argsOf m c) := (W8_of_ne m ρ c main_v28 (by decide)).trans (at_v28_7 m ρ c)
theorem at_v28_9 : W9 m ρ c (Proc.devRef .tc main_v28) = k_v28 (argsOf m c) := (StableHlo.after_below 93 hostOps4 (W8 m ρ c) ho4_w main_v28 (by decide)).trans (at_v28_8 m ρ c)
theorem at_v28_10 : W10 m ρ c (Proc.devRef .tc main_v28) = k_v28 (argsOf m c) := (W10_of_ne m ρ c main_v28 (by decide)).trans (at_v28_9 m ρ c)
theorem at_v28_11 : W11 m ρ c (Proc.devRef .tc main_v28) = k_v28 (argsOf m c) := (StableHlo.after_below 96 hostOps5 (W10 m ρ c) ho5_w main_v28 (by decide)).trans (at_v28_10 m ρ c)
theorem at_v28_12 : W12 m ρ c (Proc.devRef .tc main_v28) = k_v28 (argsOf m c) := (W12_of_ne m ρ c main_v28 (by decide)).trans (at_v28_11 m ρ c)
theorem at_v28_13 : W13 m ρ c (Proc.devRef .tc main_v28) = k_v28 (argsOf m c) := (StableHlo.after_below 118 hostOps6 (W12 m ρ c) ho6_w main_v28 (by decide)).trans (at_v28_12 m ρ c)
theorem at_v28_14 : W14 m ρ c (Proc.devRef .tc main_v28) = k_v28 (argsOf m c) := (W14_of_ne m ρ c main_v28 (by decide)).trans (at_v28_13 m ρ c)
theorem at_v28_15 : W15 m ρ c (Proc.devRef .tc main_v28) = k_v28 (argsOf m c) := (StableHlo.after_below 133 hostOps7 (W14 m ρ c) ho7_w main_v28 (by decide)).trans (at_v28_14 m ρ c)
theorem at_v28_16 : W16 m ρ c (Proc.devRef .tc main_v28) = k_v28 (argsOf m c) := (W16_of_ne m ρ c main_v28 (by decide)).trans (at_v28_15 m ρ c)
theorem at_v28_17 : W17 m ρ c (Proc.devRef .tc main_v28) = k_v28 (argsOf m c) := (StableHlo.after_below 136 hostOps8 (W16 m ρ c) ho8_w main_v28 (by decide)).trans (at_v28_16 m ρ c)
theorem at_v28_18 : W18 m ρ c (Proc.devRef .tc main_v28) = k_v28 (argsOf m c) := (W18_of_ne m ρ c main_v28 (by decide)).trans (at_v28_17 m ρ c)
theorem at_v28_19 : W19 m ρ c (Proc.devRef .tc main_v28) = k_v28 (argsOf m c) := (StableHlo.after_below 158 hostOps9 (W18 m ρ c) ho9_w main_v28 (by decide)).trans (at_v28_18 m ρ c)
theorem at_v28_20 : W20 m ρ c (Proc.devRef .tc main_v28) = k_v28 (argsOf m c) := (W20_of_ne m ρ c main_v28 (by decide)).trans (at_v28_19 m ρ c)
theorem at_v28_21 : W21 m ρ c (Proc.devRef .tc main_v28) = k_v28 (argsOf m c) := (StableHlo.after_below 173 hostOps10 (W20 m ρ c) ho10_w main_v28 (by decide)).trans (at_v28_20 m ρ c)
theorem at_v28_22 : W22 m ρ c (Proc.devRef .tc main_v28) = k_v28 (argsOf m c) := (W22_of_ne m ρ c main_v28 (by decide)).trans (at_v28_21 m ρ c)

theorem at_v29_1 : W1 m ρ c (Proc.devRef .tc main_v29) = k_v29 (argsOf m c) :=
  (rd_v29 (F := Ideal) m ρ c).trans (congrArg (kf_v28 (F := Ideal)) (at_v3_1 m ρ c))
theorem at_v29_2 : W2 m ρ c (Proc.devRef .tc main_v29) = k_v29 (argsOf m c) := (W2_of_ne m ρ c main_v29 (by decide)).trans (at_v29_1 m ρ c)
theorem at_v29_3 : W3 m ρ c (Proc.devRef .tc main_v29) = k_v29 (argsOf m c) := (StableHlo.after_below 53 hostOps1 (W2 m ρ c) ho1_w main_v29 (by decide)).trans (at_v29_2 m ρ c)
theorem at_v29_4 : W4 m ρ c (Proc.devRef .tc main_v29) = k_v29 (argsOf m c) := (W4_of_ne m ρ c main_v29 (by decide)).trans (at_v29_3 m ρ c)
theorem at_v29_5 : W5 m ρ c (Proc.devRef .tc main_v29) = k_v29 (argsOf m c) := (StableHlo.after_below 56 hostOps2 (W4 m ρ c) ho2_w main_v29 (by decide)).trans (at_v29_4 m ρ c)
theorem at_v29_6 : W6 m ρ c (Proc.devRef .tc main_v29) = k_v29 (argsOf m c) := (W6_of_ne m ρ c main_v29 (by decide)).trans (at_v29_5 m ρ c)
theorem at_v29_7 : W7 m ρ c (Proc.devRef .tc main_v29) = k_v29 (argsOf m c) := (StableHlo.after_below 78 hostOps3 (W6 m ρ c) ho3_w main_v29 (by decide)).trans (at_v29_6 m ρ c)
theorem at_v29_8 : W8 m ρ c (Proc.devRef .tc main_v29) = k_v29 (argsOf m c) := (W8_of_ne m ρ c main_v29 (by decide)).trans (at_v29_7 m ρ c)
theorem at_v29_9 : W9 m ρ c (Proc.devRef .tc main_v29) = k_v29 (argsOf m c) := (StableHlo.after_below 93 hostOps4 (W8 m ρ c) ho4_w main_v29 (by decide)).trans (at_v29_8 m ρ c)
theorem at_v29_10 : W10 m ρ c (Proc.devRef .tc main_v29) = k_v29 (argsOf m c) := (W10_of_ne m ρ c main_v29 (by decide)).trans (at_v29_9 m ρ c)
theorem at_v29_11 : W11 m ρ c (Proc.devRef .tc main_v29) = k_v29 (argsOf m c) := (StableHlo.after_below 96 hostOps5 (W10 m ρ c) ho5_w main_v29 (by decide)).trans (at_v29_10 m ρ c)
theorem at_v29_12 : W12 m ρ c (Proc.devRef .tc main_v29) = k_v29 (argsOf m c) := (W12_of_ne m ρ c main_v29 (by decide)).trans (at_v29_11 m ρ c)
theorem at_v29_13 : W13 m ρ c (Proc.devRef .tc main_v29) = k_v29 (argsOf m c) := (StableHlo.after_below 118 hostOps6 (W12 m ρ c) ho6_w main_v29 (by decide)).trans (at_v29_12 m ρ c)
theorem at_v29_14 : W14 m ρ c (Proc.devRef .tc main_v29) = k_v29 (argsOf m c) := (W14_of_ne m ρ c main_v29 (by decide)).trans (at_v29_13 m ρ c)
theorem at_v29_15 : W15 m ρ c (Proc.devRef .tc main_v29) = k_v29 (argsOf m c) := (StableHlo.after_below 133 hostOps7 (W14 m ρ c) ho7_w main_v29 (by decide)).trans (at_v29_14 m ρ c)
theorem at_v29_16 : W16 m ρ c (Proc.devRef .tc main_v29) = k_v29 (argsOf m c) := (W16_of_ne m ρ c main_v29 (by decide)).trans (at_v29_15 m ρ c)
theorem at_v29_17 : W17 m ρ c (Proc.devRef .tc main_v29) = k_v29 (argsOf m c) := (StableHlo.after_below 136 hostOps8 (W16 m ρ c) ho8_w main_v29 (by decide)).trans (at_v29_16 m ρ c)
theorem at_v29_18 : W18 m ρ c (Proc.devRef .tc main_v29) = k_v29 (argsOf m c) := (W18_of_ne m ρ c main_v29 (by decide)).trans (at_v29_17 m ρ c)
theorem at_v29_19 : W19 m ρ c (Proc.devRef .tc main_v29) = k_v29 (argsOf m c) := (StableHlo.after_below 158 hostOps9 (W18 m ρ c) ho9_w main_v29 (by decide)).trans (at_v29_18 m ρ c)
theorem at_v29_20 : W20 m ρ c (Proc.devRef .tc main_v29) = k_v29 (argsOf m c) := (W20_of_ne m ρ c main_v29 (by decide)).trans (at_v29_19 m ρ c)
theorem at_v29_21 : W21 m ρ c (Proc.devRef .tc main_v29) = k_v29 (argsOf m c) := (StableHlo.after_below 173 hostOps10 (W20 m ρ c) ho10_w main_v29 (by decide)).trans (at_v29_20 m ρ c)
theorem at_v29_22 : W22 m ρ c (Proc.devRef .tc main_v29) = k_v29 (argsOf m c) := (W22_of_ne m ρ c main_v29 (by decide)).trans (at_v29_21 m ρ c)

theorem at_v30_1 : W1 m ρ c (Proc.devRef .tc main_v30) = k_v30 (argsOf m c) :=
  (rd_v30 (F := Ideal) m ρ c).trans (congr2 (kf_v30 (F := Ideal)) (at_v27_1 m ρ c) (at_v11_1 m ρ c))
theorem at_v30_2 : W2 m ρ c (Proc.devRef .tc main_v30) = k_v30 (argsOf m c) := (W2_of_ne m ρ c main_v30 (by decide)).trans (at_v30_1 m ρ c)
theorem at_v30_3 : W3 m ρ c (Proc.devRef .tc main_v30) = k_v30 (argsOf m c) := (StableHlo.after_below 53 hostOps1 (W2 m ρ c) ho1_w main_v30 (by decide)).trans (at_v30_2 m ρ c)
theorem at_v30_4 : W4 m ρ c (Proc.devRef .tc main_v30) = k_v30 (argsOf m c) := (W4_of_ne m ρ c main_v30 (by decide)).trans (at_v30_3 m ρ c)
theorem at_v30_5 : W5 m ρ c (Proc.devRef .tc main_v30) = k_v30 (argsOf m c) := (StableHlo.after_below 56 hostOps2 (W4 m ρ c) ho2_w main_v30 (by decide)).trans (at_v30_4 m ρ c)
theorem at_v30_6 : W6 m ρ c (Proc.devRef .tc main_v30) = k_v30 (argsOf m c) := (W6_of_ne m ρ c main_v30 (by decide)).trans (at_v30_5 m ρ c)
theorem at_v30_7 : W7 m ρ c (Proc.devRef .tc main_v30) = k_v30 (argsOf m c) := (StableHlo.after_below 78 hostOps3 (W6 m ρ c) ho3_w main_v30 (by decide)).trans (at_v30_6 m ρ c)
theorem at_v30_8 : W8 m ρ c (Proc.devRef .tc main_v30) = k_v30 (argsOf m c) := (W8_of_ne m ρ c main_v30 (by decide)).trans (at_v30_7 m ρ c)
theorem at_v30_9 : W9 m ρ c (Proc.devRef .tc main_v30) = k_v30 (argsOf m c) := (StableHlo.after_below 93 hostOps4 (W8 m ρ c) ho4_w main_v30 (by decide)).trans (at_v30_8 m ρ c)
theorem at_v30_10 : W10 m ρ c (Proc.devRef .tc main_v30) = k_v30 (argsOf m c) := (W10_of_ne m ρ c main_v30 (by decide)).trans (at_v30_9 m ρ c)
theorem at_v30_11 : W11 m ρ c (Proc.devRef .tc main_v30) = k_v30 (argsOf m c) := (StableHlo.after_below 96 hostOps5 (W10 m ρ c) ho5_w main_v30 (by decide)).trans (at_v30_10 m ρ c)
theorem at_v30_12 : W12 m ρ c (Proc.devRef .tc main_v30) = k_v30 (argsOf m c) := (W12_of_ne m ρ c main_v30 (by decide)).trans (at_v30_11 m ρ c)
theorem at_v30_13 : W13 m ρ c (Proc.devRef .tc main_v30) = k_v30 (argsOf m c) := (StableHlo.after_below 118 hostOps6 (W12 m ρ c) ho6_w main_v30 (by decide)).trans (at_v30_12 m ρ c)
theorem at_v30_14 : W14 m ρ c (Proc.devRef .tc main_v30) = k_v30 (argsOf m c) := (W14_of_ne m ρ c main_v30 (by decide)).trans (at_v30_13 m ρ c)
theorem at_v30_15 : W15 m ρ c (Proc.devRef .tc main_v30) = k_v30 (argsOf m c) := (StableHlo.after_below 133 hostOps7 (W14 m ρ c) ho7_w main_v30 (by decide)).trans (at_v30_14 m ρ c)
theorem at_v30_16 : W16 m ρ c (Proc.devRef .tc main_v30) = k_v30 (argsOf m c) := (W16_of_ne m ρ c main_v30 (by decide)).trans (at_v30_15 m ρ c)
theorem at_v30_17 : W17 m ρ c (Proc.devRef .tc main_v30) = k_v30 (argsOf m c) := (StableHlo.after_below 136 hostOps8 (W16 m ρ c) ho8_w main_v30 (by decide)).trans (at_v30_16 m ρ c)
theorem at_v30_18 : W18 m ρ c (Proc.devRef .tc main_v30) = k_v30 (argsOf m c) := (W18_of_ne m ρ c main_v30 (by decide)).trans (at_v30_17 m ρ c)
theorem at_v30_19 : W19 m ρ c (Proc.devRef .tc main_v30) = k_v30 (argsOf m c) := (StableHlo.after_below 158 hostOps9 (W18 m ρ c) ho9_w main_v30 (by decide)).trans (at_v30_18 m ρ c)
theorem at_v30_20 : W20 m ρ c (Proc.devRef .tc main_v30) = k_v30 (argsOf m c) := (W20_of_ne m ρ c main_v30 (by decide)).trans (at_v30_19 m ρ c)
theorem at_v30_21 : W21 m ρ c (Proc.devRef .tc main_v30) = k_v30 (argsOf m c) := (StableHlo.after_below 173 hostOps10 (W20 m ρ c) ho10_w main_v30 (by decide)).trans (at_v30_20 m ρ c)
theorem at_v30_22 : W22 m ρ c (Proc.devRef .tc main_v30) = k_v30 (argsOf m c) := (W22_of_ne m ρ c main_v30 (by decide)).trans (at_v30_21 m ρ c)

theorem at_v31_1 : W1 m ρ c (Proc.devRef .tc main_v31) = k_v31 (argsOf m c) :=
  (rd_v31 (F := Ideal) m ρ c).trans (congrArg (kf_v31 (F := Ideal)) (at_arg4_0 m ρ c))

theorem at_v32_2 : W2 m ρ c (Proc.devRef .tc main_v32) = k_v32 (argsOf m c) :=
  (W2_arr m ρ c 3).trans ((RegVal.val0 (V1 m ρ) c).trans (congr_addRow_mm (at_arg0_1 m ρ c) (at_arg3_1 m ρ c) (at_v31_1 m ρ c)))
theorem at_v32_3 : W3 m ρ c (Proc.devRef .tc main_v32) = k_v32 (argsOf m c) := (StableHlo.after_below 53 hostOps1 (W2 m ρ c) ho1_w main_v32 (by decide)).trans (at_v32_2 m ρ c)
theorem at_v32_4 : W4 m ρ c (Proc.devRef .tc main_v32) = k_v32 (argsOf m c) := ((W4_arr m ρ c 0).trans (((dat1 (V3 m ρ) c).arrAt_in 0 rfl _).trans (A_eq1 (V3 m ρ) c 0))).trans (at_v32_3 m ρ c)
theorem at_v32_5 : W5 m ρ c (Proc.devRef .tc main_v32) = k_v32 (argsOf m c) := (StableHlo.after_below 56 hostOps2 (W4 m ρ c) ho2_w main_v32 (by decide)).trans (at_v32_4 m ρ c)
theorem at_v32_6 : W6 m ρ c (Proc.devRef .tc main_v32) = k_v32 (argsOf m c) := (W6_of_ne m ρ c main_v32 (by decide)).trans (at_v32_5 m ρ c)
theorem at_v32_7 : W7 m ρ c (Proc.devRef .tc main_v32) = k_v32 (argsOf m c) := (StableHlo.after_below 78 hostOps3 (W6 m ρ c) ho3_w main_v32 (by decide)).trans (at_v32_6 m ρ c)

theorem at_v34_3 : W3 m ρ c (Proc.devRef .tc main_v34) = k_v34 (argsOf m c) :=
  (rd_v34 (F := Ideal) m ρ c).trans (congrArg (kf_v34 (F := Ideal)) (at_arg5_2 m ρ c))

theorem at_v35_4 : W4 m ρ c (Proc.devRef .tc main_v35) = k_v35 (argsOf m c) :=
  (W4_arr m ρ c 2).trans ((RegVal.val1 (V3 m ρ) c).trans (congr_mm (at_v32_3 m ρ c) (at_v34_3 m ρ c)))

theorem at_v48_5 : W5 m ρ c (Proc.devRef .tc main_v48) = k_v48 (argsOf m c) :=
  (rd_v48 (F := Ideal) m ρ c).trans (congr4 (kf_v48 (F := Ideal)) (at_v29_4 m ρ c) (at_v35_4 m ρ c) (at_v28_4 m ρ c) (at_v30_4 m ρ c))

theorem at_v51_5 : W5 m ρ c (Proc.devRef .tc main_v51) = k_v51 (argsOf m c) :=
  (rd_v51 (F := Ideal) m ρ c).trans (congrArg (kf_v51 (F := Ideal)) (at_arg6_4 m ρ c))

theorem at_v52_0_6 : W6 m ρ c (Proc.devRef .tc main_v52_0) = k_v52_0 (argsOf m c) :=
  (W6_arr m ρ c 2).trans ((RegVal.val2_full (V5 m ρ) c).trans (congr_addRow (at_v48_5 m ρ c) (at_v51_5 m ρ c)))
theorem at_v52_0_7 : W7 m ρ c (Proc.devRef .tc main_v52_0) = k_v52_0 (argsOf m c) := (StableHlo.after_below 78 hostOps3 (W6 m ρ c) ho3_w main_v52_0 (by decide)).trans (at_v52_0_6 m ρ c)

theorem at_v52_1_6 : W6 m ρ c (Proc.devRef .tc main_v52_1) = k_v52_1 (argsOf m c) :=
  (W6_arr m ρ c 3).trans ((RegVal.val2_sum (V5 m ρ) c).trans (congrArg colSums (congr_addRow (at_v48_5 m ρ c) (at_v51_5 m ρ c))))

theorem at_v52_2_6 : W6 m ρ c (Proc.devRef .tc main_v52_2) = k_v52_2 (argsOf m c) :=
  (W6_arr m ρ c 4).trans ((RegVal.val2_sumsq (V5 m ρ) c).trans (congrArg colSumSqs (congr_addRow (at_v48_5 m ρ c) (at_v51_5 m ρ c))))

theorem at_v54_7 : W7 m ρ c (Proc.devRef .tc main_v54) = k_v54 (argsOf m c) :=
  (rd_v54 (F := Ideal) m ρ c).trans (congrArg (kf_v54 (F := Ideal)) (at_v52_1_6 m ρ c))

theorem at_v58_7 : W7 m ρ c (Proc.devRef .tc main_v58) = k_v58 (argsOf m c) :=
  (rd_v58 (F := Ideal) m ρ c).trans (congr2 (kf_v58 (F := Ideal)) (at_v52_2_6 m ρ c) (at_v54_7 m ρ c))

theorem at_v61_7 : W7 m ρ c (Proc.devRef .tc main_v61) = k_v61 (argsOf m c) :=
  (rd_v61 (F := Ideal) m ρ c).trans (congrArg (kf_v51 (F := Ideal)) (at_arg7_6 m ρ c))

theorem at_v64_7 : W7 m ρ c (Proc.devRef .tc main_v64) = k_v64 (argsOf m c) :=
  (rd_v64 (F := Ideal) m ρ c).trans (congrArg (kf_v51 (F := Ideal)) (at_arg8_6 m ρ c))

theorem at_v65_8 : W8 m ρ c (Proc.devRef .tc main_v65) = k_v65 (argsOf m c) :=
  (W8_arr m ρ c 6).trans ((RegVal.val3 (V7 m ρ) c).trans (congr_bnNorm (at_v52_0_7 m ρ c) (at_v54_7 m ρ c) (at_v58_7 m ρ c) (at_v61_7 m ρ c) (at_v64_7 m ρ c) (at_v32_7 m ρ c)))
theorem at_v65_9 : W9 m ρ c (Proc.devRef .tc main_v65) = k_v65 (argsOf m c) := (StableHlo.after_below 93 hostOps4 (W8 m ρ c) ho4_w main_v65 (by decide)).trans (at_v65_8 m ρ c)
theorem at_v65_10 : W10 m ρ c (Proc.devRef .tc main_v65) = k_v65 (argsOf m c) := ((W10_arr m ρ c 0).trans (((dat4 (V9 m ρ) c).arrAt_in 0 rfl _).trans (A_eq4 (V9 m ρ) c 0))).trans (at_v65_9 m ρ c)
theorem at_v65_11 : W11 m ρ c (Proc.devRef .tc main_v65) = k_v65 (argsOf m c) := (StableHlo.after_below 96 hostOps5 (W10 m ρ c) ho5_w main_v65 (by decide)).trans (at_v65_10 m ρ c)
theorem at_v65_12 : W12 m ρ c (Proc.devRef .tc main_v65) = k_v65 (argsOf m c) := (W12_of_ne m ρ c main_v65 (by decide)).trans (at_v65_11 m ρ c)
theorem at_v65_13 : W13 m ρ c (Proc.devRef .tc main_v65) = k_v65 (argsOf m c) := (StableHlo.after_below 118 hostOps6 (W12 m ρ c) ho6_w main_v65 (by decide)).trans (at_v65_12 m ρ c)

theorem at_v67_9 : W9 m ρ c (Proc.devRef .tc main_v67) = k_v67 (argsOf m c) :=
  (rd_v67 (F := Ideal) m ρ c).trans (congrArg (kf_v67 (F := Ideal)) (at_arg5_8 m ρ c))

theorem at_v68_10 : W10 m ρ c (Proc.devRef .tc main_v68) = k_v68 (argsOf m c) :=
  (W10_arr m ρ c 2).trans ((RegVal.val4 (V9 m ρ) c).trans (congr_mm (at_v65_9 m ρ c) (at_v67_9 m ρ c)))

theorem at_v81_11 : W11 m ρ c (Proc.devRef .tc main_v81) = k_v81 (argsOf m c) :=
  (rd_v81 (F := Ideal) m ρ c).trans (congr4 (kf_v48 (F := Ideal)) (at_v29_10 m ρ c) (at_v68_10 m ρ c) (at_v28_10 m ρ c) (at_v30_10 m ρ c))

theorem at_v84_11 : W11 m ρ c (Proc.devRef .tc main_v84) = k_v84 (argsOf m c) :=
  (rd_v84 (F := Ideal) m ρ c).trans (congrArg (kf_v84 (F := Ideal)) (at_arg6_10 m ρ c))

theorem at_v85_0_12 : W12 m ρ c (Proc.devRef .tc main_v85_0) = k_v85_0 (argsOf m c) :=
  (W12_arr m ρ c 2).trans ((RegVal.val5_full (V11 m ρ) c).trans (congr_addRow (at_v81_11 m ρ c) (at_v84_11 m ρ c)))
theorem at_v85_0_13 : W13 m ρ c (Proc.devRef .tc main_v85_0) = k_v85_0 (argsOf m c) := (StableHlo.after_below 118 hostOps6 (W12 m ρ c) ho6_w main_v85_0 (by decide)).trans (at_v85_0_12 m ρ c)

theorem at_v85_1_12 : W12 m ρ c (Proc.devRef .tc main_v85_1) = k_v85_1 (argsOf m c) :=
  (W12_arr m ρ c 3).trans ((RegVal.val5_sum (V11 m ρ) c).trans (congrArg colSums (congr_addRow (at_v81_11 m ρ c) (at_v84_11 m ρ c))))

theorem at_v85_2_12 : W12 m ρ c (Proc.devRef .tc main_v85_2) = k_v85_2 (argsOf m c) :=
  (W12_arr m ρ c 4).trans ((RegVal.val5_sumsq (V11 m ρ) c).trans (congrArg colSumSqs (congr_addRow (at_v81_11 m ρ c) (at_v84_11 m ρ c))))

theorem at_v87_13 : W13 m ρ c (Proc.devRef .tc main_v87) = k_v87 (argsOf m c) :=
  (rd_v87 (F := Ideal) m ρ c).trans (congrArg (kf_v54 (F := Ideal)) (at_v85_1_12 m ρ c))

theorem at_v91_13 : W13 m ρ c (Proc.devRef .tc main_v91) = k_v91 (argsOf m c) :=
  (rd_v91 (F := Ideal) m ρ c).trans (congr2 (kf_v58 (F := Ideal)) (at_v85_2_12 m ρ c) (at_v87_13 m ρ c))

theorem at_v94_13 : W13 m ρ c (Proc.devRef .tc main_v94) = k_v94 (argsOf m c) :=
  (rd_v94 (F := Ideal) m ρ c).trans (congrArg (kf_v84 (F := Ideal)) (at_arg7_12 m ρ c))

theorem at_v97_13 : W13 m ρ c (Proc.devRef .tc main_v97) = k_v97 (argsOf m c) :=
  (rd_v97 (F := Ideal) m ρ c).trans (congrArg (kf_v84 (F := Ideal)) (at_arg8_12 m ρ c))

theorem at_v98_14 : W14 m ρ c (Proc.devRef .tc main_v98) = k_v98 (argsOf m c) :=
  (W14_arr m ρ c 6).trans ((RegVal.val6 (V13 m ρ) c).trans (congr_bnNorm (at_v85_0_13 m ρ c) (at_v87_13 m ρ c) (at_v91_13 m ρ c) (at_v94_13 m ρ c) (at_v97_13 m ρ c) (at_v65_13 m ρ c)))
theorem at_v98_15 : W15 m ρ c (Proc.devRef .tc main_v98) = k_v98 (argsOf m c) := (StableHlo.after_below 133 hostOps7 (W14 m ρ c) ho7_w main_v98 (by decide)).trans (at_v98_14 m ρ c)
theorem at_v98_16 : W16 m ρ c (Proc.devRef .tc main_v98) = k_v98 (argsOf m c) := ((W16_arr m ρ c 0).trans (((dat7 (V15 m ρ) c).arrAt_in 0 rfl _).trans (A_eq7 (V15 m ρ) c 0))).trans (at_v98_15 m ρ c)
theorem at_v98_17 : W17 m ρ c (Proc.devRef .tc main_v98) = k_v98 (argsOf m c) := (StableHlo.after_below 136 hostOps8 (W16 m ρ c) ho8_w main_v98 (by decide)).trans (at_v98_16 m ρ c)
theorem at_v98_18 : W18 m ρ c (Proc.devRef .tc main_v98) = k_v98 (argsOf m c) := (W18_of_ne m ρ c main_v98 (by decide)).trans (at_v98_17 m ρ c)
theorem at_v98_19 : W19 m ρ c (Proc.devRef .tc main_v98) = k_v98 (argsOf m c) := (StableHlo.after_below 158 hostOps9 (W18 m ρ c) ho9_w main_v98 (by decide)).trans (at_v98_18 m ρ c)

theorem at_v100_15 : W15 m ρ c (Proc.devRef .tc main_v100) = k_v100 (argsOf m c) :=
  (rd_v100 (F := Ideal) m ρ c).trans (congrArg (kf_v100 (F := Ideal)) (at_arg5_14 m ρ c))

theorem at_v101_16 : W16 m ρ c (Proc.devRef .tc main_v101) = k_v101 (argsOf m c) :=
  (W16_arr m ρ c 2).trans ((RegVal.val7 (V15 m ρ) c).trans (congr_mm (at_v98_15 m ρ c) (at_v100_15 m ρ c)))

theorem at_v114_17 : W17 m ρ c (Proc.devRef .tc main_v114) = k_v114 (argsOf m c) :=
  (rd_v114 (F := Ideal) m ρ c).trans (congr4 (kf_v48 (F := Ideal)) (at_v29_16 m ρ c) (at_v101_16 m ρ c) (at_v28_16 m ρ c) (at_v30_16 m ρ c))

theorem at_v117_17 : W17 m ρ c (Proc.devRef .tc main_v117) = k_v117 (argsOf m c) :=
  (rd_v117 (F := Ideal) m ρ c).trans (congrArg (kf_v117 (F := Ideal)) (at_arg6_16 m ρ c))

theorem at_v118_0_18 : W18 m ρ c (Proc.devRef .tc main_v118_0) = k_v118_0 (argsOf m c) :=
  (W18_arr m ρ c 2).trans ((RegVal.val8_full (V17 m ρ) c).trans (congr_addRow (at_v114_17 m ρ c) (at_v117_17 m ρ c)))
theorem at_v118_0_19 : W19 m ρ c (Proc.devRef .tc main_v118_0) = k_v118_0 (argsOf m c) := (StableHlo.after_below 158 hostOps9 (W18 m ρ c) ho9_w main_v118_0 (by decide)).trans (at_v118_0_18 m ρ c)

theorem at_v118_1_18 : W18 m ρ c (Proc.devRef .tc main_v118_1) = k_v118_1 (argsOf m c) :=
  (W18_arr m ρ c 3).trans ((RegVal.val8_sum (V17 m ρ) c).trans (congrArg colSums (congr_addRow (at_v114_17 m ρ c) (at_v117_17 m ρ c))))

theorem at_v118_2_18 : W18 m ρ c (Proc.devRef .tc main_v118_2) = k_v118_2 (argsOf m c) :=
  (W18_arr m ρ c 4).trans ((RegVal.val8_sumsq (V17 m ρ) c).trans (congrArg colSumSqs (congr_addRow (at_v114_17 m ρ c) (at_v117_17 m ρ c))))

theorem at_v120_19 : W19 m ρ c (Proc.devRef .tc main_v120) = k_v120 (argsOf m c) :=
  (rd_v120 (F := Ideal) m ρ c).trans (congrArg (kf_v54 (F := Ideal)) (at_v118_1_18 m ρ c))

theorem at_v124_19 : W19 m ρ c (Proc.devRef .tc main_v124) = k_v124 (argsOf m c) :=
  (rd_v124 (F := Ideal) m ρ c).trans (congr2 (kf_v58 (F := Ideal)) (at_v118_2_18 m ρ c) (at_v120_19 m ρ c))

theorem at_v127_19 : W19 m ρ c (Proc.devRef .tc main_v127) = k_v127 (argsOf m c) :=
  (rd_v127 (F := Ideal) m ρ c).trans (congrArg (kf_v117 (F := Ideal)) (at_arg7_18 m ρ c))

theorem at_v130_19 : W19 m ρ c (Proc.devRef .tc main_v130) = k_v130 (argsOf m c) :=
  (rd_v130 (F := Ideal) m ρ c).trans (congrArg (kf_v117 (F := Ideal)) (at_arg8_18 m ρ c))

theorem at_v131_20 : W20 m ρ c (Proc.devRef .tc main_v131) = k_v131 (argsOf m c) :=
  (W20_arr m ρ c 6).trans ((RegVal.val9 (V19 m ρ) c).trans (congr_bnNorm (at_v118_0_19 m ρ c) (at_v120_19 m ρ c) (at_v124_19 m ρ c) (at_v127_19 m ρ c) (at_v130_19 m ρ c) (at_v98_19 m ρ c)))
theorem at_v131_21 : W21 m ρ c (Proc.devRef .tc main_v131) = k_v131 (argsOf m c) := (StableHlo.after_below 173 hostOps10 (W20 m ρ c) ho10_w main_v131 (by decide)).trans (at_v131_20 m ρ c)
theorem at_v131_22 : W22 m ρ c (Proc.devRef .tc main_v131) = k_v131 (argsOf m c) := ((W22_arr m ρ c 0).trans (((dat10 (V21 m ρ) c).arrAt_in 0 rfl _).trans (A_eq10 (V21 m ρ) c 0))).trans (at_v131_21 m ρ c)
theorem at_v131_23 : W23 m ρ c (Proc.devRef .tc main_v131) = k_v131 (argsOf m c) := (StableHlo.after_below 176 hostOps11 (W22 m ρ c) ho11_w main_v131 (by decide)).trans (at_v131_22 m ρ c)
theorem at_v131_24 : W24 m ρ c (Proc.devRef .tc main_v131) = k_v131 (argsOf m c) := (W24_of_ne m ρ c main_v131 (by decide)).trans (at_v131_23 m ρ c)
theorem at_v131_25 : W25 m ρ c (Proc.devRef .tc main_v131) = k_v131 (argsOf m c) := (StableHlo.after_below 198 hostOps12 (W24 m ρ c) ho12_w main_v131 (by decide)).trans (at_v131_24 m ρ c)

theorem at_v133_21 : W21 m ρ c (Proc.devRef .tc main_v133) = k_v133 (argsOf m c) :=
  (rd_v133 (F := Ideal) m ρ c).trans (congrArg (kf_v133 (F := Ideal)) (at_arg5_20 m ρ c))

theorem at_v134_22 : W22 m ρ c (Proc.devRef .tc main_v134) = k_v134 (argsOf m c) :=
  (W22_arr m ρ c 2).trans ((RegVal.val10 (V21 m ρ) c).trans (congr_mm (at_v131_21 m ρ c) (at_v133_21 m ρ c)))

theorem at_v147_23 : W23 m ρ c (Proc.devRef .tc main_v147) = k_v147 (argsOf m c) :=
  (rd_v147 (F := Ideal) m ρ c).trans (congr4 (kf_v48 (F := Ideal)) (at_v29_22 m ρ c) (at_v134_22 m ρ c) (at_v28_22 m ρ c) (at_v30_22 m ρ c))

theorem at_v150_23 : W23 m ρ c (Proc.devRef .tc main_v150) = k_v150 (argsOf m c) :=
  (rd_v150 (F := Ideal) m ρ c).trans (congrArg (kf_v150 (F := Ideal)) (at_arg6_22 m ρ c))

theorem at_v151_0_24 : W24 m ρ c (Proc.devRef .tc main_v151_0) = k_v151_0 (argsOf m c) :=
  (W24_arr m ρ c 2).trans ((RegVal.val11_full (V23 m ρ) c).trans (congr_addRow (at_v147_23 m ρ c) (at_v150_23 m ρ c)))
theorem at_v151_0_25 : W25 m ρ c (Proc.devRef .tc main_v151_0) = k_v151_0 (argsOf m c) := (StableHlo.after_below 198 hostOps12 (W24 m ρ c) ho12_w main_v151_0 (by decide)).trans (at_v151_0_24 m ρ c)

theorem at_v151_1_24 : W24 m ρ c (Proc.devRef .tc main_v151_1) = k_v151_1 (argsOf m c) :=
  (W24_arr m ρ c 3).trans ((RegVal.val11_sum (V23 m ρ) c).trans (congrArg colSums (congr_addRow (at_v147_23 m ρ c) (at_v150_23 m ρ c))))

theorem at_v151_2_24 : W24 m ρ c (Proc.devRef .tc main_v151_2) = k_v151_2 (argsOf m c) :=
  (W24_arr m ρ c 4).trans ((RegVal.val11_sumsq (V23 m ρ) c).trans (congrArg colSumSqs (congr_addRow (at_v147_23 m ρ c) (at_v150_23 m ρ c))))

theorem at_v153_25 : W25 m ρ c (Proc.devRef .tc main_v153) = k_v153 (argsOf m c) :=
  (rd_v153 (F := Ideal) m ρ c).trans (congrArg (kf_v54 (F := Ideal)) (at_v151_1_24 m ρ c))

theorem at_v157_25 : W25 m ρ c (Proc.devRef .tc main_v157) = k_v157 (argsOf m c) :=
  (rd_v157 (F := Ideal) m ρ c).trans (congr2 (kf_v58 (F := Ideal)) (at_v151_2_24 m ρ c) (at_v153_25 m ρ c))

theorem at_v160_25 : W25 m ρ c (Proc.devRef .tc main_v160) = k_v160 (argsOf m c) :=
  (rd_v160 (F := Ideal) m ρ c).trans (congrArg (kf_v150 (F := Ideal)) (at_arg7_24 m ρ c))

theorem at_v163_25 : W25 m ρ c (Proc.devRef .tc main_v163) = k_v163 (argsOf m c) :=
  (rd_v163 (F := Ideal) m ρ c).trans (congrArg (kf_v150 (F := Ideal)) (at_arg8_24 m ρ c))

theorem at_v164_26 : W26 m ρ c (Proc.devRef .tc main_v164) = k_v164 (argsOf m c) :=
  (W26_arr m ρ c 6).trans ((RegVal.val12 (V25 m ρ) c).trans (congr_bnNorm (at_v151_0_25 m ρ c) (at_v153_25 m ρ c) (at_v157_25 m ρ c) (at_v160_25 m ρ c) (at_v163_25 m ρ c) (at_v131_25 m ρ c)))

theorem at_v176_27 : W27 m ρ c (Proc.devRef .tc main_v176) = k_v176 (argsOf m c) :=
  (rd_v176 (F := Ideal) m ρ c).trans (congr2 (kf_v176 (F := Ideal)) (at_arg2_26 m ρ c) (at_v164_26 m ρ c))

theorem at_v177_27 : W27 m ρ c (Proc.devRef .tc main_v177) = k_v177 (argsOf m c) :=
  (rd_v177 (F := Ideal) m ρ c).trans (congrArg (kf_v177 (F := Ideal)) (at_arg10_26 m ρ c))

theorem at_v178_27 : W27 m ρ c (Proc.devRef .tc main_v178) = k_v178 (argsOf m c) :=
  (rd_v178 (F := Ideal) m ρ c).trans (congrArg (kf_v178 (F := Ideal)) (at_arg12_26 m ρ c))

theorem at_v179_28 : W28 m ρ c (Proc.devRef .tc main_v179) = k_v179 (argsOf m c) :=
  (W28_arr m ρ c 5).trans ((RegVal.val13 (V27 m ρ) c).trans (congr_readout (at_v176_27 m ρ c) (at_arg9_27 m ρ c) (at_v177_27 m ρ c) (at_arg11_27 m ρ c) (at_v178_27 m ρ c)))

/-- The result buffer after the run, as a function of the launch contents of the arguments. -/
theorem result : W28 m ρ c (Proc.devRef .tc main_v179) = k_v179 (argsOf m c) := at_v179_28 m ρ c

end Cert.KernelIdeal.KVal

end
-- ==== Proof.BrSEdge.lean ====
/-
  The edge-table stretch of the two programs is one computation.

  Both programs cut the edge table into its row of sources and its row of targets, count the in-degree of every node by
  adding a one per edge at its target, take dinv = rsqrt (1 + in-degree), form per edge the coefficient
  dinv[source] · dinv[target] (an index read by a gather being wrapped first: a negative one has 100000 added) and per node
  the self-loop weight dinv², and stretch both over the 64 columns. The two texts apply the same operations to the same
  operands; they differ only in which program's dimension records and side conditions they cite, and two records with
  the same dimension lists are equal.
-/
import proofs.«109724_j81406810128840_1_alg».proof.Proof.KChainDefs
import proofs.«109724_j81406810128840_1_alg».proof.Proof.RefDefs
import proofs.«109724_j81406810128840_1_alg».proof.Proof.Gen.ReferenceIdeal
import Idealize.ShloMosaic.PureOps.Ideal.Laws

noncomputable section

namespace Cert.Bridge

open Idealize.ShloMosaic
open Cert.ReferenceIdeal Cert.ReferenceIdeal.Facts₀ Cert.ReferenceIdeal.Facts Cert.ReferenceIdeal.RefRun
open Cert.KernelIdeal.KChain

/-! ## The dimension records of the two programs -/

theorem rec_scatter_deg :
    Cert.KernelIdeal.scatter_S100000_S1600000x1_S1600000_n_0_0_1 = Cert.ReferenceIdeal.scatter_S100000_S1600000x1_S1600000_n_0_0_1 := rfl

theorem rec_gather_node :
    Cert.KernelIdeal.gather_S100000_S1600000x1_S1600000_n_0_n_n_0_1_1 = Cert.ReferenceIdeal.gather_S100000_S1600000x1_S1600000_n_0_n_n_0_1_1 := rfl

/-! ## The rows of the edge table -/

/-- The sources: row 0 of the edge table. -/
theorem src_eq (a1 : IVec S2x1600000 32) : kf_v1 (F := Ideal) a1 = res_src a1 := rfl

/-- The targets: row 1 of the edge table. -/
theorem dst_eq (a1 : IVec S2x1600000 32) : kf_v3 (F := Ideal) a1 = res_dst a1 := rfl

/-! ## The degree normalisation -/

/-- dinv = rsqrt (1 + in-degree), the in-degree counted at the targets. -/
theorem dinv_eq (a1 : IVec S2x1600000 32) : kf_v10 (F := Ideal) (res_dst a1) = res_dinv (F := Ideal) a1 := by
  unfold kf_v10 res_dinv res_dstCol
  rw [rec_scatter_deg]

/-- The per-edge coefficient dinv[source] · dinv[target], as the product of the two gathers of the reference's text. -/
theorem coef_edges_eq (a1 : IVec S2x1600000 32) :
    kf_v27 (F := Ideal) (res_dinv (F := Ideal) a1) (res_src a1) (res_dst a1)
      = mulf (Host.gather gather_S100000_S1600000x1_S1600000_n_0_n_n_0_1_1 (res_dinv (F := Ideal) a1) (res_srcIdx a1))
          (Host.gather gather_S100000_S1600000x1_S1600000_n_0_n_n_0_1_1 (res_dinv (F := Ideal) a1) (res_dstIdx a1)) := by
  unfold kf_v27 res_srcIdx res_dstIdx
  rw [rec_gather_node]

/-- The per-edge coefficient stretched over the 64 columns. -/
theorem coef_eq (a1 : IVec S2x1600000 32) :
    broadcastInDim S1600000x64 ![0, 1] bcast_S1600000x1_S1600000x64_0_1
        (broadcastInDim S1600000x1 ![0] bcast_S1600000_S1600000x1_0 (kf_v27 (F := Ideal) (res_dinv (F := Ideal) a1) (res_src a1) (res_dst a1)))
      = res_coef (F := Ideal) a1 := by
  rw [coef_edges_eq]
  rfl

/-- The self-loop weight dinv², stretched over the 64 columns. -/
theorem self_eq (a1 : IVec S2x1600000 32) :
    broadcastInDim S100000x64 ![0, 1] bcast_S100000x1_S100000x64_0_1
        (broadcastInDim S100000x1 ![0] bcast_S100000_S100000x1_0 (kf_v11 (F := Ideal) (res_dinv (F := Ideal) a1)))
      = res_self (F := Ideal) a1 := rfl

end Cert.Bridge

end
-- ==== Proof.BrSDense.lean ====
/-
  The dense stages of the two programs are one computation.

  The node embedding is the product x · w_embed with the bias b_embed added to every row; every layer multiplies the
  nodes by the layer's 64 × 64 slice of the stacked weights and adds the layer's row of a stacked [4, 64] parameter to
  every row. One text keeps a bias as a [1, 64] row and adds that row; the other broadcasts the bias vector twice,
  [64] to [1, 64] to [100000, 64], and adds the result. Both are the same array: a host dot product of an [M, K] by a
  [K, N] operand is the matrix product, and the twice-broadcast vector added is the row added to every row.
-/
import proofs.«109724_j81406810128840_1_alg».proof.Proof.KChainDefs
import proofs.«109724_j81406810128840_1_alg».proof.Proof.RefDefs
import proofs.«109724_j81406810128840_1_alg».proof.Proof.Gen.ReferenceIdeal
import proofs.«109724_j81406810128840_1_alg».proof.Proof.LibPlainDense

noncomputable section

namespace Cert.Bridge

open Idealize.ShloMosaic
open Cert.ReferenceIdeal Cert.ReferenceIdeal.Facts₀ Cert.ReferenceIdeal.Facts Cert.ReferenceIdeal.RefRun
open Cert.KernelIdeal.KChain

/-! ## The reference's product records are the plain ones -/

theorem rec_dot_embed : dot_S100000x32_S32x64_S100000x64_1_0_0_1_n_n = DotDims.plain 100000 32 64 := rfl
theorem rec_dot_layer : dot_S100000x64_S64x64_S100000x64_1_0_0_1_n_n = DotDims.plain 100000 64 64 := rfl

/-- The axis maps of the two broadcasts of a bias vector. -/
theorem bias_axis_row : (![1] : Fin 1 → Fin 2) 0 = 1 := rfl
theorem bias_axis_all : ∀ a : Fin 2, (![0, 1] : Fin 2 → Fin 2) a = a := fun a => by fin_cases a <;> rfl

/-! ## The node embedding -/

/-- x · w_embed with b_embed added to every row. -/
theorem h0_eq (a0 : FVec Ideal S100000x32 .f32) (a3 : FVec Ideal S32x64 .f32) (a4 : FVec Ideal S64 .f32) :
    Cert.Gcn.addRow (Cert.Gcn.mm a0 a3) (kf_v31 (F := Ideal) a4) = res_h0 (F := Ideal) a0 a3 a4 := by
  unfold res_h0 kf_v31
  rw [rec_dot_embed, Cert.Gcn.dotGeneral_eq_mm]
  exact (Cert.Gcn.host_plain a4 ![1] bias_axis_row bcast_S64_S1x64_1 ![0, 1] bias_axis_all bcast_S1x64_S100000x64_0_1
    Cert.KernelIdeal.Facts₀.shapeCasts_S64_S1x64 (Cert.Gcn.mm a0 a3)).symm

/-! ## A layer's weights -/

/-- Layer 0: the nodes times the layer's slice of the stacked weights. -/
theorem hw0_eq (h : FVec Ideal S100000x64 .f32) (a5 : FVec Ideal S4x64x64 .f32) :
    Cert.Gcn.mm h (kf_v34 (F := Ideal) a5) = lay_hw (F := Ideal) h (res_W_0 a5) := by
  unfold lay_hw
  rw [rec_dot_layer, Cert.Gcn.dotGeneral_eq_mm]
  rfl

/-- Layer 1: the nodes times the layer's slice of the stacked weights. -/
theorem hw1_eq (h : FVec Ideal S100000x64 .f32) (a5 : FVec Ideal S4x64x64 .f32) :
    Cert.Gcn.mm h (kf_v67 (F := Ideal) a5) = lay_hw (F := Ideal) h (res_W_1 a5) := by
  unfold lay_hw
  rw [rec_dot_layer, Cert.Gcn.dotGeneral_eq_mm]
  rfl

/-- Layer 2: the nodes times the layer's slice of the stacked weights. -/
theorem hw2_eq (h : FVec Ideal S100000x64 .f32) (a5 : FVec Ideal S4x64x64 .f32) :
    Cert.Gcn.mm h (kf_v100 (F := Ideal) a5) = lay_hw (F := Ideal) h (res_W_2 a5) := by
  unfold lay_hw
  rw [rec_dot_layer, Cert.Gcn.dotGeneral_eq_mm]
  rfl

/-- Layer 3: the nodes times the layer's slice of the stacked weights. -/
theorem hw3_eq (h : FVec Ideal S100000x64 .f32) (a5 : FVec Ideal S4x64x64 .f32) :
    Cert.Gcn.mm h (kf_v133 (F := Ideal) a5) = lay_hw (F := Ideal) h (res_W_3 a5) := by
  unfold lay_hw
  rw [rec_dot_layer, Cert.Gcn.dotGeneral_eq_mm]
  rfl

/-! ## A layer's row of a stacked [4, 64] parameter -/

/-- Row 0 of the stack, laid out as a [1, 64] row. -/
theorem row0_eq (a : FVec Ideal S4x64 .f32) :
    kf_v51 (F := Ideal) a = shapeCast S1x64 (res_row_0 (F := Ideal) a) Cert.KernelIdeal.Facts₀.shapeCasts_S64_S1x64 := rfl

/-- Row 0 of the stack added to every row of an array: the reference's two broadcasts and its addition. -/
theorem addRow0_eq (X : FVec Ideal S100000x64 .f32) (a : FVec Ideal S4x64 .f32) :
    Cert.Gcn.addRow X (kf_v51 (F := Ideal) a)
      = addf X (broadcastInDim S100000x64 ![0, 1] bcast_S1x64_S100000x64_0_1 (broadcastInDim S1x64 ![1] bcast_S64_S1x64_1 (res_row_0 (F := Ideal) a))) := by
  rw [row0_eq]
  exact (Cert.Gcn.host_plain (res_row_0 (F := Ideal) a) ![1] bias_axis_row bcast_S64_S1x64_1 ![0, 1] bias_axis_all bcast_S1x64_S100000x64_0_1
    Cert.KernelIdeal.Facts₀.shapeCasts_S64_S1x64 X).symm

/-- Row 1 of the stack, laid out as a [1, 64] row. -/
theorem row1_eq (a : FVec Ideal S4x64 .f32) :
    kf_v84 (F := Ideal) a = shapeCast S1x64 (res_row_1 (F := Ideal) a) Cert.KernelIdeal.Facts₀.shapeCasts_S64_S1x64 := rfl

/-- Row 1 of the stack added to every row of an array: the reference's two broadcasts and its addition. -/
theorem addRow1_eq (X : FVec Ideal S100000x64 .f32) (a : FVec Ideal S4x64 .f32) :
    Cert.Gcn.addRow X (kf_v84 (F := Ideal) a)
      = addf X (broadcastInDim S100000x64 ![0, 1] bcast_S1x64_S100000x64_0_1 (broadcastInDim S1x64 ![1] bcast_S64_S1x64_1 (res_row_1 (F := Ideal) a))) := by
  rw [row1_eq]
  exact (Cert.Gcn.host_plain (res_row_1 (F := Ideal) a) ![1] bias_axis_row bcast_S64_S1x64_1 ![0, 1] bias_axis_all bcast_S1x64_S100000x64_0_1
    Cert.KernelIdeal.Facts₀.shapeCasts_S64_S1x64 X).symm

/-- Row 2 of the stack, laid out as a [1, 64] row. -/
theorem row2_eq (a : FVec Ideal S4x64 .f32) :
    kf_v117 (F := Ideal) a = shapeCast S1x64 (res_row_2 (F := Ideal) a) Cert.KernelIdeal.Facts₀.shapeCasts_S64_S1x64 := rfl

/-- Row 2 of the stack added to every row of an array: the reference's two broadcasts and its addition. -/
theorem addRow2_eq (X : FVec Ideal S100000x64 .f32) (a : FVec Ideal S4x64 .f32) :
    Cert.Gcn.addRow X (kf_v117 (F := Ideal) a)
      = addf X (broadcastInDim S100000x64 ![0, 1] bcast_S1x64_S100000x64_0_1 (broadcastInDim S1x64 ![1] bcast_S64_S1x64_1 (res_row_2 (F := Ideal) a))) := by
  rw [row2_eq]
  exact (Cert.Gcn.host_plain (res_row_2 (F := Ideal) a) ![1] bias_axis_row bcast_S64_S1x64_1 ![0, 1] bias_axis_all bcast_S1x64_S100000x64_0_1
    Cert.KernelIdeal.Facts₀.shapeCasts_S64_S1x64 X).symm

/-- Row 3 of the stack, laid out as a [1, 64] row. -/
theorem row3_eq (a : FVec Ideal S4x64 .f32) :
    kf_v150 (F := Ideal) a = shapeCast S1x64 (res_row_3 (F := Ideal) a) Cert.KernelIdeal.Facts₀.shapeCasts_S64_S1x64 := rfl

/-- Row 3 of the stack added to every row of an array: the reference's two broadcasts and its addition. -/
theorem addRow3_eq (X : FVec Ideal S100000x64 .f32) (a : FVec Ideal S4x64 .f32) :
    Cert.Gcn.addRow X (kf_v150 (F := Ideal) a)
      = addf X (broadcastInDim S100000x64 ![0, 1] bcast_S1x64_S100000x64_0_1 (broadcastInDim S1x64 ![1] bcast_S64_S1x64_1 (res_row_3 (F := Ideal) a))) := by
  rw [row3_eq]
  exact (Cert.Gcn.host_plain (res_row_3 (F := Ideal) a) ![1] bias_axis_row bcast_S64_S1x64_1 ![0, 1] bias_axis_all bcast_S1x64_S100000x64_0_1
    Cert.KernelIdeal.Facts₀.shapeCasts_S64_S1x64 X).symm

end Cert.Bridge

end
-- ==== Proof.BrSTail.lean ====
/-
  The pooling and the head of the two programs are one computation.

  The pooling sums, per graph, the rows of its nodes and divides by the larger of the graph's node count and one; both
  texts apply the same operations to the same operands and differ only in which program's dimension records they cite.
  The head is two dense layers: the pooled rows times w1 with b1 added to every row, clamped at zero, times w2 with b2
  added to every row. One text adds each bias as a row; the other broadcasts the bias vector twice and takes the maximum
  with a broadcast zero. A host dot product of an [M, K] by a [K, N] operand is the matrix product, the twice-broadcast
  vector added is the row added to every row, and the maximum with the zero word's value is the rectifier.
-/
import proofs.«109724_j81406810128840_1_alg».proof.Proof.KChainDefs
import proofs.«109724_j81406810128840_1_alg».proof.Proof.RefDefs
import proofs.«109724_j81406810128840_1_alg».proof.Proof.Gen.ReferenceIdeal
import proofs.«109724_j81406810128840_1_alg».proof.Proof.LibPlainDense

noncomputable section

namespace Cert.Bridge

open Idealize.ShloMosaic
open Cert.ReferenceIdeal Cert.ReferenceIdeal.Facts₀ Cert.ReferenceIdeal.Facts Cert.ReferenceIdeal.RefRun
open Cert.KernelIdeal.KChain

/-! ## The dimension records -/

theorem rec_scatter_pool_rows :
    Cert.KernelIdeal.scatter_S256x64_S100000x1_S100000x64_1_0_0_1 = Cert.ReferenceIdeal.scatter_S256x64_S100000x1_S100000x64_1_0_0_1 := rfl

theorem rec_scatter_pool_count :
    Cert.KernelIdeal.scatter_S256_S100000x1_S100000_n_0_0_1 = Cert.ReferenceIdeal.scatter_S256_S100000x1_S100000_n_0_0_1 := rfl

theorem rec_dot_head1 : dot_S256x64_S64x32_S256x32_1_0_0_1_n_n = DotDims.plain 256 64 32 := rfl
theorem rec_dot_head2 : dot_S256x32_S32x1_S256x1_1_0_0_1_n_n = DotDims.plain 256 32 1 := rfl

/-- The axis maps of the two broadcasts of a bias vector. -/
theorem head_axis_row : (![1] : Fin 1 → Fin 2) 0 = 1 := rfl
theorem head_axis_all : ∀ a : Fin 2, (![0, 1] : Fin 2 → Fin 2) a = a := fun a => by fin_cases a <;> rfl

/-! ## The pooling -/

/-- Per graph, the sum of its nodes' rows over the larger of its node count and one. -/
theorem pool_eq (a2 : IVec S100000 32) (h : FVec Ideal S100000x64 .f32) :
    kf_v176 (F := Ideal) a2 h = lay_pool (F := Ideal) a2 h := by
  unfold kf_v176 lay_pool
  rw [rec_scatter_pool_rows, rec_scatter_pool_count]

/-! ## The head -/

/-- The two dense layers of the head. -/
theorem head_eq (p : FVec Ideal S256x64 .f32) (a9 : FVec Ideal S64x32 .f32) (a10 : FVec Ideal S32 .f32)
    (a11 : FVec Ideal S32x1 .f32) (a12 : FVec Ideal S1 .f32) :
    Cert.Gcn.addRow (Cert.Gcn.mm (Cert.Gcn.relu (Cert.Gcn.addRow (Cert.Gcn.mm p a9) (kf_v177 (F := Ideal) a10))) a11) (kf_v178 (F := Ideal) a12)
      = lay_head (F := Ideal) p a9 a10 a11 a12 := by
  unfold lay_head kf_v177 kf_v178
  rw [rec_dot_head1, rec_dot_head2, Cert.Gcn.dotGeneral_eq_mm, Cert.Gcn.dotGeneral_eq_mm,
    Cert.Gcn.host_relu a10 ![1] head_axis_row bcast_S32_S1x32_1 ![0, 1] head_axis_all bcast_S1x32_S256x32_0_1
      Cert.KernelIdeal.Facts₀.shapeCasts_S32_S1x32 ![] bcast_S_S256x32 (Cert.Gcn.mm p a9)]
  exact (Cert.Gcn.host_plain a12 ![1] head_axis_row bcast_S1_S1x1_1 ![0, 1] head_axis_all bcast_S1x1_S256x1_0_1
    Cert.KernelIdeal.Facts₀.shapeCasts_S1_S1x1 _).symm

end Cert.Bridge

end
-- ==== Proof.KSpec.lean ====
/-
  Column sums of a matrix, kept as a one-row matrix: what a sum over the row axis that keeps its axis leaves.
-/
import Idealize.ShloMosaic.Lib.ValueIdx
import Idealize.ShloMosaic.PureOps.Ideal

noncomputable section

namespace Cert.KSpec

open Idealize.ShloMosaic Idealize.ShloMosaic.ValueIdx

/-- The sum of each column of an [M, N] matrix, as a [1, N] row. -/
def colSum {M N : ℕ} (a : (⟨2, ![M, N]⟩ : Shape).Idx → EReal) : (⟨2, ![1, N]⟩ : Shape).Idx → EReal :=
  fun i => ∑ r : Fin M, a (ix2 r (i 1))

/-- The sum of the squares of each column of an [M, N] matrix, as a [1, N] row. -/
def colSumSq {M N : ℕ} (a : (⟨2, ![M, N]⟩ : Shape).Idx → EReal) : (⟨2, ![1, N]⟩ : Shape).Idx → EReal :=
  fun i => ∑ r : Fin M, a (ix2 r (i 1)) * a (ix2 r (i 1))

end Cert.KSpec

end
-- ==== Proof.BrSLayer.lean ====
/-
  One layer of the network, in the two programs' spellings, is one function of the layer's input.

  Write hw for the nodes times the layer's weights. One program aggregates over the edge list with one self-loop per node
  appended and adds the layer's bias as a [1, 64] row; the other aggregates over the edges, adds the self-loop term
  hw · dinv² and the twice-broadcast bias vector. Granted that the two aggregations agree, both give the same array X.
  One program then normalises X by the mean and variance it computes from the column sums and column sums of squares
  of X, the other by the column mean and the mean squared deviation; granted that these two normalisations agree on
  an array of real entries, the layer's outputs agree, whatever the residual added at the end.
-/
import proofs.«109724_j81406810128840_1_alg».proof.Proof.KChainDefs
import proofs.«109724_j81406810128840_1_alg».proof.Proof.RefDefs
import proofs.«109724_j81406810128840_1_alg».proof.Proof.Gen.ReferenceIdeal
import proofs.«109724_j81406810128840_1_alg».proof.Proof.LibPlainDense
import proofs.«109724_j81406810128840_1_alg».proof.Proof.KSpec
import proofs.«109724_j81406810128840_1_alg».proof.Proof.RegASpec
import proofs.«109724_j81406810128840_1_alg».proof.Proof.RegRCore
import proofs.«109724_j81406810128840_1_alg».proof.Proof.LibReal
import proofs.«109724_j81406810128840_1_alg».proof.Proof.BrSDense

noncomputable section

namespace Cert.Bridge

open Idealize.ShloMosaic
open Cert.ReferenceIdeal Cert.ReferenceIdeal.Facts₀ Cert.ReferenceIdeal.Facts Cert.ReferenceIdeal.RefRun
open Cert.KernelIdeal.KChain Cert.KernelIdeal.RegVal Cert.LibReal

/-- The aggregation over the edge list with one self-loop per node appended, of any array hw of node rows: targets,
    sources and weights all taken from the edge table. -/
def aggK (a1 : IVec S2x1600000 32) (hw : FVec Ideal S100000x64 .f32) : FVec Ideal S100000x64 .f32 :=
  kf_v48 (F := Ideal) (kf_v28 (F := Ideal) (res_dst a1)) hw (kf_v28 (F := Ideal) (res_src a1))
    (kf_v30 (F := Ideal) (kf_v27 (F := Ideal) (res_dinv (F := Ideal) a1) (res_src a1) (res_dst a1)) (kf_v11 (F := Ideal) (res_dinv (F := Ideal) a1)))

/-- The two aggregations agree: over the extended edge list, and over the edges plus the self-loop term. -/
def AggLaw : Prop :=
  ∀ (a1 : IVec S2x1600000 32) (hw : FVec Ideal S100000x64 .f32),
    aggK a1 hw = addf (lay_agg (F := Ideal) a1 hw) (mulf hw (res_self (F := Ideal) a1))

/-- The two normalisations agree on an array of real entries. -/
def NormLaw : Prop :=
  ∀ (A R : FVec Ideal (⟨2, ![100000, 64]⟩ : Shape) .f32) (hA : ∀ i, IsReal (A i))
    (g b : FVec Ideal (⟨1, ![64]⟩ : Shape) .f32) (hc : (⟨1, ![64]⟩ : Shape).ShapeCasts ⟨2, ![1, 64]⟩),
    Cert.RegSpec.bnNorm A (kf_v54 (F := Ideal) (Cert.KSpec.colSum A))
        (kf_v58 (F := Ideal) (Cert.KSpec.colSumSq A) (kf_v54 (F := Ideal) (Cert.KSpec.colSum A)))
        (shapeCast (⟨2, ![1, 64]⟩ : Shape) g hc) (shapeCast (⟨2, ![1, 64]⟩ : Shape) b hc) R
      = lay_next (F := Ideal) A (lay_mean A) (lay_var A) g b R

/-- The two names of the column sums. -/
theorem colSums_eq (Y : (⟨2, ![100000, 64]⟩ : Shape).Idx → EReal) : colSums Y = Cert.KSpec.colSum Y := rfl

/-- The two names of the column sums of squares. -/
theorem colSumSqs_eq (Y : (⟨2, ![100000, 64]⟩ : Shape).Idx → EReal) : colSumSqs Y = Cert.KSpec.colSumSq Y := rfl

/-- The array both programs normalise: aggregation, self-loop term and bias. -/
theorem conv_eq (hagg : AggLaw) (a1 : IVec S2x1600000 32) (hw : FVec Ideal S100000x64 .f32) (cb : FVec Ideal S64 .f32)
    (hc : (⟨1, ![64]⟩ : Shape).ShapeCasts ⟨2, ![1, 64]⟩) :
    Cert.Gcn.addRow (aggK a1 hw) (shapeCast S1x64 cb hc) = lay_conv (F := Ideal) a1 hw (lay_agg (F := Ideal) a1 hw) cb := by
  rw [hagg a1 hw]
  unfold lay_conv
  exact (Cert.Gcn.host_plain cb ![1] bias_axis_row bcast_S64_S1x64_1 ![0, 1] bias_axis_all bcast_S1x64_S100000x64_0_1 hc
    (addf (lay_agg (F := Ideal) a1 hw) (mulf hw (res_self (F := Ideal) a1)))).symm

/-- One layer: from the nodes-times-weights array hw, the layer's three rows and the residual R, the two programs'
    outputs agree, provided the array they normalise has real entries. -/
theorem layer_core (hagg : AggLaw) (hnorm : NormLaw) (a1 : IVec S2x1600000 32) (hw R : FVec Ideal S100000x64 .f32)
    (r6 r7 r8 : FVec Ideal S64 .f32) (hc : (⟨1, ![64]⟩ : Shape).ShapeCasts ⟨2, ![1, 64]⟩)
    (hreal : ∀ i, IsReal (lay_conv (F := Ideal) a1 hw (lay_agg (F := Ideal) a1 hw) r6 i)) :
    Cert.RegSpec.bnNorm (M := 100000) (N := 64) (Cert.Gcn.addRow (M := 100000) (N := 64) (aggK a1 hw) (shapeCast S1x64 r6 hc))
        (kf_v54 (F := Ideal) (colSums (Cert.Gcn.addRow (M := 100000) (N := 64) (aggK a1 hw) (shapeCast S1x64 r6 hc))))
        (kf_v58 (F := Ideal) (colSumSqs (Cert.Gcn.addRow (M := 100000) (N := 64) (aggK a1 hw) (shapeCast S1x64 r6 hc)))
          (kf_v54 (F := Ideal) (colSums (Cert.Gcn.addRow (M := 100000) (N := 64) (aggK a1 hw) (shapeCast S1x64 r6 hc)))))
        (shapeCast S1x64 r7 hc) (shapeCast S1x64 r8 hc) R
      = lay_next (F := Ideal) (lay_conv (F := Ideal) a1 hw (lay_agg (F := Ideal) a1 hw) r6)
          (lay_mean (lay_conv (F := Ideal) a1 hw (lay_agg (F := Ideal) a1 hw) r6))
          (lay_var (lay_conv (F := Ideal) a1 hw (lay_agg (F := Ideal) a1 hw) r6)) r7 r8 R := by
  rw [conv_eq hagg a1 hw r6 hc]
  generalize lay_conv (F := Ideal) a1 hw (lay_agg (F := Ideal) a1 hw) r6 = X at hreal ⊢
  rw [colSums_eq, colSumSqs_eq]
  exact hnorm X R hreal r7 r8 hc

end Cert.Bridge

end
-- ==== Proof.BrSMain.lean ====
/-
  The two programs compute the same result.

  Following the buffers of one program in the order they are produced, each is the other program's named term of the
  same arguments: the rows of the edge table and the degree normalisation; the node embedding; then layer by layer the
  nodes times the layer's weights, the aggregation with self-loops and bias, and the normalised, rectified rows plus the
  layer's input; then the pooled rows and the two dense layers of the head. The aggregation's two spellings and the
  normalisation's two spellings are granted (the latter for an array of real entries), as are the facts that keep
  every layer's arrays real when the float arguments are: the node embedding, the array a layer normalises, a layer's
  output, and the slices of the stacked parameters.
-/
import proofs.«109724_j81406810128840_1_alg».proof.Proof.KChainDefs
import proofs.«109724_j81406810128840_1_alg».proof.Proof.RefDefs
import proofs.«109724_j81406810128840_1_alg».proof.Proof.Gen.ReferenceIdeal
import proofs.«109724_j81406810128840_1_alg».proof.Proof.KValDefs
import proofs.«109724_j81406810128840_1_alg».proof.Proof.BrSEdge
import proofs.«109724_j81406810128840_1_alg».proof.Proof.BrSDense
import proofs.«109724_j81406810128840_1_alg».proof.Proof.BrSTail
import proofs.«109724_j81406810128840_1_alg».proof.Proof.BrSLayer

noncomputable section

namespace Cert.Bridge

open Idealize.ShloMosaic
open Cert.ReferenceIdeal Cert.ReferenceIdeal.Facts₀ Cert.ReferenceIdeal.Facts Cert.ReferenceIdeal.RefRun
open Cert.KernelIdeal.KChain Cert.KernelIdeal.KVal Cert.KernelIdeal.RegVal Cert.LibReal

/-- The facts that keep the layers' arrays real. -/
structure RealFacts : Prop where
  /-- The node embedding of real arguments is real. -/
  embed : ∀ (a0 : FVec Ideal S100000x32 .f32) (a3 : FVec Ideal S32x64 .f32) (a4 : FVec Ideal S64 .f32),
    (∀ i, IsReal (a0 i)) → (∀ i, IsReal (a3 i)) → (∀ i, IsReal (a4 i)) → ∀ i, IsReal (res_h0 (F := Ideal) a0 a3 a4 i)
  /-- The array a layer normalises is real when the layer's input, weights and bias are. -/
  conv : ∀ (a1 : IVec S2x1600000 32) (h : FVec Ideal S100000x64 .f32) (W : FVec Ideal S64x64 .f32) (cb : FVec Ideal S64 .f32),
    (∀ i, IsReal (h i)) → (∀ i, IsReal (W i)) → (∀ i, IsReal (cb i)) →
      ∀ i, IsReal (lay_conv (F := Ideal) a1 (lay_hw (F := Ideal) h W) (lay_agg (F := Ideal) a1 (lay_hw (F := Ideal) h W)) cb i)
  /-- A layer's output is real when the normalised array, the scale, the shift and the layer's input are. -/
  next : ∀ (X : FVec Ideal S100000x64 .f32) (g b : FVec Ideal S64 .f32) (h : FVec Ideal S100000x64 .f32),
    (∀ i, IsReal (X i)) → (∀ i, IsReal (g i)) → (∀ i, IsReal (b i)) → (∀ i, IsReal (h i)) →
      ∀ i, IsReal (lay_next (F := Ideal) X (lay_mean X) (lay_var X) g b h i)
  /-- Layer 0's slice of a real stack of weights is real. -/
  W0 : ∀ (a5 : FVec Ideal S4x64x64 .f32), (∀ i, IsReal (a5 i)) → ∀ i, IsReal (res_W_0 (F := Ideal) a5 i)
  /-- Row 0 of a real [4, 64] stack is real. -/
  row0 : ∀ (a : FVec Ideal S4x64 .f32), (∀ i, IsReal (a i)) → ∀ i, IsReal (res_row_0 (F := Ideal) a i)
  /-- Layer 1's slice of a real stack of weights is real. -/
  W1 : ∀ (a5 : FVec Ideal S4x64x64 .f32), (∀ i, IsReal (a5 i)) → ∀ i, IsReal (res_W_1 (F := Ideal) a5 i)
  /-- Row 1 of a real [4, 64] stack is real. -/
  row1 : ∀ (a : FVec Ideal S4x64 .f32), (∀ i, IsReal (a i)) → ∀ i, IsReal (res_row_1 (F := Ideal) a i)
  /-- Layer 2's slice of a real stack of weights is real. -/
  W2 : ∀ (a5 : FVec Ideal S4x64x64 .f32), (∀ i, IsReal (a5 i)) → ∀ i, IsReal (res_W_2 (F := Ideal) a5 i)
  /-- Row 2 of a real [4, 64] stack is real. -/
  row2 : ∀ (a : FVec Ideal S4x64 .f32), (∀ i, IsReal (a i)) → ∀ i, IsReal (res_row_2 (F := Ideal) a i)
  /-- Layer 3's slice of a real stack of weights is real. -/
  W3 : ∀ (a5 : FVec Ideal S4x64x64 .f32), (∀ i, IsReal (a5 i)) → ∀ i, IsReal (res_W_3 (F := Ideal) a5 i)
  /-- Row 3 of a real [4, 64] stack is real. -/
  row3 : ∀ (a : FVec Ideal S4x64 .f32), (∀ i, IsReal (a i)) → ∀ i, IsReal (res_row_3 (F := Ideal) a i)

variable (hagg : AggLaw) (hnorm : NormLaw) (RF : RealFacts) (A : Args)

/-! ## The edge table -/

theorem k_src : k_v1 A = res_src A.a1 := src_eq A.a1
theorem k_dst : k_v3 A = res_dst A.a1 := dst_eq A.a1

theorem k_dinv : k_v10 A = res_dinv (F := Ideal) A.a1 := by
  unfold k_v10
  rw [k_dst]
  exact dinv_eq A.a1

/-- The aggregation buffers of one program are the aggregation over the extended edge list of the other's edge terms. -/
theorem k_agg (hw : FVec Ideal S100000x64 .f32) :
    kf_v48 (F := Ideal) (k_v29 A) hw (k_v28 A) (k_v30 A) = aggK A.a1 hw := by
  unfold k_v29 k_v28 k_v30 k_v27 k_v11 aggK
  rw [k_src, k_dst, k_dinv]

/-! ## The node embedding -/

theorem k_embed : k_v32 A = res_h0 (F := Ideal) A.a0 A.a3 A.a4 := by
  unfold k_v32 k_v31
  exact h0_eq A.a0 A.a3 A.a4

include RF in
theorem real_embed (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i)) :
    ∀ i, IsReal (res_h0 (F := Ideal) A.a0 A.a3 A.a4 i) := RF.embed A.a0 A.a3 A.a4 h0 h3 h4

/-! ## The four layers -/

include RF in
/-- Layer 0: the array it normalises is real. -/
theorem real_conv_0 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h0 (F := Ideal) A.a0 A.a3 A.a4 i)) :
    ∀ i, IsReal (res_conv_0 (F := Ideal) A.a0 A.a1 A.a3 A.a4 A.a5 A.a6 A.a7 A.a8 i) := by
  unfold res_conv_0 res_agg_0 res_hw_0
  exact RF.conv A.a1 (res_h0 (F := Ideal) A.a0 A.a3 A.a4) (res_W_0 (F := Ideal) A.a5) (res_row_0 (F := Ideal) A.a6) hin (RF.W0 A.a5 h5) (RF.row0 A.a6 h6)

include RF in
/-- Layer 0: its output is real. -/
theorem real_h_1 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h0 (F := Ideal) A.a0 A.a3 A.a4 i)) :
    ∀ i, IsReal (res_h_1 (F := Ideal) A.a0 A.a1 A.a3 A.a4 A.a5 A.a6 A.a7 A.a8 i) := by
  unfold res_h_1 res_mean_0 res_var_0
  exact RF.next (res_conv_0 (F := Ideal) A.a0 A.a1 A.a3 A.a4 A.a5 A.a6 A.a7 A.a8) (res_row_0 (F := Ideal) A.a7) (res_row_0 (F := Ideal) A.a8) (res_h0 (F := Ideal) A.a0 A.a3 A.a4)
    (real_conv_0 RF A h0 h3 h4 h5 h6 h7 h8 hin) (RF.row0 A.a7 h7) (RF.row0 A.a8 h8) hin

include hagg hnorm in
/-- Layer 0: the two programs' outputs agree when their inputs do and the array the layer normalises is real. -/
theorem k_layer_0 (hin : k_v32 A = res_h0 (F := Ideal) A.a0 A.a3 A.a4)
    (hreal : ∀ i, IsReal (res_conv_0 (F := Ideal) A.a0 A.a1 A.a3 A.a4 A.a5 A.a6 A.a7 A.a8 i)) :
    k_v65 A = res_h_1 (F := Ideal) A.a0 A.a1 A.a3 A.a4 A.a5 A.a6 A.a7 A.a8 := by
  unfold k_v65 k_v58 k_v54 k_v52_0 k_v52_1 k_v52_2 k_v61 k_v64 k_v48 k_v51 k_v35 k_v34
  unfold res_h_1 res_mean_0 res_var_0
  unfold res_conv_0 res_agg_0 res_hw_0 at hreal ⊢
  rw [k_agg, hin, hw0_eq, row0_eq, row0_eq, row0_eq]
  exact layer_core hagg hnorm A.a1 (lay_hw (F := Ideal) (res_h0 (F := Ideal) A.a0 A.a3 A.a4) (res_W_0 (F := Ideal) A.a5)) (res_h0 (F := Ideal) A.a0 A.a3 A.a4)
    (res_row_0 (F := Ideal) A.a6) (res_row_0 (F := Ideal) A.a7) (res_row_0 (F := Ideal) A.a8) Cert.KernelIdeal.Facts₀.shapeCasts_S64_S1x64 hreal

include RF in
/-- Layer 1: the array it normalises is real. -/
theorem real_conv_1 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_1 (F := Ideal) A.a0 A.a1 A.a3 A.a4 A.a5 A.a6 A.a7 A.a8 i)) :
    ∀ i, IsReal (res_conv_1 (F := Ideal) A.a0 A.a1 A.a3 A.a4 A.a5 A.a6 A.a7 A.a8 i) := by
  unfold res_conv_1 res_agg_1 res_hw_1
  exact RF.conv A.a1 (res_h_1 (F := Ideal) A.a0 A.a1 A.a3 A.a4 A.a5 A.a6 A.a7 A.a8) (res_W_1 (F := Ideal) A.a5) (res_row_1 (F := Ideal) A.a6) hin (RF.W1 A.a5 h5) (RF.row1 A.a6 h6)

include RF in
/-- Layer 1: its output is real. -/
theorem real_h_2 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_1 (F := Ideal) A.a0 A.a1 A.a3 A.a4 A.a5 A.a6 A.a7 A.a8 i)) :
    ∀ i, IsReal (res_h_2 (F := Ideal) A.a0 A.a1 A.a3 A.a4 A.a5 A.a6 A.a7 A.a8 i) := by
  unfold res_h_2 res_mean_1 res_var_1
  exact RF.next (res_conv_1 (F := Ideal) A.a0 A.a1 A.a3 A.a4 A.a5 A.a6 A.a7 A.a8) (res_row_1 (F := Ideal) A.a7) (res_row_1 (F := Ideal) A.a8) (res_h_1 (F := Ideal) A.a0 A.a1 A.a3 A.a4 A.a5 A.a6 A.a7 A.a8)
    (real_conv_1 RF A h0 h3 h4 h5 h6 h7 h8 hin) (RF.row1 A.a7 h7) (RF.row1 A.a8 h8) hin

include hagg hnorm in
/-- Layer 1: the two programs' outputs agree when their inputs do and the array the layer normalises is real. -/
theorem k_layer_1 (hin : k_v65 A = res_h_1 (F := Ideal) A.a0 A.a1 A.a3 A.a4 A.a5 A.a6 A.a7 A.a8)
    (hreal : ∀ i, IsReal (res_conv_1 (F := Ideal) A.a0 A.a1 A.a3 A.a4 A.a5 A.a6 A.a7 A.a8 i)) :
    k_v98 A = res_h_2 (F := Ideal) A.a0 A.a1 A.a3 A.a4 A.a5 A.a6 A.a7 A.a8 := by
  unfold k_v98 k_v91 k_v87 k_v85_0 k_v85_1 k_v85_2 k_v94 k_v97 k_v81 k_v84 k_v68 k_v67
  unfold res_h_2 res_mean_1 res_var_1
  unfold res_conv_1 res_agg_1 res_hw_1 at hreal ⊢
  rw [k_agg, hin, hw1_eq, row1_eq, row1_eq, row1_eq]
  exact layer_core hagg hnorm A.a1 (lay_hw (F := Ideal) (res_h_1 (F := Ideal) A.a0 A.a1 A.a3 A.a4 A.a5 A.a6 A.a7 A.a8) (res_W_1 (F := Ideal) A.a5)) (res_h_1 (F := Ideal) A.a0 A.a1 A.a3 A.a4 A.a5 A.a6 A.a7 A.a8)
    (res_row_1 (F := Ideal) A.a6) (res_row_1 (F := Ideal) A.a7) (res_row_1 (F := Ideal) A.a8) Cert.KernelIdeal.Facts₀.shapeCasts_S64_S1x64 hreal

include RF in
/-- Layer 2: the array it normalises is real. -/
theorem real_conv_2 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_2 (F := Ideal) A.a0 A.a1 A.a3 A.a4 A.a5 A.a6 A.a7 A.a8 i)) :
    ∀ i, IsReal (res_conv_2 (F := Ideal) A.a0 A.a1 A.a3 A.a4 A.a5 A.a6 A.a7 A.a8 i) := by
  unfold res_conv_2 res_agg_2 res_hw_2
  exact RF.conv A.a1 (res_h_2 (F := Ideal) A.a0 A.a1 A.a3 A.a4 A.a5 A.a6 A.a7 A.a8) (res_W_2 (F := Ideal) A.a5) (res_row_2 (F := Ideal) A.a6) hin (RF.W2 A.a5 h5) (RF.row2 A.a6 h6)

include RF in
/-- Layer 2: its output is real. -/
theorem real_h_3 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_2 (F := Ideal) A.a0 A.a1 A.a3 A.a4 A.a5 A.a6 A.a7 A.a8 i)) :
    ∀ i, IsReal (res_h_3 (F := Ideal) A.a0 A.a1 A.a3 A.a4 A.a5 A.a6 A.a7 A.a8 i) := by
  unfold res_h_3 res_mean_2 res_var_2
  exact RF.next (res_conv_2 (F := Ideal) A.a0 A.a1 A.a3 A.a4 A.a5 A.a6 A.a7 A.a8) (res_row_2 (F := Ideal) A.a7) (res_row_2 (F := Ideal) A.a8) (res_h_2 (F := Ideal) A.a0 A.a1 A.a3 A.a4 A.a5 A.a6 A.a7 A.a8)
    (real_conv_2 RF A h0 h3 h4 h5 h6 h7 h8 hin) (RF.row2 A.a7 h7) (RF.row2 A.a8 h8) hin

include hagg hnorm in
/-- Layer 2: the two programs' outputs agree when their inputs do and the array the layer normalises is real. -/
theorem k_layer_2 (hin : k_v98 A = res_h_2 (F := Ideal) A.a0 A.a1 A.a3 A.a4 A.a5 A.a6 A.a7 A.a8)
    (hreal : ∀ i, IsReal (res_conv_2 (F := Ideal) A.a0 A.a1 A.a3 A.a4 A.a5 A.a6 A.a7 A.a8 i)) :
    k_v131 A = res_h_3 (F := Ideal) A.a0 A.a1 A.a3 A.a4 A.a5 A.a6 A.a7 A.a8 := by
  unfold k_v131 k_v124 k_v120 k_v118_0 k_v118_1 k_v118_2 k_v127 k_v130 k_v114 k_v117 k_v101 k_v100
  unfold res_h_3 res_mean_2 res_var_2
  unfold res_conv_2 res_agg_2 res_hw_2 at hreal ⊢
  rw [k_agg, hin, hw2_eq, row2_eq, row2_eq, row2_eq]
  exact layer_core hagg hnorm A.a1 (lay_hw (F := Ideal) (res_h_2 (F := Ideal) A.a0 A.a1 A.a3 A.a4 A.a5 A.a6 A.a7 A.a8) (res_W_2 (F := Ideal) A.a5)) (res_h_2 (F := Ideal) A.a0 A.a1 A.a3 A.a4 A.a5 A.a6 A.a7 A.a8)
    (res_row_2 (F := Ideal) A.a6) (res_row_2 (F := Ideal) A.a7) (res_row_2 (F := Ideal) A.a8) Cert.KernelIdeal.Facts₀.shapeCasts_S64_S1x64 hreal

include RF in
/-- Layer 3: the array it normalises is real. -/
theorem real_conv_3 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_3 (F := Ideal) A.a0 A.a1 A.a3 A.a4 A.a5 A.a6 A.a7 A.a8 i)) :
    ∀ i, IsReal (res_conv_3 (F := Ideal) A.a0 A.a1 A.a3 A.a4 A.a5 A.a6 A.a7 A.a8 i) := by
  unfold res_conv_3 res_agg_3 res_hw_3
  exact RF.conv A.a1 (res_h_3 (F := Ideal) A.a0 A.a1 A.a3 A.a4 A.a5 A.a6 A.a7 A.a8) (res_W_3 (F := Ideal) A.a5) (res_row_3 (F := Ideal) A.a6) hin (RF.W3 A.a5 h5) (RF.row3 A.a6 h6)

include RF in
/-- Layer 3: its output is real. -/
theorem real_h_4 (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i))
    (hin : ∀ i, IsReal (res_h_3 (F := Ideal) A.a0 A.a1 A.a3 A.a4 A.a5 A.a6 A.a7 A.a8 i)) :
    ∀ i, IsReal (res_h_4 (F := Ideal) A.a0 A.a1 A.a3 A.a4 A.a5 A.a6 A.a7 A.a8 i) := by
  unfold res_h_4 res_mean_3 res_var_3
  exact RF.next (res_conv_3 (F := Ideal) A.a0 A.a1 A.a3 A.a4 A.a5 A.a6 A.a7 A.a8) (res_row_3 (F := Ideal) A.a7) (res_row_3 (F := Ideal) A.a8) (res_h_3 (F := Ideal) A.a0 A.a1 A.a3 A.a4 A.a5 A.a6 A.a7 A.a8)
    (real_conv_3 RF A h0 h3 h4 h5 h6 h7 h8 hin) (RF.row3 A.a7 h7) (RF.row3 A.a8 h8) hin

include hagg hnorm in
/-- Layer 3: the two programs' outputs agree when their inputs do and the array the layer normalises is real. -/
theorem k_layer_3 (hin : k_v131 A = res_h_3 (F := Ideal) A.a0 A.a1 A.a3 A.a4 A.a5 A.a6 A.a7 A.a8)
    (hreal : ∀ i, IsReal (res_conv_3 (F := Ideal) A.a0 A.a1 A.a3 A.a4 A.a5 A.a6 A.a7 A.a8 i)) :
    k_v164 A = res_h_4 (F := Ideal) A.a0 A.a1 A.a3 A.a4 A.a5 A.a6 A.a7 A.a8 := by
  unfold k_v164 k_v157 k_v153 k_v151_0 k_v151_1 k_v151_2 k_v160 k_v163 k_v147 k_v150 k_v134 k_v133
  unfold res_h_4 res_mean_3 res_var_3
  unfold res_conv_3 res_agg_3 res_hw_3 at hreal ⊢
  rw [k_agg, hin, hw3_eq, row3_eq, row3_eq, row3_eq]
  exact layer_core hagg hnorm A.a1 (lay_hw (F := Ideal) (res_h_3 (F := Ideal) A.a0 A.a1 A.a3 A.a4 A.a5 A.a6 A.a7 A.a8) (res_W_3 (F := Ideal) A.a5)) (res_h_3 (F := Ideal) A.a0 A.a1 A.a3 A.a4 A.a5 A.a6 A.a7 A.a8)
    (res_row_3 (F := Ideal) A.a6) (res_row_3 (F := Ideal) A.a7) (res_row_3 (F := Ideal) A.a8) Cert.KernelIdeal.Facts₀.shapeCasts_S64_S1x64 hreal

/-! ## The chain of the four layers -/

include hagg hnorm RF in
/-- The nodes after the fourth layer. -/
theorem k_nodes (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i)) :
    k_v164 A = res_h_4 (F := Ideal) A.a0 A.a1 A.a3 A.a4 A.a5 A.a6 A.a7 A.a8 := by
  have r0 := real_embed RF A h0 h3 h4 h5 h6 h7 h8
  have e1 := k_layer_0 hagg hnorm A (k_embed A) (real_conv_0 RF A h0 h3 h4 h5 h6 h7 h8 r0)
  have r1 := real_h_1 RF A h0 h3 h4 h5 h6 h7 h8 r0
  have e2 := k_layer_1 hagg hnorm A e1 (real_conv_1 RF A h0 h3 h4 h5 h6 h7 h8 r1)
  have r2 := real_h_2 RF A h0 h3 h4 h5 h6 h7 h8 r1
  have e3 := k_layer_2 hagg hnorm A e2 (real_conv_2 RF A h0 h3 h4 h5 h6 h7 h8 r2)
  have r3 := real_h_3 RF A h0 h3 h4 h5 h6 h7 h8 r2
  exact k_layer_3 hagg hnorm A e3 (real_conv_3 RF A h0 h3 h4 h5 h6 h7 h8 r3)

/-! ## The pooling and the head -/

/-- The head over any pooled rows. -/
theorem k_head : k_v179 A = lay_head (F := Ideal) (k_v176 A) A.a9 A.a10 A.a11 A.a12 := by
  unfold k_v179 k_v177 k_v178
  exact head_eq (k_v176 A) A.a9 A.a10 A.a11 A.a12

include hagg hnorm RF in
/-- The result of one program is the other's term of the same thirteen arguments, when the float arguments the layers
    read are real. -/
theorem bridge_of (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i)) :
    k_v179 A = out (F := Ideal) A.a0 A.a1 A.a2 A.a3 A.a4 A.a5 A.a6 A.a7 A.a8 A.a9 A.a10 A.a11 A.a12 := by
  rw [k_head]
  unfold out res_pooled k_v176
  rw [k_nodes hagg hnorm RF A h0 h3 h4 h5 h6 h7 h8, pool_eq]

end Cert.Bridge

end
-- ==== Proof.LibVariance.lean ====
/-
  The variance of finitely many reals, two ways.

  For reals `a i` (`i` in a finite set of `N` elements, `N ≠ 0`) with mean `m = (∑ a i) / N`, the mean of the squared
  deviations equals the mean of the squares minus the squared mean:

      (∑ (a i - m) * (a i - m)) / N  =  (∑ a i * a i) / N  -  m * m.

  Expanding the square gives `∑ a i * a i - 2 m ∑ a i + N m m`, and `∑ a i = N m`. The law is one about real numbers:
  on the extended reals it needs every `a i` to be real (with an infinite entry the left side is `⊤ - ⊤` inside the sum).
  Here it is stated on the extended reals with the quotient the exact division `Ideal.div` by the real `N`, the
  subtraction and the product the extended reals' own. Both sides are then real and non-negative, so adding a positive
  real gives a positive real, whose reciprocal square root is a positive real.
-/
import Idealize.ShloMosaic.PureOps.Ideal.Laws
import proofs.«109724_j81406810128840_1_alg».proof.Proof.LibExtReal
import proofs.«109724_j81406810128840_1_alg».proof.Proof.LibReal

noncomputable section

namespace Cert.LibVariance

open Idealize.ShloMosaic Cert.LibReal
open scoped BigOperators

variable {ι : Type}

/-! ## On the reals -/

/-- The sum of the squared deviations from any number `μ`, expanded. -/
theorem sum_dev_sq (s : Finset ι) (r : ι → ℝ) (μ : ℝ) :
    ∑ i ∈ s, (r i - μ) * (r i - μ) = ∑ i ∈ s, r i * r i - 2 * μ * ∑ i ∈ s, r i + (s.card : ℝ) * (μ * μ) := by
  have h : ∀ i, (r i - μ) * (r i - μ) = r i * r i - 2 * μ * r i + μ * μ := fun i => by ring
  simp only [h, Finset.sum_add_distrib, Finset.sum_sub_distrib, ← Finset.mul_sum, Finset.sum_const, nsmul_eq_mul]
  ring

/-- The mean of the squared deviations from the mean is the mean of the squares minus the squared mean. -/
theorem real_variance (s : Finset ι) (r : ι → ℝ) (N : ℝ) (hN : N = (s.card : ℝ)) (hN0 : N ≠ 0) :
    (∑ i ∈ s, (r i - (∑ i ∈ s, r i) / N) * (r i - (∑ i ∈ s, r i) / N)) / N
      = (∑ i ∈ s, r i * r i) / N - (∑ i ∈ s, r i) / N * ((∑ i ∈ s, r i) / N) := by
  rw [sum_dev_sq, ← hN]
  field_simp
  ring

/-- The mean of the squared deviations is non-negative. -/
theorem real_variance_nonneg (s : Finset ι) (r : ι → ℝ) (μ N : ℝ) (hN : N = (s.card : ℝ)) :
    0 ≤ (∑ i ∈ s, (r i - μ) * (r i - μ)) / N := by
  apply div_nonneg
  · exact Finset.sum_nonneg fun i _ => mul_self_nonneg _
  · rw [hN]; exact Nat.cast_nonneg _

/-! ## On the extended reals, every entry a real -/

section
variable (s : Finset ι) (a : ι → EReal) (ha : ∀ i ∈ s, IsReal (a i)) (N : ℝ)
include ha

/-- The entries' real values. -/
theorem entries_eq_coe : ∀ i ∈ s, a i = (((a i).toReal : ℝ) : EReal) :=
  fun i hi => (EReal.coe_toReal (ha i hi).ne_top (ha i hi).ne_bot).symm

/-- The mean of reals is the real mean. -/
theorem mean_eq_coe (hN0 : N ≠ 0) :
    Ideal.div (∑ i ∈ s, a i) (N : EReal) = (((∑ i ∈ s, (a i).toReal) / N : ℝ) : EReal) := by
  rw [sum_eq_coe s a _ (entries_eq_coe s a ha), div_coe_coe _ hN0]

/-- The mean of the squares of reals is the real one. -/
theorem mean_sq_eq_coe (hN0 : N ≠ 0) :
    Ideal.div (∑ i ∈ s, a i * a i) (N : EReal) = (((∑ i ∈ s, (a i).toReal * (a i).toReal) / N : ℝ) : EReal) := by
  rw [sum_eq_coe s (fun i => a i * a i) (fun i => (a i).toReal * (a i).toReal)
    (fun i hi => by rw [EReal.coe_mul, ← entries_eq_coe s a ha i hi]), div_coe_coe _ hN0]

/-- The mean of the squared deviations of reals from a real is the real one. -/
theorem mean_dev_sq_eq_coe (hN0 : N ≠ 0) (μ : ℝ) :
    Ideal.div (∑ i ∈ s, (a i - (μ : EReal)) * (a i - (μ : EReal))) (N : EReal)
      = (((∑ i ∈ s, ((a i).toReal - μ) * ((a i).toReal - μ)) / N : ℝ) : EReal) := by
  rw [sum_eq_coe s (fun i => (a i - (μ : EReal)) * (a i - (μ : EReal)))
    (fun i => ((a i).toReal - μ) * ((a i).toReal - μ))
    (fun i hi => by rw [EReal.coe_mul, EReal.coe_sub, ← entries_eq_coe s a ha i hi]), div_coe_coe _ hN0]

/-- THE VARIANCE TWO WAYS: with `mean = (∑ a i) / N`, `N` the number of entries,
    `(∑ (a i - mean) * (a i - mean)) / N = (∑ a i * a i) / N - mean * mean`. -/
theorem variance_two_ways (hN : N = (s.card : ℝ)) (hN0 : N ≠ 0) (mean : EReal)
    (hmean : mean = Ideal.div (∑ i ∈ s, a i) (N : EReal)) :
    Ideal.div (∑ i ∈ s, (a i - mean) * (a i - mean)) (N : EReal)
      = Ideal.div (∑ i ∈ s, a i * a i) (N : EReal) - mean * mean := by
  rw [hmean, mean_eq_coe s a ha N hN0, mean_dev_sq_eq_coe s a ha N hN0, mean_sq_eq_coe s a ha N hN0,
    ← EReal.coe_mul, ← EReal.coe_sub, real_variance s _ N hN hN0]

/-- The mean of the squared deviations from the mean is a non-negative real. -/
theorem variance_nonneg (hN : N = (s.card : ℝ)) (hN0 : N ≠ 0) (mean : EReal)
    (hmean : mean = Ideal.div (∑ i ∈ s, a i) (N : EReal)) :
    ∃ v : ℝ, 0 ≤ v ∧ Ideal.div (∑ i ∈ s, (a i - mean) * (a i - mean)) (N : EReal) = (v : EReal) := by
  rw [hmean, mean_eq_coe s a ha N hN0, mean_dev_sq_eq_coe s a ha N hN0]
  exact ⟨_, real_variance_nonneg s _ _ N hN, rfl⟩

/-- … so is the mean of the squares minus the squared mean. -/
theorem variance_nonneg' (hN : N = (s.card : ℝ)) (hN0 : N ≠ 0) (mean : EReal)
    (hmean : mean = Ideal.div (∑ i ∈ s, a i) (N : EReal)) :
    ∃ v : ℝ, 0 ≤ v ∧ Ideal.div (∑ i ∈ s, a i * a i) (N : EReal) - mean * mean = (v : EReal) := by
  rw [← variance_two_ways s a ha N hN hN0 mean hmean]
  exact variance_nonneg s a ha N hN hN0 mean hmean

/-- The variance plus a positive real is a positive real … -/
theorem variance_add_pos (hN : N = (s.card : ℝ)) (hN0 : N ≠ 0) (mean : EReal)
    (hmean : mean = Ideal.div (∑ i ∈ s, a i) (N : EReal)) (ε : ℝ) (hε : 0 < ε) :
    ∃ w : ℝ, 0 < w ∧ Ideal.div (∑ i ∈ s, (a i - mean) * (a i - mean)) (N : EReal) + (ε : EReal) = (w : EReal) := by
  obtain ⟨v, hv, e⟩ := variance_nonneg s a ha N hN hN0 mean hmean
  exact ⟨v + ε, by linarith, by rw [e, EReal.coe_add]⟩

/-- … whose reciprocal square root is a positive real. -/
theorem rsqrt_variance_add_pos (hN : N = (s.card : ℝ)) (hN0 : N ≠ 0) (mean : EReal)
    (hmean : mean = Ideal.div (∑ i ∈ s, a i) (N : EReal)) (ε : ℝ) (hε : 0 < ε) :
    ∃ t : ℝ, 0 < t ∧
      Ideal.rsqrt (Ideal.div (∑ i ∈ s, (a i - mean) * (a i - mean)) (N : EReal) + (ε : EReal)) = (t : EReal) := by
  obtain ⟨w, hw, e⟩ := variance_add_pos s a ha N hN hN0 mean hmean ε hε
  exact ⟨_, inv_sqrt_pos hw, by rw [e, rsqrt_coe_pos hw]⟩

/-- The same for the other spelling of the variance. -/
theorem rsqrt_variance_add_pos' (hN : N = (s.card : ℝ)) (hN0 : N ≠ 0) (mean : EReal)
    (hmean : mean = Ideal.div (∑ i ∈ s, a i) (N : EReal)) (ε : ℝ) (hε : 0 < ε) :
    ∃ t : ℝ, 0 < t ∧
      Ideal.rsqrt (Ideal.div (∑ i ∈ s, a i * a i) (N : EReal) - mean * mean + (ε : EReal)) = (t : EReal) := by
  rw [← variance_two_ways s a ha N hN hN0 mean hmean]
  exact rsqrt_variance_add_pos s a ha N hN hN0 mean hmean ε hε

end

/-! ## Over a whole finite index type, and over `Fin n` -/

/-- The law over all of a finite type of `N` elements. -/
theorem variance_two_ways_univ [Fintype ι] (a : ι → EReal) (ha : ∀ i, IsReal (a i)) (N : ℝ)
    (hN : N = (Fintype.card ι : ℝ)) (hN0 : N ≠ 0) (mean : EReal) (hmean : mean = Ideal.div (∑ i, a i) (N : EReal)) :
    Ideal.div (∑ i, (a i - mean) * (a i - mean)) (N : EReal) = Ideal.div (∑ i, a i * a i) (N : EReal) - mean * mean :=
  variance_two_ways Finset.univ a (fun i _ => ha i) N (by rw [hN, Finset.card_univ]) hN0 mean hmean

/-- The law for `n` reals `a 0, …, a (n - 1)`, `N` the real number `n`. -/
theorem variance_two_ways_fin {n : Nat} (a : Fin n → EReal) (ha : ∀ i, ∃ r : ℝ, a i = (r : EReal)) (N : ℝ)
    (hN : N = (n : ℝ)) (hN0 : N ≠ 0) :
    Ideal.div (∑ i, (a i - Ideal.div (∑ i, a i) (N : EReal)) * (a i - Ideal.div (∑ i, a i) (N : EReal))) (N : EReal)
      = Ideal.div (∑ i, a i * a i) (N : EReal)
        - Ideal.div (∑ i, a i) (N : EReal) * Ideal.div (∑ i, a i) (N : EReal) :=
  variance_two_ways_univ a ha N (by rw [hN, Fintype.card_fin]) hN0 _ rfl

/-- At the batch size of this file's use: the float word `0x47C35000` is the real 100000, the number of entries. -/
theorem variance_two_ways_100000 (s : Finset ι) (a : ι → EReal) (ha : ∀ i ∈ s, IsReal (a i)) (hs : s.card = 100000)
    (mean : EReal) (hmean : mean = Ideal.div (∑ i ∈ s, a i) (Ideal.ofBits .f32 0x47C35000#32)) :
    Ideal.div (∑ i ∈ s, (a i - mean) * (a i - mean)) (Ideal.ofBits .f32 0x47C35000#32)
      = Ideal.div (∑ i ∈ s, a i * a i) (Ideal.ofBits .f32 0x47C35000#32) - mean * mean := by
  rw [ofBits_100000] at hmean ⊢
  exact variance_two_ways s a ha 100000 (by rw [hs]; norm_num) (by norm_num) mean hmean

end Cert.LibVariance

end
-- ==== Proof.LibVarianceWords.lean ====
/-
  The variance law and the normalizing factor at the float words of this batch size.

  The float word `0x47C35000` is 100000 and `0x3727C5AC` is the positive real `10995116 / 2^40`. For 100000 real entries
  the mean of the squared deviations from the mean equals the mean of the squares minus the squared mean, both quotients
  by the word of 100000; either one plus the word of the small positive constant is a positive real, and so is its
  reciprocal square root.
-/
import Idealize.ShloMosaic.PureOps.Ideal.Laws
import proofs.«109724_j81406810128840_1_alg».proof.Proof.LibReal
import proofs.«109724_j81406810128840_1_alg».proof.Proof.LibVariance

noncomputable section

namespace Cert.LibVariance

open Idealize.ShloMosaic Cert.LibReal
open scoped BigOperators

variable {ι : Type} [Fintype ι]

/-- The law over a finite type of 100000 elements, the divisor the float word of 100000. -/
theorem variance_two_ways_words (a : ι → EReal) (ha : ∀ i, IsReal (a i)) (hcard : Fintype.card ι = 100000)
    (mean : EReal) (hmean : mean = Ideal.div (∑ i, a i) (Ideal.ofBits .f32 0x47C35000#32)) :
    Ideal.div (∑ i, (a i - mean) * (a i - mean)) (Ideal.ofBits .f32 0x47C35000#32)
      = Ideal.div (∑ i, a i * a i) (Ideal.ofBits .f32 0x47C35000#32) - mean * mean :=
  variance_two_ways_100000 Finset.univ a (fun i _ => ha i) (by rw [Finset.card_univ, hcard]) mean hmean

/-- The mean of 100000 reals is real. -/
theorem isReal_mean_words (a : ι → EReal) (ha : ∀ i, IsReal (a i)) :
    IsReal (Ideal.div (∑ i, a i) (Ideal.ofBits .f32 0x47C35000#32)) := by
  rw [ofBits_100000]
  exact (isReal_sum_univ a ha).div (by norm_num)

/-- The variance (either spelling) plus the small constant is a positive real, and its reciprocal square root is a
    positive real. -/
theorem rsqrt_variance_words (a : ι → EReal) (ha : ∀ i, IsReal (a i)) (hcard : Fintype.card ι = 100000)
    (mean : EReal) (hmean : mean = Ideal.div (∑ i, a i) (Ideal.ofBits .f32 0x47C35000#32)) :
    ∃ t : ℝ, 0 < t ∧
      Ideal.rsqrt (Ideal.div (∑ i, (a i - mean) * (a i - mean)) (Ideal.ofBits .f32 0x47C35000#32)
        + Ideal.ofBits .f32 0x3727C5AC#32) = (t : EReal) := by
  rw [ofBits_100000] at hmean ⊢
  rw [ofBits_eps]
  exact rsqrt_variance_add_pos Finset.univ a (fun i _ => ha i) 100000 (by rw [Finset.card_univ, hcard]; norm_num)
    (by norm_num) mean hmean _ (by norm_num)

theorem rsqrt_variance_words' (a : ι → EReal) (ha : ∀ i, IsReal (a i)) (hcard : Fintype.card ι = 100000)
    (mean : EReal) (hmean : mean = Ideal.div (∑ i, a i) (Ideal.ofBits .f32 0x47C35000#32)) :
    ∃ t : ℝ, 0 < t ∧
      Ideal.rsqrt (Ideal.div (∑ i, a i * a i) (Ideal.ofBits .f32 0x47C35000#32) - mean * mean
        + Ideal.ofBits .f32 0x3727C5AC#32) = (t : EReal) := by
  rw [← variance_two_ways_words a ha hcard mean hmean]
  exact rsqrt_variance_words a ha hcard mean hmean

/-- The two normalizing factors are the same value. -/
theorem rsqrt_variance_words_eq (a : ι → EReal) (ha : ∀ i, IsReal (a i)) (hcard : Fintype.card ι = 100000)
    (mean : EReal) (hmean : mean = Ideal.div (∑ i, a i) (Ideal.ofBits .f32 0x47C35000#32)) :
    Ideal.rsqrt (Ideal.div (∑ i, (a i - mean) * (a i - mean)) (Ideal.ofBits .f32 0x47C35000#32)
        + Ideal.ofBits .f32 0x3727C5AC#32)
      = Ideal.rsqrt (Ideal.div (∑ i, a i * a i) (Ideal.ofBits .f32 0x47C35000#32) - mean * mean
        + Ideal.ofBits .f32 0x3727C5AC#32) := by
  rw [variance_two_ways_words a ha hcard mean hmean]

end Cert.LibVariance

end
-- ==== Proof.LibBatchNorm.lean ====
/-
  A batch-normalization layer over the rows of a table, column by column.

  For a table `a` of 100000 rows, the mean of column `c` is `(∑ₖ a k c) / 100000`; its variance is, in one program, the
  mean of the squared deviations from the mean and, in the other, the mean of the squares minus the squared mean. When
  every entry is real the two are equal, both are non-negative reals, and the normalizing factor
  `rsqrt (variance + ε)` (ε the positive float nearest 1e-5) is a positive real. The layer's output entry

      max ((a i c - mean c) * rsqrt (variance c + ε) * γ c + β c) 0 + R i c

  is then real when the scale `γ`, the shift `β` and the residual `R` are, and is the same value under either
  spelling of the variance.
-/
import Idealize.ShloMosaic.PureOps.Ideal.Laws
import proofs.«109724_j81406810128840_1_alg».proof.Proof.LibReal
import proofs.«109724_j81406810128840_1_alg».proof.Proof.LibVariance
import proofs.«109724_j81406810128840_1_alg».proof.Proof.LibVarianceWords

noncomputable section

namespace Cert.LibBatchNorm

open Idealize.ShloMosaic Cert.LibReal Cert.LibVariance
open scoped BigOperators

variable {ι κ : Type} [Fintype ι]

/-- The mean of column `c`: the column's sum over the float word of 100000. -/
def colMean (a : ι → κ → EReal) (c : κ) : EReal :=
  Ideal.div (∑ k, a k c) (Ideal.ofBits .f32 0x47C35000#32)

/-- The variance of column `c` as the mean of the squared deviations from the mean. -/
def colVarDev (a : ι → κ → EReal) (c : κ) : EReal :=
  Ideal.div (∑ k, (a k c - colMean a c) * (a k c - colMean a c)) (Ideal.ofBits .f32 0x47C35000#32)

/-- The variance of column `c` as the mean of the squares minus the squared mean. -/
def colVarSq (a : ι → κ → EReal) (c : κ) : EReal :=
  Ideal.div (∑ k, a k c * a k c) (Ideal.ofBits .f32 0x47C35000#32) - colMean a c * colMean a c

/-- One output entry of the layer: normalize, scale, shift, rectify, add the residual. -/
def bnEntry (x mean var g b R : EReal) : EReal :=
  max ((x - mean) * Ideal.rsqrt (var + Ideal.ofBits .f32 0x3727C5AC#32) * g + b) (Ideal.ofBits .f32 0x00000000#32) + R

section
variable (a : ι → κ → EReal) (ha : ∀ k c, IsReal (a k c)) (hcard : Fintype.card ι = 100000)
include ha

/-- The column mean of a real table is real. -/
theorem isReal_colMean (c : κ) : IsReal (colMean a c) :=
  isReal_mean_words (fun k => a k c) fun k => ha k c

include hcard

/-- THE TWO VARIANCES AGREE on a real table of 100000 rows. -/
theorem colVarDev_eq_colVarSq (c : κ) : colVarDev a c = colVarSq a c :=
  variance_two_ways_words (fun k => a k c) (fun k => ha k c) hcard (colMean a c) rfl

/-- The normalizing factor is a positive real. -/
theorem rsqrt_colVarDev_pos (c : κ) :
    ∃ t : ℝ, 0 < t ∧ Ideal.rsqrt (colVarDev a c + Ideal.ofBits .f32 0x3727C5AC#32) = (t : EReal) :=
  rsqrt_variance_words (fun k => a k c) (fun k => ha k c) hcard (colMean a c) rfl

theorem rsqrt_colVarSq_pos (c : κ) :
    ∃ t : ℝ, 0 < t ∧ Ideal.rsqrt (colVarSq a c + Ideal.ofBits .f32 0x3727C5AC#32) = (t : EReal) := by
  rw [← colVarDev_eq_colVarSq a ha hcard c]; exact rsqrt_colVarDev_pos a ha hcard c

theorem isReal_rsqrt_colVarDev (c : κ) :
    IsReal (Ideal.rsqrt (colVarDev a c + Ideal.ofBits .f32 0x3727C5AC#32)) := by
  obtain ⟨t, _, e⟩ := rsqrt_colVarDev_pos a ha hcard c; exact ⟨t, e⟩

theorem isReal_rsqrt_colVarSq (c : κ) :
    IsReal (Ideal.rsqrt (colVarSq a c + Ideal.ofBits .f32 0x3727C5AC#32)) := by
  obtain ⟨t, _, e⟩ := rsqrt_colVarSq_pos a ha hcard c; exact ⟨t, e⟩

/-- The layer's entry is the same under either spelling of the variance. -/
theorem bnEntry_dev_eq_sq (x g b R : EReal) (c : κ) :
    bnEntry x (colMean a c) (colVarDev a c) g b R = bnEntry x (colMean a c) (colVarSq a c) g b R := by
  rw [colVarDev_eq_colVarSq a ha hcard c]

end

/-- An entry of the layer is real when its six ingredients are and the normalizing factor is. -/
theorem isReal_bnEntry_of {x mean var g b R : EReal} (hx : IsReal x) (hm : IsReal mean)
    (hrs : IsReal (Ideal.rsqrt (var + Ideal.ofBits .f32 0x3727C5AC#32))) (hg : IsReal g) (hb : IsReal b)
    (hR : IsReal R) : IsReal (bnEntry x mean var g b R) :=
  (((((hx.sub hm).mul hrs).mul hg).add hb).max isReal_ofBits_zero).add hR

/-- THE LAYER KEEPS A REAL TABLE REAL (variance as the mean of the squared deviations). -/
theorem isReal_bn_dev (a : ι → κ → EReal) (ha : ∀ k c, IsReal (a k c)) (hcard : Fintype.card ι = 100000)
    (γ β : κ → EReal) (R : ι → κ → EReal) (hγ : ∀ c, IsReal (γ c)) (hβ : ∀ c, IsReal (β c))
    (hR : ∀ i c, IsReal (R i c)) (i : ι) (c : κ) :
    IsReal (bnEntry (a i c) (colMean a c) (colVarDev a c) (γ c) (β c) (R i c)) :=
  isReal_bnEntry_of (ha i c) (isReal_colMean a ha c) (isReal_rsqrt_colVarDev a ha hcard c) (hγ c) (hβ c) (hR i c)

/-- THE LAYER KEEPS A REAL TABLE REAL (variance as the mean of the squares minus the squared mean). -/
theorem isReal_bn_sq (a : ι → κ → EReal) (ha : ∀ k c, IsReal (a k c)) (hcard : Fintype.card ι = 100000)
    (γ β : κ → EReal) (R : ι → κ → EReal) (hγ : ∀ c, IsReal (γ c)) (hβ : ∀ c, IsReal (β c))
    (hR : ∀ i c, IsReal (R i c)) (i : ι) (c : κ) :
    IsReal (bnEntry (a i c) (colMean a c) (colVarSq a c) (γ c) (β c) (R i c)) :=
  isReal_bnEntry_of (ha i c) (isReal_colMean a ha c) (isReal_rsqrt_colVarSq a ha hcard c) (hγ c) (hβ c) (hR i c)

/-- The unfolded entry, for matching a program's term: `bnEntry` is this expression by definition. -/
theorem bnEntry_def (x mean var g b R : EReal) :
    bnEntry x mean var g b R
      = max ((x - mean) * Ideal.rsqrt (var + Ideal.ofBits .f32 0x3727C5AC#32) * g + b)
          (Ideal.ofBits .f32 0x00000000#32) + R := rfl

end Cert.LibBatchNorm

end
-- ==== Proof.LibRowBcast.lean ====
/-
  A vector repeated over the rows of a matrix, read at an entry.

  A vector `v` of extent `N` laid out as the one-row matrix `[1, N]` has entry `(0, k)` equal to `v k`; a one-row matrix
  repeated over `M` rows has entry `(r, k)` equal to its entry `(0, k)`. So the vector repeated over the rows of an
  `[M, N]` matrix has entry `(r, k)` equal to `v k`, whatever the row. General in the extents.
-/
import Idealize.ShloMosaic.Lib.ValueIdx
import Idealize.ShloMosaic.Lib.Pipeline.Value

noncomputable section

namespace Cert.LibRowBcast

open Idealize.ShloMosaic Idealize.ShloMosaic.ValueIdx

variable {α : Type}

/-- A vector [N] laid out as the row [1, N]: entry (u, k) is entry k. -/
theorem bcast_row_apply {N : Nat} (h : (⟨1, ![N]⟩ : Shape).BroadcastsInDim ⟨2, ![1, N]⟩ ![1])
    (v : (⟨1, ![N]⟩ : Shape).Idx → α) (u : Fin 1) (k : Fin N) :
    broadcastInDim (⟨2, ![1, N]⟩ : Shape) ![1] h v (ix2 u k) = v (ix1 k) := by
  refine broadcastInDim_apply _ h v _ (ix1 k) fun a => ?_
  match a with
  | ⟨0, _⟩ =>
    split_ifs with h1
    · have : N = 1 := h1
      subst this
      exact Fin.val_eq_zero k
    · rfl

/-- A row [1, N] repeated over M rows: entry (r, k) is the row's entry (0, k). -/
theorem bcast_rows_apply {M N : Nat} (h : (⟨2, ![1, N]⟩ : Shape).BroadcastsInDim ⟨2, ![M, N]⟩ ![0, 1])
    (x : (⟨2, ![1, N]⟩ : Shape).Idx → α) (r : Fin M) (k : Fin N) :
    broadcastInDim (⟨2, ![M, N]⟩ : Shape) ![0, 1] h x (ix2 r k) = x (ix2 (0 : Fin 1) k) := by
  refine broadcastInDim_apply _ h x _ (ix2 (0 : Fin 1) k) fun a => ?_
  match a with
  | ⟨0, _⟩ =>
    split_ifs with h1
    · rfl
    · exact absurd rfl h1
  | ⟨1, _⟩ =>
    split_ifs with h1
    · have : N = 1 := h1
      subst this
      exact Fin.val_eq_zero k
    · rfl

/-- A vector [N] repeated over the M rows of a matrix: entry (r, k) is entry k. -/
theorem bcast_vec_rows_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (k : Fin N) :
    broadcastInDim (⟨2, ![M, N]⟩ : Shape) ![0, 1] h2 (broadcastInDim (⟨2, ![1, N]⟩ : Shape) ![1] h1 v) (ix2 r k)
      = v (ix1 k) := by
  rw [bcast_rows_apply, bcast_row_apply]

end Cert.LibRowBcast

end
-- ==== Proof.LibHostColSum.lean ====
/-
  The host's sum over the rows of a matrix, read at a column.

  A host reduction with an add body over axis 0 of an [M, N] matrix, from an initial value that is zero, has at column k
  the sum over the M rows of the matrix at (r, k). General in the extents.
-/
import Idealize.ShloMosaic.Lib.ValueIdx
import Idealize.ShloMosaic.Lib.IdealHost
import Idealize.ShloMosaic.PureOps.Ideal.Laws

noncomputable section

namespace Cert.LibHostColSum

open Idealize.ShloMosaic Idealize.ShloMosaic.ValueIdx
open scoped BigOperators

/-- The source index over column k with row r inserted on the reduced axis 0 is (r, k). -/
theorem lift_row {M N : ℕ} (h : Shape.Reduces (⟨2, ![M, N]⟩ : Shape) [0] (⟨1, ![N]⟩ : Shape)) (k : Fin N) (r : Fin M) :
    h.lift (ix1 k) r = ix2 r k := by
  funext a
  match a with
  | ⟨0, _⟩ => exact Fin.ext rfl
  | ⟨1, _⟩ => exact Fin.ext rfl

/-- The host's column sums from a zero initial value, at column k: the sum over the rows. -/
theorem hostColSum_apply {M N : ℕ} {φ : FTy} (A : FVec Ideal (⟨2, ![M, N]⟩ : Shape) φ)
    (z : (⟨0, ![]⟩ : Shape).Idx → Ideal φ) (hz : ∀ i, z i = 0)
    (h' : (⟨2, ![M, N]⟩ : Shape).ReducesTo [0] (⟨1, ![N]⟩ : Shape)) (hu : 0 < (⟨0, ![]⟩ : Shape).numel) (k : Fin N) :
    Host.reduceAdd A z h' hu (ix1 k) = ∑ r : Fin M, A (ix2 r k) := by
  have hR : (⟨2, ![M, N]⟩ : Shape).Reduces [0] (⟨1, ![N]⟩ : Shape) :=
    match h' with
    | ⟨a, b⟩ => ⟨a, Nat.one_pos, b⟩
  rw [hostReduceAdd_apply, Ideal.hostReduceAdd_single h' hR, hz, zero_add]
  exact Finset.sum_congr rfl fun r _ => congrArg A (lift_row hR k r)

end Cert.LibHostColSum

end
-- ==== Proof.BrMNorm.lean ====
/-
  The batch-normalization step of a layer: the two programs' spellings are the same function.

  Over a table A of 100000 rows and 64 columns, one program keeps, per column, the sum and the sum of squares, divides
  both by 100000 and takes  mean = sum / 100000,  variance = sumsq / 100000 - mean · mean.  The other takes the column
  mean as a host sum over 100000, the deviations A - mean, and the variance as the host sum of the squared deviations
  over (100000 - 0), chosen by the test 100000 - 0 > 0 (which holds). Both then form, entry by entry,

      max (((A - mean) · rsqrt (variance + ε)) · γ + β, 0) + R.

  Read at an entry (r, k): every broadcast of a row reads the row's entry k, the host sums over axis 0 from a zero
  initial value are the sums over the 100000 rows, and the two variances are the two sides of the variance law, equal
  because every entry of A is real. No finiteness of γ, β or R is used.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«109724_j81406810128840_1_alg».proof.Proof.Gen.ReferenceIdeal
import proofs.«109724_j81406810128840_1_alg».proof.Proof.RefDefs
import proofs.«109724_j81406810128840_1_alg».proof.Proof.KChainDefs
import proofs.«109724_j81406810128840_1_alg».proof.Proof.KSpec
import proofs.«109724_j81406810128840_1_alg».proof.Proof.RegASpec
import proofs.«109724_j81406810128840_1_alg».proof.Proof.LibReal
import proofs.«109724_j81406810128840_1_alg».proof.Proof.LibBatchNorm
import proofs.«109724_j81406810128840_1_alg».proof.Proof.LibRowBcast
import proofs.«109724_j81406810128840_1_alg».proof.Proof.LibHostColSum

noncomputable section

namespace Cert.Bridge

open Idealize.ShloMosaic Idealize.ShloMosaic.ValueIdx
open Cert.ReferenceIdeal.RefRun Cert.KernelIdeal.KChain Cert.LibReal Cert.LibBatchNorm Cert.LibRowBcast Cert.LibHostColSum
open scoped BigOperators

/-- A [100000, 64] array as a table of rows and columns. -/
def tbl (A : (⟨2, ![100000, 64]⟩ : Shape).Idx → EReal) : Fin 100000 → Fin 64 → EReal := fun r c => A (ix2 r c)

/-- The reference's column mean at column k: the column's sum over 100000. -/
theorem lay_mean_apply (A : FVec Ideal (⟨2, ![100000, 64]⟩ : Shape) .f32) (k : Fin 64) :
    lay_mean (F := Ideal) A (ix1 k) = colMean (tbl A) k := by
  unfold lay_mean
  rw [hostDivf_apply, broadcastInDim_scalar_apply, constant_apply,
    hostColSum_apply A (constant (F := Ideal) (⟨0, ![]⟩ : Shape) .f32 0x00000000#32) (fun _ => Ideal.ofBits_zero_f32)]
  rfl

/-- The reference's deviation at (r, k): the entry minus the column mean (the deviation's own spelling of the mean
    reads the same value). -/
theorem lay_dev_apply (A : FVec Ideal (⟨2, ![100000, 64]⟩ : Shape) .f32) (r : Fin 100000) (k : Fin 64) :
    lay_dev (F := Ideal) A (ix2 r k) = A (ix2 r k) - colMean (tbl A) k := by
  unfold lay_dev
  rw [subf_apply, bcast_rows_apply, hostDivf_apply, bcast_row_apply, broadcastInDim_scalar_apply, constant_apply,
    hostColSum_apply A (constant (F := Ideal) (⟨0, ![]⟩ : Shape) .f32 0x00000000#32) (fun _ => Ideal.ofBits_zero_f32)]
  rfl

/-- The variance's divisor 100000 - 0, the zero a converted integer zero, is 100000. -/
theorem den_eq : Ideal.ofBits .f32 0x47C35000#32 - (((0#32 : BitVec 32).toInt : ℝ) : EReal)
    = Ideal.ofBits .f32 0x47C35000#32 := by
  have h0 : (((0#32 : BitVec 32).toInt : ℝ) : EReal) = 0 := by norm_num
  rw [h0, sub_zero]

/-- The test 100000 - 0 > 0 holds. -/
theorem var_cond : Ideal.cmp .ogt (Ideal.ofBits .f32 0x47C35000#32 - (((0#32 : BitVec 32).toInt : ℝ) : EReal))
    (Ideal.ofBits .f32 0x00000000#32) = 1#1 := by
  rw [den_eq, ofBits_100000, Ideal.ofBits_zero_f32]
  have h : (0 : EReal) < ((100000 : ℝ) : EReal) := EReal.coe_pos.mpr (by norm_num)
  simp [Ideal.cmp, h]

/-- The reference's column variance at column k: the mean of the squared deviations (the selected branch). -/
theorem lay_var_apply (A : FVec Ideal (⟨2, ![100000, 64]⟩ : Shape) .f32) (k : Fin 64) :
    lay_var (F := Ideal) A (ix1 k) = colVarDev (tbl A) k := by
  unfold lay_var
  rw [select_apply, broadcastInDim_scalar_apply,
    show cmpf CmpFPredicate.ogt
        (subf (constant (F := Ideal) (⟨0, ![]⟩ : Shape) .f32 0x47C35000#32)
          (sitofp .f32 (constantI (⟨0, ![]⟩ : Shape) 32 0#32)))
        (constant (F := Ideal) (⟨0, ![]⟩ : Shape) .f32 0x00000000#32) ix0 = 1#1 from var_cond,
    select_one, hostDivf_apply, broadcastInDim_scalar_apply,
    show subf (constant (F := Ideal) (⟨0, ![]⟩ : Shape) .f32 0x47C35000#32)
          (sitofp .f32 (constantI (⟨0, ![]⟩ : Shape) 32 0#32)) ix0 = Ideal.ofBits .f32 0x47C35000#32 from den_eq,
    hostColSum_apply (mulf (lay_dev (F := Ideal) A) (lay_dev (F := Ideal) A)) (constant (F := Ideal) (⟨0, ![]⟩ : Shape) .f32 0x00000000#32) (fun _ => Ideal.ofBits_zero_f32)]
  refine congrArg (fun s => Ideal.div s (Ideal.ofBits .f32 0x47C35000#32)) (Finset.sum_congr rfl fun r _ => ?_)
  rw [mulf_apply, lay_dev_apply]
  rfl

/-- The host's reciprocal square root at an index is the exact one of the entry. -/
theorem host_rsqrt_apply {s : Shape} {φ : FTy} (x : FVec Ideal s φ) (i : s.Idx) :
    Host.rsqrt x i = Ideal.rsqrt (x i) := rfl

/-- The reference's layer output at (r, k), for any mean and variance rows: each row repeated over the rows of the
    table reads its entry k. -/
theorem lay_next_apply (A R : FVec Ideal (⟨2, ![100000, 64]⟩ : Shape) .f32)
    (mean var g b : FVec Ideal (⟨1, ![64]⟩ : Shape) .f32) (r : Fin 100000) (k : Fin 64) :
    lay_next (F := Ideal) A mean var g b R (ix2 r k)
      = bnEntry (A (ix2 r k)) (mean (ix1 k)) (var (ix1 k)) (g (ix1 k)) (b (ix1 k)) (R (ix2 r k)) := by
  unfold lay_next
  rw [addf_apply, maximumf_apply, addf_apply, mulf_apply, mulf_apply, subf_apply, bcast_vec_rows_apply,
    bcast_vec_rows_apply, bcast_vec_rows_apply, bcast_vec_rows_apply, broadcastInDim_scalar_apply, constant_apply,
    host_rsqrt_apply, addf_apply, broadcastInDim_scalar_apply, constant_apply]
  rfl

/-- The other program's mean row at (0, k): the given row's entry over 100000. -/
theorem kf_v54_apply (x : FVec Ideal (⟨2, ![1, 64]⟩ : Shape) .f32) (k : Fin 64) :
    kf_v54 (F := Ideal) x (ix2 (0 : Fin 1) k)
      = Ideal.div (x (ix2 (0 : Fin 1) k)) (Ideal.ofBits .f32 0x47C35000#32) := by
  unfold kf_v54
  rw [hostDivf_apply, broadcastInDim_scalar_apply, constant_apply]

/-- The other program's variance row at (0, k): the given row's entry over 100000, minus the squared mean. -/
theorem kf_v58_apply (x m : FVec Ideal (⟨2, ![1, 64]⟩ : Shape) .f32) (k : Fin 64) :
    kf_v58 (F := Ideal) x m (ix2 (0 : Fin 1) k)
      = Ideal.div (x (ix2 (0 : Fin 1) k)) (Ideal.ofBits .f32 0x47C35000#32)
        - m (ix2 (0 : Fin 1) k) * m (ix2 (0 : Fin 1) k) := by
  unfold kf_v58
  rw [subf_apply, hostDivf_apply, broadcastInDim_scalar_apply, constant_apply, mulf_apply]

/-- THE STEP: normalizing by the mean and variance computed from the column sums and sums of squares is the
    reference's layer output, for a real table. -/
theorem bn_kernel_eq_reference (A R : FVec Ideal (⟨2, ![100000, 64]⟩ : Shape) .f32) (hA : ∀ i, IsReal (A i))
    (g b : FVec Ideal (⟨1, ![64]⟩ : Shape) .f32) (hc : (⟨1, ![64]⟩ : Shape).ShapeCasts ⟨2, ![1, 64]⟩) :
    Cert.RegSpec.bnNorm A (kf_v54 (F := Ideal) (Cert.KSpec.colSum A))
        (kf_v58 (F := Ideal) (Cert.KSpec.colSumSq A) (kf_v54 (F := Ideal) (Cert.KSpec.colSum A)))
        (shapeCast (⟨2, ![1, 64]⟩ : Shape) g hc) (shapeCast (⟨2, ![1, 64]⟩ : Shape) b hc) R
      = lay_next (F := Ideal) A (lay_mean A) (lay_var A) g b R := by
  funext i
  obtain ⟨r, k, rfl⟩ : ∃ (r : Fin 100000) (k : Fin 64), i = ix2 r k := ⟨i 0, i 1, eq_ix2 i⟩
  rw [Cert.RegSpec.bnNorm_apply, lay_next_apply, lay_mean_apply, lay_var_apply, kf_v58_apply, kf_v54_apply,
    shapeCast_a_1a_apply, shapeCast_a_1a_apply]
  exact (bnEntry_dev_eq_sq (tbl A) (fun r c => hA _) (Fintype.card_fin _) _ _ _ _ k).symm

end Cert.Bridge

end
-- ==== Proof.LibRealOps.lean ====
/-
  The exact array operations keep real entries real.

  A contraction (a matrix product onto an accumulator), a sum along axes (from an initial value or not) and an
  accumulating scatter are finite sums of entries and of products of entries: when every entry of every operand is a
  real number, so is every entry of the result. Stated for the exact operations on extended reals.
-/
import Idealize.ShloMosaic.PureOps.Ideal.Laws
import proofs.«109724_j81406810128840_1_alg».proof.Proof.LibReal

noncomputable section

namespace Cert.LibReal

open Idealize.ShloMosaic
open scoped BigOperators

/-- A contraction of real operands onto a real accumulator is real, entry by entry. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j))
    (j : so.Idx) : IsReal (Ideal.matmul d lhs rhs acc j) :=
  (ha j).add (isReal_sum_univ _ fun _ => (hl _).mul (hr _))

/-- … in particular onto the zero accumulator (the host's product). -/
theorem isReal_matmul_zero {sl sr so : Shape} (d : DotDims sl sr so) (lhs : sl.Idx → EReal) (rhs : sr.Idx → EReal)
    (hl : ∀ i, IsReal (lhs i)) (hr : ∀ i, IsReal (rhs i)) (j : so.Idx) :
    IsReal (Ideal.matmul d lhs rhs (fun _ => 0) j) :=
  isReal_matmul d lhs rhs _ hl hr (fun _ => isReal_zero) j

/-- A contraction with no accumulator. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_univ _ fun _ => (hl _).mul (hr _)

/-- The host's sum along axes of a real array, from a real initial value, is real. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_sum_filter _ _ fun i _ => hx i)

/-- A kernel's sum along axes of a real array is real. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_sum_filter _ _ fun i _ => hx i

/-- An accumulating scatter of real updates into a real array is real. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_sum_filter _ _ fun j _ => hu j)

/-- The rectifier `max x 0` of a real is real (the zero spelt `0`, or as the zero float word). -/
theorem isReal_relu {x : EReal} (hx : IsReal x) : IsReal (max x 0) := hx.max isReal_zero

theorem isReal_relu_word {x : EReal} (hx : IsReal x) : IsReal (max x (Ideal.ofBits .f32 0x00000000#32)) :=
  hx.max isReal_ofBits_zero

/-! ## The host's forms, read at the exact instance -/

/-- A gather reads entries of its operand: of a real array it is real, whatever the start indices. -/
theorem isReal_gather {s si t : Shape} {w : Nat} (d : GatherDims s si t) (x : s.Idx → EReal) (idx : IVec si w)
    (hx : ∀ i, IsReal (x i)) (j : t.Idx) : IsReal (Host.gather d x idx j) :=
  hx _

/-- The host's accumulating scatter is the exact one. -/
theorem host_scatterAdd_apply {s si su : Shape} {w : Nat} {φ : FTy} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

theorem isReal_host_scatterAdd {s si su : Shape} {w : Nat} {φ : FTy} (d : ScatterDims s si su) (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

/-- The host's product of real operands is real. -/
theorem isReal_host_dotGeneral {sl sr so : Shape} {φ₁ φ₂ : FTy} (d : DotDims sl sr so)
    (prec : Option ContractPrecision) (lhs : FVec Ideal sl φ₁) (rhs : FVec Ideal sr φ₂)
    (hl : ∀ i, IsReal (lhs i)) (hr : ∀ i, IsReal (rhs i)) (j : so.Idx) :
    IsReal (Host.dotGeneral d prec lhs rhs j) :=
  isReal_matmul_zero d lhs rhs hl hr j

/-! ## A degree: one plus a count, and its reciprocal square root -/

/-- A scatter of ones into zeros counts, at each element, the updates that land on it: the value is the number of
    those updates. -/
theorem scatter_ones {s si su : Shape} {w : Nat} (d : ScatterDims s si su) (z : s.Idx → EReal) (idx : IVec si w)
    (o : su.Idx → EReal) (hz : ∀ i, z i = 0) (ho : ∀ j, o j = 1) (i : s.Idx) :
    Ideal.hostScatterAdd d z idx o i
      = (((Finset.univ.filter (fun j => d.resultIdx? j idx = some i)).card : ℝ) : EReal) := by
  unfold Ideal.hostScatterAdd
  rw [hz i, zero_add, sum_ones _ o fun j _ => ho j]

/-- The count plus one is a real that is at least one … -/
theorem degree_ge_one {s si su : Shape} {w : Nat} (d : ScatterDims s si su) (z : s.Idx → EReal) (idx : IVec si w)
    (o : su.Idx → EReal) (o' : s.Idx → EReal) (hz : ∀ i, z i = 0) (ho : ∀ j, o j = 1) (ho' : ∀ i, o' i = 1)
    (i : s.Idx) : ∃ r : ℝ, 1 ≤ r ∧ Ideal.hostScatterAdd d z idx o i + o' i = (r : EReal) := by
  refine ⟨(Finset.univ.filter (fun j => d.resultIdx? j idx = some i)).card + 1, by simp, ?_⟩
  rw [scatter_ones d z idx o hz ho i, ho' i, EReal.coe_add, EReal.coe_one]

/-- … and its reciprocal square root is a positive real. -/
theorem degree_rsqrt_pos {s si su : Shape} {w : Nat} (d : ScatterDims s si su) (z : s.Idx → EReal) (idx : IVec si w)
    (o : su.Idx → EReal) (o' : s.Idx → EReal) (hz : ∀ i, z i = 0) (ho : ∀ j, o j = 1) (ho' : ∀ i, o' i = 1)
    (i : s.Idx) : ∃ t : ℝ, 0 < t ∧ Ideal.rsqrt (Ideal.hostScatterAdd d z idx o i + o' i) = (t : EReal) := by
  obtain ⟨r, hr, e⟩ := degree_ge_one d z idx o o' hz ho ho' i
  have hr0 : 0 < r := by linarith
  exact ⟨_, inv_sqrt_pos hr0, by rw [e, rsqrt_coe_pos hr0]⟩

/-- The same for the host's spelling `rsqrt (scatterAdd zeros idx ones + ones)`. -/
theorem host_degree_rsqrt_pos {s si su : Shape} {w : Nat} {φ : FTy} (d : ScatterDims s si su) (z : FVec Ideal s φ)
    (idx : IVec si w) (o : FVec Ideal su φ) (o' : FVec Ideal s φ) (hz : ∀ i, z i = 0) (ho : ∀ j, o j = 1)
    (ho' : ∀ i, o' i = 1) (i : s.Idx) :
    ∃ t : ℝ, 0 < t ∧ Host.rsqrt (addf (Host.scatterAdd d z idx o) o') i = (t : EReal) :=
  degree_rsqrt_pos d z idx o o' hz ho ho' i

theorem isReal_host_degree_rsqrt {s si su : Shape} {w : Nat} {φ : FTy} (d : ScatterDims s si su) (z : FVec Ideal s φ)
    (idx : IVec si w) (o : FVec Ideal su φ) (o' : FVec Ideal s φ) (hz : ∀ i, z i = 0) (ho : ∀ j, o j = 1)
    (ho' : ∀ i, o' i = 1) (i : s.Idx) : IsReal (Host.rsqrt (addf (Host.scatterAdd d z idx o) o') i) := by
  obtain ⟨t, _, e⟩ := host_degree_rsqrt_pos d z idx o o' hz ho ho' i
  exact ⟨t, e⟩

/-- A real is positive in the extended reals exactly when its value is. -/
theorem coe_pos_iff (r : ℝ) : (0 : EReal) < (r : EReal) ↔ 0 < r := EReal.coe_pos

/-- A real that is at least one is positive. -/
theorem pos_of_one_le {x : EReal} {r : ℝ} (hx : x = (r : EReal)) (hr : 1 ≤ r) : 0 < x := by
  rw [hx]; exact EReal.coe_pos.mpr (by linarith)

end Cert.LibReal

end
-- ==== Proof.LibRealLayout.lean ====
/-
  Re-indexings keep real entries real.

  A broadcast along given axes, a reshape, a slice at unit strides and a broadcast to a larger shape each read, at
  every result index, one entry of their operand: the result is the operand composed with an index map. If every entry
  of the operand is a real number, so is every entry of the result.
-/
import Idealize.ShloMosaic.PureOps.Ideal.Laws
import proofs.«109724_j81406810128840_1_alg».proof.Proof.LibReal

noncomputable section

namespace Cert.LibReal

open Idealize.ShloMosaic

variable {s t : Shape}

theorem isReal_broadcastInDim (dims : Fin s.rank → Fin t.rank) (h : s.BroadcastsInDim t dims) (x : s.Idx → EReal)
    (hx : ∀ i, IsReal (x i)) (j : t.Idx) : IsReal (broadcastInDim t dims h x j) := by
  unfold broadcastInDim; exact hx _

theorem isReal_shapeCast (x : s.Idx → EReal) (h : s.ShapeCasts t) (hx : ∀ i, IsReal (x i)) (j : t.Idx) :
    IsReal (shapeCast t x h j) := by
  unfold shapeCast; exact hx _

theorem isReal_extractStridedSlice (off : Fin s.rank → Nat) (x : s.Idx → EReal) (h : s.Slices off t)
    (hx : ∀ i, IsReal (x i)) (j : t.Idx) : IsReal (extractStridedSlice t off x h j) := by
  unfold extractStridedSlice; exact hx _

theorem isReal_broadcastTo (x : s.Idx → EReal) (h : s.Broadcasts t) (hx : ∀ i, IsReal (x i)) (j : t.Idx) :
    IsReal (broadcastTo t x h j) := by
  unfold broadcastTo; exact hx _

/-- A splat of a float word whose value is real. -/
theorem isReal_constant {φ : FTy} (b : BitVec φ.bits) (hb : IsReal (Ideal.ofBits φ b)) (i : s.Idx) :
    IsReal (constant (F := Ideal) s φ b i) := hb

end Cert.LibReal

end
-- ==== Proof.LibRealVec.lean ====
/-
  The entrywise float operations keep real entries real.

  At the exact reading a sum, difference, product or maximum of two arrays is the extended reals' own operation entry by
  entry; the host's quotient is the exact division and its reciprocal square root the exact one. With real operands
  (and, for the quotient, a nonzero real divisor; for the reciprocal square root, a positive operand) every entry of the
  result is real.
-/
import Idealize.ShloMosaic.PureOps.Ideal.Laws
import proofs.«109724_j81406810128840_1_alg».proof.Proof.LibReal

noncomputable section

namespace Cert.LibReal

open Idealize.ShloMosaic

variable {s : Shape} {φ : FTy}

theorem isReal_addf (x y : FVec Ideal s φ) (hx : ∀ i, IsReal (x i)) (hy : ∀ i, IsReal (y i)) (i : s.Idx) :
    IsReal (addf x y i) := (hx i).add (hy i)

theorem isReal_subf (x y : FVec Ideal s φ) (hx : ∀ i, IsReal (x i)) (hy : ∀ i, IsReal (y i)) (i : s.Idx) :
    IsReal (subf x y i) := (hx i).sub (hy i)

theorem isReal_mulf (x y : FVec Ideal s φ) (hx : ∀ i, IsReal (x i)) (hy : ∀ i, IsReal (y i)) (i : s.Idx) :
    IsReal (mulf x y i) := (hx i).mul (hy i)

theorem isReal_maximumf (x y : FVec Ideal s φ) (hx : ∀ i, IsReal (x i)) (hy : ∀ i, IsReal (y i)) (i : s.Idx) :
    IsReal (maximumf x y i) := (hx i).max (hy i)

/-- The host's quotient by an array whose entries are nonzero reals. -/
theorem isReal_host_divf (x y : FVec Ideal s φ) (hx : ∀ i, IsReal (x i)) (hy : ∀ i, IsReal (y i))
    (h0 : ∀ i, y i ≠ 0) (i : s.Idx) : IsReal (Host.divf x y i) := (hx i).div' (hy i) (h0 i)

/-- The host's reciprocal square root of an array whose entries are positive reals. -/
theorem isReal_host_rsqrt (x : FVec Ideal s φ) (hx : ∀ i, IsReal (x i)) (hpos : ∀ i, 0 < x i) (i : s.Idx) :
    IsReal (Host.rsqrt x i) := (hx i).rsqrt (hpos i)

end Cert.LibReal

end
-- ==== Proof.BrMReal.lean ====
/-
  Real entries through one layer of the reference.

  Every entry of the degree normalisation  rsqrt (1 + in-degree)  is a positive real: the in-degree is a count. So the
  per-edge coefficients and the self-loop weights are real. A layer multiplies the nodes by a weight matrix (finite sums
  of products), gathers rows, scales them, sums them into their target nodes (finite sums), adds the self-loop term and
  a bias row, and normalises by the column mean and variance (real, with a positive real normalising factor), rectifies
  and adds the layer's input back. Each of these keeps real entries real, so a layer maps real nodes and real parameters
  to real nodes; the node embedding and the slices of the stacked parameters are real when their arguments are.
-/
import Idealize.ShloMosaic.Lib.ValueIdx
import Idealize.ShloMosaic.Lib.IdealHost
import Idealize.ShloMosaic.PureOps.Ideal.Laws
import proofs.«109724_j81406810128840_1_alg».proof.Proof.Gen.ReferenceIdeal
import proofs.«109724_j81406810128840_1_alg».proof.Proof.RefDefs
import proofs.«109724_j81406810128840_1_alg».proof.Proof.LibReal
import proofs.«109724_j81406810128840_1_alg».proof.Proof.LibRealOps
import proofs.«109724_j81406810128840_1_alg».proof.Proof.LibRealLayout
import proofs.«109724_j81406810128840_1_alg».proof.Proof.LibRealVec
import proofs.«109724_j81406810128840_1_alg».proof.Proof.LibBatchNorm
import proofs.«109724_j81406810128840_1_alg».proof.Proof.BrMNorm

noncomputable section

namespace Cert.Bridge

open Idealize.ShloMosaic Idealize.ShloMosaic.ValueIdx
open Cert.ReferenceIdeal.RefRun Cert.LibReal Cert.LibBatchNorm
open scoped BigOperators

/-- The zero float word repeated over any shape reads zero. -/
theorem bcast_zero_apply {T : Shape} (h : (⟨0, ![]⟩ : Shape).BroadcastsInDim T ![]) (j : T.Idx) :
    broadcastInDim T ![] h (constant (F := Ideal) (⟨0, ![]⟩ : Shape) .f32 0x00000000#32) j = 0 := by
  rw [broadcastInDim_scalar_apply, constant_apply, Ideal.ofBits_zero_f32]

/-- The float word of one repeated over any shape reads one. -/
theorem bcast_one_apply {T : Shape} (h : (⟨0, ![]⟩ : Shape).BroadcastsInDim T ![]) (j : T.Idx) :
    broadcastInDim T ![] h (constant (F := Ideal) (⟨0, ![]⟩ : Shape) .f32 0x3F800000#32) j = 1 := by
  rw [broadcastInDim_scalar_apply, constant_apply, Ideal.ofBits_one_f32]

/-! ## The degree normalisation and the two weights built from it -/

/-- Every entry of rsqrt (1 + in-degree) is a positive real. -/
theorem res_dinv_pos (a1 : IVec (⟨2, ![2, 1600000]⟩ : Shape) 32) (i : (⟨1, ![100000]⟩ : Shape).Idx) :
    ∃ t : ℝ, 0 < t ∧ res_dinv (F := Ideal) a1 i = (t : EReal) := by
  unfold res_dinv
  exact host_degree_rsqrt_pos _ _ _ _ _ (fun i => bcast_zero_apply _ i) (fun j => bcast_one_apply _ j)
    (fun i => bcast_one_apply _ i) i

theorem isReal_res_dinv (a1 : IVec (⟨2, ![2, 1600000]⟩ : Shape) 32) (i : (⟨1, ![100000]⟩ : Shape).Idx) :
    IsReal (res_dinv (F := Ideal) a1 i) := by
  obtain ⟨t, _, e⟩ := res_dinv_pos a1 i; exact ⟨t, e⟩

/-- The per-edge coefficients dinv[source] · dinv[target] are real. -/
theorem isReal_res_coef (a1 : IVec (⟨2, ![2, 1600000]⟩ : Shape) 32) (j : (⟨2, ![1600000, 64]⟩ : Shape).Idx) :
    IsReal (res_coef (F := Ideal) a1 j) := by
  unfold res_coef
  exact isReal_broadcastInDim _ _ _ (isReal_broadcastInDim _ _ _
    (isReal_mulf _ _ (isReal_gather _ _ _ (isReal_res_dinv a1)) (isReal_gather _ _ _ (isReal_res_dinv a1)))) j

/-- The self-loop weights dinv² are real. -/
theorem isReal_res_self (a1 : IVec (⟨2, ![2, 1600000]⟩ : Shape) 32) (j : (⟨2, ![100000, 64]⟩ : Shape).Idx) :
    IsReal (res_self (F := Ideal) a1 j) := by
  unfold res_self
  exact isReal_broadcastInDim _ _ _ (isReal_broadcastInDim _ _ _
    (isReal_mulf _ _ (isReal_res_dinv a1) (isReal_res_dinv a1))) j

/-! ## One layer -/

/-- Real nodes times real weights are real. -/
theorem isReal_lay_hw (h : FVec Ideal (⟨2, ![100000, 64]⟩ : Shape) .f32) (W : FVec Ideal (⟨2, ![64, 64]⟩ : Shape) .f32)
    (hh : ∀ i, IsReal (h i)) (hW : ∀ i, IsReal (W i)) (i : (⟨2, ![100000, 64]⟩ : Shape).Idx) :
    IsReal (lay_hw (F := Ideal) h W i) := by
  unfold lay_hw
  exact isReal_host_dotGeneral _ _ _ _ hh hW i

/-- The aggregation of real rows is real. -/
theorem isReal_lay_agg (a1 : IVec (⟨2, ![2, 1600000]⟩ : Shape) 32) (hw : FVec Ideal (⟨2, ![100000, 64]⟩ : Shape) .f32)
    (hhw : ∀ i, IsReal (hw i)) (i : (⟨2, ![100000, 64]⟩ : Shape).Idx) : IsReal (lay_agg (F := Ideal) a1 hw i) := by
  unfold lay_agg
  exact isReal_host_scatterAdd _ _ _ _ (fun i => ⟨0, (bcast_zero_apply _ i).trans EReal.coe_zero.symm⟩)
    (isReal_mulf _ _ (isReal_gather _ _ _ hhw) (isReal_res_coef a1)) i

/-- The convolution's result is real when its three ingredients are. -/
theorem isReal_lay_conv_of (a1 : IVec (⟨2, ![2, 1600000]⟩ : Shape) 32)
    (hw agg : FVec Ideal (⟨2, ![100000, 64]⟩ : Shape) .f32) (cb : FVec Ideal (⟨1, ![64]⟩ : Shape) .f32)
    (hhw : ∀ i, IsReal (hw i)) (hagg : ∀ i, IsReal (agg i)) (hcb : ∀ i, IsReal (cb i))
    (i : (⟨2, ![100000, 64]⟩ : Shape).Idx) : IsReal (lay_conv (F := Ideal) a1 hw agg cb i) := by
  unfold lay_conv
  exact isReal_addf _ _ (isReal_addf _ _ hagg (isReal_mulf _ _ hhw (isReal_res_self a1)))
    (isReal_broadcastInDim _ _ _ (isReal_broadcastInDim _ _ _ hcb)) i

/-- THE CONVOLUTION OF REAL NODES IS REAL. -/
theorem isReal_lay_conv (a1 : IVec (⟨2, ![2, 1600000]⟩ : Shape) 32) (h : FVec Ideal (⟨2, ![100000, 64]⟩ : Shape) .f32)
    (W : FVec Ideal (⟨2, ![64, 64]⟩ : Shape) .f32) (cb : FVec Ideal (⟨1, ![64]⟩ : Shape) .f32)
    (hh : ∀ i, IsReal (h i)) (hW : ∀ i, IsReal (W i)) (hcb : ∀ i, IsReal (cb i))
    (i : (⟨2, ![100000, 64]⟩ : Shape).Idx) :
    IsReal (lay_conv (F := Ideal) a1 (lay_hw h W) (lay_agg a1 (lay_hw h W)) cb i) :=
  isReal_lay_conv_of a1 _ _ cb (isReal_lay_hw h W hh hW) (isReal_lay_agg a1 _ (isReal_lay_hw h W hh hW)) hcb i

/-- THE NORMALISED, RECTIFIED LAYER OUTPUT OF A REAL TABLE IS REAL. -/
theorem isReal_lay_next (A : FVec Ideal (⟨2, ![100000, 64]⟩ : Shape) .f32) (hA : ∀ i, IsReal (A i))
    (g b : FVec Ideal (⟨1, ![64]⟩ : Shape) .f32) (hg : ∀ i, IsReal (g i)) (hb : ∀ i, IsReal (b i))
    (h : FVec Ideal (⟨2, ![100000, 64]⟩ : Shape) .f32) (hh : ∀ i, IsReal (h i))
    (i : (⟨2, ![100000, 64]⟩ : Shape).Idx) :
    IsReal (lay_next (F := Ideal) A (lay_mean A) (lay_var A) g b h i) := by
  obtain ⟨r, k, rfl⟩ : ∃ (r : Fin 100000) (k : Fin 64), i = ix2 r k := ⟨i 0, i 1, eq_ix2 i⟩
  rw [lay_next_apply, lay_mean_apply, lay_var_apply]
  exact isReal_bn_dev (tbl A) (fun _ _ => hA _) (Fintype.card_fin _) (fun c => g (ix1 c)) (fun c => b (ix1 c)) (tbl h)
    (fun _ => hg _) (fun _ => hb _) (fun _ _ => hh _) r k

/-- ONE WHOLE LAYER keeps real nodes real. -/
theorem isReal_layer (a1 : IVec (⟨2, ![2, 1600000]⟩ : Shape) 32) (h : FVec Ideal (⟨2, ![100000, 64]⟩ : Shape) .f32)
    (W : FVec Ideal (⟨2, ![64, 64]⟩ : Shape) .f32) (cb g b : FVec Ideal (⟨1, ![64]⟩ : Shape) .f32)
    (hh : ∀ i, IsReal (h i)) (hW : ∀ i, IsReal (W i)) (hcb : ∀ i, IsReal (cb i)) (hg : ∀ i, IsReal (g i))
    (hb : ∀ i, IsReal (b i)) (i : (⟨2, ![100000, 64]⟩ : Shape).Idx) :
    IsReal (lay_next (F := Ideal) (lay_conv a1 (lay_hw h W) (lay_agg a1 (lay_hw h W)) cb)
      (lay_mean (lay_conv a1 (lay_hw h W) (lay_agg a1 (lay_hw h W)) cb))
      (lay_var (lay_conv a1 (lay_hw h W) (lay_agg a1 (lay_hw h W)) cb)) g b h i) :=
  isReal_lay_next _ (isReal_lay_conv a1 h W cb hh hW hcb) g b hg hb h hh i

/-! ## The node embedding and the slices of the stacked parameters -/

theorem isReal_res_h0 (a0 : FVec Ideal (⟨2, ![100000, 32]⟩ : Shape) .f32) (a3 : FVec Ideal (⟨2, ![32, 64]⟩ : Shape) .f32)
    (a4 : FVec Ideal (⟨1, ![64]⟩ : Shape) .f32) (h0 : ∀ i, IsReal (a0 i)) (h3 : ∀ i, IsReal (a3 i))
    (h4 : ∀ i, IsReal (a4 i)) (i : (⟨2, ![100000, 64]⟩ : Shape).Idx) : IsReal (res_h0 (F := Ideal) a0 a3 a4 i) := by
  unfold res_h0
  exact isReal_addf _ _ (isReal_host_dotGeneral _ _ _ _ h0 h3)
    (isReal_broadcastInDim _ _ _ (isReal_broadcastInDim _ _ _ h4)) i

theorem isReal_res_W_0 (a5 : FVec Ideal (⟨3, ![4, 64, 64]⟩ : Shape) .f32) (h5 : ∀ i, IsReal (a5 i))
    (i : (⟨2, ![64, 64]⟩ : Shape).Idx) : IsReal (res_W_0 (F := Ideal) a5 i) := by
  unfold res_W_0; exact isReal_shapeCast _ _ (isReal_extractStridedSlice _ _ _ h5) i
theorem isReal_res_W_1 (a5 : FVec Ideal (⟨3, ![4, 64, 64]⟩ : Shape) .f32) (h5 : ∀ i, IsReal (a5 i))
    (i : (⟨2, ![64, 64]⟩ : Shape).Idx) : IsReal (res_W_1 (F := Ideal) a5 i) := by
  unfold res_W_1; exact isReal_shapeCast _ _ (isReal_extractStridedSlice _ _ _ h5) i
theorem isReal_res_W_2 (a5 : FVec Ideal (⟨3, ![4, 64, 64]⟩ : Shape) .f32) (h5 : ∀ i, IsReal (a5 i))
    (i : (⟨2, ![64, 64]⟩ : Shape).Idx) : IsReal (res_W_2 (F := Ideal) a5 i) := by
  unfold res_W_2; exact isReal_shapeCast _ _ (isReal_extractStridedSlice _ _ _ h5) i
theorem isReal_res_W_3 (a5 : FVec Ideal (⟨3, ![4, 64, 64]⟩ : Shape) .f32) (h5 : ∀ i, IsReal (a5 i))
    (i : (⟨2, ![64, 64]⟩ : Shape).Idx) : IsReal (res_W_3 (F := Ideal) a5 i) := by
  unfold res_W_3; exact isReal_shapeCast _ _ (isReal_extractStridedSlice _ _ _ h5) i

theorem isReal_res_row_0 (a : FVec Ideal (⟨2, ![4, 64]⟩ : Shape) .f32) (ha : ∀ i, IsReal (a i))
    (i : (⟨1, ![64]⟩ : Shape).Idx) : IsReal (res_row_0 (F := Ideal) a i) := by
  unfold res_row_0; exact isReal_shapeCast _ _ (isReal_extractStridedSlice _ _ _ ha) i
theorem isReal_res_row_1 (a : FVec Ideal (⟨2, ![4, 64]⟩ : Shape) .f32) (ha : ∀ i, IsReal (a i))
    (i : (⟨1, ![64]⟩ : Shape).Idx) : IsReal (res_row_1 (F := Ideal) a i) := by
  unfold res_row_1; exact isReal_shapeCast _ _ (isReal_extractStridedSlice _ _ _ ha) i
theorem isReal_res_row_2 (a : FVec Ideal (⟨2, ![4, 64]⟩ : Shape) .f32) (ha : ∀ i, IsReal (a i))
    (i : (⟨1, ![64]⟩ : Shape).Idx) : IsReal (res_row_2 (F := Ideal) a i) := by
  unfold res_row_2; exact isReal_shapeCast _ _ (isReal_extractStridedSlice _ _ _ ha) i
theorem isReal_res_row_3 (a : FVec Ideal (⟨2, ![4, 64]⟩ : Shape) .f32) (ha : ∀ i, IsReal (a i))
    (i : (⟨1, ![64]⟩ : Shape).Idx) : IsReal (res_row_3 (F := Ideal) a i) := by
  unfold res_row_3; exact isReal_shapeCast _ _ (isReal_extractStridedSlice _ _ _ ha) i

end Cert.Bridge

end
-- ==== Proof.BrSBridge.lean ====
/-
  The two programs compute the same result, granted only that the two spellings of the aggregation agree.

  The normalisation's two spellings agree on an array of real entries, and real float arguments keep every layer's
  arrays real: the node embedding, the array a layer normalises, a layer's output, and the slices of the stacked
  parameters. With these the chain of the four layers, the pooling and the head closes.
-/
import proofs.«109724_j81406810128840_1_alg».proof.Proof.BrSMain
import proofs.«109724_j81406810128840_1_alg».proof.Proof.BrMNorm
import proofs.«109724_j81406810128840_1_alg».proof.Proof.BrMReal

noncomputable section

namespace Cert.Bridge

open Idealize.ShloMosaic
open Cert.ReferenceIdeal Cert.ReferenceIdeal.Facts₀ Cert.ReferenceIdeal.Facts Cert.ReferenceIdeal.RefRun
open Cert.KernelIdeal.KChain Cert.KernelIdeal.KVal Cert.LibReal

/-- The two normalisations agree on an array of real entries. -/
theorem normLaw : NormLaw := fun A R hA g b hc => bn_kernel_eq_reference A R hA g b hc

/-- Real float arguments keep the layers' arrays real. -/
theorem realFacts : RealFacts where
  embed := fun a0 a3 a4 h0 h3 h4 i => isReal_res_h0 a0 a3 a4 h0 h3 h4 i
  conv := fun a1 h W cb hh hW hcb i => isReal_lay_conv a1 h W cb hh hW hcb i
  next := fun X g b h hX hg hb hh i => isReal_lay_next X hX g b hg hb h hh i
  W0 := fun a5 h5 i => isReal_res_W_0 a5 h5 i
  row0 := fun a ha i => isReal_res_row_0 a ha i
  W1 := fun a5 h5 i => isReal_res_W_1 a5 h5 i
  row1 := fun a ha i => isReal_res_row_1 a ha i
  W2 := fun a5 h5 i => isReal_res_W_2 a5 h5 i
  row2 := fun a ha i => isReal_res_row_2 a ha i
  W3 := fun a5 h5 i => isReal_res_W_3 a5 h5 i
  row3 := fun a ha i => isReal_res_row_3 a ha i

/-- The result of one program is the other's term of the same thirteen arguments, when the float arguments the layers
    read are real and the two aggregations agree. -/
theorem bridge_of_agg (hagg : AggLaw) (A : Args) (h0 : ∀ i, IsReal (A.a0 i)) (h3 : ∀ i, IsReal (A.a3 i)) (h4 : ∀ i, IsReal (A.a4 i)) (h5 : ∀ i, IsReal (A.a5 i))
    (h6 : ∀ i, IsReal (A.a6 i)) (h7 : ∀ i, IsReal (A.a7 i)) (h8 : ∀ i, IsReal (A.a8 i)) :
    k_v179 A = out (F := Ideal) A.a0 A.a1 A.a2 A.a3 A.a4 A.a5 A.a6 A.a7 A.a8 A.a9 A.a10 A.a11 A.a12 :=
  bridge_of hagg normLaw realFacts A h0 h3 h4 h5 h6 h7 h8

end Cert.Bridge

end
-- ==== Proof.LibGatherScatter.lean ====
/-
  STABLEHLO GATHER / SCATTER INDEX ARITHMETIC for the row-selection dimension numbers: an operand of N rows (of C
  columns, or flat), E start indices held as an [E, 1] array (index vector on axis 1, one component, naming operand
  axis 0), one row per start index.

  * gather of rows: result row e is the operand's row at the start index idx[e, 0] read signed and clamped into
    [0, N - 1] (the slice is one row high), the column kept;
  * scatter of rows: update row e lands on operand row idx[e, 0] read signed and NOT clamped, the column kept; so an
    update that lands on row i0 has start index exactly i0;
  * a word fact: the wrap of a possibly negative index (add the extent when the sign bit is set) leaves a non-negative
    word unchanged.
-/
import Idealize.ShloMosaic.Lib.ValueIdx

namespace Cert.LibGatherScatter

open Idealize.ShloMosaic Idealize.ShloMosaic.ValueIdx

/-- A rank-1 index's coordinate is below the extent, stated with the extent n itself. -/
theorem idx1_lt0 {n : Nat} (j : (⟨1, ![n]⟩ : Shape).Idx) : (j 0).val < n := (j 0).isLt

/-! ## The dimension records -/

/-- Gather of rows of an [N, C] operand at E start indices: offset axis 1 of the result reads the operand's axis 1
    whole (slice [1, C]), operand axis 0 is collapsed and is the one the start index names. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of elements of a flat [N] operand at E start indices. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of E update rows into an [N, C] operand: update axis 1 is the window axis (it goes to operand axis 1),
    operand axis 0 is inserted and is the one the scatter index names. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of E update elements into a flat [N] operand. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## Gather -/

/-- THE FLAT GATHER'S OPERAND INDEX at result index e: the start index idx[e, 0], read signed and clamped into
    [0, N - 1]. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    (vecGather N E wf).operandIdx e idx
      = ix1 ⟨min (idx (ix2 ⟨(e 0).val, idx1_lt0 e⟩ (0 : Fin 1))).toInt.toNat (N - 1), by omega⟩ := by
  funext a
  obtain rfl : a = 0 := Subsingleton.elim _ _
  refine Fin.ext ?_
  show (vecGather N E wf).start e idx 0 + (vecGather N E wf).batchCoord e 0 + (vecGather N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx e ⟨List.idxOf (0 : Fin 1) (vecGather N E wf).startIndexMap,
      List.idxOf_lt_length_iff.2 (List.mem_singleton.mpr rfl)⟩ = ix2 ⟨(e 0).val, idx1_lt0 e⟩ (0 : Fin 1) := by
    funext b; refine Fin.ext ?_
    match b with
    | ⟨0, _⟩ => rfl
    | ⟨1, _⟩ => rfl
  rw [hsi]
  rfl

/-- THE ROW GATHER'S OPERAND INDEX at result index (e, c): row the start index idx[e, 0], read signed and clamped into
    [0, N - 1] (the slice is one row high), column c. -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    (rowGather N E C wf).operandIdx y idx
      = ix2 ⟨min (idx (ix2 ⟨(y 0).val, idx2_lt0 y⟩ (0 : Fin 1))).toInt.toNat (N - 1), by omega⟩
          ⟨(y 1).val, idx2_lt1 y⟩ := by
  funext a
  refine Fin.ext ?_
  match a with
  | ⟨0, _⟩ =>
    show (rowGather N E C wf).start y idx 0 + (rowGather N E C wf).batchCoord y 0 + (rowGather N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx y ⟨List.idxOf (0 : Fin 2) (rowGather N E C wf).startIndexMap,
        List.idxOf_lt_length_iff.2 (List.mem_singleton.mpr rfl)⟩ = ix2 ⟨(y 0).val, idx2_lt0 y⟩ (0 : Fin 1) := by
      funext b; refine Fin.ext ?_
      match b with
      | ⟨0, _⟩ => rfl
      | ⟨1, _⟩ => rfl
    rw [hsi]
    rfl
  | ⟨1, _⟩ =>
    show (rowGather N E C wf).start y idx 1 + (rowGather N E C wf).batchCoord y 1 + (rowGather N E C wf).offCoord y 1 = _
    rw [GatherDims.batchCoord_eq_zero _ _ _ List.not_mem_nil]
    have hst : (rowGather N E C wf).start y idx 1 = 0 := by
      unfold GatherDims.start
      rw [dif_neg (fun h : (1 : Fin 2) ∈ (rowGather N E C wf).startIndexMap =>
        absurd (List.mem_singleton.mp h) (show ¬ (1 : Fin 2) = 0 by decide))]
    rw [hst]
    simp only [Nat.add_zero, Nat.zero_add]
    rfl

/-! ## Scatter -/

/-- WHERE A ROW SCATTER'S UPDATE LANDS: update (e, c) lands on operand element i exactly when the start index
    idx[e, 0], read signed and not clamped, is i's row, and c is i's column (the window coordinate on the inserted
    axis 0 is 0, on axis 1 it is c). -/
theorem rowScatter_resultIdx_iff {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx) :
    (rowScatter N E C wf).resultIdx? y idx = some i ↔
      (idx (ix2 ⟨(y 0).val, idx2_lt0 y⟩ (0 : Fin 1))).toInt = ((i 0).val : ℤ) ∧ (y 1).val = (i 1).val := by
  have hsi : (rowScatter N E C wf).siIdx y ⟨List.idxOf (0 : Fin 2) (rowScatter N E C wf).scatterDimsToOperandDims,
      List.idxOf_lt_length_iff.2 (List.mem_singleton.mpr rfl)⟩ = ix2 ⟨(y 0).val, idx2_lt0 y⟩ (0 : Fin 1) := by
    funext b; refine Fin.ext ?_
    match b with
    | ⟨0, _⟩ => rfl
    | ⟨1, _⟩ => rfl
  have hs0 : (rowScatter N E C wf).start y idx 0 = (idx (ix2 ⟨(y 0).val, idx2_lt0 y⟩ (0 : Fin 1))).toInt := by
    unfold ScatterDims.start
    rw [dif_pos (show (0 : Fin 2) ∈ (rowScatter N E C wf).scatterDimsToOperandDims from List.mem_singleton.mpr rfl), hsi]
  have hs1 : (rowScatter N E C wf).start y idx 1 = 0 := by
    unfold ScatterDims.start
    rw [dif_neg (fun h : (1 : Fin 2) ∈ (rowScatter N E C wf).scatterDimsToOperandDims =>
      absurd (List.mem_singleton.mp h) (show ¬ (1 : Fin 2) = 0 by decide))]
  have hw0 : (rowScatter N E C wf).window y 0 = 0 := by
    unfold ScatterDims.window
    rw [dif_neg (show (0 : Fin 2) ∉ (rowScatter N E C wf).sKept by
      simp [ScatterDims.sKept, Shape.kept, List.mem_filter])]
  have hw1 : (rowScatter N E C wf).window y 1 = (y 1).val := by
    unfold ScatterDims.window
    rw [dif_pos (show (1 : Fin 2) ∈ (rowScatter N E C wf).sKept by
      simp [ScatterDims.sKept, Shape.kept, List.mem_filter, List.mem_finRange])]
    rfl
  have hi0 := idx2_lt0 i
  have hi1 := idx2_lt1 i
  have hy1 := idx2_lt1 y
  unfold ScatterDims.resultIdx?
  constructor
  · intro h
    split at h
    · rename_i hall
      have hi := Option.some.inj h
      have e0 : (i 0).val = ((rowScatter N E C wf).start y idx 0 + ((rowScatter N E C wf).window y 0 : ℕ)).toNat := by
        rw [← hi]
      have e1 : (i 1).val = ((rowScatter N E C wf).start y idx 1 + ((rowScatter N E C wf).window y 1 : ℕ)).toNat := by
        rw [← hi]
      have h0 := (hall 0).1
      rw [hs0, hw0] at e0 h0
      rw [hs1, hw1] at e1
      constructor <;> omega
    · cases h
  · rintro ⟨h0, h1⟩
    have hall : ∀ a, 0 ≤ (rowScatter N E C wf).start y idx a + ((rowScatter N E C wf).window y a : ℕ) ∧
        (rowScatter N E C wf).start y idx a + ((rowScatter N E C wf).window y a : ℕ)
          < ((⟨2, ![N, C]⟩ : Shape).size a : ℕ) := by
      intro a
      match a with
      | ⟨0, _⟩ =>
        show 0 ≤ (rowScatter N E C wf).start y idx 0 + ((rowScatter N E C wf).window y 0 : ℕ) ∧
          (rowScatter N E C wf).start y idx 0 + ((rowScatter N E C wf).window y 0 : ℕ) < (N : ℤ)
        rw [hs0, hw0]; omega
      | ⟨1, _⟩ =>
        show 0 ≤ (rowScatter N E C wf).start y idx 1 + ((rowScatter N E C wf).window y 1 : ℕ) ∧
          (rowScatter N E C wf).start y idx 1 + ((rowScatter N E C wf).window y 1 : ℕ) < (C : ℤ)
        rw [hs1, hw1]; omega
    rw [dif_pos hall]
    congr 1
    funext a
    refine Fin.ext ?_
    match a with
    | ⟨0, _⟩ =>
      show ((rowScatter N E C wf).start y idx 0 + ((rowScatter N E C wf).window y 0 : ℕ)).toNat = (i 0).val
      rw [hs0, hw0]; omega
    | ⟨1, _⟩ =>
      show ((rowScatter N E C wf).start y idx 1 + ((rowScatter N E C wf).window y 1 : ℕ)).toNat = (i 1).val
      rw [hs1, hw1]; omega

/-- An update of a row scatter that lands on row i0 has start index exactly i0 (read signed, not clamped). -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx)
    (h : (rowScatter N E C wf).resultIdx? y idx = some i) :
    (idx (ix2 ⟨(y 0).val, idx2_lt0 y⟩ (0 : Fin 1))).toInt = ((i 0).val : ℤ) :=
  ((rowScatter_resultIdx_iff wf idx y i).mp h).1

/-- ... and keeps its column. -/
theorem rowScatter_lands_col {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx) (i : (⟨2, ![N, C]⟩ : Shape).Idx)
    (h : (rowScatter N E C wf).resultIdx? y idx = some i) : (y 1).val = (i 1).val :=
  ((rowScatter_resultIdx_iff wf idx y i).mp h).2

/-- WHERE A FLAT SCATTER'S UPDATE LANDS: update e lands on operand element i exactly when the start index idx[e, 0],
    read signed and not clamped, is i (there is no window axis; the window coordinate on the inserted axis 0 is 0). -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : (⟨1, ![E]⟩ : Shape).Idx) (i : (⟨1, ![N]⟩ : Shape).Idx) :
    (vecScatter N E wf).resultIdx? e idx = some i ↔
      (idx (ix2 ⟨(e 0).val, idx1_lt0 e⟩ (0 : Fin 1))).toInt = ((i 0).val : ℤ) := by
  have hsi : (vecScatter N E wf).siIdx e ⟨List.idxOf (0 : Fin 1) (vecScatter N E wf).scatterDimsToOperandDims,
      List.idxOf_lt_length_iff.2 (List.mem_singleton.mpr rfl)⟩ = ix2 ⟨(e 0).val, idx1_lt0 e⟩ (0 : Fin 1) := by
    funext b; refine Fin.ext ?_
    match b with
    | ⟨0, _⟩ => rfl
    | ⟨1, _⟩ => rfl
  have hs0 : (vecScatter N E wf).start e idx 0 = (idx (ix2 ⟨(e 0).val, idx1_lt0 e⟩ (0 : Fin 1))).toInt := by
    unfold ScatterDims.start
    rw [dif_pos (show (0 : Fin 1) ∈ (vecScatter N E wf).scatterDimsToOperandDims from List.mem_singleton.mpr rfl), hsi]
  have hw0 : (vecScatter N E wf).window e 0 = 0 := by
    unfold ScatterDims.window
    rw [dif_neg (show (0 : Fin 1) ∉ (vecScatter N E wf).sKept by
      simp [ScatterDims.sKept, Shape.kept, List.mem_filter])]
  have hi0 := idx1_lt0 i
  unfold ScatterDims.resultIdx?
  constructor
  · intro h
    split at h
    · rename_i hall
      have hi := Option.some.inj h
      have e0 : (i 0).val = ((vecScatter N E wf).start e idx 0 + ((vecScatter N E wf).window e 0 : ℕ)).toNat := by
        rw [← hi]
      have h0 := (hall 0).1
      rw [hs0, hw0] at e0 h0
      omega
    · cases h
  · intro h0
    have hall : ∀ a, 0 ≤ (vecScatter N E wf).start e idx a + ((vecScatter N E wf).window e a : ℕ) ∧
        (vecScatter N E wf).start e idx a + ((vecScatter N E wf).window e a : ℕ)
          < ((⟨1, ![N]⟩ : Shape).size a : ℕ) := by
      intro a
      obtain rfl : a = 0 := Subsingleton.elim _ _
      show 0 ≤ (vecScatter N E wf).start e idx 0 + ((vecScatter N E wf).window e 0 : ℕ) ∧
        (vecScatter N E wf).start e idx 0 + ((vecScatter N E wf).window e 0 : ℕ) < (N : ℤ)
      rw [hs0, hw0]; omega
    rw [dif_pos hall]
    congr 1
    funext a
    obtain rfl : a = 0 := Subsingleton.elim _ _
    refine Fin.ext ?_
    show ((vecScatter N E wf).start e idx 0 + ((vecScatter N E wf).window e 0 : ℕ)).toNat = (i 0).val
    rw [hs0, hw0]; omega

/-- An update of a flat scatter that lands on element i has start index exactly i (read signed, not clamped). -/
theorem vecScatter_lands {N E w : Nat}
    (wf : ScatterDims.WF ⟨1, ![N]⟩ ⟨2, ![E, 1]⟩ ⟨1, ![E]⟩ [] [0] [0] 1)
    (idx : IVec ⟨2, ![E, 1]⟩ w) (e : (⟨1, ![E]⟩ : Shape).Idx) (i : (⟨1, ![N]⟩ : Shape).Idx)
    (h : (vecScatter N E wf).resultIdx? e idx = some i) :
    (idx (ix2 ⟨(e 0).val, idx1_lt0 e⟩ (0 : Fin 1))).toInt = ((i 0).val : ℤ) :=
  (vecScatter_resultIdx_iff wf idx e i).mp h

/-! ## Words: the wrap of a possibly negative index -/

/-- A signed compare of a non-negative word with zero answers "not below". -/
theorem cmpi_slt_zero_of_nonneg {w : Nat} (v : BitVec w) (hv : 0 ≤ v.toInt) : IntOp.cmpi .slt v 0#w = 0#1 := by
  have h : v.slt 0#w = false := by
    simp only [BitVec.slt, BitVec.toInt_zero, decide_eq_false_iff_not, not_lt]; exact hv
  simp only [IntOp.cmpi, h]; rfl

/-- The wrap "add k when below zero" leaves a non-negative word unchanged. -/
theorem select_wrap_of_nonneg (v k : BitVec 32) (hv : 0 ≤ v.toInt) :
    Scalar.select (IntOp.cmpi .slt v 0#32) (IntOp.addi v k) v = v := by
  rw [cmpi_slt_zero_of_nonneg v hv]; exact select_zero _ _

/-- A signed compare of a negative word with zero answers "below". -/
theorem cmpi_slt_zero_of_neg {w : Nat} (v : BitVec w) (hv : v.toInt < 0) : IntOp.cmpi .slt v 0#w = 1#1 := by
  have h : v.slt 0#w = true := by
    simp only [BitVec.slt, BitVec.toInt_zero, decide_eq_true_eq]; exact hv
  simp only [IntOp.cmpi, h]; rfl

/-- The wrap "add k when below zero" adds k to a negative word. -/
theorem select_wrap_of_neg (v k : BitVec 32) (hv : v.toInt < 0) :
    Scalar.select (IntOp.cmpi .slt v 0#32) (IntOp.addi v k) v = v + k := by
  rw [cmpi_slt_zero_of_neg v hv]; exact select_one _ _

/-- A non-negative signed reading below the extent is its own clamp into [0, N - 1]. -/
theorem clamp_of_lt {N : Nat} (z : ℤ) (i : Nat) (hz : z = (i : ℤ)) (hi : i < N) : min z.toNat (N - 1) = i := by
  subst hz; simp only [Int.toNat_natCast]; omega

end Cert.LibGatherScatter
-- ==== Proof.LibScatterRows.lean ====
/-
  THE EXACT SCATTER-ADD OF ROWS, AS A SUM OVER THE UPDATE ROWS WITH AN INDICATOR.

  At the exact instance a scatter-add of E update rows into an [N, C] operand has, at (n, c), the operand's entry plus
  the sum over ALL update rows e of "the entry (e, c) if row e's start index, read signed, is n, else 0". The
  indicator form splits over a concatenated update list by splitting the range of e, and a run of updates whose
  start indices are their own positions contributes exactly one term.
-/
import proofs.«109724_j81406810128840_1_alg».proof.Proof.LibGatherScatter
import Idealize.ShloMosaic.PureOps.Ideal

noncomputable section

namespace Cert.LibScatterRows

open Idealize.ShloMosaic Idealize.ShloMosaic.ValueIdx Cert.LibGatherScatter

/-- The landing condition of update entry (e, b) on operand entry (n, c). -/
theorem lands_iff {N E C w : Nat} (wf : ScatterDims.WF ⟨2, ![N, C]⟩ ⟨2, ![E, 1]⟩ ⟨2, ![E, C]⟩ [1] [0] [0] 1)
    (idx : IVec ⟨2, ![E, 1]⟩ w) (e : Fin E) (b : Fin C) (n : Fin N) (c : Fin C) :
    (rowScatter N E C wf).resultIdx? (ix2 e b) idx = some (ix2 n c) ↔
      ((idx (ix2 e (0 : Fin 1))).toInt = (n.val : ℤ) ∧ b = c) := by
  rw [rowScatter_resultIdx_iff]
  constructor
  · rintro ⟨h0, h1⟩; exact ⟨h0, Fin.ext h1⟩
  · rintro ⟨h0, rfl⟩; exact ⟨h0, rfl⟩

/-- The sum of the update entries landing on (n, c), as an indicator sum over the update rows. -/
theorem rowScatter_filter_sum {N E C w : Nat} (wf : ScatterDims.WF ⟨2, ![N, C]⟩ ⟨2, ![E, 1]⟩ ⟨2, ![E, C]⟩ [1] [0] [0] 1)
    (idx : IVec ⟨2, ![E, 1]⟩ w) (upd : (⟨2, ![E, C]⟩ : Shape).Idx → EReal) (n : Fin N) (c : Fin C) :
    (∑ j ∈ Finset.univ.filter (fun j => (rowScatter N E C wf).resultIdx? j idx = some (ix2 n c)), upd j)
      = ∑ e : Fin E, if (idx (ix2 e (0 : Fin 1))).toInt = (n.val : ℤ) then upd (ix2 e c) else 0 := by
  rw [Finset.sum_filter, sum_idx2]
  refine Finset.sum_congr rfl fun e _ => ?_
  by_cases h : (idx (ix2 e (0 : Fin 1))).toInt = (n.val : ℤ)
  · rw [if_pos h]
    have : ∀ b : Fin C, (if (rowScatter N E C wf).resultIdx? (ix2 e b) idx = some (ix2 n c) then upd (ix2 e b) else 0)
        = if b = c then upd (ix2 e b) else 0 := fun b => by
      by_cases hb : b = c
      · rw [if_pos ((lands_iff wf idx e b n c).mpr ⟨h, hb⟩), if_pos hb]
      · rw [if_neg (fun hl => hb ((lands_iff wf idx e b n c).mp hl).2), if_neg hb]
    rw [Finset.sum_congr rfl fun b _ => this b, Finset.sum_ite_eq' Finset.univ c]
    simp
  · rw [if_neg h]
    refine Finset.sum_eq_zero fun b _ => ?_
    rw [if_neg (fun hl => h ((lands_iff wf idx e b n c).mp hl).1)]

/-- The scatter-add of rows at (n, c): the operand's entry plus the indicator sum over the update rows. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatter N E C wf) x idx upd (ix2 n c)
      = x (ix2 n c) + ∑ e : Fin E, if (idx (ix2 e (0 : Fin 1))).toInt = (n.val : ℤ) then upd (ix2 e c) else 0 := by
  unfold Ideal.hostScatterAdd
  congr 1
  exact rowScatter_filter_sum wf idx upd n c

/-- The landing condition of update entry e of a flat scatter on operand entry n. -/
theorem landsVec_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : ℤ) :=
  vecScatter_resultIdx_iff wf idx (ix1 e) (ix1 n)

/-- An indicator sum over a concatenated range splits into the two ranges. -/
theorem sum_ite_concat {E n : Nat} (p : Fin (E + n) → Prop) [DecidablePred p] (f : Fin (E + n) → EReal) :
    (∑ j : Fin (E + n), if p j then f j else 0)
      = (∑ e : Fin E, if p (Fin.castAdd n e) then f (Fin.castAdd n e) else 0)
        + ∑ k : Fin n, if p (Fin.natAdd E k) then f (Fin.natAdd E k) else 0 :=
  Fin.sum_univ_add _

/-- An indicator sum whose condition singles out one position is that position's term. -/
theorem sum_ite_single {n : Nat} (p : Fin n → Prop) [DecidablePred p] (f : Fin n → EReal) (i : Fin n)
    (h : ∀ k, p k ↔ k = i) : (∑ k : Fin n, if p k then f k else 0) = f i := by
  rw [Finset.sum_congr rfl fun k _ => if_congr (h k) rfl rfl, Finset.sum_ite_eq' Finset.univ i]
  simp

end Cert.LibScatterRows

end
-- ==== Proof.LibHostRead.lean ====
/-
  HOST LAYOUT OPERATIONS READ AT AN INDEX, general in the extents: a vector laid out as a column, a column repeated
  along a new second axis, a two-piece concatenation of vectors, and the row an iota names.
-/
import Idealize.ShloMosaic.Lib.ValueIdx
import Idealize.ShloMosaic.Lib.Pipeline.Value
import Idealize.ShloMosaic.Lib.IdealHost

noncomputable section

namespace Cert.LibHostRead

open Idealize.ShloMosaic Idealize.ShloMosaic.ValueIdx

variable {α : Type}

/-- A vector [E] laid out as the column [E, 1]: entry (e, 0) is entry e. -/
theorem bcast_col_apply {E : Nat} (h : (⟨1, ![E]⟩ : Shape).BroadcastsInDim ⟨2, ![E, 1]⟩ ![0])
    (x : (⟨1, ![E]⟩ : Shape).Idx → α) (e : Fin E) :
    broadcastInDim (⟨2, ![E, 1]⟩ : Shape) ![0] h x (ix2 e (0 : Fin 1)) = x (ix1 e) := by
  refine broadcastInDim_apply _ h x _ (ix1 e) fun a => ?_
  match a with
  | ⟨0, _⟩ =>
    split_ifs with h1
    · have : E = 1 := h1
      subst this
      exact Fin.val_eq_zero e
    · rfl

/-- A column [E, 1] repeated along the second axis to [E, C]: entry (e, c) is the column's entry (e, 0). -/
theorem bcast_cols_apply {E C : Nat} (h : (⟨2, ![E, 1]⟩ : Shape).BroadcastsInDim ⟨2, ![E, C]⟩ ![0, 1])
    (x : (⟨2, ![E, 1]⟩ : Shape).Idx → α) (e : Fin E) (c : Fin C) :
    broadcastInDim (⟨2, ![E, C]⟩ : Shape) ![0, 1] h x (ix2 e c) = x (ix2 e (0 : Fin 1)) := by
  refine broadcastInDim_apply _ h x _ (ix2 e (0 : Fin 1)) fun a => ?_
  match a with
  | ⟨0, _⟩ =>
    split_ifs with h1
    · have : E = 1 := h1
      subst this
      exact Fin.val_eq_zero e
    · rfl
  | ⟨1, _⟩ =>
    split_ifs with h1
    · rfl
    · exact absurd rfl h1

/-- A two-piece concatenation of vectors at a position of the first piece. -/
theorem concat_left {E n : Nat} (x₁ : (⟨1, ![E]⟩ : Shape).Idx → α) (x₂ : (⟨1, ![n]⟩ : Shape).Idx → α)
    (h : Shape.Concatenates [(⟨1, ![E]⟩ : Shape), ⟨1, ![n]⟩] ⟨1, ![E + n]⟩ 0) (e : Fin E) :
    concatenate (⟨1, ![E + n]⟩ : Shape) 0 [⟨⟨1, ![E]⟩, x₁⟩, ⟨⟨1, ![n]⟩, x₂⟩] h (ix1 (Fin.castAdd n e)) = x₁ (ix1 e) :=
  concatenate_pair_apply_left 0 x₁ x₂ h _ rfl (ix1 e) fun b => by
    match b with
    | ⟨0, _⟩ => rfl

/-- A two-piece concatenation of vectors at a position of the second piece. -/
theorem concat_right {E n : Nat} (x₁ : (⟨1, ![E]⟩ : Shape).Idx → α) (x₂ : (⟨1, ![n]⟩ : Shape).Idx → α)
    (h : Shape.Concatenates [(⟨1, ![E]⟩ : Shape), ⟨1, ![n]⟩] ⟨1, ![E + n]⟩ 0) (k : Fin n) :
    concatenate (⟨1, ![E + n]⟩ : Shape) 0 [⟨⟨1, ![E]⟩, x₁⟩, ⟨⟨1, ![n]⟩, x₂⟩] h (ix1 (Fin.natAdd E k)) = x₂ (ix1 k) :=
  concatenate_pair_apply_right 0 x₁ x₂ h _ rfl rfl (ix1 k)
    (fun b hb => by
      match b with
      | ⟨0, _⟩ => exact absurd rfl hb)
    (by show k.val + E = E + k.val; omega)

/-- A two-piece concatenation of vectors of total extent T at a position below the first extent. -/
theorem concat_left' {E n T : Nat} (x₁ : (⟨1, ![E]⟩ : Shape).Idx → α) (x₂ : (⟨1, ![n]⟩ : Shape).Idx → α)
    (h : Shape.Concatenates [(⟨1, ![E]⟩ : Shape), ⟨1, ![n]⟩] ⟨1, ![T]⟩ 0) (j : Fin T) (e : Fin E) (hj : j.val = e.val) :
    concatenate (⟨1, ![T]⟩ : Shape) 0 [⟨⟨1, ![E]⟩, x₁⟩, ⟨⟨1, ![n]⟩, x₂⟩] h (ix1 j) = x₁ (ix1 e) :=
  concatenate_pair_apply_left 0 x₁ x₂ h _ rfl (ix1 e) fun b => by
    match b with
    | ⟨0, _⟩ => exact hj.symm

/-- A two-piece concatenation of vectors of total extent T at a position from the first extent on. -/
theorem concat_right' {E n T : Nat} (x₁ : (⟨1, ![E]⟩ : Shape).Idx → α) (x₂ : (⟨1, ![n]⟩ : Shape).Idx → α)
    (h : Shape.Concatenates [(⟨1, ![E]⟩ : Shape), ⟨1, ![n]⟩] ⟨1, ![T]⟩ 0) (j : Fin T) (k : Fin n) (hj : j.val = E + k.val) :
    concatenate (⟨1, ![T]⟩ : Shape) 0 [⟨⟨1, ![E]⟩, x₁⟩, ⟨⟨1, ![n]⟩, x₂⟩] h (ix1 j) = x₂ (ix1 k) :=
  concatenate_pair_apply_right 0 x₁ x₂ h _ rfl rfl (ix1 k)
    (fun b hb => by
      match b with
      | ⟨0, _⟩ => exact absurd rfl hb)
    (by show k.val + E = j.val; omega)

/-- A sum over a range of extent T = E + n splits into its first E and its last n positions. -/
theorem sum_split {M : Type} [AddCommMonoid M] {E n T : Nat} (hT : E + n = T) (f : Fin T → M) :
    (∑ j : Fin T, f j) = (∑ e : Fin E, f ⟨e.val, by omega⟩) + ∑ k : Fin n, f ⟨E + k.val, by omega⟩ := by
  subst hT
  rw [Fin.sum_univ_add]
  rfl

/-- A 32-bit word that is a natural number below 2^31, read signed, is that number. -/
theorem toInt_ofNat_lt (k : Nat) (hk : k < 2 ^ 31) : (BitVec.ofNat 32 k).toInt = (k : ℤ) := by
  have h1 : (BitVec.ofNat 32 k).toNat = k := by
    rw [BitVec.toNat_ofNat]; exact Nat.mod_eq_of_lt (by omega)
  rw [BitVec.toInt_eq_toNat_cond, h1]
  split_ifs <;> omega

end Cert.LibHostRead

end
-- ==== Proof.AggLaw.lean ====
/-
  THE AGGREGATION, TWO WAYS.

  The kernel program appends one self-loop per node to the edge list (source = target = the node, weight dinv²) and
  makes ONE scatter-add over the 1600000 + 100000 rows; the reference makes the scatter-add over the 1600000 edges and
  adds the self term hw · dinv² afterwards. At (n, c) the first is  0 + Σ over all rows j landing on n of
  hw[row of j, c] · w j ; splitting the range of j into edges and self-loops, the self-loops' start indices are their
  own positions (an iota), non-negative and in range, so exactly the n-th lands on n and contributes
  hw[n, c] · dinv n · dinv n; the edges' rows read the same gathers as the reference's. Only associativity of + is
  used.
-/
import proofs.«109724_j81406810128840_1_alg».proof.Proof.KChainDefs
import proofs.«109724_j81406810128840_1_alg».proof.Proof.RefDefs
import proofs.«109724_j81406810128840_1_alg».proof.Proof.Gen.ReferenceIdeal
import proofs.«109724_j81406810128840_1_alg».proof.Proof.LibScatterRows
import proofs.«109724_j81406810128840_1_alg».proof.Proof.LibHostRead
import proofs.«109724_j81406810128840_1_alg».proof.Proof.LibRealOps
import proofs.«109724_j81406810128840_1_alg».proof.Proof.BrSEdge

set_option maxHeartbeats 1000000

noncomputable section

namespace Cert.Bridge

open Idealize.ShloMosaic Idealize.ShloMosaic.ValueIdx
open Cert.KernelIdeal.KChain Cert.ReferenceIdeal.RefRun
open Cert.LibScatterRows Cert.LibHostRead Cert.LibGatherScatter

/-- The wrap of a possibly negative node index: 100000 is added to a negative one. -/
def wrapW (v : BitVec 32) : BitVec 32 :=
  Scalar.select (IntOp.cmpi .slt v 0#32) (IntOp.addi v 100000#32) v

/-- The row a gather reads for a start index word: wrapped, read signed, clamped into the 100000 rows. -/
def gRow (v : BitVec 32) : Fin 100000 := ⟨min (wrapW v).toInt.toNat (100000 - 1), by omega⟩

theorem gRow_ofNat (k : Fin 100000) : gRow (BitVec.ofNat 32 k.val) = k := by
  have hk : (BitVec.ofNat 32 k.val).toInt = (k.val : ℤ) := toInt_ofNat_lt k.val (by have := k.isLt; omega)
  have hw : wrapW (BitVec.ofNat 32 k.val) = BitVec.ofNat 32 k.val := select_wrap_of_nonneg _ _ (by rw [hk]; omega)
  refine Fin.ext ?_
  show min (wrapW (BitVec.ofNat 32 k.val)).toInt.toNat (100000 - 1) = k.val
  rw [hw]
  exact clamp_of_lt _ k.val hk k.isLt

theorem scatK_eq : Cert.KernelIdeal.scatter_S100000x64_S1700000x1_S1700000x64_1_0_0_1
    = rowScatter 100000 1700000 64 Cert.KernelIdeal.Facts₀.scatter_S100000x64_S1700000x1_S1700000x64_1_0_0_1_wf := rfl
theorem gathK_eq : Cert.KernelIdeal.gather_S100000x64_S1700000x1_S1700000x64_1_0_n_n_0_1_164
    = rowGather 100000 1700000 64 Cert.KernelIdeal.Facts₀.gather_S100000x64_S1700000x1_S1700000x64_1_0_n_n_0_1_164_wf := rfl
theorem scatR_eq : Cert.ReferenceIdeal.scatter_S100000x64_S1600000x1_S1600000x64_1_0_0_1
    = rowScatter 100000 1600000 64 Cert.ReferenceIdeal.Facts₀.scatter_S100000x64_S1600000x1_S1600000x64_1_0_0_1_wf := rfl
theorem gathR_eq : Cert.ReferenceIdeal.gather_S100000x64_S1600000x1_S1600000x64_1_0_n_n_0_1_164
    = rowGather 100000 1600000 64 Cert.ReferenceIdeal.Facts₀.gather_S100000x64_S1600000x1_S1600000x64_1_0_n_n_0_1_164_wf := rfl

/-! ## The extended lists read at a position -/

/-- The extended index list at an edge's position is the edge's word. -/
theorem ext_left (x : IVec (⟨1, ![1600000]⟩ : Shape) 32) (j : Fin 1700000) (e : Fin 1600000) (hj : j.val = e.val) :
    kf_v28 (F := Ideal) x (ix1 j) = x (ix1 e) := by
  unfold kf_v28
  exact concat_left' _ _ _ j e hj

/-- The extended index list at a self-loop's position is the node's number as a word. -/
theorem ext_right (x : IVec (⟨1, ![1600000]⟩ : Shape) 32) (j : Fin 1700000) (k : Fin 100000) (hj : j.val = 1600000 + k.val) :
    kf_v28 (F := Ideal) x (ix1 j) = BitVec.ofNat 32 k.val := by
  unfold kf_v28
  exact (concat_right' _ _ _ j k hj).trans rfl

/-- The extended weight list at an edge's position is the edge's weight. -/
theorem wext_left (sc : FVec Ideal (⟨1, ![1600000]⟩ : Shape) .f32) (d2 : FVec Ideal (⟨1, ![100000]⟩ : Shape) .f32)
    (j : Fin 1700000) (e : Fin 1600000) (hj : j.val = e.val) :
    kf_v30 (F := Ideal) sc d2 (ix1 j) = sc (ix1 e) := by
  unfold kf_v30
  exact concat_left' _ _ _ j e hj

/-- The extended weight list at a self-loop's position is the node's own weight. -/
theorem wext_right (sc : FVec Ideal (⟨1, ![1600000]⟩ : Shape) .f32) (d2 : FVec Ideal (⟨1, ![100000]⟩ : Shape) .f32)
    (j : Fin 1700000) (k : Fin 100000) (hj : j.val = 1600000 + k.val) :
    kf_v30 (F := Ideal) sc d2 (ix1 j) = d2 (ix1 k) := by
  unfold kf_v30
  exact concat_right' _ _ _ j k hj

/-! ## The kernel program's aggregation at an entry -/

/-- A scalar word broadcast to a vector reads the word. -/
theorem bcastI_apply {T : Shape} (h : (⟨0, ![]⟩ : Shape).BroadcastsInDim T ![]) (w : BitVec 32) (j : T.Idx) :
    broadcastInDim T ![] h (constantI (⟨0, ![]⟩ : Shape) 32 w) j = w :=
  broadcastInDim_scalar_apply h _ j

/-- The column of wrapped start indices at a row, from the word of the extended list there. -/
theorem widx_apply (x : IVec (⟨1, ![1700000]⟩ : Shape) 32) (j : Fin 1700000) :
    broadcastInDim Cert.KernelIdeal.S1700000x1 ![0] Cert.KernelIdeal.Facts₀.bcast_S1700000_S1700000x1_0
        (select (cmpi .slt x (broadcastInDim Cert.KernelIdeal.S1700000 ![] Cert.KernelIdeal.Facts₀.bcast_S_S1700000 (constantI Cert.KernelIdeal.S_ 32 0#32)))
          (addi x (broadcastInDim Cert.KernelIdeal.S1700000 ![] Cert.KernelIdeal.Facts₀.bcast_S_S1700000 (constantI Cert.KernelIdeal.S_ 32 100000#32))) x)
        (ix2 j (0 : Fin 1))
      = wrapW (x (ix1 j)) := by
  rw [bcast_col_apply]
  show Scalar.select (IntOp.cmpi .slt (x (ix1 j)) (broadcastInDim Cert.KernelIdeal.S1700000 ![] Cert.KernelIdeal.Facts₀.bcast_S_S1700000 (constantI Cert.KernelIdeal.S_ 32 0#32) (ix1 j)))
      (IntOp.addi (x (ix1 j)) (broadcastInDim Cert.KernelIdeal.S1700000 ![] Cert.KernelIdeal.Facts₀.bcast_S_S1700000 (constantI Cert.KernelIdeal.S_ 32 100000#32) (ix1 j))) (x (ix1 j)) = _
  rw [bcastI_apply, bcastI_apply]
  rfl

/-- A gather of rows over the extended list at (j, c), from the wrapped start index word at row j. -/
theorem gatherK_row (hw : FVec Ideal (⟨2, ![100000, 64]⟩ : Shape) .f32) (IDX : IVec (⟨2, ![1700000, 1]⟩ : Shape) 32)
    (j : Fin 1700000) (c : Fin 64) (v : BitVec 32) (hv : IDX (ix2 j (0 : Fin 1)) = wrapW v) :
    Host.gather (rowGather 100000 1700000 64 Cert.KernelIdeal.Facts₀.gather_S100000x64_S1700000x1_S1700000x64_1_0_n_n_0_1_164_wf) hw IDX (ix2 j c)
      = hw (ix2 (gRow v) c) := by
  show hw ((rowGather 100000 1700000 64 _).operandIdx (ix2 j c) IDX) = _
  rw [rowGather_operandIdx (by decide)]
  refine congrArg hw (funext fun a => ?_)
  match a with
  | ⟨0, _⟩ =>
    refine Fin.ext ?_
    show min (IDX (ix2 j (0 : Fin 1))).toInt.toNat (100000 - 1) = min (wrapW v).toInt.toNat (100000 - 1)
    rw [hv]
  | ⟨1, _⟩ => rfl

/-- The kernel program's aggregation over the extended edge list, at (n, c). -/
theorem aggK_apply (src dst : IVec (⟨1, ![1600000]⟩ : Shape) 32) (dinv : FVec Ideal (⟨1, ![100000]⟩ : Shape) .f32)
    (sc : FVec Ideal (⟨1, ![1600000]⟩ : Shape) .f32)
    (hw : FVec Ideal (⟨2, ![100000, 64]⟩ : Shape) .f32) (n : Fin 100000) (c : Fin 64) :
    kf_v48 (F := Ideal) (kf_v28 (F := Ideal) dst) hw (kf_v28 (F := Ideal) src)
        (kf_v30 (F := Ideal) sc (kf_v11 (F := Ideal) dinv)) (ix2 n c)
      = Ideal.ofBits .f32 0x00000000#32
        + ((∑ e : Fin 1600000, if (dst (ix1 e)).toInt = (n.val : ℤ)
              then hw (ix2 (gRow (src (ix1 e))) c) * sc (ix1 e) else 0)
           + hw (ix2 n c) * (dinv (ix1 n) * dinv (ix1 n))) := by
  unfold kf_v48
  rw [scatK_eq, gathK_eq]
  beta_reduce
  rw [Cert.LibReal.host_scatterAdd_apply, rowScatter_filter_sum]
  rw [sum_split (E := 1600000) (n := 100000) (T := 1700000) rfl]
  refine congrArg₂ (· + ·) ((broadcastInDim_scalar_apply _ _ _).trans rfl)
    (congrArg₂ (· + ·) (Finset.sum_congr rfl fun e _ => ?_) ?_)
  · rw [bcast_col_apply, ext_left dst _ e rfl]
    by_cases h : (dst (ix1 e)).toInt = (n.val : ℤ)
    · rw [if_pos h, if_pos h, mulf_apply, bcast_cols_apply, bcast_col_apply, wext_left sc _ _ e rfl]
      rw [gatherK_row hw _ _ c (src (ix1 e)) ((widx_apply _ _).trans (congrArg wrapW (ext_left src _ e rfl)))]
    · rw [if_neg h, if_neg h]
  · have term : ∀ k : Fin 100000,
        (if BitVec.toInt (broadcastInDim Cert.KernelIdeal.S1700000x1 ![0] Cert.KernelIdeal.Facts₀.bcast_S1700000_S1700000x1_0 (kf_v28 (F := Ideal) dst)
              (ix2 (⟨1600000 + k.val, by omega⟩ : Fin 1700000) (0 : Fin 1))) = (n.val : ℤ) then
            mulf
              (Host.gather (rowGather 100000 1700000 64 Cert.KernelIdeal.Facts₀.gather_S100000x64_S1700000x1_S1700000x64_1_0_n_n_0_1_164_wf) hw
                (broadcastInDim Cert.KernelIdeal.S1700000x1 ![0] Cert.KernelIdeal.Facts₀.bcast_S1700000_S1700000x1_0
                  (select
                    (cmpi .slt (kf_v28 (F := Ideal) src)
                      (broadcastInDim Cert.KernelIdeal.S1700000 ![] Cert.KernelIdeal.Facts₀.bcast_S_S1700000 (constantI Cert.KernelIdeal.S_ 32 0#32)))
                    (addi (kf_v28 (F := Ideal) src) (broadcastInDim Cert.KernelIdeal.S1700000 ![] Cert.KernelIdeal.Facts₀.bcast_S_S1700000 (constantI Cert.KernelIdeal.S_ 32 100000#32)))
                    (kf_v28 (F := Ideal) src))))
              (broadcastInDim Cert.KernelIdeal.S1700000x64 ![0, 1] Cert.KernelIdeal.Facts₀.bcast_S1700000x1_S1700000x64_0_1
                (broadcastInDim Cert.KernelIdeal.S1700000x1 ![0] Cert.KernelIdeal.Facts₀.bcast_S1700000_S1700000x1_0 (kf_v30 (F := Ideal) sc (kf_v11 (F := Ideal) dinv))))
              (ix2 (⟨1600000 + k.val, by omega⟩ : Fin 1700000) c)
          else 0)
        = if k = n then hw (ix2 k c) * (dinv (ix1 k) * dinv (ix1 k)) else 0 := fun k => by
      rw [bcast_col_apply, ext_right dst _ k rfl, toInt_ofNat_lt k.val (by have := k.isLt; omega)]
      by_cases hk : k = n
      · rw [if_pos (by rw [hk]), if_pos hk, mulf_apply, bcast_cols_apply, bcast_col_apply, wext_right sc _ _ k rfl,
          gatherK_row hw _ _ c (BitVec.ofNat 32 k.val) ((widx_apply _ _).trans (congrArg wrapW (ext_right src _ k rfl))),
          gRow_ofNat]
        rfl
      · rw [if_neg (fun h => hk (Fin.ext (by exact_mod_cast h))), if_neg hk]
    rw [Finset.sum_congr rfl fun k _ => term k, Finset.sum_ite_eq' Finset.univ n]
    simp

end Cert.Bridge

end
-- ==== Proof.AggLawR.lean ====
/-
  THE REFERENCE'S AGGREGATION AT AN ENTRY: the operand's zero plus the sum over the edges landing on the node of the gathered row's entry times the edge's weight.
-/
import proofs.«109724_j81406810128840_1_alg».proof.Proof.AggLaw

set_option maxHeartbeats 1000000

noncomputable section

namespace Cert.Bridge

open Idealize.ShloMosaic Idealize.ShloMosaic.ValueIdx
open Cert.KernelIdeal.KChain Cert.ReferenceIdeal.RefRun
open Cert.LibScatterRows Cert.LibHostRead Cert.LibGatherScatter

/-! ## The reference's aggregation at an entry -/

/-- The reference's column of wrapped source indices at a row, from the source word there. -/
theorem ridx_apply (a1 : IVec Cert.ReferenceIdeal.S2x1600000 32) (e : Fin 1600000) :
    res_srcIdx a1 (ix2 e (0 : Fin 1)) = wrapW (res_src a1 (ix1 e)) := by
  unfold res_srcIdx
  rw [bcast_col_apply]
  show Scalar.select (IntOp.cmpi .slt (res_src a1 (ix1 e)) (broadcastInDim Cert.ReferenceIdeal.S1600000 ![] Cert.ReferenceIdeal.Facts₀.bcast_S_S1600000 (constantI Cert.ReferenceIdeal.S_ 32 0#32) (ix1 e)))
      (IntOp.addi (res_src a1 (ix1 e)) (broadcastInDim Cert.ReferenceIdeal.S1600000 ![] Cert.ReferenceIdeal.Facts₀.bcast_S_S1600000 (constantI Cert.ReferenceIdeal.S_ 32 100000#32) (ix1 e))) (res_src a1 (ix1 e)) = _
  rw [bcastI_apply, bcastI_apply]
  rfl

/-- A gather of rows over the edge list at (e, c), from the wrapped start index word at row e. -/
theorem gatherR_row (hw : FVec Ideal (⟨2, ![100000, 64]⟩ : Shape) .f32) (IDX : IVec (⟨2, ![1600000, 1]⟩ : Shape) 32)
    (e : Fin 1600000) (c : Fin 64) (v : BitVec 32) (hv : IDX (ix2 e (0 : Fin 1)) = wrapW v) :
    Host.gather (rowGather 100000 1600000 64 Cert.ReferenceIdeal.Facts₀.gather_S100000x64_S1600000x1_S1600000x64_1_0_n_n_0_1_164_wf) hw IDX (ix2 e c)
      = hw (ix2 (gRow v) c) := by
  show hw ((rowGather 100000 1600000 64 _).operandIdx (ix2 e c) IDX) = _
  rw [rowGather_operandIdx (by decide)]
  refine congrArg hw (funext fun a => ?_)
  match a with
  | ⟨0, _⟩ =>
    refine Fin.ext ?_
    show min (IDX (ix2 e (0 : Fin 1))).toInt.toNat (100000 - 1) = min (wrapW v).toInt.toNat (100000 - 1)
    rw [hv]
  | ⟨1, _⟩ => rfl

/-- The reference's aggregation over the edge list, at (n, c). -/
theorem aggR_apply (a1 : IVec Cert.ReferenceIdeal.S2x1600000 32) (hw : FVec Ideal (⟨2, ![100000, 64]⟩ : Shape) .f32)
    (n : Fin 100000) (c : Fin 64) :
    lay_agg (F := Ideal) a1 hw (ix2 n c)
      = Ideal.ofBits .f32 0x00000000#32
        + ∑ e : Fin 1600000, if (res_dst a1 (ix1 e)).toInt = (n.val : ℤ)
            then hw (ix2 (gRow (res_src a1 (ix1 e))) c)
              * kf_v27 (F := Ideal) (res_dinv (F := Ideal) a1) (res_src a1) (res_dst a1) (ix1 e) else 0 := by
  unfold lay_agg
  rw [scatR_eq, gathR_eq, Cert.LibReal.host_scatterAdd_apply, rowScatter_filter_sum]
  refine congrArg₂ (· + ·) ((broadcastInDim_scalar_apply _ _ _).trans rfl) (Finset.sum_congr rfl fun e _ => ?_)
  have hd : res_dstCol a1 (ix2 e (0 : Fin 1)) = res_dst a1 (ix1 e) := by
    unfold res_dstCol
    rw [bcast_col_apply]
  rw [hd]
  by_cases h : (res_dst a1 (ix1 e)).toInt = (n.val : ℤ)
  · rw [if_pos h, if_pos h, mulf_apply, ← coef_eq a1, bcast_cols_apply, bcast_col_apply,
      gatherR_row hw _ e c (res_src a1 (ix1 e)) (ridx_apply a1 e)]
  · rw [if_neg h, if_neg h]

end Cert.Bridge

end
-- ==== Proof.AggLawMain.lean ====
/-
  THE TWO AGGREGATIONS AGREE: entry by entry both are 0 + the sum over the edges landing on n + hw[n, c] · dinv n · dinv n; associativity of + joins the two groupings.
-/
import proofs.«109724_j81406810128840_1_alg».proof.Proof.AggLaw
import proofs.«109724_j81406810128840_1_alg».proof.Proof.AggLawR

set_option maxHeartbeats 1000000

noncomputable section

namespace Cert.Bridge

open Idealize.ShloMosaic Idealize.ShloMosaic.ValueIdx
open Cert.KernelIdeal.KChain Cert.ReferenceIdeal.RefRun
open Cert.LibScatterRows Cert.LibHostRead Cert.LibGatherScatter

/-! ## The two aggregations agree -/

/-- The scatter-add over the edge list extended by the self-loops is the scatter-add over the edges plus the self
    term: at every entry both are  0 + Σ over the edges landing on n + hw[n, c] · dinv n · dinv n. -/
theorem agg_law (a1 : IVec Cert.ReferenceIdeal.S2x1600000 32) (hw : FVec Ideal Cert.ReferenceIdeal.S100000x64 .f32) :
    kf_v48 (F := Ideal) (kf_v28 (F := Ideal) (res_dst a1)) hw (kf_v28 (F := Ideal) (res_src a1))
        (kf_v30 (F := Ideal) (kf_v27 (F := Ideal) (res_dinv (F := Ideal) a1) (res_src a1) (res_dst a1))
          (kf_v11 (F := Ideal) (res_dinv (F := Ideal) a1)))
      = addf (lay_agg (F := Ideal) a1 hw) (mulf hw (res_self (F := Ideal) a1)) := by
  funext i
  obtain ⟨n, c, rfl⟩ : ∃ (n : Fin 100000) (c : Fin 64), i = ix2 n c := ⟨i 0, i 1, eq_ix2 i⟩
  have hself : ∀ x : FVec Ideal (⟨1, ![100000]⟩ : Shape) .f32, kf_v11 (F := Ideal) x (ix1 n) = x (ix1 n) * x (ix1 n) := fun _ => rfl
  rw [aggK_apply, addf_apply, aggR_apply, mulf_apply, ← self_eq a1, bcast_cols_apply, bcast_col_apply, hself, add_assoc]

end Cert.Bridge

end
-- ==== Proof.Final.lean ====
/-
The certificate's claim, closed.

Two facts complete the assembly. The idealized kernel's result buffer, after its run, is the kernel's own whole-array
function of the thirteen argument arrays as launched. And that function equals the reference's term of the same arrays
whenever the float arguments the layers read have real entries: the dense layers, the normalisation and the pooling are
the same functions on both sides, and the one regrouping between them — the kernel sums, into each target node, over the
edge list extended by one self-loop per node, where the reference sums over the edges and adds the self-loop term after —
is associativity of addition on the extended reals, which needs no finiteness.
-/
import proofs.«109724_j81406810128840_1_alg».proof.Proof.Assemble
import proofs.«109724_j81406810128840_1_alg».proof.Proof.KVal
import proofs.«109724_j81406810128840_1_alg».proof.Proof.BrSBridge
import proofs.«109724_j81406810128840_1_alg».proof.Proof.AggLawMain

noncomputable section

namespace Cert.Proof.Parts

/-- Every claim of the certificate holds. -/
theorem claim_final : Cert.Claim :=
  claim_of (fun m ρ c => Cert.KernelIdeal.KVal.result m ρ c)
    (fun A h0 h3 h4 h5 h6 h7 h8 =>
      Cert.Bridge.bridge_of_agg (fun a1 hw => Cert.Bridge.agg_law a1 hw) A h0 h3 h4 h5 h6 h7 h8)

end Cert.Proof.Parts

end
-- ==== Proof.lean ====
/-
  A four-layer graph convolution network over 100000 nodes and 1600000 directed edges, pooled per graph and read out
  by a two-layer head: the tiled kernel program against the plain reference, at the exact instance.

  Both programs compute, for node features h,
      h0 = x · w_embed + b_embed,
      per layer:  hw = h · W ;  conv = (sum into each target node of hw[source] · dinv[source] · dinv[target])
                                        + hw · dinv² + bias ;
                  h' = max ((conv − mean) · rsqrt (var + eps) · gamma + beta, 0) + h,
      pooled = per-graph sums of h4 / max (per-graph count, 1),  out = max (pooled · w1 + b1, 0) · w2 + b2,
  with dinv = rsqrt (1 + in-degree), mean and var the column mean and biased column variance of conv.

  They differ in three ways, none of which changes the value over the extended reals when the float inputs are finite:
  * the dense products are a matrix unit's products of 5000-row blocks into a zero accumulator on one side and one host
    contraction on the other: the same sums over the contracted axis;
  * the kernel program appends one self-loop per node to the edge list and makes a single scatter-add, where the
    reference adds the self term hw · dinv² after the scatter-add over the edges: the range of the extended list
    splits into edges and self-loops, and exactly the n-th self-loop lands on node n (associativity of +);
  * the kernel program accumulates column sums and sums of squares over the twenty row blocks and forms
    var = sumsq / N − mean², where the reference forms the mean of the squared deviations: equal for real entries
    (the only place finiteness is used), and the entries stay real layer after layer: sums and products of reals,
    a reciprocal root of 1 + a count, a reciprocal root of a non-negative variance plus a positive eps.

  The frames of the two kernel programs are the generated ones; the reference's frame is its run, read back
  operation by operation, with the result dropped; the idealized kernel program's result is read off the same
  launch argument as its frame, buffer by buffer in order of definition.
-/
import proofs.«109724_j81406810128840_1_alg».proof.Proof.Final

noncomputable section

namespace Cert.Proof

theorem claim : Cert.Claim := Cert.Proof.Parts.claim_final

end Cert.Proof

end
